-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v143)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v143) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v545) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x300x256x256 : Shape := ⟨4, ![2, 300, 256, 256]⟩
abbrev S2x300x4 : Shape := ⟨3, ![2, 300, 4]⟩
abbrev S2x12544x2 : Shape := ⟨3, ![2, 12544, 2]⟩
abbrev S_ : Shape := ⟨0, ![]⟩

class Facts : Prop where
  bcast_S_S2x300x256x256 : S_.BroadcastsInDim S2x300x256x256 (![] : Fin 0 → Fin S2x300x256x256.rank)
  reducesTo_S2x300x256x256_S_d0_1_2_3 : S2x300x256x256.ReducesTo [0, 1, 2, 3] S_
  h_S_ : 0 < S_.numel
  bcast_S_S2x300x4 : S_.BroadcastsInDim S2x300x4 (![] : Fin 0 → Fin S2x300x4.rank)
  reducesTo_S2x300x4_S_d0_1_2 : S2x300x4.ReducesTo [0, 1, 2] S_
  bcast_S_S2x12544x2 : S_.BroadcastsInDim S2x12544x2 (![] : Fin 0 → Fin S2x12544x2.rank)
  reducesTo_S2x12544x2_S_d0_1_2 : S2x12544x2.ReducesTo [0, 1, 2] S_

variable [Facts]

def fn_part1 {F : FTy → Type} [FloatOps F] (main_arg4 : FVec F S2x12544x2 .f32) (main_v13 : IVec S_ 1) (main_v16 : IVec S2x300x4 1) : IVec S_ 1 :=
  let main_c_5 : IVec S_ 1 := constantI S_ 1 1#1
  let main_v17 : IVec S_ 1 := (fun x v => Host.reduce IntOp.andi x v reducesTo_S2x300x4_S_d0_1_2 h_S_) main_v16 main_c_5
  let main_v18 : IVec S_ 1 := andi main_v13 main_v17
  let main_v19 : FVec F S2x12544x2 .f32 := Host.absf main_arg4
  let main_cst_6 : FVec F S_ .f32 := constant S_ .f32 0x7F800000#32
  let main_v20 : FVec F S2x12544x2 .f32 := broadcastInDim S2x12544x2 ![] bcast_S_S2x12544x2 main_cst_6
  let main_v21 : IVec S2x12544x2 1 := cmpf .olt main_v19 main_v20
  let main_c_7 : IVec S_ 1 := constantI S_ 1 1#1
  let main_v22 : IVec S_ 1 := (fun x v => Host.reduce IntOp.andi x v reducesTo_S2x12544x2_S_d0_1_2 h_S_) main_v21 main_c_7
  let main_v23 : IVec S_ 1 := andi main_v18 main_v22
  main_v23

def fn {F : FTy → Type} [FloatOps F] (main_arg0 : FVec F S2x300x256x256 .f32) (main_arg1 : FVec F S2x300x256x256 .f32) (main_arg2 : FVec F S2x300x4 .f32) (main_arg3 : FVec F S2x300x4 .f32) (main_arg4 : FVec F S2x12544x2 .f32) : IVec S_ 1 :=
  let main_v0 : FVec F S2x300x256x256 .f32 := Host.absf main_arg0
  let main_cst : FVec F S_ .f32 := constant S_ .f32 0x7F800000#32
  let main_v1 : FVec F S2x300x256x256 .f32 := broadcastInDim S2x300x256x256 ![] bcast_S_S2x300x256x256 main_cst
  let main_v2 : IVec S2x300x256x256 1 := cmpf .olt main_v0 main_v1
  let main_c : IVec S_ 1 := constantI S_ 1 1#1
  let main_v3 : IVec S_ 1 := (fun x v => Host.reduce IntOp.andi x v reducesTo_S2x300x256x256_S_d0_1_2_3 h_S_) main_v2 main_c
  let main_v4 : FVec F S2x300x256x256 .f32 := Host.absf main_arg1
  let main_cst_0 : FVec F S_ .f32 := constant S_ .f32 0x7F800000#32
  let main_v5 : FVec F S2x300x256x256 .f32 := broadcastInDim S2x300x256x256 ![] bcast_S_S2x300x256x256 main_cst_0
  let main_v6 : IVec S2x300x256x256 1 := cmpf .olt main_v4 main_v5
  let main_c_1 : IVec S_ 1 := constantI S_ 1 1#1
  let main_v7 : IVec S_ 1 := (fun x v => Host.reduce IntOp.andi x v reducesTo_S2x300x256x256_S_d0_1_2_3 h_S_) main_v6 main_c_1
  let main_v8 : IVec S_ 1 := andi main_v3 main_v7
  let main_v9 : FVec F S2x300x4 .f32 := Host.absf main_arg2
  let main_cst_2 : FVec F S_ .f32 := constant S_ .f32 0x7F800000#32
  let main_v10 : FVec F S2x300x4 .f32 := broadcastInDim S2x300x4 ![] bcast_S_S2x300x4 main_cst_2
  let main_v11 : IVec S2x300x4 1 := cmpf .olt main_v9 main_v10
  let main_c_3 : IVec S_ 1 := constantI S_ 1 1#1
  let main_v12 : IVec S_ 1 := (fun x v => Host.reduce IntOp.andi x v reducesTo_S2x300x4_S_d0_1_2 h_S_) main_v11 main_c_3
  let main_v13 : IVec S_ 1 := andi main_v8 main_v12
  let main_v14 : FVec F S2x300x4 .f32 := Host.absf main_arg3
  let main_cst_4 : FVec F S_ .f32 := constant S_ .f32 0x7F800000#32
  let main_v15 : FVec F S2x300x4 .f32 := broadcastInDim S2x300x4 ![] bcast_S_S2x300x4 main_cst_4
  let main_v16 : IVec S2x300x4 1 := cmpf .olt main_v14 main_v15
  fn_part1 (F := F) main_arg4 main_v13 main_v16
-- ==== Kernel.lean ====
abbrev S2x300x256x256 : Shape := ⟨4, ![2, 300, 256, 256]⟩
abbrev S2x300x4 : Shape := ⟨3, ![2, 300, 4]⟩
abbrev S2x12544x2 : Shape := ⟨3, ![2, 12544, 2]⟩
abbrev S2x600x256x256 : Shape := ⟨4, ![2, 600, 256, 256]⟩
abbrev S2x600x65536 : Shape := ⟨3, ![2, 600, 65536]⟩
abbrev S2x65536x600 : Shape := ⟨3, ![2, 65536, 600]⟩
abbrev S2x12544x1 : Shape := ⟨3, ![2, 12544, 1]⟩
abbrev S2x12544 : Shape := ⟨2, ![2, 12544]⟩
abbrev S_ : Shape := ⟨0, ![]⟩
abbrev S1 : Shape := ⟨1, ![1]⟩
abbrev S1x1x1 : Shape := ⟨3, ![1, 1, 1]⟩
abbrev S2x12544x600 : Shape := ⟨3, ![2, 12544, 600]⟩
abbrev S2x600x12544 : Shape := ⟨3, ![2, 600, 12544]⟩
abbrev S2x300x12544 : Shape := ⟨3, ![2, 300, 12544]⟩
abbrev S2x300x300 : Shape := ⟨3, ![2, 300, 300]⟩
abbrev S1x300x4 : Shape := ⟨3, ![1, 300, 4]⟩
abbrev S1x300x1792 : Shape := ⟨3, ![1, 300, 1792]⟩
abbrev S1x300x300 : Shape := ⟨3, ![1, 300, 300]⟩
abbrev S300x300 : Shape := ⟨2, ![300, 300]⟩
abbrev S300x1 : Shape := ⟨2, ![300, 1]⟩
abbrev S300x1792 : Shape := ⟨2, ![300, 1792]⟩
abbrev S300 : Shape := ⟨1, ![300]⟩
abbrev S1x300 : Shape := ⟨2, ![1, 300]⟩
abbrev S300x4 : Shape := ⟨2, ![300, 4]⟩

abbrev nBuf : Space → Nat
  | .hbm => 325
  | .vmem => 15
  | .smem => 0
  | _ => 0

abbrev hbmTy0_0 (i : Nat) : BufTy := match i % 128 with
  | 0 => ⟨S2x300x256x256, .f32⟩
  | 1 => ⟨S2x300x256x256, .f32⟩
  | 2 => ⟨S2x300x4, .f32⟩
  | 3 => ⟨S2x300x4, .f32⟩
  | 4 => ⟨S2x12544x2, .f32⟩
  | 5 => ⟨S2x600x256x256, .f32⟩
  | 6 => ⟨S2x600x65536, .f32⟩
  | 7 => ⟨S2x65536x600, .f32⟩
  | 8 => ⟨S2x12544x1, .f32⟩
  | 9 => ⟨S2x12544, .f32⟩
  | 10 => ⟨S_, .f32⟩
  | 11 => ⟨S2x12544, .f32⟩
  | 12 => ⟨S2x12544, .f32⟩
  | 13 => ⟨S_, .f32⟩
  | 14 => ⟨S2x12544, .f32⟩
  | 15 => ⟨S2x12544, .f32⟩
  | 16 => ⟨S2x12544x1, .f32⟩
  | 17 => ⟨S2x12544, .f32⟩
  | 18 => ⟨S_, .f32⟩
  | 19 => ⟨S2x12544, .f32⟩
  | 20 => ⟨S2x12544, .f32⟩
  | 21 => ⟨S_, .f32⟩
  | 22 => ⟨S2x12544, .f32⟩
  | 23 => ⟨S2x12544, .f32⟩
  | 24 => ⟨S2x12544, .f32⟩
  | 25 => ⟨S2x12544, .f32⟩
  | 26 => ⟨S2x12544, .f32⟩
  | 27 => ⟨S2x12544, .f32⟩
  | 28 => ⟨S2x12544, .i32⟩
  | 29 => ⟨S2x12544, .i32⟩
  | 30 => ⟨S_, .i32⟩
  | 31 => ⟨S2x12544, .i32⟩
  | 32 => ⟨S2x12544, .i1⟩
  | 33 => ⟨S_, .i32⟩
  | 34 => ⟨S2x12544, .i32⟩
  | 35 => ⟨S2x12544, .i1⟩
  | 36 => ⟨S2x12544, .i1⟩
  | 37 => ⟨S_, .i32⟩
  | 38 => ⟨S2x12544, .i32⟩
  | 39 => ⟨S2x12544, .i1⟩
  | 40 => ⟨S2x12544, .i1⟩
  | 41 => ⟨S_, .i32⟩
  | 42 => ⟨S2x12544, .i32⟩
  | 43 => ⟨S2x12544, .i1⟩
  | 44 => ⟨S2x12544, .i1⟩
  | 45 => ⟨S2x12544, .f32⟩
  | 46 => ⟨S_, .i32⟩
  | 47 => ⟨S_, .i32⟩
  | 48 => ⟨S_, .i32⟩
  | 49 => ⟨S2x12544, .i32⟩
  | 50 => ⟨S2x12544, .i32⟩
  | 51 => ⟨S_, .i32⟩
  | 52 => ⟨S2x12544, .i32⟩
  | 53 => ⟨S2x12544, .i32⟩
  | 54 => ⟨S_, .i32⟩
  | 55 => ⟨S_, .i32⟩
  | 56 => ⟨S_, .i32⟩
  | 57 => ⟨S2x12544, .i32⟩
  | 58 => ⟨S2x12544, .i32⟩
  | 59 => ⟨S_, .i32⟩
  | 60 => ⟨S2x12544, .i32⟩
  | 61 => ⟨S2x12544, .i32⟩
  | 62 => ⟨S_, .i32⟩
  | 63 => ⟨S2x12544, .i32⟩
  | 64 => ⟨S2x12544, .i32⟩
  | 65 => ⟨S2x12544, .i32⟩
  | 66 => ⟨S_, .i32⟩
  | 67 => ⟨S2x12544, .i32⟩
  | 68 => ⟨S2x12544, .i1⟩
  | 69 => ⟨S_, .i32⟩
  | 70 => ⟨S2x12544, .i32⟩
  | 71 => ⟨S2x12544, .i32⟩
  | 72 => ⟨S2x12544, .i32⟩
  | 73 => ⟨S2x12544x1, .i32⟩
  | 74 => ⟨S1, .i32⟩
  | 75 => ⟨S_, .i32⟩
  | 76 => ⟨S2x12544x1, .i32⟩
  | 77 => ⟨S2x12544x1, .i1⟩
  | 78 => ⟨S1x1x1, .i32⟩
  | 79 => ⟨S2x12544x1, .i32⟩
  | 80 => ⟨S2x12544x1, .i1⟩
  | 81 => ⟨S2x12544x1, .i1⟩
  | 82 => ⟨S_, .i1⟩
  | 83 => ⟨S2x12544, .i1⟩
  | 84 => ⟨S2x12544x600, .f32⟩
  | 85 => ⟨S2x12544x600, .i1⟩
  | 86 => ⟨S_, .f32⟩
  | 87 => ⟨S2x12544x600, .f32⟩
  | 88 => ⟨S2x12544x600, .f32⟩
  | 89 => ⟨S2x12544x1, .f32⟩
  | 90 => ⟨S2x12544x600, .f32⟩
  | 91 => ⟨S2x12544x600, .f32⟩
  | 92 => ⟨S_, .i32⟩
  | 93 => ⟨S2x12544, .i32⟩
  | 94 => ⟨S2x12544, .i32⟩
  | 95 => ⟨S_, .i32⟩
  | 96 => ⟨S2x12544, .i32⟩
  | 97 => ⟨S2x12544, .i1⟩
  | 98 => ⟨S_, .i32⟩
  | 99 => ⟨S2x12544, .i32⟩
  | 100 => ⟨S2x12544, .i1⟩
  | 101 => ⟨S2x12544, .i1⟩
  | 102 => ⟨S_, .i32⟩
  | 103 => ⟨S2x12544, .i32⟩
  | 104 => ⟨S2x12544, .i1⟩
  | 105 => ⟨S2x12544, .i1⟩
  | 106 => ⟨S_, .i32⟩
  | 107 => ⟨S2x12544, .i32⟩
  | 108 => ⟨S2x12544, .i1⟩
  | 109 => ⟨S2x12544, .i1⟩
  | 110 => ⟨S2x12544, .f32⟩
  | 111 => ⟨S_, .i32⟩
  | 112 => ⟨S_, .i32⟩
  | 113 => ⟨S_, .i32⟩
  | 114 => ⟨S2x12544, .i32⟩
  | 115 => ⟨S2x12544, .i32⟩
  | 116 => ⟨S_, .i32⟩
  | 117 => ⟨S2x12544, .i32⟩
  | 118 => ⟨S2x12544, .i32⟩
  | 119 => ⟨S_, .i32⟩
  | 120 => ⟨S_, .i32⟩
  | 121 => ⟨S_, .i32⟩
  | 122 => ⟨S2x12544, .i32⟩
  | 123 => ⟨S2x12544, .i32⟩
  | 124 => ⟨S_, .i32⟩
  | 125 => ⟨S2x12544, .i32⟩
  | 126 => ⟨S2x12544, .i32⟩
  | 127 => ⟨S_, .i32⟩
  | _ => ⟨S2x300x256x256, .f32⟩

abbrev hbmTy0_1 (i : Nat) : BufTy := match i % 128 with
  | 0 => ⟨S2x12544, .i32⟩
  | 1 => ⟨S2x12544, .i32⟩
  | 2 => ⟨S2x12544, .i32⟩
  | 3 => ⟨S_, .i32⟩
  | 4 => ⟨S2x12544, .i32⟩
  | 5 => ⟨S2x12544, .i1⟩
  | 6 => ⟨S_, .i32⟩
  | 7 => ⟨S2x12544, .i32⟩
  | 8 => ⟨S2x12544, .i32⟩
  | 9 => ⟨S2x12544, .i32⟩
  | 10 => ⟨S2x12544x1, .i32⟩
  | 11 => ⟨S1, .i32⟩
  | 12 => ⟨S_, .i32⟩
  | 13 => ⟨S2x12544x1, .i32⟩
  | 14 => ⟨S2x12544x1, .i1⟩
  | 15 => ⟨S1x1x1, .i32⟩
  | 16 => ⟨S2x12544x1, .i32⟩
  | 17 => ⟨S2x12544x1, .i1⟩
  | 18 => ⟨S2x12544x1, .i1⟩
  | 19 => ⟨S_, .i1⟩
  | 20 => ⟨S2x12544, .i1⟩
  | 21 => ⟨S2x12544x600, .f32⟩
  | 22 => ⟨S2x12544x600, .i1⟩
  | 23 => ⟨S_, .f32⟩
  | 24 => ⟨S2x12544x600, .f32⟩
  | 25 => ⟨S2x12544x600, .f32⟩
  | 26 => ⟨S2x12544x1, .f32⟩
  | 27 => ⟨S2x12544x600, .f32⟩
  | 28 => ⟨S2x12544x600, .f32⟩
  | 29 => ⟨S_, .i32⟩
  | 30 => ⟨S2x12544, .i32⟩
  | 31 => ⟨S2x12544, .i32⟩
  | 32 => ⟨S_, .i32⟩
  | 33 => ⟨S2x12544, .i32⟩
  | 34 => ⟨S2x12544, .i1⟩
  | 35 => ⟨S_, .i32⟩
  | 36 => ⟨S2x12544, .i32⟩
  | 37 => ⟨S2x12544, .i1⟩
  | 38 => ⟨S2x12544, .i1⟩
  | 39 => ⟨S_, .i32⟩
  | 40 => ⟨S2x12544, .i32⟩
  | 41 => ⟨S2x12544, .i1⟩
  | 42 => ⟨S2x12544, .i1⟩
  | 43 => ⟨S_, .i32⟩
  | 44 => ⟨S2x12544, .i32⟩
  | 45 => ⟨S2x12544, .i1⟩
  | 46 => ⟨S2x12544, .i1⟩
  | 47 => ⟨S2x12544, .f32⟩
  | 48 => ⟨S_, .i32⟩
  | 49 => ⟨S_, .i32⟩
  | 50 => ⟨S_, .i32⟩
  | 51 => ⟨S2x12544, .i32⟩
  | 52 => ⟨S2x12544, .i32⟩
  | 53 => ⟨S_, .i32⟩
  | 54 => ⟨S2x12544, .i32⟩
  | 55 => ⟨S2x12544, .i32⟩
  | 56 => ⟨S_, .i32⟩
  | 57 => ⟨S_, .i32⟩
  | 58 => ⟨S_, .i32⟩
  | 59 => ⟨S2x12544, .i32⟩
  | 60 => ⟨S2x12544, .i32⟩
  | 61 => ⟨S_, .i32⟩
  | 62 => ⟨S2x12544, .i32⟩
  | 63 => ⟨S2x12544, .i32⟩
  | 64 => ⟨S_, .i32⟩
  | 65 => ⟨S2x12544, .i32⟩
  | 66 => ⟨S2x12544, .i32⟩
  | 67 => ⟨S2x12544, .i32⟩
  | 68 => ⟨S_, .i32⟩
  | 69 => ⟨S2x12544, .i32⟩
  | 70 => ⟨S2x12544, .i1⟩
  | 71 => ⟨S_, .i32⟩
  | 72 => ⟨S2x12544, .i32⟩
  | 73 => ⟨S2x12544, .i32⟩
  | 74 => ⟨S2x12544, .i32⟩
  | 75 => ⟨S2x12544x1, .i32⟩
  | 76 => ⟨S1, .i32⟩
  | 77 => ⟨S_, .i32⟩
  | 78 => ⟨S2x12544x1, .i32⟩
  | 79 => ⟨S2x12544x1, .i1⟩
  | 80 => ⟨S1x1x1, .i32⟩
  | 81 => ⟨S2x12544x1, .i32⟩
  | 82 => ⟨S2x12544x1, .i1⟩
  | 83 => ⟨S2x12544x1, .i1⟩
  | 84 => ⟨S_, .i1⟩
  | 85 => ⟨S2x12544, .i1⟩
  | 86 => ⟨S2x12544x600, .f32⟩
  | 87 => ⟨S2x12544x600, .i1⟩
  | 88 => ⟨S_, .f32⟩
  | 89 => ⟨S2x12544x600, .f32⟩
  | 90 => ⟨S2x12544x600, .f32⟩
  | 91 => ⟨S2x12544x1, .f32⟩
  | 92 => ⟨S2x12544x600, .f32⟩
  | 93 => ⟨S2x12544x600, .f32⟩
  | 94 => ⟨S_, .i32⟩
  | 95 => ⟨S2x12544, .i32⟩
  | 96 => ⟨S2x12544, .i32⟩
  | 97 => ⟨S_, .i32⟩
  | 98 => ⟨S2x12544, .i32⟩
  | 99 => ⟨S2x12544, .i32⟩
  | 100 => ⟨S_, .i32⟩
  | 101 => ⟨S2x12544, .i32⟩
  | 102 => ⟨S2x12544, .i1⟩
  | 103 => ⟨S_, .i32⟩
  | 104 => ⟨S2x12544, .i32⟩
  | 105 => ⟨S2x12544, .i1⟩
  | 106 => ⟨S2x12544, .i1⟩
  | 107 => ⟨S_, .i32⟩
  | 108 => ⟨S2x12544, .i32⟩
  | 109 => ⟨S2x12544, .i1⟩
  | 110 => ⟨S2x12544, .i1⟩
  | 111 => ⟨S_, .i32⟩
  | 112 => ⟨S2x12544, .i32⟩
  | 113 => ⟨S2x12544, .i1⟩
  | 114 => ⟨S2x12544, .i1⟩
  | 115 => ⟨S2x12544, .f32⟩
  | 116 => ⟨S_, .i32⟩
  | 117 => ⟨S_, .i32⟩
  | 118 => ⟨S_, .i32⟩
  | 119 => ⟨S2x12544, .i32⟩
  | 120 => ⟨S2x12544, .i32⟩
  | 121 => ⟨S_, .i32⟩
  | 122 => ⟨S2x12544, .i32⟩
  | 123 => ⟨S2x12544, .i32⟩
  | 124 => ⟨S_, .i32⟩
  | 125 => ⟨S_, .i32⟩
  | 126 => ⟨S_, .i32⟩
  | 127 => ⟨S2x12544, .i32⟩
  | _ => ⟨S2x300x256x256, .f32⟩

abbrev hbmTy0_2 (i : Nat) : BufTy := match i % 128 with
  | 0 => ⟨S2x12544, .i32⟩
  | 1 => ⟨S_, .i32⟩
  | 2 => ⟨S2x12544, .i32⟩
  | 3 => ⟨S2x12544, .i32⟩
  | 4 => ⟨S_, .i32⟩
  | 5 => ⟨S2x12544, .i32⟩
  | 6 => ⟨S2x12544, .i32⟩
  | 7 => ⟨S2x12544, .i32⟩
  | 8 => ⟨S_, .i32⟩
  | 9 => ⟨S2x12544, .i32⟩
  | 10 => ⟨S2x12544, .i1⟩
  | 11 => ⟨S_, .i32⟩
  | 12 => ⟨S2x12544, .i32⟩
  | 13 => ⟨S2x12544, .i32⟩
  | 14 => ⟨S2x12544, .i32⟩
  | 15 => ⟨S2x12544x1, .i32⟩
  | 16 => ⟨S1, .i32⟩
  | 17 => ⟨S_, .i32⟩
  | 18 => ⟨S2x12544x1, .i32⟩
  | 19 => ⟨S2x12544x1, .i1⟩
  | 20 => ⟨S1x1x1, .i32⟩
  | 21 => ⟨S2x12544x1, .i32⟩
  | 22 => ⟨S2x12544x1, .i1⟩
  | 23 => ⟨S2x12544x1, .i1⟩
  | 24 => ⟨S_, .i1⟩
  | 25 => ⟨S2x12544, .i1⟩
  | 26 => ⟨S2x12544x600, .f32⟩
  | 27 => ⟨S2x12544x600, .i1⟩
  | 28 => ⟨S_, .f32⟩
  | 29 => ⟨S2x12544x600, .f32⟩
  | 30 => ⟨S2x12544x600, .f32⟩
  | 31 => ⟨S2x12544x1, .f32⟩
  | 32 => ⟨S2x12544x600, .f32⟩
  | 33 => ⟨S2x12544x600, .f32⟩
  | 34 => ⟨S_, .f32⟩
  | 35 => ⟨S2x12544, .f32⟩
  | 36 => ⟨S2x12544, .f32⟩
  | 37 => ⟨S_, .f32⟩
  | 38 => ⟨S2x12544, .f32⟩
  | 39 => ⟨S2x12544, .f32⟩
  | 40 => ⟨S2x12544, .f32⟩
  | 41 => ⟨S2x12544x1, .f32⟩
  | 42 => ⟨S2x12544x600, .f32⟩
  | 43 => ⟨S2x12544x600, .f32⟩
  | 44 => ⟨S_, .f32⟩
  | 45 => ⟨S2x12544, .f32⟩
  | 46 => ⟨S2x12544, .f32⟩
  | 47 => ⟨S2x12544, .f32⟩
  | 48 => ⟨S2x12544x1, .f32⟩
  | 49 => ⟨S2x12544x600, .f32⟩
  | 50 => ⟨S2x12544x600, .f32⟩
  | 51 => ⟨S2x12544x600, .f32⟩
  | 52 => ⟨S_, .f32⟩
  | 53 => ⟨S2x12544, .f32⟩
  | 54 => ⟨S2x12544, .f32⟩
  | 55 => ⟨S2x12544, .f32⟩
  | 56 => ⟨S2x12544x1, .f32⟩
  | 57 => ⟨S2x12544x600, .f32⟩
  | 58 => ⟨S2x12544x600, .f32⟩
  | 59 => ⟨S2x12544x600, .f32⟩
  | 60 => ⟨S2x12544, .f32⟩
  | 61 => ⟨S2x12544x1, .f32⟩
  | 62 => ⟨S2x12544x600, .f32⟩
  | 63 => ⟨S2x12544x600, .f32⟩
  | 64 => ⟨S2x12544x600, .f32⟩
  | 65 => ⟨S2x600x12544, .f32⟩
  | 66 => ⟨S2x300x12544, .f32⟩
  | 67 => ⟨S2x300x12544, .f32⟩
  | 68 => ⟨S2x300x300, .f32⟩
  | _ => ⟨S2x300x256x256, .f32⟩

abbrev hbmTy (i : Nat) : BufTy := match i / 128 with
  | 0 => hbmTy0_0 i
  | 1 => hbmTy0_1 i
  | 2 => hbmTy0_2 i
  | _ => ⟨S2x300x256x256, .f32⟩

abbrev bufTy : (tb : Table) → Fin (tcTables nBuf tb) → BufTy
  | .hbm, ⟨i, _⟩ => hbmTy i
  | .local _ .vmem, ⟨0, _⟩ => ⟨S1x300x4, .f32⟩
  | .local _ .vmem, ⟨1, _⟩ => ⟨S1x300x4, .f32⟩
  | .local _ .vmem, ⟨2, _⟩ => ⟨S1x300x4, .f32⟩
  | .local _ .vmem, ⟨3, _⟩ => ⟨S1x300x4, .f32⟩
  | .local _ .vmem, ⟨4, _⟩ => ⟨S1x300x1792, .f32⟩
  | .local _ .vmem, ⟨5, _⟩ => ⟨S1x300x1792, .f32⟩
  | .local _ .vmem, ⟨6, _⟩ => ⟨S1x300x1792, .f32⟩
  | .local _ .vmem, ⟨7, _⟩ => ⟨S1x300x1792, .f32⟩
  | .local _ .vmem, ⟨8, _⟩ => ⟨S1x300x300, .f32⟩
  | .local _ .vmem, ⟨9, _⟩ => ⟨S1x300x300, .f32⟩
  | .local _ .vmem, ⟨10, _⟩ => ⟨S300x300, .f32⟩
  | .local _ .vmem, ⟨11, _⟩ => ⟨S300x300, .f32⟩
  | .local _ .vmem, ⟨12, _⟩ => ⟨S300x1, .f32⟩
  | .local _ .vmem, ⟨13, _⟩ => ⟨S300x1, .f32⟩
  | .local _ .vmem, ⟨14, _⟩ => ⟨S300x1, .f32⟩
  | _, _ => ⟨S2x300x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_c : Ref sig .tc := ⟨.hbm, 30, rfl⟩
abbrev main_v21 : Ref sig .tc := ⟨.hbm, 31, rfl⟩
abbrev main_v22 : Ref sig .tc := ⟨.hbm, 32, rfl⟩
abbrev main_c_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_c_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_c_5 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_c_6 : Ref sig .tc := ⟨.hbm, 46, rfl⟩
abbrev main_c_7 : Ref sig .tc := ⟨.hbm, 47, rfl⟩
abbrev main_call0_v0 : Ref sig .tc := ⟨.hbm, 48, rfl⟩
abbrev main_call0_v1 : Ref sig .tc := ⟨.hbm, 49, rfl⟩
abbrev main_call0_v2 : Ref sig .tc := ⟨.hbm, 50, rfl⟩
abbrev main_call0_v3 : Ref sig .tc := ⟨.hbm, 51, rfl⟩
abbrev main_call0_v4 : Ref sig .tc := ⟨.hbm, 52, rfl⟩
abbrev main_v33 : Ref sig .tc := ⟨.hbm, 53, rfl⟩
abbrev main_c_8 : Ref sig .tc := ⟨.hbm, 54, rfl⟩
abbrev main_c_9 : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_call1_v3 : Ref sig .tc := ⟨.hbm, 59, rfl⟩
abbrev main_call1_v4 : Ref sig .tc := ⟨.hbm, 60, rfl⟩
abbrev main_v34 : Ref sig .tc := ⟨.hbm, 61, rfl⟩
abbrev main_c_10 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_call2_c : Ref sig .tc := ⟨.hbm, 66, rfl⟩
abbrev main_call2_v0 : Ref sig .tc := ⟨.hbm, 67, rfl⟩
abbrev main_call2_v1 : Ref sig .tc := ⟨.hbm, 68, rfl⟩
abbrev main_call2_c_0 : Ref sig .tc := ⟨.hbm, 69, rfl⟩
abbrev main_call2_v2 : Ref sig .tc := ⟨.hbm, 70, rfl⟩
abbrev main_call2_v3 : Ref sig .tc := ⟨.hbm, 71, rfl⟩
abbrev main_call2_v4 : Ref sig .tc := ⟨.hbm, 72, rfl⟩
abbrev main_call2_v5 : Ref sig .tc := ⟨.hbm, 73, rfl⟩
abbrev main_call2_c_1 : Ref sig .tc := ⟨.hbm, 74, rfl⟩
abbrev main_call2_c_2 : Ref sig .tc := ⟨.hbm, 75, rfl⟩
abbrev main_call2_v6 : Ref sig .tc := ⟨.hbm, 76, rfl⟩
abbrev main_call2_v7 : Ref sig .tc := ⟨.hbm, 77, rfl⟩
abbrev main_call2_v8 : Ref sig .tc := ⟨.hbm, 78, rfl⟩
abbrev main_call2_v9 : Ref sig .tc := ⟨.hbm, 79, rfl⟩
abbrev main_call2_v10 : Ref sig .tc := ⟨.hbm, 80, rfl⟩
abbrev main_call2_v11 : Ref sig .tc := ⟨.hbm, 81, rfl⟩
abbrev main_call2_c_3 : Ref sig .tc := ⟨.hbm, 82, rfl⟩
abbrev main_call2_v12 : Ref sig .tc := ⟨.hbm, 83, rfl⟩
abbrev main_call2_v13 : Ref sig .tc := ⟨.hbm, 84, rfl⟩
abbrev main_call2_v14 : Ref sig .tc := ⟨.hbm, 85, rfl⟩
abbrev main_call2_cst : Ref sig .tc := ⟨.hbm, 86, rfl⟩
abbrev main_call2_v15 : Ref sig .tc := ⟨.hbm, 87, rfl⟩
abbrev main_v38 : Ref sig .tc := ⟨.hbm, 88, rfl⟩
abbrev main_v39 : Ref sig .tc := ⟨.hbm, 89, rfl⟩
abbrev main_v40 : Ref sig .tc := ⟨.hbm, 90, rfl⟩
abbrev main_v41 : Ref sig .tc := ⟨.hbm, 91, rfl⟩
abbrev main_c_11 : Ref sig .tc := ⟨.hbm, 92, rfl⟩
abbrev main_v42 : Ref sig .tc := ⟨.hbm, 93, rfl⟩
abbrev main_v43 : Ref sig .tc := ⟨.hbm, 94, rfl⟩
abbrev main_c_12 : Ref sig .tc := ⟨.hbm, 95, rfl⟩
abbrev main_v44 : Ref sig .tc := ⟨.hbm, 96, rfl⟩
abbrev main_v45 : Ref sig .tc := ⟨.hbm, 97, rfl⟩
abbrev main_c_13 : Ref sig .tc := ⟨.hbm, 98, rfl⟩
abbrev main_v46 : Ref sig .tc := ⟨.hbm, 99, rfl⟩
abbrev main_v47 : Ref sig .tc := ⟨.hbm, 100, rfl⟩
abbrev main_v48 : Ref sig .tc := ⟨.hbm, 101, rfl⟩
abbrev main_c_14 : Ref sig .tc := ⟨.hbm, 102, rfl⟩
abbrev main_v49 : Ref sig .tc := ⟨.hbm, 103, rfl⟩
abbrev main_v50 : Ref sig .tc := ⟨.hbm, 104, rfl⟩
abbrev main_v51 : Ref sig .tc := ⟨.hbm, 105, rfl⟩
abbrev main_c_15 : Ref sig .tc := ⟨.hbm, 106, rfl⟩
abbrev main_v52 : Ref sig .tc := ⟨.hbm, 107, rfl⟩
abbrev main_v53 : Ref sig .tc := ⟨.hbm, 108, rfl⟩
abbrev main_v54 : Ref sig .tc := ⟨.hbm, 109, rfl⟩
abbrev main_v55 : Ref sig .tc := ⟨.hbm, 110, rfl⟩
abbrev main_c_16 : Ref sig .tc := ⟨.hbm, 111, rfl⟩
abbrev main_c_17 : Ref sig .tc := ⟨.hbm, 112, rfl⟩
abbrev main_call3_v0 : Ref sig .tc := ⟨.hbm, 113, rfl⟩
abbrev main_call3_v1 : Ref sig .tc := ⟨.hbm, 114, rfl⟩
abbrev main_call3_v2 : Ref sig .tc := ⟨.hbm, 115, rfl⟩
abbrev main_call3_v3 : Ref sig .tc := ⟨.hbm, 116, rfl⟩
abbrev main_call3_v4 : Ref sig .tc := ⟨.hbm, 117, rfl⟩
abbrev main_v56 : Ref sig .tc := ⟨.hbm, 118, rfl⟩
abbrev main_c_18 : Ref sig .tc := ⟨.hbm, 119, rfl⟩
abbrev main_c_19 : Ref sig .tc := ⟨.hbm, 120, rfl⟩
abbrev main_call4_v0 : Ref sig .tc := ⟨.hbm, 121, rfl⟩
abbrev main_call4_v1 : Ref sig .tc := ⟨.hbm, 122, rfl⟩
abbrev main_call4_v2 : Ref sig .tc := ⟨.hbm, 123, rfl⟩
abbrev main_call4_v3 : Ref sig .tc := ⟨.hbm, 124, rfl⟩
abbrev main_call4_v4 : Ref sig .tc := ⟨.hbm, 125, rfl⟩
abbrev main_v57 : Ref sig .tc := ⟨.hbm, 126, rfl⟩
abbrev main_c_20 : Ref sig .tc := ⟨.hbm, 127, rfl⟩
abbrev main_v58 : Ref sig .tc := ⟨.hbm, 128, rfl⟩
abbrev main_v59 : Ref sig .tc := ⟨.hbm, 129, rfl⟩
abbrev main_v60 : Ref sig .tc := ⟨.hbm, 130, rfl⟩
abbrev main_call5_c : Ref sig .tc := ⟨.hbm, 131, rfl⟩
abbrev main_call5_v0 : Ref sig .tc := ⟨.hbm, 132, rfl⟩
abbrev main_call5_v1 : Ref sig .tc := ⟨.hbm, 133, rfl⟩
abbrev main_call5_c_0 : Ref sig .tc := ⟨.hbm, 134, rfl⟩
abbrev main_call5_v2 : Ref sig .tc := ⟨.hbm, 135, rfl⟩
abbrev main_call5_v3 : Ref sig .tc := ⟨.hbm, 136, rfl⟩
abbrev main_call5_v4 : Ref sig .tc := ⟨.hbm, 137, rfl⟩
abbrev main_call5_v5 : Ref sig .tc := ⟨.hbm, 138, rfl⟩
abbrev main_call5_c_1 : Ref sig .tc := ⟨.hbm, 139, rfl⟩
abbrev main_call5_c_2 : Ref sig .tc := ⟨.hbm, 140, rfl⟩
abbrev main_call5_v6 : Ref sig .tc := ⟨.hbm, 141, rfl⟩
abbrev main_call5_v7 : Ref sig .tc := ⟨.hbm, 142, rfl⟩
abbrev main_call5_v8 : Ref sig .tc := ⟨.hbm, 143, rfl⟩
abbrev main_call5_v9 : Ref sig .tc := ⟨.hbm, 144, rfl⟩
abbrev main_call5_v10 : Ref sig .tc := ⟨.hbm, 145, rfl⟩
abbrev main_call5_v11 : Ref sig .tc := ⟨.hbm, 146, rfl⟩
abbrev main_call5_c_3 : Ref sig .tc := ⟨.hbm, 147, rfl⟩
abbrev main_call5_v12 : Ref sig .tc := ⟨.hbm, 148, rfl⟩
abbrev main_call5_v13 : Ref sig .tc := ⟨.hbm, 149, rfl⟩
abbrev main_call5_v14 : Ref sig .tc := ⟨.hbm, 150, rfl⟩
abbrev main_call5_cst : Ref sig .tc := ⟨.hbm, 151, rfl⟩
abbrev main_call5_v15 : Ref sig .tc := ⟨.hbm, 152, rfl⟩
abbrev main_v61 : Ref sig .tc := ⟨.hbm, 153, rfl⟩
abbrev main_v62 : Ref sig .tc := ⟨.hbm, 154, rfl⟩
abbrev main_v63 : Ref sig .tc := ⟨.hbm, 155, rfl⟩
abbrev main_v64 : Ref sig .tc := ⟨.hbm, 156, rfl⟩
abbrev main_c_21 : Ref sig .tc := ⟨.hbm, 157, rfl⟩
abbrev main_v65 : Ref sig .tc := ⟨.hbm, 158, rfl⟩
abbrev main_v66 : Ref sig .tc := ⟨.hbm, 159, rfl⟩
abbrev main_c_22 : Ref sig .tc := ⟨.hbm, 160, rfl⟩
abbrev main_v67 : Ref sig .tc := ⟨.hbm, 161, rfl⟩
abbrev main_v68 : Ref sig .tc := ⟨.hbm, 162, rfl⟩
abbrev main_c_23 : Ref sig .tc := ⟨.hbm, 163, rfl⟩
abbrev main_v69 : Ref sig .tc := ⟨.hbm, 164, rfl⟩
abbrev main_v70 : Ref sig .tc := ⟨.hbm, 165, rfl⟩
abbrev main_v71 : Ref sig .tc := ⟨.hbm, 166, rfl⟩
abbrev main_c_24 : Ref sig .tc := ⟨.hbm, 167, rfl⟩
abbrev main_v72 : Ref sig .tc := ⟨.hbm, 168, rfl⟩
abbrev main_v73 : Ref sig .tc := ⟨.hbm, 169, rfl⟩
abbrev main_v74 : Ref sig .tc := ⟨.hbm, 170, rfl⟩
abbrev main_c_25 : Ref sig .tc := ⟨.hbm, 171, rfl⟩
abbrev main_v75 : Ref sig .tc := ⟨.hbm, 172, rfl⟩
abbrev main_v76 : Ref sig .tc := ⟨.hbm, 173, rfl⟩
abbrev main_v77 : Ref sig .tc := ⟨.hbm, 174, rfl⟩
abbrev main_v78 : Ref sig .tc := ⟨.hbm, 175, rfl⟩
abbrev main_c_26 : Ref sig .tc := ⟨.hbm, 176, rfl⟩
abbrev main_c_27 : Ref sig .tc := ⟨.hbm, 177, rfl⟩
abbrev main_call6_v0 : Ref sig .tc := ⟨.hbm, 178, rfl⟩
abbrev main_call6_v1 : Ref sig .tc := ⟨.hbm, 179, rfl⟩
abbrev main_call6_v2 : Ref sig .tc := ⟨.hbm, 180, rfl⟩
abbrev main_call6_v3 : Ref sig .tc := ⟨.hbm, 181, rfl⟩
abbrev main_call6_v4 : Ref sig .tc := ⟨.hbm, 182, rfl⟩
abbrev main_v79 : Ref sig .tc := ⟨.hbm, 183, rfl⟩
abbrev main_c_28 : Ref sig .tc := ⟨.hbm, 184, rfl⟩
abbrev main_c_29 : Ref sig .tc := ⟨.hbm, 185, rfl⟩
abbrev main_call7_v0 : Ref sig .tc := ⟨.hbm, 186, rfl⟩
abbrev main_call7_v1 : Ref sig .tc := ⟨.hbm, 187, rfl⟩
abbrev main_call7_v2 : Ref sig .tc := ⟨.hbm, 188, rfl⟩
abbrev main_call7_v3 : Ref sig .tc := ⟨.hbm, 189, rfl⟩
abbrev main_call7_v4 : Ref sig .tc := ⟨.hbm, 190, rfl⟩
abbrev main_v80 : Ref sig .tc := ⟨.hbm, 191, rfl⟩
abbrev main_c_30 : Ref sig .tc := ⟨.hbm, 192, rfl⟩
abbrev main_v81 : Ref sig .tc := ⟨.hbm, 193, rfl⟩
abbrev main_v82 : Ref sig .tc := ⟨.hbm, 194, rfl⟩
abbrev main_v83 : Ref sig .tc := ⟨.hbm, 195, rfl⟩
abbrev main_call8_c : Ref sig .tc := ⟨.hbm, 196, rfl⟩
abbrev main_call8_v0 : Ref sig .tc := ⟨.hbm, 197, rfl⟩
abbrev main_call8_v1 : Ref sig .tc := ⟨.hbm, 198, rfl⟩
abbrev main_call8_c_0 : Ref sig .tc := ⟨.hbm, 199, rfl⟩
abbrev main_call8_v2 : Ref sig .tc := ⟨.hbm, 200, rfl⟩
abbrev main_call8_v3 : Ref sig .tc := ⟨.hbm, 201, rfl⟩
abbrev main_call8_v4 : Ref sig .tc := ⟨.hbm, 202, rfl⟩
abbrev main_call8_v5 : Ref sig .tc := ⟨.hbm, 203, rfl⟩
abbrev main_call8_c_1 : Ref sig .tc := ⟨.hbm, 204, rfl⟩
abbrev main_call8_c_2 : Ref sig .tc := ⟨.hbm, 205, rfl⟩
abbrev main_call8_v6 : Ref sig .tc := ⟨.hbm, 206, rfl⟩
abbrev main_call8_v7 : Ref sig .tc := ⟨.hbm, 207, rfl⟩
abbrev main_call8_v8 : Ref sig .tc := ⟨.hbm, 208, rfl⟩
abbrev main_call8_v9 : Ref sig .tc := ⟨.hbm, 209, rfl⟩
abbrev main_call8_v10 : Ref sig .tc := ⟨.hbm, 210, rfl⟩
abbrev main_call8_v11 : Ref sig .tc := ⟨.hbm, 211, rfl⟩
abbrev main_call8_c_3 : Ref sig .tc := ⟨.hbm, 212, rfl⟩
abbrev main_call8_v12 : Ref sig .tc := ⟨.hbm, 213, rfl⟩
abbrev main_call8_v13 : Ref sig .tc := ⟨.hbm, 214, rfl⟩
abbrev main_call8_v14 : Ref sig .tc := ⟨.hbm, 215, rfl⟩
abbrev main_call8_cst : Ref sig .tc := ⟨.hbm, 216, rfl⟩
abbrev main_call8_v15 : Ref sig .tc := ⟨.hbm, 217, rfl⟩
abbrev main_v84 : Ref sig .tc := ⟨.hbm, 218, rfl⟩
abbrev main_v85 : Ref sig .tc := ⟨.hbm, 219, rfl⟩
abbrev main_v86 : Ref sig .tc := ⟨.hbm, 220, rfl⟩
abbrev main_v87 : Ref sig .tc := ⟨.hbm, 221, rfl⟩
abbrev main_c_31 : Ref sig .tc := ⟨.hbm, 222, rfl⟩
abbrev main_v88 : Ref sig .tc := ⟨.hbm, 223, rfl⟩
abbrev main_v89 : Ref sig .tc := ⟨.hbm, 224, rfl⟩
abbrev main_c_32 : Ref sig .tc := ⟨.hbm, 225, rfl⟩
abbrev main_v90 : Ref sig .tc := ⟨.hbm, 226, rfl⟩
abbrev main_v91 : Ref sig .tc := ⟨.hbm, 227, rfl⟩
abbrev main_c_33 : Ref sig .tc := ⟨.hbm, 228, rfl⟩
abbrev main_v92 : Ref sig .tc := ⟨.hbm, 229, rfl⟩
abbrev main_v93 : Ref sig .tc := ⟨.hbm, 230, rfl⟩
abbrev main_c_34 : Ref sig .tc := ⟨.hbm, 231, rfl⟩
abbrev main_v94 : Ref sig .tc := ⟨.hbm, 232, rfl⟩
abbrev main_v95 : Ref sig .tc := ⟨.hbm, 233, rfl⟩
abbrev main_v96 : Ref sig .tc := ⟨.hbm, 234, rfl⟩
abbrev main_c_35 : Ref sig .tc := ⟨.hbm, 235, rfl⟩
abbrev main_v97 : Ref sig .tc := ⟨.hbm, 236, rfl⟩
abbrev main_v98 : Ref sig .tc := ⟨.hbm, 237, rfl⟩
abbrev main_v99 : Ref sig .tc := ⟨.hbm, 238, rfl⟩
abbrev main_c_36 : Ref sig .tc := ⟨.hbm, 239, rfl⟩
abbrev main_v100 : Ref sig .tc := ⟨.hbm, 240, rfl⟩
abbrev main_v101 : Ref sig .tc := ⟨.hbm, 241, rfl⟩
abbrev main_v102 : Ref sig .tc := ⟨.hbm, 242, rfl⟩
abbrev main_v103 : Ref sig .tc := ⟨.hbm, 243, rfl⟩
abbrev main_c_37 : Ref sig .tc := ⟨.hbm, 244, rfl⟩
abbrev main_c_38 : Ref sig .tc := ⟨.hbm, 245, rfl⟩
abbrev main_call9_v0 : Ref sig .tc := ⟨.hbm, 246, rfl⟩
abbrev main_call9_v1 : Ref sig .tc := ⟨.hbm, 247, rfl⟩
abbrev main_call9_v2 : Ref sig .tc := ⟨.hbm, 248, rfl⟩
abbrev main_call9_v3 : Ref sig .tc := ⟨.hbm, 249, rfl⟩
abbrev main_call9_v4 : Ref sig .tc := ⟨.hbm, 250, rfl⟩
abbrev main_v104 : Ref sig .tc := ⟨.hbm, 251, rfl⟩
abbrev main_c_39 : Ref sig .tc := ⟨.hbm, 252, rfl⟩
abbrev main_c_40 : Ref sig .tc := ⟨.hbm, 253, rfl⟩
abbrev main_call10_v0 : Ref sig .tc := ⟨.hbm, 254, rfl⟩
abbrev main_call10_v1 : Ref sig .tc := ⟨.hbm, 255, rfl⟩
abbrev main_call10_v2 : Ref sig .tc := ⟨.hbm, 256, rfl⟩
abbrev main_call10_v3 : Ref sig .tc := ⟨.hbm, 257, rfl⟩
abbrev main_call10_v4 : Ref sig .tc := ⟨.hbm, 258, rfl⟩
abbrev main_v105 : Ref sig .tc := ⟨.hbm, 259, rfl⟩
abbrev main_c_41 : Ref sig .tc := ⟨.hbm, 260, rfl⟩
abbrev main_v106 : Ref sig .tc := ⟨.hbm, 261, rfl⟩
abbrev main_v107 : Ref sig .tc := ⟨.hbm, 262, rfl⟩
abbrev main_v108 : Ref sig .tc := ⟨.hbm, 263, rfl⟩
abbrev main_call11_c : Ref sig .tc := ⟨.hbm, 264, rfl⟩
abbrev main_call11_v0 : Ref sig .tc := ⟨.hbm, 265, rfl⟩
abbrev main_call11_v1 : Ref sig .tc := ⟨.hbm, 266, rfl⟩
abbrev main_call11_c_0 : Ref sig .tc := ⟨.hbm, 267, rfl⟩
abbrev main_call11_v2 : Ref sig .tc := ⟨.hbm, 268, rfl⟩
abbrev main_call11_v3 : Ref sig .tc := ⟨.hbm, 269, rfl⟩
abbrev main_call11_v4 : Ref sig .tc := ⟨.hbm, 270, rfl⟩
abbrev main_call11_v5 : Ref sig .tc := ⟨.hbm, 271, rfl⟩
abbrev main_call11_c_1 : Ref sig .tc := ⟨.hbm, 272, rfl⟩
abbrev main_call11_c_2 : Ref sig .tc := ⟨.hbm, 273, rfl⟩
abbrev main_call11_v6 : Ref sig .tc := ⟨.hbm, 274, rfl⟩
abbrev main_call11_v7 : Ref sig .tc := ⟨.hbm, 275, rfl⟩
abbrev main_call11_v8 : Ref sig .tc := ⟨.hbm, 276, rfl⟩
abbrev main_call11_v9 : Ref sig .tc := ⟨.hbm, 277, rfl⟩
abbrev main_call11_v10 : Ref sig .tc := ⟨.hbm, 278, rfl⟩
abbrev main_call11_v11 : Ref sig .tc := ⟨.hbm, 279, rfl⟩
abbrev main_call11_c_3 : Ref sig .tc := ⟨.hbm, 280, rfl⟩
abbrev main_call11_v12 : Ref sig .tc := ⟨.hbm, 281, rfl⟩
abbrev main_call11_v13 : Ref sig .tc := ⟨.hbm, 282, rfl⟩
abbrev main_call11_v14 : Ref sig .tc := ⟨.hbm, 283, rfl⟩
abbrev main_call11_cst : Ref sig .tc := ⟨.hbm, 284, rfl⟩
abbrev main_call11_v15 : Ref sig .tc := ⟨.hbm, 285, rfl⟩
abbrev main_v109 : Ref sig .tc := ⟨.hbm, 286, rfl⟩
abbrev main_v110 : Ref sig .tc := ⟨.hbm, 287, rfl⟩
abbrev main_v111 : Ref sig .tc := ⟨.hbm, 288, rfl⟩
abbrev main_v112 : Ref sig .tc := ⟨.hbm, 289, rfl⟩
abbrev main_cst_42 : Ref sig .tc := ⟨.hbm, 290, rfl⟩
abbrev main_v113 : Ref sig .tc := ⟨.hbm, 291, rfl⟩
abbrev main_v114 : Ref sig .tc := ⟨.hbm, 292, rfl⟩
abbrev main_cst_43 : Ref sig .tc := ⟨.hbm, 293, rfl⟩
abbrev main_v115 : Ref sig .tc := ⟨.hbm, 294, rfl⟩
abbrev main_v116 : Ref sig .tc := ⟨.hbm, 295, rfl⟩
abbrev main_v117 : Ref sig .tc := ⟨.hbm, 296, rfl⟩
abbrev main_v118 : Ref sig .tc := ⟨.hbm, 297, rfl⟩
abbrev main_v119 : Ref sig .tc := ⟨.hbm, 298, rfl⟩
abbrev main_v120 : Ref sig .tc := ⟨.hbm, 299, rfl⟩
abbrev main_cst_44 : Ref sig .tc := ⟨.hbm, 300, rfl⟩
abbrev main_v121 : Ref sig .tc := ⟨.hbm, 301, rfl⟩
abbrev main_v122 : Ref sig .tc := ⟨.hbm, 302, rfl⟩
abbrev main_v123 : Ref sig .tc := ⟨.hbm, 303, rfl⟩
abbrev main_v124 : Ref sig .tc := ⟨.hbm, 304, rfl⟩
abbrev main_v125 : Ref sig .tc := ⟨.hbm, 305, rfl⟩
abbrev main_v126 : Ref sig .tc := ⟨.hbm, 306, rfl⟩
abbrev main_v127 : Ref sig .tc := ⟨.hbm, 307, rfl⟩
abbrev main_cst_45 : Ref sig .tc := ⟨.hbm, 308, rfl⟩
abbrev main_v128 : Ref sig .tc := ⟨.hbm, 309, rfl⟩
abbrev main_v129 : Ref sig .tc := ⟨.hbm, 310, rfl⟩
abbrev main_v130 : Ref sig .tc := ⟨.hbm, 311, rfl⟩
abbrev main_v131 : Ref sig .tc := ⟨.hbm, 312, rfl⟩
abbrev main_v132 : Ref sig .tc := ⟨.hbm, 313, rfl⟩
abbrev main_v133 : Ref sig .tc := ⟨.hbm, 314, rfl⟩
abbrev main_v134 : Ref sig .tc := ⟨.hbm, 315, rfl⟩
abbrev main_v135 : Ref sig .tc := ⟨.hbm, 316, rfl⟩
abbrev main_v136 : Ref sig .tc := ⟨.hbm, 317, rfl⟩
abbrev main_v137 : Ref sig .tc := ⟨.hbm, 318, rfl⟩
abbrev main_v138 : Ref sig .tc := ⟨.hbm, 319, rfl⟩
abbrev main_v139 : Ref sig .tc := ⟨.hbm, 320, rfl⟩
abbrev main_v140 : Ref sig .tc := ⟨.hbm, 321, rfl⟩
abbrev main_v141 : Ref sig .tc := ⟨.hbm, 322, rfl⟩
abbrev main_v142 : Ref sig .tc := ⟨.hbm, 323, rfl⟩
abbrev main_v143 : Ref sig .tc := ⟨.hbm, 324, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 7], ![false, false]⟩

def k0_cond2 (i : grid0.Coords) : BitVec 1 :=
  let arg1 : BitVec 32 := BitVec.ofNat 32 (i 1).val
  let c6_i32 : BitVec 32 := 6#32
  let v63 : BitVec 1 := Scalar.cmpi .eq arg1 c6_i32
  let v64 : BitVec 32 := Scalar.extui v63
  let c0_i32_34 : BitVec 32 := 0#32
  let v65 : BitVec 1 := Scalar.cmpi .ne v64 c0_i32_34
  v65

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x300x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x300x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x300x1792 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x300x1792 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x300x300 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  concatenates_S2x300x256x256_S2x300x256x256_S2x600x256x256_d1 : Shape.Concatenates [S2x300x256x256, S2x300x256x256] S2x600x256x256 1
  shapeCasts_S2x600x256x256_S2x600x65536 : S2x600x256x256.ShapeCasts S2x600x65536
  transposes_S2x600x65536_S2x65536x600_0_2_1 : S2x600x65536.Transposes [0, 2, 1] S2x65536x600
  slices_S2x12544x2_S2x12544x1_0_0_0 : S2x12544x2.Slices ![0, 0, 0] S2x12544x1
  shapeCasts_S2x12544x1_S2x12544 : S2x12544x1.ShapeCasts S2x12544
  bcast_S_S2x12544 : S_.BroadcastsInDim S2x12544 (![] : Fin 0 → Fin S2x12544.rank)
  slices_S2x12544x2_S2x12544x1_0_0_1 : S2x12544x2.Slices ![0, 0, 1] S2x12544x1
  bcast_S2x12544_S2x12544x1_0_1 : S2x12544.BroadcastsInDim S2x12544x1 (![0, 1] : Fin 2 → Fin S2x12544x1.rank)
  bcast_S_S2x12544x1 : S_.BroadcastsInDim S2x12544x1 (![] : Fin 0 → Fin S2x12544x1.rank)
  bcast_S1_S1x1x1_2 : S1.BroadcastsInDim S1x1x1 (![2] : Fin 1 → Fin S1x1x1.rank)
  bcast_S1x1x1_S2x12544x1_0_1_2 : S1x1x1.BroadcastsInDim S2x12544x1 (![0, 1, 2] : Fin 3 → Fin S2x12544x1.rank)
  reducesTo_S2x12544x1_S2x12544_d2 : S2x12544x1.ReducesTo [2] S2x12544
  h_S_ : 0 < S_.numel
  bcast_S2x12544_S2x12544x600_0_1 : S2x12544.BroadcastsInDim S2x12544x600 (![0, 1] : Fin 2 → Fin S2x12544x600.rank)
  bcast_S_S2x12544x600 : S_.BroadcastsInDim S2x12544x600 (![] : Fin 0 → Fin S2x12544x600.rank)
  bcast_S2x12544x1_S2x12544x600_0_1_2 : S2x12544x1.BroadcastsInDim S2x12544x600 (![0, 1, 2] : Fin 3 → Fin S2x12544x600.rank)
  transposes_S2x12544x600_S2x600x12544_0_2_1 : S2x12544x600.Transposes [0, 2, 1] S2x600x12544
  slices_S2x600x12544_S2x300x12544_0_0_0 : S2x600x12544.Slices ![0, 0, 0] S2x300x12544
  slices_S2x600x12544_S2x300x12544_0_300_0 : S2x600x12544.Slices ![0, 300, 0] S2x300x12544
  inb_S300x300_S300x300_0_0 : ∀ a, (![0, 0] : Fin 2 → Nat) a + S300x300.size a ≤ S300x300.size a
  h_S300x300 : 0 < S300x300.numel
  shapeCasts_S300x300_S300x300 : S300x300.ShapeCasts S300x300
  inb_S300x1_S300x1_0_0 : ∀ a, (![0, 0] : Fin 2 → Nat) a + S300x1.size a ≤ S300x1.size a
  h_S300x1 : 0 < S300x1.numel
  shapeCasts_S300x1_S300x1 : S300x1.ShapeCasts S300x1
  inb_S1x300x1792_S1x300x1792_0_0_0 : ∀ a, (![0, 0, 0] : Fin 3 → Nat) a + S1x300x1792.size a ≤ S1x300x1792.size a
  h_S1x300x1792 : 0 < S1x300x1792.numel
  shapeCasts_S1x300x1792_S300x1792 : S1x300x1792.ShapeCasts S300x1792
  bitsLt_bf16_f32 : FTy.bits .bf16 < FTy.bits .f32
  reduces_S300x1792_S300 : S300x1792.Reduces [1] S300
  shapeCasts_S300_S300x1 : S300.ShapeCasts S300x1
  broadcasts_S300x1_S300x300 : S300x1.Broadcasts S300x300
  transposes_S300x1_p1_0_S1x300 : S300x1.Transposes [1, 0] S1x300
  broadcasts_S1x300_S300x300 : S1x300.Broadcasts S300x300
  inb_S1x300x4_S1x300x4_0_0_0 : ∀ a, (![0, 0, 0] : Fin 3 → Nat) a + S1x300x4.size a ≤ S1x300x4.size a
  h_S1x300x4 : 0 < S1x300x4.numel
  shapeCasts_S1x300x4_S300x4 : S1x300x4.ShapeCasts S300x4
  slices_S300x4_o0_0_S300x1 : S300x4.Slices ![0, 0] S300x1
  shapeCasts_S300x1_S300 : S300x1.ShapeCasts S300
  shapeCasts_S300_S1x300 : S300.ShapeCasts S1x300
  slices_S300x4_o0_1_S300x1 : S300x4.Slices ![0, 1] S300x1
  slices_S300x4_o0_2_S300x1 : S300x4.Slices ![0, 2] S300x1
  slices_S300x4_o0_3_S300x1 : S300x4.Slices ![0, 3] S300x1
  inb_S1x300x300_S1x300x300_0_0_0 : ∀ a, (![0, 0, 0] : Fin 3 → Nat) a + S1x300x300.size a ≤ S1x300x300.size a
  h_S1x300x300 : 0 < S1x300x300.numel
  shapeCasts_S1x300x300_S300x300 : S1x300x300.ShapeCasts S300x300
  shapeCasts_S300x300_S1x300x300 : S300x300.ShapeCasts S1x300x300
  gather_S2x65536x600_S2x12544x1_S2x12544x600_2_1_0_0_1_2_11600_wf : GatherDims.WF S2x65536x600 S2x12544x1 S2x12544x600 [2] [1] [0] [1] [0] 2 ![1, 1, 600]
  dot_S300x1792_S300x1792_S300x300_1_1_0_0_n_n_wf : DotDims.WF S300x1792 S300x1792 S300x300 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x300x4.size a ≤ S2x300x4.size a
  hwx0_0 : ∀ i : grid0.Coords, EltTy.bits .f32 = 32 ∨ (Rect.block (s := S2x300x4) S1x300x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x300x4.size a ≤ S2x300x4.size a
  hwx0_1 : ∀ i : grid0.Coords, EltTy.bits .f32 = 32 ∨ (Rect.block (s := S2x300x4) S1x300x4.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x300x1792.size a ≤ S2x300x12544.size a
  hwx0_2 : ∀ i : grid0.Coords, EltTy.bits .f32 = 32 ∨ (Rect.block (s := S2x300x12544) S1x300x1792.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x300x1792.size a ≤ S2x300x12544.size a
  hwx0_3 : ∀ i : grid0.Coords, EltTy.bits .f32 = 32 ∨ (Rect.block (s := S2x300x12544) S1x300x1792.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x300x300.size a ≤ S2x300x300.size a
  hwx0_4 : ∀ i : grid0.Coords, EltTy.bits .f32 = 32 ∨ (Rect.block (s := S2x300x300) S1x300x300.size (cc0_transform_4 i) (hinb0_4 i)).WholeWords (EltTy.packing .f32)

variable [Facts₀]

def gather_S2x65536x600_S2x12544x1_S2x12544x600_2_1_0_0_1_2_11600 : GatherDims S2x65536x600 S2x12544x1 S2x12544x600 where
  offsetDims := [2]
  collapsedSliceDims := [1]
  operandBatchingDims := [0]
  startIndicesBatchingDims := [0]
  startIndexMap := [1]
  indexVectorDim := 2
  sliceSizes := ![1, 1, 600]
  wf := gather_S2x65536x600_S2x12544x1_S2x12544x600_2_1_0_0_1_2_11600_wf
def dot_S300x1792_S300x1792_S300x300_1_1_0_0_n_n : DotDims S300x1792 S300x1792 S300x300 where
  lhsContracting := [1]
  rhsContracting := [1]
  lhsNonContracting := [0]
  rhsNonContracting := [0]
  lhsBatch := []
  rhsBatch := []
  wf := dot_S300x1792_S300x1792_S300x300_1_1_0_0_n_n_wf

abbrev win0_0 : Pipeline.Window sig grid0 :=
  Pipeline.Window.ofSpec (Memref.whole main_arg2) S1x300x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1x300x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v141) S1x300x1792.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v142) S1x300x1792.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v143) S1x300x300.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S2x300x256x256 : Shape := ⟨4, ![2, 300, 256, 256]⟩
abbrev S2x300x4 : Shape := ⟨3, ![2, 300, 4]⟩
abbrev S2x12544x2 : Shape := ⟨3, ![2, 12544, 2]⟩
abbrev S2x12544x1 : Shape := ⟨3, ![2, 12544, 1]⟩
abbrev S2x12544 : Shape := ⟨2, ![2, 12544]⟩
abbrev S_ : Shape := ⟨0, ![]⟩
abbrev S2x300x12544 : Shape := ⟨3, ![2, 300, 12544]⟩
abbrev S2x1x12544 : Shape := ⟨3, ![2, 1, 12544]⟩
abbrev S2x300x300 : Shape := ⟨3, ![2, 300, 300]⟩
abbrev S2x300 : Shape := ⟨2, ![2, 300]⟩
abbrev S2x300x1 : Shape := ⟨3, ![2, 300, 1]⟩
abbrev S2x1x300 : Shape := ⟨3, ![2, 1, 300]⟩
abbrev S2x300x1x4 : Shape := ⟨4, ![2, 300, 1, 4]⟩
abbrev S2x1x300x4 : Shape := ⟨4, ![2, 1, 300, 4]⟩
abbrev S2x300x300x4 : Shape := ⟨4, ![2, 300, 300, 4]⟩
abbrev S2x300x2 : Shape := ⟨3, ![2, 300, 2]⟩
abbrev S2x300x1x2 : Shape := ⟨4, ![2, 300, 1, 2]⟩
abbrev S2x1x300x2 : Shape := ⟨4, ![2, 1, 300, 2]⟩
abbrev S2x300x300x2 : Shape := ⟨4, ![2, 300, 300, 2]⟩
abbrev S2x300x300x1 : Shape := ⟨4, ![2, 300, 300, 1]⟩

abbrev nBuf : Space → Nat
  | .hbm => 806
  | .vmem => 0
  | .smem => 0
  | _ => 0

abbrev hbmTy0_0 (i : Nat) : BufTy := match i % 128 with
  | 0 => ⟨S2x300x256x256, .f32⟩
  | 1 => ⟨S2x300x256x256, .f32⟩
  | 2 => ⟨S2x300x4, .f32⟩
  | 3 => ⟨S2x300x4, .f32⟩
  | 4 => ⟨S2x12544x2, .f32⟩
  | 5 => ⟨S2x12544x1, .f32⟩
  | 6 => ⟨S2x12544, .f32⟩
  | 7 => ⟨S_, .f32⟩
  | 8 => ⟨S2x12544, .f32⟩
  | 9 => ⟨S2x12544, .f32⟩
  | 10 => ⟨S_, .f32⟩
  | 11 => ⟨S2x12544, .f32⟩
  | 12 => ⟨S2x12544, .f32⟩
  | 13 => ⟨S2x12544x1, .f32⟩
  | 14 => ⟨S2x12544, .f32⟩
  | 15 => ⟨S_, .f32⟩
  | 16 => ⟨S2x12544, .f32⟩
  | 17 => ⟨S2x12544, .f32⟩
  | 18 => ⟨S_, .f32⟩
  | 19 => ⟨S2x12544, .f32⟩
  | 20 => ⟨S2x12544, .f32⟩
  | 21 => ⟨S2x12544, .f32⟩
  | 22 => ⟨S2x12544, .f32⟩
  | 23 => ⟨S2x12544, .f32⟩
  | 24 => ⟨S2x12544, .f32⟩
  | 25 => ⟨S2x12544, .i32⟩
  | 26 => ⟨S2x12544, .i32⟩
  | 27 => ⟨S_, .i32⟩
  | 28 => ⟨S2x12544, .i32⟩
  | 29 => ⟨S2x12544, .i1⟩
  | 30 => ⟨S_, .i32⟩
  | 31 => ⟨S2x12544, .i32⟩
  | 32 => ⟨S2x12544, .i1⟩
  | 33 => ⟨S2x12544, .i1⟩
  | 34 => ⟨S_, .i32⟩
  | 35 => ⟨S2x12544, .i32⟩
  | 36 => ⟨S2x12544, .i1⟩
  | 37 => ⟨S2x12544, .i1⟩
  | 38 => ⟨S_, .i32⟩
  | 39 => ⟨S2x12544, .i32⟩
  | 40 => ⟨S2x12544, .i1⟩
  | 41 => ⟨S2x12544, .i1⟩
  | 42 => ⟨S2x12544, .f32⟩
  | 43 => ⟨S_, .i32⟩
  | 44 => ⟨S_, .i32⟩
  | 45 => ⟨S_, .i32⟩
  | 46 => ⟨S2x12544, .i32⟩
  | 47 => ⟨S2x12544, .i32⟩
  | 48 => ⟨S_, .i32⟩
  | 49 => ⟨S2x12544, .i32⟩
  | 50 => ⟨S2x12544, .i32⟩
  | 51 => ⟨S_, .i32⟩
  | 52 => ⟨S_, .i32⟩
  | 53 => ⟨S_, .i32⟩
  | 54 => ⟨S2x12544, .i32⟩
  | 55 => ⟨S2x12544, .i32⟩
  | 56 => ⟨S_, .i32⟩
  | 57 => ⟨S2x12544, .i32⟩
  | 58 => ⟨S2x12544, .i32⟩
  | 59 => ⟨S_, .i32⟩
  | 60 => ⟨S2x12544, .i32⟩
  | 61 => ⟨S2x12544, .i1⟩
  | 62 => ⟨S_, .i32⟩
  | 63 => ⟨S2x12544, .i32⟩
  | 64 => ⟨S2x12544, .i32⟩
  | 65 => ⟨S2x12544, .i32⟩
  | 66 => ⟨S_, .i32⟩
  | 67 => ⟨S2x12544, .i32⟩
  | 68 => ⟨S2x12544, .i1⟩
  | 69 => ⟨S_, .i32⟩
  | 70 => ⟨S2x12544, .i32⟩
  | 71 => ⟨S2x12544, .i32⟩
  | 72 => ⟨S2x12544, .i32⟩
  | 73 => ⟨S2x12544x1, .i32⟩
  | 74 => ⟨S2x12544x1, .i32⟩
  | 75 => ⟨S2x12544x2, .i32⟩
  | 76 => ⟨S2x300x12544, .f32⟩
  | 77 => ⟨S2x1x12544, .f32⟩
  | 78 => ⟨S2x300x12544, .f32⟩
  | 79 => ⟨S2x300x12544, .f32⟩
  | 80 => ⟨S_, .i32⟩
  | 81 => ⟨S2x12544, .i32⟩
  | 82 => ⟨S2x12544, .i32⟩
  | 83 => ⟨S_, .i32⟩
  | 84 => ⟨S2x12544, .i32⟩
  | 85 => ⟨S2x12544, .i1⟩
  | 86 => ⟨S_, .i32⟩
  | 87 => ⟨S2x12544, .i32⟩
  | 88 => ⟨S2x12544, .i1⟩
  | 89 => ⟨S2x12544, .i1⟩
  | 90 => ⟨S_, .i32⟩
  | 91 => ⟨S2x12544, .i32⟩
  | 92 => ⟨S2x12544, .i1⟩
  | 93 => ⟨S2x12544, .i1⟩
  | 94 => ⟨S_, .i32⟩
  | 95 => ⟨S2x12544, .i32⟩
  | 96 => ⟨S2x12544, .i1⟩
  | 97 => ⟨S2x12544, .i1⟩
  | 98 => ⟨S2x12544, .f32⟩
  | 99 => ⟨S_, .i32⟩
  | 100 => ⟨S_, .i32⟩
  | 101 => ⟨S_, .i32⟩
  | 102 => ⟨S2x12544, .i32⟩
  | 103 => ⟨S2x12544, .i32⟩
  | 104 => ⟨S_, .i32⟩
  | 105 => ⟨S2x12544, .i32⟩
  | 106 => ⟨S2x12544, .i32⟩
  | 107 => ⟨S_, .i32⟩
  | 108 => ⟨S_, .i32⟩
  | 109 => ⟨S_, .i32⟩
  | 110 => ⟨S2x12544, .i32⟩
  | 111 => ⟨S2x12544, .i32⟩
  | 112 => ⟨S_, .i32⟩
  | 113 => ⟨S2x12544, .i32⟩
  | 114 => ⟨S2x12544, .i32⟩
  | 115 => ⟨S_, .i32⟩
  | 116 => ⟨S2x12544, .i32⟩
  | 117 => ⟨S2x12544, .i1⟩
  | 118 => ⟨S_, .i32⟩
  | 119 => ⟨S2x12544, .i32⟩
  | 120 => ⟨S2x12544, .i32⟩
  | 121 => ⟨S2x12544, .i32⟩
  | 122 => ⟨S_, .i32⟩
  | 123 => ⟨S2x12544, .i32⟩
  | 124 => ⟨S2x12544, .i1⟩
  | 125 => ⟨S_, .i32⟩
  | 126 => ⟨S2x12544, .i32⟩
  | 127 => ⟨S2x12544, .i32⟩
  | _ => ⟨S2x300x256x256, .f32⟩

abbrev hbmTy0_1 (i : Nat) : BufTy := match i % 128 with
  | 0 => ⟨S2x12544, .i32⟩
  | 1 => ⟨S2x12544x1, .i32⟩
  | 2 => ⟨S2x12544x1, .i32⟩
  | 3 => ⟨S2x12544x2, .i32⟩
  | 4 => ⟨S2x300x12544, .f32⟩
  | 5 => ⟨S2x1x12544, .f32⟩
  | 6 => ⟨S2x300x12544, .f32⟩
  | 7 => ⟨S2x300x12544, .f32⟩
  | 8 => ⟨S_, .i32⟩
  | 9 => ⟨S2x12544, .i32⟩
  | 10 => ⟨S2x12544, .i32⟩
  | 11 => ⟨S_, .i32⟩
  | 12 => ⟨S2x12544, .i32⟩
  | 13 => ⟨S2x12544, .i1⟩
  | 14 => ⟨S_, .i32⟩
  | 15 => ⟨S2x12544, .i32⟩
  | 16 => ⟨S2x12544, .i1⟩
  | 17 => ⟨S2x12544, .i1⟩
  | 18 => ⟨S_, .i32⟩
  | 19 => ⟨S2x12544, .i32⟩
  | 20 => ⟨S2x12544, .i1⟩
  | 21 => ⟨S2x12544, .i1⟩
  | 22 => ⟨S_, .i32⟩
  | 23 => ⟨S2x12544, .i32⟩
  | 24 => ⟨S2x12544, .i1⟩
  | 25 => ⟨S2x12544, .i1⟩
  | 26 => ⟨S2x12544, .f32⟩
  | 27 => ⟨S_, .i32⟩
  | 28 => ⟨S_, .i32⟩
  | 29 => ⟨S_, .i32⟩
  | 30 => ⟨S2x12544, .i32⟩
  | 31 => ⟨S2x12544, .i32⟩
  | 32 => ⟨S_, .i32⟩
  | 33 => ⟨S2x12544, .i32⟩
  | 34 => ⟨S2x12544, .i32⟩
  | 35 => ⟨S_, .i32⟩
  | 36 => ⟨S_, .i32⟩
  | 37 => ⟨S_, .i32⟩
  | 38 => ⟨S2x12544, .i32⟩
  | 39 => ⟨S2x12544, .i32⟩
  | 40 => ⟨S_, .i32⟩
  | 41 => ⟨S2x12544, .i32⟩
  | 42 => ⟨S2x12544, .i32⟩
  | 43 => ⟨S_, .i32⟩
  | 44 => ⟨S2x12544, .i32⟩
  | 45 => ⟨S2x12544, .i1⟩
  | 46 => ⟨S_, .i32⟩
  | 47 => ⟨S2x12544, .i32⟩
  | 48 => ⟨S2x12544, .i32⟩
  | 49 => ⟨S2x12544, .i32⟩
  | 50 => ⟨S_, .i32⟩
  | 51 => ⟨S2x12544, .i32⟩
  | 52 => ⟨S2x12544, .i1⟩
  | 53 => ⟨S_, .i32⟩
  | 54 => ⟨S2x12544, .i32⟩
  | 55 => ⟨S2x12544, .i32⟩
  | 56 => ⟨S2x12544, .i32⟩
  | 57 => ⟨S2x12544x1, .i32⟩
  | 58 => ⟨S2x12544x1, .i32⟩
  | 59 => ⟨S2x12544x2, .i32⟩
  | 60 => ⟨S2x300x12544, .f32⟩
  | 61 => ⟨S2x1x12544, .f32⟩
  | 62 => ⟨S2x300x12544, .f32⟩
  | 63 => ⟨S2x300x12544, .f32⟩
  | 64 => ⟨S_, .i32⟩
  | 65 => ⟨S2x12544, .i32⟩
  | 66 => ⟨S2x12544, .i32⟩
  | 67 => ⟨S_, .i32⟩
  | 68 => ⟨S2x12544, .i32⟩
  | 69 => ⟨S2x12544, .i32⟩
  | 70 => ⟨S_, .i32⟩
  | 71 => ⟨S2x12544, .i32⟩
  | 72 => ⟨S2x12544, .i1⟩
  | 73 => ⟨S_, .i32⟩
  | 74 => ⟨S2x12544, .i32⟩
  | 75 => ⟨S2x12544, .i1⟩
  | 76 => ⟨S2x12544, .i1⟩
  | 77 => ⟨S_, .i32⟩
  | 78 => ⟨S2x12544, .i32⟩
  | 79 => ⟨S2x12544, .i1⟩
  | 80 => ⟨S2x12544, .i1⟩
  | 81 => ⟨S_, .i32⟩
  | 82 => ⟨S2x12544, .i32⟩
  | 83 => ⟨S2x12544, .i1⟩
  | 84 => ⟨S2x12544, .i1⟩
  | 85 => ⟨S2x12544, .f32⟩
  | 86 => ⟨S_, .i32⟩
  | 87 => ⟨S_, .i32⟩
  | 88 => ⟨S_, .i32⟩
  | 89 => ⟨S2x12544, .i32⟩
  | 90 => ⟨S2x12544, .i32⟩
  | 91 => ⟨S_, .i32⟩
  | 92 => ⟨S2x12544, .i32⟩
  | 93 => ⟨S2x12544, .i32⟩
  | 94 => ⟨S_, .i32⟩
  | 95 => ⟨S_, .i32⟩
  | 96 => ⟨S_, .i32⟩
  | 97 => ⟨S2x12544, .i32⟩
  | 98 => ⟨S2x12544, .i32⟩
  | 99 => ⟨S_, .i32⟩
  | 100 => ⟨S2x12544, .i32⟩
  | 101 => ⟨S2x12544, .i32⟩
  | 102 => ⟨S_, .i32⟩
  | 103 => ⟨S2x12544, .i32⟩
  | 104 => ⟨S2x12544, .i1⟩
  | 105 => ⟨S_, .i32⟩
  | 106 => ⟨S2x12544, .i32⟩
  | 107 => ⟨S2x12544, .i32⟩
  | 108 => ⟨S2x12544, .i32⟩
  | 109 => ⟨S_, .i32⟩
  | 110 => ⟨S2x12544, .i32⟩
  | 111 => ⟨S2x12544, .i1⟩
  | 112 => ⟨S_, .i32⟩
  | 113 => ⟨S2x12544, .i32⟩
  | 114 => ⟨S2x12544, .i32⟩
  | 115 => ⟨S2x12544, .i32⟩
  | 116 => ⟨S2x12544x1, .i32⟩
  | 117 => ⟨S2x12544x1, .i32⟩
  | 118 => ⟨S2x12544x2, .i32⟩
  | 119 => ⟨S2x300x12544, .f32⟩
  | 120 => ⟨S2x1x12544, .f32⟩
  | 121 => ⟨S2x300x12544, .f32⟩
  | 122 => ⟨S2x300x12544, .f32⟩
  | 123 => ⟨S_, .f32⟩
  | 124 => ⟨S2x12544, .f32⟩
  | 125 => ⟨S2x12544, .f32⟩
  | 126 => ⟨S2x1x12544, .f32⟩
  | 127 => ⟨S2x300x12544, .f32⟩
  | _ => ⟨S2x300x256x256, .f32⟩

abbrev hbmTy0_2 (i : Nat) : BufTy := match i % 128 with
  | 0 => ⟨S2x300x12544, .f32⟩
  | 1 => ⟨S_, .f32⟩
  | 2 => ⟨S2x12544, .f32⟩
  | 3 => ⟨S2x12544, .f32⟩
  | 4 => ⟨S2x1x12544, .f32⟩
  | 5 => ⟨S2x300x12544, .f32⟩
  | 6 => ⟨S2x300x12544, .f32⟩
  | 7 => ⟨S_, .f32⟩
  | 8 => ⟨S2x12544, .f32⟩
  | 9 => ⟨S2x12544, .f32⟩
  | 10 => ⟨S2x1x12544, .f32⟩
  | 11 => ⟨S2x300x12544, .f32⟩
  | 12 => ⟨S2x300x12544, .f32⟩
  | 13 => ⟨S2x1x12544, .f32⟩
  | 14 => ⟨S2x300x12544, .f32⟩
  | 15 => ⟨S2x300x12544, .f32⟩
  | 16 => ⟨S2x300x12544, .f32⟩
  | 17 => ⟨S2x1x12544, .f32⟩
  | 18 => ⟨S2x300x12544, .f32⟩
  | 19 => ⟨S2x300x12544, .f32⟩
  | 20 => ⟨S_, .f32⟩
  | 21 => ⟨S2x12544, .f32⟩
  | 22 => ⟨S2x12544, .f32⟩
  | 23 => ⟨S2x1x12544, .f32⟩
  | 24 => ⟨S2x300x12544, .f32⟩
  | 25 => ⟨S2x300x12544, .f32⟩
  | 26 => ⟨S2x300x12544, .f32⟩
  | 27 => ⟨S2x1x12544, .f32⟩
  | 28 => ⟨S2x300x12544, .f32⟩
  | 29 => ⟨S2x300x12544, .f32⟩
  | 30 => ⟨S2x1x12544, .f32⟩
  | 31 => ⟨S2x300x12544, .f32⟩
  | 32 => ⟨S2x300x12544, .f32⟩
  | 33 => ⟨S2x300x12544, .f32⟩
  | 34 => ⟨S2x12544x1, .f32⟩
  | 35 => ⟨S2x12544, .f32⟩
  | 36 => ⟨S_, .f32⟩
  | 37 => ⟨S2x12544, .f32⟩
  | 38 => ⟨S2x12544, .f32⟩
  | 39 => ⟨S_, .f32⟩
  | 40 => ⟨S2x12544, .f32⟩
  | 41 => ⟨S2x12544, .f32⟩
  | 42 => ⟨S2x12544x1, .f32⟩
  | 43 => ⟨S2x12544, .f32⟩
  | 44 => ⟨S_, .f32⟩
  | 45 => ⟨S2x12544, .f32⟩
  | 46 => ⟨S2x12544, .f32⟩
  | 47 => ⟨S_, .f32⟩
  | 48 => ⟨S2x12544, .f32⟩
  | 49 => ⟨S2x12544, .f32⟩
  | 50 => ⟨S2x12544, .f32⟩
  | 51 => ⟨S2x12544, .f32⟩
  | 52 => ⟨S2x12544, .f32⟩
  | 53 => ⟨S2x12544, .f32⟩
  | 54 => ⟨S2x12544, .i32⟩
  | 55 => ⟨S2x12544, .i32⟩
  | 56 => ⟨S_, .i32⟩
  | 57 => ⟨S2x12544, .i32⟩
  | 58 => ⟨S2x12544, .i1⟩
  | 59 => ⟨S_, .i32⟩
  | 60 => ⟨S2x12544, .i32⟩
  | 61 => ⟨S2x12544, .i1⟩
  | 62 => ⟨S2x12544, .i1⟩
  | 63 => ⟨S_, .i32⟩
  | 64 => ⟨S2x12544, .i32⟩
  | 65 => ⟨S2x12544, .i1⟩
  | 66 => ⟨S2x12544, .i1⟩
  | 67 => ⟨S_, .i32⟩
  | 68 => ⟨S2x12544, .i32⟩
  | 69 => ⟨S2x12544, .i1⟩
  | 70 => ⟨S2x12544, .i1⟩
  | 71 => ⟨S2x12544, .f32⟩
  | 72 => ⟨S_, .i32⟩
  | 73 => ⟨S_, .i32⟩
  | 74 => ⟨S_, .i32⟩
  | 75 => ⟨S2x12544, .i32⟩
  | 76 => ⟨S2x12544, .i32⟩
  | 77 => ⟨S_, .i32⟩
  | 78 => ⟨S2x12544, .i32⟩
  | 79 => ⟨S2x12544, .i32⟩
  | 80 => ⟨S_, .i32⟩
  | 81 => ⟨S_, .i32⟩
  | 82 => ⟨S_, .i32⟩
  | 83 => ⟨S2x12544, .i32⟩
  | 84 => ⟨S2x12544, .i32⟩
  | 85 => ⟨S_, .i32⟩
  | 86 => ⟨S2x12544, .i32⟩
  | 87 => ⟨S2x12544, .i32⟩
  | 88 => ⟨S_, .i32⟩
  | 89 => ⟨S2x12544, .i32⟩
  | 90 => ⟨S2x12544, .i1⟩
  | 91 => ⟨S_, .i32⟩
  | 92 => ⟨S2x12544, .i32⟩
  | 93 => ⟨S2x12544, .i32⟩
  | 94 => ⟨S2x12544, .i32⟩
  | 95 => ⟨S_, .i32⟩
  | 96 => ⟨S2x12544, .i32⟩
  | 97 => ⟨S2x12544, .i1⟩
  | 98 => ⟨S_, .i32⟩
  | 99 => ⟨S2x12544, .i32⟩
  | 100 => ⟨S2x12544, .i32⟩
  | 101 => ⟨S2x12544, .i32⟩
  | 102 => ⟨S2x12544x1, .i32⟩
  | 103 => ⟨S2x12544x1, .i32⟩
  | 104 => ⟨S2x12544x2, .i32⟩
  | 105 => ⟨S2x300x12544, .f32⟩
  | 106 => ⟨S2x1x12544, .f32⟩
  | 107 => ⟨S2x300x12544, .f32⟩
  | 108 => ⟨S2x300x12544, .f32⟩
  | 109 => ⟨S_, .i32⟩
  | 110 => ⟨S2x12544, .i32⟩
  | 111 => ⟨S2x12544, .i32⟩
  | 112 => ⟨S_, .i32⟩
  | 113 => ⟨S2x12544, .i32⟩
  | 114 => ⟨S2x12544, .i1⟩
  | 115 => ⟨S_, .i32⟩
  | 116 => ⟨S2x12544, .i32⟩
  | 117 => ⟨S2x12544, .i1⟩
  | 118 => ⟨S2x12544, .i1⟩
  | 119 => ⟨S_, .i32⟩
  | 120 => ⟨S2x12544, .i32⟩
  | 121 => ⟨S2x12544, .i1⟩
  | 122 => ⟨S2x12544, .i1⟩
  | 123 => ⟨S_, .i32⟩
  | 124 => ⟨S2x12544, .i32⟩
  | 125 => ⟨S2x12544, .i1⟩
  | 126 => ⟨S2x12544, .i1⟩
  | 127 => ⟨S2x12544, .f32⟩
  | _ => ⟨S2x300x256x256, .f32⟩

abbrev hbmTy0_3 (i : Nat) : BufTy := match i % 128 with
  | 0 => ⟨S_, .i32⟩
  | 1 => ⟨S_, .i32⟩
  | 2 => ⟨S_, .i32⟩
  | 3 => ⟨S2x12544, .i32⟩
  | 4 => ⟨S2x12544, .i32⟩
  | 5 => ⟨S_, .i32⟩
  | 6 => ⟨S2x12544, .i32⟩
  | 7 => ⟨S2x12544, .i32⟩
  | 8 => ⟨S_, .i32⟩
  | 9 => ⟨S_, .i32⟩
  | 10 => ⟨S_, .i32⟩
  | 11 => ⟨S2x12544, .i32⟩
  | 12 => ⟨S2x12544, .i32⟩
  | 13 => ⟨S_, .i32⟩
  | 14 => ⟨S2x12544, .i32⟩
  | 15 => ⟨S2x12544, .i32⟩
  | 16 => ⟨S_, .i32⟩
  | 17 => ⟨S2x12544, .i32⟩
  | 18 => ⟨S2x12544, .i1⟩
  | 19 => ⟨S_, .i32⟩
  | 20 => ⟨S2x12544, .i32⟩
  | 21 => ⟨S2x12544, .i32⟩
  | 22 => ⟨S2x12544, .i32⟩
  | 23 => ⟨S_, .i32⟩
  | 24 => ⟨S2x12544, .i32⟩
  | 25 => ⟨S2x12544, .i1⟩
  | 26 => ⟨S_, .i32⟩
  | 27 => ⟨S2x12544, .i32⟩
  | 28 => ⟨S2x12544, .i32⟩
  | 29 => ⟨S2x12544, .i32⟩
  | 30 => ⟨S2x12544x1, .i32⟩
  | 31 => ⟨S2x12544x1, .i32⟩
  | 32 => ⟨S2x12544x2, .i32⟩
  | 33 => ⟨S2x300x12544, .f32⟩
  | 34 => ⟨S2x1x12544, .f32⟩
  | 35 => ⟨S2x300x12544, .f32⟩
  | 36 => ⟨S2x300x12544, .f32⟩
  | 37 => ⟨S_, .i32⟩
  | 38 => ⟨S2x12544, .i32⟩
  | 39 => ⟨S2x12544, .i32⟩
  | 40 => ⟨S_, .i32⟩
  | 41 => ⟨S2x12544, .i32⟩
  | 42 => ⟨S2x12544, .i1⟩
  | 43 => ⟨S_, .i32⟩
  | 44 => ⟨S2x12544, .i32⟩
  | 45 => ⟨S2x12544, .i1⟩
  | 46 => ⟨S2x12544, .i1⟩
  | 47 => ⟨S_, .i32⟩
  | 48 => ⟨S2x12544, .i32⟩
  | 49 => ⟨S2x12544, .i1⟩
  | 50 => ⟨S2x12544, .i1⟩
  | 51 => ⟨S_, .i32⟩
  | 52 => ⟨S2x12544, .i32⟩
  | 53 => ⟨S2x12544, .i1⟩
  | 54 => ⟨S2x12544, .i1⟩
  | 55 => ⟨S2x12544, .f32⟩
  | 56 => ⟨S_, .i32⟩
  | 57 => ⟨S_, .i32⟩
  | 58 => ⟨S_, .i32⟩
  | 59 => ⟨S2x12544, .i32⟩
  | 60 => ⟨S2x12544, .i32⟩
  | 61 => ⟨S_, .i32⟩
  | 62 => ⟨S2x12544, .i32⟩
  | 63 => ⟨S2x12544, .i32⟩
  | 64 => ⟨S_, .i32⟩
  | 65 => ⟨S_, .i32⟩
  | 66 => ⟨S_, .i32⟩
  | 67 => ⟨S2x12544, .i32⟩
  | 68 => ⟨S2x12544, .i32⟩
  | 69 => ⟨S_, .i32⟩
  | 70 => ⟨S2x12544, .i32⟩
  | 71 => ⟨S2x12544, .i32⟩
  | 72 => ⟨S_, .i32⟩
  | 73 => ⟨S2x12544, .i32⟩
  | 74 => ⟨S2x12544, .i1⟩
  | 75 => ⟨S_, .i32⟩
  | 76 => ⟨S2x12544, .i32⟩
  | 77 => ⟨S2x12544, .i32⟩
  | 78 => ⟨S2x12544, .i32⟩
  | 79 => ⟨S_, .i32⟩
  | 80 => ⟨S2x12544, .i32⟩
  | 81 => ⟨S2x12544, .i1⟩
  | 82 => ⟨S_, .i32⟩
  | 83 => ⟨S2x12544, .i32⟩
  | 84 => ⟨S2x12544, .i32⟩
  | 85 => ⟨S2x12544, .i32⟩
  | 86 => ⟨S2x12544x1, .i32⟩
  | 87 => ⟨S2x12544x1, .i32⟩
  | 88 => ⟨S2x12544x2, .i32⟩
  | 89 => ⟨S2x300x12544, .f32⟩
  | 90 => ⟨S2x1x12544, .f32⟩
  | 91 => ⟨S2x300x12544, .f32⟩
  | 92 => ⟨S2x300x12544, .f32⟩
  | 93 => ⟨S_, .i32⟩
  | 94 => ⟨S2x12544, .i32⟩
  | 95 => ⟨S2x12544, .i32⟩
  | 96 => ⟨S_, .i32⟩
  | 97 => ⟨S2x12544, .i32⟩
  | 98 => ⟨S2x12544, .i32⟩
  | 99 => ⟨S_, .i32⟩
  | 100 => ⟨S2x12544, .i32⟩
  | 101 => ⟨S2x12544, .i1⟩
  | 102 => ⟨S_, .i32⟩
  | 103 => ⟨S2x12544, .i32⟩
  | 104 => ⟨S2x12544, .i1⟩
  | 105 => ⟨S2x12544, .i1⟩
  | 106 => ⟨S_, .i32⟩
  | 107 => ⟨S2x12544, .i32⟩
  | 108 => ⟨S2x12544, .i1⟩
  | 109 => ⟨S2x12544, .i1⟩
  | 110 => ⟨S_, .i32⟩
  | 111 => ⟨S2x12544, .i32⟩
  | 112 => ⟨S2x12544, .i1⟩
  | 113 => ⟨S2x12544, .i1⟩
  | 114 => ⟨S2x12544, .f32⟩
  | 115 => ⟨S_, .i32⟩
  | 116 => ⟨S_, .i32⟩
  | 117 => ⟨S_, .i32⟩
  | 118 => ⟨S2x12544, .i32⟩
  | 119 => ⟨S2x12544, .i32⟩
  | 120 => ⟨S_, .i32⟩
  | 121 => ⟨S2x12544, .i32⟩
  | 122 => ⟨S2x12544, .i32⟩
  | 123 => ⟨S_, .i32⟩
  | 124 => ⟨S_, .i32⟩
  | 125 => ⟨S_, .i32⟩
  | 126 => ⟨S2x12544, .i32⟩
  | 127 => ⟨S2x12544, .i32⟩
  | _ => ⟨S2x300x256x256, .f32⟩

abbrev hbmTy0_4 (i : Nat) : BufTy := match i % 128 with
  | 0 => ⟨S_, .i32⟩
  | 1 => ⟨S2x12544, .i32⟩
  | 2 => ⟨S2x12544, .i32⟩
  | 3 => ⟨S_, .i32⟩
  | 4 => ⟨S2x12544, .i32⟩
  | 5 => ⟨S2x12544, .i1⟩
  | 6 => ⟨S_, .i32⟩
  | 7 => ⟨S2x12544, .i32⟩
  | 8 => ⟨S2x12544, .i32⟩
  | 9 => ⟨S2x12544, .i32⟩
  | 10 => ⟨S_, .i32⟩
  | 11 => ⟨S2x12544, .i32⟩
  | 12 => ⟨S2x12544, .i1⟩
  | 13 => ⟨S_, .i32⟩
  | 14 => ⟨S2x12544, .i32⟩
  | 15 => ⟨S2x12544, .i32⟩
  | 16 => ⟨S2x12544, .i32⟩
  | 17 => ⟨S2x12544x1, .i32⟩
  | 18 => ⟨S2x12544x1, .i32⟩
  | 19 => ⟨S2x12544x2, .i32⟩
  | 20 => ⟨S2x300x12544, .f32⟩
  | 21 => ⟨S2x1x12544, .f32⟩
  | 22 => ⟨S2x300x12544, .f32⟩
  | 23 => ⟨S2x300x12544, .f32⟩
  | 24 => ⟨S_, .f32⟩
  | 25 => ⟨S2x12544, .f32⟩
  | 26 => ⟨S2x12544, .f32⟩
  | 27 => ⟨S2x1x12544, .f32⟩
  | 28 => ⟨S2x300x12544, .f32⟩
  | 29 => ⟨S2x300x12544, .f32⟩
  | 30 => ⟨S_, .f32⟩
  | 31 => ⟨S2x12544, .f32⟩
  | 32 => ⟨S2x12544, .f32⟩
  | 33 => ⟨S2x1x12544, .f32⟩
  | 34 => ⟨S2x300x12544, .f32⟩
  | 35 => ⟨S2x300x12544, .f32⟩
  | 36 => ⟨S_, .f32⟩
  | 37 => ⟨S2x12544, .f32⟩
  | 38 => ⟨S2x12544, .f32⟩
  | 39 => ⟨S2x1x12544, .f32⟩
  | 40 => ⟨S2x300x12544, .f32⟩
  | 41 => ⟨S2x300x12544, .f32⟩
  | 42 => ⟨S2x1x12544, .f32⟩
  | 43 => ⟨S2x300x12544, .f32⟩
  | 44 => ⟨S2x300x12544, .f32⟩
  | 45 => ⟨S2x300x12544, .f32⟩
  | 46 => ⟨S2x1x12544, .f32⟩
  | 47 => ⟨S2x300x12544, .f32⟩
  | 48 => ⟨S2x300x12544, .f32⟩
  | 49 => ⟨S_, .f32⟩
  | 50 => ⟨S2x12544, .f32⟩
  | 51 => ⟨S2x12544, .f32⟩
  | 52 => ⟨S2x1x12544, .f32⟩
  | 53 => ⟨S2x300x12544, .f32⟩
  | 54 => ⟨S2x300x12544, .f32⟩
  | 55 => ⟨S2x300x12544, .f32⟩
  | 56 => ⟨S2x1x12544, .f32⟩
  | 57 => ⟨S2x300x12544, .f32⟩
  | 58 => ⟨S2x300x12544, .f32⟩
  | 59 => ⟨S2x1x12544, .f32⟩
  | 60 => ⟨S2x300x12544, .f32⟩
  | 61 => ⟨S2x300x12544, .f32⟩
  | 62 => ⟨S2x300x12544, .f32⟩
  | 63 => ⟨S2x300x12544, .f32⟩
  | 64 => ⟨S_, .f32⟩
  | 65 => ⟨S2x300x12544, .f32⟩
  | 66 => ⟨S2x300x12544, .f32⟩
  | 67 => ⟨S2x300x12544, .f32⟩
  | 68 => ⟨S2x300x12544, .f32⟩
  | 69 => ⟨S2x300x12544, .i1⟩
  | 70 => ⟨S2x300x12544, .f32⟩
  | 71 => ⟨S2x300x12544, .f32⟩
  | 72 => ⟨S2x300x12544, .f32⟩
  | 73 => ⟨S2x300x12544, .f32⟩
  | 74 => ⟨S2x300x12544, .f32⟩
  | 75 => ⟨S2x300x12544, .f32⟩
  | 76 => ⟨S2x300x12544, .f32⟩
  | 77 => ⟨S2x300x12544, .f32⟩
  | 78 => ⟨S_, .f32⟩
  | 79 => ⟨S2x300x12544, .f32⟩
  | 80 => ⟨S2x300x12544, .f32⟩
  | 81 => ⟨S2x300x12544, .f32⟩
  | 82 => ⟨S2x300x12544, .f32⟩
  | 83 => ⟨S2x300x12544, .i1⟩
  | 84 => ⟨S2x300x12544, .f32⟩
  | 85 => ⟨S2x300x12544, .f32⟩
  | 86 => ⟨S2x300x12544, .f32⟩
  | 87 => ⟨S2x300x12544, .f32⟩
  | 88 => ⟨S2x300x12544, .f32⟩
  | 89 => ⟨S2x300x12544, .f32⟩
  | 90 => ⟨S2x300x12544, .f32⟩
  | 91 => ⟨S2x300x12544, .f32⟩
  | 92 => ⟨S2x300x300, .f32⟩
  | 93 => ⟨S_, .f32⟩
  | 94 => ⟨S2x300x12544, .f32⟩
  | 95 => ⟨S2x300x12544, .f32⟩
  | 96 => ⟨S2x300x300, .f32⟩
  | 97 => ⟨S2x300x300, .f32⟩
  | 98 => ⟨S_, .f32⟩
  | 99 => ⟨S2x300x300, .f32⟩
  | 100 => ⟨S2x300x300, .f32⟩
  | 101 => ⟨S2x300x12544, .f32⟩
  | 102 => ⟨S2x300x12544, .f32⟩
  | 103 => ⟨S_, .f32⟩
  | 104 => ⟨S2x300x12544, .f32⟩
  | 105 => ⟨S2x300x12544, .f32⟩
  | 106 => ⟨S_, .f32⟩
  | 107 => ⟨S2x300x12544, .f32⟩
  | 108 => ⟨S2x300x12544, .f32⟩
  | 109 => ⟨S2x300x300, .f32⟩
  | 110 => ⟨S_, .f32⟩
  | 111 => ⟨S2x300x300, .f32⟩
  | 112 => ⟨S2x300x300, .f32⟩
  | 113 => ⟨S_, .f32⟩
  | 114 => ⟨S2x300, .f32⟩
  | 115 => ⟨S2x300x1, .f32⟩
  | 116 => ⟨S_, .f32⟩
  | 117 => ⟨S2x300, .f32⟩
  | 118 => ⟨S2x1x300, .f32⟩
  | 119 => ⟨S2x300x300, .f32⟩
  | 120 => ⟨S2x300x300, .f32⟩
  | 121 => ⟨S2x300x300, .f32⟩
  | 122 => ⟨S_, .f32⟩
  | 123 => ⟨S2x300x300, .f32⟩
  | 124 => ⟨S2x300x300, .f32⟩
  | 125 => ⟨S_, .f32⟩
  | 126 => ⟨S2x300x300, .f32⟩
  | 127 => ⟨S2x300x300, .f32⟩
  | _ => ⟨S2x300x256x256, .f32⟩

abbrev hbmTy0_5 (i : Nat) : BufTy := match i % 128 with
  | 0 => ⟨S2x300x300, .f32⟩
  | 1 => ⟨S_, .f32⟩
  | 2 => ⟨S2x300x300, .f32⟩
  | 3 => ⟨S2x300x300, .f32⟩
  | 4 => ⟨S2x300x1x4, .f32⟩
  | 5 => ⟨S2x1x300x4, .f32⟩
  | 6 => ⟨S2x300x300x4, .f32⟩
  | 7 => ⟨S2x300x300x4, .f32⟩
  | 8 => ⟨S2x300x300x4, .f32⟩
  | 9 => ⟨S2x300x300x4, .f32⟩
  | 10 => ⟨S_, .f32⟩
  | 11 => ⟨S2x300x300, .f32⟩
  | 12 => ⟨S2x300x1, .f32⟩
  | 13 => ⟨S2x300, .f32⟩
  | 14 => ⟨S2x300x1, .f32⟩
  | 15 => ⟨S2x300, .f32⟩
  | 16 => ⟨S2x300x1, .f32⟩
  | 17 => ⟨S2x300, .f32⟩
  | 18 => ⟨S2x300x1, .f32⟩
  | 19 => ⟨S2x300, .f32⟩
  | 20 => ⟨S_, .f32⟩
  | 21 => ⟨S2x300, .f32⟩
  | 22 => ⟨S2x300, .f32⟩
  | 23 => ⟨S2x300, .f32⟩
  | 24 => ⟨S_, .f32⟩
  | 25 => ⟨S2x300, .f32⟩
  | 26 => ⟨S2x300, .f32⟩
  | 27 => ⟨S2x300, .f32⟩
  | 28 => ⟨S_, .f32⟩
  | 29 => ⟨S2x300, .f32⟩
  | 30 => ⟨S2x300, .f32⟩
  | 31 => ⟨S2x300, .f32⟩
  | 32 => ⟨S_, .f32⟩
  | 33 => ⟨S2x300, .f32⟩
  | 34 => ⟨S2x300, .f32⟩
  | 35 => ⟨S2x300, .f32⟩
  | 36 => ⟨S2x300x1, .f32⟩
  | 37 => ⟨S2x300x1, .f32⟩
  | 38 => ⟨S2x300x1, .f32⟩
  | 39 => ⟨S2x300x1, .f32⟩
  | 40 => ⟨S2x300x4, .f32⟩
  | 41 => ⟨S2x300x1, .f32⟩
  | 42 => ⟨S2x300, .f32⟩
  | 43 => ⟨S2x300x1, .f32⟩
  | 44 => ⟨S2x300, .f32⟩
  | 45 => ⟨S2x300x1, .f32⟩
  | 46 => ⟨S2x300, .f32⟩
  | 47 => ⟨S2x300x1, .f32⟩
  | 48 => ⟨S2x300, .f32⟩
  | 49 => ⟨S_, .f32⟩
  | 50 => ⟨S2x300, .f32⟩
  | 51 => ⟨S2x300, .f32⟩
  | 52 => ⟨S2x300, .f32⟩
  | 53 => ⟨S_, .f32⟩
  | 54 => ⟨S2x300, .f32⟩
  | 55 => ⟨S2x300, .f32⟩
  | 56 => ⟨S2x300, .f32⟩
  | 57 => ⟨S_, .f32⟩
  | 58 => ⟨S2x300, .f32⟩
  | 59 => ⟨S2x300, .f32⟩
  | 60 => ⟨S2x300, .f32⟩
  | 61 => ⟨S_, .f32⟩
  | 62 => ⟨S2x300, .f32⟩
  | 63 => ⟨S2x300, .f32⟩
  | 64 => ⟨S2x300, .f32⟩
  | 65 => ⟨S2x300x1, .f32⟩
  | 66 => ⟨S2x300x1, .f32⟩
  | 67 => ⟨S2x300x1, .f32⟩
  | 68 => ⟨S2x300x1, .f32⟩
  | 69 => ⟨S2x300x4, .f32⟩
  | 70 => ⟨S2x300x1, .f32⟩
  | 71 => ⟨S2x300, .f32⟩
  | 72 => ⟨S2x300x1, .f32⟩
  | 73 => ⟨S2x300, .f32⟩
  | 74 => ⟨S2x300, .f32⟩
  | 75 => ⟨S2x300x1, .f32⟩
  | 76 => ⟨S2x300, .f32⟩
  | 77 => ⟨S2x300x1, .f32⟩
  | 78 => ⟨S2x300, .f32⟩
  | 79 => ⟨S2x300, .f32⟩
  | 80 => ⟨S2x300, .f32⟩
  | 81 => ⟨S2x300x1, .f32⟩
  | 82 => ⟨S2x300, .f32⟩
  | 83 => ⟨S2x300x1, .f32⟩
  | 84 => ⟨S2x300, .f32⟩
  | 85 => ⟨S2x300, .f32⟩
  | 86 => ⟨S2x300x1, .f32⟩
  | 87 => ⟨S2x300, .f32⟩
  | 88 => ⟨S2x300x1, .f32⟩
  | 89 => ⟨S2x300, .f32⟩
  | 90 => ⟨S2x300, .f32⟩
  | 91 => ⟨S2x300, .f32⟩
  | 92 => ⟨S2x300x2, .f32⟩
  | 93 => ⟨S2x300x1x2, .f32⟩
  | 94 => ⟨S2x300x2, .f32⟩
  | 95 => ⟨S2x1x300x2, .f32⟩
  | 96 => ⟨S2x300x300x2, .f32⟩
  | 97 => ⟨S2x300x300x2, .f32⟩
  | 98 => ⟨S2x300x300x2, .f32⟩
  | 99 => ⟨S2x300x2, .f32⟩
  | 100 => ⟨S2x300x1x2, .f32⟩
  | 101 => ⟨S2x300x2, .f32⟩
  | 102 => ⟨S2x1x300x2, .f32⟩
  | 103 => ⟨S2x300x300x2, .f32⟩
  | 104 => ⟨S2x300x300x2, .f32⟩
  | 105 => ⟨S2x300x300x2, .f32⟩
  | 106 => ⟨S2x300x300x2, .f32⟩
  | 107 => ⟨S_, .f32⟩
  | 108 => ⟨S_, .f32⟩
  | 109 => ⟨S2x300x300x2, .f32⟩
  | 110 => ⟨S2x300x300x2, .f32⟩
  | 111 => ⟨S2x300x300x1, .f32⟩
  | 112 => ⟨S2x300x300, .f32⟩
  | 113 => ⟨S2x300x300x1, .f32⟩
  | 114 => ⟨S2x300x300, .f32⟩
  | 115 => ⟨S2x300x300, .f32⟩
  | 116 => ⟨S2x300x1, .f32⟩
  | 117 => ⟨S2x1x300, .f32⟩
  | 118 => ⟨S2x300x300, .f32⟩
  | 119 => ⟨S2x300x300, .f32⟩
  | 120 => ⟨S2x300x300, .f32⟩
  | 121 => ⟨S2x300x300, .f32⟩
  | 122 => ⟨S2x300x300, .f32⟩
  | 123 => ⟨S2x300x2, .f32⟩
  | 124 => ⟨S2x300x1x2, .f32⟩
  | 125 => ⟨S2x300x2, .f32⟩
  | 126 => ⟨S2x1x300x2, .f32⟩
  | 127 => ⟨S2x300x300x2, .f32⟩
  | _ => ⟨S2x300x256x256, .f32⟩

abbrev hbmTy0_6 (i : Nat) : BufTy := match i % 128 with
  | 0 => ⟨S2x300x300x2, .f32⟩
  | 1 => ⟨S2x300x300x2, .f32⟩
  | 2 => ⟨S2x300x2, .f32⟩
  | 3 => ⟨S2x300x1x2, .f32⟩
  | 4 => ⟨S2x300x2, .f32⟩
  | 5 => ⟨S2x1x300x2, .f32⟩
  | 6 => ⟨S2x300x300x2, .f32⟩
  | 7 => ⟨S2x300x300x2, .f32⟩
  | 8 => ⟨S2x300x300x2, .f32⟩
  | 9 => ⟨S2x300x300x2, .f32⟩
  | 10 => ⟨S_, .f32⟩
  | 11 => ⟨S_, .f32⟩
  | 12 => ⟨S2x300x300x2, .f32⟩
  | 13 => ⟨S2x300x300x2, .f32⟩
  | 14 => ⟨S2x300x300x1, .f32⟩
  | 15 => ⟨S2x300x300, .f32⟩
  | 16 => ⟨S2x300x300x1, .f32⟩
  | 17 => ⟨S2x300x300, .f32⟩
  | 18 => ⟨S2x300x300, .f32⟩
  | 19 => ⟨S2x300x300, .f32⟩
  | 20 => ⟨S2x300x300, .f32⟩
  | 21 => ⟨S2x300x300, .f32⟩
  | 22 => ⟨S2x300x300, .f32⟩
  | 23 => ⟨S_, .f32⟩
  | 24 => ⟨S2x300x300, .f32⟩
  | 25 => ⟨S2x300x300, .f32⟩
  | 26 => ⟨S_, .f32⟩
  | 27 => ⟨S2x300x300, .f32⟩
  | 28 => ⟨S2x300x300, .f32⟩
  | 29 => ⟨S2x300x300, .f32⟩
  | 30 => ⟨S_, .f32⟩
  | 31 => ⟨S2x300x300, .f32⟩
  | 32 => ⟨S2x300x300, .f32⟩
  | 33 => ⟨S2x300x300, .f32⟩
  | 34 => ⟨S_, .f32⟩
  | 35 => ⟨S2x300x300, .f32⟩
  | 36 => ⟨S2x300x300, .f32⟩
  | 37 => ⟨S2x300x300, .f32⟩
  | _ => ⟨S2x300x256x256, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S2x300x256x256, .f32⟩

abbrev bufTy : (tb : Table) → Fin (tcTables nBuf tb) → BufTy
  | .hbm, ⟨i, _⟩ => hbmTy i
  | _, _ => ⟨S2x300x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c : Ref sig .tc := ⟨.hbm, 27, rfl⟩
abbrev main_v18 : Ref sig .tc := ⟨.hbm, 28, rfl⟩
abbrev main_v19 : Ref sig .tc := ⟨.hbm, 29, rfl⟩
abbrev main_c_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_c_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_6 : Ref sig .tc := ⟨.hbm, 43, rfl⟩
abbrev main_c_7 : Ref sig .tc := ⟨.hbm, 44, rfl⟩
abbrev main_call0_v0 : Ref sig .tc := ⟨.hbm, 45, rfl⟩
abbrev main_call0_v1 : Ref sig .tc := ⟨.hbm, 46, rfl⟩
abbrev main_call0_v2 : Ref sig .tc := ⟨.hbm, 47, rfl⟩
abbrev main_call0_v3 : Ref sig .tc := ⟨.hbm, 48, rfl⟩
abbrev main_call0_v4 : Ref sig .tc := ⟨.hbm, 49, rfl⟩
abbrev main_v30 : Ref sig .tc := ⟨.hbm, 50, rfl⟩
abbrev main_c_8 : Ref sig .tc := ⟨.hbm, 51, rfl⟩
abbrev main_c_9 : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_call1_v3 : Ref sig .tc := ⟨.hbm, 56, rfl⟩
abbrev main_call1_v4 : Ref sig .tc := ⟨.hbm, 57, rfl⟩
abbrev main_v31 : Ref sig .tc := ⟨.hbm, 58, rfl⟩
abbrev main_c_10 : Ref sig .tc := ⟨.hbm, 59, rfl⟩
abbrev main_v32 : Ref sig .tc := ⟨.hbm, 60, rfl⟩
abbrev main_v33 : Ref sig .tc := ⟨.hbm, 61, rfl⟩
abbrev main_c_11 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_c_12 : Ref sig .tc := ⟨.hbm, 66, rfl⟩
abbrev main_v37 : Ref sig .tc := ⟨.hbm, 67, rfl⟩
abbrev main_v38 : Ref sig .tc := ⟨.hbm, 68, rfl⟩
abbrev main_c_13 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_c_14 : Ref sig .tc := ⟨.hbm, 80, rfl⟩
abbrev main_v49 : Ref sig .tc := ⟨.hbm, 81, rfl⟩
abbrev main_v50 : Ref sig .tc := ⟨.hbm, 82, rfl⟩
abbrev main_c_15 : Ref sig .tc := ⟨.hbm, 83, rfl⟩
abbrev main_v51 : Ref sig .tc := ⟨.hbm, 84, rfl⟩
abbrev main_v52 : Ref sig .tc := ⟨.hbm, 85, rfl⟩
abbrev main_c_16 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_c_17 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_c_18 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_c_19 : Ref sig .tc := ⟨.hbm, 99, rfl⟩
abbrev main_c_20 : Ref sig .tc := ⟨.hbm, 100, rfl⟩
abbrev main_call2_v0 : Ref sig .tc := ⟨.hbm, 101, rfl⟩
abbrev main_call2_v1 : Ref sig .tc := ⟨.hbm, 102, rfl⟩
abbrev main_call2_v2 : Ref sig .tc := ⟨.hbm, 103, rfl⟩
abbrev main_call2_v3 : Ref sig .tc := ⟨.hbm, 104, rfl⟩
abbrev main_call2_v4 : Ref sig .tc := ⟨.hbm, 105, rfl⟩
abbrev main_v63 : Ref sig .tc := ⟨.hbm, 106, rfl⟩
abbrev main_c_21 : Ref sig .tc := ⟨.hbm, 107, rfl⟩
abbrev main_c_22 : Ref sig .tc := ⟨.hbm, 108, rfl⟩
abbrev main_call3_v0 : Ref sig .tc := ⟨.hbm, 109, rfl⟩
abbrev main_call3_v1 : Ref sig .tc := ⟨.hbm, 110, rfl⟩
abbrev main_call3_v2 : Ref sig .tc := ⟨.hbm, 111, rfl⟩
abbrev main_call3_v3 : Ref sig .tc := ⟨.hbm, 112, rfl⟩
abbrev main_call3_v4 : Ref sig .tc := ⟨.hbm, 113, rfl⟩
abbrev main_v64 : Ref sig .tc := ⟨.hbm, 114, rfl⟩
abbrev main_c_23 : Ref sig .tc := ⟨.hbm, 115, rfl⟩
abbrev main_v65 : Ref sig .tc := ⟨.hbm, 116, rfl⟩
abbrev main_v66 : Ref sig .tc := ⟨.hbm, 117, rfl⟩
abbrev main_c_24 : Ref sig .tc := ⟨.hbm, 118, rfl⟩
abbrev main_v67 : Ref sig .tc := ⟨.hbm, 119, rfl⟩
abbrev main_v68 : Ref sig .tc := ⟨.hbm, 120, rfl⟩
abbrev main_v69 : Ref sig .tc := ⟨.hbm, 121, rfl⟩
abbrev main_c_25 : Ref sig .tc := ⟨.hbm, 122, rfl⟩
abbrev main_v70 : Ref sig .tc := ⟨.hbm, 123, rfl⟩
abbrev main_v71 : Ref sig .tc := ⟨.hbm, 124, rfl⟩
abbrev main_c_26 : Ref sig .tc := ⟨.hbm, 125, rfl⟩
abbrev main_v72 : Ref sig .tc := ⟨.hbm, 126, rfl⟩
abbrev main_v73 : Ref sig .tc := ⟨.hbm, 127, rfl⟩
abbrev main_v74 : Ref sig .tc := ⟨.hbm, 128, rfl⟩
abbrev main_v75 : Ref sig .tc := ⟨.hbm, 129, rfl⟩
abbrev main_v76 : Ref sig .tc := ⟨.hbm, 130, rfl⟩
abbrev main_v77 : Ref sig .tc := ⟨.hbm, 131, rfl⟩
abbrev main_v78 : Ref sig .tc := ⟨.hbm, 132, rfl⟩
abbrev main_v79 : Ref sig .tc := ⟨.hbm, 133, rfl⟩
abbrev main_v80 : Ref sig .tc := ⟨.hbm, 134, rfl⟩
abbrev main_v81 : Ref sig .tc := ⟨.hbm, 135, rfl⟩
abbrev main_c_27 : Ref sig .tc := ⟨.hbm, 136, rfl⟩
abbrev main_v82 : Ref sig .tc := ⟨.hbm, 137, rfl⟩
abbrev main_v83 : Ref sig .tc := ⟨.hbm, 138, rfl⟩
abbrev main_c_28 : Ref sig .tc := ⟨.hbm, 139, rfl⟩
abbrev main_v84 : Ref sig .tc := ⟨.hbm, 140, rfl⟩
abbrev main_v85 : Ref sig .tc := ⟨.hbm, 141, rfl⟩
abbrev main_c_29 : Ref sig .tc := ⟨.hbm, 142, rfl⟩
abbrev main_v86 : Ref sig .tc := ⟨.hbm, 143, rfl⟩
abbrev main_v87 : Ref sig .tc := ⟨.hbm, 144, rfl⟩
abbrev main_v88 : Ref sig .tc := ⟨.hbm, 145, rfl⟩
abbrev main_c_30 : Ref sig .tc := ⟨.hbm, 146, rfl⟩
abbrev main_v89 : Ref sig .tc := ⟨.hbm, 147, rfl⟩
abbrev main_v90 : Ref sig .tc := ⟨.hbm, 148, rfl⟩
abbrev main_v91 : Ref sig .tc := ⟨.hbm, 149, rfl⟩
abbrev main_c_31 : Ref sig .tc := ⟨.hbm, 150, rfl⟩
abbrev main_v92 : Ref sig .tc := ⟨.hbm, 151, rfl⟩
abbrev main_v93 : Ref sig .tc := ⟨.hbm, 152, rfl⟩
abbrev main_v94 : Ref sig .tc := ⟨.hbm, 153, rfl⟩
abbrev main_v95 : Ref sig .tc := ⟨.hbm, 154, rfl⟩
abbrev main_c_32 : Ref sig .tc := ⟨.hbm, 155, rfl⟩
abbrev main_c_33 : Ref sig .tc := ⟨.hbm, 156, rfl⟩
abbrev main_call4_v0 : Ref sig .tc := ⟨.hbm, 157, rfl⟩
abbrev main_call4_v1 : Ref sig .tc := ⟨.hbm, 158, rfl⟩
abbrev main_call4_v2 : Ref sig .tc := ⟨.hbm, 159, rfl⟩
abbrev main_call4_v3 : Ref sig .tc := ⟨.hbm, 160, rfl⟩
abbrev main_call4_v4 : Ref sig .tc := ⟨.hbm, 161, rfl⟩
abbrev main_v96 : Ref sig .tc := ⟨.hbm, 162, rfl⟩
abbrev main_c_34 : Ref sig .tc := ⟨.hbm, 163, rfl⟩
abbrev main_c_35 : Ref sig .tc := ⟨.hbm, 164, rfl⟩
abbrev main_call5_v0 : Ref sig .tc := ⟨.hbm, 165, rfl⟩
abbrev main_call5_v1 : Ref sig .tc := ⟨.hbm, 166, rfl⟩
abbrev main_call5_v2 : Ref sig .tc := ⟨.hbm, 167, rfl⟩
abbrev main_call5_v3 : Ref sig .tc := ⟨.hbm, 168, rfl⟩
abbrev main_call5_v4 : Ref sig .tc := ⟨.hbm, 169, rfl⟩
abbrev main_v97 : Ref sig .tc := ⟨.hbm, 170, rfl⟩
abbrev main_c_36 : Ref sig .tc := ⟨.hbm, 171, rfl⟩
abbrev main_v98 : Ref sig .tc := ⟨.hbm, 172, rfl⟩
abbrev main_v99 : Ref sig .tc := ⟨.hbm, 173, rfl⟩
abbrev main_c_37 : Ref sig .tc := ⟨.hbm, 174, rfl⟩
abbrev main_v100 : Ref sig .tc := ⟨.hbm, 175, rfl⟩
abbrev main_v101 : Ref sig .tc := ⟨.hbm, 176, rfl⟩
abbrev main_v102 : Ref sig .tc := ⟨.hbm, 177, rfl⟩
abbrev main_c_38 : Ref sig .tc := ⟨.hbm, 178, rfl⟩
abbrev main_v103 : Ref sig .tc := ⟨.hbm, 179, rfl⟩
abbrev main_v104 : Ref sig .tc := ⟨.hbm, 180, rfl⟩
abbrev main_c_39 : Ref sig .tc := ⟨.hbm, 181, rfl⟩
abbrev main_v105 : Ref sig .tc := ⟨.hbm, 182, rfl⟩
abbrev main_v106 : Ref sig .tc := ⟨.hbm, 183, rfl⟩
abbrev main_v107 : Ref sig .tc := ⟨.hbm, 184, rfl⟩
abbrev main_v108 : Ref sig .tc := ⟨.hbm, 185, rfl⟩
abbrev main_v109 : Ref sig .tc := ⟨.hbm, 186, rfl⟩
abbrev main_v110 : Ref sig .tc := ⟨.hbm, 187, rfl⟩
abbrev main_v111 : Ref sig .tc := ⟨.hbm, 188, rfl⟩
abbrev main_v112 : Ref sig .tc := ⟨.hbm, 189, rfl⟩
abbrev main_v113 : Ref sig .tc := ⟨.hbm, 190, rfl⟩
abbrev main_v114 : Ref sig .tc := ⟨.hbm, 191, rfl⟩
abbrev main_c_40 : Ref sig .tc := ⟨.hbm, 192, rfl⟩
abbrev main_v115 : Ref sig .tc := ⟨.hbm, 193, rfl⟩
abbrev main_v116 : Ref sig .tc := ⟨.hbm, 194, rfl⟩
abbrev main_c_41 : Ref sig .tc := ⟨.hbm, 195, rfl⟩
abbrev main_v117 : Ref sig .tc := ⟨.hbm, 196, rfl⟩
abbrev main_v118 : Ref sig .tc := ⟨.hbm, 197, rfl⟩
abbrev main_c_42 : Ref sig .tc := ⟨.hbm, 198, rfl⟩
abbrev main_v119 : Ref sig .tc := ⟨.hbm, 199, rfl⟩
abbrev main_v120 : Ref sig .tc := ⟨.hbm, 200, rfl⟩
abbrev main_c_43 : Ref sig .tc := ⟨.hbm, 201, rfl⟩
abbrev main_v121 : Ref sig .tc := ⟨.hbm, 202, rfl⟩
abbrev main_v122 : Ref sig .tc := ⟨.hbm, 203, rfl⟩
abbrev main_v123 : Ref sig .tc := ⟨.hbm, 204, rfl⟩
abbrev main_c_44 : Ref sig .tc := ⟨.hbm, 205, rfl⟩
abbrev main_v124 : Ref sig .tc := ⟨.hbm, 206, rfl⟩
abbrev main_v125 : Ref sig .tc := ⟨.hbm, 207, rfl⟩
abbrev main_v126 : Ref sig .tc := ⟨.hbm, 208, rfl⟩
abbrev main_c_45 : Ref sig .tc := ⟨.hbm, 209, rfl⟩
abbrev main_v127 : Ref sig .tc := ⟨.hbm, 210, rfl⟩
abbrev main_v128 : Ref sig .tc := ⟨.hbm, 211, rfl⟩
abbrev main_v129 : Ref sig .tc := ⟨.hbm, 212, rfl⟩
abbrev main_v130 : Ref sig .tc := ⟨.hbm, 213, rfl⟩
abbrev main_c_46 : Ref sig .tc := ⟨.hbm, 214, rfl⟩
abbrev main_c_47 : Ref sig .tc := ⟨.hbm, 215, rfl⟩
abbrev main_call6_v0 : Ref sig .tc := ⟨.hbm, 216, rfl⟩
abbrev main_call6_v1 : Ref sig .tc := ⟨.hbm, 217, rfl⟩
abbrev main_call6_v2 : Ref sig .tc := ⟨.hbm, 218, rfl⟩
abbrev main_call6_v3 : Ref sig .tc := ⟨.hbm, 219, rfl⟩
abbrev main_call6_v4 : Ref sig .tc := ⟨.hbm, 220, rfl⟩
abbrev main_v131 : Ref sig .tc := ⟨.hbm, 221, rfl⟩
abbrev main_c_48 : Ref sig .tc := ⟨.hbm, 222, rfl⟩
abbrev main_c_49 : Ref sig .tc := ⟨.hbm, 223, rfl⟩
abbrev main_call7_v0 : Ref sig .tc := ⟨.hbm, 224, rfl⟩
abbrev main_call7_v1 : Ref sig .tc := ⟨.hbm, 225, rfl⟩
abbrev main_call7_v2 : Ref sig .tc := ⟨.hbm, 226, rfl⟩
abbrev main_call7_v3 : Ref sig .tc := ⟨.hbm, 227, rfl⟩
abbrev main_call7_v4 : Ref sig .tc := ⟨.hbm, 228, rfl⟩
abbrev main_v132 : Ref sig .tc := ⟨.hbm, 229, rfl⟩
abbrev main_c_50 : Ref sig .tc := ⟨.hbm, 230, rfl⟩
abbrev main_v133 : Ref sig .tc := ⟨.hbm, 231, rfl⟩
abbrev main_v134 : Ref sig .tc := ⟨.hbm, 232, rfl⟩
abbrev main_c_51 : Ref sig .tc := ⟨.hbm, 233, rfl⟩
abbrev main_v135 : Ref sig .tc := ⟨.hbm, 234, rfl⟩
abbrev main_v136 : Ref sig .tc := ⟨.hbm, 235, rfl⟩
abbrev main_v137 : Ref sig .tc := ⟨.hbm, 236, rfl⟩
abbrev main_c_52 : Ref sig .tc := ⟨.hbm, 237, rfl⟩
abbrev main_v138 : Ref sig .tc := ⟨.hbm, 238, rfl⟩
abbrev main_v139 : Ref sig .tc := ⟨.hbm, 239, rfl⟩
abbrev main_c_53 : Ref sig .tc := ⟨.hbm, 240, rfl⟩
abbrev main_v140 : Ref sig .tc := ⟨.hbm, 241, rfl⟩
abbrev main_v141 : Ref sig .tc := ⟨.hbm, 242, rfl⟩
abbrev main_v142 : Ref sig .tc := ⟨.hbm, 243, rfl⟩
abbrev main_v143 : Ref sig .tc := ⟨.hbm, 244, rfl⟩
abbrev main_v144 : Ref sig .tc := ⟨.hbm, 245, rfl⟩
abbrev main_v145 : Ref sig .tc := ⟨.hbm, 246, rfl⟩
abbrev main_v146 : Ref sig .tc := ⟨.hbm, 247, rfl⟩
abbrev main_v147 : Ref sig .tc := ⟨.hbm, 248, rfl⟩
abbrev main_v148 : Ref sig .tc := ⟨.hbm, 249, rfl⟩
abbrev main_v149 : Ref sig .tc := ⟨.hbm, 250, rfl⟩
abbrev main_cst_54 : Ref sig .tc := ⟨.hbm, 251, rfl⟩
abbrev main_v150 : Ref sig .tc := ⟨.hbm, 252, rfl⟩
abbrev main_v151 : Ref sig .tc := ⟨.hbm, 253, rfl⟩
abbrev main_v152 : Ref sig .tc := ⟨.hbm, 254, rfl⟩
abbrev main_v153 : Ref sig .tc := ⟨.hbm, 255, rfl⟩
abbrev main_v154 : Ref sig .tc := ⟨.hbm, 256, rfl⟩
abbrev main_cst_55 : Ref sig .tc := ⟨.hbm, 257, rfl⟩
abbrev main_v155 : Ref sig .tc := ⟨.hbm, 258, rfl⟩
abbrev main_v156 : Ref sig .tc := ⟨.hbm, 259, rfl⟩
abbrev main_v157 : Ref sig .tc := ⟨.hbm, 260, rfl⟩
abbrev main_v158 : Ref sig .tc := ⟨.hbm, 261, rfl⟩
abbrev main_v159 : Ref sig .tc := ⟨.hbm, 262, rfl⟩
abbrev main_cst_56 : Ref sig .tc := ⟨.hbm, 263, rfl⟩
abbrev main_v160 : Ref sig .tc := ⟨.hbm, 264, rfl⟩
abbrev main_v161 : Ref sig .tc := ⟨.hbm, 265, rfl⟩
abbrev main_v162 : Ref sig .tc := ⟨.hbm, 266, rfl⟩
abbrev main_v163 : Ref sig .tc := ⟨.hbm, 267, rfl⟩
abbrev main_v164 : Ref sig .tc := ⟨.hbm, 268, rfl⟩
abbrev main_v165 : Ref sig .tc := ⟨.hbm, 269, rfl⟩
abbrev main_v166 : Ref sig .tc := ⟨.hbm, 270, rfl⟩
abbrev main_v167 : Ref sig .tc := ⟨.hbm, 271, rfl⟩
abbrev main_v168 : Ref sig .tc := ⟨.hbm, 272, rfl⟩
abbrev main_v169 : Ref sig .tc := ⟨.hbm, 273, rfl⟩
abbrev main_v170 : Ref sig .tc := ⟨.hbm, 274, rfl⟩
abbrev main_v171 : Ref sig .tc := ⟨.hbm, 275, rfl⟩
abbrev main_cst_57 : Ref sig .tc := ⟨.hbm, 276, rfl⟩
abbrev main_v172 : Ref sig .tc := ⟨.hbm, 277, rfl⟩
abbrev main_v173 : Ref sig .tc := ⟨.hbm, 278, rfl⟩
abbrev main_v174 : Ref sig .tc := ⟨.hbm, 279, rfl⟩
abbrev main_v175 : Ref sig .tc := ⟨.hbm, 280, rfl⟩
abbrev main_v176 : Ref sig .tc := ⟨.hbm, 281, rfl⟩
abbrev main_v177 : Ref sig .tc := ⟨.hbm, 282, rfl⟩
abbrev main_v178 : Ref sig .tc := ⟨.hbm, 283, rfl⟩
abbrev main_v179 : Ref sig .tc := ⟨.hbm, 284, rfl⟩
abbrev main_v180 : Ref sig .tc := ⟨.hbm, 285, rfl⟩
abbrev main_v181 : Ref sig .tc := ⟨.hbm, 286, rfl⟩
abbrev main_v182 : Ref sig .tc := ⟨.hbm, 287, rfl⟩
abbrev main_v183 : Ref sig .tc := ⟨.hbm, 288, rfl⟩
abbrev main_v184 : Ref sig .tc := ⟨.hbm, 289, rfl⟩
abbrev main_v185 : Ref sig .tc := ⟨.hbm, 290, rfl⟩
abbrev main_v186 : Ref sig .tc := ⟨.hbm, 291, rfl⟩
abbrev main_cst_58 : Ref sig .tc := ⟨.hbm, 292, rfl⟩
abbrev main_v187 : Ref sig .tc := ⟨.hbm, 293, rfl⟩
abbrev main_v188 : Ref sig .tc := ⟨.hbm, 294, rfl⟩
abbrev main_cst_59 : Ref sig .tc := ⟨.hbm, 295, rfl⟩
abbrev main_v189 : Ref sig .tc := ⟨.hbm, 296, rfl⟩
abbrev main_v190 : Ref sig .tc := ⟨.hbm, 297, rfl⟩
abbrev main_v191 : Ref sig .tc := ⟨.hbm, 298, rfl⟩
abbrev main_v192 : Ref sig .tc := ⟨.hbm, 299, rfl⟩
abbrev main_cst_60 : Ref sig .tc := ⟨.hbm, 300, rfl⟩
abbrev main_v193 : Ref sig .tc := ⟨.hbm, 301, rfl⟩
abbrev main_v194 : Ref sig .tc := ⟨.hbm, 302, rfl⟩
abbrev main_cst_61 : Ref sig .tc := ⟨.hbm, 303, rfl⟩
abbrev main_v195 : Ref sig .tc := ⟨.hbm, 304, rfl⟩
abbrev main_v196 : Ref sig .tc := ⟨.hbm, 305, rfl⟩
abbrev main_v197 : Ref sig .tc := ⟨.hbm, 306, rfl⟩
abbrev main_v198 : Ref sig .tc := ⟨.hbm, 307, rfl⟩
abbrev main_v199 : Ref sig .tc := ⟨.hbm, 308, rfl⟩
abbrev main_v200 : Ref sig .tc := ⟨.hbm, 309, rfl⟩
abbrev main_v201 : Ref sig .tc := ⟨.hbm, 310, rfl⟩
abbrev main_v202 : Ref sig .tc := ⟨.hbm, 311, rfl⟩
abbrev main_c_62 : Ref sig .tc := ⟨.hbm, 312, rfl⟩
abbrev main_v203 : Ref sig .tc := ⟨.hbm, 313, rfl⟩
abbrev main_v204 : Ref sig .tc := ⟨.hbm, 314, rfl⟩
abbrev main_c_63 : Ref sig .tc := ⟨.hbm, 315, rfl⟩
abbrev main_v205 : Ref sig .tc := ⟨.hbm, 316, rfl⟩
abbrev main_v206 : Ref sig .tc := ⟨.hbm, 317, rfl⟩
abbrev main_v207 : Ref sig .tc := ⟨.hbm, 318, rfl⟩
abbrev main_c_64 : Ref sig .tc := ⟨.hbm, 319, rfl⟩
abbrev main_v208 : Ref sig .tc := ⟨.hbm, 320, rfl⟩
abbrev main_v209 : Ref sig .tc := ⟨.hbm, 321, rfl⟩
abbrev main_v210 : Ref sig .tc := ⟨.hbm, 322, rfl⟩
abbrev main_c_65 : Ref sig .tc := ⟨.hbm, 323, rfl⟩
abbrev main_v211 : Ref sig .tc := ⟨.hbm, 324, rfl⟩
abbrev main_v212 : Ref sig .tc := ⟨.hbm, 325, rfl⟩
abbrev main_v213 : Ref sig .tc := ⟨.hbm, 326, rfl⟩
abbrev main_v214 : Ref sig .tc := ⟨.hbm, 327, rfl⟩
abbrev main_c_66 : Ref sig .tc := ⟨.hbm, 328, rfl⟩
abbrev main_c_67 : Ref sig .tc := ⟨.hbm, 329, rfl⟩
abbrev main_call8_v0 : Ref sig .tc := ⟨.hbm, 330, rfl⟩
abbrev main_call8_v1 : Ref sig .tc := ⟨.hbm, 331, rfl⟩
abbrev main_call8_v2 : Ref sig .tc := ⟨.hbm, 332, rfl⟩
abbrev main_call8_v3 : Ref sig .tc := ⟨.hbm, 333, rfl⟩
abbrev main_call8_v4 : Ref sig .tc := ⟨.hbm, 334, rfl⟩
abbrev main_v215 : Ref sig .tc := ⟨.hbm, 335, rfl⟩
abbrev main_c_68 : Ref sig .tc := ⟨.hbm, 336, rfl⟩
abbrev main_c_69 : Ref sig .tc := ⟨.hbm, 337, rfl⟩
abbrev main_call9_v0 : Ref sig .tc := ⟨.hbm, 338, rfl⟩
abbrev main_call9_v1 : Ref sig .tc := ⟨.hbm, 339, rfl⟩
abbrev main_call9_v2 : Ref sig .tc := ⟨.hbm, 340, rfl⟩
abbrev main_call9_v3 : Ref sig .tc := ⟨.hbm, 341, rfl⟩
abbrev main_call9_v4 : Ref sig .tc := ⟨.hbm, 342, rfl⟩
abbrev main_v216 : Ref sig .tc := ⟨.hbm, 343, rfl⟩
abbrev main_c_70 : Ref sig .tc := ⟨.hbm, 344, rfl⟩
abbrev main_v217 : Ref sig .tc := ⟨.hbm, 345, rfl⟩
abbrev main_v218 : Ref sig .tc := ⟨.hbm, 346, rfl⟩
abbrev main_c_71 : Ref sig .tc := ⟨.hbm, 347, rfl⟩
abbrev main_v219 : Ref sig .tc := ⟨.hbm, 348, rfl⟩
abbrev main_v220 : Ref sig .tc := ⟨.hbm, 349, rfl⟩
abbrev main_v221 : Ref sig .tc := ⟨.hbm, 350, rfl⟩
abbrev main_c_72 : Ref sig .tc := ⟨.hbm, 351, rfl⟩
abbrev main_v222 : Ref sig .tc := ⟨.hbm, 352, rfl⟩
abbrev main_v223 : Ref sig .tc := ⟨.hbm, 353, rfl⟩
abbrev main_c_73 : Ref sig .tc := ⟨.hbm, 354, rfl⟩
abbrev main_v224 : Ref sig .tc := ⟨.hbm, 355, rfl⟩
abbrev main_v225 : Ref sig .tc := ⟨.hbm, 356, rfl⟩
abbrev main_v226 : Ref sig .tc := ⟨.hbm, 357, rfl⟩
abbrev main_v227 : Ref sig .tc := ⟨.hbm, 358, rfl⟩
abbrev main_v228 : Ref sig .tc := ⟨.hbm, 359, rfl⟩
abbrev main_v229 : Ref sig .tc := ⟨.hbm, 360, rfl⟩
abbrev main_v230 : Ref sig .tc := ⟨.hbm, 361, rfl⟩
abbrev main_v231 : Ref sig .tc := ⟨.hbm, 362, rfl⟩
abbrev main_v232 : Ref sig .tc := ⟨.hbm, 363, rfl⟩
abbrev main_v233 : Ref sig .tc := ⟨.hbm, 364, rfl⟩
abbrev main_c_74 : Ref sig .tc := ⟨.hbm, 365, rfl⟩
abbrev main_v234 : Ref sig .tc := ⟨.hbm, 366, rfl⟩
abbrev main_v235 : Ref sig .tc := ⟨.hbm, 367, rfl⟩
abbrev main_c_75 : Ref sig .tc := ⟨.hbm, 368, rfl⟩
abbrev main_v236 : Ref sig .tc := ⟨.hbm, 369, rfl⟩
abbrev main_v237 : Ref sig .tc := ⟨.hbm, 370, rfl⟩
abbrev main_c_76 : Ref sig .tc := ⟨.hbm, 371, rfl⟩
abbrev main_v238 : Ref sig .tc := ⟨.hbm, 372, rfl⟩
abbrev main_v239 : Ref sig .tc := ⟨.hbm, 373, rfl⟩
abbrev main_v240 : Ref sig .tc := ⟨.hbm, 374, rfl⟩
abbrev main_c_77 : Ref sig .tc := ⟨.hbm, 375, rfl⟩
abbrev main_v241 : Ref sig .tc := ⟨.hbm, 376, rfl⟩
abbrev main_v242 : Ref sig .tc := ⟨.hbm, 377, rfl⟩
abbrev main_v243 : Ref sig .tc := ⟨.hbm, 378, rfl⟩
abbrev main_c_78 : Ref sig .tc := ⟨.hbm, 379, rfl⟩
abbrev main_v244 : Ref sig .tc := ⟨.hbm, 380, rfl⟩
abbrev main_v245 : Ref sig .tc := ⟨.hbm, 381, rfl⟩
abbrev main_v246 : Ref sig .tc := ⟨.hbm, 382, rfl⟩
abbrev main_v247 : Ref sig .tc := ⟨.hbm, 383, rfl⟩
abbrev main_c_79 : Ref sig .tc := ⟨.hbm, 384, rfl⟩
abbrev main_c_80 : Ref sig .tc := ⟨.hbm, 385, rfl⟩
abbrev main_call10_v0 : Ref sig .tc := ⟨.hbm, 386, rfl⟩
abbrev main_call10_v1 : Ref sig .tc := ⟨.hbm, 387, rfl⟩
abbrev main_call10_v2 : Ref sig .tc := ⟨.hbm, 388, rfl⟩
abbrev main_call10_v3 : Ref sig .tc := ⟨.hbm, 389, rfl⟩
abbrev main_call10_v4 : Ref sig .tc := ⟨.hbm, 390, rfl⟩
abbrev main_v248 : Ref sig .tc := ⟨.hbm, 391, rfl⟩
abbrev main_c_81 : Ref sig .tc := ⟨.hbm, 392, rfl⟩
abbrev main_c_82 : Ref sig .tc := ⟨.hbm, 393, rfl⟩
abbrev main_call11_v0 : Ref sig .tc := ⟨.hbm, 394, rfl⟩
abbrev main_call11_v1 : Ref sig .tc := ⟨.hbm, 395, rfl⟩
abbrev main_call11_v2 : Ref sig .tc := ⟨.hbm, 396, rfl⟩
abbrev main_call11_v3 : Ref sig .tc := ⟨.hbm, 397, rfl⟩
abbrev main_call11_v4 : Ref sig .tc := ⟨.hbm, 398, rfl⟩
abbrev main_v249 : Ref sig .tc := ⟨.hbm, 399, rfl⟩
abbrev main_c_83 : Ref sig .tc := ⟨.hbm, 400, rfl⟩
abbrev main_v250 : Ref sig .tc := ⟨.hbm, 401, rfl⟩
abbrev main_v251 : Ref sig .tc := ⟨.hbm, 402, rfl⟩
abbrev main_c_84 : Ref sig .tc := ⟨.hbm, 403, rfl⟩
abbrev main_v252 : Ref sig .tc := ⟨.hbm, 404, rfl⟩
abbrev main_v253 : Ref sig .tc := ⟨.hbm, 405, rfl⟩
abbrev main_v254 : Ref sig .tc := ⟨.hbm, 406, rfl⟩
abbrev main_c_85 : Ref sig .tc := ⟨.hbm, 407, rfl⟩
abbrev main_v255 : Ref sig .tc := ⟨.hbm, 408, rfl⟩
abbrev main_v256 : Ref sig .tc := ⟨.hbm, 409, rfl⟩
abbrev main_c_86 : Ref sig .tc := ⟨.hbm, 410, rfl⟩
abbrev main_v257 : Ref sig .tc := ⟨.hbm, 411, rfl⟩
abbrev main_v258 : Ref sig .tc := ⟨.hbm, 412, rfl⟩
abbrev main_v259 : Ref sig .tc := ⟨.hbm, 413, rfl⟩
abbrev main_v260 : Ref sig .tc := ⟨.hbm, 414, rfl⟩
abbrev main_v261 : Ref sig .tc := ⟨.hbm, 415, rfl⟩
abbrev main_v262 : Ref sig .tc := ⟨.hbm, 416, rfl⟩
abbrev main_v263 : Ref sig .tc := ⟨.hbm, 417, rfl⟩
abbrev main_v264 : Ref sig .tc := ⟨.hbm, 418, rfl⟩
abbrev main_v265 : Ref sig .tc := ⟨.hbm, 419, rfl⟩
abbrev main_v266 : Ref sig .tc := ⟨.hbm, 420, rfl⟩
abbrev main_c_87 : Ref sig .tc := ⟨.hbm, 421, rfl⟩
abbrev main_v267 : Ref sig .tc := ⟨.hbm, 422, rfl⟩
abbrev main_v268 : Ref sig .tc := ⟨.hbm, 423, rfl⟩
abbrev main_c_88 : Ref sig .tc := ⟨.hbm, 424, rfl⟩
abbrev main_v269 : Ref sig .tc := ⟨.hbm, 425, rfl⟩
abbrev main_v270 : Ref sig .tc := ⟨.hbm, 426, rfl⟩
abbrev main_c_89 : Ref sig .tc := ⟨.hbm, 427, rfl⟩
abbrev main_v271 : Ref sig .tc := ⟨.hbm, 428, rfl⟩
abbrev main_v272 : Ref sig .tc := ⟨.hbm, 429, rfl⟩
abbrev main_v273 : Ref sig .tc := ⟨.hbm, 430, rfl⟩
abbrev main_c_90 : Ref sig .tc := ⟨.hbm, 431, rfl⟩
abbrev main_v274 : Ref sig .tc := ⟨.hbm, 432, rfl⟩
abbrev main_v275 : Ref sig .tc := ⟨.hbm, 433, rfl⟩
abbrev main_v276 : Ref sig .tc := ⟨.hbm, 434, rfl⟩
abbrev main_c_91 : Ref sig .tc := ⟨.hbm, 435, rfl⟩
abbrev main_v277 : Ref sig .tc := ⟨.hbm, 436, rfl⟩
abbrev main_v278 : Ref sig .tc := ⟨.hbm, 437, rfl⟩
abbrev main_v279 : Ref sig .tc := ⟨.hbm, 438, rfl⟩
abbrev main_v280 : Ref sig .tc := ⟨.hbm, 439, rfl⟩
abbrev main_c_92 : Ref sig .tc := ⟨.hbm, 440, rfl⟩
abbrev main_c_93 : Ref sig .tc := ⟨.hbm, 441, rfl⟩
abbrev main_call12_v0 : Ref sig .tc := ⟨.hbm, 442, rfl⟩
abbrev main_call12_v1 : Ref sig .tc := ⟨.hbm, 443, rfl⟩
abbrev main_call12_v2 : Ref sig .tc := ⟨.hbm, 444, rfl⟩
abbrev main_call12_v3 : Ref sig .tc := ⟨.hbm, 445, rfl⟩
abbrev main_call12_v4 : Ref sig .tc := ⟨.hbm, 446, rfl⟩
abbrev main_v281 : Ref sig .tc := ⟨.hbm, 447, rfl⟩
abbrev main_c_94 : Ref sig .tc := ⟨.hbm, 448, rfl⟩
abbrev main_c_95 : Ref sig .tc := ⟨.hbm, 449, rfl⟩
abbrev main_call13_v0 : Ref sig .tc := ⟨.hbm, 450, rfl⟩
abbrev main_call13_v1 : Ref sig .tc := ⟨.hbm, 451, rfl⟩
abbrev main_call13_v2 : Ref sig .tc := ⟨.hbm, 452, rfl⟩
abbrev main_call13_v3 : Ref sig .tc := ⟨.hbm, 453, rfl⟩
abbrev main_call13_v4 : Ref sig .tc := ⟨.hbm, 454, rfl⟩
abbrev main_v282 : Ref sig .tc := ⟨.hbm, 455, rfl⟩
abbrev main_c_96 : Ref sig .tc := ⟨.hbm, 456, rfl⟩
abbrev main_v283 : Ref sig .tc := ⟨.hbm, 457, rfl⟩
abbrev main_v284 : Ref sig .tc := ⟨.hbm, 458, rfl⟩
abbrev main_c_97 : Ref sig .tc := ⟨.hbm, 459, rfl⟩
abbrev main_v285 : Ref sig .tc := ⟨.hbm, 460, rfl⟩
abbrev main_v286 : Ref sig .tc := ⟨.hbm, 461, rfl⟩
abbrev main_v287 : Ref sig .tc := ⟨.hbm, 462, rfl⟩
abbrev main_c_98 : Ref sig .tc := ⟨.hbm, 463, rfl⟩
abbrev main_v288 : Ref sig .tc := ⟨.hbm, 464, rfl⟩
abbrev main_v289 : Ref sig .tc := ⟨.hbm, 465, rfl⟩
abbrev main_c_99 : Ref sig .tc := ⟨.hbm, 466, rfl⟩
abbrev main_v290 : Ref sig .tc := ⟨.hbm, 467, rfl⟩
abbrev main_v291 : Ref sig .tc := ⟨.hbm, 468, rfl⟩
abbrev main_v292 : Ref sig .tc := ⟨.hbm, 469, rfl⟩
abbrev main_v293 : Ref sig .tc := ⟨.hbm, 470, rfl⟩
abbrev main_v294 : Ref sig .tc := ⟨.hbm, 471, rfl⟩
abbrev main_v295 : Ref sig .tc := ⟨.hbm, 472, rfl⟩
abbrev main_v296 : Ref sig .tc := ⟨.hbm, 473, rfl⟩
abbrev main_v297 : Ref sig .tc := ⟨.hbm, 474, rfl⟩
abbrev main_v298 : Ref sig .tc := ⟨.hbm, 475, rfl⟩
abbrev main_v299 : Ref sig .tc := ⟨.hbm, 476, rfl⟩
abbrev main_c_100 : Ref sig .tc := ⟨.hbm, 477, rfl⟩
abbrev main_v300 : Ref sig .tc := ⟨.hbm, 478, rfl⟩
abbrev main_v301 : Ref sig .tc := ⟨.hbm, 479, rfl⟩
abbrev main_c_101 : Ref sig .tc := ⟨.hbm, 480, rfl⟩
abbrev main_v302 : Ref sig .tc := ⟨.hbm, 481, rfl⟩
abbrev main_v303 : Ref sig .tc := ⟨.hbm, 482, rfl⟩
abbrev main_c_102 : Ref sig .tc := ⟨.hbm, 483, rfl⟩
abbrev main_v304 : Ref sig .tc := ⟨.hbm, 484, rfl⟩
abbrev main_v305 : Ref sig .tc := ⟨.hbm, 485, rfl⟩
abbrev main_c_103 : Ref sig .tc := ⟨.hbm, 486, rfl⟩
abbrev main_v306 : Ref sig .tc := ⟨.hbm, 487, rfl⟩
abbrev main_v307 : Ref sig .tc := ⟨.hbm, 488, rfl⟩
abbrev main_v308 : Ref sig .tc := ⟨.hbm, 489, rfl⟩
abbrev main_c_104 : Ref sig .tc := ⟨.hbm, 490, rfl⟩
abbrev main_v309 : Ref sig .tc := ⟨.hbm, 491, rfl⟩
abbrev main_v310 : Ref sig .tc := ⟨.hbm, 492, rfl⟩
abbrev main_v311 : Ref sig .tc := ⟨.hbm, 493, rfl⟩
abbrev main_c_105 : Ref sig .tc := ⟨.hbm, 494, rfl⟩
abbrev main_v312 : Ref sig .tc := ⟨.hbm, 495, rfl⟩
abbrev main_v313 : Ref sig .tc := ⟨.hbm, 496, rfl⟩
abbrev main_v314 : Ref sig .tc := ⟨.hbm, 497, rfl⟩
abbrev main_v315 : Ref sig .tc := ⟨.hbm, 498, rfl⟩
abbrev main_c_106 : Ref sig .tc := ⟨.hbm, 499, rfl⟩
abbrev main_c_107 : Ref sig .tc := ⟨.hbm, 500, rfl⟩
abbrev main_call14_v0 : Ref sig .tc := ⟨.hbm, 501, rfl⟩
abbrev main_call14_v1 : Ref sig .tc := ⟨.hbm, 502, rfl⟩
abbrev main_call14_v2 : Ref sig .tc := ⟨.hbm, 503, rfl⟩
abbrev main_call14_v3 : Ref sig .tc := ⟨.hbm, 504, rfl⟩
abbrev main_call14_v4 : Ref sig .tc := ⟨.hbm, 505, rfl⟩
abbrev main_v316 : Ref sig .tc := ⟨.hbm, 506, rfl⟩
abbrev main_c_108 : Ref sig .tc := ⟨.hbm, 507, rfl⟩
abbrev main_c_109 : Ref sig .tc := ⟨.hbm, 508, rfl⟩
abbrev main_call15_v0 : Ref sig .tc := ⟨.hbm, 509, rfl⟩
abbrev main_call15_v1 : Ref sig .tc := ⟨.hbm, 510, rfl⟩
abbrev main_call15_v2 : Ref sig .tc := ⟨.hbm, 511, rfl⟩
abbrev main_call15_v3 : Ref sig .tc := ⟨.hbm, 512, rfl⟩
abbrev main_call15_v4 : Ref sig .tc := ⟨.hbm, 513, rfl⟩
abbrev main_v317 : Ref sig .tc := ⟨.hbm, 514, rfl⟩
abbrev main_c_110 : Ref sig .tc := ⟨.hbm, 515, rfl⟩
abbrev main_v318 : Ref sig .tc := ⟨.hbm, 516, rfl⟩
abbrev main_v319 : Ref sig .tc := ⟨.hbm, 517, rfl⟩
abbrev main_c_111 : Ref sig .tc := ⟨.hbm, 518, rfl⟩
abbrev main_v320 : Ref sig .tc := ⟨.hbm, 519, rfl⟩
abbrev main_v321 : Ref sig .tc := ⟨.hbm, 520, rfl⟩
abbrev main_v322 : Ref sig .tc := ⟨.hbm, 521, rfl⟩
abbrev main_c_112 : Ref sig .tc := ⟨.hbm, 522, rfl⟩
abbrev main_v323 : Ref sig .tc := ⟨.hbm, 523, rfl⟩
abbrev main_v324 : Ref sig .tc := ⟨.hbm, 524, rfl⟩
abbrev main_c_113 : Ref sig .tc := ⟨.hbm, 525, rfl⟩
abbrev main_v325 : Ref sig .tc := ⟨.hbm, 526, rfl⟩
abbrev main_v326 : Ref sig .tc := ⟨.hbm, 527, rfl⟩
abbrev main_v327 : Ref sig .tc := ⟨.hbm, 528, rfl⟩
abbrev main_v328 : Ref sig .tc := ⟨.hbm, 529, rfl⟩
abbrev main_v329 : Ref sig .tc := ⟨.hbm, 530, rfl⟩
abbrev main_v330 : Ref sig .tc := ⟨.hbm, 531, rfl⟩
abbrev main_v331 : Ref sig .tc := ⟨.hbm, 532, rfl⟩
abbrev main_v332 : Ref sig .tc := ⟨.hbm, 533, rfl⟩
abbrev main_v333 : Ref sig .tc := ⟨.hbm, 534, rfl⟩
abbrev main_v334 : Ref sig .tc := ⟨.hbm, 535, rfl⟩
abbrev main_cst_114 : Ref sig .tc := ⟨.hbm, 536, rfl⟩
abbrev main_v335 : Ref sig .tc := ⟨.hbm, 537, rfl⟩
abbrev main_v336 : Ref sig .tc := ⟨.hbm, 538, rfl⟩
abbrev main_v337 : Ref sig .tc := ⟨.hbm, 539, rfl⟩
abbrev main_v338 : Ref sig .tc := ⟨.hbm, 540, rfl⟩
abbrev main_v339 : Ref sig .tc := ⟨.hbm, 541, rfl⟩
abbrev main_cst_115 : Ref sig .tc := ⟨.hbm, 542, rfl⟩
abbrev main_v340 : Ref sig .tc := ⟨.hbm, 543, rfl⟩
abbrev main_v341 : Ref sig .tc := ⟨.hbm, 544, rfl⟩
abbrev main_v342 : Ref sig .tc := ⟨.hbm, 545, rfl⟩
abbrev main_v343 : Ref sig .tc := ⟨.hbm, 546, rfl⟩
abbrev main_v344 : Ref sig .tc := ⟨.hbm, 547, rfl⟩
abbrev main_cst_116 : Ref sig .tc := ⟨.hbm, 548, rfl⟩
abbrev main_v345 : Ref sig .tc := ⟨.hbm, 549, rfl⟩
abbrev main_v346 : Ref sig .tc := ⟨.hbm, 550, rfl⟩
abbrev main_v347 : Ref sig .tc := ⟨.hbm, 551, rfl⟩
abbrev main_v348 : Ref sig .tc := ⟨.hbm, 552, rfl⟩
abbrev main_v349 : Ref sig .tc := ⟨.hbm, 553, rfl⟩
abbrev main_v350 : Ref sig .tc := ⟨.hbm, 554, rfl⟩
abbrev main_v351 : Ref sig .tc := ⟨.hbm, 555, rfl⟩
abbrev main_v352 : Ref sig .tc := ⟨.hbm, 556, rfl⟩
abbrev main_v353 : Ref sig .tc := ⟨.hbm, 557, rfl⟩
abbrev main_v354 : Ref sig .tc := ⟨.hbm, 558, rfl⟩
abbrev main_v355 : Ref sig .tc := ⟨.hbm, 559, rfl⟩
abbrev main_v356 : Ref sig .tc := ⟨.hbm, 560, rfl⟩
abbrev main_cst_117 : Ref sig .tc := ⟨.hbm, 561, rfl⟩
abbrev main_v357 : Ref sig .tc := ⟨.hbm, 562, rfl⟩
abbrev main_v358 : Ref sig .tc := ⟨.hbm, 563, rfl⟩
abbrev main_v359 : Ref sig .tc := ⟨.hbm, 564, rfl⟩
abbrev main_v360 : Ref sig .tc := ⟨.hbm, 565, rfl⟩
abbrev main_v361 : Ref sig .tc := ⟨.hbm, 566, rfl⟩
abbrev main_v362 : Ref sig .tc := ⟨.hbm, 567, rfl⟩
abbrev main_v363 : Ref sig .tc := ⟨.hbm, 568, rfl⟩
abbrev main_v364 : Ref sig .tc := ⟨.hbm, 569, rfl⟩
abbrev main_v365 : Ref sig .tc := ⟨.hbm, 570, rfl⟩
abbrev main_v366 : Ref sig .tc := ⟨.hbm, 571, rfl⟩
abbrev main_v367 : Ref sig .tc := ⟨.hbm, 572, rfl⟩
abbrev main_v368 : Ref sig .tc := ⟨.hbm, 573, rfl⟩
abbrev main_v369 : Ref sig .tc := ⟨.hbm, 574, rfl⟩
abbrev main_v370 : Ref sig .tc := ⟨.hbm, 575, rfl⟩
abbrev main_call16_cst : Ref sig .tc := ⟨.hbm, 576, rfl⟩
abbrev main_call16_v0 : Ref sig .tc := ⟨.hbm, 577, rfl⟩
abbrev main_call16_v1 : Ref sig .tc := ⟨.hbm, 578, rfl⟩
abbrev main_call16_v2 : Ref sig .tc := ⟨.hbm, 579, rfl⟩
abbrev main_call16_v3 : Ref sig .tc := ⟨.hbm, 580, rfl⟩
abbrev main_call16_v4 : Ref sig .tc := ⟨.hbm, 581, rfl⟩
abbrev main_call16_v5 : Ref sig .tc := ⟨.hbm, 582, rfl⟩
abbrev main_call16_v6 : Ref sig .tc := ⟨.hbm, 583, rfl⟩
abbrev main_call16_v7 : Ref sig .tc := ⟨.hbm, 584, rfl⟩
abbrev main_call16_v8 : Ref sig .tc := ⟨.hbm, 585, rfl⟩
abbrev main_call16_v9 : Ref sig .tc := ⟨.hbm, 586, rfl⟩
abbrev main_call16_v10 : Ref sig .tc := ⟨.hbm, 587, rfl⟩
abbrev main_call16_v11 : Ref sig .tc := ⟨.hbm, 588, rfl⟩
abbrev main_v371 : Ref sig .tc := ⟨.hbm, 589, rfl⟩
abbrev main_call17_cst : Ref sig .tc := ⟨.hbm, 590, rfl⟩
abbrev main_call17_v0 : Ref sig .tc := ⟨.hbm, 591, rfl⟩
abbrev main_call17_v1 : Ref sig .tc := ⟨.hbm, 592, rfl⟩
abbrev main_call17_v2 : Ref sig .tc := ⟨.hbm, 593, rfl⟩
abbrev main_call17_v3 : Ref sig .tc := ⟨.hbm, 594, rfl⟩
abbrev main_call17_v4 : Ref sig .tc := ⟨.hbm, 595, rfl⟩
abbrev main_call17_v5 : Ref sig .tc := ⟨.hbm, 596, rfl⟩
abbrev main_call17_v6 : Ref sig .tc := ⟨.hbm, 597, rfl⟩
abbrev main_call17_v7 : Ref sig .tc := ⟨.hbm, 598, rfl⟩
abbrev main_call17_v8 : Ref sig .tc := ⟨.hbm, 599, rfl⟩
abbrev main_call17_v9 : Ref sig .tc := ⟨.hbm, 600, rfl⟩
abbrev main_call17_v10 : Ref sig .tc := ⟨.hbm, 601, rfl⟩
abbrev main_call17_v11 : Ref sig .tc := ⟨.hbm, 602, rfl⟩
abbrev main_v372 : Ref sig .tc := ⟨.hbm, 603, rfl⟩
abbrev main_v373 : Ref sig .tc := ⟨.hbm, 604, rfl⟩
abbrev main_cst_118 : Ref sig .tc := ⟨.hbm, 605, rfl⟩
abbrev main_v374 : Ref sig .tc := ⟨.hbm, 606, rfl⟩
abbrev main_v375 : Ref sig .tc := ⟨.hbm, 607, rfl⟩
abbrev main_v376 : Ref sig .tc := ⟨.hbm, 608, rfl⟩
abbrev main_v377 : Ref sig .tc := ⟨.hbm, 609, rfl⟩
abbrev main_cst_119 : Ref sig .tc := ⟨.hbm, 610, rfl⟩
abbrev main_v378 : Ref sig .tc := ⟨.hbm, 611, rfl⟩
abbrev main_v379 : Ref sig .tc := ⟨.hbm, 612, rfl⟩
abbrev main_v380 : Ref sig .tc := ⟨.hbm, 613, rfl⟩
abbrev main_v381 : Ref sig .tc := ⟨.hbm, 614, rfl⟩
abbrev main_cst_120 : Ref sig .tc := ⟨.hbm, 615, rfl⟩
abbrev main_v382 : Ref sig .tc := ⟨.hbm, 616, rfl⟩
abbrev main_v383 : Ref sig .tc := ⟨.hbm, 617, rfl⟩
abbrev main_cst_121 : Ref sig .tc := ⟨.hbm, 618, rfl⟩
abbrev main_v384 : Ref sig .tc := ⟨.hbm, 619, rfl⟩
abbrev main_v385 : Ref sig .tc := ⟨.hbm, 620, rfl⟩
abbrev main_v386 : Ref sig .tc := ⟨.hbm, 621, rfl⟩
abbrev main_cst_122 : Ref sig .tc := ⟨.hbm, 622, rfl⟩
abbrev main_v387 : Ref sig .tc := ⟨.hbm, 623, rfl⟩
abbrev main_v388 : Ref sig .tc := ⟨.hbm, 624, rfl⟩
abbrev main_cst_123 : Ref sig .tc := ⟨.hbm, 625, rfl⟩
abbrev main_v389 : Ref sig .tc := ⟨.hbm, 626, rfl⟩
abbrev main_v390 : Ref sig .tc := ⟨.hbm, 627, rfl⟩
abbrev main_cst_124 : Ref sig .tc := ⟨.hbm, 628, rfl⟩
abbrev main_v391 : Ref sig .tc := ⟨.hbm, 629, rfl⟩
abbrev main_v392 : Ref sig .tc := ⟨.hbm, 630, rfl⟩
abbrev main_v393 : Ref sig .tc := ⟨.hbm, 631, rfl⟩
abbrev main_v394 : Ref sig .tc := ⟨.hbm, 632, rfl⟩
abbrev main_v395 : Ref sig .tc := ⟨.hbm, 633, rfl⟩
abbrev main_cst_125 : Ref sig .tc := ⟨.hbm, 634, rfl⟩
abbrev main_v396 : Ref sig .tc := ⟨.hbm, 635, rfl⟩
abbrev main_v397 : Ref sig .tc := ⟨.hbm, 636, rfl⟩
abbrev main_cst_126 : Ref sig .tc := ⟨.hbm, 637, rfl⟩
abbrev main_v398 : Ref sig .tc := ⟨.hbm, 638, rfl⟩
abbrev main_v399 : Ref sig .tc := ⟨.hbm, 639, rfl⟩
abbrev main_v400 : Ref sig .tc := ⟨.hbm, 640, rfl⟩
abbrev main_cst_127 : Ref sig .tc := ⟨.hbm, 641, rfl⟩
abbrev main_v401 : Ref sig .tc := ⟨.hbm, 642, rfl⟩
abbrev main_v402 : Ref sig .tc := ⟨.hbm, 643, rfl⟩
abbrev main_v403 : Ref sig .tc := ⟨.hbm, 644, rfl⟩
abbrev main_v404 : Ref sig .tc := ⟨.hbm, 645, rfl⟩
abbrev main_v405 : Ref sig .tc := ⟨.hbm, 646, rfl⟩
abbrev main_v406 : Ref sig .tc := ⟨.hbm, 647, rfl⟩
abbrev main_v407 : Ref sig .tc := ⟨.hbm, 648, rfl⟩
abbrev main_v408 : Ref sig .tc := ⟨.hbm, 649, rfl⟩
abbrev main_cst_128 : Ref sig .tc := ⟨.hbm, 650, rfl⟩
abbrev main_v409 : Ref sig .tc := ⟨.hbm, 651, rfl⟩
abbrev main_v410 : Ref sig .tc := ⟨.hbm, 652, rfl⟩
abbrev main_v411 : Ref sig .tc := ⟨.hbm, 653, rfl⟩
abbrev main_v412 : Ref sig .tc := ⟨.hbm, 654, rfl⟩
abbrev main_v413 : Ref sig .tc := ⟨.hbm, 655, rfl⟩
abbrev main_v414 : Ref sig .tc := ⟨.hbm, 656, rfl⟩
abbrev main_v415 : Ref sig .tc := ⟨.hbm, 657, rfl⟩
abbrev main_v416 : Ref sig .tc := ⟨.hbm, 658, rfl⟩
abbrev main_v417 : Ref sig .tc := ⟨.hbm, 659, rfl⟩
abbrev main_cst_129 : Ref sig .tc := ⟨.hbm, 660, rfl⟩
abbrev main_v418 : Ref sig .tc := ⟨.hbm, 661, rfl⟩
abbrev main_v419 : Ref sig .tc := ⟨.hbm, 662, rfl⟩
abbrev main_v420 : Ref sig .tc := ⟨.hbm, 663, rfl⟩
abbrev main_cst_130 : Ref sig .tc := ⟨.hbm, 664, rfl⟩
abbrev main_v421 : Ref sig .tc := ⟨.hbm, 665, rfl⟩
abbrev main_v422 : Ref sig .tc := ⟨.hbm, 666, rfl⟩
abbrev main_v423 : Ref sig .tc := ⟨.hbm, 667, rfl⟩
abbrev main_cst_131 : Ref sig .tc := ⟨.hbm, 668, rfl⟩
abbrev main_v424 : Ref sig .tc := ⟨.hbm, 669, rfl⟩
abbrev main_v425 : Ref sig .tc := ⟨.hbm, 670, rfl⟩
abbrev main_v426 : Ref sig .tc := ⟨.hbm, 671, rfl⟩
abbrev main_cst_132 : Ref sig .tc := ⟨.hbm, 672, rfl⟩
abbrev main_v427 : Ref sig .tc := ⟨.hbm, 673, rfl⟩
abbrev main_v428 : Ref sig .tc := ⟨.hbm, 674, rfl⟩
abbrev main_v429 : Ref sig .tc := ⟨.hbm, 675, rfl⟩
abbrev main_v430 : Ref sig .tc := ⟨.hbm, 676, rfl⟩
abbrev main_v431 : Ref sig .tc := ⟨.hbm, 677, rfl⟩
abbrev main_v432 : Ref sig .tc := ⟨.hbm, 678, rfl⟩
abbrev main_v433 : Ref sig .tc := ⟨.hbm, 679, rfl⟩
abbrev main_v434 : Ref sig .tc := ⟨.hbm, 680, rfl⟩
abbrev main_v435 : Ref sig .tc := ⟨.hbm, 681, rfl⟩
abbrev main_v436 : Ref sig .tc := ⟨.hbm, 682, rfl⟩
abbrev main_v437 : Ref sig .tc := ⟨.hbm, 683, rfl⟩
abbrev main_v438 : Ref sig .tc := ⟨.hbm, 684, rfl⟩
abbrev main_v439 : Ref sig .tc := ⟨.hbm, 685, rfl⟩
abbrev main_v440 : Ref sig .tc := ⟨.hbm, 686, rfl⟩
abbrev main_v441 : Ref sig .tc := ⟨.hbm, 687, rfl⟩
abbrev main_v442 : Ref sig .tc := ⟨.hbm, 688, rfl⟩
abbrev main_cst_133 : Ref sig .tc := ⟨.hbm, 689, rfl⟩
abbrev main_v443 : Ref sig .tc := ⟨.hbm, 690, rfl⟩
abbrev main_v444 : Ref sig .tc := ⟨.hbm, 691, rfl⟩
abbrev main_v445 : Ref sig .tc := ⟨.hbm, 692, rfl⟩
abbrev main_cst_134 : Ref sig .tc := ⟨.hbm, 693, rfl⟩
abbrev main_v446 : Ref sig .tc := ⟨.hbm, 694, rfl⟩
abbrev main_v447 : Ref sig .tc := ⟨.hbm, 695, rfl⟩
abbrev main_v448 : Ref sig .tc := ⟨.hbm, 696, rfl⟩
abbrev main_cst_135 : Ref sig .tc := ⟨.hbm, 697, rfl⟩
abbrev main_v449 : Ref sig .tc := ⟨.hbm, 698, rfl⟩
abbrev main_v450 : Ref sig .tc := ⟨.hbm, 699, rfl⟩
abbrev main_v451 : Ref sig .tc := ⟨.hbm, 700, rfl⟩
abbrev main_cst_136 : Ref sig .tc := ⟨.hbm, 701, rfl⟩
abbrev main_v452 : Ref sig .tc := ⟨.hbm, 702, rfl⟩
abbrev main_v453 : Ref sig .tc := ⟨.hbm, 703, rfl⟩
abbrev main_v454 : Ref sig .tc := ⟨.hbm, 704, rfl⟩
abbrev main_v455 : Ref sig .tc := ⟨.hbm, 705, rfl⟩
abbrev main_v456 : Ref sig .tc := ⟨.hbm, 706, rfl⟩
abbrev main_v457 : Ref sig .tc := ⟨.hbm, 707, rfl⟩
abbrev main_v458 : Ref sig .tc := ⟨.hbm, 708, rfl⟩
abbrev main_v459 : Ref sig .tc := ⟨.hbm, 709, rfl⟩
abbrev main_v460 : Ref sig .tc := ⟨.hbm, 710, rfl⟩
abbrev main_v461 : Ref sig .tc := ⟨.hbm, 711, rfl⟩
abbrev main_v462 : Ref sig .tc := ⟨.hbm, 712, rfl⟩
abbrev main_v463 : Ref sig .tc := ⟨.hbm, 713, rfl⟩
abbrev main_v464 : Ref sig .tc := ⟨.hbm, 714, rfl⟩
abbrev main_v465 : Ref sig .tc := ⟨.hbm, 715, rfl⟩
abbrev main_v466 : Ref sig .tc := ⟨.hbm, 716, rfl⟩
abbrev main_v467 : Ref sig .tc := ⟨.hbm, 717, rfl⟩
abbrev main_v468 : Ref sig .tc := ⟨.hbm, 718, rfl⟩
abbrev main_v469 : Ref sig .tc := ⟨.hbm, 719, rfl⟩
abbrev main_v470 : Ref sig .tc := ⟨.hbm, 720, rfl⟩
abbrev main_v471 : Ref sig .tc := ⟨.hbm, 721, rfl⟩
abbrev main_v472 : Ref sig .tc := ⟨.hbm, 722, rfl⟩
abbrev main_v473 : Ref sig .tc := ⟨.hbm, 723, rfl⟩
abbrev main_v474 : Ref sig .tc := ⟨.hbm, 724, rfl⟩
abbrev main_v475 : Ref sig .tc := ⟨.hbm, 725, rfl⟩
abbrev main_v476 : Ref sig .tc := ⟨.hbm, 726, rfl⟩
abbrev main_v477 : Ref sig .tc := ⟨.hbm, 727, rfl⟩
abbrev main_v478 : Ref sig .tc := ⟨.hbm, 728, rfl⟩
abbrev main_v479 : Ref sig .tc := ⟨.hbm, 729, rfl⟩
abbrev main_v480 : Ref sig .tc := ⟨.hbm, 730, rfl⟩
abbrev main_v481 : Ref sig .tc := ⟨.hbm, 731, rfl⟩
abbrev main_v482 : Ref sig .tc := ⟨.hbm, 732, rfl⟩
abbrev main_v483 : Ref sig .tc := ⟨.hbm, 733, rfl⟩
abbrev main_v484 : Ref sig .tc := ⟨.hbm, 734, rfl⟩
abbrev main_v485 : Ref sig .tc := ⟨.hbm, 735, rfl⟩
abbrev main_v486 : Ref sig .tc := ⟨.hbm, 736, rfl⟩
abbrev main_v487 : Ref sig .tc := ⟨.hbm, 737, rfl⟩
abbrev main_v488 : Ref sig .tc := ⟨.hbm, 738, rfl⟩
abbrev main_v489 : Ref sig .tc := ⟨.hbm, 739, rfl⟩
abbrev main_v490 : Ref sig .tc := ⟨.hbm, 740, rfl⟩
abbrev main_v491 : Ref sig .tc := ⟨.hbm, 741, rfl⟩
abbrev main_v492 : Ref sig .tc := ⟨.hbm, 742, rfl⟩
abbrev main_v493 : Ref sig .tc := ⟨.hbm, 743, rfl⟩
abbrev main_v494 : Ref sig .tc := ⟨.hbm, 744, rfl⟩
abbrev main_v495 : Ref sig .tc := ⟨.hbm, 745, rfl⟩
abbrev main_v496 : Ref sig .tc := ⟨.hbm, 746, rfl⟩
abbrev main_cst_137 : Ref sig .tc := ⟨.hbm, 747, rfl⟩
abbrev main_call18_v0 : Ref sig .tc := ⟨.hbm, 748, rfl⟩
abbrev main_call18_v1 : Ref sig .tc := ⟨.hbm, 749, rfl⟩
abbrev main_v497 : Ref sig .tc := ⟨.hbm, 750, rfl⟩
abbrev main_v498 : Ref sig .tc := ⟨.hbm, 751, rfl⟩
abbrev main_v499 : Ref sig .tc := ⟨.hbm, 752, rfl⟩
abbrev main_v500 : Ref sig .tc := ⟨.hbm, 753, rfl⟩
abbrev main_v501 : Ref sig .tc := ⟨.hbm, 754, rfl⟩
abbrev main_v502 : Ref sig .tc := ⟨.hbm, 755, rfl⟩
abbrev main_v503 : Ref sig .tc := ⟨.hbm, 756, rfl⟩
abbrev main_v504 : Ref sig .tc := ⟨.hbm, 757, rfl⟩
abbrev main_v505 : Ref sig .tc := ⟨.hbm, 758, rfl⟩
abbrev main_v506 : Ref sig .tc := ⟨.hbm, 759, rfl⟩
abbrev main_v507 : Ref sig .tc := ⟨.hbm, 760, rfl⟩
abbrev main_v508 : Ref sig .tc := ⟨.hbm, 761, rfl⟩
abbrev main_v509 : Ref sig .tc := ⟨.hbm, 762, rfl⟩
abbrev main_v510 : Ref sig .tc := ⟨.hbm, 763, rfl⟩
abbrev main_v511 : Ref sig .tc := ⟨.hbm, 764, rfl⟩
abbrev main_v512 : Ref sig .tc := ⟨.hbm, 765, rfl⟩
abbrev main_v513 : Ref sig .tc := ⟨.hbm, 766, rfl⟩
abbrev main_v514 : Ref sig .tc := ⟨.hbm, 767, rfl⟩
abbrev main_v515 : Ref sig .tc := ⟨.hbm, 768, rfl⟩
abbrev main_v516 : Ref sig .tc := ⟨.hbm, 769, rfl⟩
abbrev main_v517 : Ref sig .tc := ⟨.hbm, 770, rfl⟩
abbrev main_v518 : Ref sig .tc := ⟨.hbm, 771, rfl⟩
abbrev main_v519 : Ref sig .tc := ⟨.hbm, 772, rfl⟩
abbrev main_v520 : Ref sig .tc := ⟨.hbm, 773, rfl⟩
abbrev main_v521 : Ref sig .tc := ⟨.hbm, 774, rfl⟩
abbrev main_v522 : Ref sig .tc := ⟨.hbm, 775, rfl⟩
abbrev main_v523 : Ref sig .tc := ⟨.hbm, 776, rfl⟩
abbrev main_v524 : Ref sig .tc := ⟨.hbm, 777, rfl⟩
abbrev main_cst_138 : Ref sig .tc := ⟨.hbm, 778, rfl⟩
abbrev main_call19_v0 : Ref sig .tc := ⟨.hbm, 779, rfl⟩
abbrev main_call19_v1 : Ref sig .tc := ⟨.hbm, 780, rfl⟩
abbrev main_v525 : Ref sig .tc := ⟨.hbm, 781, rfl⟩
abbrev main_v526 : Ref sig .tc := ⟨.hbm, 782, rfl⟩
abbrev main_v527 : Ref sig .tc := ⟨.hbm, 783, rfl⟩
abbrev main_v528 : Ref sig .tc := ⟨.hbm, 784, rfl⟩
abbrev main_v529 : Ref sig .tc := ⟨.hbm, 785, rfl⟩
abbrev main_v530 : Ref sig .tc := ⟨.hbm, 786, rfl⟩
abbrev main_v531 : Ref sig .tc := ⟨.hbm, 787, rfl⟩
abbrev main_v532 : Ref sig .tc := ⟨.hbm, 788, rfl⟩
abbrev main_v533 : Ref sig .tc := ⟨.hbm, 789, rfl⟩
abbrev main_v534 : Ref sig .tc := ⟨.hbm, 790, rfl⟩
abbrev main_cst_139 : Ref sig .tc := ⟨.hbm, 791, rfl⟩
abbrev main_v535 : Ref sig .tc := ⟨.hbm, 792, rfl⟩
abbrev main_v536 : Ref sig .tc := ⟨.hbm, 793, rfl⟩
abbrev main_cst_140 : Ref sig .tc := ⟨.hbm, 794, rfl⟩
abbrev main_v537 : Ref sig .tc := ⟨.hbm, 795, rfl⟩
abbrev main_v538 : Ref sig .tc := ⟨.hbm, 796, rfl⟩
abbrev main_v539 : Ref sig .tc := ⟨.hbm, 797, rfl⟩
abbrev main_cst_141 : Ref sig .tc := ⟨.hbm, 798, rfl⟩
abbrev main_v540 : Ref sig .tc := ⟨.hbm, 799, rfl⟩
abbrev main_v541 : Ref sig .tc := ⟨.hbm, 800, rfl⟩
abbrev main_v542 : Ref sig .tc := ⟨.hbm, 801, rfl⟩
abbrev main_cst_142 : Ref sig .tc := ⟨.hbm, 802, rfl⟩
abbrev main_v543 : Ref sig .tc := ⟨.hbm, 803, rfl⟩
abbrev main_v544 : Ref sig .tc := ⟨.hbm, 804, rfl⟩
abbrev main_v545 : Ref sig .tc := ⟨.hbm, 805, rfl⟩

abbrev nD : Nat := 1
abbrev τ : Topo := Topo.v7x

variable {F : FTy → Type} [FloatOps F]

class Facts₀ : Prop where
  slices_S2x12544x2_S2x12544x1_0_0_0 : S2x12544x2.Slices ![0, 0, 0] S2x12544x1
  shapeCasts_S2x12544x1_S2x12544 : S2x12544x1.ShapeCasts S2x12544
  bcast_S_S2x12544 : S_.BroadcastsInDim S2x12544 (![] : Fin 0 → Fin S2x12544.rank)
  slices_S2x12544x2_S2x12544x1_0_0_1 : S2x12544x2.Slices ![0, 0, 1] S2x12544x1
  bcast_S2x12544_S2x12544x1_0_1 : S2x12544.BroadcastsInDim S2x12544x1 (![0, 1] : Fin 2 → Fin S2x12544x1.rank)
  concatenates_S2x12544x1_S2x12544x1_S2x12544x2_d2 : Shape.Concatenates [S2x12544x1, S2x12544x1] S2x12544x2 2
  bcast_S2x12544_S2x1x12544_0_2 : S2x12544.BroadcastsInDim S2x1x12544 (![0, 2] : Fin 2 → Fin S2x1x12544.rank)
  bcast_S2x1x12544_S2x300x12544_0_1_2 : S2x1x12544.BroadcastsInDim S2x300x12544 (![0, 1, 2] : Fin 3 → Fin S2x300x12544.rank)
  bcast_S_S2x300x12544 : S_.BroadcastsInDim S2x300x12544 (![] : Fin 0 → Fin S2x300x12544.rank)
  bcast_S_S2x300x300 : S_.BroadcastsInDim S2x300x300 (![] : Fin 0 → Fin S2x300x300.rank)
  reducesTo_S2x300x12544_S2x300_d2 : S2x300x12544.ReducesTo [2] S2x300
  h_S_ : 0 < S_.numel
  bcast_S2x300_S2x300x1_0_1 : S2x300.BroadcastsInDim S2x300x1 (![0, 1] : Fin 2 → Fin S2x300x1.rank)
  bcast_S2x300_S2x1x300_0_2 : S2x300.BroadcastsInDim S2x1x300 (![0, 2] : Fin 2 → Fin S2x1x300.rank)
  bcast_S2x300x1_S2x300x300_0_1_2 : S2x300x1.BroadcastsInDim S2x300x300 (![0, 1, 2] : Fin 3 → Fin S2x300x300.rank)
  bcast_S2x1x300_S2x300x300_0_1_2 : S2x1x300.BroadcastsInDim S2x300x300 (![0, 1, 2] : Fin 3 → Fin S2x300x300.rank)
  bcast_S2x300x4_S2x300x1x4_0_1_3 : S2x300x4.BroadcastsInDim S2x300x1x4 (![0, 1, 3] : Fin 3 → Fin S2x300x1x4.rank)
  bcast_S2x300x4_S2x1x300x4_0_2_3 : S2x300x4.BroadcastsInDim S2x1x300x4 (![0, 2, 3] : Fin 3 → Fin S2x1x300x4.rank)
  bcast_S2x300x1x4_S2x300x300x4_0_1_2_3 : S2x300x1x4.BroadcastsInDim S2x300x300x4 (![0, 1, 2, 3] : Fin 4 → Fin S2x300x300x4.rank)
  bcast_S2x1x300x4_S2x300x300x4_0_1_2_3 : S2x1x300x4.BroadcastsInDim S2x300x300x4 (![0, 1, 2, 3] : Fin 4 → Fin S2x300x300x4.rank)
  reducesTo_S2x300x300x4_S2x300x300_d3 : S2x300x300x4.ReducesTo [3] S2x300x300
  slices_S2x300x4_S2x300x1_0_0_0 : S2x300x4.Slices ![0, 0, 0] S2x300x1
  shapeCasts_S2x300x1_S2x300 : S2x300x1.ShapeCasts S2x300
  slices_S2x300x4_S2x300x1_0_0_1 : S2x300x4.Slices ![0, 0, 1] S2x300x1
  slices_S2x300x4_S2x300x1_0_0_2 : S2x300x4.Slices ![0, 0, 2] S2x300x1
  slices_S2x300x4_S2x300x1_0_0_3 : S2x300x4.Slices ![0, 0, 3] S2x300x1
  bcast_S_S2x300 : S_.BroadcastsInDim S2x300 (![] : Fin 0 → Fin S2x300.rank)
  concatenates_S2x300x1_S2x300x1_S2x300x1_S2x300x1_S2x300x4_d2 : Shape.Concatenates [S2x300x1, S2x300x1, S2x300x1, S2x300x1] S2x300x4 2
  slices_S2x300x4_S2x300x2_0_0_0 : S2x300x4.Slices ![0, 0, 0] S2x300x2
  bcast_S2x300x2_S2x300x1x2_0_1_3 : S2x300x2.BroadcastsInDim S2x300x1x2 (![0, 1, 3] : Fin 3 → Fin S2x300x1x2.rank)
  bcast_S2x300x2_S2x1x300x2_0_2_3 : S2x300x2.BroadcastsInDim S2x1x300x2 (![0, 2, 3] : Fin 3 → Fin S2x1x300x2.rank)
  bcast_S2x300x1x2_S2x300x300x2_0_1_2_3 : S2x300x1x2.BroadcastsInDim S2x300x300x2 (![0, 1, 2, 3] : Fin 4 → Fin S2x300x300x2.rank)
  bcast_S2x1x300x2_S2x300x300x2_0_1_2_3 : S2x1x300x2.BroadcastsInDim S2x300x300x2 (![0, 1, 2, 3] : Fin 4 → Fin S2x300x300x2.rank)
  slices_S2x300x4_S2x300x2_0_0_2 : S2x300x4.Slices ![0, 0, 2] S2x300x2
  bcast_S_S2x300x300x2 : S_.BroadcastsInDim S2x300x300x2 (![] : Fin 0 → Fin S2x300x300x2.rank)
  slices_S2x300x300x2_S2x300x300x1_0_0_0_0 : S2x300x300x2.Slices ![0, 0, 0, 0] S2x300x300x1
  shapeCasts_S2x300x300x1_S2x300x300 : S2x300x300x1.ShapeCasts S2x300x300
  slices_S2x300x300x2_S2x300x300x1_0_0_0_1 : S2x300x300x2.Slices ![0, 0, 0, 1] S2x300x300x1
  gather_S2x300x256x256_S2x12544x2_S2x300x12544_1_23_0_0_23_2_130011_wf : GatherDims.WF S2x300x256x256 S2x12544x2 S2x300x12544 [1] [2, 3] [0] [2, 3] [0] 2 ![1, 300, 1, 1]
  dot_S2x300x12544_S2x300x12544_S2x300x300_2_2_1_1_0_0_wf : DotDims.WF S2x300x12544 S2x300x12544 S2x300x300 [2] [2] [1] [1] [0] [0]

variable [Facts₀]

def gather_S2x300x256x256_S2x12544x2_S2x300x12544_1_23_0_0_23_2_130011 : GatherDims S2x300x256x256 S2x12544x2 S2x300x12544 where
  offsetDims := [1]
  collapsedSliceDims := [2, 3]
  operandBatchingDims := [0]
  startIndicesBatchingDims := [0]
  startIndexMap := [2, 3]
  indexVectorDim := 2
  sliceSizes := ![1, 300, 1, 1]
  wf := gather_S2x300x256x256_S2x12544x2_S2x300x12544_1_23_0_0_23_2_130011_wf
def dot_S2x300x12544_S2x300x12544_S2x300x300_2_2_1_1_0_0 : DotDims S2x300x12544 S2x300x12544 S2x300x300 where
  lhsContracting := [2]
  rhsContracting := [2]
  lhsNonContracting := [1]
  rhsNonContracting := [1]
  lhsBatch := [0]
  rhsBatch := [0]
  wf := dot_S2x300x12544_S2x300x12544_S2x300x300_2_2_1_1_0_0_wf

class Facts : Prop extends Facts₀ where

variable [Facts]
-- ==== Proof.RefOps.lean ====
/-
  The reference's @main as a straight line of 801 operations (the operations of a called function stand in
  the call's place), cut into 25 stretches of at most 48 operations. The cuts are placed where few
  buffers are still to be read, and immediately before every concatenation, so that a concatenation's
  operands are always buffers of an earlier stretch. @main is the stretches run one after the other.
-/
import proofs.«176196_j77713138253901_2_alg».proof.Proof.Gen.ReferenceIdeal
import Idealize.ShloMosaic.Lib.StableHlo.Run

noncomputable section

namespace Cert.ReferenceIdeal.ValueH

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
/-- Operations 1 to 22 of @main, in order. -/
abbrev ops_0 : List (HloOp τ sig (Elt F)) :=
  [ unary main_arg4 main_v0 ((extractStridedSlice S2x12544x1 ![0, 0, 0] · slices_S2x12544x2_S2x12544x1_0_0_0) : (⟨S2x12544x2, .f32⟩ : BufTy).Contents (Elt F) → (⟨S2x12544x1, .f32⟩ : BufTy).Contents (Elt F)),
    reshape main_v0 main_v1 rfl shapeCasts_S2x12544x1_S2x12544,
    nullary main_cst (constant S_ .f32 0x43800000#32),
    unary main_cst main_v2 (broadcastInDim S2x12544 ![] bcast_S_S2x12544 : (⟨S_, .f32⟩ : BufTy).Contents (Elt F) → (⟨S2x12544, .f32⟩ : BufTy).Contents (Elt F)),
    binary main_v1 main_v2 main_v3 (mulf : (⟨S2x12544, .f32⟩ : BufTy).Contents (Elt F) → (⟨S2x12544, .f32⟩ : BufTy).Contents (Elt F) → (⟨S2x12544, .f32⟩ : BufTy).Contents (Elt F)),
    nullary main_cst_0 (constant S_ .f32 0x3F000000#32),
    unary main_cst_0 main_v4 (broadcastInDim S2x12544 ![] bcast_S_S2x12544 : (⟨S_, .f32⟩ : BufTy).Contents (Elt F) → (⟨S2x12544, .f32⟩ : BufTy).Contents (Elt F)),
    binary main_v3 main_v4 main_v5 (subf : (⟨S2x12544, .f32⟩ : BufTy).Contents (Elt F) → (⟨S2x12544, .f32⟩ : BufTy).Contents (Elt F) → (⟨S2x12544, .f32⟩ : BufTy).Contents (Elt F)),
    unary main_arg4 main_v6 ((extractStridedSlice S2x12544x1 ![0, 0, 1] · slices_S2x12544x2_S2x12544x1_0_0_1) : (⟨S2x12544x2, .f32⟩ : BufTy).Contents (Elt F) → (⟨S2x12544x1, .f32⟩ : BufTy).Contents (Elt F)),
    reshape main_v6 main_v7 rfl shapeCasts_S2x12544x1_S2x12544,
    nullary main_cst_1 (constant S_ .f32 0x43800000#32),
    unary main_cst_1 main_v8 (broadcastInDim S2x12544 ![] bcast_S_S2x12544 : (⟨S_, .f32⟩ : BufTy).Contents (Elt F) → (⟨S2x12544, .f32⟩ : BufTy).Contents (Elt F)),
    binary main_v7 main_v8 main_v9 (mulf : (⟨S2x12544, .f32⟩ : BufTy).Contents (Elt F) → (⟨S2x12544, .f32⟩ : BufTy).Contents (Elt F) → (⟨S2x12544, .f32⟩ : BufTy).Contents (Elt F)),
    nullary main_cst_2 (constant S_ .f32 0x3F000000#32),
    unary main_cst_2 main_v10 (broadcastInDim S2x12544 ![] bcast_S_S2x12544 : (⟨S_, .f32⟩ : BufTy).Contents (Elt F) → (⟨S2x12544, .f32⟩ : BufTy).Contents (Elt F)),
    binary main_v9 main_v10 main_v11 (subf : (⟨S2x12544, .f32⟩ : BufTy).Contents (Elt F) → (⟨S2x12544, .f32⟩ : BufTy).Contents (Elt F) → (⟨S2x12544, .f32⟩ : BufTy).Contents (Elt F)),
    unary main_v5 main_v12 (Host.floor : (⟨S2x12544, .f32⟩ : BufTy).Contents (Elt F) → (⟨S2x12544, .f32⟩ : BufTy).Contents (Elt F)),
    unary main_v11 main_v13 (Host.floor : (⟨S2x12544, .f32⟩ : BufTy).Contents (Elt F) → (⟨S2x12544, .f32⟩ : BufTy).Contents (Elt F)),
    binary main_v5 main_v12 main_v14 (subf : (⟨S2x12544, .f32⟩ : BufTy).Contents (Elt F) → (⟨S2x12544, .f32⟩ : BufTy).Contents (Elt F) → (⟨S2x12544, .f32⟩ : BufTy).Contents (Elt F)),
    binary main_v11 main_v13 main_v15 (subf : (⟨S2x12544, .f32⟩ : BufTy).Contents (Elt F) → (⟨S2x12544, .f32⟩ : BufTy).Contents (Elt F) → (⟨S2x12544, .f32⟩ : BufTy).Contents (Elt F)),
    unary main_v12 main_v16 (fptosi 32 : (⟨S2x12544, .f32⟩ : BufTy).Contents (Elt F) → (⟨S2x12544, .i32⟩ : BufTy).Contents (Elt F)),
    unary main_v13 main_v17 (fptosi 32 : (⟨S2x12544, .f32⟩ : BufTy).Contents (Elt F) → (⟨S2x12544, .i32⟩ : BufTy).Contents (Elt F)) ]
theorem ops_0_sub : (ops_0 : List (HloOp τ sig (Elt F))).Forall fun op => op.bufs ⊆ tcRefs τ sig :=
  ⟨unary_bufs_sub .., reshape_bufs_sub .., nullary_bufs_sub .., unary_bufs_sub .., binary_bufs_sub .., nullary_bufs_sub .., unary_bufs_sub .., binary_bufs_sub .., unary_bufs_sub .., reshape_bufs_sub .., nullary_bufs_sub .., unary_bufs_sub .., binary_bufs_sub .., nullary_bufs_sub .., unary_bufs_sub .., binary_bufs_sub .., unary_bufs_sub .., unary_bufs_sub .., binary_bufs_sub .., binary_bufs_sub .., unary_bufs_sub .., unary_bufs_sub ..⟩
theorem ops_0_fresh : ∀ op ∈ (ops_0 : List (HloOp τ sig (Elt F))), op.fresh = ∅ := by
  intro _ h; (repeat (cases h with | head => rfl | tail _ h => ?_)); exact nomatch h

set_option maxHeartbeats 4000000 in
/-- Operations 23 to 70 of @main, in order. -/
abbrev ops_1 : List (HloOp τ sig (Elt F)) :=
  [ nullary main_c (constantI S_ 32 0#32),
    unary main_c main_v18 (broadcastInDim S2x12544 ![] bcast_S_S2x12544 : (⟨S_, .i32⟩ : BufTy).Contents (Elt F) → (⟨S2x12544, .i32⟩ : BufTy).Contents (Elt F)),
    binary main_v16 main_v18 main_v19 (cmpi .sge : (⟨S2x12544, .i32⟩ : BufTy).Contents (Elt F) → (⟨S2x12544, .i32⟩ : BufTy).Contents (Elt F) → (⟨S2x12544, .i1⟩ : BufTy).Contents (Elt F)),
    nullary main_c_3 (constantI S_ 32 256#32),
    unary main_c_3 main_v20 (broadcastInDim S2x12544 ![] bcast_S_S2x12544 : (⟨S_, .i32⟩ : BufTy).Contents (Elt F) → (⟨S2x12544, .i32⟩ : BufTy).Contents (Elt F)),
    binary main_v16 main_v20 main_v21 (cmpi .slt : (⟨S2x12544, .i32⟩ : BufTy).Contents (Elt F) → (⟨S2x12544, .i32⟩ : BufTy).Contents (Elt F) → (⟨S2x12544, .i1⟩ : BufTy).Contents (Elt F)),
    binary main_v19 main_v21 main_v22 (andi : (⟨S2x12544, .i1⟩ : BufTy).Contents (Elt F) → (⟨S2x12544, .i1⟩ : BufTy).Contents (Elt F) → (⟨S2x12544, .i1⟩ : BufTy).Contents (Elt F)),
    nullary main_c_4 (constantI S_ 32 0#32),
    unary main_c_4 main_v23 (broadcastInDim S2x12544 ![] bcast_S_S2x12544 : (⟨S_, .i32⟩ : BufTy).Contents (Elt F) → (⟨S2x12544, .i32⟩ : BufTy).Contents (Elt F)),
    binary main_v17 main_v23 main_v24 (cmpi .sge : (⟨S2x12544, .i32⟩ : BufTy).Contents (Elt F) → (⟨S2x12544, .i32⟩ : BufTy).Contents (Elt F) → (⟨S2x12544, .i1⟩ : BufTy).Contents (Elt F)),
    binary main_v22 main_v24 main_v25 (andi : (⟨S2x12544, .i1⟩ : BufTy).Contents (Elt F) → (⟨S2x12544, .i1⟩ : BufTy).Contents (Elt F) → (⟨S2x12544, .i1⟩ : BufTy).Contents (Elt F)),
    nullary main_c_5 (constantI S_ 32 256#32),
    unary main_c_5 main_v26 (broadcastInDim S2x12544 ![] bcast_S_S2x12544 : (⟨S_, .i32⟩ : BufTy).Contents (Elt F) → (⟨S2x12544, .i32⟩ : BufTy).Contents (Elt F)),
    binary main_v17 main_v26 main_v27 (cmpi .slt : (⟨S2x12544, .i32⟩ : BufTy).Contents (Elt F) → (⟨S2x12544, .i32⟩ : BufTy).Contents (Elt F) → (⟨S2x12544, .i1⟩ : BufTy).Contents (Elt F)),
    binary main_v25 main_v27 main_v28 (andi : (⟨S2x12544, .i1⟩ : BufTy).Contents (Elt F) → (⟨S2x12544, .i1⟩ : BufTy).Contents (Elt F) → (⟨S2x12544, .i1⟩ : BufTy).Contents (Elt F)),
    unary main_v28 main_v29 (uitofp .f32 : (⟨S2x12544, .i1⟩ : BufTy).Contents (Elt F) → (⟨S2x12544, .f32⟩ : BufTy).Contents (Elt F)),
    nullary main_c_6 (constantI S_ 32 0#32),
    nullary main_c_7 (constantI S_ 32 255#32),
    TRef.unary (TRef.of (T := ⟨S_, .i32⟩) main_c_6) (TRef.of (T := ⟨S_, .i32⟩) main_call0_v0) id,
    TRef.unary (TRef.of (T := ⟨S_, .i32⟩) main_call0_v0) (TRef.of (T := ⟨S2x12544, .i32⟩) main_call0_v1) (broadcastInDim S2x12544 ![] bcast_S_S2x12544),
    TRef.binary (TRef.of (T := ⟨S2x12544, .i32⟩) main_call0_v1) (TRef.of (T := ⟨S2x12544, .i32⟩) main_v17) (TRef.of (T := ⟨S2x12544, .i32⟩) main_call0_v2) maxsi,
    TRef.unary (TRef.of (T := ⟨S_, .i32⟩) main_c_7) (TRef.of (T := ⟨S_, .i32⟩) main_call0_v3) id,
    TRef.unary (TRef.of (T := ⟨S_, .i32⟩) main_call0_v3) (TRef.of (T := ⟨S2x12544, .i32⟩) main_call0_v4) (broadcastInDim S2x12544 ![] bcast_S_S2x12544),
    TRef.binary (TRef.of (T := ⟨S2x12544, .i32⟩) main_call0_v4) (TRef.of (T := ⟨S2x12544, .i32⟩) main_call0_v2) (TRef.of (T := ⟨S2x12544, .i32⟩) main_v30) minsi,
    nullary main_c_8 (constantI S_ 32 0#32),
    nullary main_c_9 (constantI S_ 32 255#32),
    TRef.unary (TRef.of (T := ⟨S_, .i32⟩) main_c_8) (TRef.of (T := ⟨S_, .i32⟩) main_call1_v0) id,
    TRef.unary (TRef.of (T := ⟨S_, .i32⟩) main_call1_v0) (TRef.of (T := ⟨S2x12544, .i32⟩) main_call1_v1) (broadcastInDim S2x12544 ![] bcast_S_S2x12544),
    TRef.binary (TRef.of (T := ⟨S2x12544, .i32⟩) main_call1_v1) (TRef.of (T := ⟨S2x12544, .i32⟩) main_v16) (TRef.of (T := ⟨S2x12544, .i32⟩) main_call1_v2) maxsi,
    TRef.unary (TRef.of (T := ⟨S_, .i32⟩) main_c_9) (TRef.of (T := ⟨S_, .i32⟩) main_call1_v3) id,
    TRef.unary (TRef.of (T := ⟨S_, .i32⟩) main_call1_v3) (TRef.of (T := ⟨S2x12544, .i32⟩) main_call1_v4) (broadcastInDim S2x12544 ![] bcast_S_S2x12544),
    TRef.binary (TRef.of (T := ⟨S2x12544, .i32⟩) main_call1_v4) (TRef.of (T := ⟨S2x12544, .i32⟩) main_call1_v2) (TRef.of (T := ⟨S2x12544, .i32⟩) main_v31) minsi,
    nullary main_c_10 (constantI S_ 32 0#32),
    unary main_c_10 main_v32 (broadcastInDim S2x12544 ![] bcast_S_S2x12544 : (⟨S_, .i32⟩ : BufTy).Contents (Elt F) → (⟨S2x12544, .i32⟩ : BufTy).Contents (Elt F)),
    binary main_v30 main_v32 main_v33 (cmpi .slt : (⟨S2x12544, .i32⟩ : BufTy).Contents (Elt F) → (⟨S2x12544, .i32⟩ : BufTy).Contents (Elt F) → (⟨S2x12544, .i1⟩ : BufTy).Contents (Elt F)),
    nullary main_c_11 (constantI S_ 32 256#32),
    unary main_c_11 main_v34 (broadcastInDim S2x12544 ![] bcast_S_S2x12544 : (⟨S_, .i32⟩ : BufTy).Contents (Elt F) → (⟨S2x12544, .i32⟩ : BufTy).Contents (Elt F)),
    binary main_v30 main_v34 main_v35 (addi : (⟨S2x12544, .i32⟩ : BufTy).Contents (Elt F) → (⟨S2x12544, .i32⟩ : BufTy).Contents (Elt F) → (⟨S2x12544, .i32⟩ : BufTy).Contents (Elt F)),
    ternary main_v33 main_v35 main_v30 main_v36 (select : (⟨S2x12544, .i1⟩ : BufTy).Contents (Elt F) → (⟨S2x12544, .i32⟩ : BufTy).Contents (Elt F) → (⟨S2x12544, .i32⟩ : BufTy).Contents (Elt F) → (⟨S2x12544, .i32⟩ : BufTy).Contents (Elt F)),
    nullary main_c_12 (constantI S_ 32 0#32),
    unary main_c_12 main_v37 (broadcastInDim S2x12544 ![] bcast_S_S2x12544 : (⟨S_, .i32⟩ : BufTy).Contents (Elt F) → (⟨S2x12544, .i32⟩ : BufTy).Contents (Elt F)),
    binary main_v31 main_v37 main_v38 (cmpi .slt : (⟨S2x12544, .i32⟩ : BufTy).Contents (Elt F) → (⟨S2x12544, .i32⟩ : BufTy).Contents (Elt F) → (⟨S2x12544, .i1⟩ : BufTy).Contents (Elt F)),
    nullary main_c_13 (constantI S_ 32 256#32),
    unary main_c_13 main_v39 (broadcastInDim S2x12544 ![] bcast_S_S2x12544 : (⟨S_, .i32⟩ : BufTy).Contents (Elt F) → (⟨S2x12544, .i32⟩ : BufTy).Contents (Elt F)),
    binary main_v31 main_v39 main_v40 (addi : (⟨S2x12544, .i32⟩ : BufTy).Contents (Elt F) → (⟨S2x12544, .i32⟩ : BufTy).Contents (Elt F) → (⟨S2x12544, .i32⟩ : BufTy).Contents (Elt F)),
    ternary main_v38 main_v40 main_v31 main_v41 (select : (⟨S2x12544, .i1⟩ : BufTy).Contents (Elt F) → (⟨S2x12544, .i32⟩ : BufTy).Contents (Elt F) → (⟨S2x12544, .i32⟩ : BufTy).Contents (Elt F) → (⟨S2x12544, .i32⟩ : BufTy).Contents (Elt F)),
    unary main_v36 main_v42 (broadcastInDim S2x12544x1 ![0, 1] bcast_S2x12544_S2x12544x1_0_1 : (⟨S2x12544, .i32⟩ : BufTy).Contents (Elt F) → (⟨S2x12544x1, .i32⟩ : BufTy).Contents (Elt F)),
    unary main_v41 main_v43 (broadcastInDim S2x12544x1 ![0, 1] bcast_S2x12544_S2x12544x1_0_1 : (⟨S2x12544, .i32⟩ : BufTy).Contents (Elt F) → (⟨S2x12544x1, .i32⟩ : BufTy).Contents (Elt F)) ]
theorem ops_1_sub : (ops_1 : List (HloOp τ sig (Elt F))).Forall fun op => op.bufs ⊆ tcRefs τ sig :=
  ⟨nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., unary_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub ..⟩
theorem ops_1_fresh : ∀ op ∈ (ops_1 : List (HloOp τ sig (Elt F))), op.fresh = ∅ := by
  intro _ h; (repeat (cases h with | head => rfl | tail _ h => ?_)); exact nomatch h

set_option maxHeartbeats 4000000 in
/-- Operations 71 to 78 of @main, in order. -/
abbrev ops_2 : List (HloOp τ sig (Elt F)) :=
  [ binary main_v42 main_v43 main_v44 ((fun a b => concatenate S2x12544x2 2 [⟨S2x12544x1, a⟩, ⟨S2x12544x1, b⟩] concatenates_S2x12544x1_S2x12544x1_S2x12544x2_d2) : (⟨S2x12544x1, .i32⟩ : BufTy).Contents (Elt F) → (⟨S2x12544x1, .i32⟩ : BufTy).Contents (Elt F) → (⟨S2x12544x2, .i32⟩ : BufTy).Contents (Elt F)),
    binary main_arg0 main_v44 main_v45 ((fun x i => Host.gather gather_S2x300x256x256_S2x12544x2_S2x300x12544_1_23_0_0_23_2_130011 x i) : (⟨S2x300x256x256, .f32⟩ : BufTy).Contents (Elt F) → (⟨S2x12544x2, .i32⟩ : BufTy).Contents (Elt F) → (⟨S2x300x12544, .f32⟩ : BufTy).Contents (Elt F)),
    unary main_v29 main_v46 (broadcastInDim S2x1x12544 ![0, 2] bcast_S2x12544_S2x1x12544_0_2 : (⟨S2x12544, .f32⟩ : BufTy).Contents (Elt F) → (⟨S2x1x12544, .f32⟩ : BufTy).Contents (Elt F)),
    unary main_v46 main_v47 (broadcastInDim S2x300x12544 ![0, 1, 2] bcast_S2x1x12544_S2x300x12544_0_1_2 : (⟨S2x1x12544, .f32⟩ : BufTy).Contents (Elt F) → (⟨S2x300x12544, .f32⟩ : BufTy).Contents (Elt F)),
    binary main_v45 main_v47 main_v48 (mulf : (⟨S2x300x12544, .f32⟩ : BufTy).Contents (Elt F) → (⟨S2x300x12544, .f32⟩ : BufTy).Contents (Elt F) → (⟨S2x300x12544, .f32⟩ : BufTy).Contents (Elt F)),
    nullary main_c_14 (constantI S_ 32 1#32),
    unary main_c_14 main_v49 (broadcastInDim S2x12544 ![] bcast_S_S2x12544 : (⟨S_, .i32⟩ : BufTy).Contents (Elt F) → (⟨S2x12544, .i32⟩ : BufTy).Contents (Elt F)),
    binary main_v16 main_v49 main_v50 (addi : (⟨S2x12544, .i32⟩ : BufTy).Contents (Elt F) → (⟨S2x12544, .i32⟩ : BufTy).Contents (Elt F) → (⟨S2x12544, .i32⟩ : BufTy).Contents (Elt F)) ]
theorem ops_2_sub : (ops_2 : List (HloOp τ sig (Elt F))).Forall fun op => op.bufs ⊆ tcRefs τ sig :=
  ⟨binary_bufs_sub .., binary_bufs_sub .., unary_bufs_sub .., unary_bufs_sub .., binary_bufs_sub .., nullary_bufs_sub .., unary_bufs_sub .., binary_bufs_sub ..⟩
theorem ops_2_fresh : ∀ op ∈ (ops_2 : List (HloOp τ sig (Elt F))), op.fresh = ∅ := by
  intro _ h; (repeat (cases h with | head => rfl | tail _ h => ?_)); exact nomatch h

set_option maxHeartbeats 4000000 in
/-- Operations 79 to 126 of @main, in order. -/
abbrev ops_3 : List (HloOp τ sig (Elt F)) :=
  [ nullary main_c_15 (constantI S_ 32 0#32),
    unary main_c_15 main_v51 (broadcastInDim S2x12544 ![] bcast_S_S2x12544 : (⟨S_, .i32⟩ : BufTy).Contents (Elt F) → (⟨S2x12544, .i32⟩ : BufTy).Contents (Elt F)),
    binary main_v50 main_v51 main_v52 (cmpi .sge : (⟨S2x12544, .i32⟩ : BufTy).Contents (Elt F) → (⟨S2x12544, .i32⟩ : BufTy).Contents (Elt F) → (⟨S2x12544, .i1⟩ : BufTy).Contents (Elt F)),
    nullary main_c_16 (constantI S_ 32 256#32),
    unary main_c_16 main_v53 (broadcastInDim S2x12544 ![] bcast_S_S2x12544 : (⟨S_, .i32⟩ : BufTy).Contents (Elt F) → (⟨S2x12544, .i32⟩ : BufTy).Contents (Elt F)),
    binary main_v50 main_v53 main_v54 (cmpi .slt : (⟨S2x12544, .i32⟩ : BufTy).Contents (Elt F) → (⟨S2x12544, .i32⟩ : BufTy).Contents (Elt F) → (⟨S2x12544, .i1⟩ : BufTy).Contents (Elt F)),
    binary main_v52 main_v54 main_v55 (andi : (⟨S2x12544, .i1⟩ : BufTy).Contents (Elt F) → (⟨S2x12544, .i1⟩ : BufTy).Contents (Elt F) → (⟨S2x12544, .i1⟩ : BufTy).Contents (Elt F)),
    nullary main_c_17 (constantI S_ 32 0#32),
    unary main_c_17 main_v56 (broadcastInDim S2x12544 ![] bcast_S_S2x12544 : (⟨S_, .i32⟩ : BufTy).Contents (Elt F) → (⟨S2x12544, .i32⟩ : BufTy).Contents (Elt F)),
    binary main_v17 main_v56 main_v57 (cmpi .sge : (⟨S2x12544, .i32⟩ : BufTy).Contents (Elt F) → (⟨S2x12544, .i32⟩ : BufTy).Contents (Elt F) → (⟨S2x12544, .i1⟩ : BufTy).Contents (Elt F)),
    binary main_v55 main_v57 main_v58 (andi : (⟨S2x12544, .i1⟩ : BufTy).Contents (Elt F) → (⟨S2x12544, .i1⟩ : BufTy).Contents (Elt F) → (⟨S2x12544, .i1⟩ : BufTy).Contents (Elt F)),
    nullary main_c_18 (constantI S_ 32 256#32),
    unary main_c_18 main_v59 (broadcastInDim S2x12544 ![] bcast_S_S2x12544 : (⟨S_, .i32⟩ : BufTy).Contents (Elt F) → (⟨S2x12544, .i32⟩ : BufTy).Contents (Elt F)),
    binary main_v17 main_v59 main_v60 (cmpi .slt : (⟨S2x12544, .i32⟩ : BufTy).Contents (Elt F) → (⟨S2x12544, .i32⟩ : BufTy).Contents (Elt F) → (⟨S2x12544, .i1⟩ : BufTy).Contents (Elt F)),
    binary main_v58 main_v60 main_v61 (andi : (⟨S2x12544, .i1⟩ : BufTy).Contents (Elt F) → (⟨S2x12544, .i1⟩ : BufTy).Contents (Elt F) → (⟨S2x12544, .i1⟩ : BufTy).Contents (Elt F)),
    unary main_v61 main_v62 (uitofp .f32 : (⟨S2x12544, .i1⟩ : BufTy).Contents (Elt F) → (⟨S2x12544, .f32⟩ : BufTy).Contents (Elt F)),
    nullary main_c_19 (constantI S_ 32 0#32),
    nullary main_c_20 (constantI S_ 32 255#32),
    TRef.unary (TRef.of (T := ⟨S_, .i32⟩) main_c_19) (TRef.of (T := ⟨S_, .i32⟩) main_call2_v0) id,
    TRef.unary (TRef.of (T := ⟨S_, .i32⟩) main_call2_v0) (TRef.of (T := ⟨S2x12544, .i32⟩) main_call2_v1) (broadcastInDim S2x12544 ![] bcast_S_S2x12544),
    TRef.binary (TRef.of (T := ⟨S2x12544, .i32⟩) main_call2_v1) (TRef.of (T := ⟨S2x12544, .i32⟩) main_v17) (TRef.of (T := ⟨S2x12544, .i32⟩) main_call2_v2) maxsi,
    TRef.unary (TRef.of (T := ⟨S_, .i32⟩) main_c_20) (TRef.of (T := ⟨S_, .i32⟩) main_call2_v3) id,
    TRef.unary (TRef.of (T := ⟨S_, .i32⟩) main_call2_v3) (TRef.of (T := ⟨S2x12544, .i32⟩) main_call2_v4) (broadcastInDim S2x12544 ![] bcast_S_S2x12544),
    TRef.binary (TRef.of (T := ⟨S2x12544, .i32⟩) main_call2_v4) (TRef.of (T := ⟨S2x12544, .i32⟩) main_call2_v2) (TRef.of (T := ⟨S2x12544, .i32⟩) main_v63) minsi,
    nullary main_c_21 (constantI S_ 32 0#32),
    nullary main_c_22 (constantI S_ 32 255#32),
    TRef.unary (TRef.of (T := ⟨S_, .i32⟩) main_c_21) (TRef.of (T := ⟨S_, .i32⟩) main_call3_v0) id,
    TRef.unary (TRef.of (T := ⟨S_, .i32⟩) main_call3_v0) (TRef.of (T := ⟨S2x12544, .i32⟩) main_call3_v1) (broadcastInDim S2x12544 ![] bcast_S_S2x12544),
    TRef.binary (TRef.of (T := ⟨S2x12544, .i32⟩) main_call3_v1) (TRef.of (T := ⟨S2x12544, .i32⟩) main_v50) (TRef.of (T := ⟨S2x12544, .i32⟩) main_call3_v2) maxsi,
    TRef.unary (TRef.of (T := ⟨S_, .i32⟩) main_c_22) (TRef.of (T := ⟨S_, .i32⟩) main_call3_v3) id,
    TRef.unary (TRef.of (T := ⟨S_, .i32⟩) main_call3_v3) (TRef.of (T := ⟨S2x12544, .i32⟩) main_call3_v4) (broadcastInDim S2x12544 ![] bcast_S_S2x12544),
    TRef.binary (TRef.of (T := ⟨S2x12544, .i32⟩) main_call3_v4) (TRef.of (T := ⟨S2x12544, .i32⟩) main_call3_v2) (TRef.of (T := ⟨S2x12544, .i32⟩) main_v64) minsi,
    nullary main_c_23 (constantI S_ 32 0#32),
    unary main_c_23 main_v65 (broadcastInDim S2x12544 ![] bcast_S_S2x12544 : (⟨S_, .i32⟩ : BufTy).Contents (Elt F) → (⟨S2x12544, .i32⟩ : BufTy).Contents (Elt F)),
    binary main_v63 main_v65 main_v66 (cmpi .slt : (⟨S2x12544, .i32⟩ : BufTy).Contents (Elt F) → (⟨S2x12544, .i32⟩ : BufTy).Contents (Elt F) → (⟨S2x12544, .i1⟩ : BufTy).Contents (Elt F)),
    nullary main_c_24 (constantI S_ 32 256#32),
    unary main_c_24 main_v67 (broadcastInDim S2x12544 ![] bcast_S_S2x12544 : (⟨S_, .i32⟩ : BufTy).Contents (Elt F) → (⟨S2x12544, .i32⟩ : BufTy).Contents (Elt F)),
    binary main_v63 main_v67 main_v68 (addi : (⟨S2x12544, .i32⟩ : BufTy).Contents (Elt F) → (⟨S2x12544, .i32⟩ : BufTy).Contents (Elt F) → (⟨S2x12544, .i32⟩ : BufTy).Contents (Elt F)),
    ternary main_v66 main_v68 main_v63 main_v69 (select : (⟨S2x12544, .i1⟩ : BufTy).Contents (Elt F) → (⟨S2x12544, .i32⟩ : BufTy).Contents (Elt F) → (⟨S2x12544, .i32⟩ : BufTy).Contents (Elt F) → (⟨S2x12544, .i32⟩ : BufTy).Contents (Elt F)),
    nullary main_c_25 (constantI S_ 32 0#32),
    unary main_c_25 main_v70 (broadcastInDim S2x12544 ![] bcast_S_S2x12544 : (⟨S_, .i32⟩ : BufTy).Contents (Elt F) → (⟨S2x12544, .i32⟩ : BufTy).Contents (Elt F)),
    binary main_v64 main_v70 main_v71 (cmpi .slt : (⟨S2x12544, .i32⟩ : BufTy).Contents (Elt F) → (⟨S2x12544, .i32⟩ : BufTy).Contents (Elt F) → (⟨S2x12544, .i1⟩ : BufTy).Contents (Elt F)),
    nullary main_c_26 (constantI S_ 32 256#32),
    unary main_c_26 main_v72 (broadcastInDim S2x12544 ![] bcast_S_S2x12544 : (⟨S_, .i32⟩ : BufTy).Contents (Elt F) → (⟨S2x12544, .i32⟩ : BufTy).Contents (Elt F)),
    binary main_v64 main_v72 main_v73 (addi : (⟨S2x12544, .i32⟩ : BufTy).Contents (Elt F) → (⟨S2x12544, .i32⟩ : BufTy).Contents (Elt F) → (⟨S2x12544, .i32⟩ : BufTy).Contents (Elt F)),
    ternary main_v71 main_v73 main_v64 main_v74 (select : (⟨S2x12544, .i1⟩ : BufTy).Contents (Elt F) → (⟨S2x12544, .i32⟩ : BufTy).Contents (Elt F) → (⟨S2x12544, .i32⟩ : BufTy).Contents (Elt F) → (⟨S2x12544, .i32⟩ : BufTy).Contents (Elt F)),
    unary main_v69 main_v75 (broadcastInDim S2x12544x1 ![0, 1] bcast_S2x12544_S2x12544x1_0_1 : (⟨S2x12544, .i32⟩ : BufTy).Contents (Elt F) → (⟨S2x12544x1, .i32⟩ : BufTy).Contents (Elt F)),
    unary main_v74 main_v76 (broadcastInDim S2x12544x1 ![0, 1] bcast_S2x12544_S2x12544x1_0_1 : (⟨S2x12544, .i32⟩ : BufTy).Contents (Elt F) → (⟨S2x12544x1, .i32⟩ : BufTy).Contents (Elt F)) ]
theorem ops_3_sub : (ops_3 : List (HloOp τ sig (Elt F))).Forall fun op => op.bufs ⊆ tcRefs τ sig :=
  ⟨nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., unary_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub ..⟩
theorem ops_3_fresh : ∀ op ∈ (ops_3 : List (HloOp τ sig (Elt F))), op.fresh = ∅ := by
  intro _ h; (repeat (cases h with | head => rfl | tail _ h => ?_)); exact nomatch h

set_option maxHeartbeats 4000000 in
/-- Operations 127 to 134 of @main, in order. -/
abbrev ops_4 : List (HloOp τ sig (Elt F)) :=
  [ binary main_v75 main_v76 main_v77 ((fun a b => concatenate S2x12544x2 2 [⟨S2x12544x1, a⟩, ⟨S2x12544x1, b⟩] concatenates_S2x12544x1_S2x12544x1_S2x12544x2_d2) : (⟨S2x12544x1, .i32⟩ : BufTy).Contents (Elt F) → (⟨S2x12544x1, .i32⟩ : BufTy).Contents (Elt F) → (⟨S2x12544x2, .i32⟩ : BufTy).Contents (Elt F)),
    binary main_arg0 main_v77 main_v78 ((fun x i => Host.gather gather_S2x300x256x256_S2x12544x2_S2x300x12544_1_23_0_0_23_2_130011 x i) : (⟨S2x300x256x256, .f32⟩ : BufTy).Contents (Elt F) → (⟨S2x12544x2, .i32⟩ : BufTy).Contents (Elt F) → (⟨S2x300x12544, .f32⟩ : BufTy).Contents (Elt F)),
    unary main_v62 main_v79 (broadcastInDim S2x1x12544 ![0, 2] bcast_S2x12544_S2x1x12544_0_2 : (⟨S2x12544, .f32⟩ : BufTy).Contents (Elt F) → (⟨S2x1x12544, .f32⟩ : BufTy).Contents (Elt F)),
    unary main_v79 main_v80 (broadcastInDim S2x300x12544 ![0, 1, 2] bcast_S2x1x12544_S2x300x12544_0_1_2 : (⟨S2x1x12544, .f32⟩ : BufTy).Contents (Elt F) → (⟨S2x300x12544, .f32⟩ : BufTy).Contents (Elt F)),
    binary main_v78 main_v80 main_v81 (mulf : (⟨S2x300x12544, .f32⟩ : BufTy).Contents (Elt F) → (⟨S2x300x12544, .f32⟩ : BufTy).Contents (Elt F) → (⟨S2x300x12544, .f32⟩ : BufTy).Contents (Elt F)),
    nullary main_c_27 (constantI S_ 32 1#32),
    unary main_c_27 main_v82 (broadcastInDim S2x12544 ![] bcast_S_S2x12544 : (⟨S_, .i32⟩ : BufTy).Contents (Elt F) → (⟨S2x12544, .i32⟩ : BufTy).Contents (Elt F)),
    binary main_v17 main_v82 main_v83 (addi : (⟨S2x12544, .i32⟩ : BufTy).Contents (Elt F) → (⟨S2x12544, .i32⟩ : BufTy).Contents (Elt F) → (⟨S2x12544, .i32⟩ : BufTy).Contents (Elt F)) ]
theorem ops_4_sub : (ops_4 : List (HloOp τ sig (Elt F))).Forall fun op => op.bufs ⊆ tcRefs τ sig :=
  ⟨binary_bufs_sub .., binary_bufs_sub .., unary_bufs_sub .., unary_bufs_sub .., binary_bufs_sub .., nullary_bufs_sub .., unary_bufs_sub .., binary_bufs_sub ..⟩
theorem ops_4_fresh : ∀ op ∈ (ops_4 : List (HloOp τ sig (Elt F))), op.fresh = ∅ := by
  intro _ h; (repeat (cases h with | head => rfl | tail _ h => ?_)); exact nomatch h

set_option maxHeartbeats 4000000 in
/-- Operations 135 to 182 of @main, in order. -/
abbrev ops_5 : List (HloOp τ sig (Elt F)) :=
  [ nullary main_c_28 (constantI S_ 32 0#32),
    unary main_c_28 main_v84 (broadcastInDim S2x12544 ![] bcast_S_S2x12544 : (⟨S_, .i32⟩ : BufTy).Contents (Elt F) → (⟨S2x12544, .i32⟩ : BufTy).Contents (Elt F)),
    binary main_v16 main_v84 main_v85 (cmpi .sge : (⟨S2x12544, .i32⟩ : BufTy).Contents (Elt F) → (⟨S2x12544, .i32⟩ : BufTy).Contents (Elt F) → (⟨S2x12544, .i1⟩ : BufTy).Contents (Elt F)),
    nullary main_c_29 (constantI S_ 32 256#32),
    unary main_c_29 main_v86 (broadcastInDim S2x12544 ![] bcast_S_S2x12544 : (⟨S_, .i32⟩ : BufTy).Contents (Elt F) → (⟨S2x12544, .i32⟩ : BufTy).Contents (Elt F)),
    binary main_v16 main_v86 main_v87 (cmpi .slt : (⟨S2x12544, .i32⟩ : BufTy).Contents (Elt F) → (⟨S2x12544, .i32⟩ : BufTy).Contents (Elt F) → (⟨S2x12544, .i1⟩ : BufTy).Contents (Elt F)),
    binary main_v85 main_v87 main_v88 (andi : (⟨S2x12544, .i1⟩ : BufTy).Contents (Elt F) → (⟨S2x12544, .i1⟩ : BufTy).Contents (Elt F) → (⟨S2x12544, .i1⟩ : BufTy).Contents (Elt F)),
    nullary main_c_30 (constantI S_ 32 0#32),
    unary main_c_30 main_v89 (broadcastInDim S2x12544 ![] bcast_S_S2x12544 : (⟨S_, .i32⟩ : BufTy).Contents (Elt F) → (⟨S2x12544, .i32⟩ : BufTy).Contents (Elt F)),
    binary main_v83 main_v89 main_v90 (cmpi .sge : (⟨S2x12544, .i32⟩ : BufTy).Contents (Elt F) → (⟨S2x12544, .i32⟩ : BufTy).Contents (Elt F) → (⟨S2x12544, .i1⟩ : BufTy).Contents (Elt F)),
    binary main_v88 main_v90 main_v91 (andi : (⟨S2x12544, .i1⟩ : BufTy).Contents (Elt F) → (⟨S2x12544, .i1⟩ : BufTy).Contents (Elt F) → (⟨S2x12544, .i1⟩ : BufTy).Contents (Elt F)),
    nullary main_c_31 (constantI S_ 32 256#32),
    unary main_c_31 main_v92 (broadcastInDim S2x12544 ![] bcast_S_S2x12544 : (⟨S_, .i32⟩ : BufTy).Contents (Elt F) → (⟨S2x12544, .i32⟩ : BufTy).Contents (Elt F)),
    binary main_v83 main_v92 main_v93 (cmpi .slt : (⟨S2x12544, .i32⟩ : BufTy).Contents (Elt F) → (⟨S2x12544, .i32⟩ : BufTy).Contents (Elt F) → (⟨S2x12544, .i1⟩ : BufTy).Contents (Elt F)),
    binary main_v91 main_v93 main_v94 (andi : (⟨S2x12544, .i1⟩ : BufTy).Contents (Elt F) → (⟨S2x12544, .i1⟩ : BufTy).Contents (Elt F) → (⟨S2x12544, .i1⟩ : BufTy).Contents (Elt F)),
    unary main_v94 main_v95 (uitofp .f32 : (⟨S2x12544, .i1⟩ : BufTy).Contents (Elt F) → (⟨S2x12544, .f32⟩ : BufTy).Contents (Elt F)),
    nullary main_c_32 (constantI S_ 32 0#32),
    nullary main_c_33 (constantI S_ 32 255#32),
    TRef.unary (TRef.of (T := ⟨S_, .i32⟩) main_c_32) (TRef.of (T := ⟨S_, .i32⟩) main_call4_v0) id,
    TRef.unary (TRef.of (T := ⟨S_, .i32⟩) main_call4_v0) (TRef.of (T := ⟨S2x12544, .i32⟩) main_call4_v1) (broadcastInDim S2x12544 ![] bcast_S_S2x12544),
    TRef.binary (TRef.of (T := ⟨S2x12544, .i32⟩) main_call4_v1) (TRef.of (T := ⟨S2x12544, .i32⟩) main_v83) (TRef.of (T := ⟨S2x12544, .i32⟩) main_call4_v2) maxsi,
    TRef.unary (TRef.of (T := ⟨S_, .i32⟩) main_c_33) (TRef.of (T := ⟨S_, .i32⟩) main_call4_v3) id,
    TRef.unary (TRef.of (T := ⟨S_, .i32⟩) main_call4_v3) (TRef.of (T := ⟨S2x12544, .i32⟩) main_call4_v4) (broadcastInDim S2x12544 ![] bcast_S_S2x12544),
    TRef.binary (TRef.of (T := ⟨S2x12544, .i32⟩) main_call4_v4) (TRef.of (T := ⟨S2x12544, .i32⟩) main_call4_v2) (TRef.of (T := ⟨S2x12544, .i32⟩) main_v96) minsi,
    nullary main_c_34 (constantI S_ 32 0#32),
    nullary main_c_35 (constantI S_ 32 255#32),
    TRef.unary (TRef.of (T := ⟨S_, .i32⟩) main_c_34) (TRef.of (T := ⟨S_, .i32⟩) main_call5_v0) id,
    TRef.unary (TRef.of (T := ⟨S_, .i32⟩) main_call5_v0) (TRef.of (T := ⟨S2x12544, .i32⟩) main_call5_v1) (broadcastInDim S2x12544 ![] bcast_S_S2x12544),
    TRef.binary (TRef.of (T := ⟨S2x12544, .i32⟩) main_call5_v1) (TRef.of (T := ⟨S2x12544, .i32⟩) main_v16) (TRef.of (T := ⟨S2x12544, .i32⟩) main_call5_v2) maxsi,
    TRef.unary (TRef.of (T := ⟨S_, .i32⟩) main_c_35) (TRef.of (T := ⟨S_, .i32⟩) main_call5_v3) id,
    TRef.unary (TRef.of (T := ⟨S_, .i32⟩) main_call5_v3) (TRef.of (T := ⟨S2x12544, .i32⟩) main_call5_v4) (broadcastInDim S2x12544 ![] bcast_S_S2x12544),
    TRef.binary (TRef.of (T := ⟨S2x12544, .i32⟩) main_call5_v4) (TRef.of (T := ⟨S2x12544, .i32⟩) main_call5_v2) (TRef.of (T := ⟨S2x12544, .i32⟩) main_v97) minsi,
    nullary main_c_36 (constantI S_ 32 0#32),
    unary main_c_36 main_v98 (broadcastInDim S2x12544 ![] bcast_S_S2x12544 : (⟨S_, .i32⟩ : BufTy).Contents (Elt F) → (⟨S2x12544, .i32⟩ : BufTy).Contents (Elt F)),
    binary main_v96 main_v98 main_v99 (cmpi .slt : (⟨S2x12544, .i32⟩ : BufTy).Contents (Elt F) → (⟨S2x12544, .i32⟩ : BufTy).Contents (Elt F) → (⟨S2x12544, .i1⟩ : BufTy).Contents (Elt F)),
    nullary main_c_37 (constantI S_ 32 256#32),
    unary main_c_37 main_v100 (broadcastInDim S2x12544 ![] bcast_S_S2x12544 : (⟨S_, .i32⟩ : BufTy).Contents (Elt F) → (⟨S2x12544, .i32⟩ : BufTy).Contents (Elt F)),
    binary main_v96 main_v100 main_v101 (addi : (⟨S2x12544, .i32⟩ : BufTy).Contents (Elt F) → (⟨S2x12544, .i32⟩ : BufTy).Contents (Elt F) → (⟨S2x12544, .i32⟩ : BufTy).Contents (Elt F)),
    ternary main_v99 main_v101 main_v96 main_v102 (select : (⟨S2x12544, .i1⟩ : BufTy).Contents (Elt F) → (⟨S2x12544, .i32⟩ : BufTy).Contents (Elt F) → (⟨S2x12544, .i32⟩ : BufTy).Contents (Elt F) → (⟨S2x12544, .i32⟩ : BufTy).Contents (Elt F)),
    nullary main_c_38 (constantI S_ 32 0#32),
    unary main_c_38 main_v103 (broadcastInDim S2x12544 ![] bcast_S_S2x12544 : (⟨S_, .i32⟩ : BufTy).Contents (Elt F) → (⟨S2x12544, .i32⟩ : BufTy).Contents (Elt F)),
    binary main_v97 main_v103 main_v104 (cmpi .slt : (⟨S2x12544, .i32⟩ : BufTy).Contents (Elt F) → (⟨S2x12544, .i32⟩ : BufTy).Contents (Elt F) → (⟨S2x12544, .i1⟩ : BufTy).Contents (Elt F)),
    nullary main_c_39 (constantI S_ 32 256#32),
    unary main_c_39 main_v105 (broadcastInDim S2x12544 ![] bcast_S_S2x12544 : (⟨S_, .i32⟩ : BufTy).Contents (Elt F) → (⟨S2x12544, .i32⟩ : BufTy).Contents (Elt F)),
    binary main_v97 main_v105 main_v106 (addi : (⟨S2x12544, .i32⟩ : BufTy).Contents (Elt F) → (⟨S2x12544, .i32⟩ : BufTy).Contents (Elt F) → (⟨S2x12544, .i32⟩ : BufTy).Contents (Elt F)),
    ternary main_v104 main_v106 main_v97 main_v107 (select : (⟨S2x12544, .i1⟩ : BufTy).Contents (Elt F) → (⟨S2x12544, .i32⟩ : BufTy).Contents (Elt F) → (⟨S2x12544, .i32⟩ : BufTy).Contents (Elt F) → (⟨S2x12544, .i32⟩ : BufTy).Contents (Elt F)),
    unary main_v102 main_v108 (broadcastInDim S2x12544x1 ![0, 1] bcast_S2x12544_S2x12544x1_0_1 : (⟨S2x12544, .i32⟩ : BufTy).Contents (Elt F) → (⟨S2x12544x1, .i32⟩ : BufTy).Contents (Elt F)),
    unary main_v107 main_v109 (broadcastInDim S2x12544x1 ![0, 1] bcast_S2x12544_S2x12544x1_0_1 : (⟨S2x12544, .i32⟩ : BufTy).Contents (Elt F) → (⟨S2x12544x1, .i32⟩ : BufTy).Contents (Elt F)) ]
theorem ops_5_sub : (ops_5 : List (HloOp τ sig (Elt F))).Forall fun op => op.bufs ⊆ tcRefs τ sig :=
  ⟨nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., unary_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub ..⟩
theorem ops_5_fresh : ∀ op ∈ (ops_5 : List (HloOp τ sig (Elt F))), op.fresh = ∅ := by
  intro _ h; (repeat (cases h with | head => rfl | tail _ h => ?_)); exact nomatch h

set_option maxHeartbeats 4000000 in
/-- Operations 183 to 193 of @main, in order. -/
abbrev ops_6 : List (HloOp τ sig (Elt F)) :=
  [ binary main_v108 main_v109 main_v110 ((fun a b => concatenate S2x12544x2 2 [⟨S2x12544x1, a⟩, ⟨S2x12544x1, b⟩] concatenates_S2x12544x1_S2x12544x1_S2x12544x2_d2) : (⟨S2x12544x1, .i32⟩ : BufTy).Contents (Elt F) → (⟨S2x12544x1, .i32⟩ : BufTy).Contents (Elt F) → (⟨S2x12544x2, .i32⟩ : BufTy).Contents (Elt F)),
    binary main_arg0 main_v110 main_v111 ((fun x i => Host.gather gather_S2x300x256x256_S2x12544x2_S2x300x12544_1_23_0_0_23_2_130011 x i) : (⟨S2x300x256x256, .f32⟩ : BufTy).Contents (Elt F) → (⟨S2x12544x2, .i32⟩ : BufTy).Contents (Elt F) → (⟨S2x300x12544, .f32⟩ : BufTy).Contents (Elt F)),
    unary main_v95 main_v112 (broadcastInDim S2x1x12544 ![0, 2] bcast_S2x12544_S2x1x12544_0_2 : (⟨S2x12544, .f32⟩ : BufTy).Contents (Elt F) → (⟨S2x1x12544, .f32⟩ : BufTy).Contents (Elt F)),
    unary main_v112 main_v113 (broadcastInDim S2x300x12544 ![0, 1, 2] bcast_S2x1x12544_S2x300x12544_0_1_2 : (⟨S2x1x12544, .f32⟩ : BufTy).Contents (Elt F) → (⟨S2x300x12544, .f32⟩ : BufTy).Contents (Elt F)),
    binary main_v111 main_v113 main_v114 (mulf : (⟨S2x300x12544, .f32⟩ : BufTy).Contents (Elt F) → (⟨S2x300x12544, .f32⟩ : BufTy).Contents (Elt F) → (⟨S2x300x12544, .f32⟩ : BufTy).Contents (Elt F)),
    nullary main_c_40 (constantI S_ 32 1#32),
    unary main_c_40 main_v115 (broadcastInDim S2x12544 ![] bcast_S_S2x12544 : (⟨S_, .i32⟩ : BufTy).Contents (Elt F) → (⟨S2x12544, .i32⟩ : BufTy).Contents (Elt F)),
    binary main_v17 main_v115 main_v116 (addi : (⟨S2x12544, .i32⟩ : BufTy).Contents (Elt F) → (⟨S2x12544, .i32⟩ : BufTy).Contents (Elt F) → (⟨S2x12544, .i32⟩ : BufTy).Contents (Elt F)),
    nullary main_c_41 (constantI S_ 32 1#32),
    unary main_c_41 main_v117 (broadcastInDim S2x12544 ![] bcast_S_S2x12544 : (⟨S_, .i32⟩ : BufTy).Contents (Elt F) → (⟨S2x12544, .i32⟩ : BufTy).Contents (Elt F)),
    binary main_v16 main_v117 main_v118 (addi : (⟨S2x12544, .i32⟩ : BufTy).Contents (Elt F) → (⟨S2x12544, .i32⟩ : BufTy).Contents (Elt F) → (⟨S2x12544, .i32⟩ : BufTy).Contents (Elt F)) ]
theorem ops_6_sub : (ops_6 : List (HloOp τ sig (Elt F))).Forall fun op => op.bufs ⊆ tcRefs τ sig :=
  ⟨binary_bufs_sub .., binary_bufs_sub .., unary_bufs_sub .., unary_bufs_sub .., binary_bufs_sub .., nullary_bufs_sub .., unary_bufs_sub .., binary_bufs_sub .., nullary_bufs_sub .., unary_bufs_sub .., binary_bufs_sub ..⟩
theorem ops_6_fresh : ∀ op ∈ (ops_6 : List (HloOp τ sig (Elt F))), op.fresh = ∅ := by
  intro _ h; (repeat (cases h with | head => rfl | tail _ h => ?_)); exact nomatch h

set_option maxHeartbeats 4000000 in
/-- Operations 194 to 241 of @main, in order. -/
abbrev ops_7 : List (HloOp τ sig (Elt F)) :=
  [ nullary main_c_42 (constantI S_ 32 0#32),
    unary main_c_42 main_v119 (broadcastInDim S2x12544 ![] bcast_S_S2x12544 : (⟨S_, .i32⟩ : BufTy).Contents (Elt F) → (⟨S2x12544, .i32⟩ : BufTy).Contents (Elt F)),
    binary main_v118 main_v119 main_v120 (cmpi .sge : (⟨S2x12544, .i32⟩ : BufTy).Contents (Elt F) → (⟨S2x12544, .i32⟩ : BufTy).Contents (Elt F) → (⟨S2x12544, .i1⟩ : BufTy).Contents (Elt F)),
    nullary main_c_43 (constantI S_ 32 256#32),
    unary main_c_43 main_v121 (broadcastInDim S2x12544 ![] bcast_S_S2x12544 : (⟨S_, .i32⟩ : BufTy).Contents (Elt F) → (⟨S2x12544, .i32⟩ : BufTy).Contents (Elt F)),
    binary main_v118 main_v121 main_v122 (cmpi .slt : (⟨S2x12544, .i32⟩ : BufTy).Contents (Elt F) → (⟨S2x12544, .i32⟩ : BufTy).Contents (Elt F) → (⟨S2x12544, .i1⟩ : BufTy).Contents (Elt F)),
    binary main_v120 main_v122 main_v123 (andi : (⟨S2x12544, .i1⟩ : BufTy).Contents (Elt F) → (⟨S2x12544, .i1⟩ : BufTy).Contents (Elt F) → (⟨S2x12544, .i1⟩ : BufTy).Contents (Elt F)),
    nullary main_c_44 (constantI S_ 32 0#32),
    unary main_c_44 main_v124 (broadcastInDim S2x12544 ![] bcast_S_S2x12544 : (⟨S_, .i32⟩ : BufTy).Contents (Elt F) → (⟨S2x12544, .i32⟩ : BufTy).Contents (Elt F)),
    binary main_v116 main_v124 main_v125 (cmpi .sge : (⟨S2x12544, .i32⟩ : BufTy).Contents (Elt F) → (⟨S2x12544, .i32⟩ : BufTy).Contents (Elt F) → (⟨S2x12544, .i1⟩ : BufTy).Contents (Elt F)),
    binary main_v123 main_v125 main_v126 (andi : (⟨S2x12544, .i1⟩ : BufTy).Contents (Elt F) → (⟨S2x12544, .i1⟩ : BufTy).Contents (Elt F) → (⟨S2x12544, .i1⟩ : BufTy).Contents (Elt F)),
    nullary main_c_45 (constantI S_ 32 256#32),
    unary main_c_45 main_v127 (broadcastInDim S2x12544 ![] bcast_S_S2x12544 : (⟨S_, .i32⟩ : BufTy).Contents (Elt F) → (⟨S2x12544, .i32⟩ : BufTy).Contents (Elt F)),
    binary main_v116 main_v127 main_v128 (cmpi .slt : (⟨S2x12544, .i32⟩ : BufTy).Contents (Elt F) → (⟨S2x12544, .i32⟩ : BufTy).Contents (Elt F) → (⟨S2x12544, .i1⟩ : BufTy).Contents (Elt F)),
    binary main_v126 main_v128 main_v129 (andi : (⟨S2x12544, .i1⟩ : BufTy).Contents (Elt F) → (⟨S2x12544, .i1⟩ : BufTy).Contents (Elt F) → (⟨S2x12544, .i1⟩ : BufTy).Contents (Elt F)),
    unary main_v129 main_v130 (uitofp .f32 : (⟨S2x12544, .i1⟩ : BufTy).Contents (Elt F) → (⟨S2x12544, .f32⟩ : BufTy).Contents (Elt F)),
    nullary main_c_46 (constantI S_ 32 0#32),
    nullary main_c_47 (constantI S_ 32 255#32),
    TRef.unary (TRef.of (T := ⟨S_, .i32⟩) main_c_46) (TRef.of (T := ⟨S_, .i32⟩) main_call6_v0) id,
    TRef.unary (TRef.of (T := ⟨S_, .i32⟩) main_call6_v0) (TRef.of (T := ⟨S2x12544, .i32⟩) main_call6_v1) (broadcastInDim S2x12544 ![] bcast_S_S2x12544),
    TRef.binary (TRef.of (T := ⟨S2x12544, .i32⟩) main_call6_v1) (TRef.of (T := ⟨S2x12544, .i32⟩) main_v116) (TRef.of (T := ⟨S2x12544, .i32⟩) main_call6_v2) maxsi,
    TRef.unary (TRef.of (T := ⟨S_, .i32⟩) main_c_47) (TRef.of (T := ⟨S_, .i32⟩) main_call6_v3) id,
    TRef.unary (TRef.of (T := ⟨S_, .i32⟩) main_call6_v3) (TRef.of (T := ⟨S2x12544, .i32⟩) main_call6_v4) (broadcastInDim S2x12544 ![] bcast_S_S2x12544),
    TRef.binary (TRef.of (T := ⟨S2x12544, .i32⟩) main_call6_v4) (TRef.of (T := ⟨S2x12544, .i32⟩) main_call6_v2) (TRef.of (T := ⟨S2x12544, .i32⟩) main_v131) minsi,
    nullary main_c_48 (constantI S_ 32 0#32),
    nullary main_c_49 (constantI S_ 32 255#32),
    TRef.unary (TRef.of (T := ⟨S_, .i32⟩) main_c_48) (TRef.of (T := ⟨S_, .i32⟩) main_call7_v0) id,
    TRef.unary (TRef.of (T := ⟨S_, .i32⟩) main_call7_v0) (TRef.of (T := ⟨S2x12544, .i32⟩) main_call7_v1) (broadcastInDim S2x12544 ![] bcast_S_S2x12544),
    TRef.binary (TRef.of (T := ⟨S2x12544, .i32⟩) main_call7_v1) (TRef.of (T := ⟨S2x12544, .i32⟩) main_v118) (TRef.of (T := ⟨S2x12544, .i32⟩) main_call7_v2) maxsi,
    TRef.unary (TRef.of (T := ⟨S_, .i32⟩) main_c_49) (TRef.of (T := ⟨S_, .i32⟩) main_call7_v3) id,
    TRef.unary (TRef.of (T := ⟨S_, .i32⟩) main_call7_v3) (TRef.of (T := ⟨S2x12544, .i32⟩) main_call7_v4) (broadcastInDim S2x12544 ![] bcast_S_S2x12544),
    TRef.binary (TRef.of (T := ⟨S2x12544, .i32⟩) main_call7_v4) (TRef.of (T := ⟨S2x12544, .i32⟩) main_call7_v2) (TRef.of (T := ⟨S2x12544, .i32⟩) main_v132) minsi,
    nullary main_c_50 (constantI S_ 32 0#32),
    unary main_c_50 main_v133 (broadcastInDim S2x12544 ![] bcast_S_S2x12544 : (⟨S_, .i32⟩ : BufTy).Contents (Elt F) → (⟨S2x12544, .i32⟩ : BufTy).Contents (Elt F)),
    binary main_v131 main_v133 main_v134 (cmpi .slt : (⟨S2x12544, .i32⟩ : BufTy).Contents (Elt F) → (⟨S2x12544, .i32⟩ : BufTy).Contents (Elt F) → (⟨S2x12544, .i1⟩ : BufTy).Contents (Elt F)),
    nullary main_c_51 (constantI S_ 32 256#32),
    unary main_c_51 main_v135 (broadcastInDim S2x12544 ![] bcast_S_S2x12544 : (⟨S_, .i32⟩ : BufTy).Contents (Elt F) → (⟨S2x12544, .i32⟩ : BufTy).Contents (Elt F)),
    binary main_v131 main_v135 main_v136 (addi : (⟨S2x12544, .i32⟩ : BufTy).Contents (Elt F) → (⟨S2x12544, .i32⟩ : BufTy).Contents (Elt F) → (⟨S2x12544, .i32⟩ : BufTy).Contents (Elt F)),
    ternary main_v134 main_v136 main_v131 main_v137 (select : (⟨S2x12544, .i1⟩ : BufTy).Contents (Elt F) → (⟨S2x12544, .i32⟩ : BufTy).Contents (Elt F) → (⟨S2x12544, .i32⟩ : BufTy).Contents (Elt F) → (⟨S2x12544, .i32⟩ : BufTy).Contents (Elt F)),
    nullary main_c_52 (constantI S_ 32 0#32),
    unary main_c_52 main_v138 (broadcastInDim S2x12544 ![] bcast_S_S2x12544 : (⟨S_, .i32⟩ : BufTy).Contents (Elt F) → (⟨S2x12544, .i32⟩ : BufTy).Contents (Elt F)),
    binary main_v132 main_v138 main_v139 (cmpi .slt : (⟨S2x12544, .i32⟩ : BufTy).Contents (Elt F) → (⟨S2x12544, .i32⟩ : BufTy).Contents (Elt F) → (⟨S2x12544, .i1⟩ : BufTy).Contents (Elt F)),
    nullary main_c_53 (constantI S_ 32 256#32),
    unary main_c_53 main_v140 (broadcastInDim S2x12544 ![] bcast_S_S2x12544 : (⟨S_, .i32⟩ : BufTy).Contents (Elt F) → (⟨S2x12544, .i32⟩ : BufTy).Contents (Elt F)),
    binary main_v132 main_v140 main_v141 (addi : (⟨S2x12544, .i32⟩ : BufTy).Contents (Elt F) → (⟨S2x12544, .i32⟩ : BufTy).Contents (Elt F) → (⟨S2x12544, .i32⟩ : BufTy).Contents (Elt F)),
    ternary main_v139 main_v141 main_v132 main_v142 (select : (⟨S2x12544, .i1⟩ : BufTy).Contents (Elt F) → (⟨S2x12544, .i32⟩ : BufTy).Contents (Elt F) → (⟨S2x12544, .i32⟩ : BufTy).Contents (Elt F) → (⟨S2x12544, .i32⟩ : BufTy).Contents (Elt F)),
    unary main_v137 main_v143 (broadcastInDim S2x12544x1 ![0, 1] bcast_S2x12544_S2x12544x1_0_1 : (⟨S2x12544, .i32⟩ : BufTy).Contents (Elt F) → (⟨S2x12544x1, .i32⟩ : BufTy).Contents (Elt F)),
    unary main_v142 main_v144 (broadcastInDim S2x12544x1 ![0, 1] bcast_S2x12544_S2x12544x1_0_1 : (⟨S2x12544, .i32⟩ : BufTy).Contents (Elt F) → (⟨S2x12544x1, .i32⟩ : BufTy).Contents (Elt F)) ]
theorem ops_7_sub : (ops_7 : List (HloOp τ sig (Elt F))).Forall fun op => op.bufs ⊆ tcRefs τ sig :=
  ⟨nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., unary_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub ..⟩
theorem ops_7_fresh : ∀ op ∈ (ops_7 : List (HloOp τ sig (Elt F))), op.fresh = ∅ := by
  intro _ h; (repeat (cases h with | head => rfl | tail _ h => ?_)); exact nomatch h

set_option maxHeartbeats 4000000 in
/-- Operations 242 to 285 of @main, in order. -/
abbrev ops_8 : List (HloOp τ sig (Elt F)) :=
  [ binary main_v143 main_v144 main_v145 ((fun a b => concatenate S2x12544x2 2 [⟨S2x12544x1, a⟩, ⟨S2x12544x1, b⟩] concatenates_S2x12544x1_S2x12544x1_S2x12544x2_d2) : (⟨S2x12544x1, .i32⟩ : BufTy).Contents (Elt F) → (⟨S2x12544x1, .i32⟩ : BufTy).Contents (Elt F) → (⟨S2x12544x2, .i32⟩ : BufTy).Contents (Elt F)),
    binary main_arg0 main_v145 main_v146 ((fun x i => Host.gather gather_S2x300x256x256_S2x12544x2_S2x300x12544_1_23_0_0_23_2_130011 x i) : (⟨S2x300x256x256, .f32⟩ : BufTy).Contents (Elt F) → (⟨S2x12544x2, .i32⟩ : BufTy).Contents (Elt F) → (⟨S2x300x12544, .f32⟩ : BufTy).Contents (Elt F)),
    unary main_v130 main_v147 (broadcastInDim S2x1x12544 ![0, 2] bcast_S2x12544_S2x1x12544_0_2 : (⟨S2x12544, .f32⟩ : BufTy).Contents (Elt F) → (⟨S2x1x12544, .f32⟩ : BufTy).Contents (Elt F)),
    unary main_v147 main_v148 (broadcastInDim S2x300x12544 ![0, 1, 2] bcast_S2x1x12544_S2x300x12544_0_1_2 : (⟨S2x1x12544, .f32⟩ : BufTy).Contents (Elt F) → (⟨S2x300x12544, .f32⟩ : BufTy).Contents (Elt F)),
    binary main_v146 main_v148 main_v149 (mulf : (⟨S2x300x12544, .f32⟩ : BufTy).Contents (Elt F) → (⟨S2x300x12544, .f32⟩ : BufTy).Contents (Elt F) → (⟨S2x300x12544, .f32⟩ : BufTy).Contents (Elt F)),
    nullary main_cst_54 (constant S_ .f32 0x3F800000#32),
    unary main_cst_54 main_v150 (broadcastInDim S2x12544 ![] bcast_S_S2x12544 : (⟨S_, .f32⟩ : BufTy).Contents (Elt F) → (⟨S2x12544, .f32⟩ : BufTy).Contents (Elt F)),
    binary main_v150 main_v15 main_v151 (subf : (⟨S2x12544, .f32⟩ : BufTy).Contents (Elt F) → (⟨S2x12544, .f32⟩ : BufTy).Contents (Elt F) → (⟨S2x12544, .f32⟩ : BufTy).Contents (Elt F)),
    unary main_v151 main_v152 (broadcastInDim S2x1x12544 ![0, 2] bcast_S2x12544_S2x1x12544_0_2 : (⟨S2x12544, .f32⟩ : BufTy).Contents (Elt F) → (⟨S2x1x12544, .f32⟩ : BufTy).Contents (Elt F)),
    unary main_v152 main_v153 (broadcastInDim S2x300x12544 ![0, 1, 2] bcast_S2x1x12544_S2x300x12544_0_1_2 : (⟨S2x1x12544, .f32⟩ : BufTy).Contents (Elt F) → (⟨S2x300x12544, .f32⟩ : BufTy).Contents (Elt F)),
    binary main_v48 main_v153 main_v154 (mulf : (⟨S2x300x12544, .f32⟩ : BufTy).Contents (Elt F) → (⟨S2x300x12544, .f32⟩ : BufTy).Contents (Elt F) → (⟨S2x300x12544, .f32⟩ : BufTy).Contents (Elt F)),
    nullary main_cst_55 (constant S_ .f32 0x3F800000#32),
    unary main_cst_55 main_v155 (broadcastInDim S2x12544 ![] bcast_S_S2x12544 : (⟨S_, .f32⟩ : BufTy).Contents (Elt F) → (⟨S2x12544, .f32⟩ : BufTy).Contents (Elt F)),
    binary main_v155 main_v14 main_v156 (subf : (⟨S2x12544, .f32⟩ : BufTy).Contents (Elt F) → (⟨S2x12544, .f32⟩ : BufTy).Contents (Elt F) → (⟨S2x12544, .f32⟩ : BufTy).Contents (Elt F)),
    unary main_v156 main_v157 (broadcastInDim S2x1x12544 ![0, 2] bcast_S2x12544_S2x1x12544_0_2 : (⟨S2x12544, .f32⟩ : BufTy).Contents (Elt F) → (⟨S2x1x12544, .f32⟩ : BufTy).Contents (Elt F)),
    unary main_v157 main_v158 (broadcastInDim S2x300x12544 ![0, 1, 2] bcast_S2x1x12544_S2x300x12544_0_1_2 : (⟨S2x1x12544, .f32⟩ : BufTy).Contents (Elt F) → (⟨S2x300x12544, .f32⟩ : BufTy).Contents (Elt F)),
    binary main_v154 main_v158 main_v159 (mulf : (⟨S2x300x12544, .f32⟩ : BufTy).Contents (Elt F) → (⟨S2x300x12544, .f32⟩ : BufTy).Contents (Elt F) → (⟨S2x300x12544, .f32⟩ : BufTy).Contents (Elt F)),
    nullary main_cst_56 (constant S_ .f32 0x3F800000#32),
    unary main_cst_56 main_v160 (broadcastInDim S2x12544 ![] bcast_S_S2x12544 : (⟨S_, .f32⟩ : BufTy).Contents (Elt F) → (⟨S2x12544, .f32⟩ : BufTy).Contents (Elt F)),
    binary main_v160 main_v15 main_v161 (subf : (⟨S2x12544, .f32⟩ : BufTy).Contents (Elt F) → (⟨S2x12544, .f32⟩ : BufTy).Contents (Elt F) → (⟨S2x12544, .f32⟩ : BufTy).Contents (Elt F)),
    unary main_v161 main_v162 (broadcastInDim S2x1x12544 ![0, 2] bcast_S2x12544_S2x1x12544_0_2 : (⟨S2x12544, .f32⟩ : BufTy).Contents (Elt F) → (⟨S2x1x12544, .f32⟩ : BufTy).Contents (Elt F)),
    unary main_v162 main_v163 (broadcastInDim S2x300x12544 ![0, 1, 2] bcast_S2x1x12544_S2x300x12544_0_1_2 : (⟨S2x1x12544, .f32⟩ : BufTy).Contents (Elt F) → (⟨S2x300x12544, .f32⟩ : BufTy).Contents (Elt F)),
    binary main_v81 main_v163 main_v164 (mulf : (⟨S2x300x12544, .f32⟩ : BufTy).Contents (Elt F) → (⟨S2x300x12544, .f32⟩ : BufTy).Contents (Elt F) → (⟨S2x300x12544, .f32⟩ : BufTy).Contents (Elt F)),
    unary main_v14 main_v165 (broadcastInDim S2x1x12544 ![0, 2] bcast_S2x12544_S2x1x12544_0_2 : (⟨S2x12544, .f32⟩ : BufTy).Contents (Elt F) → (⟨S2x1x12544, .f32⟩ : BufTy).Contents (Elt F)),
    unary main_v165 main_v166 (broadcastInDim S2x300x12544 ![0, 1, 2] bcast_S2x1x12544_S2x300x12544_0_1_2 : (⟨S2x1x12544, .f32⟩ : BufTy).Contents (Elt F) → (⟨S2x300x12544, .f32⟩ : BufTy).Contents (Elt F)),
    binary main_v164 main_v166 main_v167 (mulf : (⟨S2x300x12544, .f32⟩ : BufTy).Contents (Elt F) → (⟨S2x300x12544, .f32⟩ : BufTy).Contents (Elt F) → (⟨S2x300x12544, .f32⟩ : BufTy).Contents (Elt F)),
    binary main_v159 main_v167 main_v168 (addf : (⟨S2x300x12544, .f32⟩ : BufTy).Contents (Elt F) → (⟨S2x300x12544, .f32⟩ : BufTy).Contents (Elt F) → (⟨S2x300x12544, .f32⟩ : BufTy).Contents (Elt F)),
    unary main_v15 main_v169 (broadcastInDim S2x1x12544 ![0, 2] bcast_S2x12544_S2x1x12544_0_2 : (⟨S2x12544, .f32⟩ : BufTy).Contents (Elt F) → (⟨S2x1x12544, .f32⟩ : BufTy).Contents (Elt F)),
    unary main_v169 main_v170 (broadcastInDim S2x300x12544 ![0, 1, 2] bcast_S2x1x12544_S2x300x12544_0_1_2 : (⟨S2x1x12544, .f32⟩ : BufTy).Contents (Elt F) → (⟨S2x300x12544, .f32⟩ : BufTy).Contents (Elt F)),
    binary main_v114 main_v170 main_v171 (mulf : (⟨S2x300x12544, .f32⟩ : BufTy).Contents (Elt F) → (⟨S2x300x12544, .f32⟩ : BufTy).Contents (Elt F) → (⟨S2x300x12544, .f32⟩ : BufTy).Contents (Elt F)),
    nullary main_cst_57 (constant S_ .f32 0x3F800000#32),
    unary main_cst_57 main_v172 (broadcastInDim S2x12544 ![] bcast_S_S2x12544 : (⟨S_, .f32⟩ : BufTy).Contents (Elt F) → (⟨S2x12544, .f32⟩ : BufTy).Contents (Elt F)),
    binary main_v172 main_v14 main_v173 (subf : (⟨S2x12544, .f32⟩ : BufTy).Contents (Elt F) → (⟨S2x12544, .f32⟩ : BufTy).Contents (Elt F) → (⟨S2x12544, .f32⟩ : BufTy).Contents (Elt F)),
    unary main_v173 main_v174 (broadcastInDim S2x1x12544 ![0, 2] bcast_S2x12544_S2x1x12544_0_2 : (⟨S2x12544, .f32⟩ : BufTy).Contents (Elt F) → (⟨S2x1x12544, .f32⟩ : BufTy).Contents (Elt F)),
    unary main_v174 main_v175 (broadcastInDim S2x300x12544 ![0, 1, 2] bcast_S2x1x12544_S2x300x12544_0_1_2 : (⟨S2x1x12544, .f32⟩ : BufTy).Contents (Elt F) → (⟨S2x300x12544, .f32⟩ : BufTy).Contents (Elt F)),
    binary main_v171 main_v175 main_v176 (mulf : (⟨S2x300x12544, .f32⟩ : BufTy).Contents (Elt F) → (⟨S2x300x12544, .f32⟩ : BufTy).Contents (Elt F) → (⟨S2x300x12544, .f32⟩ : BufTy).Contents (Elt F)),
    binary main_v168 main_v176 main_v177 (addf : (⟨S2x300x12544, .f32⟩ : BufTy).Contents (Elt F) → (⟨S2x300x12544, .f32⟩ : BufTy).Contents (Elt F) → (⟨S2x300x12544, .f32⟩ : BufTy).Contents (Elt F)),
    unary main_v15 main_v178 (broadcastInDim S2x1x12544 ![0, 2] bcast_S2x12544_S2x1x12544_0_2 : (⟨S2x12544, .f32⟩ : BufTy).Contents (Elt F) → (⟨S2x1x12544, .f32⟩ : BufTy).Contents (Elt F)),
    unary main_v178 main_v179 (broadcastInDim S2x300x12544 ![0, 1, 2] bcast_S2x1x12544_S2x300x12544_0_1_2 : (⟨S2x1x12544, .f32⟩ : BufTy).Contents (Elt F) → (⟨S2x300x12544, .f32⟩ : BufTy).Contents (Elt F)),
    binary main_v149 main_v179 main_v180 (mulf : (⟨S2x300x12544, .f32⟩ : BufTy).Contents (Elt F) → (⟨S2x300x12544, .f32⟩ : BufTy).Contents (Elt F) → (⟨S2x300x12544, .f32⟩ : BufTy).Contents (Elt F)),
    unary main_v14 main_v181 (broadcastInDim S2x1x12544 ![0, 2] bcast_S2x12544_S2x1x12544_0_2 : (⟨S2x12544, .f32⟩ : BufTy).Contents (Elt F) → (⟨S2x1x12544, .f32⟩ : BufTy).Contents (Elt F)),
    unary main_v181 main_v182 (broadcastInDim S2x300x12544 ![0, 1, 2] bcast_S2x1x12544_S2x300x12544_0_1_2 : (⟨S2x1x12544, .f32⟩ : BufTy).Contents (Elt F) → (⟨S2x300x12544, .f32⟩ : BufTy).Contents (Elt F)),
    binary main_v180 main_v182 main_v183 (mulf : (⟨S2x300x12544, .f32⟩ : BufTy).Contents (Elt F) → (⟨S2x300x12544, .f32⟩ : BufTy).Contents (Elt F) → (⟨S2x300x12544, .f32⟩ : BufTy).Contents (Elt F)),
    binary main_v177 main_v183 main_v184 (addf : (⟨S2x300x12544, .f32⟩ : BufTy).Contents (Elt F) → (⟨S2x300x12544, .f32⟩ : BufTy).Contents (Elt F) → (⟨S2x300x12544, .f32⟩ : BufTy).Contents (Elt F)) ]
theorem ops_8_sub : (ops_8 : List (HloOp τ sig (Elt F))).Forall fun op => op.bufs ⊆ tcRefs τ sig :=
  ⟨binary_bufs_sub .., binary_bufs_sub .., unary_bufs_sub .., unary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub .., unary_bufs_sub .., unary_bufs_sub .., binary_bufs_sub .., binary_bufs_sub .., unary_bufs_sub .., unary_bufs_sub .., binary_bufs_sub .., unary_bufs_sub .., unary_bufs_sub .., binary_bufs_sub .., binary_bufs_sub ..⟩
theorem ops_8_fresh : ∀ op ∈ (ops_8 : List (HloOp τ sig (Elt F))), op.fresh = ∅ := by
  intro _ h; (repeat (cases h with | head => rfl | tail _ h => ?_)); exact nomatch h

set_option maxHeartbeats 4000000 in
/-- Operations 286 to 307 of @main, in order. -/
abbrev ops_9 : List (HloOp τ sig (Elt F)) :=
  [ unary main_arg4 main_v185 ((extractStridedSlice S2x12544x1 ![0, 0, 0] · slices_S2x12544x2_S2x12544x1_0_0_0) : (⟨S2x12544x2, .f32⟩ : BufTy).Contents (Elt F) → (⟨S2x12544x1, .f32⟩ : BufTy).Contents (Elt F)),
    reshape main_v185 main_v186 rfl shapeCasts_S2x12544x1_S2x12544,
    nullary main_cst_58 (constant S_ .f32 0x43800000#32),
    unary main_cst_58 main_v187 (broadcastInDim S2x12544 ![] bcast_S_S2x12544 : (⟨S_, .f32⟩ : BufTy).Contents (Elt F) → (⟨S2x12544, .f32⟩ : BufTy).Contents (Elt F)),
    binary main_v186 main_v187 main_v188 (mulf : (⟨S2x12544, .f32⟩ : BufTy).Contents (Elt F) → (⟨S2x12544, .f32⟩ : BufTy).Contents (Elt F) → (⟨S2x12544, .f32⟩ : BufTy).Contents (Elt F)),
    nullary main_cst_59 (constant S_ .f32 0x3F000000#32),
    unary main_cst_59 main_v189 (broadcastInDim S2x12544 ![] bcast_S_S2x12544 : (⟨S_, .f32⟩ : BufTy).Contents (Elt F) → (⟨S2x12544, .f32⟩ : BufTy).Contents (Elt F)),
    binary main_v188 main_v189 main_v190 (subf : (⟨S2x12544, .f32⟩ : BufTy).Contents (Elt F) → (⟨S2x12544, .f32⟩ : BufTy).Contents (Elt F) → (⟨S2x12544, .f32⟩ : BufTy).Contents (Elt F)),
    unary main_arg4 main_v191 ((extractStridedSlice S2x12544x1 ![0, 0, 1] · slices_S2x12544x2_S2x12544x1_0_0_1) : (⟨S2x12544x2, .f32⟩ : BufTy).Contents (Elt F) → (⟨S2x12544x1, .f32⟩ : BufTy).Contents (Elt F)),
    reshape main_v191 main_v192 rfl shapeCasts_S2x12544x1_S2x12544,
    nullary main_cst_60 (constant S_ .f32 0x43800000#32),
    unary main_cst_60 main_v193 (broadcastInDim S2x12544 ![] bcast_S_S2x12544 : (⟨S_, .f32⟩ : BufTy).Contents (Elt F) → (⟨S2x12544, .f32⟩ : BufTy).Contents (Elt F)),
    binary main_v192 main_v193 main_v194 (mulf : (⟨S2x12544, .f32⟩ : BufTy).Contents (Elt F) → (⟨S2x12544, .f32⟩ : BufTy).Contents (Elt F) → (⟨S2x12544, .f32⟩ : BufTy).Contents (Elt F)),
    nullary main_cst_61 (constant S_ .f32 0x3F000000#32),
    unary main_cst_61 main_v195 (broadcastInDim S2x12544 ![] bcast_S_S2x12544 : (⟨S_, .f32⟩ : BufTy).Contents (Elt F) → (⟨S2x12544, .f32⟩ : BufTy).Contents (Elt F)),
    binary main_v194 main_v195 main_v196 (subf : (⟨S2x12544, .f32⟩ : BufTy).Contents (Elt F) → (⟨S2x12544, .f32⟩ : BufTy).Contents (Elt F) → (⟨S2x12544, .f32⟩ : BufTy).Contents (Elt F)),
    unary main_v190 main_v197 (Host.floor : (⟨S2x12544, .f32⟩ : BufTy).Contents (Elt F) → (⟨S2x12544, .f32⟩ : BufTy).Contents (Elt F)),
    unary main_v196 main_v198 (Host.floor : (⟨S2x12544, .f32⟩ : BufTy).Contents (Elt F) → (⟨S2x12544, .f32⟩ : BufTy).Contents (Elt F)),
    binary main_v190 main_v197 main_v199 (subf : (⟨S2x12544, .f32⟩ : BufTy).Contents (Elt F) → (⟨S2x12544, .f32⟩ : BufTy).Contents (Elt F) → (⟨S2x12544, .f32⟩ : BufTy).Contents (Elt F)),
    binary main_v196 main_v198 main_v200 (subf : (⟨S2x12544, .f32⟩ : BufTy).Contents (Elt F) → (⟨S2x12544, .f32⟩ : BufTy).Contents (Elt F) → (⟨S2x12544, .f32⟩ : BufTy).Contents (Elt F)),
    unary main_v197 main_v201 (fptosi 32 : (⟨S2x12544, .f32⟩ : BufTy).Contents (Elt F) → (⟨S2x12544, .i32⟩ : BufTy).Contents (Elt F)),
    unary main_v198 main_v202 (fptosi 32 : (⟨S2x12544, .f32⟩ : BufTy).Contents (Elt F) → (⟨S2x12544, .i32⟩ : BufTy).Contents (Elt F)) ]
theorem ops_9_sub : (ops_9 : List (HloOp τ sig (Elt F))).Forall fun op => op.bufs ⊆ tcRefs τ sig :=
  ⟨unary_bufs_sub .., reshape_bufs_sub .., nullary_bufs_sub .., unary_bufs_sub .., binary_bufs_sub .., nullary_bufs_sub .., unary_bufs_sub .., binary_bufs_sub .., unary_bufs_sub .., reshape_bufs_sub .., nullary_bufs_sub .., unary_bufs_sub .., binary_bufs_sub .., nullary_bufs_sub .., unary_bufs_sub .., binary_bufs_sub .., unary_bufs_sub .., unary_bufs_sub .., binary_bufs_sub .., binary_bufs_sub .., unary_bufs_sub .., unary_bufs_sub ..⟩
theorem ops_9_fresh : ∀ op ∈ (ops_9 : List (HloOp τ sig (Elt F))), op.fresh = ∅ := by
  intro _ h; (repeat (cases h with | head => rfl | tail _ h => ?_)); exact nomatch h

set_option maxHeartbeats 4000000 in
/-- Operations 308 to 355 of @main, in order. -/
abbrev ops_10 : List (HloOp τ sig (Elt F)) :=
  [ nullary main_c_62 (constantI S_ 32 0#32),
    unary main_c_62 main_v203 (broadcastInDim S2x12544 ![] bcast_S_S2x12544 : (⟨S_, .i32⟩ : BufTy).Contents (Elt F) → (⟨S2x12544, .i32⟩ : BufTy).Contents (Elt F)),
    binary main_v201 main_v203 main_v204 (cmpi .sge : (⟨S2x12544, .i32⟩ : BufTy).Contents (Elt F) → (⟨S2x12544, .i32⟩ : BufTy).Contents (Elt F) → (⟨S2x12544, .i1⟩ : BufTy).Contents (Elt F)),
    nullary main_c_63 (constantI S_ 32 256#32),
    unary main_c_63 main_v205 (broadcastInDim S2x12544 ![] bcast_S_S2x12544 : (⟨S_, .i32⟩ : BufTy).Contents (Elt F) → (⟨S2x12544, .i32⟩ : BufTy).Contents (Elt F)),
    binary main_v201 main_v205 main_v206 (cmpi .slt : (⟨S2x12544, .i32⟩ : BufTy).Contents (Elt F) → (⟨S2x12544, .i32⟩ : BufTy).Contents (Elt F) → (⟨S2x12544, .i1⟩ : BufTy).Contents (Elt F)),
    binary main_v204 main_v206 main_v207 (andi : (⟨S2x12544, .i1⟩ : BufTy).Contents (Elt F) → (⟨S2x12544, .i1⟩ : BufTy).Contents (Elt F) → (⟨S2x12544, .i1⟩ : BufTy).Contents (Elt F)),
    nullary main_c_64 (constantI S_ 32 0#32),
    unary main_c_64 main_v208 (broadcastInDim S2x12544 ![] bcast_S_S2x12544 : (⟨S_, .i32⟩ : BufTy).Contents (Elt F) → (⟨S2x12544, .i32⟩ : BufTy).Contents (Elt F)),
    binary main_v202 main_v208 main_v209 (cmpi .sge : (⟨S2x12544, .i32⟩ : BufTy).Contents (Elt F) → (⟨S2x12544, .i32⟩ : BufTy).Contents (Elt F) → (⟨S2x12544, .i1⟩ : BufTy).Contents (Elt F)),
    binary main_v207 main_v209 main_v210 (andi : (⟨S2x12544, .i1⟩ : BufTy).Contents (Elt F) → (⟨S2x12544, .i1⟩ : BufTy).Contents (Elt F) → (⟨S2x12544, .i1⟩ : BufTy).Contents (Elt F)),
    nullary main_c_65 (constantI S_ 32 256#32),
    unary main_c_65 main_v211 (broadcastInDim S2x12544 ![] bcast_S_S2x12544 : (⟨S_, .i32⟩ : BufTy).Contents (Elt F) → (⟨S2x12544, .i32⟩ : BufTy).Contents (Elt F)),
    binary main_v202 main_v211 main_v212 (cmpi .slt : (⟨S2x12544, .i32⟩ : BufTy).Contents (Elt F) → (⟨S2x12544, .i32⟩ : BufTy).Contents (Elt F) → (⟨S2x12544, .i1⟩ : BufTy).Contents (Elt F)),
    binary main_v210 main_v212 main_v213 (andi : (⟨S2x12544, .i1⟩ : BufTy).Contents (Elt F) → (⟨S2x12544, .i1⟩ : BufTy).Contents (Elt F) → (⟨S2x12544, .i1⟩ : BufTy).Contents (Elt F)),
    unary main_v213 main_v214 (uitofp .f32 : (⟨S2x12544, .i1⟩ : BufTy).Contents (Elt F) → (⟨S2x12544, .f32⟩ : BufTy).Contents (Elt F)),
    nullary main_c_66 (constantI S_ 32 0#32),
    nullary main_c_67 (constantI S_ 32 255#32),
    TRef.unary (TRef.of (T := ⟨S_, .i32⟩) main_c_66) (TRef.of (T := ⟨S_, .i32⟩) main_call8_v0) id,
    TRef.unary (TRef.of (T := ⟨S_, .i32⟩) main_call8_v0) (TRef.of (T := ⟨S2x12544, .i32⟩) main_call8_v1) (broadcastInDim S2x12544 ![] bcast_S_S2x12544),
    TRef.binary (TRef.of (T := ⟨S2x12544, .i32⟩) main_call8_v1) (TRef.of (T := ⟨S2x12544, .i32⟩) main_v202) (TRef.of (T := ⟨S2x12544, .i32⟩) main_call8_v2) maxsi,
    TRef.unary (TRef.of (T := ⟨S_, .i32⟩) main_c_67) (TRef.of (T := ⟨S_, .i32⟩) main_call8_v3) id,
    TRef.unary (TRef.of (T := ⟨S_, .i32⟩) main_call8_v3) (TRef.of (T := ⟨S2x12544, .i32⟩) main_call8_v4) (broadcastInDim S2x12544 ![] bcast_S_S2x12544),
    TRef.binary (TRef.of (T := ⟨S2x12544, .i32⟩) main_call8_v4) (TRef.of (T := ⟨S2x12544, .i32⟩) main_call8_v2) (TRef.of (T := ⟨S2x12544, .i32⟩) main_v215) minsi,
    nullary main_c_68 (constantI S_ 32 0#32),
    nullary main_c_69 (constantI S_ 32 255#32),
    TRef.unary (TRef.of (T := ⟨S_, .i32⟩) main_c_68) (TRef.of (T := ⟨S_, .i32⟩) main_call9_v0) id,
    TRef.unary (TRef.of (T := ⟨S_, .i32⟩) main_call9_v0) (TRef.of (T := ⟨S2x12544, .i32⟩) main_call9_v1) (broadcastInDim S2x12544 ![] bcast_S_S2x12544),
    TRef.binary (TRef.of (T := ⟨S2x12544, .i32⟩) main_call9_v1) (TRef.of (T := ⟨S2x12544, .i32⟩) main_v201) (TRef.of (T := ⟨S2x12544, .i32⟩) main_call9_v2) maxsi,
    TRef.unary (TRef.of (T := ⟨S_, .i32⟩) main_c_69) (TRef.of (T := ⟨S_, .i32⟩) main_call9_v3) id,
    TRef.unary (TRef.of (T := ⟨S_, .i32⟩) main_call9_v3) (TRef.of (T := ⟨S2x12544, .i32⟩) main_call9_v4) (broadcastInDim S2x12544 ![] bcast_S_S2x12544),
    TRef.binary (TRef.of (T := ⟨S2x12544, .i32⟩) main_call9_v4) (TRef.of (T := ⟨S2x12544, .i32⟩) main_call9_v2) (TRef.of (T := ⟨S2x12544, .i32⟩) main_v216) minsi,
    nullary main_c_70 (constantI S_ 32 0#32),
    unary main_c_70 main_v217 (broadcastInDim S2x12544 ![] bcast_S_S2x12544 : (⟨S_, .i32⟩ : BufTy).Contents (Elt F) → (⟨S2x12544, .i32⟩ : BufTy).Contents (Elt F)),
    binary main_v215 main_v217 main_v218 (cmpi .slt : (⟨S2x12544, .i32⟩ : BufTy).Contents (Elt F) → (⟨S2x12544, .i32⟩ : BufTy).Contents (Elt F) → (⟨S2x12544, .i1⟩ : BufTy).Contents (Elt F)),
    nullary main_c_71 (constantI S_ 32 256#32),
    unary main_c_71 main_v219 (broadcastInDim S2x12544 ![] bcast_S_S2x12544 : (⟨S_, .i32⟩ : BufTy).Contents (Elt F) → (⟨S2x12544, .i32⟩ : BufTy).Contents (Elt F)),
    binary main_v215 main_v219 main_v220 (addi : (⟨S2x12544, .i32⟩ : BufTy).Contents (Elt F) → (⟨S2x12544, .i32⟩ : BufTy).Contents (Elt F) → (⟨S2x12544, .i32⟩ : BufTy).Contents (Elt F)),
    ternary main_v218 main_v220 main_v215 main_v221 (select : (⟨S2x12544, .i1⟩ : BufTy).Contents (Elt F) → (⟨S2x12544, .i32⟩ : BufTy).Contents (Elt F) → (⟨S2x12544, .i32⟩ : BufTy).Contents (Elt F) → (⟨S2x12544, .i32⟩ : BufTy).Contents (Elt F)),
    nullary main_c_72 (constantI S_ 32 0#32),
    unary main_c_72 main_v222 (broadcastInDim S2x12544 ![] bcast_S_S2x12544 : (⟨S_, .i32⟩ : BufTy).Contents (Elt F) → (⟨S2x12544, .i32⟩ : BufTy).Contents (Elt F)),
    binary main_v216 main_v222 main_v223 (cmpi .slt : (⟨S2x12544, .i32⟩ : BufTy).Contents (Elt F) → (⟨S2x12544, .i32⟩ : BufTy).Contents (Elt F) → (⟨S2x12544, .i1⟩ : BufTy).Contents (Elt F)),
    nullary main_c_73 (constantI S_ 32 256#32),
    unary main_c_73 main_v224 (broadcastInDim S2x12544 ![] bcast_S_S2x12544 : (⟨S_, .i32⟩ : BufTy).Contents (Elt F) → (⟨S2x12544, .i32⟩ : BufTy).Contents (Elt F)),
    binary main_v216 main_v224 main_v225 (addi : (⟨S2x12544, .i32⟩ : BufTy).Contents (Elt F) → (⟨S2x12544, .i32⟩ : BufTy).Contents (Elt F) → (⟨S2x12544, .i32⟩ : BufTy).Contents (Elt F)),
    ternary main_v223 main_v225 main_v216 main_v226 (select : (⟨S2x12544, .i1⟩ : BufTy).Contents (Elt F) → (⟨S2x12544, .i32⟩ : BufTy).Contents (Elt F) → (⟨S2x12544, .i32⟩ : BufTy).Contents (Elt F) → (⟨S2x12544, .i32⟩ : BufTy).Contents (Elt F)),
    unary main_v221 main_v227 (broadcastInDim S2x12544x1 ![0, 1] bcast_S2x12544_S2x12544x1_0_1 : (⟨S2x12544, .i32⟩ : BufTy).Contents (Elt F) → (⟨S2x12544x1, .i32⟩ : BufTy).Contents (Elt F)),
    unary main_v226 main_v228 (broadcastInDim S2x12544x1 ![0, 1] bcast_S2x12544_S2x12544x1_0_1 : (⟨S2x12544, .i32⟩ : BufTy).Contents (Elt F) → (⟨S2x12544x1, .i32⟩ : BufTy).Contents (Elt F)) ]
theorem ops_10_sub : (ops_10 : List (HloOp τ sig (Elt F))).Forall fun op => op.bufs ⊆ tcRefs τ sig :=
  ⟨nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., unary_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub ..⟩
theorem ops_10_fresh : ∀ op ∈ (ops_10 : List (HloOp τ sig (Elt F))), op.fresh = ∅ := by
  intro _ h; (repeat (cases h with | head => rfl | tail _ h => ?_)); exact nomatch h

set_option maxHeartbeats 4000000 in
/-- Operations 356 to 363 of @main, in order. -/
abbrev ops_11 : List (HloOp τ sig (Elt F)) :=
  [ binary main_v227 main_v228 main_v229 ((fun a b => concatenate S2x12544x2 2 [⟨S2x12544x1, a⟩, ⟨S2x12544x1, b⟩] concatenates_S2x12544x1_S2x12544x1_S2x12544x2_d2) : (⟨S2x12544x1, .i32⟩ : BufTy).Contents (Elt F) → (⟨S2x12544x1, .i32⟩ : BufTy).Contents (Elt F) → (⟨S2x12544x2, .i32⟩ : BufTy).Contents (Elt F)),
    binary main_arg1 main_v229 main_v230 ((fun x i => Host.gather gather_S2x300x256x256_S2x12544x2_S2x300x12544_1_23_0_0_23_2_130011 x i) : (⟨S2x300x256x256, .f32⟩ : BufTy).Contents (Elt F) → (⟨S2x12544x2, .i32⟩ : BufTy).Contents (Elt F) → (⟨S2x300x12544, .f32⟩ : BufTy).Contents (Elt F)),
    unary main_v214 main_v231 (broadcastInDim S2x1x12544 ![0, 2] bcast_S2x12544_S2x1x12544_0_2 : (⟨S2x12544, .f32⟩ : BufTy).Contents (Elt F) → (⟨S2x1x12544, .f32⟩ : BufTy).Contents (Elt F)),
    unary main_v231 main_v232 (broadcastInDim S2x300x12544 ![0, 1, 2] bcast_S2x1x12544_S2x300x12544_0_1_2 : (⟨S2x1x12544, .f32⟩ : BufTy).Contents (Elt F) → (⟨S2x300x12544, .f32⟩ : BufTy).Contents (Elt F)),
    binary main_v230 main_v232 main_v233 (mulf : (⟨S2x300x12544, .f32⟩ : BufTy).Contents (Elt F) → (⟨S2x300x12544, .f32⟩ : BufTy).Contents (Elt F) → (⟨S2x300x12544, .f32⟩ : BufTy).Contents (Elt F)),
    nullary main_c_74 (constantI S_ 32 1#32),
    unary main_c_74 main_v234 (broadcastInDim S2x12544 ![] bcast_S_S2x12544 : (⟨S_, .i32⟩ : BufTy).Contents (Elt F) → (⟨S2x12544, .i32⟩ : BufTy).Contents (Elt F)),
    binary main_v201 main_v234 main_v235 (addi : (⟨S2x12544, .i32⟩ : BufTy).Contents (Elt F) → (⟨S2x12544, .i32⟩ : BufTy).Contents (Elt F) → (⟨S2x12544, .i32⟩ : BufTy).Contents (Elt F)) ]
theorem ops_11_sub : (ops_11 : List (HloOp τ sig (Elt F))).Forall fun op => op.bufs ⊆ tcRefs τ sig :=
  ⟨binary_bufs_sub .., binary_bufs_sub .., unary_bufs_sub .., unary_bufs_sub .., binary_bufs_sub .., nullary_bufs_sub .., unary_bufs_sub .., binary_bufs_sub ..⟩
theorem ops_11_fresh : ∀ op ∈ (ops_11 : List (HloOp τ sig (Elt F))), op.fresh = ∅ := by
  intro _ h; (repeat (cases h with | head => rfl | tail _ h => ?_)); exact nomatch h

set_option maxHeartbeats 4000000 in
/-- Operations 364 to 411 of @main, in order. -/
abbrev ops_12 : List (HloOp τ sig (Elt F)) :=
  [ nullary main_c_75 (constantI S_ 32 0#32),
    unary main_c_75 main_v236 (broadcastInDim S2x12544 ![] bcast_S_S2x12544 : (⟨S_, .i32⟩ : BufTy).Contents (Elt F) → (⟨S2x12544, .i32⟩ : BufTy).Contents (Elt F)),
    binary main_v235 main_v236 main_v237 (cmpi .sge : (⟨S2x12544, .i32⟩ : BufTy).Contents (Elt F) → (⟨S2x12544, .i32⟩ : BufTy).Contents (Elt F) → (⟨S2x12544, .i1⟩ : BufTy).Contents (Elt F)),
    nullary main_c_76 (constantI S_ 32 256#32),
    unary main_c_76 main_v238 (broadcastInDim S2x12544 ![] bcast_S_S2x12544 : (⟨S_, .i32⟩ : BufTy).Contents (Elt F) → (⟨S2x12544, .i32⟩ : BufTy).Contents (Elt F)),
    binary main_v235 main_v238 main_v239 (cmpi .slt : (⟨S2x12544, .i32⟩ : BufTy).Contents (Elt F) → (⟨S2x12544, .i32⟩ : BufTy).Contents (Elt F) → (⟨S2x12544, .i1⟩ : BufTy).Contents (Elt F)),
    binary main_v237 main_v239 main_v240 (andi : (⟨S2x12544, .i1⟩ : BufTy).Contents (Elt F) → (⟨S2x12544, .i1⟩ : BufTy).Contents (Elt F) → (⟨S2x12544, .i1⟩ : BufTy).Contents (Elt F)),
    nullary main_c_77 (constantI S_ 32 0#32),
    unary main_c_77 main_v241 (broadcastInDim S2x12544 ![] bcast_S_S2x12544 : (⟨S_, .i32⟩ : BufTy).Contents (Elt F) → (⟨S2x12544, .i32⟩ : BufTy).Contents (Elt F)),
    binary main_v202 main_v241 main_v242 (cmpi .sge : (⟨S2x12544, .i32⟩ : BufTy).Contents (Elt F) → (⟨S2x12544, .i32⟩ : BufTy).Contents (Elt F) → (⟨S2x12544, .i1⟩ : BufTy).Contents (Elt F)),
    binary main_v240 main_v242 main_v243 (andi : (⟨S2x12544, .i1⟩ : BufTy).Contents (Elt F) → (⟨S2x12544, .i1⟩ : BufTy).Contents (Elt F) → (⟨S2x12544, .i1⟩ : BufTy).Contents (Elt F)),
    nullary main_c_78 (constantI S_ 32 256#32),
    unary main_c_78 main_v244 (broadcastInDim S2x12544 ![] bcast_S_S2x12544 : (⟨S_, .i32⟩ : BufTy).Contents (Elt F) → (⟨S2x12544, .i32⟩ : BufTy).Contents (Elt F)),
    binary main_v202 main_v244 main_v245 (cmpi .slt : (⟨S2x12544, .i32⟩ : BufTy).Contents (Elt F) → (⟨S2x12544, .i32⟩ : BufTy).Contents (Elt F) → (⟨S2x12544, .i1⟩ : BufTy).Contents (Elt F)),
    binary main_v243 main_v245 main_v246 (andi : (⟨S2x12544, .i1⟩ : BufTy).Contents (Elt F) → (⟨S2x12544, .i1⟩ : BufTy).Contents (Elt F) → (⟨S2x12544, .i1⟩ : BufTy).Contents (Elt F)),
    unary main_v246 main_v247 (uitofp .f32 : (⟨S2x12544, .i1⟩ : BufTy).Contents (Elt F) → (⟨S2x12544, .f32⟩ : BufTy).Contents (Elt F)),
    nullary main_c_79 (constantI S_ 32 0#32),
    nullary main_c_80 (constantI S_ 32 255#32),
    TRef.unary (TRef.of (T := ⟨S_, .i32⟩) main_c_79) (TRef.of (T := ⟨S_, .i32⟩) main_call10_v0) id,
    TRef.unary (TRef.of (T := ⟨S_, .i32⟩) main_call10_v0) (TRef.of (T := ⟨S2x12544, .i32⟩) main_call10_v1) (broadcastInDim S2x12544 ![] bcast_S_S2x12544),
    TRef.binary (TRef.of (T := ⟨S2x12544, .i32⟩) main_call10_v1) (TRef.of (T := ⟨S2x12544, .i32⟩) main_v202) (TRef.of (T := ⟨S2x12544, .i32⟩) main_call10_v2) maxsi,
    TRef.unary (TRef.of (T := ⟨S_, .i32⟩) main_c_80) (TRef.of (T := ⟨S_, .i32⟩) main_call10_v3) id,
    TRef.unary (TRef.of (T := ⟨S_, .i32⟩) main_call10_v3) (TRef.of (T := ⟨S2x12544, .i32⟩) main_call10_v4) (broadcastInDim S2x12544 ![] bcast_S_S2x12544),
    TRef.binary (TRef.of (T := ⟨S2x12544, .i32⟩) main_call10_v4) (TRef.of (T := ⟨S2x12544, .i32⟩) main_call10_v2) (TRef.of (T := ⟨S2x12544, .i32⟩) main_v248) minsi,
    nullary main_c_81 (constantI S_ 32 0#32),
    nullary main_c_82 (constantI S_ 32 255#32),
    TRef.unary (TRef.of (T := ⟨S_, .i32⟩) main_c_81) (TRef.of (T := ⟨S_, .i32⟩) main_call11_v0) id,
    TRef.unary (TRef.of (T := ⟨S_, .i32⟩) main_call11_v0) (TRef.of (T := ⟨S2x12544, .i32⟩) main_call11_v1) (broadcastInDim S2x12544 ![] bcast_S_S2x12544),
    TRef.binary (TRef.of (T := ⟨S2x12544, .i32⟩) main_call11_v1) (TRef.of (T := ⟨S2x12544, .i32⟩) main_v235) (TRef.of (T := ⟨S2x12544, .i32⟩) main_call11_v2) maxsi,
    TRef.unary (TRef.of (T := ⟨S_, .i32⟩) main_c_82) (TRef.of (T := ⟨S_, .i32⟩) main_call11_v3) id,
    TRef.unary (TRef.of (T := ⟨S_, .i32⟩) main_call11_v3) (TRef.of (T := ⟨S2x12544, .i32⟩) main_call11_v4) (broadcastInDim S2x12544 ![] bcast_S_S2x12544),
    TRef.binary (TRef.of (T := ⟨S2x12544, .i32⟩) main_call11_v4) (TRef.of (T := ⟨S2x12544, .i32⟩) main_call11_v2) (TRef.of (T := ⟨S2x12544, .i32⟩) main_v249) minsi,
    nullary main_c_83 (constantI S_ 32 0#32),
    unary main_c_83 main_v250 (broadcastInDim S2x12544 ![] bcast_S_S2x12544 : (⟨S_, .i32⟩ : BufTy).Contents (Elt F) → (⟨S2x12544, .i32⟩ : BufTy).Contents (Elt F)),
    binary main_v248 main_v250 main_v251 (cmpi .slt : (⟨S2x12544, .i32⟩ : BufTy).Contents (Elt F) → (⟨S2x12544, .i32⟩ : BufTy).Contents (Elt F) → (⟨S2x12544, .i1⟩ : BufTy).Contents (Elt F)),
    nullary main_c_84 (constantI S_ 32 256#32),
    unary main_c_84 main_v252 (broadcastInDim S2x12544 ![] bcast_S_S2x12544 : (⟨S_, .i32⟩ : BufTy).Contents (Elt F) → (⟨S2x12544, .i32⟩ : BufTy).Contents (Elt F)),
    binary main_v248 main_v252 main_v253 (addi : (⟨S2x12544, .i32⟩ : BufTy).Contents (Elt F) → (⟨S2x12544, .i32⟩ : BufTy).Contents (Elt F) → (⟨S2x12544, .i32⟩ : BufTy).Contents (Elt F)),
    ternary main_v251 main_v253 main_v248 main_v254 (select : (⟨S2x12544, .i1⟩ : BufTy).Contents (Elt F) → (⟨S2x12544, .i32⟩ : BufTy).Contents (Elt F) → (⟨S2x12544, .i32⟩ : BufTy).Contents (Elt F) → (⟨S2x12544, .i32⟩ : BufTy).Contents (Elt F)),
    nullary main_c_85 (constantI S_ 32 0#32),
    unary main_c_85 main_v255 (broadcastInDim S2x12544 ![] bcast_S_S2x12544 : (⟨S_, .i32⟩ : BufTy).Contents (Elt F) → (⟨S2x12544, .i32⟩ : BufTy).Contents (Elt F)),
    binary main_v249 main_v255 main_v256 (cmpi .slt : (⟨S2x12544, .i32⟩ : BufTy).Contents (Elt F) → (⟨S2x12544, .i32⟩ : BufTy).Contents (Elt F) → (⟨S2x12544, .i1⟩ : BufTy).Contents (Elt F)),
    nullary main_c_86 (constantI S_ 32 256#32),
    unary main_c_86 main_v257 (broadcastInDim S2x12544 ![] bcast_S_S2x12544 : (⟨S_, .i32⟩ : BufTy).Contents (Elt F) → (⟨S2x12544, .i32⟩ : BufTy).Contents (Elt F)),
    binary main_v249 main_v257 main_v258 (addi : (⟨S2x12544, .i32⟩ : BufTy).Contents (Elt F) → (⟨S2x12544, .i32⟩ : BufTy).Contents (Elt F) → (⟨S2x12544, .i32⟩ : BufTy).Contents (Elt F)),
    ternary main_v256 main_v258 main_v249 main_v259 (select : (⟨S2x12544, .i1⟩ : BufTy).Contents (Elt F) → (⟨S2x12544, .i32⟩ : BufTy).Contents (Elt F) → (⟨S2x12544, .i32⟩ : BufTy).Contents (Elt F) → (⟨S2x12544, .i32⟩ : BufTy).Contents (Elt F)),
    unary main_v254 main_v260 (broadcastInDim S2x12544x1 ![0, 1] bcast_S2x12544_S2x12544x1_0_1 : (⟨S2x12544, .i32⟩ : BufTy).Contents (Elt F) → (⟨S2x12544x1, .i32⟩ : BufTy).Contents (Elt F)),
    unary main_v259 main_v261 (broadcastInDim S2x12544x1 ![0, 1] bcast_S2x12544_S2x12544x1_0_1 : (⟨S2x12544, .i32⟩ : BufTy).Contents (Elt F) → (⟨S2x12544x1, .i32⟩ : BufTy).Contents (Elt F)) ]
theorem ops_12_sub : (ops_12 : List (HloOp τ sig (Elt F))).Forall fun op => op.bufs ⊆ tcRefs τ sig :=
  ⟨nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., unary_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub ..⟩
theorem ops_12_fresh : ∀ op ∈ (ops_12 : List (HloOp τ sig (Elt F))), op.fresh = ∅ := by
  intro _ h; (repeat (cases h with | head => rfl | tail _ h => ?_)); exact nomatch h

set_option maxHeartbeats 4000000 in
/-- Operations 412 to 419 of @main, in order. -/
abbrev ops_13 : List (HloOp τ sig (Elt F)) :=
  [ binary main_v260 main_v261 main_v262 ((fun a b => concatenate S2x12544x2 2 [⟨S2x12544x1, a⟩, ⟨S2x12544x1, b⟩] concatenates_S2x12544x1_S2x12544x1_S2x12544x2_d2) : (⟨S2x12544x1, .i32⟩ : BufTy).Contents (Elt F) → (⟨S2x12544x1, .i32⟩ : BufTy).Contents (Elt F) → (⟨S2x12544x2, .i32⟩ : BufTy).Contents (Elt F)),
    binary main_arg1 main_v262 main_v263 ((fun x i => Host.gather gather_S2x300x256x256_S2x12544x2_S2x300x12544_1_23_0_0_23_2_130011 x i) : (⟨S2x300x256x256, .f32⟩ : BufTy).Contents (Elt F) → (⟨S2x12544x2, .i32⟩ : BufTy).Contents (Elt F) → (⟨S2x300x12544, .f32⟩ : BufTy).Contents (Elt F)),
    unary main_v247 main_v264 (broadcastInDim S2x1x12544 ![0, 2] bcast_S2x12544_S2x1x12544_0_2 : (⟨S2x12544, .f32⟩ : BufTy).Contents (Elt F) → (⟨S2x1x12544, .f32⟩ : BufTy).Contents (Elt F)),
    unary main_v264 main_v265 (broadcastInDim S2x300x12544 ![0, 1, 2] bcast_S2x1x12544_S2x300x12544_0_1_2 : (⟨S2x1x12544, .f32⟩ : BufTy).Contents (Elt F) → (⟨S2x300x12544, .f32⟩ : BufTy).Contents (Elt F)),
    binary main_v263 main_v265 main_v266 (mulf : (⟨S2x300x12544, .f32⟩ : BufTy).Contents (Elt F) → (⟨S2x300x12544, .f32⟩ : BufTy).Contents (Elt F) → (⟨S2x300x12544, .f32⟩ : BufTy).Contents (Elt F)),
    nullary main_c_87 (constantI S_ 32 1#32),
    unary main_c_87 main_v267 (broadcastInDim S2x12544 ![] bcast_S_S2x12544 : (⟨S_, .i32⟩ : BufTy).Contents (Elt F) → (⟨S2x12544, .i32⟩ : BufTy).Contents (Elt F)),
    binary main_v202 main_v267 main_v268 (addi : (⟨S2x12544, .i32⟩ : BufTy).Contents (Elt F) → (⟨S2x12544, .i32⟩ : BufTy).Contents (Elt F) → (⟨S2x12544, .i32⟩ : BufTy).Contents (Elt F)) ]
theorem ops_13_sub : (ops_13 : List (HloOp τ sig (Elt F))).Forall fun op => op.bufs ⊆ tcRefs τ sig :=
  ⟨binary_bufs_sub .., binary_bufs_sub .., unary_bufs_sub .., unary_bufs_sub .., binary_bufs_sub .., nullary_bufs_sub .., unary_bufs_sub .., binary_bufs_sub ..⟩
theorem ops_13_fresh : ∀ op ∈ (ops_13 : List (HloOp τ sig (Elt F))), op.fresh = ∅ := by
  intro _ h; (repeat (cases h with | head => rfl | tail _ h => ?_)); exact nomatch h

set_option maxHeartbeats 4000000 in
/-- Operations 420 to 467 of @main, in order. -/
abbrev ops_14 : List (HloOp τ sig (Elt F)) :=
  [ nullary main_c_88 (constantI S_ 32 0#32),
    unary main_c_88 main_v269 (broadcastInDim S2x12544 ![] bcast_S_S2x12544 : (⟨S_, .i32⟩ : BufTy).Contents (Elt F) → (⟨S2x12544, .i32⟩ : BufTy).Contents (Elt F)),
    binary main_v201 main_v269 main_v270 (cmpi .sge : (⟨S2x12544, .i32⟩ : BufTy).Contents (Elt F) → (⟨S2x12544, .i32⟩ : BufTy).Contents (Elt F) → (⟨S2x12544, .i1⟩ : BufTy).Contents (Elt F)),
    nullary main_c_89 (constantI S_ 32 256#32),
    unary main_c_89 main_v271 (broadcastInDim S2x12544 ![] bcast_S_S2x12544 : (⟨S_, .i32⟩ : BufTy).Contents (Elt F) → (⟨S2x12544, .i32⟩ : BufTy).Contents (Elt F)),
    binary main_v201 main_v271 main_v272 (cmpi .slt : (⟨S2x12544, .i32⟩ : BufTy).Contents (Elt F) → (⟨S2x12544, .i32⟩ : BufTy).Contents (Elt F) → (⟨S2x12544, .i1⟩ : BufTy).Contents (Elt F)),
    binary main_v270 main_v272 main_v273 (andi : (⟨S2x12544, .i1⟩ : BufTy).Contents (Elt F) → (⟨S2x12544, .i1⟩ : BufTy).Contents (Elt F) → (⟨S2x12544, .i1⟩ : BufTy).Contents (Elt F)),
    nullary main_c_90 (constantI S_ 32 0#32),
    unary main_c_90 main_v274 (broadcastInDim S2x12544 ![] bcast_S_S2x12544 : (⟨S_, .i32⟩ : BufTy).Contents (Elt F) → (⟨S2x12544, .i32⟩ : BufTy).Contents (Elt F)),
    binary main_v268 main_v274 main_v275 (cmpi .sge : (⟨S2x12544, .i32⟩ : BufTy).Contents (Elt F) → (⟨S2x12544, .i32⟩ : BufTy).Contents (Elt F) → (⟨S2x12544, .i1⟩ : BufTy).Contents (Elt F)),
    binary main_v273 main_v275 main_v276 (andi : (⟨S2x12544, .i1⟩ : BufTy).Contents (Elt F) → (⟨S2x12544, .i1⟩ : BufTy).Contents (Elt F) → (⟨S2x12544, .i1⟩ : BufTy).Contents (Elt F)),
    nullary main_c_91 (constantI S_ 32 256#32),
    unary main_c_91 main_v277 (broadcastInDim S2x12544 ![] bcast_S_S2x12544 : (⟨S_, .i32⟩ : BufTy).Contents (Elt F) → (⟨S2x12544, .i32⟩ : BufTy).Contents (Elt F)),
    binary main_v268 main_v277 main_v278 (cmpi .slt : (⟨S2x12544, .i32⟩ : BufTy).Contents (Elt F) → (⟨S2x12544, .i32⟩ : BufTy).Contents (Elt F) → (⟨S2x12544, .i1⟩ : BufTy).Contents (Elt F)),
    binary main_v276 main_v278 main_v279 (andi : (⟨S2x12544, .i1⟩ : BufTy).Contents (Elt F) → (⟨S2x12544, .i1⟩ : BufTy).Contents (Elt F) → (⟨S2x12544, .i1⟩ : BufTy).Contents (Elt F)),
    unary main_v279 main_v280 (uitofp .f32 : (⟨S2x12544, .i1⟩ : BufTy).Contents (Elt F) → (⟨S2x12544, .f32⟩ : BufTy).Contents (Elt F)),
    nullary main_c_92 (constantI S_ 32 0#32),
    nullary main_c_93 (constantI S_ 32 255#32),
    TRef.unary (TRef.of (T := ⟨S_, .i32⟩) main_c_92) (TRef.of (T := ⟨S_, .i32⟩) main_call12_v0) id,
    TRef.unary (TRef.of (T := ⟨S_, .i32⟩) main_call12_v0) (TRef.of (T := ⟨S2x12544, .i32⟩) main_call12_v1) (broadcastInDim S2x12544 ![] bcast_S_S2x12544),
    TRef.binary (TRef.of (T := ⟨S2x12544, .i32⟩) main_call12_v1) (TRef.of (T := ⟨S2x12544, .i32⟩) main_v268) (TRef.of (T := ⟨S2x12544, .i32⟩) main_call12_v2) maxsi,
    TRef.unary (TRef.of (T := ⟨S_, .i32⟩) main_c_93) (TRef.of (T := ⟨S_, .i32⟩) main_call12_v3) id,
    TRef.unary (TRef.of (T := ⟨S_, .i32⟩) main_call12_v3) (TRef.of (T := ⟨S2x12544, .i32⟩) main_call12_v4) (broadcastInDim S2x12544 ![] bcast_S_S2x12544),
    TRef.binary (TRef.of (T := ⟨S2x12544, .i32⟩) main_call12_v4) (TRef.of (T := ⟨S2x12544, .i32⟩) main_call12_v2) (TRef.of (T := ⟨S2x12544, .i32⟩) main_v281) minsi,
    nullary main_c_94 (constantI S_ 32 0#32),
    nullary main_c_95 (constantI S_ 32 255#32),
    TRef.unary (TRef.of (T := ⟨S_, .i32⟩) main_c_94) (TRef.of (T := ⟨S_, .i32⟩) main_call13_v0) id,
    TRef.unary (TRef.of (T := ⟨S_, .i32⟩) main_call13_v0) (TRef.of (T := ⟨S2x12544, .i32⟩) main_call13_v1) (broadcastInDim S2x12544 ![] bcast_S_S2x12544),
    TRef.binary (TRef.of (T := ⟨S2x12544, .i32⟩) main_call13_v1) (TRef.of (T := ⟨S2x12544, .i32⟩) main_v201) (TRef.of (T := ⟨S2x12544, .i32⟩) main_call13_v2) maxsi,
    TRef.unary (TRef.of (T := ⟨S_, .i32⟩) main_c_95) (TRef.of (T := ⟨S_, .i32⟩) main_call13_v3) id,
    TRef.unary (TRef.of (T := ⟨S_, .i32⟩) main_call13_v3) (TRef.of (T := ⟨S2x12544, .i32⟩) main_call13_v4) (broadcastInDim S2x12544 ![] bcast_S_S2x12544),
    TRef.binary (TRef.of (T := ⟨S2x12544, .i32⟩) main_call13_v4) (TRef.of (T := ⟨S2x12544, .i32⟩) main_call13_v2) (TRef.of (T := ⟨S2x12544, .i32⟩) main_v282) minsi,
    nullary main_c_96 (constantI S_ 32 0#32),
    unary main_c_96 main_v283 (broadcastInDim S2x12544 ![] bcast_S_S2x12544 : (⟨S_, .i32⟩ : BufTy).Contents (Elt F) → (⟨S2x12544, .i32⟩ : BufTy).Contents (Elt F)),
    binary main_v281 main_v283 main_v284 (cmpi .slt : (⟨S2x12544, .i32⟩ : BufTy).Contents (Elt F) → (⟨S2x12544, .i32⟩ : BufTy).Contents (Elt F) → (⟨S2x12544, .i1⟩ : BufTy).Contents (Elt F)),
    nullary main_c_97 (constantI S_ 32 256#32),
    unary main_c_97 main_v285 (broadcastInDim S2x12544 ![] bcast_S_S2x12544 : (⟨S_, .i32⟩ : BufTy).Contents (Elt F) → (⟨S2x12544, .i32⟩ : BufTy).Contents (Elt F)),
    binary main_v281 main_v285 main_v286 (addi : (⟨S2x12544, .i32⟩ : BufTy).Contents (Elt F) → (⟨S2x12544, .i32⟩ : BufTy).Contents (Elt F) → (⟨S2x12544, .i32⟩ : BufTy).Contents (Elt F)),
    ternary main_v284 main_v286 main_v281 main_v287 (select : (⟨S2x12544, .i1⟩ : BufTy).Contents (Elt F) → (⟨S2x12544, .i32⟩ : BufTy).Contents (Elt F) → (⟨S2x12544, .i32⟩ : BufTy).Contents (Elt F) → (⟨S2x12544, .i32⟩ : BufTy).Contents (Elt F)),
    nullary main_c_98 (constantI S_ 32 0#32),
    unary main_c_98 main_v288 (broadcastInDim S2x12544 ![] bcast_S_S2x12544 : (⟨S_, .i32⟩ : BufTy).Contents (Elt F) → (⟨S2x12544, .i32⟩ : BufTy).Contents (Elt F)),
    binary main_v282 main_v288 main_v289 (cmpi .slt : (⟨S2x12544, .i32⟩ : BufTy).Contents (Elt F) → (⟨S2x12544, .i32⟩ : BufTy).Contents (Elt F) → (⟨S2x12544, .i1⟩ : BufTy).Contents (Elt F)),
    nullary main_c_99 (constantI S_ 32 256#32),
    unary main_c_99 main_v290 (broadcastInDim S2x12544 ![] bcast_S_S2x12544 : (⟨S_, .i32⟩ : BufTy).Contents (Elt F) → (⟨S2x12544, .i32⟩ : BufTy).Contents (Elt F)),
    binary main_v282 main_v290 main_v291 (addi : (⟨S2x12544, .i32⟩ : BufTy).Contents (Elt F) → (⟨S2x12544, .i32⟩ : BufTy).Contents (Elt F) → (⟨S2x12544, .i32⟩ : BufTy).Contents (Elt F)),
    ternary main_v289 main_v291 main_v282 main_v292 (select : (⟨S2x12544, .i1⟩ : BufTy).Contents (Elt F) → (⟨S2x12544, .i32⟩ : BufTy).Contents (Elt F) → (⟨S2x12544, .i32⟩ : BufTy).Contents (Elt F) → (⟨S2x12544, .i32⟩ : BufTy).Contents (Elt F)),
    unary main_v287 main_v293 (broadcastInDim S2x12544x1 ![0, 1] bcast_S2x12544_S2x12544x1_0_1 : (⟨S2x12544, .i32⟩ : BufTy).Contents (Elt F) → (⟨S2x12544x1, .i32⟩ : BufTy).Contents (Elt F)),
    unary main_v292 main_v294 (broadcastInDim S2x12544x1 ![0, 1] bcast_S2x12544_S2x12544x1_0_1 : (⟨S2x12544, .i32⟩ : BufTy).Contents (Elt F) → (⟨S2x12544x1, .i32⟩ : BufTy).Contents (Elt F)) ]
theorem ops_14_sub : (ops_14 : List (HloOp τ sig (Elt F))).Forall fun op => op.bufs ⊆ tcRefs τ sig :=
  ⟨nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., unary_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub ..⟩
theorem ops_14_fresh : ∀ op ∈ (ops_14 : List (HloOp τ sig (Elt F))), op.fresh = ∅ := by
  intro _ h; (repeat (cases h with | head => rfl | tail _ h => ?_)); exact nomatch h

set_option maxHeartbeats 4000000 in
/-- Operations 468 to 478 of @main, in order. -/
abbrev ops_15 : List (HloOp τ sig (Elt F)) :=
  [ binary main_v293 main_v294 main_v295 ((fun a b => concatenate S2x12544x2 2 [⟨S2x12544x1, a⟩, ⟨S2x12544x1, b⟩] concatenates_S2x12544x1_S2x12544x1_S2x12544x2_d2) : (⟨S2x12544x1, .i32⟩ : BufTy).Contents (Elt F) → (⟨S2x12544x1, .i32⟩ : BufTy).Contents (Elt F) → (⟨S2x12544x2, .i32⟩ : BufTy).Contents (Elt F)),
    binary main_arg1 main_v295 main_v296 ((fun x i => Host.gather gather_S2x300x256x256_S2x12544x2_S2x300x12544_1_23_0_0_23_2_130011 x i) : (⟨S2x300x256x256, .f32⟩ : BufTy).Contents (Elt F) → (⟨S2x12544x2, .i32⟩ : BufTy).Contents (Elt F) → (⟨S2x300x12544, .f32⟩ : BufTy).Contents (Elt F)),
    unary main_v280 main_v297 (broadcastInDim S2x1x12544 ![0, 2] bcast_S2x12544_S2x1x12544_0_2 : (⟨S2x12544, .f32⟩ : BufTy).Contents (Elt F) → (⟨S2x1x12544, .f32⟩ : BufTy).Contents (Elt F)),
    unary main_v297 main_v298 (broadcastInDim S2x300x12544 ![0, 1, 2] bcast_S2x1x12544_S2x300x12544_0_1_2 : (⟨S2x1x12544, .f32⟩ : BufTy).Contents (Elt F) → (⟨S2x300x12544, .f32⟩ : BufTy).Contents (Elt F)),
    binary main_v296 main_v298 main_v299 (mulf : (⟨S2x300x12544, .f32⟩ : BufTy).Contents (Elt F) → (⟨S2x300x12544, .f32⟩ : BufTy).Contents (Elt F) → (⟨S2x300x12544, .f32⟩ : BufTy).Contents (Elt F)),
    nullary main_c_100 (constantI S_ 32 1#32),
    unary main_c_100 main_v300 (broadcastInDim S2x12544 ![] bcast_S_S2x12544 : (⟨S_, .i32⟩ : BufTy).Contents (Elt F) → (⟨S2x12544, .i32⟩ : BufTy).Contents (Elt F)),
    binary main_v202 main_v300 main_v301 (addi : (⟨S2x12544, .i32⟩ : BufTy).Contents (Elt F) → (⟨S2x12544, .i32⟩ : BufTy).Contents (Elt F) → (⟨S2x12544, .i32⟩ : BufTy).Contents (Elt F)),
    nullary main_c_101 (constantI S_ 32 1#32),
    unary main_c_101 main_v302 (broadcastInDim S2x12544 ![] bcast_S_S2x12544 : (⟨S_, .i32⟩ : BufTy).Contents (Elt F) → (⟨S2x12544, .i32⟩ : BufTy).Contents (Elt F)),
    binary main_v201 main_v302 main_v303 (addi : (⟨S2x12544, .i32⟩ : BufTy).Contents (Elt F) → (⟨S2x12544, .i32⟩ : BufTy).Contents (Elt F) → (⟨S2x12544, .i32⟩ : BufTy).Contents (Elt F)) ]
theorem ops_15_sub : (ops_15 : List (HloOp τ sig (Elt F))).Forall fun op => op.bufs ⊆ tcRefs τ sig :=
  ⟨binary_bufs_sub .., binary_bufs_sub .., unary_bufs_sub .., unary_bufs_sub .., binary_bufs_sub .., nullary_bufs_sub .., unary_bufs_sub .., binary_bufs_sub .., nullary_bufs_sub .., unary_bufs_sub .., binary_bufs_sub ..⟩
theorem ops_15_fresh : ∀ op ∈ (ops_15 : List (HloOp τ sig (Elt F))), op.fresh = ∅ := by
  intro _ h; (repeat (cases h with | head => rfl | tail _ h => ?_)); exact nomatch h

set_option maxHeartbeats 4000000 in
/-- Operations 479 to 526 of @main, in order. -/
abbrev ops_16 : List (HloOp τ sig (Elt F)) :=
  [ nullary main_c_102 (constantI S_ 32 0#32),
    unary main_c_102 main_v304 (broadcastInDim S2x12544 ![] bcast_S_S2x12544 : (⟨S_, .i32⟩ : BufTy).Contents (Elt F) → (⟨S2x12544, .i32⟩ : BufTy).Contents (Elt F)),
    binary main_v303 main_v304 main_v305 (cmpi .sge : (⟨S2x12544, .i32⟩ : BufTy).Contents (Elt F) → (⟨S2x12544, .i32⟩ : BufTy).Contents (Elt F) → (⟨S2x12544, .i1⟩ : BufTy).Contents (Elt F)),
    nullary main_c_103 (constantI S_ 32 256#32),
    unary main_c_103 main_v306 (broadcastInDim S2x12544 ![] bcast_S_S2x12544 : (⟨S_, .i32⟩ : BufTy).Contents (Elt F) → (⟨S2x12544, .i32⟩ : BufTy).Contents (Elt F)),
    binary main_v303 main_v306 main_v307 (cmpi .slt : (⟨S2x12544, .i32⟩ : BufTy).Contents (Elt F) → (⟨S2x12544, .i32⟩ : BufTy).Contents (Elt F) → (⟨S2x12544, .i1⟩ : BufTy).Contents (Elt F)),
    binary main_v305 main_v307 main_v308 (andi : (⟨S2x12544, .i1⟩ : BufTy).Contents (Elt F) → (⟨S2x12544, .i1⟩ : BufTy).Contents (Elt F) → (⟨S2x12544, .i1⟩ : BufTy).Contents (Elt F)),
    nullary main_c_104 (constantI S_ 32 0#32),
    unary main_c_104 main_v309 (broadcastInDim S2x12544 ![] bcast_S_S2x12544 : (⟨S_, .i32⟩ : BufTy).Contents (Elt F) → (⟨S2x12544, .i32⟩ : BufTy).Contents (Elt F)),
    binary main_v301 main_v309 main_v310 (cmpi .sge : (⟨S2x12544, .i32⟩ : BufTy).Contents (Elt F) → (⟨S2x12544, .i32⟩ : BufTy).Contents (Elt F) → (⟨S2x12544, .i1⟩ : BufTy).Contents (Elt F)),
    binary main_v308 main_v310 main_v311 (andi : (⟨S2x12544, .i1⟩ : BufTy).Contents (Elt F) → (⟨S2x12544, .i1⟩ : BufTy).Contents (Elt F) → (⟨S2x12544, .i1⟩ : BufTy).Contents (Elt F)),
    nullary main_c_105 (constantI S_ 32 256#32),
    unary main_c_105 main_v312 (broadcastInDim S2x12544 ![] bcast_S_S2x12544 : (⟨S_, .i32⟩ : BufTy).Contents (Elt F) → (⟨S2x12544, .i32⟩ : BufTy).Contents (Elt F)),
    binary main_v301 main_v312 main_v313 (cmpi .slt : (⟨S2x12544, .i32⟩ : BufTy).Contents (Elt F) → (⟨S2x12544, .i32⟩ : BufTy).Contents (Elt F) → (⟨S2x12544, .i1⟩ : BufTy).Contents (Elt F)),
    binary main_v311 main_v313 main_v314 (andi : (⟨S2x12544, .i1⟩ : BufTy).Contents (Elt F) → (⟨S2x12544, .i1⟩ : BufTy).Contents (Elt F) → (⟨S2x12544, .i1⟩ : BufTy).Contents (Elt F)),
    unary main_v314 main_v315 (uitofp .f32 : (⟨S2x12544, .i1⟩ : BufTy).Contents (Elt F) → (⟨S2x12544, .f32⟩ : BufTy).Contents (Elt F)),
    nullary main_c_106 (constantI S_ 32 0#32),
    nullary main_c_107 (constantI S_ 32 255#32),
    TRef.unary (TRef.of (T := ⟨S_, .i32⟩) main_c_106) (TRef.of (T := ⟨S_, .i32⟩) main_call14_v0) id,
    TRef.unary (TRef.of (T := ⟨S_, .i32⟩) main_call14_v0) (TRef.of (T := ⟨S2x12544, .i32⟩) main_call14_v1) (broadcastInDim S2x12544 ![] bcast_S_S2x12544),
    TRef.binary (TRef.of (T := ⟨S2x12544, .i32⟩) main_call14_v1) (TRef.of (T := ⟨S2x12544, .i32⟩) main_v301) (TRef.of (T := ⟨S2x12544, .i32⟩) main_call14_v2) maxsi,
    TRef.unary (TRef.of (T := ⟨S_, .i32⟩) main_c_107) (TRef.of (T := ⟨S_, .i32⟩) main_call14_v3) id,
    TRef.unary (TRef.of (T := ⟨S_, .i32⟩) main_call14_v3) (TRef.of (T := ⟨S2x12544, .i32⟩) main_call14_v4) (broadcastInDim S2x12544 ![] bcast_S_S2x12544),
    TRef.binary (TRef.of (T := ⟨S2x12544, .i32⟩) main_call14_v4) (TRef.of (T := ⟨S2x12544, .i32⟩) main_call14_v2) (TRef.of (T := ⟨S2x12544, .i32⟩) main_v316) minsi,
    nullary main_c_108 (constantI S_ 32 0#32),
    nullary main_c_109 (constantI S_ 32 255#32),
    TRef.unary (TRef.of (T := ⟨S_, .i32⟩) main_c_108) (TRef.of (T := ⟨S_, .i32⟩) main_call15_v0) id,
    TRef.unary (TRef.of (T := ⟨S_, .i32⟩) main_call15_v0) (TRef.of (T := ⟨S2x12544, .i32⟩) main_call15_v1) (broadcastInDim S2x12544 ![] bcast_S_S2x12544),
    TRef.binary (TRef.of (T := ⟨S2x12544, .i32⟩) main_call15_v1) (TRef.of (T := ⟨S2x12544, .i32⟩) main_v303) (TRef.of (T := ⟨S2x12544, .i32⟩) main_call15_v2) maxsi,
    TRef.unary (TRef.of (T := ⟨S_, .i32⟩) main_c_109) (TRef.of (T := ⟨S_, .i32⟩) main_call15_v3) id,
    TRef.unary (TRef.of (T := ⟨S_, .i32⟩) main_call15_v3) (TRef.of (T := ⟨S2x12544, .i32⟩) main_call15_v4) (broadcastInDim S2x12544 ![] bcast_S_S2x12544),
    TRef.binary (TRef.of (T := ⟨S2x12544, .i32⟩) main_call15_v4) (TRef.of (T := ⟨S2x12544, .i32⟩) main_call15_v2) (TRef.of (T := ⟨S2x12544, .i32⟩) main_v317) minsi,
    nullary main_c_110 (constantI S_ 32 0#32),
    unary main_c_110 main_v318 (broadcastInDim S2x12544 ![] bcast_S_S2x12544 : (⟨S_, .i32⟩ : BufTy).Contents (Elt F) → (⟨S2x12544, .i32⟩ : BufTy).Contents (Elt F)),
    binary main_v316 main_v318 main_v319 (cmpi .slt : (⟨S2x12544, .i32⟩ : BufTy).Contents (Elt F) → (⟨S2x12544, .i32⟩ : BufTy).Contents (Elt F) → (⟨S2x12544, .i1⟩ : BufTy).Contents (Elt F)),
    nullary main_c_111 (constantI S_ 32 256#32),
    unary main_c_111 main_v320 (broadcastInDim S2x12544 ![] bcast_S_S2x12544 : (⟨S_, .i32⟩ : BufTy).Contents (Elt F) → (⟨S2x12544, .i32⟩ : BufTy).Contents (Elt F)),
    binary main_v316 main_v320 main_v321 (addi : (⟨S2x12544, .i32⟩ : BufTy).Contents (Elt F) → (⟨S2x12544, .i32⟩ : BufTy).Contents (Elt F) → (⟨S2x12544, .i32⟩ : BufTy).Contents (Elt F)),
    ternary main_v319 main_v321 main_v316 main_v322 (select : (⟨S2x12544, .i1⟩ : BufTy).Contents (Elt F) → (⟨S2x12544, .i32⟩ : BufTy).Contents (Elt F) → (⟨S2x12544, .i32⟩ : BufTy).Contents (Elt F) → (⟨S2x12544, .i32⟩ : BufTy).Contents (Elt F)),
    nullary main_c_112 (constantI S_ 32 0#32),
    unary main_c_112 main_v323 (broadcastInDim S2x12544 ![] bcast_S_S2x12544 : (⟨S_, .i32⟩ : BufTy).Contents (Elt F) → (⟨S2x12544, .i32⟩ : BufTy).Contents (Elt F)),
    binary main_v317 main_v323 main_v324 (cmpi .slt : (⟨S2x12544, .i32⟩ : BufTy).Contents (Elt F) → (⟨S2x12544, .i32⟩ : BufTy).Contents (Elt F) → (⟨S2x12544, .i1⟩ : BufTy).Contents (Elt F)),
    nullary main_c_113 (constantI S_ 32 256#32),
    unary main_c_113 main_v325 (broadcastInDim S2x12544 ![] bcast_S_S2x12544 : (⟨S_, .i32⟩ : BufTy).Contents (Elt F) → (⟨S2x12544, .i32⟩ : BufTy).Contents (Elt F)),
    binary main_v317 main_v325 main_v326 (addi : (⟨S2x12544, .i32⟩ : BufTy).Contents (Elt F) → (⟨S2x12544, .i32⟩ : BufTy).Contents (Elt F) → (⟨S2x12544, .i32⟩ : BufTy).Contents (Elt F)),
    ternary main_v324 main_v326 main_v317 main_v327 (select : (⟨S2x12544, .i1⟩ : BufTy).Contents (Elt F) → (⟨S2x12544, .i32⟩ : BufTy).Contents (Elt F) → (⟨S2x12544, .i32⟩ : BufTy).Contents (Elt F) → (⟨S2x12544, .i32⟩ : BufTy).Contents (Elt F)),
    unary main_v322 main_v328 (broadcastInDim S2x12544x1 ![0, 1] bcast_S2x12544_S2x12544x1_0_1 : (⟨S2x12544, .i32⟩ : BufTy).Contents (Elt F) → (⟨S2x12544x1, .i32⟩ : BufTy).Contents (Elt F)),
    unary main_v327 main_v329 (broadcastInDim S2x12544x1 ![0, 1] bcast_S2x12544_S2x12544x1_0_1 : (⟨S2x12544, .i32⟩ : BufTy).Contents (Elt F) → (⟨S2x12544x1, .i32⟩ : BufTy).Contents (Elt F)) ]
theorem ops_16_sub : (ops_16 : List (HloOp τ sig (Elt F))).Forall fun op => op.bufs ⊆ tcRefs τ sig :=
  ⟨nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., unary_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub ..⟩
theorem ops_16_fresh : ∀ op ∈ (ops_16 : List (HloOp τ sig (Elt F))), op.fresh = ∅ := by
  intro _ h; (repeat (cases h with | head => rfl | tail _ h => ?_)); exact nomatch h

set_option maxHeartbeats 4000000 in
/-- Operations 527 to 570 of @main, in order. -/
abbrev ops_17 : List (HloOp τ sig (Elt F)) :=
  [ binary main_v328 main_v329 main_v330 ((fun a b => concatenate S2x12544x2 2 [⟨S2x12544x1, a⟩, ⟨S2x12544x1, b⟩] concatenates_S2x12544x1_S2x12544x1_S2x12544x2_d2) : (⟨S2x12544x1, .i32⟩ : BufTy).Contents (Elt F) → (⟨S2x12544x1, .i32⟩ : BufTy).Contents (Elt F) → (⟨S2x12544x2, .i32⟩ : BufTy).Contents (Elt F)),
    binary main_arg1 main_v330 main_v331 ((fun x i => Host.gather gather_S2x300x256x256_S2x12544x2_S2x300x12544_1_23_0_0_23_2_130011 x i) : (⟨S2x300x256x256, .f32⟩ : BufTy).Contents (Elt F) → (⟨S2x12544x2, .i32⟩ : BufTy).Contents (Elt F) → (⟨S2x300x12544, .f32⟩ : BufTy).Contents (Elt F)),
    unary main_v315 main_v332 (broadcastInDim S2x1x12544 ![0, 2] bcast_S2x12544_S2x1x12544_0_2 : (⟨S2x12544, .f32⟩ : BufTy).Contents (Elt F) → (⟨S2x1x12544, .f32⟩ : BufTy).Contents (Elt F)),
    unary main_v332 main_v333 (broadcastInDim S2x300x12544 ![0, 1, 2] bcast_S2x1x12544_S2x300x12544_0_1_2 : (⟨S2x1x12544, .f32⟩ : BufTy).Contents (Elt F) → (⟨S2x300x12544, .f32⟩ : BufTy).Contents (Elt F)),
    binary main_v331 main_v333 main_v334 (mulf : (⟨S2x300x12544, .f32⟩ : BufTy).Contents (Elt F) → (⟨S2x300x12544, .f32⟩ : BufTy).Contents (Elt F) → (⟨S2x300x12544, .f32⟩ : BufTy).Contents (Elt F)),
    nullary main_cst_114 (constant S_ .f32 0x3F800000#32),
    unary main_cst_114 main_v335 (broadcastInDim S2x12544 ![] bcast_S_S2x12544 : (⟨S_, .f32⟩ : BufTy).Contents (Elt F) → (⟨S2x12544, .f32⟩ : BufTy).Contents (Elt F)),
    binary main_v335 main_v200 main_v336 (subf : (⟨S2x12544, .f32⟩ : BufTy).Contents (Elt F) → (⟨S2x12544, .f32⟩ : BufTy).Contents (Elt F) → (⟨S2x12544, .f32⟩ : BufTy).Contents (Elt F)),
    unary main_v336 main_v337 (broadcastInDim S2x1x12544 ![0, 2] bcast_S2x12544_S2x1x12544_0_2 : (⟨S2x12544, .f32⟩ : BufTy).Contents (Elt F) → (⟨S2x1x12544, .f32⟩ : BufTy).Contents (Elt F)),
    unary main_v337 main_v338 (broadcastInDim S2x300x12544 ![0, 1, 2] bcast_S2x1x12544_S2x300x12544_0_1_2 : (⟨S2x1x12544, .f32⟩ : BufTy).Contents (Elt F) → (⟨S2x300x12544, .f32⟩ : BufTy).Contents (Elt F)),
    binary main_v233 main_v338 main_v339 (mulf : (⟨S2x300x12544, .f32⟩ : BufTy).Contents (Elt F) → (⟨S2x300x12544, .f32⟩ : BufTy).Contents (Elt F) → (⟨S2x300x12544, .f32⟩ : BufTy).Contents (Elt F)),
    nullary main_cst_115 (constant S_ .f32 0x3F800000#32),
    unary main_cst_115 main_v340 (broadcastInDim S2x12544 ![] bcast_S_S2x12544 : (⟨S_, .f32⟩ : BufTy).Contents (Elt F) → (⟨S2x12544, .f32⟩ : BufTy).Contents (Elt F)),
    binary main_v340 main_v199 main_v341 (subf : (⟨S2x12544, .f32⟩ : BufTy).Contents (Elt F) → (⟨S2x12544, .f32⟩ : BufTy).Contents (Elt F) → (⟨S2x12544, .f32⟩ : BufTy).Contents (Elt F)),
    unary main_v341 main_v342 (broadcastInDim S2x1x12544 ![0, 2] bcast_S2x12544_S2x1x12544_0_2 : (⟨S2x12544, .f32⟩ : BufTy).Contents (Elt F) → (⟨S2x1x12544, .f32⟩ : BufTy).Contents (Elt F)),
    unary main_v342 main_v343 (broadcastInDim S2x300x12544 ![0, 1, 2] bcast_S2x1x12544_S2x300x12544_0_1_2 : (⟨S2x1x12544, .f32⟩ : BufTy).Contents (Elt F) → (⟨S2x300x12544, .f32⟩ : BufTy).Contents (Elt F)),
    binary main_v339 main_v343 main_v344 (mulf : (⟨S2x300x12544, .f32⟩ : BufTy).Contents (Elt F) → (⟨S2x300x12544, .f32⟩ : BufTy).Contents (Elt F) → (⟨S2x300x12544, .f32⟩ : BufTy).Contents (Elt F)),
    nullary main_cst_116 (constant S_ .f32 0x3F800000#32),
    unary main_cst_116 main_v345 (broadcastInDim S2x12544 ![] bcast_S_S2x12544 : (⟨S_, .f32⟩ : BufTy).Contents (Elt F) → (⟨S2x12544, .f32⟩ : BufTy).Contents (Elt F)),
    binary main_v345 main_v200 main_v346 (subf : (⟨S2x12544, .f32⟩ : BufTy).Contents (Elt F) → (⟨S2x12544, .f32⟩ : BufTy).Contents (Elt F) → (⟨S2x12544, .f32⟩ : BufTy).Contents (Elt F)),
    unary main_v346 main_v347 (broadcastInDim S2x1x12544 ![0, 2] bcast_S2x12544_S2x1x12544_0_2 : (⟨S2x12544, .f32⟩ : BufTy).Contents (Elt F) → (⟨S2x1x12544, .f32⟩ : BufTy).Contents (Elt F)),
    unary main_v347 main_v348 (broadcastInDim S2x300x12544 ![0, 1, 2] bcast_S2x1x12544_S2x300x12544_0_1_2 : (⟨S2x1x12544, .f32⟩ : BufTy).Contents (Elt F) → (⟨S2x300x12544, .f32⟩ : BufTy).Contents (Elt F)),
    binary main_v266 main_v348 main_v349 (mulf : (⟨S2x300x12544, .f32⟩ : BufTy).Contents (Elt F) → (⟨S2x300x12544, .f32⟩ : BufTy).Contents (Elt F) → (⟨S2x300x12544, .f32⟩ : BufTy).Contents (Elt F)),
    unary main_v199 main_v350 (broadcastInDim S2x1x12544 ![0, 2] bcast_S2x12544_S2x1x12544_0_2 : (⟨S2x12544, .f32⟩ : BufTy).Contents (Elt F) → (⟨S2x1x12544, .f32⟩ : BufTy).Contents (Elt F)),
    unary main_v350 main_v351 (broadcastInDim S2x300x12544 ![0, 1, 2] bcast_S2x1x12544_S2x300x12544_0_1_2 : (⟨S2x1x12544, .f32⟩ : BufTy).Contents (Elt F) → (⟨S2x300x12544, .f32⟩ : BufTy).Contents (Elt F)),
    binary main_v349 main_v351 main_v352 (mulf : (⟨S2x300x12544, .f32⟩ : BufTy).Contents (Elt F) → (⟨S2x300x12544, .f32⟩ : BufTy).Contents (Elt F) → (⟨S2x300x12544, .f32⟩ : BufTy).Contents (Elt F)),
    binary main_v344 main_v352 main_v353 (addf : (⟨S2x300x12544, .f32⟩ : BufTy).Contents (Elt F) → (⟨S2x300x12544, .f32⟩ : BufTy).Contents (Elt F) → (⟨S2x300x12544, .f32⟩ : BufTy).Contents (Elt F)),
    unary main_v200 main_v354 (broadcastInDim S2x1x12544 ![0, 2] bcast_S2x12544_S2x1x12544_0_2 : (⟨S2x12544, .f32⟩ : BufTy).Contents (Elt F) → (⟨S2x1x12544, .f32⟩ : BufTy).Contents (Elt F)),
    unary main_v354 main_v355 (broadcastInDim S2x300x12544 ![0, 1, 2] bcast_S2x1x12544_S2x300x12544_0_1_2 : (⟨S2x1x12544, .f32⟩ : BufTy).Contents (Elt F) → (⟨S2x300x12544, .f32⟩ : BufTy).Contents (Elt F)),
    binary main_v299 main_v355 main_v356 (mulf : (⟨S2x300x12544, .f32⟩ : BufTy).Contents (Elt F) → (⟨S2x300x12544, .f32⟩ : BufTy).Contents (Elt F) → (⟨S2x300x12544, .f32⟩ : BufTy).Contents (Elt F)),
    nullary main_cst_117 (constant S_ .f32 0x3F800000#32),
    unary main_cst_117 main_v357 (broadcastInDim S2x12544 ![] bcast_S_S2x12544 : (⟨S_, .f32⟩ : BufTy).Contents (Elt F) → (⟨S2x12544, .f32⟩ : BufTy).Contents (Elt F)),
    binary main_v357 main_v199 main_v358 (subf : (⟨S2x12544, .f32⟩ : BufTy).Contents (Elt F) → (⟨S2x12544, .f32⟩ : BufTy).Contents (Elt F) → (⟨S2x12544, .f32⟩ : BufTy).Contents (Elt F)),
    unary main_v358 main_v359 (broadcastInDim S2x1x12544 ![0, 2] bcast_S2x12544_S2x1x12544_0_2 : (⟨S2x12544, .f32⟩ : BufTy).Contents (Elt F) → (⟨S2x1x12544, .f32⟩ : BufTy).Contents (Elt F)),
    unary main_v359 main_v360 (broadcastInDim S2x300x12544 ![0, 1, 2] bcast_S2x1x12544_S2x300x12544_0_1_2 : (⟨S2x1x12544, .f32⟩ : BufTy).Contents (Elt F) → (⟨S2x300x12544, .f32⟩ : BufTy).Contents (Elt F)),
    binary main_v356 main_v360 main_v361 (mulf : (⟨S2x300x12544, .f32⟩ : BufTy).Contents (Elt F) → (⟨S2x300x12544, .f32⟩ : BufTy).Contents (Elt F) → (⟨S2x300x12544, .f32⟩ : BufTy).Contents (Elt F)),
    binary main_v353 main_v361 main_v362 (addf : (⟨S2x300x12544, .f32⟩ : BufTy).Contents (Elt F) → (⟨S2x300x12544, .f32⟩ : BufTy).Contents (Elt F) → (⟨S2x300x12544, .f32⟩ : BufTy).Contents (Elt F)),
    unary main_v200 main_v363 (broadcastInDim S2x1x12544 ![0, 2] bcast_S2x12544_S2x1x12544_0_2 : (⟨S2x12544, .f32⟩ : BufTy).Contents (Elt F) → (⟨S2x1x12544, .f32⟩ : BufTy).Contents (Elt F)),
    unary main_v363 main_v364 (broadcastInDim S2x300x12544 ![0, 1, 2] bcast_S2x1x12544_S2x300x12544_0_1_2 : (⟨S2x1x12544, .f32⟩ : BufTy).Contents (Elt F) → (⟨S2x300x12544, .f32⟩ : BufTy).Contents (Elt F)),
    binary main_v334 main_v364 main_v365 (mulf : (⟨S2x300x12544, .f32⟩ : BufTy).Contents (Elt F) → (⟨S2x300x12544, .f32⟩ : BufTy).Contents (Elt F) → (⟨S2x300x12544, .f32⟩ : BufTy).Contents (Elt F)),
    unary main_v199 main_v366 (broadcastInDim S2x1x12544 ![0, 2] bcast_S2x12544_S2x1x12544_0_2 : (⟨S2x12544, .f32⟩ : BufTy).Contents (Elt F) → (⟨S2x1x12544, .f32⟩ : BufTy).Contents (Elt F)),
    unary main_v366 main_v367 (broadcastInDim S2x300x12544 ![0, 1, 2] bcast_S2x1x12544_S2x300x12544_0_1_2 : (⟨S2x1x12544, .f32⟩ : BufTy).Contents (Elt F) → (⟨S2x300x12544, .f32⟩ : BufTy).Contents (Elt F)),
    binary main_v365 main_v367 main_v368 (mulf : (⟨S2x300x12544, .f32⟩ : BufTy).Contents (Elt F) → (⟨S2x300x12544, .f32⟩ : BufTy).Contents (Elt F) → (⟨S2x300x12544, .f32⟩ : BufTy).Contents (Elt F)),
    binary main_v362 main_v368 main_v369 (addf : (⟨S2x300x12544, .f32⟩ : BufTy).Contents (Elt F) → (⟨S2x300x12544, .f32⟩ : BufTy).Contents (Elt F) → (⟨S2x300x12544, .f32⟩ : BufTy).Contents (Elt F)) ]
theorem ops_17_sub : (ops_17 : List (HloOp τ sig (Elt F))).Forall fun op => op.bufs ⊆ tcRefs τ sig :=
  ⟨binary_bufs_sub .., binary_bufs_sub .., unary_bufs_sub .., unary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub .., unary_bufs_sub .., unary_bufs_sub .., binary_bufs_sub .., binary_bufs_sub .., unary_bufs_sub .., unary_bufs_sub .., binary_bufs_sub .., unary_bufs_sub .., unary_bufs_sub .., binary_bufs_sub .., binary_bufs_sub ..⟩
theorem ops_17_fresh : ∀ op ∈ (ops_17 : List (HloOp τ sig (Elt F))), op.fresh = ∅ := by
  intro _ h; (repeat (cases h with | head => rfl | tail _ h => ?_)); exact nomatch h

set_option maxHeartbeats 4000000 in
/-- Operations 571 to 605 of @main, in order. -/
abbrev ops_18 : List (HloOp τ sig (Elt F)) :=
  [ unary main_v184 main_v370 (Host.negf : (⟨S2x300x12544, .f32⟩ : BufTy).Contents (Elt F) → (⟨S2x300x12544, .f32⟩ : BufTy).Contents (Elt F)),
    TRef.nullary (TRef.of (T := ⟨S_, .f32⟩) main_call16_cst) (constant S_ .f32 0x00000000#32),
    TRef.unary (TRef.of (T := ⟨S_, .f32⟩) main_call16_cst) (TRef.of (T := ⟨S2x300x12544, .f32⟩) main_call16_v0) (broadcastInDim S2x300x12544 ![] bcast_S_S2x300x12544),
    TRef.binary (TRef.of (T := ⟨S2x300x12544, .f32⟩) main_v370) (TRef.of (T := ⟨S2x300x12544, .f32⟩) main_call16_v0) (TRef.of (T := ⟨S2x300x12544, .f32⟩) main_call16_v1) maximumf,
    TRef.unary (TRef.of (T := ⟨S_, .f32⟩) main_call16_cst) (TRef.of (T := ⟨S2x300x12544, .f32⟩) main_call16_v2) (broadcastInDim S2x300x12544 ![] bcast_S_S2x300x12544),
    TRef.binary (TRef.of (T := ⟨S2x300x12544, .f32⟩) main_v370) (TRef.of (T := ⟨S2x300x12544, .f32⟩) main_call16_v2) (TRef.of (T := ⟨S2x300x12544, .f32⟩) main_call16_v3) subf,
    TRef.binary (TRef.of (T := ⟨S2x300x12544, .f32⟩) main_call16_v3) (TRef.of (T := ⟨S2x300x12544, .f32⟩) main_call16_v3) (TRef.of (T := ⟨S2x300x12544, .i1⟩) main_call16_v4) (cmpf .une),
    TRef.unary (TRef.of (T := ⟨S_, .f32⟩) main_call16_cst) (TRef.of (T := ⟨S2x300x12544, .f32⟩) main_call16_v5) (broadcastInDim S2x300x12544 ![] bcast_S_S2x300x12544),
    TRef.binary (TRef.of (T := ⟨S2x300x12544, .f32⟩) main_v370) (TRef.of (T := ⟨S2x300x12544, .f32⟩) main_call16_v5) (TRef.of (T := ⟨S2x300x12544, .f32⟩) main_call16_v6) addf,
    TRef.unary (TRef.of (T := ⟨S2x300x12544, .f32⟩) main_call16_v3) (TRef.of (T := ⟨S2x300x12544, .f32⟩) main_call16_v7) Host.absf,
    TRef.unary (TRef.of (T := ⟨S2x300x12544, .f32⟩) main_call16_v7) (TRef.of (T := ⟨S2x300x12544, .f32⟩) main_call16_v8) Host.negf,
    TRef.unary (TRef.of (T := ⟨S2x300x12544, .f32⟩) main_call16_v8) (TRef.of (T := ⟨S2x300x12544, .f32⟩) main_call16_v9) Host.exp,
    TRef.unary (TRef.of (T := ⟨S2x300x12544, .f32⟩) main_call16_v9) (TRef.of (T := ⟨S2x300x12544, .f32⟩) main_call16_v10) Host.log1p,
    TRef.binary (TRef.of (T := ⟨S2x300x12544, .f32⟩) main_call16_v1) (TRef.of (T := ⟨S2x300x12544, .f32⟩) main_call16_v10) (TRef.of (T := ⟨S2x300x12544, .f32⟩) main_call16_v11) addf,
    TRef.ternary (TRef.of (T := ⟨S2x300x12544, .i1⟩) main_call16_v4) (TRef.of (T := ⟨S2x300x12544, .f32⟩) main_call16_v6) (TRef.of (T := ⟨S2x300x12544, .f32⟩) main_call16_v11) (TRef.of (T := ⟨S2x300x12544, .f32⟩) main_v371) select,
    TRef.nullary (TRef.of (T := ⟨S_, .f32⟩) main_call17_cst) (constant S_ .f32 0x00000000#32),
    TRef.unary (TRef.of (T := ⟨S_, .f32⟩) main_call17_cst) (TRef.of (T := ⟨S2x300x12544, .f32⟩) main_call17_v0) (broadcastInDim S2x300x12544 ![] bcast_S_S2x300x12544),
    TRef.binary (TRef.of (T := ⟨S2x300x12544, .f32⟩) main_v184) (TRef.of (T := ⟨S2x300x12544, .f32⟩) main_call17_v0) (TRef.of (T := ⟨S2x300x12544, .f32⟩) main_call17_v1) maximumf,
    TRef.unary (TRef.of (T := ⟨S_, .f32⟩) main_call17_cst) (TRef.of (T := ⟨S2x300x12544, .f32⟩) main_call17_v2) (broadcastInDim S2x300x12544 ![] bcast_S_S2x300x12544),
    TRef.binary (TRef.of (T := ⟨S2x300x12544, .f32⟩) main_v184) (TRef.of (T := ⟨S2x300x12544, .f32⟩) main_call17_v2) (TRef.of (T := ⟨S2x300x12544, .f32⟩) main_call17_v3) subf,
    TRef.binary (TRef.of (T := ⟨S2x300x12544, .f32⟩) main_call17_v3) (TRef.of (T := ⟨S2x300x12544, .f32⟩) main_call17_v3) (TRef.of (T := ⟨S2x300x12544, .i1⟩) main_call17_v4) (cmpf .une),
    TRef.unary (TRef.of (T := ⟨S_, .f32⟩) main_call17_cst) (TRef.of (T := ⟨S2x300x12544, .f32⟩) main_call17_v5) (broadcastInDim S2x300x12544 ![] bcast_S_S2x300x12544),
    TRef.binary (TRef.of (T := ⟨S2x300x12544, .f32⟩) main_v184) (TRef.of (T := ⟨S2x300x12544, .f32⟩) main_call17_v5) (TRef.of (T := ⟨S2x300x12544, .f32⟩) main_call17_v6) addf,
    TRef.unary (TRef.of (T := ⟨S2x300x12544, .f32⟩) main_call17_v3) (TRef.of (T := ⟨S2x300x12544, .f32⟩) main_call17_v7) Host.absf,
    TRef.unary (TRef.of (T := ⟨S2x300x12544, .f32⟩) main_call17_v7) (TRef.of (T := ⟨S2x300x12544, .f32⟩) main_call17_v8) Host.negf,
    TRef.unary (TRef.of (T := ⟨S2x300x12544, .f32⟩) main_call17_v8) (TRef.of (T := ⟨S2x300x12544, .f32⟩) main_call17_v9) Host.exp,
    TRef.unary (TRef.of (T := ⟨S2x300x12544, .f32⟩) main_call17_v9) (TRef.of (T := ⟨S2x300x12544, .f32⟩) main_call17_v10) Host.log1p,
    TRef.binary (TRef.of (T := ⟨S2x300x12544, .f32⟩) main_call17_v1) (TRef.of (T := ⟨S2x300x12544, .f32⟩) main_call17_v10) (TRef.of (T := ⟨S2x300x12544, .f32⟩) main_call17_v11) addf,
    TRef.ternary (TRef.of (T := ⟨S2x300x12544, .i1⟩) main_call17_v4) (TRef.of (T := ⟨S2x300x12544, .f32⟩) main_call17_v6) (TRef.of (T := ⟨S2x300x12544, .f32⟩) main_call17_v11) (TRef.of (T := ⟨S2x300x12544, .f32⟩) main_v372) select,
    binary main_v371 main_v369 main_v373 ((fun l r => Host.dotGeneral dot_S2x300x12544_S2x300x12544_S2x300x300_2_2_1_1_0_0 none l r) : (⟨S2x300x12544, .f32⟩ : BufTy).Contents (Elt F) → (⟨S2x300x12544, .f32⟩ : BufTy).Contents (Elt F) → (⟨S2x300x300, .f32⟩ : BufTy).Contents (Elt F)),
    nullary main_cst_118 (constant S_ .f32 0x3F800000#32),
    unary main_cst_118 main_v374 (broadcastInDim S2x300x12544 ![] bcast_S_S2x300x12544 : (⟨S_, .f32⟩ : BufTy).Contents (Elt F) → (⟨S2x300x12544, .f32⟩ : BufTy).Contents (Elt F)),
    binary main_v374 main_v369 main_v375 (subf : (⟨S2x300x12544, .f32⟩ : BufTy).Contents (Elt F) → (⟨S2x300x12544, .f32⟩ : BufTy).Contents (Elt F) → (⟨S2x300x12544, .f32⟩ : BufTy).Contents (Elt F)),
    binary main_v372 main_v375 main_v376 ((fun l r => Host.dotGeneral dot_S2x300x12544_S2x300x12544_S2x300x300_2_2_1_1_0_0 none l r) : (⟨S2x300x12544, .f32⟩ : BufTy).Contents (Elt F) → (⟨S2x300x12544, .f32⟩ : BufTy).Contents (Elt F) → (⟨S2x300x300, .f32⟩ : BufTy).Contents (Elt F)),
    binary main_v373 main_v376 main_v377 (addf : (⟨S2x300x300, .f32⟩ : BufTy).Contents (Elt F) → (⟨S2x300x300, .f32⟩ : BufTy).Contents (Elt F) → (⟨S2x300x300, .f32⟩ : BufTy).Contents (Elt F)) ]
theorem ops_18_sub : (ops_18 : List (HloOp τ sig (Elt F))).Forall fun op => op.bufs ⊆ tcRefs τ sig :=
  ⟨unary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., binary_bufs_sub .., nullary_bufs_sub .., unary_bufs_sub .., binary_bufs_sub .., binary_bufs_sub .., binary_bufs_sub ..⟩
theorem ops_18_fresh : ∀ op ∈ (ops_18 : List (HloOp τ sig (Elt F))), op.fresh = ∅ := by
  intro _ h; (repeat (cases h with | head => rfl | tail _ h => ?_)); exact nomatch h

set_option maxHeartbeats 4000000 in
/-- Operations 606 to 636 of @main, in order. -/
abbrev ops_19 : List (HloOp τ sig (Elt F)) :=
  [ nullary main_cst_119 (constant S_ .f32 0x46440000#32),
    unary main_cst_119 main_v378 (broadcastInDim S2x300x300 ![] bcast_S_S2x300x300 : (⟨S_, .f32⟩ : BufTy).Contents (Elt F) → (⟨S2x300x300, .f32⟩ : BufTy).Contents (Elt F)),
    binary main_v377 main_v378 main_v379 (Host.divf : (⟨S2x300x300, .f32⟩ : BufTy).Contents (Elt F) → (⟨S2x300x300, .f32⟩ : BufTy).Contents (Elt F) → (⟨S2x300x300, .f32⟩ : BufTy).Contents (Elt F)),
    unary main_v184 main_v380 (Host.negf : (⟨S2x300x12544, .f32⟩ : BufTy).Contents (Elt F) → (⟨S2x300x12544, .f32⟩ : BufTy).Contents (Elt F)),
    unary main_v380 main_v381 (Host.exp : (⟨S2x300x12544, .f32⟩ : BufTy).Contents (Elt F) → (⟨S2x300x12544, .f32⟩ : BufTy).Contents (Elt F)),
    nullary main_cst_120 (constant S_ .f32 0x3F800000#32),
    unary main_cst_120 main_v382 (broadcastInDim S2x300x12544 ![] bcast_S_S2x300x12544 : (⟨S_, .f32⟩ : BufTy).Contents (Elt F) → (⟨S2x300x12544, .f32⟩ : BufTy).Contents (Elt F)),
    binary main_v382 main_v381 main_v383 (addf : (⟨S2x300x12544, .f32⟩ : BufTy).Contents (Elt F) → (⟨S2x300x12544, .f32⟩ : BufTy).Contents (Elt F) → (⟨S2x300x12544, .f32⟩ : BufTy).Contents (Elt F)),
    nullary main_cst_121 (constant S_ .f32 0x3F800000#32),
    unary main_cst_121 main_v384 (broadcastInDim S2x300x12544 ![] bcast_S_S2x300x12544 : (⟨S_, .f32⟩ : BufTy).Contents (Elt F) → (⟨S2x300x12544, .f32⟩ : BufTy).Contents (Elt F)),
    binary main_v384 main_v383 main_v385 (Host.divf : (⟨S2x300x12544, .f32⟩ : BufTy).Contents (Elt F) → (⟨S2x300x12544, .f32⟩ : BufTy).Contents (Elt F) → (⟨S2x300x12544, .f32⟩ : BufTy).Contents (Elt F)),
    binary main_v385 main_v369 main_v386 ((fun l r => Host.dotGeneral dot_S2x300x12544_S2x300x12544_S2x300x300_2_2_1_1_0_0 none l r) : (⟨S2x300x12544, .f32⟩ : BufTy).Contents (Elt F) → (⟨S2x300x12544, .f32⟩ : BufTy).Contents (Elt F) → (⟨S2x300x300, .f32⟩ : BufTy).Contents (Elt F)),
    nullary main_cst_122 (constant S_ .f32 0x40000000#32),
    unary main_cst_122 main_v387 (broadcastInDim S2x300x300 ![] bcast_S_S2x300x300 : (⟨S_, .f32⟩ : BufTy).Contents (Elt F) → (⟨S2x300x300, .f32⟩ : BufTy).Contents (Elt F)),
    binary main_v387 main_v386 main_v388 (mulf : (⟨S2x300x300, .f32⟩ : BufTy).Contents (Elt F) → (⟨S2x300x300, .f32⟩ : BufTy).Contents (Elt F) → (⟨S2x300x300, .f32⟩ : BufTy).Contents (Elt F)),
    nullary main_cst_123 (constant S_ .f32 0x00000000#32),
    binary main_v385 main_cst_123 main_v389 ((fun x v => Host.reduceAdd x v reducesTo_S2x300x12544_S2x300_d2 h_S_) : (⟨S2x300x12544, .f32⟩ : BufTy).Contents (Elt F) → (⟨S_, .f32⟩ : BufTy).Contents (Elt F) → (⟨S2x300, .f32⟩ : BufTy).Contents (Elt F)),
    unary main_v389 main_v390 (broadcastInDim S2x300x1 ![0, 1] bcast_S2x300_S2x300x1_0_1 : (⟨S2x300, .f32⟩ : BufTy).Contents (Elt F) → (⟨S2x300x1, .f32⟩ : BufTy).Contents (Elt F)),
    nullary main_cst_124 (constant S_ .f32 0x00000000#32),
    binary main_v369 main_cst_124 main_v391 ((fun x v => Host.reduceAdd x v reducesTo_S2x300x12544_S2x300_d2 h_S_) : (⟨S2x300x12544, .f32⟩ : BufTy).Contents (Elt F) → (⟨S_, .f32⟩ : BufTy).Contents (Elt F) → (⟨S2x300, .f32⟩ : BufTy).Contents (Elt F)),
    unary main_v391 main_v392 (broadcastInDim S2x1x300 ![0, 2] bcast_S2x300_S2x1x300_0_2 : (⟨S2x300, .f32⟩ : BufTy).Contents (Elt F) → (⟨S2x1x300, .f32⟩ : BufTy).Contents (Elt F)),
    unary main_v390 main_v393 (broadcastInDim S2x300x300 ![0, 1, 2] bcast_S2x300x1_S2x300x300_0_1_2 : (⟨S2x300x1, .f32⟩ : BufTy).Contents (Elt F) → (⟨S2x300x300, .f32⟩ : BufTy).Contents (Elt F)),
    unary main_v392 main_v394 (broadcastInDim S2x300x300 ![0, 1, 2] bcast_S2x1x300_S2x300x300_0_1_2 : (⟨S2x1x300, .f32⟩ : BufTy).Contents (Elt F) → (⟨S2x300x300, .f32⟩ : BufTy).Contents (Elt F)),
    binary main_v393 main_v394 main_v395 (addf : (⟨S2x300x300, .f32⟩ : BufTy).Contents (Elt F) → (⟨S2x300x300, .f32⟩ : BufTy).Contents (Elt F) → (⟨S2x300x300, .f32⟩ : BufTy).Contents (Elt F)),
    nullary main_cst_125 (constant S_ .f32 0x3F800000#32),
    unary main_cst_125 main_v396 (broadcastInDim S2x300x300 ![] bcast_S_S2x300x300 : (⟨S_, .f32⟩ : BufTy).Contents (Elt F) → (⟨S2x300x300, .f32⟩ : BufTy).Contents (Elt F)),
    binary main_v388 main_v396 main_v397 (addf : (⟨S2x300x300, .f32⟩ : BufTy).Contents (Elt F) → (⟨S2x300x300, .f32⟩ : BufTy).Contents (Elt F) → (⟨S2x300x300, .f32⟩ : BufTy).Contents (Elt F)),
    nullary main_cst_126 (constant S_ .f32 0x3F800000#32),
    unary main_cst_126 main_v398 (broadcastInDim S2x300x300 ![] bcast_S_S2x300x300 : (⟨S_, .f32⟩ : BufTy).Contents (Elt F) → (⟨S2x300x300, .f32⟩ : BufTy).Contents (Elt F)),
    binary main_v395 main_v398 main_v399 (addf : (⟨S2x300x300, .f32⟩ : BufTy).Contents (Elt F) → (⟨S2x300x300, .f32⟩ : BufTy).Contents (Elt F) → (⟨S2x300x300, .f32⟩ : BufTy).Contents (Elt F)),
    binary main_v397 main_v399 main_v400 (Host.divf : (⟨S2x300x300, .f32⟩ : BufTy).Contents (Elt F) → (⟨S2x300x300, .f32⟩ : BufTy).Contents (Elt F) → (⟨S2x300x300, .f32⟩ : BufTy).Contents (Elt F)) ]
theorem ops_19_sub : (ops_19 : List (HloOp τ sig (Elt F))).Forall fun op => op.bufs ⊆ tcRefs τ sig :=
  ⟨nullary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., binary_bufs_sub .., unary_bufs_sub .., nullary_bufs_sub .., binary_bufs_sub .., unary_bufs_sub .., unary_bufs_sub .., unary_bufs_sub .., binary_bufs_sub .., nullary_bufs_sub .., unary_bufs_sub .., binary_bufs_sub .., nullary_bufs_sub .., unary_bufs_sub .., binary_bufs_sub .., binary_bufs_sub ..⟩
theorem ops_19_fresh : ∀ op ∈ (ops_19 : List (HloOp τ sig (Elt F))), op.fresh = ∅ := by
  intro _ h; (repeat (cases h with | head => rfl | tail _ h => ?_)); exact nomatch h

set_option maxHeartbeats 4000000 in
/-- Operations 637 to 675 of @main, in order. -/
abbrev ops_20 : List (HloOp τ sig (Elt F)) :=
  [ nullary main_cst_127 (constant S_ .f32 0x3F800000#32),
    unary main_cst_127 main_v401 (broadcastInDim S2x300x300 ![] bcast_S_S2x300x300 : (⟨S_, .f32⟩ : BufTy).Contents (Elt F) → (⟨S2x300x300, .f32⟩ : BufTy).Contents (Elt F)),
    binary main_v401 main_v400 main_v402 (subf : (⟨S2x300x300, .f32⟩ : BufTy).Contents (Elt F) → (⟨S2x300x300, .f32⟩ : BufTy).Contents (Elt F) → (⟨S2x300x300, .f32⟩ : BufTy).Contents (Elt F)),
    unary main_arg2 main_v403 (broadcastInDim S2x300x1x4 ![0, 1, 3] bcast_S2x300x4_S2x300x1x4_0_1_3 : (⟨S2x300x4, .f32⟩ : BufTy).Contents (Elt F) → (⟨S2x300x1x4, .f32⟩ : BufTy).Contents (Elt F)),
    unary main_arg3 main_v404 (broadcastInDim S2x1x300x4 ![0, 2, 3] bcast_S2x300x4_S2x1x300x4_0_2_3 : (⟨S2x300x4, .f32⟩ : BufTy).Contents (Elt F) → (⟨S2x1x300x4, .f32⟩ : BufTy).Contents (Elt F)),
    unary main_v403 main_v405 (broadcastInDim S2x300x300x4 ![0, 1, 2, 3] bcast_S2x300x1x4_S2x300x300x4_0_1_2_3 : (⟨S2x300x1x4, .f32⟩ : BufTy).Contents (Elt F) → (⟨S2x300x300x4, .f32⟩ : BufTy).Contents (Elt F)),
    unary main_v404 main_v406 (broadcastInDim S2x300x300x4 ![0, 1, 2, 3] bcast_S2x1x300x4_S2x300x300x4_0_1_2_3 : (⟨S2x1x300x4, .f32⟩ : BufTy).Contents (Elt F) → (⟨S2x300x300x4, .f32⟩ : BufTy).Contents (Elt F)),
    binary main_v405 main_v406 main_v407 (subf : (⟨S2x300x300x4, .f32⟩ : BufTy).Contents (Elt F) → (⟨S2x300x300x4, .f32⟩ : BufTy).Contents (Elt F) → (⟨S2x300x300x4, .f32⟩ : BufTy).Contents (Elt F)),
    unary main_v407 main_v408 (Host.absf : (⟨S2x300x300x4, .f32⟩ : BufTy).Contents (Elt F) → (⟨S2x300x300x4, .f32⟩ : BufTy).Contents (Elt F)),
    nullary main_cst_128 (constant S_ .f32 0x00000000#32),
    binary main_v408 main_cst_128 main_v409 ((fun x v => Host.reduceAdd x v reducesTo_S2x300x300x4_S2x300x300_d3 h_S_) : (⟨S2x300x300x4, .f32⟩ : BufTy).Contents (Elt F) → (⟨S_, .f32⟩ : BufTy).Contents (Elt F) → (⟨S2x300x300, .f32⟩ : BufTy).Contents (Elt F)),
    unary main_arg2 main_v410 ((extractStridedSlice S2x300x1 ![0, 0, 0] · slices_S2x300x4_S2x300x1_0_0_0) : (⟨S2x300x4, .f32⟩ : BufTy).Contents (Elt F) → (⟨S2x300x1, .f32⟩ : BufTy).Contents (Elt F)),
    reshape main_v410 main_v411 rfl shapeCasts_S2x300x1_S2x300,
    unary main_arg2 main_v412 ((extractStridedSlice S2x300x1 ![0, 0, 1] · slices_S2x300x4_S2x300x1_0_0_1) : (⟨S2x300x4, .f32⟩ : BufTy).Contents (Elt F) → (⟨S2x300x1, .f32⟩ : BufTy).Contents (Elt F)),
    reshape main_v412 main_v413 rfl shapeCasts_S2x300x1_S2x300,
    unary main_arg2 main_v414 ((extractStridedSlice S2x300x1 ![0, 0, 2] · slices_S2x300x4_S2x300x1_0_0_2) : (⟨S2x300x4, .f32⟩ : BufTy).Contents (Elt F) → (⟨S2x300x1, .f32⟩ : BufTy).Contents (Elt F)),
    reshape main_v414 main_v415 rfl shapeCasts_S2x300x1_S2x300,
    unary main_arg2 main_v416 ((extractStridedSlice S2x300x1 ![0, 0, 3] · slices_S2x300x4_S2x300x1_0_0_3) : (⟨S2x300x4, .f32⟩ : BufTy).Contents (Elt F) → (⟨S2x300x1, .f32⟩ : BufTy).Contents (Elt F)),
    reshape main_v416 main_v417 rfl shapeCasts_S2x300x1_S2x300,
    nullary main_cst_129 (constant S_ .f32 0x3F000000#32),
    unary main_cst_129 main_v418 (broadcastInDim S2x300 ![] bcast_S_S2x300 : (⟨S_, .f32⟩ : BufTy).Contents (Elt F) → (⟨S2x300, .f32⟩ : BufTy).Contents (Elt F)),
    binary main_v418 main_v415 main_v419 (mulf : (⟨S2x300, .f32⟩ : BufTy).Contents (Elt F) → (⟨S2x300, .f32⟩ : BufTy).Contents (Elt F) → (⟨S2x300, .f32⟩ : BufTy).Contents (Elt F)),
    binary main_v411 main_v419 main_v420 (subf : (⟨S2x300, .f32⟩ : BufTy).Contents (Elt F) → (⟨S2x300, .f32⟩ : BufTy).Contents (Elt F) → (⟨S2x300, .f32⟩ : BufTy).Contents (Elt F)),
    nullary main_cst_130 (constant S_ .f32 0x3F000000#32),
    unary main_cst_130 main_v421 (broadcastInDim S2x300 ![] bcast_S_S2x300 : (⟨S_, .f32⟩ : BufTy).Contents (Elt F) → (⟨S2x300, .f32⟩ : BufTy).Contents (Elt F)),
    binary main_v421 main_v417 main_v422 (mulf : (⟨S2x300, .f32⟩ : BufTy).Contents (Elt F) → (⟨S2x300, .f32⟩ : BufTy).Contents (Elt F) → (⟨S2x300, .f32⟩ : BufTy).Contents (Elt F)),
    binary main_v413 main_v422 main_v423 (subf : (⟨S2x300, .f32⟩ : BufTy).Contents (Elt F) → (⟨S2x300, .f32⟩ : BufTy).Contents (Elt F) → (⟨S2x300, .f32⟩ : BufTy).Contents (Elt F)),
    nullary main_cst_131 (constant S_ .f32 0x3F000000#32),
    unary main_cst_131 main_v424 (broadcastInDim S2x300 ![] bcast_S_S2x300 : (⟨S_, .f32⟩ : BufTy).Contents (Elt F) → (⟨S2x300, .f32⟩ : BufTy).Contents (Elt F)),
    binary main_v424 main_v415 main_v425 (mulf : (⟨S2x300, .f32⟩ : BufTy).Contents (Elt F) → (⟨S2x300, .f32⟩ : BufTy).Contents (Elt F) → (⟨S2x300, .f32⟩ : BufTy).Contents (Elt F)),
    binary main_v411 main_v425 main_v426 (addf : (⟨S2x300, .f32⟩ : BufTy).Contents (Elt F) → (⟨S2x300, .f32⟩ : BufTy).Contents (Elt F) → (⟨S2x300, .f32⟩ : BufTy).Contents (Elt F)),
    nullary main_cst_132 (constant S_ .f32 0x3F000000#32),
    unary main_cst_132 main_v427 (broadcastInDim S2x300 ![] bcast_S_S2x300 : (⟨S_, .f32⟩ : BufTy).Contents (Elt F) → (⟨S2x300, .f32⟩ : BufTy).Contents (Elt F)),
    binary main_v427 main_v417 main_v428 (mulf : (⟨S2x300, .f32⟩ : BufTy).Contents (Elt F) → (⟨S2x300, .f32⟩ : BufTy).Contents (Elt F) → (⟨S2x300, .f32⟩ : BufTy).Contents (Elt F)),
    binary main_v413 main_v428 main_v429 (addf : (⟨S2x300, .f32⟩ : BufTy).Contents (Elt F) → (⟨S2x300, .f32⟩ : BufTy).Contents (Elt F) → (⟨S2x300, .f32⟩ : BufTy).Contents (Elt F)),
    unary main_v420 main_v430 (broadcastInDim S2x300x1 ![0, 1] bcast_S2x300_S2x300x1_0_1 : (⟨S2x300, .f32⟩ : BufTy).Contents (Elt F) → (⟨S2x300x1, .f32⟩ : BufTy).Contents (Elt F)),
    unary main_v423 main_v431 (broadcastInDim S2x300x1 ![0, 1] bcast_S2x300_S2x300x1_0_1 : (⟨S2x300, .f32⟩ : BufTy).Contents (Elt F) → (⟨S2x300x1, .f32⟩ : BufTy).Contents (Elt F)),
    unary main_v426 main_v432 (broadcastInDim S2x300x1 ![0, 1] bcast_S2x300_S2x300x1_0_1 : (⟨S2x300, .f32⟩ : BufTy).Contents (Elt F) → (⟨S2x300x1, .f32⟩ : BufTy).Contents (Elt F)),
    unary main_v429 main_v433 (broadcastInDim S2x300x1 ![0, 1] bcast_S2x300_S2x300x1_0_1 : (⟨S2x300, .f32⟩ : BufTy).Contents (Elt F) → (⟨S2x300x1, .f32⟩ : BufTy).Contents (Elt F)) ]
theorem ops_20_sub : (ops_20 : List (HloOp τ sig (Elt F))).Forall fun op => op.bufs ⊆ tcRefs τ sig :=
  ⟨nullary_bufs_sub .., unary_bufs_sub .., binary_bufs_sub .., unary_bufs_sub .., unary_bufs_sub .., unary_bufs_sub .., unary_bufs_sub .., binary_bufs_sub .., unary_bufs_sub .., nullary_bufs_sub .., binary_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., unary_bufs_sub .., unary_bufs_sub .., unary_bufs_sub .., unary_bufs_sub ..⟩
theorem ops_20_fresh : ∀ op ∈ (ops_20 : List (HloOp τ sig (Elt F))), op.fresh = ∅ := by
  intro _ h; (repeat (cases h with | head => rfl | tail _ h => ?_)); exact nomatch h

set_option maxHeartbeats 4000000 in
/-- Operations 676 to 704 of @main, in order. -/
abbrev ops_21 : List (HloOp τ sig (Elt F)) :=
  [ nary ![main_v430, main_v431, main_v432, main_v433] main_v434 (fun u => concatenate S2x300x4 2 [⟨S2x300x1, u 0⟩, ⟨S2x300x1, u 1⟩, ⟨S2x300x1, u 2⟩, ⟨S2x300x1, u 3⟩] concatenates_S2x300x1_S2x300x1_S2x300x1_S2x300x1_S2x300x4_d2),
    unary main_arg3 main_v435 ((extractStridedSlice S2x300x1 ![0, 0, 0] · slices_S2x300x4_S2x300x1_0_0_0) : (⟨S2x300x4, .f32⟩ : BufTy).Contents (Elt F) → (⟨S2x300x1, .f32⟩ : BufTy).Contents (Elt F)),
    reshape main_v435 main_v436 rfl shapeCasts_S2x300x1_S2x300,
    unary main_arg3 main_v437 ((extractStridedSlice S2x300x1 ![0, 0, 1] · slices_S2x300x4_S2x300x1_0_0_1) : (⟨S2x300x4, .f32⟩ : BufTy).Contents (Elt F) → (⟨S2x300x1, .f32⟩ : BufTy).Contents (Elt F)),
    reshape main_v437 main_v438 rfl shapeCasts_S2x300x1_S2x300,
    unary main_arg3 main_v439 ((extractStridedSlice S2x300x1 ![0, 0, 2] · slices_S2x300x4_S2x300x1_0_0_2) : (⟨S2x300x4, .f32⟩ : BufTy).Contents (Elt F) → (⟨S2x300x1, .f32⟩ : BufTy).Contents (Elt F)),
    reshape main_v439 main_v440 rfl shapeCasts_S2x300x1_S2x300,
    unary main_arg3 main_v441 ((extractStridedSlice S2x300x1 ![0, 0, 3] · slices_S2x300x4_S2x300x1_0_0_3) : (⟨S2x300x4, .f32⟩ : BufTy).Contents (Elt F) → (⟨S2x300x1, .f32⟩ : BufTy).Contents (Elt F)),
    reshape main_v441 main_v442 rfl shapeCasts_S2x300x1_S2x300,
    nullary main_cst_133 (constant S_ .f32 0x3F000000#32),
    unary main_cst_133 main_v443 (broadcastInDim S2x300 ![] bcast_S_S2x300 : (⟨S_, .f32⟩ : BufTy).Contents (Elt F) → (⟨S2x300, .f32⟩ : BufTy).Contents (Elt F)),
    binary main_v443 main_v440 main_v444 (mulf : (⟨S2x300, .f32⟩ : BufTy).Contents (Elt F) → (⟨S2x300, .f32⟩ : BufTy).Contents (Elt F) → (⟨S2x300, .f32⟩ : BufTy).Contents (Elt F)),
    binary main_v436 main_v444 main_v445 (subf : (⟨S2x300, .f32⟩ : BufTy).Contents (Elt F) → (⟨S2x300, .f32⟩ : BufTy).Contents (Elt F) → (⟨S2x300, .f32⟩ : BufTy).Contents (Elt F)),
    nullary main_cst_134 (constant S_ .f32 0x3F000000#32),
    unary main_cst_134 main_v446 (broadcastInDim S2x300 ![] bcast_S_S2x300 : (⟨S_, .f32⟩ : BufTy).Contents (Elt F) → (⟨S2x300, .f32⟩ : BufTy).Contents (Elt F)),
    binary main_v446 main_v442 main_v447 (mulf : (⟨S2x300, .f32⟩ : BufTy).Contents (Elt F) → (⟨S2x300, .f32⟩ : BufTy).Contents (Elt F) → (⟨S2x300, .f32⟩ : BufTy).Contents (Elt F)),
    binary main_v438 main_v447 main_v448 (subf : (⟨S2x300, .f32⟩ : BufTy).Contents (Elt F) → (⟨S2x300, .f32⟩ : BufTy).Contents (Elt F) → (⟨S2x300, .f32⟩ : BufTy).Contents (Elt F)),
    nullary main_cst_135 (constant S_ .f32 0x3F000000#32),
    unary main_cst_135 main_v449 (broadcastInDim S2x300 ![] bcast_S_S2x300 : (⟨S_, .f32⟩ : BufTy).Contents (Elt F) → (⟨S2x300, .f32⟩ : BufTy).Contents (Elt F)),
    binary main_v449 main_v440 main_v450 (mulf : (⟨S2x300, .f32⟩ : BufTy).Contents (Elt F) → (⟨S2x300, .f32⟩ : BufTy).Contents (Elt F) → (⟨S2x300, .f32⟩ : BufTy).Contents (Elt F)),
    binary main_v436 main_v450 main_v451 (addf : (⟨S2x300, .f32⟩ : BufTy).Contents (Elt F) → (⟨S2x300, .f32⟩ : BufTy).Contents (Elt F) → (⟨S2x300, .f32⟩ : BufTy).Contents (Elt F)),
    nullary main_cst_136 (constant S_ .f32 0x3F000000#32),
    unary main_cst_136 main_v452 (broadcastInDim S2x300 ![] bcast_S_S2x300 : (⟨S_, .f32⟩ : BufTy).Contents (Elt F) → (⟨S2x300, .f32⟩ : BufTy).Contents (Elt F)),
    binary main_v452 main_v442 main_v453 (mulf : (⟨S2x300, .f32⟩ : BufTy).Contents (Elt F) → (⟨S2x300, .f32⟩ : BufTy).Contents (Elt F) → (⟨S2x300, .f32⟩ : BufTy).Contents (Elt F)),
    binary main_v438 main_v453 main_v454 (addf : (⟨S2x300, .f32⟩ : BufTy).Contents (Elt F) → (⟨S2x300, .f32⟩ : BufTy).Contents (Elt F) → (⟨S2x300, .f32⟩ : BufTy).Contents (Elt F)),
    unary main_v445 main_v455 (broadcastInDim S2x300x1 ![0, 1] bcast_S2x300_S2x300x1_0_1 : (⟨S2x300, .f32⟩ : BufTy).Contents (Elt F) → (⟨S2x300x1, .f32⟩ : BufTy).Contents (Elt F)),
    unary main_v448 main_v456 (broadcastInDim S2x300x1 ![0, 1] bcast_S2x300_S2x300x1_0_1 : (⟨S2x300, .f32⟩ : BufTy).Contents (Elt F) → (⟨S2x300x1, .f32⟩ : BufTy).Contents (Elt F)),
    unary main_v451 main_v457 (broadcastInDim S2x300x1 ![0, 1] bcast_S2x300_S2x300x1_0_1 : (⟨S2x300, .f32⟩ : BufTy).Contents (Elt F) → (⟨S2x300x1, .f32⟩ : BufTy).Contents (Elt F)),
    unary main_v454 main_v458 (broadcastInDim S2x300x1 ![0, 1] bcast_S2x300_S2x300x1_0_1 : (⟨S2x300, .f32⟩ : BufTy).Contents (Elt F) → (⟨S2x300x1, .f32⟩ : BufTy).Contents (Elt F)) ]
theorem ops_21_sub : (ops_21 : List (HloOp τ sig (Elt F))).Forall fun op => op.bufs ⊆ tcRefs τ sig :=
  ⟨nary_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., unary_bufs_sub .., unary_bufs_sub .., unary_bufs_sub .., unary_bufs_sub ..⟩
theorem ops_21_fresh : ∀ op ∈ (ops_21 : List (HloOp τ sig (Elt F))), op.fresh = ∅ := by
  intro _ h; (repeat (cases h with | head => rfl | tail _ h => ?_)); exact nomatch h

set_option maxHeartbeats 4000000 in
/-- Operations 705 to 751 of @main, in order. -/
abbrev ops_22 : List (HloOp τ sig (Elt F)) :=
  [ nary ![main_v455, main_v456, main_v457, main_v458] main_v459 (fun u => concatenate S2x300x4 2 [⟨S2x300x1, u 0⟩, ⟨S2x300x1, u 1⟩, ⟨S2x300x1, u 2⟩, ⟨S2x300x1, u 3⟩] concatenates_S2x300x1_S2x300x1_S2x300x1_S2x300x1_S2x300x4_d2),
    unary main_v434 main_v460 ((extractStridedSlice S2x300x1 ![0, 0, 2] · slices_S2x300x4_S2x300x1_0_0_2) : (⟨S2x300x4, .f32⟩ : BufTy).Contents (Elt F) → (⟨S2x300x1, .f32⟩ : BufTy).Contents (Elt F)),
    reshape main_v460 main_v461 rfl shapeCasts_S2x300x1_S2x300,
    unary main_v434 main_v462 ((extractStridedSlice S2x300x1 ![0, 0, 0] · slices_S2x300x4_S2x300x1_0_0_0) : (⟨S2x300x4, .f32⟩ : BufTy).Contents (Elt F) → (⟨S2x300x1, .f32⟩ : BufTy).Contents (Elt F)),
    reshape main_v462 main_v463 rfl shapeCasts_S2x300x1_S2x300,
    binary main_v461 main_v463 main_v464 (subf : (⟨S2x300, .f32⟩ : BufTy).Contents (Elt F) → (⟨S2x300, .f32⟩ : BufTy).Contents (Elt F) → (⟨S2x300, .f32⟩ : BufTy).Contents (Elt F)),
    unary main_v434 main_v465 ((extractStridedSlice S2x300x1 ![0, 0, 3] · slices_S2x300x4_S2x300x1_0_0_3) : (⟨S2x300x4, .f32⟩ : BufTy).Contents (Elt F) → (⟨S2x300x1, .f32⟩ : BufTy).Contents (Elt F)),
    reshape main_v465 main_v466 rfl shapeCasts_S2x300x1_S2x300,
    unary main_v434 main_v467 ((extractStridedSlice S2x300x1 ![0, 0, 1] · slices_S2x300x4_S2x300x1_0_0_1) : (⟨S2x300x4, .f32⟩ : BufTy).Contents (Elt F) → (⟨S2x300x1, .f32⟩ : BufTy).Contents (Elt F)),
    reshape main_v467 main_v468 rfl shapeCasts_S2x300x1_S2x300,
    binary main_v466 main_v468 main_v469 (subf : (⟨S2x300, .f32⟩ : BufTy).Contents (Elt F) → (⟨S2x300, .f32⟩ : BufTy).Contents (Elt F) → (⟨S2x300, .f32⟩ : BufTy).Contents (Elt F)),
    binary main_v464 main_v469 main_v470 (mulf : (⟨S2x300, .f32⟩ : BufTy).Contents (Elt F) → (⟨S2x300, .f32⟩ : BufTy).Contents (Elt F) → (⟨S2x300, .f32⟩ : BufTy).Contents (Elt F)),
    unary main_v459 main_v471 ((extractStridedSlice S2x300x1 ![0, 0, 2] · slices_S2x300x4_S2x300x1_0_0_2) : (⟨S2x300x4, .f32⟩ : BufTy).Contents (Elt F) → (⟨S2x300x1, .f32⟩ : BufTy).Contents (Elt F)),
    reshape main_v471 main_v472 rfl shapeCasts_S2x300x1_S2x300,
    unary main_v459 main_v473 ((extractStridedSlice S2x300x1 ![0, 0, 0] · slices_S2x300x4_S2x300x1_0_0_0) : (⟨S2x300x4, .f32⟩ : BufTy).Contents (Elt F) → (⟨S2x300x1, .f32⟩ : BufTy).Contents (Elt F)),
    reshape main_v473 main_v474 rfl shapeCasts_S2x300x1_S2x300,
    binary main_v472 main_v474 main_v475 (subf : (⟨S2x300, .f32⟩ : BufTy).Contents (Elt F) → (⟨S2x300, .f32⟩ : BufTy).Contents (Elt F) → (⟨S2x300, .f32⟩ : BufTy).Contents (Elt F)),
    unary main_v459 main_v476 ((extractStridedSlice S2x300x1 ![0, 0, 3] · slices_S2x300x4_S2x300x1_0_0_3) : (⟨S2x300x4, .f32⟩ : BufTy).Contents (Elt F) → (⟨S2x300x1, .f32⟩ : BufTy).Contents (Elt F)),
    reshape main_v476 main_v477 rfl shapeCasts_S2x300x1_S2x300,
    unary main_v459 main_v478 ((extractStridedSlice S2x300x1 ![0, 0, 1] · slices_S2x300x4_S2x300x1_0_0_1) : (⟨S2x300x4, .f32⟩ : BufTy).Contents (Elt F) → (⟨S2x300x1, .f32⟩ : BufTy).Contents (Elt F)),
    reshape main_v478 main_v479 rfl shapeCasts_S2x300x1_S2x300,
    binary main_v477 main_v479 main_v480 (subf : (⟨S2x300, .f32⟩ : BufTy).Contents (Elt F) → (⟨S2x300, .f32⟩ : BufTy).Contents (Elt F) → (⟨S2x300, .f32⟩ : BufTy).Contents (Elt F)),
    binary main_v475 main_v480 main_v481 (mulf : (⟨S2x300, .f32⟩ : BufTy).Contents (Elt F) → (⟨S2x300, .f32⟩ : BufTy).Contents (Elt F) → (⟨S2x300, .f32⟩ : BufTy).Contents (Elt F)),
    unary main_v434 main_v482 ((extractStridedSlice S2x300x2 ![0, 0, 0] · slices_S2x300x4_S2x300x2_0_0_0) : (⟨S2x300x4, .f32⟩ : BufTy).Contents (Elt F) → (⟨S2x300x2, .f32⟩ : BufTy).Contents (Elt F)),
    unary main_v482 main_v483 (broadcastInDim S2x300x1x2 ![0, 1, 3] bcast_S2x300x2_S2x300x1x2_0_1_3 : (⟨S2x300x2, .f32⟩ : BufTy).Contents (Elt F) → (⟨S2x300x1x2, .f32⟩ : BufTy).Contents (Elt F)),
    unary main_v459 main_v484 ((extractStridedSlice S2x300x2 ![0, 0, 0] · slices_S2x300x4_S2x300x2_0_0_0) : (⟨S2x300x4, .f32⟩ : BufTy).Contents (Elt F) → (⟨S2x300x2, .f32⟩ : BufTy).Contents (Elt F)),
    unary main_v484 main_v485 (broadcastInDim S2x1x300x2 ![0, 2, 3] bcast_S2x300x2_S2x1x300x2_0_2_3 : (⟨S2x300x2, .f32⟩ : BufTy).Contents (Elt F) → (⟨S2x1x300x2, .f32⟩ : BufTy).Contents (Elt F)),
    unary main_v483 main_v486 (broadcastInDim S2x300x300x2 ![0, 1, 2, 3] bcast_S2x300x1x2_S2x300x300x2_0_1_2_3 : (⟨S2x300x1x2, .f32⟩ : BufTy).Contents (Elt F) → (⟨S2x300x300x2, .f32⟩ : BufTy).Contents (Elt F)),
    unary main_v485 main_v487 (broadcastInDim S2x300x300x2 ![0, 1, 2, 3] bcast_S2x1x300x2_S2x300x300x2_0_1_2_3 : (⟨S2x1x300x2, .f32⟩ : BufTy).Contents (Elt F) → (⟨S2x300x300x2, .f32⟩ : BufTy).Contents (Elt F)),
    binary main_v486 main_v487 main_v488 (maximumf : (⟨S2x300x300x2, .f32⟩ : BufTy).Contents (Elt F) → (⟨S2x300x300x2, .f32⟩ : BufTy).Contents (Elt F) → (⟨S2x300x300x2, .f32⟩ : BufTy).Contents (Elt F)),
    unary main_v434 main_v489 ((extractStridedSlice S2x300x2 ![0, 0, 2] · slices_S2x300x4_S2x300x2_0_0_2) : (⟨S2x300x4, .f32⟩ : BufTy).Contents (Elt F) → (⟨S2x300x2, .f32⟩ : BufTy).Contents (Elt F)),
    unary main_v489 main_v490 (broadcastInDim S2x300x1x2 ![0, 1, 3] bcast_S2x300x2_S2x300x1x2_0_1_3 : (⟨S2x300x2, .f32⟩ : BufTy).Contents (Elt F) → (⟨S2x300x1x2, .f32⟩ : BufTy).Contents (Elt F)),
    unary main_v459 main_v491 ((extractStridedSlice S2x300x2 ![0, 0, 2] · slices_S2x300x4_S2x300x2_0_0_2) : (⟨S2x300x4, .f32⟩ : BufTy).Contents (Elt F) → (⟨S2x300x2, .f32⟩ : BufTy).Contents (Elt F)),
    unary main_v491 main_v492 (broadcastInDim S2x1x300x2 ![0, 2, 3] bcast_S2x300x2_S2x1x300x2_0_2_3 : (⟨S2x300x2, .f32⟩ : BufTy).Contents (Elt F) → (⟨S2x1x300x2, .f32⟩ : BufTy).Contents (Elt F)),
    unary main_v490 main_v493 (broadcastInDim S2x300x300x2 ![0, 1, 2, 3] bcast_S2x300x1x2_S2x300x300x2_0_1_2_3 : (⟨S2x300x1x2, .f32⟩ : BufTy).Contents (Elt F) → (⟨S2x300x300x2, .f32⟩ : BufTy).Contents (Elt F)),
    unary main_v492 main_v494 (broadcastInDim S2x300x300x2 ![0, 1, 2, 3] bcast_S2x1x300x2_S2x300x300x2_0_1_2_3 : (⟨S2x1x300x2, .f32⟩ : BufTy).Contents (Elt F) → (⟨S2x300x300x2, .f32⟩ : BufTy).Contents (Elt F)),
    binary main_v493 main_v494 main_v495 (minimumf : (⟨S2x300x300x2, .f32⟩ : BufTy).Contents (Elt F) → (⟨S2x300x300x2, .f32⟩ : BufTy).Contents (Elt F) → (⟨S2x300x300x2, .f32⟩ : BufTy).Contents (Elt F)),
    binary main_v495 main_v488 main_v496 (subf : (⟨S2x300x300x2, .f32⟩ : BufTy).Contents (Elt F) → (⟨S2x300x300x2, .f32⟩ : BufTy).Contents (Elt F) → (⟨S2x300x300x2, .f32⟩ : BufTy).Contents (Elt F)),
    nullary main_cst_137 (constant S_ .f32 0x00000000#32),
    TRef.unary (TRef.of (T := ⟨S_, .f32⟩) main_cst_137) (TRef.of (T := ⟨S_, .f32⟩) main_call18_v0) id,
    TRef.unary (TRef.of (T := ⟨S_, .f32⟩) main_call18_v0) (TRef.of (T := ⟨S2x300x300x2, .f32⟩) main_call18_v1) (broadcastInDim S2x300x300x2 ![] bcast_S_S2x300x300x2),
    TRef.binary (TRef.of (T := ⟨S2x300x300x2, .f32⟩) main_call18_v1) (TRef.of (T := ⟨S2x300x300x2, .f32⟩) main_v496) (TRef.of (T := ⟨S2x300x300x2, .f32⟩) main_v497) maximumf,
    unary main_v497 main_v498 ((extractStridedSlice S2x300x300x1 ![0, 0, 0, 0] · slices_S2x300x300x2_S2x300x300x1_0_0_0_0) : (⟨S2x300x300x2, .f32⟩ : BufTy).Contents (Elt F) → (⟨S2x300x300x1, .f32⟩ : BufTy).Contents (Elt F)),
    reshape main_v498 main_v499 rfl shapeCasts_S2x300x300x1_S2x300x300,
    unary main_v497 main_v500 ((extractStridedSlice S2x300x300x1 ![0, 0, 0, 1] · slices_S2x300x300x2_S2x300x300x1_0_0_0_1) : (⟨S2x300x300x2, .f32⟩ : BufTy).Contents (Elt F) → (⟨S2x300x300x1, .f32⟩ : BufTy).Contents (Elt F)),
    reshape main_v500 main_v501 rfl shapeCasts_S2x300x300x1_S2x300x300,
    binary main_v499 main_v501 main_v502 (mulf : (⟨S2x300x300, .f32⟩ : BufTy).Contents (Elt F) → (⟨S2x300x300, .f32⟩ : BufTy).Contents (Elt F) → (⟨S2x300x300, .f32⟩ : BufTy).Contents (Elt F)) ]
theorem ops_22_sub : (ops_22 : List (HloOp τ sig (Elt F))).Forall fun op => op.bufs ⊆ tcRefs τ sig :=
  ⟨nary_bufs_sub .., unary_bufs_sub .., reshape_bufs_sub .., unary_bufs_sub .., reshape_bufs_sub .., binary_bufs_sub .., unary_bufs_sub .., reshape_bufs_sub .., unary_bufs_sub .., reshape_bufs_sub .., binary_bufs_sub .., binary_bufs_sub .., unary_bufs_sub .., reshape_bufs_sub .., unary_bufs_sub .., reshape_bufs_sub .., binary_bufs_sub .., unary_bufs_sub .., reshape_bufs_sub .., unary_bufs_sub .., reshape_bufs_sub .., binary_bufs_sub .., binary_bufs_sub .., unary_bufs_sub .., unary_bufs_sub .., unary_bufs_sub .., unary_bufs_sub .., unary_bufs_sub .., unary_bufs_sub .., binary_bufs_sub .., unary_bufs_sub .., unary_bufs_sub .., unary_bufs_sub .., unary_bufs_sub .., unary_bufs_sub .., unary_bufs_sub .., binary_bufs_sub .., binary_bufs_sub .., nullary_bufs_sub .., unary_bufs_sub .., unary_bufs_sub .., binary_bufs_sub .., unary_bufs_sub .., reshape_bufs_sub .., unary_bufs_sub .., reshape_bufs_sub .., binary_bufs_sub ..⟩
theorem ops_22_fresh : ∀ op ∈ (ops_22 : List (HloOp τ sig (Elt F))), op.fresh = ∅ := by
  intro _ h; (repeat (cases h with | head => rfl | tail _ h => ?_)); exact nomatch h

set_option maxHeartbeats 4000000 in
/-- Operations 752 to 797 of @main, in order. -/
abbrev ops_23 : List (HloOp τ sig (Elt F)) :=
  [ unary main_v470 main_v503 (broadcastInDim S2x300x1 ![0, 1] bcast_S2x300_S2x300x1_0_1 : (⟨S2x300, .f32⟩ : BufTy).Contents (Elt F) → (⟨S2x300x1, .f32⟩ : BufTy).Contents (Elt F)),
    unary main_v481 main_v504 (broadcastInDim S2x1x300 ![0, 2] bcast_S2x300_S2x1x300_0_2 : (⟨S2x300, .f32⟩ : BufTy).Contents (Elt F) → (⟨S2x1x300, .f32⟩ : BufTy).Contents (Elt F)),
    unary main_v503 main_v505 (broadcastInDim S2x300x300 ![0, 1, 2] bcast_S2x300x1_S2x300x300_0_1_2 : (⟨S2x300x1, .f32⟩ : BufTy).Contents (Elt F) → (⟨S2x300x300, .f32⟩ : BufTy).Contents (Elt F)),
    unary main_v504 main_v506 (broadcastInDim S2x300x300 ![0, 1, 2] bcast_S2x1x300_S2x300x300_0_1_2 : (⟨S2x1x300, .f32⟩ : BufTy).Contents (Elt F) → (⟨S2x300x300, .f32⟩ : BufTy).Contents (Elt F)),
    binary main_v505 main_v506 main_v507 (addf : (⟨S2x300x300, .f32⟩ : BufTy).Contents (Elt F) → (⟨S2x300x300, .f32⟩ : BufTy).Contents (Elt F) → (⟨S2x300x300, .f32⟩ : BufTy).Contents (Elt F)),
    binary main_v507 main_v502 main_v508 (subf : (⟨S2x300x300, .f32⟩ : BufTy).Contents (Elt F) → (⟨S2x300x300, .f32⟩ : BufTy).Contents (Elt F) → (⟨S2x300x300, .f32⟩ : BufTy).Contents (Elt F)),
    binary main_v502 main_v508 main_v509 (Host.divf : (⟨S2x300x300, .f32⟩ : BufTy).Contents (Elt F) → (⟨S2x300x300, .f32⟩ : BufTy).Contents (Elt F) → (⟨S2x300x300, .f32⟩ : BufTy).Contents (Elt F)),
    unary main_v434 main_v510 ((extractStridedSlice S2x300x2 ![0, 0, 0] · slices_S2x300x4_S2x300x2_0_0_0) : (⟨S2x300x4, .f32⟩ : BufTy).Contents (Elt F) → (⟨S2x300x2, .f32⟩ : BufTy).Contents (Elt F)),
    unary main_v510 main_v511 (broadcastInDim S2x300x1x2 ![0, 1, 3] bcast_S2x300x2_S2x300x1x2_0_1_3 : (⟨S2x300x2, .f32⟩ : BufTy).Contents (Elt F) → (⟨S2x300x1x2, .f32⟩ : BufTy).Contents (Elt F)),
    unary main_v459 main_v512 ((extractStridedSlice S2x300x2 ![0, 0, 0] · slices_S2x300x4_S2x300x2_0_0_0) : (⟨S2x300x4, .f32⟩ : BufTy).Contents (Elt F) → (⟨S2x300x2, .f32⟩ : BufTy).Contents (Elt F)),
    unary main_v512 main_v513 (broadcastInDim S2x1x300x2 ![0, 2, 3] bcast_S2x300x2_S2x1x300x2_0_2_3 : (⟨S2x300x2, .f32⟩ : BufTy).Contents (Elt F) → (⟨S2x1x300x2, .f32⟩ : BufTy).Contents (Elt F)),
    unary main_v511 main_v514 (broadcastInDim S2x300x300x2 ![0, 1, 2, 3] bcast_S2x300x1x2_S2x300x300x2_0_1_2_3 : (⟨S2x300x1x2, .f32⟩ : BufTy).Contents (Elt F) → (⟨S2x300x300x2, .f32⟩ : BufTy).Contents (Elt F)),
    unary main_v513 main_v515 (broadcastInDim S2x300x300x2 ![0, 1, 2, 3] bcast_S2x1x300x2_S2x300x300x2_0_1_2_3 : (⟨S2x1x300x2, .f32⟩ : BufTy).Contents (Elt F) → (⟨S2x300x300x2, .f32⟩ : BufTy).Contents (Elt F)),
    binary main_v514 main_v515 main_v516 (minimumf : (⟨S2x300x300x2, .f32⟩ : BufTy).Contents (Elt F) → (⟨S2x300x300x2, .f32⟩ : BufTy).Contents (Elt F) → (⟨S2x300x300x2, .f32⟩ : BufTy).Contents (Elt F)),
    unary main_v434 main_v517 ((extractStridedSlice S2x300x2 ![0, 0, 2] · slices_S2x300x4_S2x300x2_0_0_2) : (⟨S2x300x4, .f32⟩ : BufTy).Contents (Elt F) → (⟨S2x300x2, .f32⟩ : BufTy).Contents (Elt F)),
    unary main_v517 main_v518 (broadcastInDim S2x300x1x2 ![0, 1, 3] bcast_S2x300x2_S2x300x1x2_0_1_3 : (⟨S2x300x2, .f32⟩ : BufTy).Contents (Elt F) → (⟨S2x300x1x2, .f32⟩ : BufTy).Contents (Elt F)),
    unary main_v459 main_v519 ((extractStridedSlice S2x300x2 ![0, 0, 2] · slices_S2x300x4_S2x300x2_0_0_2) : (⟨S2x300x4, .f32⟩ : BufTy).Contents (Elt F) → (⟨S2x300x2, .f32⟩ : BufTy).Contents (Elt F)),
    unary main_v519 main_v520 (broadcastInDim S2x1x300x2 ![0, 2, 3] bcast_S2x300x2_S2x1x300x2_0_2_3 : (⟨S2x300x2, .f32⟩ : BufTy).Contents (Elt F) → (⟨S2x1x300x2, .f32⟩ : BufTy).Contents (Elt F)),
    unary main_v518 main_v521 (broadcastInDim S2x300x300x2 ![0, 1, 2, 3] bcast_S2x300x1x2_S2x300x300x2_0_1_2_3 : (⟨S2x300x1x2, .f32⟩ : BufTy).Contents (Elt F) → (⟨S2x300x300x2, .f32⟩ : BufTy).Contents (Elt F)),
    unary main_v520 main_v522 (broadcastInDim S2x300x300x2 ![0, 1, 2, 3] bcast_S2x1x300x2_S2x300x300x2_0_1_2_3 : (⟨S2x1x300x2, .f32⟩ : BufTy).Contents (Elt F) → (⟨S2x300x300x2, .f32⟩ : BufTy).Contents (Elt F)),
    binary main_v521 main_v522 main_v523 (maximumf : (⟨S2x300x300x2, .f32⟩ : BufTy).Contents (Elt F) → (⟨S2x300x300x2, .f32⟩ : BufTy).Contents (Elt F) → (⟨S2x300x300x2, .f32⟩ : BufTy).Contents (Elt F)),
    binary main_v523 main_v516 main_v524 (subf : (⟨S2x300x300x2, .f32⟩ : BufTy).Contents (Elt F) → (⟨S2x300x300x2, .f32⟩ : BufTy).Contents (Elt F) → (⟨S2x300x300x2, .f32⟩ : BufTy).Contents (Elt F)),
    nullary main_cst_138 (constant S_ .f32 0x00000000#32),
    TRef.unary (TRef.of (T := ⟨S_, .f32⟩) main_cst_138) (TRef.of (T := ⟨S_, .f32⟩) main_call19_v0) id,
    TRef.unary (TRef.of (T := ⟨S_, .f32⟩) main_call19_v0) (TRef.of (T := ⟨S2x300x300x2, .f32⟩) main_call19_v1) (broadcastInDim S2x300x300x2 ![] bcast_S_S2x300x300x2),
    TRef.binary (TRef.of (T := ⟨S2x300x300x2, .f32⟩) main_call19_v1) (TRef.of (T := ⟨S2x300x300x2, .f32⟩) main_v524) (TRef.of (T := ⟨S2x300x300x2, .f32⟩) main_v525) maximumf,
    unary main_v525 main_v526 ((extractStridedSlice S2x300x300x1 ![0, 0, 0, 0] · slices_S2x300x300x2_S2x300x300x1_0_0_0_0) : (⟨S2x300x300x2, .f32⟩ : BufTy).Contents (Elt F) → (⟨S2x300x300x1, .f32⟩ : BufTy).Contents (Elt F)),
    reshape main_v526 main_v527 rfl shapeCasts_S2x300x300x1_S2x300x300,
    unary main_v525 main_v528 ((extractStridedSlice S2x300x300x1 ![0, 0, 0, 1] · slices_S2x300x300x2_S2x300x300x1_0_0_0_1) : (⟨S2x300x300x2, .f32⟩ : BufTy).Contents (Elt F) → (⟨S2x300x300x1, .f32⟩ : BufTy).Contents (Elt F)),
    reshape main_v528 main_v529 rfl shapeCasts_S2x300x300x1_S2x300x300,
    binary main_v527 main_v529 main_v530 (mulf : (⟨S2x300x300, .f32⟩ : BufTy).Contents (Elt F) → (⟨S2x300x300, .f32⟩ : BufTy).Contents (Elt F) → (⟨S2x300x300, .f32⟩ : BufTy).Contents (Elt F)),
    binary main_v530 main_v508 main_v531 (subf : (⟨S2x300x300, .f32⟩ : BufTy).Contents (Elt F) → (⟨S2x300x300, .f32⟩ : BufTy).Contents (Elt F) → (⟨S2x300x300, .f32⟩ : BufTy).Contents (Elt F)),
    binary main_v531 main_v530 main_v532 (Host.divf : (⟨S2x300x300, .f32⟩ : BufTy).Contents (Elt F) → (⟨S2x300x300, .f32⟩ : BufTy).Contents (Elt F) → (⟨S2x300x300, .f32⟩ : BufTy).Contents (Elt F)),
    binary main_v509 main_v532 main_v533 (subf : (⟨S2x300x300, .f32⟩ : BufTy).Contents (Elt F) → (⟨S2x300x300, .f32⟩ : BufTy).Contents (Elt F) → (⟨S2x300x300, .f32⟩ : BufTy).Contents (Elt F)),
    unary main_v533 main_v534 (Host.negf : (⟨S2x300x300, .f32⟩ : BufTy).Contents (Elt F) → (⟨S2x300x300, .f32⟩ : BufTy).Contents (Elt F)),
    nullary main_cst_139 (constant S_ .f32 0x40A00000#32),
    unary main_cst_139 main_v535 (broadcastInDim S2x300x300 ![] bcast_S_S2x300x300 : (⟨S_, .f32⟩ : BufTy).Contents (Elt F) → (⟨S2x300x300, .f32⟩ : BufTy).Contents (Elt F)),
    binary main_v535 main_v379 main_v536 (mulf : (⟨S2x300x300, .f32⟩ : BufTy).Contents (Elt F) → (⟨S2x300x300, .f32⟩ : BufTy).Contents (Elt F) → (⟨S2x300x300, .f32⟩ : BufTy).Contents (Elt F)),
    nullary main_cst_140 (constant S_ .f32 0x40A00000#32),
    unary main_cst_140 main_v537 (broadcastInDim S2x300x300 ![] bcast_S_S2x300x300 : (⟨S_, .f32⟩ : BufTy).Contents (Elt F) → (⟨S2x300x300, .f32⟩ : BufTy).Contents (Elt F)),
    binary main_v537 main_v402 main_v538 (mulf : (⟨S2x300x300, .f32⟩ : BufTy).Contents (Elt F) → (⟨S2x300x300, .f32⟩ : BufTy).Contents (Elt F) → (⟨S2x300x300, .f32⟩ : BufTy).Contents (Elt F)),
    binary main_v536 main_v538 main_v539 (addf : (⟨S2x300x300, .f32⟩ : BufTy).Contents (Elt F) → (⟨S2x300x300, .f32⟩ : BufTy).Contents (Elt F) → (⟨S2x300x300, .f32⟩ : BufTy).Contents (Elt F)),
    nullary main_cst_141 (constant S_ .f32 0x40A00000#32),
    unary main_cst_141 main_v540 (broadcastInDim S2x300x300 ![] bcast_S_S2x300x300 : (⟨S_, .f32⟩ : BufTy).Contents (Elt F) → (⟨S2x300x300, .f32⟩ : BufTy).Contents (Elt F)),
    binary main_v540 main_v409 main_v541 (mulf : (⟨S2x300x300, .f32⟩ : BufTy).Contents (Elt F) → (⟨S2x300x300, .f32⟩ : BufTy).Contents (Elt F) → (⟨S2x300x300, .f32⟩ : BufTy).Contents (Elt F)),
    binary main_v539 main_v541 main_v542 (addf : (⟨S2x300x300, .f32⟩ : BufTy).Contents (Elt F) → (⟨S2x300x300, .f32⟩ : BufTy).Contents (Elt F) → (⟨S2x300x300, .f32⟩ : BufTy).Contents (Elt F)) ]
theorem ops_23_sub : (ops_23 : List (HloOp τ sig (Elt F))).Forall fun op => op.bufs ⊆ tcRefs τ sig :=
  ⟨unary_bufs_sub .., unary_bufs_sub .., unary_bufs_sub .., unary_bufs_sub .., binary_bufs_sub .., binary_bufs_sub .., binary_bufs_sub .., unary_bufs_sub .., unary_bufs_sub .., unary_bufs_sub .., unary_bufs_sub .., unary_bufs_sub .., unary_bufs_sub .., binary_bufs_sub .., unary_bufs_sub .., unary_bufs_sub .., unary_bufs_sub .., unary_bufs_sub .., unary_bufs_sub .., unary_bufs_sub .., binary_bufs_sub .., binary_bufs_sub .., nullary_bufs_sub .., unary_bufs_sub .., unary_bufs_sub .., binary_bufs_sub .., unary_bufs_sub .., reshape_bufs_sub .., unary_bufs_sub .., reshape_bufs_sub .., binary_bufs_sub .., binary_bufs_sub .., binary_bufs_sub .., binary_bufs_sub .., unary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub ..⟩
theorem ops_23_fresh : ∀ op ∈ (ops_23 : List (HloOp τ sig (Elt F))), op.fresh = ∅ := by
  intro _ h; (repeat (cases h with | head => rfl | tail _ h => ?_)); exact nomatch h

set_option maxHeartbeats 4000000 in
/-- Operations 798 to 801 of @main, in order. -/
abbrev ops_24 : List (HloOp τ sig (Elt F)) :=
  [ nullary main_cst_142 (constant S_ .f32 0x40000000#32),
    unary main_cst_142 main_v543 (broadcastInDim S2x300x300 ![] bcast_S_S2x300x300 : (⟨S_, .f32⟩ : BufTy).Contents (Elt F) → (⟨S2x300x300, .f32⟩ : BufTy).Contents (Elt F)),
    binary main_v543 main_v534 main_v544 (mulf : (⟨S2x300x300, .f32⟩ : BufTy).Contents (Elt F) → (⟨S2x300x300, .f32⟩ : BufTy).Contents (Elt F) → (⟨S2x300x300, .f32⟩ : BufTy).Contents (Elt F)),
    binary main_v542 main_v544 main_v545 (addf : (⟨S2x300x300, .f32⟩ : BufTy).Contents (Elt F) → (⟨S2x300x300, .f32⟩ : BufTy).Contents (Elt F) → (⟨S2x300x300, .f32⟩ : BufTy).Contents (Elt F)) ]
theorem ops_24_sub : (ops_24 : List (HloOp τ sig (Elt F))).Forall fun op => op.bufs ⊆ tcRefs τ sig :=
  ⟨nullary_bufs_sub .., unary_bufs_sub .., binary_bufs_sub .., binary_bufs_sub ..⟩
theorem ops_24_fresh : ∀ op ∈ (ops_24 : List (HloOp τ sig (Elt F))), op.fresh = ∅ := by
  intro _ h; (repeat (cases h with | head => rfl | tail _ h => ?_)); exact nomatch h

/-- @main's 801 operations, in order: the 25 stretches one after the other. -/
abbrev ops : List (HloOp τ sig (Elt F)) := ops_0 ++ (ops_1 ++ (ops_2 ++ (ops_3 ++ (ops_4 ++ (ops_5 ++ (ops_6 ++ (ops_7 ++ (ops_8 ++ (ops_9 ++ (ops_10 ++ (ops_11 ++ (ops_12 ++ (ops_13 ++ (ops_14 ++ (ops_15 ++ (ops_16 ++ (ops_17 ++ (ops_18 ++ (ops_19 ++ (ops_20 ++ (ops_21 ++ (ops_22 ++ (ops_23 ++ (ops_24))))))))))))))))))))))))

set_option maxRecDepth 200000 in
set_option maxHeartbeats 40000000 in
/-- @main is its operations run in order. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

/-- Running two lines one after the other is running their concatenation. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- Every operation touches TensorCore references only. -/
theorem ops_sub : (ops : List (HloOp τ sig (Elt F))).Forall fun op => op.bufs ⊆ tcRefs τ sig := by
  refine List.forall_iff_forall_mem.mpr fun op h => ?_
  simp only [ops, List.mem_append] at h
  rcases h with h | h | h | h | h | h | h | h | h | h | h | h | h | h | h | h | h | h | h | h | h | h | h | h | h
  · exact List.forall_iff_forall_mem.mp ops_0_sub op h
  · exact List.forall_iff_forall_mem.mp ops_1_sub op h
  · exact List.forall_iff_forall_mem.mp ops_2_sub op h
  · exact List.forall_iff_forall_mem.mp ops_3_sub op h
  · exact List.forall_iff_forall_mem.mp ops_4_sub op h
  · exact List.forall_iff_forall_mem.mp ops_5_sub op h
  · exact List.forall_iff_forall_mem.mp ops_6_sub op h
  · exact List.forall_iff_forall_mem.mp ops_7_sub op h
  · exact List.forall_iff_forall_mem.mp ops_8_sub op h
  · exact List.forall_iff_forall_mem.mp ops_9_sub op h
  · exact List.forall_iff_forall_mem.mp ops_10_sub op h
  · exact List.forall_iff_forall_mem.mp ops_11_sub op h
  · exact List.forall_iff_forall_mem.mp ops_12_sub op h
  · exact List.forall_iff_forall_mem.mp ops_13_sub op h
  · exact List.forall_iff_forall_mem.mp ops_14_sub op h
  · exact List.forall_iff_forall_mem.mp ops_15_sub op h
  · exact List.forall_iff_forall_mem.mp ops_16_sub op h
  · exact List.forall_iff_forall_mem.mp ops_17_sub op h
  · exact List.forall_iff_forall_mem.mp ops_18_sub op h
  · exact List.forall_iff_forall_mem.mp ops_19_sub op h
  · exact List.forall_iff_forall_mem.mp ops_20_sub op h
  · exact List.forall_iff_forall_mem.mp ops_21_sub op h
  · exact List.forall_iff_forall_mem.mp ops_22_sub op h
  · exact List.forall_iff_forall_mem.mp ops_23_sub op h
  · exact List.forall_iff_forall_mem.mp ops_24_sub op h

/-- No operation allocates. -/
theorem ops_fresh : ∀ op ∈ (ops : List (HloOp τ sig (Elt F))), op.fresh = ∅ := by
  intro op h
  simp only [ops, List.mem_append] at h
  rcases h with h | h | h | h | h | h | h | h | h | h | h | h | h | h | h | h | h | h | h | h | h | h | h | h | h
  · exact ops_0_fresh op h
  · exact ops_1_fresh op h
  · exact ops_2_fresh op h
  · exact ops_3_fresh op h
  · exact ops_4_fresh op h
  · exact ops_5_fresh op h
  · exact ops_6_fresh op h
  · exact ops_7_fresh op h
  · exact ops_8_fresh op h
  · exact ops_9_fresh op h
  · exact ops_10_fresh op h
  · exact ops_11_fresh op h
  · exact ops_12_fresh op h
  · exact ops_13_fresh op h
  · exact ops_14_fresh op h
  · exact ops_15_fresh op h
  · exact ops_16_fresh op h
  · exact ops_17_fresh op h
  · exact ops_18_fresh op h
  · exact ops_19_fresh op h
  · exact ops_20_fresh op h
  · exact ops_21_fresh op h
  · exact ops_22_fresh op h
  · exact ops_23_fresh op h
  · exact ops_24_fresh op h

end Cert.ReferenceIdeal.ValueH

end
-- ==== Proof.RefStep0.lean ====
/-
  Stretches 0 to 3 of the reference's operations, each run from arbitrary buffer contents: if the buffers a
  stretch reads hold the stages of the reading (the value each operation writes, as a function of the five
  argument arrays), then after the stretch the buffers read later hold theirs, and the argument arrays are
  as before. Each buffer's contents after the stretch is computed by folding the operations' results; a
  concatenation's operands are buffers of an earlier stretch and are replaced by their stages directly.
-/
import proofs.«176196_j77713138253901_2_alg».proof.Proof.RefOps
import proofs.«176196_j77713138253901_2_alg».proof.Proof.RefReadP

noncomputable section

namespace Cert.ReferenceIdeal.ValueH

open Cert.ReferenceIdeal Cert.ReferenceIdeal.Gen Idealize.ShloMosaic Idealize.ShloMosaic.TcCoe Idealize.SL.Sem Idealize.ShloMosaic.StableHlo

set_option maxRecDepth 16384 in
set_option maxHeartbeats 8000000 in
/-- Stretch 0: if the buffers it reads hold their stages (as functions of the argument arrays), so do the buffers
    read after it, and the argument arrays are kept. -/
theorem step_0 (V : Valuation τ sig (Elt Ideal))
    (a0 a1 : (⟨S2x300x256x256, .f32⟩ : BufTy).Contents (Elt Ideal)) (a2 a3 : (⟨S2x300x4, .f32⟩ : BufTy).Contents (Elt Ideal))
    (a4 : (⟨S2x12544x2, .f32⟩ : BufTy).Contents (Elt Ideal))
    (hA0 : V (Proc.devRef .tc main_arg0) = a0) (hA1 : V (Proc.devRef .tc main_arg1) = a1) (hA2 : V (Proc.devRef .tc main_arg2) = a2)
    (hA3 : V (Proc.devRef .tc main_arg3) = a3) (hA4 : V (Proc.devRef .tc main_arg4) = a4)
     :
    after (ops_0 (F := Ideal)) V (Proc.devRef .tc main_arg0) = a0
    ∧ after (ops_0 (F := Ideal)) V (Proc.devRef .tc main_arg1) = a1
    ∧ after (ops_0 (F := Ideal)) V (Proc.devRef .tc main_arg2) = a2
    ∧ after (ops_0 (F := Ideal)) V (Proc.devRef .tc main_arg3) = a3
    ∧ after (ops_0 (F := Ideal)) V (Proc.devRef .tc main_arg4) = a4
    ∧ after (ops_0 (F := Ideal)) V (Proc.devRef .tc main_v14) = ReadP.val_main_v14 (F := Ideal) a4
    ∧ after (ops_0 (F := Ideal)) V (Proc.devRef .tc main_v15) = ReadP.val_main_v15 (F := Ideal) a4
    ∧ after (ops_0 (F := Ideal)) V (Proc.devRef .tc main_v16) = ReadP.val_main_v16 (F := Ideal) a4
    ∧ after (ops_0 (F := Ideal)) V (Proc.devRef .tc main_v17) = ReadP.val_main_v17 (F := Ideal) a4 := by
  refine ⟨?_, ?_, ?_, ?_, ?_, ?_, ?_, ?_, ?_⟩
  · simp only [ops_0]; after_results_simp; exact hA0
  · simp only [ops_0]; after_results_simp; exact hA1
  · simp only [ops_0]; after_results_simp; exact hA2
  · simp only [ops_0]; after_results_simp; exact hA3
  · simp only [ops_0]; after_results_simp; exact hA4
  · simp only [ops_0]; after_results_simp; (try simp only [cast_eq, hA0, hA1, hA2, hA3, hA4]); rfl
  · simp only [ops_0]; after_results_simp; (try simp only [cast_eq, hA0, hA1, hA2, hA3, hA4]); rfl
  · simp only [ops_0]; after_results_simp; (try simp only [cast_eq, hA0, hA1, hA2, hA3, hA4]); rfl
  · simp only [ops_0]; after_results_simp; (try simp only [cast_eq, hA0, hA1, hA2, hA3, hA4]); rfl

set_option maxRecDepth 16384 in
set_option maxHeartbeats 8000000 in
/-- Stretch 1: if the buffers it reads hold their stages (as functions of the argument arrays), so do the buffers
    read after it, and the argument arrays are kept. -/
theorem step_1 (V : Valuation τ sig (Elt Ideal))
    (a0 a1 : (⟨S2x300x256x256, .f32⟩ : BufTy).Contents (Elt Ideal)) (a2 a3 : (⟨S2x300x4, .f32⟩ : BufTy).Contents (Elt Ideal))
    (a4 : (⟨S2x12544x2, .f32⟩ : BufTy).Contents (Elt Ideal))
    (hA0 : V (Proc.devRef .tc main_arg0) = a0) (hA1 : V (Proc.devRef .tc main_arg1) = a1) (hA2 : V (Proc.devRef .tc main_arg2) = a2)
    (hA3 : V (Proc.devRef .tc main_arg3) = a3) (hA4 : V (Proc.devRef .tc main_arg4) = a4)
    (h_v14 : V (Proc.devRef .tc main_v14) = ReadP.val_main_v14 (F := Ideal) a4)
    (h_v15 : V (Proc.devRef .tc main_v15) = ReadP.val_main_v15 (F := Ideal) a4)
    (h_v16 : V (Proc.devRef .tc main_v16) = ReadP.val_main_v16 (F := Ideal) a4)
    (h_v17 : V (Proc.devRef .tc main_v17) = ReadP.val_main_v17 (F := Ideal) a4) :
    after (ops_1 (F := Ideal)) V (Proc.devRef .tc main_arg0) = a0
    ∧ after (ops_1 (F := Ideal)) V (Proc.devRef .tc main_arg1) = a1
    ∧ after (ops_1 (F := Ideal)) V (Proc.devRef .tc main_arg2) = a2
    ∧ after (ops_1 (F := Ideal)) V (Proc.devRef .tc main_arg3) = a3
    ∧ after (ops_1 (F := Ideal)) V (Proc.devRef .tc main_arg4) = a4
    ∧ after (ops_1 (F := Ideal)) V (Proc.devRef .tc main_v14) = ReadP.val_main_v14 (F := Ideal) a4
    ∧ after (ops_1 (F := Ideal)) V (Proc.devRef .tc main_v15) = ReadP.val_main_v15 (F := Ideal) a4
    ∧ after (ops_1 (F := Ideal)) V (Proc.devRef .tc main_v16) = ReadP.val_main_v16 (F := Ideal) a4
    ∧ after (ops_1 (F := Ideal)) V (Proc.devRef .tc main_v17) = ReadP.val_main_v17 (F := Ideal) a4
    ∧ after (ops_1 (F := Ideal)) V (Proc.devRef .tc main_v29) = ReadP.val_main_v29 (F := Ideal) a4
    ∧ after (ops_1 (F := Ideal)) V (Proc.devRef .tc main_v42) = ReadP.val_main_v42 (F := Ideal) a4
    ∧ after (ops_1 (F := Ideal)) V (Proc.devRef .tc main_v43) = ReadP.val_main_v43 (F := Ideal) a4 := by
  refine ⟨?_, ?_, ?_, ?_, ?_, ?_, ?_, ?_, ?_, ?_, ?_, ?_⟩
  · simp only [ops_1]; after_results_simp; exact hA0
  · simp only [ops_1]; after_results_simp; exact hA1
  · simp only [ops_1]; after_results_simp; exact hA2
  · simp only [ops_1]; after_results_simp; exact hA3
  · simp only [ops_1]; after_results_simp; exact hA4
  · simp only [ops_1]; after_results_simp; exact h_v14
  · simp only [ops_1]; after_results_simp; exact h_v15
  · simp only [ops_1]; after_results_simp; exact h_v16
  · simp only [ops_1]; after_results_simp; exact h_v17
  · simp only [ops_1]; after_results_simp; (try simp only [cast_eq, hA0, hA1, hA2, hA3, hA4, h_v14, h_v15, h_v16, h_v17]); rfl
  · simp only [ops_1]; after_results_simp; (try simp only [cast_eq, hA0, hA1, hA2, hA3, hA4, h_v14, h_v15, h_v16, h_v17]); rfl
  · simp only [ops_1]; after_results_simp; (try simp only [cast_eq, hA0, hA1, hA2, hA3, hA4, h_v14, h_v15, h_v16, h_v17]); rfl

set_option maxRecDepth 16384 in
set_option maxHeartbeats 8000000 in
/-- Stretch 2: if the buffers it reads hold their stages (as functions of the argument arrays), so do the buffers
    read after it, and the argument arrays are kept. -/
theorem step_2 (V : Valuation τ sig (Elt Ideal))
    (a0 a1 : (⟨S2x300x256x256, .f32⟩ : BufTy).Contents (Elt Ideal)) (a2 a3 : (⟨S2x300x4, .f32⟩ : BufTy).Contents (Elt Ideal))
    (a4 : (⟨S2x12544x2, .f32⟩ : BufTy).Contents (Elt Ideal))
    (hA0 : V (Proc.devRef .tc main_arg0) = a0) (hA1 : V (Proc.devRef .tc main_arg1) = a1) (hA2 : V (Proc.devRef .tc main_arg2) = a2)
    (hA3 : V (Proc.devRef .tc main_arg3) = a3) (hA4 : V (Proc.devRef .tc main_arg4) = a4)
    (h_v14 : V (Proc.devRef .tc main_v14) = ReadP.val_main_v14 (F := Ideal) a4)
    (h_v15 : V (Proc.devRef .tc main_v15) = ReadP.val_main_v15 (F := Ideal) a4)
    (h_v16 : V (Proc.devRef .tc main_v16) = ReadP.val_main_v16 (F := Ideal) a4)
    (h_v17 : V (Proc.devRef .tc main_v17) = ReadP.val_main_v17 (F := Ideal) a4)
    (h_v29 : V (Proc.devRef .tc main_v29) = ReadP.val_main_v29 (F := Ideal) a4)
    (h_v42 : V (Proc.devRef .tc main_v42) = ReadP.val_main_v42 (F := Ideal) a4)
    (h_v43 : V (Proc.devRef .tc main_v43) = ReadP.val_main_v43 (F := Ideal) a4) :
    after (ops_2 (F := Ideal)) V (Proc.devRef .tc main_arg0) = a0
    ∧ after (ops_2 (F := Ideal)) V (Proc.devRef .tc main_arg1) = a1
    ∧ after (ops_2 (F := Ideal)) V (Proc.devRef .tc main_arg2) = a2
    ∧ after (ops_2 (F := Ideal)) V (Proc.devRef .tc main_arg3) = a3
    ∧ after (ops_2 (F := Ideal)) V (Proc.devRef .tc main_arg4) = a4
    ∧ after (ops_2 (F := Ideal)) V (Proc.devRef .tc main_v14) = ReadP.val_main_v14 (F := Ideal) a4
    ∧ after (ops_2 (F := Ideal)) V (Proc.devRef .tc main_v15) = ReadP.val_main_v15 (F := Ideal) a4
    ∧ after (ops_2 (F := Ideal)) V (Proc.devRef .tc main_v16) = ReadP.val_main_v16 (F := Ideal) a4
    ∧ after (ops_2 (F := Ideal)) V (Proc.devRef .tc main_v17) = ReadP.val_main_v17 (F := Ideal) a4
    ∧ after (ops_2 (F := Ideal)) V (Proc.devRef .tc main_v48) = ReadP.val_main_v48 (F := Ideal) a0 a4
    ∧ after (ops_2 (F := Ideal)) V (Proc.devRef .tc main_v50) = ReadP.val_main_v50 (F := Ideal) a4 := by
  refine ⟨?_, ?_, ?_, ?_, ?_, ?_, ?_, ?_, ?_, ?_, ?_⟩
  · simp only [ops_2]; after_results_simp; exact hA0
  · simp only [ops_2]; after_results_simp; exact hA1
  · simp only [ops_2]; after_results_simp; exact hA2
  · simp only [ops_2]; after_results_simp; exact hA3
  · simp only [ops_2]; after_results_simp; exact hA4
  · simp only [ops_2]; after_results_simp; exact h_v14
  · simp only [ops_2]; after_results_simp; exact h_v15
  · simp only [ops_2]; after_results_simp; exact h_v16
  · simp only [ops_2]; after_results_simp; exact h_v17
  · simp only [ops_2]; after_results_simp; (try simp only [cast_eq, hA0, hA1, hA2, hA3, hA4, h_v14, h_v15, h_v16, h_v17, h_v29, h_v42, h_v43]); (try rw [h_v42]); (try rw [h_v43]); rfl
  · simp only [ops_2]; after_results_simp; (try simp only [cast_eq, hA0, hA1, hA2, hA3, hA4, h_v14, h_v15, h_v16, h_v17, h_v29, h_v42, h_v43]); (try rw [h_v42]); (try rw [h_v43]); rfl

set_option maxRecDepth 16384 in
set_option maxHeartbeats 8000000 in
/-- Stretch 3: if the buffers it reads hold their stages (as functions of the argument arrays), so do the buffers
    read after it, and the argument arrays are kept. -/
theorem step_3 (V : Valuation τ sig (Elt Ideal))
    (a0 a1 : (⟨S2x300x256x256, .f32⟩ : BufTy).Contents (Elt Ideal)) (a2 a3 : (⟨S2x300x4, .f32⟩ : BufTy).Contents (Elt Ideal))
    (a4 : (⟨S2x12544x2, .f32⟩ : BufTy).Contents (Elt Ideal))
    (hA0 : V (Proc.devRef .tc main_arg0) = a0) (hA1 : V (Proc.devRef .tc main_arg1) = a1) (hA2 : V (Proc.devRef .tc main_arg2) = a2)
    (hA3 : V (Proc.devRef .tc main_arg3) = a3) (hA4 : V (Proc.devRef .tc main_arg4) = a4)
    (h_v14 : V (Proc.devRef .tc main_v14) = ReadP.val_main_v14 (F := Ideal) a4)
    (h_v15 : V (Proc.devRef .tc main_v15) = ReadP.val_main_v15 (F := Ideal) a4)
    (h_v16 : V (Proc.devRef .tc main_v16) = ReadP.val_main_v16 (F := Ideal) a4)
    (h_v17 : V (Proc.devRef .tc main_v17) = ReadP.val_main_v17 (F := Ideal) a4)
    (h_v48 : V (Proc.devRef .tc main_v48) = ReadP.val_main_v48 (F := Ideal) a0 a4)
    (h_v50 : V (Proc.devRef .tc main_v50) = ReadP.val_main_v50 (F := Ideal) a4) :
    after (ops_3 (F := Ideal)) V (Proc.devRef .tc main_arg0) = a0
    ∧ after (ops_3 (F := Ideal)) V (Proc.devRef .tc main_arg1) = a1
    ∧ after (ops_3 (F := Ideal)) V (Proc.devRef .tc main_arg2) = a2
    ∧ after (ops_3 (F := Ideal)) V (Proc.devRef .tc main_arg3) = a3
    ∧ after (ops_3 (F := Ideal)) V (Proc.devRef .tc main_arg4) = a4
    ∧ after (ops_3 (F := Ideal)) V (Proc.devRef .tc main_v14) = ReadP.val_main_v14 (F := Ideal) a4
    ∧ after (ops_3 (F := Ideal)) V (Proc.devRef .tc main_v15) = ReadP.val_main_v15 (F := Ideal) a4
    ∧ after (ops_3 (F := Ideal)) V (Proc.devRef .tc main_v16) = ReadP.val_main_v16 (F := Ideal) a4
    ∧ after (ops_3 (F := Ideal)) V (Proc.devRef .tc main_v17) = ReadP.val_main_v17 (F := Ideal) a4
    ∧ after (ops_3 (F := Ideal)) V (Proc.devRef .tc main_v48) = ReadP.val_main_v48 (F := Ideal) a0 a4
    ∧ after (ops_3 (F := Ideal)) V (Proc.devRef .tc main_v62) = ReadP.val_main_v62 (F := Ideal) a4
    ∧ after (ops_3 (F := Ideal)) V (Proc.devRef .tc main_v75) = ReadP.val_main_v75 (F := Ideal) a4
    ∧ after (ops_3 (F := Ideal)) V (Proc.devRef .tc main_v76) = ReadP.val_main_v76 (F := Ideal) a4 := by
  refine ⟨?_, ?_, ?_, ?_, ?_, ?_, ?_, ?_, ?_, ?_, ?_, ?_, ?_⟩
  · simp only [ops_3]; after_results_simp; exact hA0
  · simp only [ops_3]; after_results_simp; exact hA1
  · simp only [ops_3]; after_results_simp; exact hA2
  · simp only [ops_3]; after_results_simp; exact hA3
  · simp only [ops_3]; after_results_simp; exact hA4
  · simp only [ops_3]; after_results_simp; exact h_v14
  · simp only [ops_3]; after_results_simp; exact h_v15
  · simp only [ops_3]; after_results_simp; exact h_v16
  · simp only [ops_3]; after_results_simp; exact h_v17
  · simp only [ops_3]; after_results_simp; exact h_v48
  · simp only [ops_3]; after_results_simp; (try simp only [cast_eq, hA0, hA1, hA2, hA3, hA4, h_v14, h_v15, h_v16, h_v17, h_v48, h_v50]); rfl
  · simp only [ops_3]; after_results_simp; (try simp only [cast_eq, hA0, hA1, hA2, hA3, hA4, h_v14, h_v15, h_v16, h_v17, h_v48, h_v50]); rfl
  · simp only [ops_3]; after_results_simp; (try simp only [cast_eq, hA0, hA1, hA2, hA3, hA4, h_v14, h_v15, h_v16, h_v17, h_v48, h_v50]); rfl

end Cert.ReferenceIdeal.ValueH

end
-- ==== Proof.RefStep1.lean ====
/-
  Stretches 4 to 7 of the reference's operations, each run from arbitrary buffer contents: if the buffers a
  stretch reads hold the stages of the reading (the value each operation writes, as a function of the five
  argument arrays), then after the stretch the buffers read later hold theirs, and the argument arrays are
  as before. Each buffer's contents after the stretch is computed by folding the operations' results; a
  concatenation's operands are buffers of an earlier stretch and are replaced by their stages directly.
-/
import proofs.«176196_j77713138253901_2_alg».proof.Proof.RefOps
import proofs.«176196_j77713138253901_2_alg».proof.Proof.RefReadP

noncomputable section

namespace Cert.ReferenceIdeal.ValueH

open Cert.ReferenceIdeal Cert.ReferenceIdeal.Gen Idealize.ShloMosaic Idealize.ShloMosaic.TcCoe Idealize.SL.Sem Idealize.ShloMosaic.StableHlo

set_option maxRecDepth 16384 in
set_option maxHeartbeats 8000000 in
/-- Stretch 4: if the buffers it reads hold their stages (as functions of the argument arrays), so do the buffers
    read after it, and the argument arrays are kept. -/
theorem step_4 (V : Valuation τ sig (Elt Ideal))
    (a0 a1 : (⟨S2x300x256x256, .f32⟩ : BufTy).Contents (Elt Ideal)) (a2 a3 : (⟨S2x300x4, .f32⟩ : BufTy).Contents (Elt Ideal))
    (a4 : (⟨S2x12544x2, .f32⟩ : BufTy).Contents (Elt Ideal))
    (hA0 : V (Proc.devRef .tc main_arg0) = a0) (hA1 : V (Proc.devRef .tc main_arg1) = a1) (hA2 : V (Proc.devRef .tc main_arg2) = a2)
    (hA3 : V (Proc.devRef .tc main_arg3) = a3) (hA4 : V (Proc.devRef .tc main_arg4) = a4)
    (h_v14 : V (Proc.devRef .tc main_v14) = ReadP.val_main_v14 (F := Ideal) a4)
    (h_v15 : V (Proc.devRef .tc main_v15) = ReadP.val_main_v15 (F := Ideal) a4)
    (h_v16 : V (Proc.devRef .tc main_v16) = ReadP.val_main_v16 (F := Ideal) a4)
    (h_v17 : V (Proc.devRef .tc main_v17) = ReadP.val_main_v17 (F := Ideal) a4)
    (h_v48 : V (Proc.devRef .tc main_v48) = ReadP.val_main_v48 (F := Ideal) a0 a4)
    (h_v62 : V (Proc.devRef .tc main_v62) = ReadP.val_main_v62 (F := Ideal) a4)
    (h_v75 : V (Proc.devRef .tc main_v75) = ReadP.val_main_v75 (F := Ideal) a4)
    (h_v76 : V (Proc.devRef .tc main_v76) = ReadP.val_main_v76 (F := Ideal) a4) :
    after (ops_4 (F := Ideal)) V (Proc.devRef .tc main_arg0) = a0
    ∧ after (ops_4 (F := Ideal)) V (Proc.devRef .tc main_arg1) = a1
    ∧ after (ops_4 (F := Ideal)) V (Proc.devRef .tc main_arg2) = a2
    ∧ after (ops_4 (F := Ideal)) V (Proc.devRef .tc main_arg3) = a3
    ∧ after (ops_4 (F := Ideal)) V (Proc.devRef .tc main_arg4) = a4
    ∧ after (ops_4 (F := Ideal)) V (Proc.devRef .tc main_v14) = ReadP.val_main_v14 (F := Ideal) a4
    ∧ after (ops_4 (F := Ideal)) V (Proc.devRef .tc main_v15) = ReadP.val_main_v15 (F := Ideal) a4
    ∧ after (ops_4 (F := Ideal)) V (Proc.devRef .tc main_v16) = ReadP.val_main_v16 (F := Ideal) a4
    ∧ after (ops_4 (F := Ideal)) V (Proc.devRef .tc main_v17) = ReadP.val_main_v17 (F := Ideal) a4
    ∧ after (ops_4 (F := Ideal)) V (Proc.devRef .tc main_v48) = ReadP.val_main_v48 (F := Ideal) a0 a4
    ∧ after (ops_4 (F := Ideal)) V (Proc.devRef .tc main_v81) = ReadP.val_main_v81 (F := Ideal) a0 a4
    ∧ after (ops_4 (F := Ideal)) V (Proc.devRef .tc main_v83) = ReadP.val_main_v83 (F := Ideal) a4 := by
  refine ⟨?_, ?_, ?_, ?_, ?_, ?_, ?_, ?_, ?_, ?_, ?_, ?_⟩
  · simp only [ops_4]; after_results_simp; exact hA0
  · simp only [ops_4]; after_results_simp; exact hA1
  · simp only [ops_4]; after_results_simp; exact hA2
  · simp only [ops_4]; after_results_simp; exact hA3
  · simp only [ops_4]; after_results_simp; exact hA4
  · simp only [ops_4]; after_results_simp; exact h_v14
  · simp only [ops_4]; after_results_simp; exact h_v15
  · simp only [ops_4]; after_results_simp; exact h_v16
  · simp only [ops_4]; after_results_simp; exact h_v17
  · simp only [ops_4]; after_results_simp; exact h_v48
  · simp only [ops_4]; after_results_simp; (try simp only [cast_eq, hA0, hA1, hA2, hA3, hA4, h_v14, h_v15, h_v16, h_v17, h_v48, h_v62, h_v75, h_v76]); (try rw [h_v75]); (try rw [h_v76]); rfl
  · simp only [ops_4]; after_results_simp; (try simp only [cast_eq, hA0, hA1, hA2, hA3, hA4, h_v14, h_v15, h_v16, h_v17, h_v48, h_v62, h_v75, h_v76]); (try rw [h_v75]); (try rw [h_v76]); rfl

set_option maxRecDepth 16384 in
set_option maxHeartbeats 8000000 in
/-- Stretch 5: if the buffers it reads hold their stages (as functions of the argument arrays), so do the buffers
    read after it, and the argument arrays are kept. -/
theorem step_5 (V : Valuation τ sig (Elt Ideal))
    (a0 a1 : (⟨S2x300x256x256, .f32⟩ : BufTy).Contents (Elt Ideal)) (a2 a3 : (⟨S2x300x4, .f32⟩ : BufTy).Contents (Elt Ideal))
    (a4 : (⟨S2x12544x2, .f32⟩ : BufTy).Contents (Elt Ideal))
    (hA0 : V (Proc.devRef .tc main_arg0) = a0) (hA1 : V (Proc.devRef .tc main_arg1) = a1) (hA2 : V (Proc.devRef .tc main_arg2) = a2)
    (hA3 : V (Proc.devRef .tc main_arg3) = a3) (hA4 : V (Proc.devRef .tc main_arg4) = a4)
    (h_v14 : V (Proc.devRef .tc main_v14) = ReadP.val_main_v14 (F := Ideal) a4)
    (h_v15 : V (Proc.devRef .tc main_v15) = ReadP.val_main_v15 (F := Ideal) a4)
    (h_v16 : V (Proc.devRef .tc main_v16) = ReadP.val_main_v16 (F := Ideal) a4)
    (h_v17 : V (Proc.devRef .tc main_v17) = ReadP.val_main_v17 (F := Ideal) a4)
    (h_v48 : V (Proc.devRef .tc main_v48) = ReadP.val_main_v48 (F := Ideal) a0 a4)
    (h_v81 : V (Proc.devRef .tc main_v81) = ReadP.val_main_v81 (F := Ideal) a0 a4)
    (h_v83 : V (Proc.devRef .tc main_v83) = ReadP.val_main_v83 (F := Ideal) a4) :
    after (ops_5 (F := Ideal)) V (Proc.devRef .tc main_arg0) = a0
    ∧ after (ops_5 (F := Ideal)) V (Proc.devRef .tc main_arg1) = a1
    ∧ after (ops_5 (F := Ideal)) V (Proc.devRef .tc main_arg2) = a2
    ∧ after (ops_5 (F := Ideal)) V (Proc.devRef .tc main_arg3) = a3
    ∧ after (ops_5 (F := Ideal)) V (Proc.devRef .tc main_arg4) = a4
    ∧ after (ops_5 (F := Ideal)) V (Proc.devRef .tc main_v14) = ReadP.val_main_v14 (F := Ideal) a4
    ∧ after (ops_5 (F := Ideal)) V (Proc.devRef .tc main_v15) = ReadP.val_main_v15 (F := Ideal) a4
    ∧ after (ops_5 (F := Ideal)) V (Proc.devRef .tc main_v16) = ReadP.val_main_v16 (F := Ideal) a4
    ∧ after (ops_5 (F := Ideal)) V (Proc.devRef .tc main_v17) = ReadP.val_main_v17 (F := Ideal) a4
    ∧ after (ops_5 (F := Ideal)) V (Proc.devRef .tc main_v48) = ReadP.val_main_v48 (F := Ideal) a0 a4
    ∧ after (ops_5 (F := Ideal)) V (Proc.devRef .tc main_v81) = ReadP.val_main_v81 (F := Ideal) a0 a4
    ∧ after (ops_5 (F := Ideal)) V (Proc.devRef .tc main_v95) = ReadP.val_main_v95 (F := Ideal) a4
    ∧ after (ops_5 (F := Ideal)) V (Proc.devRef .tc main_v108) = ReadP.val_main_v108 (F := Ideal) a4
    ∧ after (ops_5 (F := Ideal)) V (Proc.devRef .tc main_v109) = ReadP.val_main_v109 (F := Ideal) a4 := by
  refine ⟨?_, ?_, ?_, ?_, ?_, ?_, ?_, ?_, ?_, ?_, ?_, ?_, ?_, ?_⟩
  · simp only [ops_5]; after_results_simp; exact hA0
  · simp only [ops_5]; after_results_simp; exact hA1
  · simp only [ops_5]; after_results_simp; exact hA2
  · simp only [ops_5]; after_results_simp; exact hA3
  · simp only [ops_5]; after_results_simp; exact hA4
  · simp only [ops_5]; after_results_simp; exact h_v14
  · simp only [ops_5]; after_results_simp; exact h_v15
  · simp only [ops_5]; after_results_simp; exact h_v16
  · simp only [ops_5]; after_results_simp; exact h_v17
  · simp only [ops_5]; after_results_simp; exact h_v48
  · simp only [ops_5]; after_results_simp; exact h_v81
  · simp only [ops_5]; after_results_simp; (try simp only [cast_eq, hA0, hA1, hA2, hA3, hA4, h_v14, h_v15, h_v16, h_v17, h_v48, h_v81, h_v83]); rfl
  · simp only [ops_5]; after_results_simp; (try simp only [cast_eq, hA0, hA1, hA2, hA3, hA4, h_v14, h_v15, h_v16, h_v17, h_v48, h_v81, h_v83]); rfl
  · simp only [ops_5]; after_results_simp; (try simp only [cast_eq, hA0, hA1, hA2, hA3, hA4, h_v14, h_v15, h_v16, h_v17, h_v48, h_v81, h_v83]); rfl

set_option maxRecDepth 16384 in
set_option maxHeartbeats 8000000 in
/-- Stretch 6: if the buffers it reads hold their stages (as functions of the argument arrays), so do the buffers
    read after it, and the argument arrays are kept. -/
theorem step_6 (V : Valuation τ sig (Elt Ideal))
    (a0 a1 : (⟨S2x300x256x256, .f32⟩ : BufTy).Contents (Elt Ideal)) (a2 a3 : (⟨S2x300x4, .f32⟩ : BufTy).Contents (Elt Ideal))
    (a4 : (⟨S2x12544x2, .f32⟩ : BufTy).Contents (Elt Ideal))
    (hA0 : V (Proc.devRef .tc main_arg0) = a0) (hA1 : V (Proc.devRef .tc main_arg1) = a1) (hA2 : V (Proc.devRef .tc main_arg2) = a2)
    (hA3 : V (Proc.devRef .tc main_arg3) = a3) (hA4 : V (Proc.devRef .tc main_arg4) = a4)
    (h_v14 : V (Proc.devRef .tc main_v14) = ReadP.val_main_v14 (F := Ideal) a4)
    (h_v15 : V (Proc.devRef .tc main_v15) = ReadP.val_main_v15 (F := Ideal) a4)
    (h_v16 : V (Proc.devRef .tc main_v16) = ReadP.val_main_v16 (F := Ideal) a4)
    (h_v17 : V (Proc.devRef .tc main_v17) = ReadP.val_main_v17 (F := Ideal) a4)
    (h_v48 : V (Proc.devRef .tc main_v48) = ReadP.val_main_v48 (F := Ideal) a0 a4)
    (h_v81 : V (Proc.devRef .tc main_v81) = ReadP.val_main_v81 (F := Ideal) a0 a4)
    (h_v95 : V (Proc.devRef .tc main_v95) = ReadP.val_main_v95 (F := Ideal) a4)
    (h_v108 : V (Proc.devRef .tc main_v108) = ReadP.val_main_v108 (F := Ideal) a4)
    (h_v109 : V (Proc.devRef .tc main_v109) = ReadP.val_main_v109 (F := Ideal) a4) :
    after (ops_6 (F := Ideal)) V (Proc.devRef .tc main_arg0) = a0
    ∧ after (ops_6 (F := Ideal)) V (Proc.devRef .tc main_arg1) = a1
    ∧ after (ops_6 (F := Ideal)) V (Proc.devRef .tc main_arg2) = a2
    ∧ after (ops_6 (F := Ideal)) V (Proc.devRef .tc main_arg3) = a3
    ∧ after (ops_6 (F := Ideal)) V (Proc.devRef .tc main_arg4) = a4
    ∧ after (ops_6 (F := Ideal)) V (Proc.devRef .tc main_v14) = ReadP.val_main_v14 (F := Ideal) a4
    ∧ after (ops_6 (F := Ideal)) V (Proc.devRef .tc main_v15) = ReadP.val_main_v15 (F := Ideal) a4
    ∧ after (ops_6 (F := Ideal)) V (Proc.devRef .tc main_v48) = ReadP.val_main_v48 (F := Ideal) a0 a4
    ∧ after (ops_6 (F := Ideal)) V (Proc.devRef .tc main_v81) = ReadP.val_main_v81 (F := Ideal) a0 a4
    ∧ after (ops_6 (F := Ideal)) V (Proc.devRef .tc main_v114) = ReadP.val_main_v114 (F := Ideal) a0 a4
    ∧ after (ops_6 (F := Ideal)) V (Proc.devRef .tc main_v116) = ReadP.val_main_v116 (F := Ideal) a4
    ∧ after (ops_6 (F := Ideal)) V (Proc.devRef .tc main_v118) = ReadP.val_main_v118 (F := Ideal) a4 := by
  refine ⟨?_, ?_, ?_, ?_, ?_, ?_, ?_, ?_, ?_, ?_, ?_, ?_⟩
  · simp only [ops_6]; after_results_simp; exact hA0
  · simp only [ops_6]; after_results_simp; exact hA1
  · simp only [ops_6]; after_results_simp; exact hA2
  · simp only [ops_6]; after_results_simp; exact hA3
  · simp only [ops_6]; after_results_simp; exact hA4
  · simp only [ops_6]; after_results_simp; exact h_v14
  · simp only [ops_6]; after_results_simp; exact h_v15
  · simp only [ops_6]; after_results_simp; exact h_v48
  · simp only [ops_6]; after_results_simp; exact h_v81
  · simp only [ops_6]; after_results_simp; (try simp only [cast_eq, hA0, hA1, hA2, hA3, hA4, h_v14, h_v15, h_v16, h_v17, h_v48, h_v81, h_v95, h_v108, h_v109]); (try rw [h_v108]); (try rw [h_v109]); rfl
  · simp only [ops_6]; after_results_simp; (try simp only [cast_eq, hA0, hA1, hA2, hA3, hA4, h_v14, h_v15, h_v16, h_v17, h_v48, h_v81, h_v95, h_v108, h_v109]); (try rw [h_v108]); (try rw [h_v109]); rfl
  · simp only [ops_6]; after_results_simp; (try simp only [cast_eq, hA0, hA1, hA2, hA3, hA4, h_v14, h_v15, h_v16, h_v17, h_v48, h_v81, h_v95, h_v108, h_v109]); (try rw [h_v108]); (try rw [h_v109]); rfl

set_option maxRecDepth 16384 in
set_option maxHeartbeats 8000000 in
/-- Stretch 7: if the buffers it reads hold their stages (as functions of the argument arrays), so do the buffers
    read after it, and the argument arrays are kept. -/
theorem step_7 (V : Valuation τ sig (Elt Ideal))
    (a0 a1 : (⟨S2x300x256x256, .f32⟩ : BufTy).Contents (Elt Ideal)) (a2 a3 : (⟨S2x300x4, .f32⟩ : BufTy).Contents (Elt Ideal))
    (a4 : (⟨S2x12544x2, .f32⟩ : BufTy).Contents (Elt Ideal))
    (hA0 : V (Proc.devRef .tc main_arg0) = a0) (hA1 : V (Proc.devRef .tc main_arg1) = a1) (hA2 : V (Proc.devRef .tc main_arg2) = a2)
    (hA3 : V (Proc.devRef .tc main_arg3) = a3) (hA4 : V (Proc.devRef .tc main_arg4) = a4)
    (h_v14 : V (Proc.devRef .tc main_v14) = ReadP.val_main_v14 (F := Ideal) a4)
    (h_v15 : V (Proc.devRef .tc main_v15) = ReadP.val_main_v15 (F := Ideal) a4)
    (h_v48 : V (Proc.devRef .tc main_v48) = ReadP.val_main_v48 (F := Ideal) a0 a4)
    (h_v81 : V (Proc.devRef .tc main_v81) = ReadP.val_main_v81 (F := Ideal) a0 a4)
    (h_v114 : V (Proc.devRef .tc main_v114) = ReadP.val_main_v114 (F := Ideal) a0 a4)
    (h_v116 : V (Proc.devRef .tc main_v116) = ReadP.val_main_v116 (F := Ideal) a4)
    (h_v118 : V (Proc.devRef .tc main_v118) = ReadP.val_main_v118 (F := Ideal) a4) :
    after (ops_7 (F := Ideal)) V (Proc.devRef .tc main_arg0) = a0
    ∧ after (ops_7 (F := Ideal)) V (Proc.devRef .tc main_arg1) = a1
    ∧ after (ops_7 (F := Ideal)) V (Proc.devRef .tc main_arg2) = a2
    ∧ after (ops_7 (F := Ideal)) V (Proc.devRef .tc main_arg3) = a3
    ∧ after (ops_7 (F := Ideal)) V (Proc.devRef .tc main_arg4) = a4
    ∧ after (ops_7 (F := Ideal)) V (Proc.devRef .tc main_v14) = ReadP.val_main_v14 (F := Ideal) a4
    ∧ after (ops_7 (F := Ideal)) V (Proc.devRef .tc main_v15) = ReadP.val_main_v15 (F := Ideal) a4
    ∧ after (ops_7 (F := Ideal)) V (Proc.devRef .tc main_v48) = ReadP.val_main_v48 (F := Ideal) a0 a4
    ∧ after (ops_7 (F := Ideal)) V (Proc.devRef .tc main_v81) = ReadP.val_main_v81 (F := Ideal) a0 a4
    ∧ after (ops_7 (F := Ideal)) V (Proc.devRef .tc main_v114) = ReadP.val_main_v114 (F := Ideal) a0 a4
    ∧ after (ops_7 (F := Ideal)) V (Proc.devRef .tc main_v130) = ReadP.val_main_v130 (F := Ideal) a4
    ∧ after (ops_7 (F := Ideal)) V (Proc.devRef .tc main_v143) = ReadP.val_main_v143 (F := Ideal) a4
    ∧ after (ops_7 (F := Ideal)) V (Proc.devRef .tc main_v144) = ReadP.val_main_v144 (F := Ideal) a4 := by
  refine ⟨?_, ?_, ?_, ?_, ?_, ?_, ?_, ?_, ?_, ?_, ?_, ?_, ?_⟩
  · simp only [ops_7]; after_results_simp; exact hA0
  · simp only [ops_7]; after_results_simp; exact hA1
  · simp only [ops_7]; after_results_simp; exact hA2
  · simp only [ops_7]; after_results_simp; exact hA3
  · simp only [ops_7]; after_results_simp; exact hA4
  · simp only [ops_7]; after_results_simp; exact h_v14
  · simp only [ops_7]; after_results_simp; exact h_v15
  · simp only [ops_7]; after_results_simp; exact h_v48
  · simp only [ops_7]; after_results_simp; exact h_v81
  · simp only [ops_7]; after_results_simp; exact h_v114
  · simp only [ops_7]; after_results_simp; (try simp only [cast_eq, hA0, hA1, hA2, hA3, hA4, h_v14, h_v15, h_v48, h_v81, h_v114, h_v116, h_v118]); rfl
  · simp only [ops_7]; after_results_simp; (try simp only [cast_eq, hA0, hA1, hA2, hA3, hA4, h_v14, h_v15, h_v48, h_v81, h_v114, h_v116, h_v118]); rfl
  · simp only [ops_7]; after_results_simp; (try simp only [cast_eq, hA0, hA1, hA2, hA3, hA4, h_v14, h_v15, h_v48, h_v81, h_v114, h_v116, h_v118]); rfl

end Cert.ReferenceIdeal.ValueH

end
-- ==== Proof.RefStep2.lean ====
/-
  Stretches 8 to 11 of the reference's operations, each run from arbitrary buffer contents: if the buffers a
  stretch reads hold the stages of the reading (the value each operation writes, as a function of the five
  argument arrays), then after the stretch the buffers read later hold theirs, and the argument arrays are
  as before. Each buffer's contents after the stretch is computed by folding the operations' results; a
  concatenation's operands are buffers of an earlier stretch and are replaced by their stages directly.
-/
import proofs.«176196_j77713138253901_2_alg».proof.Proof.RefOps
import proofs.«176196_j77713138253901_2_alg».proof.Proof.RefReadP

noncomputable section

namespace Cert.ReferenceIdeal.ValueH

open Cert.ReferenceIdeal Cert.ReferenceIdeal.Gen Idealize.ShloMosaic Idealize.ShloMosaic.TcCoe Idealize.SL.Sem Idealize.ShloMosaic.StableHlo

set_option maxRecDepth 16384 in
set_option maxHeartbeats 8000000 in
/-- Stretch 8: if the buffers it reads hold their stages (as functions of the argument arrays), so do the buffers
    read after it, and the argument arrays are kept. -/
theorem step_8 (V : Valuation τ sig (Elt Ideal))
    (a0 a1 : (⟨S2x300x256x256, .f32⟩ : BufTy).Contents (Elt Ideal)) (a2 a3 : (⟨S2x300x4, .f32⟩ : BufTy).Contents (Elt Ideal))
    (a4 : (⟨S2x12544x2, .f32⟩ : BufTy).Contents (Elt Ideal))
    (hA0 : V (Proc.devRef .tc main_arg0) = a0) (hA1 : V (Proc.devRef .tc main_arg1) = a1) (hA2 : V (Proc.devRef .tc main_arg2) = a2)
    (hA3 : V (Proc.devRef .tc main_arg3) = a3) (hA4 : V (Proc.devRef .tc main_arg4) = a4)
    (h_v14 : V (Proc.devRef .tc main_v14) = ReadP.val_main_v14 (F := Ideal) a4)
    (h_v15 : V (Proc.devRef .tc main_v15) = ReadP.val_main_v15 (F := Ideal) a4)
    (h_v48 : V (Proc.devRef .tc main_v48) = ReadP.val_main_v48 (F := Ideal) a0 a4)
    (h_v81 : V (Proc.devRef .tc main_v81) = ReadP.val_main_v81 (F := Ideal) a0 a4)
    (h_v114 : V (Proc.devRef .tc main_v114) = ReadP.val_main_v114 (F := Ideal) a0 a4)
    (h_v130 : V (Proc.devRef .tc main_v130) = ReadP.val_main_v130 (F := Ideal) a4)
    (h_v143 : V (Proc.devRef .tc main_v143) = ReadP.val_main_v143 (F := Ideal) a4)
    (h_v144 : V (Proc.devRef .tc main_v144) = ReadP.val_main_v144 (F := Ideal) a4) :
    after (ops_8 (F := Ideal)) V (Proc.devRef .tc main_arg0) = a0
    ∧ after (ops_8 (F := Ideal)) V (Proc.devRef .tc main_arg1) = a1
    ∧ after (ops_8 (F := Ideal)) V (Proc.devRef .tc main_arg2) = a2
    ∧ after (ops_8 (F := Ideal)) V (Proc.devRef .tc main_arg3) = a3
    ∧ after (ops_8 (F := Ideal)) V (Proc.devRef .tc main_arg4) = a4
    ∧ after (ops_8 (F := Ideal)) V (Proc.devRef .tc main_v184) = ReadP.val_main_v184 (F := Ideal) a0 a4 := by
  refine ⟨?_, ?_, ?_, ?_, ?_, ?_⟩
  · simp only [ops_8]; after_results_simp; exact hA0
  · simp only [ops_8]; after_results_simp; exact hA1
  · simp only [ops_8]; after_results_simp; exact hA2
  · simp only [ops_8]; after_results_simp; exact hA3
  · simp only [ops_8]; after_results_simp; exact hA4
  · simp only [ops_8]; after_results_simp; (try simp only [cast_eq, hA0, hA1, hA2, hA3, hA4, h_v14, h_v15, h_v48, h_v81, h_v114, h_v130, h_v143, h_v144]); (try rw [h_v143]); (try rw [h_v144]); rfl

set_option maxRecDepth 16384 in
set_option maxHeartbeats 8000000 in
/-- Stretch 9: if the buffers it reads hold their stages (as functions of the argument arrays), so do the buffers
    read after it, and the argument arrays are kept. -/
theorem step_9 (V : Valuation τ sig (Elt Ideal))
    (a0 a1 : (⟨S2x300x256x256, .f32⟩ : BufTy).Contents (Elt Ideal)) (a2 a3 : (⟨S2x300x4, .f32⟩ : BufTy).Contents (Elt Ideal))
    (a4 : (⟨S2x12544x2, .f32⟩ : BufTy).Contents (Elt Ideal))
    (hA0 : V (Proc.devRef .tc main_arg0) = a0) (hA1 : V (Proc.devRef .tc main_arg1) = a1) (hA2 : V (Proc.devRef .tc main_arg2) = a2)
    (hA3 : V (Proc.devRef .tc main_arg3) = a3) (hA4 : V (Proc.devRef .tc main_arg4) = a4)
    (h_v184 : V (Proc.devRef .tc main_v184) = ReadP.val_main_v184 (F := Ideal) a0 a4) :
    after (ops_9 (F := Ideal)) V (Proc.devRef .tc main_arg0) = a0
    ∧ after (ops_9 (F := Ideal)) V (Proc.devRef .tc main_arg1) = a1
    ∧ after (ops_9 (F := Ideal)) V (Proc.devRef .tc main_arg2) = a2
    ∧ after (ops_9 (F := Ideal)) V (Proc.devRef .tc main_arg3) = a3
    ∧ after (ops_9 (F := Ideal)) V (Proc.devRef .tc main_arg4) = a4
    ∧ after (ops_9 (F := Ideal)) V (Proc.devRef .tc main_v184) = ReadP.val_main_v184 (F := Ideal) a0 a4
    ∧ after (ops_9 (F := Ideal)) V (Proc.devRef .tc main_v199) = ReadP.val_main_v199 (F := Ideal) a4
    ∧ after (ops_9 (F := Ideal)) V (Proc.devRef .tc main_v200) = ReadP.val_main_v200 (F := Ideal) a4
    ∧ after (ops_9 (F := Ideal)) V (Proc.devRef .tc main_v201) = ReadP.val_main_v201 (F := Ideal) a4
    ∧ after (ops_9 (F := Ideal)) V (Proc.devRef .tc main_v202) = ReadP.val_main_v202 (F := Ideal) a4 := by
  refine ⟨?_, ?_, ?_, ?_, ?_, ?_, ?_, ?_, ?_, ?_⟩
  · simp only [ops_9]; after_results_simp; exact hA0
  · simp only [ops_9]; after_results_simp; exact hA1
  · simp only [ops_9]; after_results_simp; exact hA2
  · simp only [ops_9]; after_results_simp; exact hA3
  · simp only [ops_9]; after_results_simp; exact hA4
  · simp only [ops_9]; after_results_simp; exact h_v184
  · simp only [ops_9]; after_results_simp; (try simp only [cast_eq, hA0, hA1, hA2, hA3, hA4, h_v184]); rfl
  · simp only [ops_9]; after_results_simp; (try simp only [cast_eq, hA0, hA1, hA2, hA3, hA4, h_v184]); rfl
  · simp only [ops_9]; after_results_simp; (try simp only [cast_eq, hA0, hA1, hA2, hA3, hA4, h_v184]); rfl
  · simp only [ops_9]; after_results_simp; (try simp only [cast_eq, hA0, hA1, hA2, hA3, hA4, h_v184]); rfl

set_option maxRecDepth 16384 in
set_option maxHeartbeats 8000000 in
/-- Stretch 10: if the buffers it reads hold their stages (as functions of the argument arrays), so do the buffers
    read after it, and the argument arrays are kept. -/
theorem step_10 (V : Valuation τ sig (Elt Ideal))
    (a0 a1 : (⟨S2x300x256x256, .f32⟩ : BufTy).Contents (Elt Ideal)) (a2 a3 : (⟨S2x300x4, .f32⟩ : BufTy).Contents (Elt Ideal))
    (a4 : (⟨S2x12544x2, .f32⟩ : BufTy).Contents (Elt Ideal))
    (hA0 : V (Proc.devRef .tc main_arg0) = a0) (hA1 : V (Proc.devRef .tc main_arg1) = a1) (hA2 : V (Proc.devRef .tc main_arg2) = a2)
    (hA3 : V (Proc.devRef .tc main_arg3) = a3) (hA4 : V (Proc.devRef .tc main_arg4) = a4)
    (h_v184 : V (Proc.devRef .tc main_v184) = ReadP.val_main_v184 (F := Ideal) a0 a4)
    (h_v199 : V (Proc.devRef .tc main_v199) = ReadP.val_main_v199 (F := Ideal) a4)
    (h_v200 : V (Proc.devRef .tc main_v200) = ReadP.val_main_v200 (F := Ideal) a4)
    (h_v201 : V (Proc.devRef .tc main_v201) = ReadP.val_main_v201 (F := Ideal) a4)
    (h_v202 : V (Proc.devRef .tc main_v202) = ReadP.val_main_v202 (F := Ideal) a4) :
    after (ops_10 (F := Ideal)) V (Proc.devRef .tc main_arg0) = a0
    ∧ after (ops_10 (F := Ideal)) V (Proc.devRef .tc main_arg1) = a1
    ∧ after (ops_10 (F := Ideal)) V (Proc.devRef .tc main_arg2) = a2
    ∧ after (ops_10 (F := Ideal)) V (Proc.devRef .tc main_arg3) = a3
    ∧ after (ops_10 (F := Ideal)) V (Proc.devRef .tc main_arg4) = a4
    ∧ after (ops_10 (F := Ideal)) V (Proc.devRef .tc main_v184) = ReadP.val_main_v184 (F := Ideal) a0 a4
    ∧ after (ops_10 (F := Ideal)) V (Proc.devRef .tc main_v199) = ReadP.val_main_v199 (F := Ideal) a4
    ∧ after (ops_10 (F := Ideal)) V (Proc.devRef .tc main_v200) = ReadP.val_main_v200 (F := Ideal) a4
    ∧ after (ops_10 (F := Ideal)) V (Proc.devRef .tc main_v201) = ReadP.val_main_v201 (F := Ideal) a4
    ∧ after (ops_10 (F := Ideal)) V (Proc.devRef .tc main_v202) = ReadP.val_main_v202 (F := Ideal) a4
    ∧ after (ops_10 (F := Ideal)) V (Proc.devRef .tc main_v214) = ReadP.val_main_v214 (F := Ideal) a4
    ∧ after (ops_10 (F := Ideal)) V (Proc.devRef .tc main_v227) = ReadP.val_main_v227 (F := Ideal) a4
    ∧ after (ops_10 (F := Ideal)) V (Proc.devRef .tc main_v228) = ReadP.val_main_v228 (F := Ideal) a4 := by
  refine ⟨?_, ?_, ?_, ?_, ?_, ?_, ?_, ?_, ?_, ?_, ?_, ?_, ?_⟩
  · simp only [ops_10]; after_results_simp; exact hA0
  · simp only [ops_10]; after_results_simp; exact hA1
  · simp only [ops_10]; after_results_simp; exact hA2
  · simp only [ops_10]; after_results_simp; exact hA3
  · simp only [ops_10]; after_results_simp; exact hA4
  · simp only [ops_10]; after_results_simp; exact h_v184
  · simp only [ops_10]; after_results_simp; exact h_v199
  · simp only [ops_10]; after_results_simp; exact h_v200
  · simp only [ops_10]; after_results_simp; exact h_v201
  · simp only [ops_10]; after_results_simp; exact h_v202
  · simp only [ops_10]; after_results_simp; (try simp only [cast_eq, hA0, hA1, hA2, hA3, hA4, h_v184, h_v199, h_v200, h_v201, h_v202]); rfl
  · simp only [ops_10]; after_results_simp; (try simp only [cast_eq, hA0, hA1, hA2, hA3, hA4, h_v184, h_v199, h_v200, h_v201, h_v202]); rfl
  · simp only [ops_10]; after_results_simp; (try simp only [cast_eq, hA0, hA1, hA2, hA3, hA4, h_v184, h_v199, h_v200, h_v201, h_v202]); rfl

set_option maxRecDepth 16384 in
set_option maxHeartbeats 8000000 in
/-- Stretch 11: if the buffers it reads hold their stages (as functions of the argument arrays), so do the buffers
    read after it, and the argument arrays are kept. -/
theorem step_11 (V : Valuation τ sig (Elt Ideal))
    (a0 a1 : (⟨S2x300x256x256, .f32⟩ : BufTy).Contents (Elt Ideal)) (a2 a3 : (⟨S2x300x4, .f32⟩ : BufTy).Contents (Elt Ideal))
    (a4 : (⟨S2x12544x2, .f32⟩ : BufTy).Contents (Elt Ideal))
    (hA0 : V (Proc.devRef .tc main_arg0) = a0) (hA1 : V (Proc.devRef .tc main_arg1) = a1) (hA2 : V (Proc.devRef .tc main_arg2) = a2)
    (hA3 : V (Proc.devRef .tc main_arg3) = a3) (hA4 : V (Proc.devRef .tc main_arg4) = a4)
    (h_v184 : V (Proc.devRef .tc main_v184) = ReadP.val_main_v184 (F := Ideal) a0 a4)
    (h_v199 : V (Proc.devRef .tc main_v199) = ReadP.val_main_v199 (F := Ideal) a4)
    (h_v200 : V (Proc.devRef .tc main_v200) = ReadP.val_main_v200 (F := Ideal) a4)
    (h_v201 : V (Proc.devRef .tc main_v201) = ReadP.val_main_v201 (F := Ideal) a4)
    (h_v202 : V (Proc.devRef .tc main_v202) = ReadP.val_main_v202 (F := Ideal) a4)
    (h_v214 : V (Proc.devRef .tc main_v214) = ReadP.val_main_v214 (F := Ideal) a4)
    (h_v227 : V (Proc.devRef .tc main_v227) = ReadP.val_main_v227 (F := Ideal) a4)
    (h_v228 : V (Proc.devRef .tc main_v228) = ReadP.val_main_v228 (F := Ideal) a4) :
    after (ops_11 (F := Ideal)) V (Proc.devRef .tc main_arg0) = a0
    ∧ after (ops_11 (F := Ideal)) V (Proc.devRef .tc main_arg1) = a1
    ∧ after (ops_11 (F := Ideal)) V (Proc.devRef .tc main_arg2) = a2
    ∧ after (ops_11 (F := Ideal)) V (Proc.devRef .tc main_arg3) = a3
    ∧ after (ops_11 (F := Ideal)) V (Proc.devRef .tc main_arg4) = a4
    ∧ after (ops_11 (F := Ideal)) V (Proc.devRef .tc main_v184) = ReadP.val_main_v184 (F := Ideal) a0 a4
    ∧ after (ops_11 (F := Ideal)) V (Proc.devRef .tc main_v199) = ReadP.val_main_v199 (F := Ideal) a4
    ∧ after (ops_11 (F := Ideal)) V (Proc.devRef .tc main_v200) = ReadP.val_main_v200 (F := Ideal) a4
    ∧ after (ops_11 (F := Ideal)) V (Proc.devRef .tc main_v201) = ReadP.val_main_v201 (F := Ideal) a4
    ∧ after (ops_11 (F := Ideal)) V (Proc.devRef .tc main_v202) = ReadP.val_main_v202 (F := Ideal) a4
    ∧ after (ops_11 (F := Ideal)) V (Proc.devRef .tc main_v233) = ReadP.val_main_v233 (F := Ideal) a1 a4
    ∧ after (ops_11 (F := Ideal)) V (Proc.devRef .tc main_v235) = ReadP.val_main_v235 (F := Ideal) a4 := by
  refine ⟨?_, ?_, ?_, ?_, ?_, ?_, ?_, ?_, ?_, ?_, ?_, ?_⟩
  · simp only [ops_11]; after_results_simp; exact hA0
  · simp only [ops_11]; after_results_simp; exact hA1
  · simp only [ops_11]; after_results_simp; exact hA2
  · simp only [ops_11]; after_results_simp; exact hA3
  · simp only [ops_11]; after_results_simp; exact hA4
  · simp only [ops_11]; after_results_simp; exact h_v184
  · simp only [ops_11]; after_results_simp; exact h_v199
  · simp only [ops_11]; after_results_simp; exact h_v200
  · simp only [ops_11]; after_results_simp; exact h_v201
  · simp only [ops_11]; after_results_simp; exact h_v202
  · simp only [ops_11]; after_results_simp; (try simp only [cast_eq, hA0, hA1, hA2, hA3, hA4, h_v184, h_v199, h_v200, h_v201, h_v202, h_v214, h_v227, h_v228]); (try rw [h_v227]); (try rw [h_v228]); rfl
  · simp only [ops_11]; after_results_simp; (try simp only [cast_eq, hA0, hA1, hA2, hA3, hA4, h_v184, h_v199, h_v200, h_v201, h_v202, h_v214, h_v227, h_v228]); (try rw [h_v227]); (try rw [h_v228]); rfl

end Cert.ReferenceIdeal.ValueH

end
-- ==== Proof.RefStep3.lean ====
/-
  Stretches 12 to 15 of the reference's operations, each run from arbitrary buffer contents: if the buffers a
  stretch reads hold the stages of the reading (the value each operation writes, as a function of the five
  argument arrays), then after the stretch the buffers read later hold theirs, and the argument arrays are
  as before. Each buffer's contents after the stretch is computed by folding the operations' results; a
  concatenation's operands are buffers of an earlier stretch and are replaced by their stages directly.
-/
import proofs.«176196_j77713138253901_2_alg».proof.Proof.RefOps
import proofs.«176196_j77713138253901_2_alg».proof.Proof.RefReadP

noncomputable section

namespace Cert.ReferenceIdeal.ValueH

open Cert.ReferenceIdeal Cert.ReferenceIdeal.Gen Idealize.ShloMosaic Idealize.ShloMosaic.TcCoe Idealize.SL.Sem Idealize.ShloMosaic.StableHlo

set_option maxRecDepth 16384 in
set_option maxHeartbeats 8000000 in
/-- Stretch 12: if the buffers it reads hold their stages (as functions of the argument arrays), so do the buffers
    read after it, and the argument arrays are kept. -/
theorem step_12 (V : Valuation τ sig (Elt Ideal))
    (a0 a1 : (⟨S2x300x256x256, .f32⟩ : BufTy).Contents (Elt Ideal)) (a2 a3 : (⟨S2x300x4, .f32⟩ : BufTy).Contents (Elt Ideal))
    (a4 : (⟨S2x12544x2, .f32⟩ : BufTy).Contents (Elt Ideal))
    (hA0 : V (Proc.devRef .tc main_arg0) = a0) (hA1 : V (Proc.devRef .tc main_arg1) = a1) (hA2 : V (Proc.devRef .tc main_arg2) = a2)
    (hA3 : V (Proc.devRef .tc main_arg3) = a3) (hA4 : V (Proc.devRef .tc main_arg4) = a4)
    (h_v184 : V (Proc.devRef .tc main_v184) = ReadP.val_main_v184 (F := Ideal) a0 a4)
    (h_v199 : V (Proc.devRef .tc main_v199) = ReadP.val_main_v199 (F := Ideal) a4)
    (h_v200 : V (Proc.devRef .tc main_v200) = ReadP.val_main_v200 (F := Ideal) a4)
    (h_v201 : V (Proc.devRef .tc main_v201) = ReadP.val_main_v201 (F := Ideal) a4)
    (h_v202 : V (Proc.devRef .tc main_v202) = ReadP.val_main_v202 (F := Ideal) a4)
    (h_v233 : V (Proc.devRef .tc main_v233) = ReadP.val_main_v233 (F := Ideal) a1 a4)
    (h_v235 : V (Proc.devRef .tc main_v235) = ReadP.val_main_v235 (F := Ideal) a4) :
    after (ops_12 (F := Ideal)) V (Proc.devRef .tc main_arg0) = a0
    ∧ after (ops_12 (F := Ideal)) V (Proc.devRef .tc main_arg1) = a1
    ∧ after (ops_12 (F := Ideal)) V (Proc.devRef .tc main_arg2) = a2
    ∧ after (ops_12 (F := Ideal)) V (Proc.devRef .tc main_arg3) = a3
    ∧ after (ops_12 (F := Ideal)) V (Proc.devRef .tc main_arg4) = a4
    ∧ after (ops_12 (F := Ideal)) V (Proc.devRef .tc main_v184) = ReadP.val_main_v184 (F := Ideal) a0 a4
    ∧ after (ops_12 (F := Ideal)) V (Proc.devRef .tc main_v199) = ReadP.val_main_v199 (F := Ideal) a4
    ∧ after (ops_12 (F := Ideal)) V (Proc.devRef .tc main_v200) = ReadP.val_main_v200 (F := Ideal) a4
    ∧ after (ops_12 (F := Ideal)) V (Proc.devRef .tc main_v201) = ReadP.val_main_v201 (F := Ideal) a4
    ∧ after (ops_12 (F := Ideal)) V (Proc.devRef .tc main_v202) = ReadP.val_main_v202 (F := Ideal) a4
    ∧ after (ops_12 (F := Ideal)) V (Proc.devRef .tc main_v233) = ReadP.val_main_v233 (F := Ideal) a1 a4
    ∧ after (ops_12 (F := Ideal)) V (Proc.devRef .tc main_v247) = ReadP.val_main_v247 (F := Ideal) a4
    ∧ after (ops_12 (F := Ideal)) V (Proc.devRef .tc main_v260) = ReadP.val_main_v260 (F := Ideal) a4
    ∧ after (ops_12 (F := Ideal)) V (Proc.devRef .tc main_v261) = ReadP.val_main_v261 (F := Ideal) a4 := by
  refine ⟨?_, ?_, ?_, ?_, ?_, ?_, ?_, ?_, ?_, ?_, ?_, ?_, ?_, ?_⟩
  · simp only [ops_12]; after_results_simp; exact hA0
  · simp only [ops_12]; after_results_simp; exact hA1
  · simp only [ops_12]; after_results_simp; exact hA2
  · simp only [ops_12]; after_results_simp; exact hA3
  · simp only [ops_12]; after_results_simp; exact hA4
  · simp only [ops_12]; after_results_simp; exact h_v184
  · simp only [ops_12]; after_results_simp; exact h_v199
  · simp only [ops_12]; after_results_simp; exact h_v200
  · simp only [ops_12]; after_results_simp; exact h_v201
  · simp only [ops_12]; after_results_simp; exact h_v202
  · simp only [ops_12]; after_results_simp; exact h_v233
  · simp only [ops_12]; after_results_simp; (try simp only [cast_eq, hA0, hA1, hA2, hA3, hA4, h_v184, h_v199, h_v200, h_v201, h_v202, h_v233, h_v235]); rfl
  · simp only [ops_12]; after_results_simp; (try simp only [cast_eq, hA0, hA1, hA2, hA3, hA4, h_v184, h_v199, h_v200, h_v201, h_v202, h_v233, h_v235]); rfl
  · simp only [ops_12]; after_results_simp; (try simp only [cast_eq, hA0, hA1, hA2, hA3, hA4, h_v184, h_v199, h_v200, h_v201, h_v202, h_v233, h_v235]); rfl

set_option maxRecDepth 16384 in
set_option maxHeartbeats 8000000 in
/-- Stretch 13: if the buffers it reads hold their stages (as functions of the argument arrays), so do the buffers
    read after it, and the argument arrays are kept. -/
theorem step_13 (V : Valuation τ sig (Elt Ideal))
    (a0 a1 : (⟨S2x300x256x256, .f32⟩ : BufTy).Contents (Elt Ideal)) (a2 a3 : (⟨S2x300x4, .f32⟩ : BufTy).Contents (Elt Ideal))
    (a4 : (⟨S2x12544x2, .f32⟩ : BufTy).Contents (Elt Ideal))
    (hA0 : V (Proc.devRef .tc main_arg0) = a0) (hA1 : V (Proc.devRef .tc main_arg1) = a1) (hA2 : V (Proc.devRef .tc main_arg2) = a2)
    (hA3 : V (Proc.devRef .tc main_arg3) = a3) (hA4 : V (Proc.devRef .tc main_arg4) = a4)
    (h_v184 : V (Proc.devRef .tc main_v184) = ReadP.val_main_v184 (F := Ideal) a0 a4)
    (h_v199 : V (Proc.devRef .tc main_v199) = ReadP.val_main_v199 (F := Ideal) a4)
    (h_v200 : V (Proc.devRef .tc main_v200) = ReadP.val_main_v200 (F := Ideal) a4)
    (h_v201 : V (Proc.devRef .tc main_v201) = ReadP.val_main_v201 (F := Ideal) a4)
    (h_v202 : V (Proc.devRef .tc main_v202) = ReadP.val_main_v202 (F := Ideal) a4)
    (h_v233 : V (Proc.devRef .tc main_v233) = ReadP.val_main_v233 (F := Ideal) a1 a4)
    (h_v247 : V (Proc.devRef .tc main_v247) = ReadP.val_main_v247 (F := Ideal) a4)
    (h_v260 : V (Proc.devRef .tc main_v260) = ReadP.val_main_v260 (F := Ideal) a4)
    (h_v261 : V (Proc.devRef .tc main_v261) = ReadP.val_main_v261 (F := Ideal) a4) :
    after (ops_13 (F := Ideal)) V (Proc.devRef .tc main_arg0) = a0
    ∧ after (ops_13 (F := Ideal)) V (Proc.devRef .tc main_arg1) = a1
    ∧ after (ops_13 (F := Ideal)) V (Proc.devRef .tc main_arg2) = a2
    ∧ after (ops_13 (F := Ideal)) V (Proc.devRef .tc main_arg3) = a3
    ∧ after (ops_13 (F := Ideal)) V (Proc.devRef .tc main_arg4) = a4
    ∧ after (ops_13 (F := Ideal)) V (Proc.devRef .tc main_v184) = ReadP.val_main_v184 (F := Ideal) a0 a4
    ∧ after (ops_13 (F := Ideal)) V (Proc.devRef .tc main_v199) = ReadP.val_main_v199 (F := Ideal) a4
    ∧ after (ops_13 (F := Ideal)) V (Proc.devRef .tc main_v200) = ReadP.val_main_v200 (F := Ideal) a4
    ∧ after (ops_13 (F := Ideal)) V (Proc.devRef .tc main_v201) = ReadP.val_main_v201 (F := Ideal) a4
    ∧ after (ops_13 (F := Ideal)) V (Proc.devRef .tc main_v202) = ReadP.val_main_v202 (F := Ideal) a4
    ∧ after (ops_13 (F := Ideal)) V (Proc.devRef .tc main_v233) = ReadP.val_main_v233 (F := Ideal) a1 a4
    ∧ after (ops_13 (F := Ideal)) V (Proc.devRef .tc main_v266) = ReadP.val_main_v266 (F := Ideal) a1 a4
    ∧ after (ops_13 (F := Ideal)) V (Proc.devRef .tc main_v268) = ReadP.val_main_v268 (F := Ideal) a4 := by
  refine ⟨?_, ?_, ?_, ?_, ?_, ?_, ?_, ?_, ?_, ?_, ?_, ?_, ?_⟩
  · simp only [ops_13]; after_results_simp; exact hA0
  · simp only [ops_13]; after_results_simp; exact hA1
  · simp only [ops_13]; after_results_simp; exact hA2
  · simp only [ops_13]; after_results_simp; exact hA3
  · simp only [ops_13]; after_results_simp; exact hA4
  · simp only [ops_13]; after_results_simp; exact h_v184
  · simp only [ops_13]; after_results_simp; exact h_v199
  · simp only [ops_13]; after_results_simp; exact h_v200
  · simp only [ops_13]; after_results_simp; exact h_v201
  · simp only [ops_13]; after_results_simp; exact h_v202
  · simp only [ops_13]; after_results_simp; exact h_v233
  · simp only [ops_13]; after_results_simp; (try simp only [cast_eq, hA0, hA1, hA2, hA3, hA4, h_v184, h_v199, h_v200, h_v201, h_v202, h_v233, h_v247, h_v260, h_v261]); (try rw [h_v260]); (try rw [h_v261]); rfl
  · simp only [ops_13]; after_results_simp; (try simp only [cast_eq, hA0, hA1, hA2, hA3, hA4, h_v184, h_v199, h_v200, h_v201, h_v202, h_v233, h_v247, h_v260, h_v261]); (try rw [h_v260]); (try rw [h_v261]); rfl

set_option maxRecDepth 16384 in
set_option maxHeartbeats 8000000 in
/-- Stretch 14: if the buffers it reads hold their stages (as functions of the argument arrays), so do the buffers
    read after it, and the argument arrays are kept. -/
theorem step_14 (V : Valuation τ sig (Elt Ideal))
    (a0 a1 : (⟨S2x300x256x256, .f32⟩ : BufTy).Contents (Elt Ideal)) (a2 a3 : (⟨S2x300x4, .f32⟩ : BufTy).Contents (Elt Ideal))
    (a4 : (⟨S2x12544x2, .f32⟩ : BufTy).Contents (Elt Ideal))
    (hA0 : V (Proc.devRef .tc main_arg0) = a0) (hA1 : V (Proc.devRef .tc main_arg1) = a1) (hA2 : V (Proc.devRef .tc main_arg2) = a2)
    (hA3 : V (Proc.devRef .tc main_arg3) = a3) (hA4 : V (Proc.devRef .tc main_arg4) = a4)
    (h_v184 : V (Proc.devRef .tc main_v184) = ReadP.val_main_v184 (F := Ideal) a0 a4)
    (h_v199 : V (Proc.devRef .tc main_v199) = ReadP.val_main_v199 (F := Ideal) a4)
    (h_v200 : V (Proc.devRef .tc main_v200) = ReadP.val_main_v200 (F := Ideal) a4)
    (h_v201 : V (Proc.devRef .tc main_v201) = ReadP.val_main_v201 (F := Ideal) a4)
    (h_v202 : V (Proc.devRef .tc main_v202) = ReadP.val_main_v202 (F := Ideal) a4)
    (h_v233 : V (Proc.devRef .tc main_v233) = ReadP.val_main_v233 (F := Ideal) a1 a4)
    (h_v266 : V (Proc.devRef .tc main_v266) = ReadP.val_main_v266 (F := Ideal) a1 a4)
    (h_v268 : V (Proc.devRef .tc main_v268) = ReadP.val_main_v268 (F := Ideal) a4) :
    after (ops_14 (F := Ideal)) V (Proc.devRef .tc main_arg0) = a0
    ∧ after (ops_14 (F := Ideal)) V (Proc.devRef .tc main_arg1) = a1
    ∧ after (ops_14 (F := Ideal)) V (Proc.devRef .tc main_arg2) = a2
    ∧ after (ops_14 (F := Ideal)) V (Proc.devRef .tc main_arg3) = a3
    ∧ after (ops_14 (F := Ideal)) V (Proc.devRef .tc main_arg4) = a4
    ∧ after (ops_14 (F := Ideal)) V (Proc.devRef .tc main_v184) = ReadP.val_main_v184 (F := Ideal) a0 a4
    ∧ after (ops_14 (F := Ideal)) V (Proc.devRef .tc main_v199) = ReadP.val_main_v199 (F := Ideal) a4
    ∧ after (ops_14 (F := Ideal)) V (Proc.devRef .tc main_v200) = ReadP.val_main_v200 (F := Ideal) a4
    ∧ after (ops_14 (F := Ideal)) V (Proc.devRef .tc main_v201) = ReadP.val_main_v201 (F := Ideal) a4
    ∧ after (ops_14 (F := Ideal)) V (Proc.devRef .tc main_v202) = ReadP.val_main_v202 (F := Ideal) a4
    ∧ after (ops_14 (F := Ideal)) V (Proc.devRef .tc main_v233) = ReadP.val_main_v233 (F := Ideal) a1 a4
    ∧ after (ops_14 (F := Ideal)) V (Proc.devRef .tc main_v266) = ReadP.val_main_v266 (F := Ideal) a1 a4
    ∧ after (ops_14 (F := Ideal)) V (Proc.devRef .tc main_v280) = ReadP.val_main_v280 (F := Ideal) a4
    ∧ after (ops_14 (F := Ideal)) V (Proc.devRef .tc main_v293) = ReadP.val_main_v293 (F := Ideal) a4
    ∧ after (ops_14 (F := Ideal)) V (Proc.devRef .tc main_v294) = ReadP.val_main_v294 (F := Ideal) a4 := by
  refine ⟨?_, ?_, ?_, ?_, ?_, ?_, ?_, ?_, ?_, ?_, ?_, ?_, ?_, ?_, ?_⟩
  · simp only [ops_14]; after_results_simp; exact hA0
  · simp only [ops_14]; after_results_simp; exact hA1
  · simp only [ops_14]; after_results_simp; exact hA2
  · simp only [ops_14]; after_results_simp; exact hA3
  · simp only [ops_14]; after_results_simp; exact hA4
  · simp only [ops_14]; after_results_simp; exact h_v184
  · simp only [ops_14]; after_results_simp; exact h_v199
  · simp only [ops_14]; after_results_simp; exact h_v200
  · simp only [ops_14]; after_results_simp; exact h_v201
  · simp only [ops_14]; after_results_simp; exact h_v202
  · simp only [ops_14]; after_results_simp; exact h_v233
  · simp only [ops_14]; after_results_simp; exact h_v266
  · simp only [ops_14]; after_results_simp; (try simp only [cast_eq, hA0, hA1, hA2, hA3, hA4, h_v184, h_v199, h_v200, h_v201, h_v202, h_v233, h_v266, h_v268]); rfl
  · simp only [ops_14]; after_results_simp; (try simp only [cast_eq, hA0, hA1, hA2, hA3, hA4, h_v184, h_v199, h_v200, h_v201, h_v202, h_v233, h_v266, h_v268]); rfl
  · simp only [ops_14]; after_results_simp; (try simp only [cast_eq, hA0, hA1, hA2, hA3, hA4, h_v184, h_v199, h_v200, h_v201, h_v202, h_v233, h_v266, h_v268]); rfl

set_option maxRecDepth 16384 in
set_option maxHeartbeats 8000000 in
/-- Stretch 15: if the buffers it reads hold their stages (as functions of the argument arrays), so do the buffers
    read after it, and the argument arrays are kept. -/
theorem step_15 (V : Valuation τ sig (Elt Ideal))
    (a0 a1 : (⟨S2x300x256x256, .f32⟩ : BufTy).Contents (Elt Ideal)) (a2 a3 : (⟨S2x300x4, .f32⟩ : BufTy).Contents (Elt Ideal))
    (a4 : (⟨S2x12544x2, .f32⟩ : BufTy).Contents (Elt Ideal))
    (hA0 : V (Proc.devRef .tc main_arg0) = a0) (hA1 : V (Proc.devRef .tc main_arg1) = a1) (hA2 : V (Proc.devRef .tc main_arg2) = a2)
    (hA3 : V (Proc.devRef .tc main_arg3) = a3) (hA4 : V (Proc.devRef .tc main_arg4) = a4)
    (h_v184 : V (Proc.devRef .tc main_v184) = ReadP.val_main_v184 (F := Ideal) a0 a4)
    (h_v199 : V (Proc.devRef .tc main_v199) = ReadP.val_main_v199 (F := Ideal) a4)
    (h_v200 : V (Proc.devRef .tc main_v200) = ReadP.val_main_v200 (F := Ideal) a4)
    (h_v201 : V (Proc.devRef .tc main_v201) = ReadP.val_main_v201 (F := Ideal) a4)
    (h_v202 : V (Proc.devRef .tc main_v202) = ReadP.val_main_v202 (F := Ideal) a4)
    (h_v233 : V (Proc.devRef .tc main_v233) = ReadP.val_main_v233 (F := Ideal) a1 a4)
    (h_v266 : V (Proc.devRef .tc main_v266) = ReadP.val_main_v266 (F := Ideal) a1 a4)
    (h_v280 : V (Proc.devRef .tc main_v280) = ReadP.val_main_v280 (F := Ideal) a4)
    (h_v293 : V (Proc.devRef .tc main_v293) = ReadP.val_main_v293 (F := Ideal) a4)
    (h_v294 : V (Proc.devRef .tc main_v294) = ReadP.val_main_v294 (F := Ideal) a4) :
    after (ops_15 (F := Ideal)) V (Proc.devRef .tc main_arg0) = a0
    ∧ after (ops_15 (F := Ideal)) V (Proc.devRef .tc main_arg1) = a1
    ∧ after (ops_15 (F := Ideal)) V (Proc.devRef .tc main_arg2) = a2
    ∧ after (ops_15 (F := Ideal)) V (Proc.devRef .tc main_arg3) = a3
    ∧ after (ops_15 (F := Ideal)) V (Proc.devRef .tc main_arg4) = a4
    ∧ after (ops_15 (F := Ideal)) V (Proc.devRef .tc main_v184) = ReadP.val_main_v184 (F := Ideal) a0 a4
    ∧ after (ops_15 (F := Ideal)) V (Proc.devRef .tc main_v199) = ReadP.val_main_v199 (F := Ideal) a4
    ∧ after (ops_15 (F := Ideal)) V (Proc.devRef .tc main_v200) = ReadP.val_main_v200 (F := Ideal) a4
    ∧ after (ops_15 (F := Ideal)) V (Proc.devRef .tc main_v233) = ReadP.val_main_v233 (F := Ideal) a1 a4
    ∧ after (ops_15 (F := Ideal)) V (Proc.devRef .tc main_v266) = ReadP.val_main_v266 (F := Ideal) a1 a4
    ∧ after (ops_15 (F := Ideal)) V (Proc.devRef .tc main_v299) = ReadP.val_main_v299 (F := Ideal) a1 a4
    ∧ after (ops_15 (F := Ideal)) V (Proc.devRef .tc main_v301) = ReadP.val_main_v301 (F := Ideal) a4
    ∧ after (ops_15 (F := Ideal)) V (Proc.devRef .tc main_v303) = ReadP.val_main_v303 (F := Ideal) a4 := by
  refine ⟨?_, ?_, ?_, ?_, ?_, ?_, ?_, ?_, ?_, ?_, ?_, ?_, ?_⟩
  · simp only [ops_15]; after_results_simp; exact hA0
  · simp only [ops_15]; after_results_simp; exact hA1
  · simp only [ops_15]; after_results_simp; exact hA2
  · simp only [ops_15]; after_results_simp; exact hA3
  · simp only [ops_15]; after_results_simp; exact hA4
  · simp only [ops_15]; after_results_simp; exact h_v184
  · simp only [ops_15]; after_results_simp; exact h_v199
  · simp only [ops_15]; after_results_simp; exact h_v200
  · simp only [ops_15]; after_results_simp; exact h_v233
  · simp only [ops_15]; after_results_simp; exact h_v266
  · simp only [ops_15]; after_results_simp; (try simp only [cast_eq, hA0, hA1, hA2, hA3, hA4, h_v184, h_v199, h_v200, h_v201, h_v202, h_v233, h_v266, h_v280, h_v293, h_v294]); (try rw [h_v293]); (try rw [h_v294]); rfl
  · simp only [ops_15]; after_results_simp; (try simp only [cast_eq, hA0, hA1, hA2, hA3, hA4, h_v184, h_v199, h_v200, h_v201, h_v202, h_v233, h_v266, h_v280, h_v293, h_v294]); (try rw [h_v293]); (try rw [h_v294]); rfl
  · simp only [ops_15]; after_results_simp; (try simp only [cast_eq, hA0, hA1, hA2, hA3, hA4, h_v184, h_v199, h_v200, h_v201, h_v202, h_v233, h_v266, h_v280, h_v293, h_v294]); (try rw [h_v293]); (try rw [h_v294]); rfl

end Cert.ReferenceIdeal.ValueH

end
-- ==== Proof.RefStep4.lean ====
/-
  Stretches 16 to 19 of the reference's operations, each run from arbitrary buffer contents: if the buffers a
  stretch reads hold the stages of the reading (the value each operation writes, as a function of the five
  argument arrays), then after the stretch the buffers read later hold theirs, and the argument arrays are
  as before. Each buffer's contents after the stretch is computed by folding the operations' results; a
  concatenation's operands are buffers of an earlier stretch and are replaced by their stages directly.
-/
import proofs.«176196_j77713138253901_2_alg».proof.Proof.RefOps
import proofs.«176196_j77713138253901_2_alg».proof.Proof.RefReadP

noncomputable section

namespace Cert.ReferenceIdeal.ValueH

open Cert.ReferenceIdeal Cert.ReferenceIdeal.Gen Idealize.ShloMosaic Idealize.ShloMosaic.TcCoe Idealize.SL.Sem Idealize.ShloMosaic.StableHlo

set_option maxRecDepth 16384 in
set_option maxHeartbeats 8000000 in
/-- Stretch 16: if the buffers it reads hold their stages (as functions of the argument arrays), so do the buffers
    read after it, and the argument arrays are kept. -/
theorem step_16 (V : Valuation τ sig (Elt Ideal))
    (a0 a1 : (⟨S2x300x256x256, .f32⟩ : BufTy).Contents (Elt Ideal)) (a2 a3 : (⟨S2x300x4, .f32⟩ : BufTy).Contents (Elt Ideal))
    (a4 : (⟨S2x12544x2, .f32⟩ : BufTy).Contents (Elt Ideal))
    (hA0 : V (Proc.devRef .tc main_arg0) = a0) (hA1 : V (Proc.devRef .tc main_arg1) = a1) (hA2 : V (Proc.devRef .tc main_arg2) = a2)
    (hA3 : V (Proc.devRef .tc main_arg3) = a3) (hA4 : V (Proc.devRef .tc main_arg4) = a4)
    (h_v184 : V (Proc.devRef .tc main_v184) = ReadP.val_main_v184 (F := Ideal) a0 a4)
    (h_v199 : V (Proc.devRef .tc main_v199) = ReadP.val_main_v199 (F := Ideal) a4)
    (h_v200 : V (Proc.devRef .tc main_v200) = ReadP.val_main_v200 (F := Ideal) a4)
    (h_v233 : V (Proc.devRef .tc main_v233) = ReadP.val_main_v233 (F := Ideal) a1 a4)
    (h_v266 : V (Proc.devRef .tc main_v266) = ReadP.val_main_v266 (F := Ideal) a1 a4)
    (h_v299 : V (Proc.devRef .tc main_v299) = ReadP.val_main_v299 (F := Ideal) a1 a4)
    (h_v301 : V (Proc.devRef .tc main_v301) = ReadP.val_main_v301 (F := Ideal) a4)
    (h_v303 : V (Proc.devRef .tc main_v303) = ReadP.val_main_v303 (F := Ideal) a4) :
    after (ops_16 (F := Ideal)) V (Proc.devRef .tc main_arg0) = a0
    ∧ after (ops_16 (F := Ideal)) V (Proc.devRef .tc main_arg1) = a1
    ∧ after (ops_16 (F := Ideal)) V (Proc.devRef .tc main_arg2) = a2
    ∧ after (ops_16 (F := Ideal)) V (Proc.devRef .tc main_arg3) = a3
    ∧ after (ops_16 (F := Ideal)) V (Proc.devRef .tc main_arg4) = a4
    ∧ after (ops_16 (F := Ideal)) V (Proc.devRef .tc main_v184) = ReadP.val_main_v184 (F := Ideal) a0 a4
    ∧ after (ops_16 (F := Ideal)) V (Proc.devRef .tc main_v199) = ReadP.val_main_v199 (F := Ideal) a4
    ∧ after (ops_16 (F := Ideal)) V (Proc.devRef .tc main_v200) = ReadP.val_main_v200 (F := Ideal) a4
    ∧ after (ops_16 (F := Ideal)) V (Proc.devRef .tc main_v233) = ReadP.val_main_v233 (F := Ideal) a1 a4
    ∧ after (ops_16 (F := Ideal)) V (Proc.devRef .tc main_v266) = ReadP.val_main_v266 (F := Ideal) a1 a4
    ∧ after (ops_16 (F := Ideal)) V (Proc.devRef .tc main_v299) = ReadP.val_main_v299 (F := Ideal) a1 a4
    ∧ after (ops_16 (F := Ideal)) V (Proc.devRef .tc main_v315) = ReadP.val_main_v315 (F := Ideal) a4
    ∧ after (ops_16 (F := Ideal)) V (Proc.devRef .tc main_v328) = ReadP.val_main_v328 (F := Ideal) a4
    ∧ after (ops_16 (F := Ideal)) V (Proc.devRef .tc main_v329) = ReadP.val_main_v329 (F := Ideal) a4 := by
  refine ⟨?_, ?_, ?_, ?_, ?_, ?_, ?_, ?_, ?_, ?_, ?_, ?_, ?_, ?_⟩
  · simp only [ops_16]; after_results_simp; exact hA0
  · simp only [ops_16]; after_results_simp; exact hA1
  · simp only [ops_16]; after_results_simp; exact hA2
  · simp only [ops_16]; after_results_simp; exact hA3
  · simp only [ops_16]; after_results_simp; exact hA4
  · simp only [ops_16]; after_results_simp; exact h_v184
  · simp only [ops_16]; after_results_simp; exact h_v199
  · simp only [ops_16]; after_results_simp; exact h_v200
  · simp only [ops_16]; after_results_simp; exact h_v233
  · simp only [ops_16]; after_results_simp; exact h_v266
  · simp only [ops_16]; after_results_simp; exact h_v299
  · simp only [ops_16]; after_results_simp; (try simp only [cast_eq, hA0, hA1, hA2, hA3, hA4, h_v184, h_v199, h_v200, h_v233, h_v266, h_v299, h_v301, h_v303]); rfl
  · simp only [ops_16]; after_results_simp; (try simp only [cast_eq, hA0, hA1, hA2, hA3, hA4, h_v184, h_v199, h_v200, h_v233, h_v266, h_v299, h_v301, h_v303]); rfl
  · simp only [ops_16]; after_results_simp; (try simp only [cast_eq, hA0, hA1, hA2, hA3, hA4, h_v184, h_v199, h_v200, h_v233, h_v266, h_v299, h_v301, h_v303]); rfl

set_option maxRecDepth 16384 in
set_option maxHeartbeats 8000000 in
/-- Stretch 17: if the buffers it reads hold their stages (as functions of the argument arrays), so do the buffers
    read after it, and the argument arrays are kept. -/
theorem step_17 (V : Valuation τ sig (Elt Ideal))
    (a0 a1 : (⟨S2x300x256x256, .f32⟩ : BufTy).Contents (Elt Ideal)) (a2 a3 : (⟨S2x300x4, .f32⟩ : BufTy).Contents (Elt Ideal))
    (a4 : (⟨S2x12544x2, .f32⟩ : BufTy).Contents (Elt Ideal))
    (hA0 : V (Proc.devRef .tc main_arg0) = a0) (hA1 : V (Proc.devRef .tc main_arg1) = a1) (hA2 : V (Proc.devRef .tc main_arg2) = a2)
    (hA3 : V (Proc.devRef .tc main_arg3) = a3) (hA4 : V (Proc.devRef .tc main_arg4) = a4)
    (h_v184 : V (Proc.devRef .tc main_v184) = ReadP.val_main_v184 (F := Ideal) a0 a4)
    (h_v199 : V (Proc.devRef .tc main_v199) = ReadP.val_main_v199 (F := Ideal) a4)
    (h_v200 : V (Proc.devRef .tc main_v200) = ReadP.val_main_v200 (F := Ideal) a4)
    (h_v233 : V (Proc.devRef .tc main_v233) = ReadP.val_main_v233 (F := Ideal) a1 a4)
    (h_v266 : V (Proc.devRef .tc main_v266) = ReadP.val_main_v266 (F := Ideal) a1 a4)
    (h_v299 : V (Proc.devRef .tc main_v299) = ReadP.val_main_v299 (F := Ideal) a1 a4)
    (h_v315 : V (Proc.devRef .tc main_v315) = ReadP.val_main_v315 (F := Ideal) a4)
    (h_v328 : V (Proc.devRef .tc main_v328) = ReadP.val_main_v328 (F := Ideal) a4)
    (h_v329 : V (Proc.devRef .tc main_v329) = ReadP.val_main_v329 (F := Ideal) a4) :
    after (ops_17 (F := Ideal)) V (Proc.devRef .tc main_arg0) = a0
    ∧ after (ops_17 (F := Ideal)) V (Proc.devRef .tc main_arg1) = a1
    ∧ after (ops_17 (F := Ideal)) V (Proc.devRef .tc main_arg2) = a2
    ∧ after (ops_17 (F := Ideal)) V (Proc.devRef .tc main_arg3) = a3
    ∧ after (ops_17 (F := Ideal)) V (Proc.devRef .tc main_arg4) = a4
    ∧ after (ops_17 (F := Ideal)) V (Proc.devRef .tc main_v184) = ReadP.val_main_v184 (F := Ideal) a0 a4
    ∧ after (ops_17 (F := Ideal)) V (Proc.devRef .tc main_v369) = ReadP.val_main_v369 (F := Ideal) a1 a4 := by
  refine ⟨?_, ?_, ?_, ?_, ?_, ?_, ?_⟩
  · simp only [ops_17]; after_results_simp; exact hA0
  · simp only [ops_17]; after_results_simp; exact hA1
  · simp only [ops_17]; after_results_simp; exact hA2
  · simp only [ops_17]; after_results_simp; exact hA3
  · simp only [ops_17]; after_results_simp; exact hA4
  · simp only [ops_17]; after_results_simp; exact h_v184
  · simp only [ops_17]; after_results_simp; (try simp only [cast_eq, hA0, hA1, hA2, hA3, hA4, h_v184, h_v199, h_v200, h_v233, h_v266, h_v299, h_v315, h_v328, h_v329]); (try rw [h_v328]); (try rw [h_v329]); rfl

set_option maxRecDepth 16384 in
set_option maxHeartbeats 8000000 in
/-- Stretch 18: if the buffers it reads hold their stages (as functions of the argument arrays), so do the buffers
    read after it, and the argument arrays are kept. -/
theorem step_18 (V : Valuation τ sig (Elt Ideal))
    (a0 a1 : (⟨S2x300x256x256, .f32⟩ : BufTy).Contents (Elt Ideal)) (a2 a3 : (⟨S2x300x4, .f32⟩ : BufTy).Contents (Elt Ideal))
    (a4 : (⟨S2x12544x2, .f32⟩ : BufTy).Contents (Elt Ideal))
    (hA0 : V (Proc.devRef .tc main_arg0) = a0) (hA1 : V (Proc.devRef .tc main_arg1) = a1) (hA2 : V (Proc.devRef .tc main_arg2) = a2)
    (hA3 : V (Proc.devRef .tc main_arg3) = a3) (hA4 : V (Proc.devRef .tc main_arg4) = a4)
    (h_v184 : V (Proc.devRef .tc main_v184) = ReadP.val_main_v184 (F := Ideal) a0 a4)
    (h_v369 : V (Proc.devRef .tc main_v369) = ReadP.val_main_v369 (F := Ideal) a1 a4) :
    after (ops_18 (F := Ideal)) V (Proc.devRef .tc main_arg0) = a0
    ∧ after (ops_18 (F := Ideal)) V (Proc.devRef .tc main_arg1) = a1
    ∧ after (ops_18 (F := Ideal)) V (Proc.devRef .tc main_arg2) = a2
    ∧ after (ops_18 (F := Ideal)) V (Proc.devRef .tc main_arg3) = a3
    ∧ after (ops_18 (F := Ideal)) V (Proc.devRef .tc main_arg4) = a4
    ∧ after (ops_18 (F := Ideal)) V (Proc.devRef .tc main_v184) = ReadP.val_main_v184 (F := Ideal) a0 a4
    ∧ after (ops_18 (F := Ideal)) V (Proc.devRef .tc main_v369) = ReadP.val_main_v369 (F := Ideal) a1 a4
    ∧ after (ops_18 (F := Ideal)) V (Proc.devRef .tc main_v377) = ReadP.val_main_v377 (F := Ideal) a0 a1 a4 := by
  refine ⟨?_, ?_, ?_, ?_, ?_, ?_, ?_, ?_⟩
  · simp only [ops_18]; after_results_simp; exact hA0
  · simp only [ops_18]; after_results_simp; exact hA1
  · simp only [ops_18]; after_results_simp; exact hA2
  · simp only [ops_18]; after_results_simp; exact hA3
  · simp only [ops_18]; after_results_simp; exact hA4
  · simp only [ops_18]; after_results_simp; exact h_v184
  · simp only [ops_18]; after_results_simp; exact h_v369
  · simp only [ops_18]; after_results_simp; (try simp only [cast_eq, hA0, hA1, hA2, hA3, hA4, h_v184, h_v369]); rfl

set_option maxRecDepth 16384 in
set_option maxHeartbeats 8000000 in
/-- Stretch 19: if the buffers it reads hold their stages (as functions of the argument arrays), so do the buffers
    read after it, and the argument arrays are kept. -/
theorem step_19 (V : Valuation τ sig (Elt Ideal))
    (a0 a1 : (⟨S2x300x256x256, .f32⟩ : BufTy).Contents (Elt Ideal)) (a2 a3 : (⟨S2x300x4, .f32⟩ : BufTy).Contents (Elt Ideal))
    (a4 : (⟨S2x12544x2, .f32⟩ : BufTy).Contents (Elt Ideal))
    (hA0 : V (Proc.devRef .tc main_arg0) = a0) (hA1 : V (Proc.devRef .tc main_arg1) = a1) (hA2 : V (Proc.devRef .tc main_arg2) = a2)
    (hA3 : V (Proc.devRef .tc main_arg3) = a3) (hA4 : V (Proc.devRef .tc main_arg4) = a4)
    (h_v184 : V (Proc.devRef .tc main_v184) = ReadP.val_main_v184 (F := Ideal) a0 a4)
    (h_v369 : V (Proc.devRef .tc main_v369) = ReadP.val_main_v369 (F := Ideal) a1 a4)
    (h_v377 : V (Proc.devRef .tc main_v377) = ReadP.val_main_v377 (F := Ideal) a0 a1 a4) :
    after (ops_19 (F := Ideal)) V (Proc.devRef .tc main_arg0) = a0
    ∧ after (ops_19 (F := Ideal)) V (Proc.devRef .tc main_arg1) = a1
    ∧ after (ops_19 (F := Ideal)) V (Proc.devRef .tc main_arg2) = a2
    ∧ after (ops_19 (F := Ideal)) V (Proc.devRef .tc main_arg3) = a3
    ∧ after (ops_19 (F := Ideal)) V (Proc.devRef .tc main_arg4) = a4
    ∧ after (ops_19 (F := Ideal)) V (Proc.devRef .tc main_v379) = ReadP.val_main_v379 (F := Ideal) a0 a1 a4
    ∧ after (ops_19 (F := Ideal)) V (Proc.devRef .tc main_v400) = ReadP.val_main_v400 (F := Ideal) a0 a1 a4 := by
  refine ⟨?_, ?_, ?_, ?_, ?_, ?_, ?_⟩
  · simp only [ops_19]; after_results_simp; exact hA0
  · simp only [ops_19]; after_results_simp; exact hA1
  · simp only [ops_19]; after_results_simp; exact hA2
  · simp only [ops_19]; after_results_simp; exact hA3
  · simp only [ops_19]; after_results_simp; exact hA4
  · simp only [ops_19]; after_results_simp; (try simp only [cast_eq, hA0, hA1, hA2, hA3, hA4, h_v184, h_v369, h_v377]); rfl
  · simp only [ops_19]; after_results_simp; (try simp only [cast_eq, hA0, hA1, hA2, hA3, hA4, h_v184, h_v369, h_v377]); rfl

end Cert.ReferenceIdeal.ValueH

end
-- ==== Proof.RefStep5.lean ====
/-
  Stretches 20 to 23 of the reference's operations, each run from arbitrary buffer contents: if the buffers a
  stretch reads hold the stages of the reading (the value each operation writes, as a function of the five
  argument arrays), then after the stretch the buffers read later hold theirs, and the argument arrays are
  as before. Each buffer's contents after the stretch is computed by folding the operations' results; a
  concatenation's operands are buffers of an earlier stretch and are replaced by their stages directly
  (for a concatenation of four, at the spelling "operand k of the list of four" in which the fold leaves them).
-/
import proofs.«176196_j77713138253901_2_alg».proof.Proof.RefOps
import proofs.«176196_j77713138253901_2_alg».proof.Proof.RefReadP

noncomputable section

namespace Cert.ReferenceIdeal.ValueH

open Cert.ReferenceIdeal Cert.ReferenceIdeal.Gen Idealize.ShloMosaic Idealize.ShloMosaic.TcCoe Idealize.SL.Sem Idealize.ShloMosaic.StableHlo

set_option maxRecDepth 16384 in
set_option maxHeartbeats 8000000 in
/-- Stretch 20: if the buffers it reads hold their stages (as functions of the argument arrays), so do the buffers
    read after it, and the argument arrays are kept. -/
theorem step_20 (V : Valuation τ sig (Elt Ideal))
    (a0 a1 : (⟨S2x300x256x256, .f32⟩ : BufTy).Contents (Elt Ideal)) (a2 a3 : (⟨S2x300x4, .f32⟩ : BufTy).Contents (Elt Ideal))
    (a4 : (⟨S2x12544x2, .f32⟩ : BufTy).Contents (Elt Ideal))
    (hA0 : V (Proc.devRef .tc main_arg0) = a0) (hA1 : V (Proc.devRef .tc main_arg1) = a1) (hA2 : V (Proc.devRef .tc main_arg2) = a2)
    (hA3 : V (Proc.devRef .tc main_arg3) = a3) (hA4 : V (Proc.devRef .tc main_arg4) = a4)
    (h_v379 : V (Proc.devRef .tc main_v379) = ReadP.val_main_v379 (F := Ideal) a0 a1 a4)
    (h_v400 : V (Proc.devRef .tc main_v400) = ReadP.val_main_v400 (F := Ideal) a0 a1 a4) :
    after (ops_20 (F := Ideal)) V (Proc.devRef .tc main_arg0) = a0
    ∧ after (ops_20 (F := Ideal)) V (Proc.devRef .tc main_arg1) = a1
    ∧ after (ops_20 (F := Ideal)) V (Proc.devRef .tc main_arg2) = a2
    ∧ after (ops_20 (F := Ideal)) V (Proc.devRef .tc main_arg3) = a3
    ∧ after (ops_20 (F := Ideal)) V (Proc.devRef .tc main_arg4) = a4
    ∧ after (ops_20 (F := Ideal)) V (Proc.devRef .tc main_v379) = ReadP.val_main_v379 (F := Ideal) a0 a1 a4
    ∧ after (ops_20 (F := Ideal)) V (Proc.devRef .tc main_v402) = ReadP.val_main_v402 (F := Ideal) a0 a1 a4
    ∧ after (ops_20 (F := Ideal)) V (Proc.devRef .tc main_v409) = ReadP.val_main_v409 (F := Ideal) a2 a3
    ∧ after (ops_20 (F := Ideal)) V (Proc.devRef .tc main_v430) = ReadP.val_main_v430 (F := Ideal) a2
    ∧ after (ops_20 (F := Ideal)) V (Proc.devRef .tc main_v431) = ReadP.val_main_v431 (F := Ideal) a2
    ∧ after (ops_20 (F := Ideal)) V (Proc.devRef .tc main_v432) = ReadP.val_main_v432 (F := Ideal) a2
    ∧ after (ops_20 (F := Ideal)) V (Proc.devRef .tc main_v433) = ReadP.val_main_v433 (F := Ideal) a2 := by
  refine ⟨?_, ?_, ?_, ?_, ?_, ?_, ?_, ?_, ?_, ?_, ?_, ?_⟩
  · simp only [ops_20]; after_results_simp; exact hA0
  · simp only [ops_20]; after_results_simp; exact hA1
  · simp only [ops_20]; after_results_simp; exact hA2
  · simp only [ops_20]; after_results_simp; exact hA3
  · simp only [ops_20]; after_results_simp; exact hA4
  · simp only [ops_20]; after_results_simp; exact h_v379
  · simp only [ops_20]; after_results_simp; (try simp only [cast_eq, hA0, hA1, hA2, hA3, hA4, h_v379, h_v400]); rfl
  · simp only [ops_20]; after_results_simp; (try simp only [cast_eq, hA0, hA1, hA2, hA3, hA4, h_v379, h_v400]); rfl
  · simp only [ops_20]; after_results_simp; (try simp only [cast_eq, hA0, hA1, hA2, hA3, hA4, h_v379, h_v400]); rfl
  · simp only [ops_20]; after_results_simp; (try simp only [cast_eq, hA0, hA1, hA2, hA3, hA4, h_v379, h_v400]); rfl
  · simp only [ops_20]; after_results_simp; (try simp only [cast_eq, hA0, hA1, hA2, hA3, hA4, h_v379, h_v400]); rfl
  · simp only [ops_20]; after_results_simp; (try simp only [cast_eq, hA0, hA1, hA2, hA3, hA4, h_v379, h_v400]); rfl

set_option maxRecDepth 16384 in
set_option maxHeartbeats 8000000 in
/-- Stretch 21: if the buffers it reads hold their stages (as functions of the argument arrays), so do the buffers
    read after it, and the argument arrays are kept. -/
theorem step_21 (V : Valuation τ sig (Elt Ideal))
    (a0 a1 : (⟨S2x300x256x256, .f32⟩ : BufTy).Contents (Elt Ideal)) (a2 a3 : (⟨S2x300x4, .f32⟩ : BufTy).Contents (Elt Ideal))
    (a4 : (⟨S2x12544x2, .f32⟩ : BufTy).Contents (Elt Ideal))
    (hA0 : V (Proc.devRef .tc main_arg0) = a0) (hA1 : V (Proc.devRef .tc main_arg1) = a1) (hA2 : V (Proc.devRef .tc main_arg2) = a2)
    (hA3 : V (Proc.devRef .tc main_arg3) = a3) (hA4 : V (Proc.devRef .tc main_arg4) = a4)
    (h_v379 : V (Proc.devRef .tc main_v379) = ReadP.val_main_v379 (F := Ideal) a0 a1 a4)
    (h_v402 : V (Proc.devRef .tc main_v402) = ReadP.val_main_v402 (F := Ideal) a0 a1 a4)
    (h_v409 : V (Proc.devRef .tc main_v409) = ReadP.val_main_v409 (F := Ideal) a2 a3)
    (h_v430 : V (Proc.devRef .tc main_v430) = ReadP.val_main_v430 (F := Ideal) a2)
    (h_v431 : V (Proc.devRef .tc main_v431) = ReadP.val_main_v431 (F := Ideal) a2)
    (h_v432 : V (Proc.devRef .tc main_v432) = ReadP.val_main_v432 (F := Ideal) a2)
    (h_v433 : V (Proc.devRef .tc main_v433) = ReadP.val_main_v433 (F := Ideal) a2) :
    after (ops_21 (F := Ideal)) V (Proc.devRef .tc main_arg0) = a0
    ∧ after (ops_21 (F := Ideal)) V (Proc.devRef .tc main_arg1) = a1
    ∧ after (ops_21 (F := Ideal)) V (Proc.devRef .tc main_arg2) = a2
    ∧ after (ops_21 (F := Ideal)) V (Proc.devRef .tc main_arg3) = a3
    ∧ after (ops_21 (F := Ideal)) V (Proc.devRef .tc main_arg4) = a4
    ∧ after (ops_21 (F := Ideal)) V (Proc.devRef .tc main_v379) = ReadP.val_main_v379 (F := Ideal) a0 a1 a4
    ∧ after (ops_21 (F := Ideal)) V (Proc.devRef .tc main_v402) = ReadP.val_main_v402 (F := Ideal) a0 a1 a4
    ∧ after (ops_21 (F := Ideal)) V (Proc.devRef .tc main_v409) = ReadP.val_main_v409 (F := Ideal) a2 a3
    ∧ after (ops_21 (F := Ideal)) V (Proc.devRef .tc main_v434) = ReadP.val_main_v434 (F := Ideal) a2
    ∧ after (ops_21 (F := Ideal)) V (Proc.devRef .tc main_v455) = ReadP.val_main_v455 (F := Ideal) a3
    ∧ after (ops_21 (F := Ideal)) V (Proc.devRef .tc main_v456) = ReadP.val_main_v456 (F := Ideal) a3
    ∧ after (ops_21 (F := Ideal)) V (Proc.devRef .tc main_v457) = ReadP.val_main_v457 (F := Ideal) a3
    ∧ after (ops_21 (F := Ideal)) V (Proc.devRef .tc main_v458) = ReadP.val_main_v458 (F := Ideal) a3 := by
  have h_v430' : V (Proc.devRef .tc ((![main_v430, main_v431, main_v432, main_v433] : Fin 4 → Ref sig .tc) 0)) = ReadP.val_main_v430 (F := Ideal) a2 := h_v430
  have h_v431' : V (Proc.devRef .tc ((![main_v430, main_v431, main_v432, main_v433] : Fin 4 → Ref sig .tc) 1)) = ReadP.val_main_v431 (F := Ideal) a2 := h_v431
  have h_v432' : V (Proc.devRef .tc ((![main_v430, main_v431, main_v432, main_v433] : Fin 4 → Ref sig .tc) 2)) = ReadP.val_main_v432 (F := Ideal) a2 := h_v432
  have h_v433' : V (Proc.devRef .tc ((![main_v430, main_v431, main_v432, main_v433] : Fin 4 → Ref sig .tc) 3)) = ReadP.val_main_v433 (F := Ideal) a2 := h_v433
  refine ⟨?_, ?_, ?_, ?_, ?_, ?_, ?_, ?_, ?_, ?_, ?_, ?_, ?_⟩
  · simp only [ops_21]; after_results_simp; exact hA0
  · simp only [ops_21]; after_results_simp; exact hA1
  · simp only [ops_21]; after_results_simp; exact hA2
  · simp only [ops_21]; after_results_simp; exact hA3
  · simp only [ops_21]; after_results_simp; exact hA4
  · simp only [ops_21]; after_results_simp; exact h_v379
  · simp only [ops_21]; after_results_simp; exact h_v402
  · simp only [ops_21]; after_results_simp; exact h_v409
  · simp only [ops_21]; after_results_simp; (try simp only [cast_eq, hA0, hA1, hA2, hA3, hA4, h_v379, h_v402, h_v409, h_v430, h_v431, h_v432, h_v433]); (try rw [h_v430']); (try rw [h_v431']); (try rw [h_v432']); (try rw [h_v433']); rfl
  · simp only [ops_21]; after_results_simp; (try simp only [cast_eq, hA0, hA1, hA2, hA3, hA4, h_v379, h_v402, h_v409, h_v430, h_v431, h_v432, h_v433]); (try rw [h_v430']); (try rw [h_v431']); (try rw [h_v432']); (try rw [h_v433']); rfl
  · simp only [ops_21]; after_results_simp; (try simp only [cast_eq, hA0, hA1, hA2, hA3, hA4, h_v379, h_v402, h_v409, h_v430, h_v431, h_v432, h_v433]); (try rw [h_v430']); (try rw [h_v431']); (try rw [h_v432']); (try rw [h_v433']); rfl
  · simp only [ops_21]; after_results_simp; (try simp only [cast_eq, hA0, hA1, hA2, hA3, hA4, h_v379, h_v402, h_v409, h_v430, h_v431, h_v432, h_v433]); (try rw [h_v430']); (try rw [h_v431']); (try rw [h_v432']); (try rw [h_v433']); rfl
  · simp only [ops_21]; after_results_simp; (try simp only [cast_eq, hA0, hA1, hA2, hA3, hA4, h_v379, h_v402, h_v409, h_v430, h_v431, h_v432, h_v433]); (try rw [h_v430']); (try rw [h_v431']); (try rw [h_v432']); (try rw [h_v433']); rfl

set_option maxRecDepth 16384 in
set_option maxHeartbeats 8000000 in
/-- Stretch 22: if the buffers it reads hold their stages (as functions of the argument arrays), so do the buffers
    read after it, and the argument arrays are kept. -/
theorem step_22 (V : Valuation τ sig (Elt Ideal))
    (a0 a1 : (⟨S2x300x256x256, .f32⟩ : BufTy).Contents (Elt Ideal)) (a2 a3 : (⟨S2x300x4, .f32⟩ : BufTy).Contents (Elt Ideal))
    (a4 : (⟨S2x12544x2, .f32⟩ : BufTy).Contents (Elt Ideal))
    (hA0 : V (Proc.devRef .tc main_arg0) = a0) (hA1 : V (Proc.devRef .tc main_arg1) = a1) (hA2 : V (Proc.devRef .tc main_arg2) = a2)
    (hA3 : V (Proc.devRef .tc main_arg3) = a3) (hA4 : V (Proc.devRef .tc main_arg4) = a4)
    (h_v379 : V (Proc.devRef .tc main_v379) = ReadP.val_main_v379 (F := Ideal) a0 a1 a4)
    (h_v402 : V (Proc.devRef .tc main_v402) = ReadP.val_main_v402 (F := Ideal) a0 a1 a4)
    (h_v409 : V (Proc.devRef .tc main_v409) = ReadP.val_main_v409 (F := Ideal) a2 a3)
    (h_v434 : V (Proc.devRef .tc main_v434) = ReadP.val_main_v434 (F := Ideal) a2)
    (h_v455 : V (Proc.devRef .tc main_v455) = ReadP.val_main_v455 (F := Ideal) a3)
    (h_v456 : V (Proc.devRef .tc main_v456) = ReadP.val_main_v456 (F := Ideal) a3)
    (h_v457 : V (Proc.devRef .tc main_v457) = ReadP.val_main_v457 (F := Ideal) a3)
    (h_v458 : V (Proc.devRef .tc main_v458) = ReadP.val_main_v458 (F := Ideal) a3) :
    after (ops_22 (F := Ideal)) V (Proc.devRef .tc main_arg0) = a0
    ∧ after (ops_22 (F := Ideal)) V (Proc.devRef .tc main_arg1) = a1
    ∧ after (ops_22 (F := Ideal)) V (Proc.devRef .tc main_arg2) = a2
    ∧ after (ops_22 (F := Ideal)) V (Proc.devRef .tc main_arg3) = a3
    ∧ after (ops_22 (F := Ideal)) V (Proc.devRef .tc main_arg4) = a4
    ∧ after (ops_22 (F := Ideal)) V (Proc.devRef .tc main_v379) = ReadP.val_main_v379 (F := Ideal) a0 a1 a4
    ∧ after (ops_22 (F := Ideal)) V (Proc.devRef .tc main_v402) = ReadP.val_main_v402 (F := Ideal) a0 a1 a4
    ∧ after (ops_22 (F := Ideal)) V (Proc.devRef .tc main_v409) = ReadP.val_main_v409 (F := Ideal) a2 a3
    ∧ after (ops_22 (F := Ideal)) V (Proc.devRef .tc main_v434) = ReadP.val_main_v434 (F := Ideal) a2
    ∧ after (ops_22 (F := Ideal)) V (Proc.devRef .tc main_v459) = ReadP.val_main_v459 (F := Ideal) a3
    ∧ after (ops_22 (F := Ideal)) V (Proc.devRef .tc main_v470) = ReadP.val_main_v470 (F := Ideal) a2
    ∧ after (ops_22 (F := Ideal)) V (Proc.devRef .tc main_v481) = ReadP.val_main_v481 (F := Ideal) a3
    ∧ after (ops_22 (F := Ideal)) V (Proc.devRef .tc main_v502) = ReadP.val_main_v502 (F := Ideal) a2 a3 := by
  have h_v455' : V (Proc.devRef .tc ((![main_v455, main_v456, main_v457, main_v458] : Fin 4 → Ref sig .tc) 0)) = ReadP.val_main_v455 (F := Ideal) a3 := h_v455
  have h_v456' : V (Proc.devRef .tc ((![main_v455, main_v456, main_v457, main_v458] : Fin 4 → Ref sig .tc) 1)) = ReadP.val_main_v456 (F := Ideal) a3 := h_v456
  have h_v457' : V (Proc.devRef .tc ((![main_v455, main_v456, main_v457, main_v458] : Fin 4 → Ref sig .tc) 2)) = ReadP.val_main_v457 (F := Ideal) a3 := h_v457
  have h_v458' : V (Proc.devRef .tc ((![main_v455, main_v456, main_v457, main_v458] : Fin 4 → Ref sig .tc) 3)) = ReadP.val_main_v458 (F := Ideal) a3 := h_v458
  refine ⟨?_, ?_, ?_, ?_, ?_, ?_, ?_, ?_, ?_, ?_, ?_, ?_, ?_⟩
  · simp only [ops_22]; after_results_simp; exact hA0
  · simp only [ops_22]; after_results_simp; exact hA1
  · simp only [ops_22]; after_results_simp; exact hA2
  · simp only [ops_22]; after_results_simp; exact hA3
  · simp only [ops_22]; after_results_simp; exact hA4
  · simp only [ops_22]; after_results_simp; exact h_v379
  · simp only [ops_22]; after_results_simp; exact h_v402
  · simp only [ops_22]; after_results_simp; exact h_v409
  · simp only [ops_22]; after_results_simp; exact h_v434
  · simp only [ops_22]; after_results_simp; (try simp only [cast_eq, hA0, hA1, hA2, hA3, hA4, h_v379, h_v402, h_v409, h_v434, h_v455, h_v456, h_v457, h_v458]); (try rw [h_v455']); (try rw [h_v456']); (try rw [h_v457']); (try rw [h_v458']); rfl
  · simp only [ops_22]; after_results_simp; (try simp only [cast_eq, hA0, hA1, hA2, hA3, hA4, h_v379, h_v402, h_v409, h_v434, h_v455, h_v456, h_v457, h_v458]); (try rw [h_v455']); (try rw [h_v456']); (try rw [h_v457']); (try rw [h_v458']); rfl
  · simp only [ops_22]; after_results_simp; (try simp only [cast_eq, hA0, hA1, hA2, hA3, hA4, h_v379, h_v402, h_v409, h_v434, h_v455, h_v456, h_v457, h_v458]); (try rw [h_v455']); (try rw [h_v456']); (try rw [h_v457']); (try rw [h_v458']); rfl
  · simp only [ops_22]; after_results_simp; (try simp only [cast_eq, hA0, hA1, hA2, hA3, hA4, h_v379, h_v402, h_v409, h_v434, h_v455, h_v456, h_v457, h_v458]); (try rw [h_v455']); (try rw [h_v456']); (try rw [h_v457']); (try rw [h_v458']); rfl

set_option maxRecDepth 16384 in
set_option maxHeartbeats 8000000 in
/-- Stretch 23: if the buffers it reads hold their stages (as functions of the argument arrays), so do the buffers
    read after it, and the argument arrays are kept. -/
theorem step_23 (V : Valuation τ sig (Elt Ideal))
    (a0 a1 : (⟨S2x300x256x256, .f32⟩ : BufTy).Contents (Elt Ideal)) (a2 a3 : (⟨S2x300x4, .f32⟩ : BufTy).Contents (Elt Ideal))
    (a4 : (⟨S2x12544x2, .f32⟩ : BufTy).Contents (Elt Ideal))
    (hA0 : V (Proc.devRef .tc main_arg0) = a0) (hA1 : V (Proc.devRef .tc main_arg1) = a1) (hA2 : V (Proc.devRef .tc main_arg2) = a2)
    (hA3 : V (Proc.devRef .tc main_arg3) = a3) (hA4 : V (Proc.devRef .tc main_arg4) = a4)
    (h_v379 : V (Proc.devRef .tc main_v379) = ReadP.val_main_v379 (F := Ideal) a0 a1 a4)
    (h_v402 : V (Proc.devRef .tc main_v402) = ReadP.val_main_v402 (F := Ideal) a0 a1 a4)
    (h_v409 : V (Proc.devRef .tc main_v409) = ReadP.val_main_v409 (F := Ideal) a2 a3)
    (h_v434 : V (Proc.devRef .tc main_v434) = ReadP.val_main_v434 (F := Ideal) a2)
    (h_v459 : V (Proc.devRef .tc main_v459) = ReadP.val_main_v459 (F := Ideal) a3)
    (h_v470 : V (Proc.devRef .tc main_v470) = ReadP.val_main_v470 (F := Ideal) a2)
    (h_v481 : V (Proc.devRef .tc main_v481) = ReadP.val_main_v481 (F := Ideal) a3)
    (h_v502 : V (Proc.devRef .tc main_v502) = ReadP.val_main_v502 (F := Ideal) a2 a3) :
    after (ops_23 (F := Ideal)) V (Proc.devRef .tc main_arg0) = a0
    ∧ after (ops_23 (F := Ideal)) V (Proc.devRef .tc main_arg1) = a1
    ∧ after (ops_23 (F := Ideal)) V (Proc.devRef .tc main_arg2) = a2
    ∧ after (ops_23 (F := Ideal)) V (Proc.devRef .tc main_arg3) = a3
    ∧ after (ops_23 (F := Ideal)) V (Proc.devRef .tc main_arg4) = a4
    ∧ after (ops_23 (F := Ideal)) V (Proc.devRef .tc main_v534) = ReadP.val_main_v534 (F := Ideal) a2 a3
    ∧ after (ops_23 (F := Ideal)) V (Proc.devRef .tc main_v542) = ReadP.val_main_v542 (F := Ideal) a0 a1 a2 a3 a4 := by
  refine ⟨?_, ?_, ?_, ?_, ?_, ?_, ?_⟩
  · simp only [ops_23]; after_results_simp; exact hA0
  · simp only [ops_23]; after_results_simp; exact hA1
  · simp only [ops_23]; after_results_simp; exact hA2
  · simp only [ops_23]; after_results_simp; exact hA3
  · simp only [ops_23]; after_results_simp; exact hA4
  · simp only [ops_23]; after_results_simp; (try simp only [cast_eq, hA0, hA1, hA2, hA3, hA4, h_v379, h_v402, h_v409, h_v434, h_v459, h_v470, h_v481, h_v502]); rfl
  · simp only [ops_23]; after_results_simp; (try simp only [cast_eq, hA0, hA1, hA2, hA3, hA4, h_v379, h_v402, h_v409, h_v434, h_v459, h_v470, h_v481, h_v502]); rfl

end Cert.ReferenceIdeal.ValueH

end
-- ==== Proof.RefStep6.lean ====
/-
  Stretches 24 to 24 of the reference's operations, each run from arbitrary buffer contents: if the buffers a
  stretch reads hold the stages of the reading (the value each operation writes, as a function of the five
  argument arrays), then after the stretch the buffers read later hold theirs, and the argument arrays are
  as before. Each buffer's contents after the stretch is computed by folding the operations' results; a
  concatenation's operands are buffers of an earlier stretch and are replaced by their stages directly.
-/
import proofs.«176196_j77713138253901_2_alg».proof.Proof.RefOps
import proofs.«176196_j77713138253901_2_alg».proof.Proof.RefReadP

noncomputable section

namespace Cert.ReferenceIdeal.ValueH

open Cert.ReferenceIdeal Cert.ReferenceIdeal.Gen Idealize.ShloMosaic Idealize.ShloMosaic.TcCoe Idealize.SL.Sem Idealize.ShloMosaic.StableHlo

set_option maxRecDepth 16384 in
set_option maxHeartbeats 8000000 in
/-- Stretch 24: if the buffers it reads hold their stages (as functions of the argument arrays), so do the buffers
    read after it, and the argument arrays are kept. -/
theorem step_24 (V : Valuation τ sig (Elt Ideal))
    (a0 a1 : (⟨S2x300x256x256, .f32⟩ : BufTy).Contents (Elt Ideal)) (a2 a3 : (⟨S2x300x4, .f32⟩ : BufTy).Contents (Elt Ideal))
    (a4 : (⟨S2x12544x2, .f32⟩ : BufTy).Contents (Elt Ideal))
    (hA0 : V (Proc.devRef .tc main_arg0) = a0) (hA1 : V (Proc.devRef .tc main_arg1) = a1) (hA2 : V (Proc.devRef .tc main_arg2) = a2)
    (hA3 : V (Proc.devRef .tc main_arg3) = a3) (hA4 : V (Proc.devRef .tc main_arg4) = a4)
    (h_v534 : V (Proc.devRef .tc main_v534) = ReadP.val_main_v534 (F := Ideal) a2 a3)
    (h_v542 : V (Proc.devRef .tc main_v542) = ReadP.val_main_v542 (F := Ideal) a0 a1 a2 a3 a4) :
    after (ops_24 (F := Ideal)) V (Proc.devRef .tc main_arg0) = a0
    ∧ after (ops_24 (F := Ideal)) V (Proc.devRef .tc main_arg1) = a1
    ∧ after (ops_24 (F := Ideal)) V (Proc.devRef .tc main_arg2) = a2
    ∧ after (ops_24 (F := Ideal)) V (Proc.devRef .tc main_arg3) = a3
    ∧ after (ops_24 (F := Ideal)) V (Proc.devRef .tc main_arg4) = a4
    ∧ after (ops_24 (F := Ideal)) V (Proc.devRef .tc main_v545) = ReadP.val_main_v545 (F := Ideal) a0 a1 a2 a3 a4 := by
  refine ⟨?_, ?_, ?_, ?_, ?_, ?_⟩
  · simp only [ops_24]; after_results_simp; exact hA0
  · simp only [ops_24]; after_results_simp; exact hA1
  · simp only [ops_24]; after_results_simp; exact hA2
  · simp only [ops_24]; after_results_simp; exact hA3
  · simp only [ops_24]; after_results_simp; exact hA4
  · simp only [ops_24]; after_results_simp; (try simp only [cast_eq, hA0, hA1, hA2, hA3, hA4, h_v534, h_v542]); rfl

end Cert.ReferenceIdeal.ValueH

end
-- ==== Proof.RefRunH.lean ====
/-
  The run of the reference: the stretches chained. From the launch's contents each stretch hands the next the
  buffers it needs at their stages, so that after the last one the result buffer holds the last stage of the
  reading, a function of the five argument arrays, and the arguments are unchanged; every weakly fair
  execution of @main ends in such a memory.
-/
import proofs.«176196_j77713138253901_2_alg».proof.Proof.RefOps
import proofs.«176196_j77713138253901_2_alg».proof.Proof.RefReadP
import proofs.«176196_j77713138253901_2_alg».proof.Proof.RefStep0
import proofs.«176196_j77713138253901_2_alg».proof.Proof.RefStep1
import proofs.«176196_j77713138253901_2_alg».proof.Proof.RefStep2
import proofs.«176196_j77713138253901_2_alg».proof.Proof.RefStep3
import proofs.«176196_j77713138253901_2_alg».proof.Proof.RefStep4
import proofs.«176196_j77713138253901_2_alg».proof.Proof.RefStep5
import proofs.«176196_j77713138253901_2_alg».proof.Proof.RefStep6

noncomputable section

namespace Cert.ReferenceIdeal.ValueH

open Cert.ReferenceIdeal Cert.ReferenceIdeal.Gen Idealize.ShloMosaic Idealize.ShloMosaic.TcCoe Idealize.SL.Sem Idealize.ShloMosaic.StableHlo

/-- After all 801 operations, from the launch's contents: the result buffer holds the last stage of the argument
    arrays, and the argument buffers hold what they held. -/
theorem after_ops (m : (ℓ : Loc nD τ sig) → Buf (Elt Ideal) ℓ) (c : Dev nD) :
    after (ops (F := Ideal)) (launchContents m c) (Proc.devRef .tc main_v545)
        = ReadP.val_main_v545 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
    ∧ after (ops (F := Ideal)) (launchContents m c) (Proc.devRef .tc main_arg0) = m ((c.tc : Thread nD τ).loc main_arg0)
    ∧ after (ops (F := Ideal)) (launchContents m c) (Proc.devRef .tc main_arg1) = m ((c.tc : Thread nD τ).loc main_arg1)
    ∧ after (ops (F := Ideal)) (launchContents m c) (Proc.devRef .tc main_arg2) = m ((c.tc : Thread nD τ).loc main_arg2)
    ∧ after (ops (F := Ideal)) (launchContents m c) (Proc.devRef .tc main_arg3) = m ((c.tc : Thread nD τ).loc main_arg3)
    ∧ after (ops (F := Ideal)) (launchContents m c) (Proc.devRef .tc main_arg4) = m ((c.tc : Thread nD τ).loc main_arg4) := by
  simp only [ops, after_app]
  obtain ⟨k0_a0, k0_a1, k0_a2, k0_a3, k0_a4, k0_v14, k0_v15, k0_v16, k0_v17⟩ := step_0 (launchContents m c) _ _ _ _ _ rfl rfl rfl rfl rfl
  obtain ⟨k1_a0, k1_a1, k1_a2, k1_a3, k1_a4, k1_v14, k1_v15, k1_v16, k1_v17, k1_v29, k1_v42, k1_v43⟩ := step_1 (after (ops_0 (F := Ideal)) (launchContents m c)) _ _ _ _ _ k0_a0 k0_a1 k0_a2 k0_a3 k0_a4 k0_v14 k0_v15 k0_v16 k0_v17
  obtain ⟨k2_a0, k2_a1, k2_a2, k2_a3, k2_a4, k2_v14, k2_v15, k2_v16, k2_v17, k2_v48, k2_v50⟩ := step_2 (after (ops_1 (F := Ideal)) (after (ops_0 (F := Ideal)) (launchContents m c))) _ _ _ _ _ k1_a0 k1_a1 k1_a2 k1_a3 k1_a4 k1_v14 k1_v15 k1_v16 k1_v17 k1_v29 k1_v42 k1_v43
  obtain ⟨k3_a0, k3_a1, k3_a2, k3_a3, k3_a4, k3_v14, k3_v15, k3_v16, k3_v17, k3_v48, k3_v62, k3_v75, k3_v76⟩ := step_3 (after (ops_2 (F := Ideal)) (after (ops_1 (F := Ideal)) (after (ops_0 (F := Ideal)) (launchContents m c)))) _ _ _ _ _ k2_a0 k2_a1 k2_a2 k2_a3 k2_a4 k2_v14 k2_v15 k2_v16 k2_v17 k2_v48 k2_v50
  obtain ⟨k4_a0, k4_a1, k4_a2, k4_a3, k4_a4, k4_v14, k4_v15, k4_v16, k4_v17, k4_v48, k4_v81, k4_v83⟩ := step_4 (after (ops_3 (F := Ideal)) (after (ops_2 (F := Ideal)) (after (ops_1 (F := Ideal)) (after (ops_0 (F := Ideal)) (launchContents m c))))) _ _ _ _ _ k3_a0 k3_a1 k3_a2 k3_a3 k3_a4 k3_v14 k3_v15 k3_v16 k3_v17 k3_v48 k3_v62 k3_v75 k3_v76
  obtain ⟨k5_a0, k5_a1, k5_a2, k5_a3, k5_a4, k5_v14, k5_v15, k5_v16, k5_v17, k5_v48, k5_v81, k5_v95, k5_v108, k5_v109⟩ := step_5 (after (ops_4 (F := Ideal)) (after (ops_3 (F := Ideal)) (after (ops_2 (F := Ideal)) (after (ops_1 (F := Ideal)) (after (ops_0 (F := Ideal)) (launchContents m c)))))) _ _ _ _ _ k4_a0 k4_a1 k4_a2 k4_a3 k4_a4 k4_v14 k4_v15 k4_v16 k4_v17 k4_v48 k4_v81 k4_v83
  obtain ⟨k6_a0, k6_a1, k6_a2, k6_a3, k6_a4, k6_v14, k6_v15, k6_v48, k6_v81, k6_v114, k6_v116, k6_v118⟩ := step_6 (after (ops_5 (F := Ideal)) (after (ops_4 (F := Ideal)) (after (ops_3 (F := Ideal)) (after (ops_2 (F := Ideal)) (after (ops_1 (F := Ideal)) (after (ops_0 (F := Ideal)) (launchContents m c))))))) _ _ _ _ _ k5_a0 k5_a1 k5_a2 k5_a3 k5_a4 k5_v14 k5_v15 k5_v16 k5_v17 k5_v48 k5_v81 k5_v95 k5_v108 k5_v109
  obtain ⟨k7_a0, k7_a1, k7_a2, k7_a3, k7_a4, k7_v14, k7_v15, k7_v48, k7_v81, k7_v114, k7_v130, k7_v143, k7_v144⟩ := step_7 (after (ops_6 (F := Ideal)) (after (ops_5 (F := Ideal)) (after (ops_4 (F := Ideal)) (after (ops_3 (F := Ideal)) (after (ops_2 (F := Ideal)) (after (ops_1 (F := Ideal)) (after (ops_0 (F := Ideal)) (launchContents m c)))))))) _ _ _ _ _ k6_a0 k6_a1 k6_a2 k6_a3 k6_a4 k6_v14 k6_v15 k6_v48 k6_v81 k6_v114 k6_v116 k6_v118
  obtain ⟨k8_a0, k8_a1, k8_a2, k8_a3, k8_a4, k8_v184⟩ := step_8 (after (ops_7 (F := Ideal)) (after (ops_6 (F := Ideal)) (after (ops_5 (F := Ideal)) (after (ops_4 (F := Ideal)) (after (ops_3 (F := Ideal)) (after (ops_2 (F := Ideal)) (after (ops_1 (F := Ideal)) (after (ops_0 (F := Ideal)) (launchContents m c))))))))) _ _ _ _ _ k7_a0 k7_a1 k7_a2 k7_a3 k7_a4 k7_v14 k7_v15 k7_v48 k7_v81 k7_v114 k7_v130 k7_v143 k7_v144
  obtain ⟨k9_a0, k9_a1, k9_a2, k9_a3, k9_a4, k9_v184, k9_v199, k9_v200, k9_v201, k9_v202⟩ := step_9 (after (ops_8 (F := Ideal)) (after (ops_7 (F := Ideal)) (after (ops_6 (F := Ideal)) (after (ops_5 (F := Ideal)) (after (ops_4 (F := Ideal)) (after (ops_3 (F := Ideal)) (after (ops_2 (F := Ideal)) (after (ops_1 (F := Ideal)) (after (ops_0 (F := Ideal)) (launchContents m c)))))))))) _ _ _ _ _ k8_a0 k8_a1 k8_a2 k8_a3 k8_a4 k8_v184
  obtain ⟨k10_a0, k10_a1, k10_a2, k10_a3, k10_a4, k10_v184, k10_v199, k10_v200, k10_v201, k10_v202, k10_v214, k10_v227, k10_v228⟩ := step_10 (after (ops_9 (F := Ideal)) (after (ops_8 (F := Ideal)) (after (ops_7 (F := Ideal)) (after (ops_6 (F := Ideal)) (after (ops_5 (F := Ideal)) (after (ops_4 (F := Ideal)) (after (ops_3 (F := Ideal)) (after (ops_2 (F := Ideal)) (after (ops_1 (F := Ideal)) (after (ops_0 (F := Ideal)) (launchContents m c))))))))))) _ _ _ _ _ k9_a0 k9_a1 k9_a2 k9_a3 k9_a4 k9_v184 k9_v199 k9_v200 k9_v201 k9_v202
  obtain ⟨k11_a0, k11_a1, k11_a2, k11_a3, k11_a4, k11_v184, k11_v199, k11_v200, k11_v201, k11_v202, k11_v233, k11_v235⟩ := step_11 (after (ops_10 (F := Ideal)) (after (ops_9 (F := Ideal)) (after (ops_8 (F := Ideal)) (after (ops_7 (F := Ideal)) (after (ops_6 (F := Ideal)) (after (ops_5 (F := Ideal)) (after (ops_4 (F := Ideal)) (after (ops_3 (F := Ideal)) (after (ops_2 (F := Ideal)) (after (ops_1 (F := Ideal)) (after (ops_0 (F := Ideal)) (launchContents m c)))))))))))) _ _ _ _ _ k10_a0 k10_a1 k10_a2 k10_a3 k10_a4 k10_v184 k10_v199 k10_v200 k10_v201 k10_v202 k10_v214 k10_v227 k10_v228
  obtain ⟨k12_a0, k12_a1, k12_a2, k12_a3, k12_a4, k12_v184, k12_v199, k12_v200, k12_v201, k12_v202, k12_v233, k12_v247, k12_v260, k12_v261⟩ := step_12 (after (ops_11 (F := Ideal)) (after (ops_10 (F := Ideal)) (after (ops_9 (F := Ideal)) (after (ops_8 (F := Ideal)) (after (ops_7 (F := Ideal)) (after (ops_6 (F := Ideal)) (after (ops_5 (F := Ideal)) (after (ops_4 (F := Ideal)) (after (ops_3 (F := Ideal)) (after (ops_2 (F := Ideal)) (after (ops_1 (F := Ideal)) (after (ops_0 (F := Ideal)) (launchContents m c))))))))))))) _ _ _ _ _ k11_a0 k11_a1 k11_a2 k11_a3 k11_a4 k11_v184 k11_v199 k11_v200 k11_v201 k11_v202 k11_v233 k11_v235
  obtain ⟨k13_a0, k13_a1, k13_a2, k13_a3, k13_a4, k13_v184, k13_v199, k13_v200, k13_v201, k13_v202, k13_v233, k13_v266, k13_v268⟩ := step_13 (after (ops_12 (F := Ideal)) (after (ops_11 (F := Ideal)) (after (ops_10 (F := Ideal)) (after (ops_9 (F := Ideal)) (after (ops_8 (F := Ideal)) (after (ops_7 (F := Ideal)) (after (ops_6 (F := Ideal)) (after (ops_5 (F := Ideal)) (after (ops_4 (F := Ideal)) (after (ops_3 (F := Ideal)) (after (ops_2 (F := Ideal)) (after (ops_1 (F := Ideal)) (after (ops_0 (F := Ideal)) (launchContents m c)))))))))))))) _ _ _ _ _ k12_a0 k12_a1 k12_a2 k12_a3 k12_a4 k12_v184 k12_v199 k12_v200 k12_v201 k12_v202 k12_v233 k12_v247 k12_v260 k12_v261
  obtain ⟨k14_a0, k14_a1, k14_a2, k14_a3, k14_a4, k14_v184, k14_v199, k14_v200, k14_v201, k14_v202, k14_v233, k14_v266, k14_v280, k14_v293, k14_v294⟩ := step_14 (after (ops_13 (F := Ideal)) (after (ops_12 (F := Ideal)) (after (ops_11 (F := Ideal)) (after (ops_10 (F := Ideal)) (after (ops_9 (F := Ideal)) (after (ops_8 (F := Ideal)) (after (ops_7 (F := Ideal)) (after (ops_6 (F := Ideal)) (after (ops_5 (F := Ideal)) (after (ops_4 (F := Ideal)) (after (ops_3 (F := Ideal)) (after (ops_2 (F := Ideal)) (after (ops_1 (F := Ideal)) (after (ops_0 (F := Ideal)) (launchContents m c))))))))))))))) _ _ _ _ _ k13_a0 k13_a1 k13_a2 k13_a3 k13_a4 k13_v184 k13_v199 k13_v200 k13_v201 k13_v202 k13_v233 k13_v266 k13_v268
  obtain ⟨k15_a0, k15_a1, k15_a2, k15_a3, k15_a4, k15_v184, k15_v199, k15_v200, k15_v233, k15_v266, k15_v299, k15_v301, k15_v303⟩ := step_15 (after (ops_14 (F := Ideal)) (after (ops_13 (F := Ideal)) (after (ops_12 (F := Ideal)) (after (ops_11 (F := Ideal)) (after (ops_10 (F := Ideal)) (after (ops_9 (F := Ideal)) (after (ops_8 (F := Ideal)) (after (ops_7 (F := Ideal)) (after (ops_6 (F := Ideal)) (after (ops_5 (F := Ideal)) (after (ops_4 (F := Ideal)) (after (ops_3 (F := Ideal)) (after (ops_2 (F := Ideal)) (after (ops_1 (F := Ideal)) (after (ops_0 (F := Ideal)) (launchContents m c)))))))))))))))) _ _ _ _ _ k14_a0 k14_a1 k14_a2 k14_a3 k14_a4 k14_v184 k14_v199 k14_v200 k14_v201 k14_v202 k14_v233 k14_v266 k14_v280 k14_v293 k14_v294
  obtain ⟨k16_a0, k16_a1, k16_a2, k16_a3, k16_a4, k16_v184, k16_v199, k16_v200, k16_v233, k16_v266, k16_v299, k16_v315, k16_v328, k16_v329⟩ := step_16 (after (ops_15 (F := Ideal)) (after (ops_14 (F := Ideal)) (after (ops_13 (F := Ideal)) (after (ops_12 (F := Ideal)) (after (ops_11 (F := Ideal)) (after (ops_10 (F := Ideal)) (after (ops_9 (F := Ideal)) (after (ops_8 (F := Ideal)) (after (ops_7 (F := Ideal)) (after (ops_6 (F := Ideal)) (after (ops_5 (F := Ideal)) (after (ops_4 (F := Ideal)) (after (ops_3 (F := Ideal)) (after (ops_2 (F := Ideal)) (after (ops_1 (F := Ideal)) (after (ops_0 (F := Ideal)) (launchContents m c))))))))))))))))) _ _ _ _ _ k15_a0 k15_a1 k15_a2 k15_a3 k15_a4 k15_v184 k15_v199 k15_v200 k15_v233 k15_v266 k15_v299 k15_v301 k15_v303
  obtain ⟨k17_a0, k17_a1, k17_a2, k17_a3, k17_a4, k17_v184, k17_v369⟩ := step_17 (after (ops_16 (F := Ideal)) (after (ops_15 (F := Ideal)) (after (ops_14 (F := Ideal)) (after (ops_13 (F := Ideal)) (after (ops_12 (F := Ideal)) (after (ops_11 (F := Ideal)) (after (ops_10 (F := Ideal)) (after (ops_9 (F := Ideal)) (after (ops_8 (F := Ideal)) (after (ops_7 (F := Ideal)) (after (ops_6 (F := Ideal)) (after (ops_5 (F := Ideal)) (after (ops_4 (F := Ideal)) (after (ops_3 (F := Ideal)) (after (ops_2 (F := Ideal)) (after (ops_1 (F := Ideal)) (after (ops_0 (F := Ideal)) (launchContents m c)))))))))))))))))) _ _ _ _ _ k16_a0 k16_a1 k16_a2 k16_a3 k16_a4 k16_v184 k16_v199 k16_v200 k16_v233 k16_v266 k16_v299 k16_v315 k16_v328 k16_v329
  obtain ⟨k18_a0, k18_a1, k18_a2, k18_a3, k18_a4, k18_v184, k18_v369, k18_v377⟩ := step_18 (after (ops_17 (F := Ideal)) (after (ops_16 (F := Ideal)) (after (ops_15 (F := Ideal)) (after (ops_14 (F := Ideal)) (after (ops_13 (F := Ideal)) (after (ops_12 (F := Ideal)) (after (ops_11 (F := Ideal)) (after (ops_10 (F := Ideal)) (after (ops_9 (F := Ideal)) (after (ops_8 (F := Ideal)) (after (ops_7 (F := Ideal)) (after (ops_6 (F := Ideal)) (after (ops_5 (F := Ideal)) (after (ops_4 (F := Ideal)) (after (ops_3 (F := Ideal)) (after (ops_2 (F := Ideal)) (after (ops_1 (F := Ideal)) (after (ops_0 (F := Ideal)) (launchContents m c))))))))))))))))))) _ _ _ _ _ k17_a0 k17_a1 k17_a2 k17_a3 k17_a4 k17_v184 k17_v369
  obtain ⟨k19_a0, k19_a1, k19_a2, k19_a3, k19_a4, k19_v379, k19_v400⟩ := step_19 (after (ops_18 (F := Ideal)) (after (ops_17 (F := Ideal)) (after (ops_16 (F := Ideal)) (after (ops_15 (F := Ideal)) (after (ops_14 (F := Ideal)) (after (ops_13 (F := Ideal)) (after (ops_12 (F := Ideal)) (after (ops_11 (F := Ideal)) (after (ops_10 (F := Ideal)) (after (ops_9 (F := Ideal)) (after (ops_8 (F := Ideal)) (after (ops_7 (F := Ideal)) (after (ops_6 (F := Ideal)) (after (ops_5 (F := Ideal)) (after (ops_4 (F := Ideal)) (after (ops_3 (F := Ideal)) (after (ops_2 (F := Ideal)) (after (ops_1 (F := Ideal)) (after (ops_0 (F := Ideal)) (launchContents m c)))))))))))))))))))) _ _ _ _ _ k18_a0 k18_a1 k18_a2 k18_a3 k18_a4 k18_v184 k18_v369 k18_v377
  obtain ⟨k20_a0, k20_a1, k20_a2, k20_a3, k20_a4, k20_v379, k20_v402, k20_v409, k20_v430, k20_v431, k20_v432, k20_v433⟩ := step_20 (after (ops_19 (F := Ideal)) (after (ops_18 (F := Ideal)) (after (ops_17 (F := Ideal)) (after (ops_16 (F := Ideal)) (after (ops_15 (F := Ideal)) (after (ops_14 (F := Ideal)) (after (ops_13 (F := Ideal)) (after (ops_12 (F := Ideal)) (after (ops_11 (F := Ideal)) (after (ops_10 (F := Ideal)) (after (ops_9 (F := Ideal)) (after (ops_8 (F := Ideal)) (after (ops_7 (F := Ideal)) (after (ops_6 (F := Ideal)) (after (ops_5 (F := Ideal)) (after (ops_4 (F := Ideal)) (after (ops_3 (F := Ideal)) (after (ops_2 (F := Ideal)) (after (ops_1 (F := Ideal)) (after (ops_0 (F := Ideal)) (launchContents m c))))))))))))))))))))) _ _ _ _ _ k19_a0 k19_a1 k19_a2 k19_a3 k19_a4 k19_v379 k19_v400
  obtain ⟨k21_a0, k21_a1, k21_a2, k21_a3, k21_a4, k21_v379, k21_v402, k21_v409, k21_v434, k21_v455, k21_v456, k21_v457, k21_v458⟩ := step_21 (after (ops_20 (F := Ideal)) (after (ops_19 (F := Ideal)) (after (ops_18 (F := Ideal)) (after (ops_17 (F := Ideal)) (after (ops_16 (F := Ideal)) (after (ops_15 (F := Ideal)) (after (ops_14 (F := Ideal)) (after (ops_13 (F := Ideal)) (after (ops_12 (F := Ideal)) (after (ops_11 (F := Ideal)) (after (ops_10 (F := Ideal)) (after (ops_9 (F := Ideal)) (after (ops_8 (F := Ideal)) (after (ops_7 (F := Ideal)) (after (ops_6 (F := Ideal)) (after (ops_5 (F := Ideal)) (after (ops_4 (F := Ideal)) (after (ops_3 (F := Ideal)) (after (ops_2 (F := Ideal)) (after (ops_1 (F := Ideal)) (after (ops_0 (F := Ideal)) (launchContents m c)))))))))))))))))))))) _ _ _ _ _ k20_a0 k20_a1 k20_a2 k20_a3 k20_a4 k20_v379 k20_v402 k20_v409 k20_v430 k20_v431 k20_v432 k20_v433
  obtain ⟨k22_a0, k22_a1, k22_a2, k22_a3, k22_a4, k22_v379, k22_v402, k22_v409, k22_v434, k22_v459, k22_v470, k22_v481, k22_v502⟩ := step_22 (after (ops_21 (F := Ideal)) (after (ops_20 (F := Ideal)) (after (ops_19 (F := Ideal)) (after (ops_18 (F := Ideal)) (after (ops_17 (F := Ideal)) (after (ops_16 (F := Ideal)) (after (ops_15 (F := Ideal)) (after (ops_14 (F := Ideal)) (after (ops_13 (F := Ideal)) (after (ops_12 (F := Ideal)) (after (ops_11 (F := Ideal)) (after (ops_10 (F := Ideal)) (after (ops_9 (F := Ideal)) (after (ops_8 (F := Ideal)) (after (ops_7 (F := Ideal)) (after (ops_6 (F := Ideal)) (after (ops_5 (F := Ideal)) (after (ops_4 (F := Ideal)) (after (ops_3 (F := Ideal)) (after (ops_2 (F := Ideal)) (after (ops_1 (F := Ideal)) (after (ops_0 (F := Ideal)) (launchContents m c))))))))))))))))))))))) _ _ _ _ _ k21_a0 k21_a1 k21_a2 k21_a3 k21_a4 k21_v379 k21_v402 k21_v409 k21_v434 k21_v455 k21_v456 k21_v457 k21_v458
  obtain ⟨k23_a0, k23_a1, k23_a2, k23_a3, k23_a4, k23_v534, k23_v542⟩ := step_23 (after (ops_22 (F := Ideal)) (after (ops_21 (F := Ideal)) (after (ops_20 (F := Ideal)) (after (ops_19 (F := Ideal)) (after (ops_18 (F := Ideal)) (after (ops_17 (F := Ideal)) (after (ops_16 (F := Ideal)) (after (ops_15 (F := Ideal)) (after (ops_14 (F := Ideal)) (after (ops_13 (F := Ideal)) (after (ops_12 (F := Ideal)) (after (ops_11 (F := Ideal)) (after (ops_10 (F := Ideal)) (after (ops_9 (F := Ideal)) (after (ops_8 (F := Ideal)) (after (ops_7 (F := Ideal)) (after (ops_6 (F := Ideal)) (after (ops_5 (F := Ideal)) (after (ops_4 (F := Ideal)) (after (ops_3 (F := Ideal)) (after (ops_2 (F := Ideal)) (after (ops_1 (F := Ideal)) (after (ops_0 (F := Ideal)) (launchContents m c)))))))))))))))))))))))) _ _ _ _ _ k22_a0 k22_a1 k22_a2 k22_a3 k22_a4 k22_v379 k22_v402 k22_v409 k22_v434 k22_v459 k22_v470 k22_v481 k22_v502
  obtain ⟨k24_a0, k24_a1, k24_a2, k24_a3, k24_a4, k24_v545⟩ := step_24 (after (ops_23 (F := Ideal)) (after (ops_22 (F := Ideal)) (after (ops_21 (F := Ideal)) (after (ops_20 (F := Ideal)) (after (ops_19 (F := Ideal)) (after (ops_18 (F := Ideal)) (after (ops_17 (F := Ideal)) (after (ops_16 (F := Ideal)) (after (ops_15 (F := Ideal)) (after (ops_14 (F := Ideal)) (after (ops_13 (F := Ideal)) (after (ops_12 (F := Ideal)) (after (ops_11 (F := Ideal)) (after (ops_10 (F := Ideal)) (after (ops_9 (F := Ideal)) (after (ops_8 (F := Ideal)) (after (ops_7 (F := Ideal)) (after (ops_6 (F := Ideal)) (after (ops_5 (F := Ideal)) (after (ops_4 (F := Ideal)) (after (ops_3 (F := Ideal)) (after (ops_2 (F := Ideal)) (after (ops_1 (F := Ideal)) (after (ops_0 (F := Ideal)) (launchContents m c))))))))))))))))))))))))) _ _ _ _ _ k23_a0 k23_a1 k23_a2 k23_a3 k23_a4 k23_v534 k23_v542
  exact ⟨k24_v545, k24_a0, k24_a1, k24_a2, k24_a3, k24_a4⟩

/-- On every device, from any memory with zero counters: every weakly fair execution of @main terminates with the
    result at the last stage of the reading of the argument arrays, and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v545)
          = ReadP.val_main_v545 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => by
      obtain ⟨e, e0, e1, e2, e3, e4⟩ := after_ops m c
      exact ⟨(h c main_v545).trans e, (h c main_arg0).trans e0, (h c main_arg1).trans e1, (h c main_arg2).trans e2,
        (h c main_arg3).trans e3, (h c main_arg4).trans e4⟩)
    (run_seq scopedRefs_eq scopedSems_eq defs main (fun _ => ops) main_eq (fun _ => ops_sub) m ρ (fun _ => ops_fresh))

end Cert.ReferenceIdeal.ValueH

end
-- ==== Proof.KPieces.lean ====
/-
  What each of the body's three control cases leaves in the five accumulators it carries from tile to tile, and what
  the last tile's case stores into the output block, as plain functions of the blocks it loads and of what the tile
  before left: the first tile of a batch element stores zeros and adds its terms to them, a middle tile adds its terms
  to what it found, the last tile does the same and then stores the finished cost block computed from the five totals
  and the two box blocks.
-/
import proofs.«176196_j77713138253901_2_alg».proof.Proof.Gen.KernelIdeal.Frame
import Idealize.ShloMosaic.Lib.Pipeline.Value
import Idealize.ShloMosaic.Lib.Tactic

set_option maxRecDepth 16384

noncomputable section

namespace Cert.KValue

open Cert.KernelIdeal Cert.KernelIdeal.Gen Idealize.ShloMosaic Idealize.ShloMosaic.TcCoe Idealize.SL.Sem
open Idealize.ShloMosaic.Pipeline (Dat)
open Idealize.ShloMosaic.Tactic

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The finished cost block, from the box blocks `x0`, `x1` and the five totals: the cross-entropy and dice costs of the
    totals, the L1 and generalised-IoU costs of the boxes, weighted and added. -/
def finalOut (x0 x1 : Vec F S1x300x4 .f32) (s0 s1 : Vec F S300x300 .f32) (s2 s3 s4 : Vec F S300x1 .f32) : FVec F S1x300x300 .f32 :=
  k0_pay31 (k0_pay5 s2 s0) (k0_pay6 s1 s3 s4) (k0_pay11 (k0_pay7 x0) (k0_pay8 x1) (k0_pay9 x0 x1) (k0_pay10 x0)) (k0_pay16 (k0_pay7 x0)) (k0_pay17 (k0_pay7 x0)) (k0_pay18 (k0_pay7 x0)) (k0_pay19 (k0_pay7 x0)) (k0_pay24 (k0_pay20 (k0_pay8 x1)) (k0_pay22 (k0_pay8 x1))) (k0_pay25 (k0_pay8 x1) (k0_pay21 (k0_pay8 x1))) (k0_pay26 (k0_pay20 (k0_pay8 x1)) (k0_pay22 (k0_pay8 x1))) (k0_pay27 (k0_pay8 x1) (k0_pay21 (k0_pay8 x1))) (k0_pay29 (k0_pay8 x1) (k0_pay16 (k0_pay7 x0)) (k0_pay17 (k0_pay7 x0)) (k0_pay18 (k0_pay7 x0)) (k0_pay19 (k0_pay7 x0)) (k0_pay20 (k0_pay8 x1)) (k0_pay21 (k0_pay8 x1)) (k0_pay22 (k0_pay8 x1))) (k0_pay30 (k0_pay8 x1) (k0_pay16 (k0_pay7 x0)) (k0_pay17 (k0_pay7 x0)) (k0_pay18 (k0_pay7 x0)) (k0_pay19 (k0_pay7 x0)) (k0_pay20 (k0_pay8 x1)) (k0_pay21 (k0_pay8 x1)) (k0_pay22 (k0_pay8 x1)))

/-! ## The first tile of a batch element: zeros, then the tile's terms -/

theorem sout_A_0 (c : Dev nD) (i : grid0.Coords) (arg2 : Memref sig .tc .vmem S1x300x4 .f32) (harg2 : arg2.IsWhole) (arg3 : Memref sig .tc .vmem S1x300x4 .f32) (harg3 : arg3.IsWhole) (arg4 : Memref sig .tc .vmem S1x300x1792 .f32) (harg4 : arg4.IsWhole) (arg5 : Memref sig .tc .vmem S1x300x1792 .f32) (harg5 : arg5.IsWhole) (arg6 : Memref sig .tc .vmem S1x300x300 .f32) (harg6 : arg6.IsWhole) (arg7 : Memref sig .tc .vmem S300x300 .f32) (harg7 : arg7.IsWhole) (arg8 : Memref sig .tc .vmem S300x300 .f32) (harg8 : arg8.IsWhole) (arg9 : Memref sig .tc .vmem S300x1 .f32) (harg9 : arg9.IsWhole) (arg10 : Memref sig .tc .vmem S300x1 .f32) (harg10 : arg10.IsWhole) (arg11 : Memref sig .tc .vmem S300x1 .f32) (harg11 : arg11.IsWhole) (hc0 : cond0_0 i) (hc1 : ¬cond0_1 i) (x0 : Vec F S1x300x4 .f32) (x1 : Vec F S1x300x4 .f32) (x2 : Vec F S1x300x1792 .f32) (x3 : Vec F S1x300x1792 .f32) :
    sout0_A_0 c i arg2 harg2 arg3 harg3 arg4 harg4 arg5 harg5 arg6 harg6 arg7 harg7 arg8 harg8 arg9 harg9 arg10 harg10 arg11 harg11 hc0 hc1 x0 x1 x2 x3 = k0_pay44 x2 x3 k0_pay32 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 hc0 hc1 x0 x1 x2 x3)]
  unfold kernelRun0_A
  dsimp only
  sl_unfold_words
  rw [View.canon_cons_unit_zero (S := S300x300) hz2, View.readCov_unit_zero (S := S300x300) _ hz2]
  simp only [View.readAt_eq_ld, harg2.read_unread, harg3.read_unread, harg4.read_unread, harg5.read_unread, harg7.read_unread, harg8.read_unread, harg9.read_unread, harg10.read_unread, harg11.read_unread,
    View.ld_unit_zero (S := S1x300x4) hz3, View.ld_unit_zero (S := S1x300x1792) hz3, View.ld_unit_zero (S := S300x300) hz2, View.ld_unit_zero (S := S300x1) hz2]

theorem sout_A_1 (c : Dev nD) (i : grid0.Coords) (arg2 : Memref sig .tc .vmem S1x300x4 .f32) (harg2 : arg2.IsWhole) (arg3 : Memref sig .tc .vmem S1x300x4 .f32) (harg3 : arg3.IsWhole) (arg4 : Memref sig .tc .vmem S1x300x1792 .f32) (harg4 : arg4.IsWhole) (arg5 : Memref sig .tc .vmem S1x300x1792 .f32) (harg5 : arg5.IsWhole) (arg6 : Memref sig .tc .vmem S1x300x300 .f32) (harg6 : arg6.IsWhole) (arg7 : Memref sig .tc .vmem S300x300 .f32) (harg7 : arg7.IsWhole) (arg8 : Memref sig .tc .vmem S300x300 .f32) (harg8 : arg8.IsWhole) (arg9 : Memref sig .tc .vmem S300x1 .f32) (harg9 : arg9.IsWhole) (arg10 : Memref sig .tc .vmem S300x1 .f32) (harg10 : arg10.IsWhole) (arg11 : Memref sig .tc .vmem S300x1 .f32) (harg11 : arg11.IsWhole) (hc0 : cond0_0 i) (hc1 : ¬cond0_1 i) (x0 : Vec F S1x300x4 .f32) (x1 : Vec F S1x300x4 .f32) (x2 : Vec F S1x300x1792 .f32) (x3 : Vec F S1x300x1792 .f32) :
    sout0_A_1 c i arg2 harg2 arg3 harg3 arg4 harg4 arg5 harg5 arg6 harg6 arg7 harg7 arg8 harg8 arg9 harg9 arg10 harg10 arg11 harg11 hc0 hc1 x0 x1 x2 x3 = k0_pay1 (k0_pay43 x2 x3) k0_pay33 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 hc0 hc1 x0 x1 x2 x3)]
  unfold kernelRun0_A
  dsimp only
  sl_unfold_words
  rw [View.canon_cons_unit_zero (S := S300x300) hz2, View.readCov_unit_zero (S := S300x300) _ hz2]
  simp only [View.readAt_eq_ld, harg2.read_unread, harg3.read_unread, harg4.read_unread, harg5.read_unread, harg7.read_unread, harg8.read_unread, harg9.read_unread, harg10.read_unread, harg11.read_unread,
    View.ld_unit_zero (S := S1x300x4) hz3, View.ld_unit_zero (S := S1x300x1792) hz3, View.ld_unit_zero (S := S300x300) hz2, View.ld_unit_zero (S := S300x1) hz2]

theorem sout_A_2 (c : Dev nD) (i : grid0.Coords) (arg2 : Memref sig .tc .vmem S1x300x4 .f32) (harg2 : arg2.IsWhole) (arg3 : Memref sig .tc .vmem S1x300x4 .f32) (harg3 : arg3.IsWhole) (arg4 : Memref sig .tc .vmem S1x300x1792 .f32) (harg4 : arg4.IsWhole) (arg5 : Memref sig .tc .vmem S1x300x1792 .f32) (harg5 : arg5.IsWhole) (arg6 : Memref sig .tc .vmem S1x300x300 .f32) (harg6 : arg6.IsWhole) (arg7 : Memref sig .tc .vmem S300x300 .f32) (harg7 : arg7.IsWhole) (arg8 : Memref sig .tc .vmem S300x300 .f32) (harg8 : arg8.IsWhole) (arg9 : Memref sig .tc .vmem S300x1 .f32) (harg9 : arg9.IsWhole) (arg10 : Memref sig .tc .vmem S300x1 .f32) (harg10 : arg10.IsWhole) (arg11 : Memref sig .tc .vmem S300x1 .f32) (harg11 : arg11.IsWhole) (hc0 : cond0_0 i) (hc1 : ¬cond0_1 i) (x0 : Vec F S1x300x4 .f32) (x1 : Vec F S1x300x4 .f32) (x2 : Vec F S1x300x1792 .f32) (x3 : Vec F S1x300x1792 .f32) :
    sout0_A_2 c i arg2 harg2 arg3 harg3 arg4 harg4 arg5 harg5 arg6 harg6 arg7 harg7 arg8 harg8 arg9 harg9 arg10 harg10 arg11 harg11 hc0 hc1 x0 x1 x2 x3 = k0_pay2 (k0_pay40 x2) k0_pay34 := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 hc0 hc1 x0 x1 x2 x3)]
  unfold kernelRun0_A
  dsimp only
  sl_unfold_words
  rw [View.canon_cons_unit_zero (S := S300x1) hz2, View.readCov_unit_zero (S := S300x1) _ hz2]
  simp only [View.readAt_eq_ld, harg2.read_unread, harg3.read_unread, harg4.read_unread, harg5.read_unread, harg7.read_unread, harg8.read_unread, harg9.read_unread, harg10.read_unread, harg11.read_unread,
    View.ld_unit_zero (S := S1x300x4) hz3, View.ld_unit_zero (S := S1x300x1792) hz3, View.ld_unit_zero (S := S300x300) hz2, View.ld_unit_zero (S := S300x1) hz2]

theorem sout_A_3 (c : Dev nD) (i : grid0.Coords) (arg2 : Memref sig .tc .vmem S1x300x4 .f32) (harg2 : arg2.IsWhole) (arg3 : Memref sig .tc .vmem S1x300x4 .f32) (harg3 : arg3.IsWhole) (arg4 : Memref sig .tc .vmem S1x300x1792 .f32) (harg4 : arg4.IsWhole) (arg5 : Memref sig .tc .vmem S1x300x1792 .f32) (harg5 : arg5.IsWhole) (arg6 : Memref sig .tc .vmem S1x300x300 .f32) (harg6 : arg6.IsWhole) (arg7 : Memref sig .tc .vmem S300x300 .f32) (harg7 : arg7.IsWhole) (arg8 : Memref sig .tc .vmem S300x300 .f32) (harg8 : arg8.IsWhole) (arg9 : Memref sig .tc .vmem S300x1 .f32) (harg9 : arg9.IsWhole) (arg10 : Memref sig .tc .vmem S300x1 .f32) (harg10 : arg10.IsWhole) (arg11 : Memref sig .tc .vmem S300x1 .f32) (harg11 : arg11.IsWhole) (hc0 : cond0_0 i) (hc1 : ¬cond0_1 i) (x0 : Vec F S1x300x4 .f32) (x1 : Vec F S1x300x4 .f32) (x2 : Vec F S1x300x1792 .f32) (x3 : Vec F S1x300x1792 .f32) :
    sout0_A_3 c i arg2 harg2 arg3 harg3 arg4 harg4 arg5 harg5 arg6 harg6 arg7 harg7 arg8 harg8 arg9 harg9 arg10 harg10 arg11 harg11 hc0 hc1 x0 x1 x2 x3 = k0_pay3 (k0_pay41 x2) k0_pay35 := by
  unfold sout0_A_3
  rw [View.read_writes_eq_canon _ _ _ (scover0_A_3 c i arg2 harg2 arg3 harg3 arg4 harg4 arg5 harg5 arg6 harg6 arg7 harg7 arg8 harg8 arg9 harg9 arg10 harg10 arg11 harg11 hc0 hc1 x0 x1 x2 x3)]
  unfold kernelRun0_A
  dsimp only
  sl_unfold_words
  rw [View.canon_cons_unit_zero (S := S300x1) hz2, View.readCov_unit_zero (S := S300x1) _ hz2]
  simp only [View.readAt_eq_ld, harg2.read_unread, harg3.read_unread, harg4.read_unread, harg5.read_unread, harg7.read_unread, harg8.read_unread, harg9.read_unread, harg10.read_unread, harg11.read_unread,
    View.ld_unit_zero (S := S1x300x4) hz3, View.ld_unit_zero (S := S1x300x1792) hz3, View.ld_unit_zero (S := S300x300) hz2, View.ld_unit_zero (S := S300x1) hz2]

theorem sout_A_4 (c : Dev nD) (i : grid0.Coords) (arg2 : Memref sig .tc .vmem S1x300x4 .f32) (harg2 : arg2.IsWhole) (arg3 : Memref sig .tc .vmem S1x300x4 .f32) (harg3 : arg3.IsWhole) (arg4 : Memref sig .tc .vmem S1x300x1792 .f32) (harg4 : arg4.IsWhole) (arg5 : Memref sig .tc .vmem S1x300x1792 .f32) (harg5 : arg5.IsWhole) (arg6 : Memref sig .tc .vmem S1x300x300 .f32) (harg6 : arg6.IsWhole) (arg7 : Memref sig .tc .vmem S300x300 .f32) (harg7 : arg7.IsWhole) (arg8 : Memref sig .tc .vmem S300x300 .f32) (harg8 : arg8.IsWhole) (arg9 : Memref sig .tc .vmem S300x1 .f32) (harg9 : arg9.IsWhole) (arg10 : Memref sig .tc .vmem S300x1 .f32) (harg10 : arg10.IsWhole) (arg11 : Memref sig .tc .vmem S300x1 .f32) (harg11 : arg11.IsWhole) (hc0 : cond0_0 i) (hc1 : ¬cond0_1 i) (x0 : Vec F S1x300x4 .f32) (x1 : Vec F S1x300x4 .f32) (x2 : Vec F S1x300x1792 .f32) (x3 : Vec F S1x300x1792 .f32) :
    sout0_A_4 c i arg2 harg2 arg3 harg3 arg4 harg4 arg5 harg5 arg6 harg6 arg7 harg7 arg8 harg8 arg9 harg9 arg10 harg10 arg11 harg11 hc0 hc1 x0 x1 x2 x3 = k0_pay4 (k0_pay38 x3) k0_pay36 := by
  unfold sout0_A_4
  rw [View.read_writes_eq_canon _ _ _ (scover0_A_4 c i arg2 harg2 arg3 harg3 arg4 harg4 arg5 harg5 arg6 harg6 arg7 harg7 arg8 harg8 arg9 harg9 arg10 harg10 arg11 harg11 hc0 hc1 x0 x1 x2 x3)]
  unfold kernelRun0_A
  dsimp only
  sl_unfold_words
  rw [View.canon_cons_unit_zero (S := S300x1) hz2, View.readCov_unit_zero (S := S300x1) _ hz2]
  simp only [View.readAt_eq_ld, harg2.read_unread, harg3.read_unread, harg4.read_unread, harg5.read_unread, harg7.read_unread, harg8.read_unread, harg9.read_unread, harg10.read_unread, harg11.read_unread,
    View.ld_unit_zero (S := S1x300x4) hz3, View.ld_unit_zero (S := S1x300x1792) hz3, View.ld_unit_zero (S := S300x300) hz2, View.ld_unit_zero (S := S300x1) hz2]

/-! ## A middle tile: the tile's terms added to what the tile before left -/

theorem sout_B_0 (c : Dev nD) (i : grid0.Coords) (arg2 : Memref sig .tc .vmem S1x300x4 .f32) (harg2 : arg2.IsWhole) (arg3 : Memref sig .tc .vmem S1x300x4 .f32) (harg3 : arg3.IsWhole) (arg4 : Memref sig .tc .vmem S1x300x1792 .f32) (harg4 : arg4.IsWhole) (arg5 : Memref sig .tc .vmem S1x300x1792 .f32) (harg5 : arg5.IsWhole) (arg6 : Memref sig .tc .vmem S1x300x300 .f32) (harg6 : arg6.IsWhole) (arg7 : Memref sig .tc .vmem S300x300 .f32) (harg7 : arg7.IsWhole) (arg8 : Memref sig .tc .vmem S300x300 .f32) (harg8 : arg8.IsWhole) (arg9 : Memref sig .tc .vmem S300x1 .f32) (harg9 : arg9.IsWhole) (arg10 : Memref sig .tc .vmem S300x1 .f32) (harg10 : arg10.IsWhole) (arg11 : Memref sig .tc .vmem S300x1 .f32) (harg11 : arg11.IsWhole) (hc0 : ¬cond0_0 i) (hc1 : ¬cond0_1 i) (x0 : Vec F S1x300x4 .f32) (x1 : Vec F S1x300x4 .f32) (x2 : Vec F S1x300x1792 .f32) (x3 : Vec F S1x300x1792 .f32) (xs0 : Vec F S300x300 .f32) (xs1 : Vec F S300x300 .f32) (xs2 : Vec F S300x1 .f32) (xs3 : Vec F S300x1 .f32) (xs4 : Vec F S300x1 .f32) :
    sout0_B_0 c i arg2 harg2 arg3 harg3 arg4 harg4 arg5 harg5 arg6 harg6 arg7 harg7 arg8 harg8 arg9 harg9 arg10 harg10 arg11 harg11 hc0 hc1 x0 x1 x2 x3 xs0 xs1 xs2 xs3 xs4 = k0_pay44 x2 x3 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 hc0 hc1 x0 x1 x2 x3 xs0 xs1 xs2 xs3 xs4)]
  unfold kernelRun0_B
  dsimp only
  sl_unfold_words
  rw [View.canon_unit_zero hz2]
  simp only [View.readAt_eq_ld, harg2.read_unread, harg3.read_unread, harg4.read_unread, harg5.read_unread, harg7.read_unread, harg8.read_unread, harg9.read_unread, harg10.read_unread, harg11.read_unread,
    View.ld_unit_zero (S := S1x300x4) hz3, View.ld_unit_zero (S := S1x300x1792) hz3, View.ld_unit_zero (S := S300x300) hz2, View.ld_unit_zero (S := S300x1) hz2]

theorem sout_B_1 (c : Dev nD) (i : grid0.Coords) (arg2 : Memref sig .tc .vmem S1x300x4 .f32) (harg2 : arg2.IsWhole) (arg3 : Memref sig .tc .vmem S1x300x4 .f32) (harg3 : arg3.IsWhole) (arg4 : Memref sig .tc .vmem S1x300x1792 .f32) (harg4 : arg4.IsWhole) (arg5 : Memref sig .tc .vmem S1x300x1792 .f32) (harg5 : arg5.IsWhole) (arg6 : Memref sig .tc .vmem S1x300x300 .f32) (harg6 : arg6.IsWhole) (arg7 : Memref sig .tc .vmem S300x300 .f32) (harg7 : arg7.IsWhole) (arg8 : Memref sig .tc .vmem S300x300 .f32) (harg8 : arg8.IsWhole) (arg9 : Memref sig .tc .vmem S300x1 .f32) (harg9 : arg9.IsWhole) (arg10 : Memref sig .tc .vmem S300x1 .f32) (harg10 : arg10.IsWhole) (arg11 : Memref sig .tc .vmem S300x1 .f32) (harg11 : arg11.IsWhole) (hc0 : ¬cond0_0 i) (hc1 : ¬cond0_1 i) (x0 : Vec F S1x300x4 .f32) (x1 : Vec F S1x300x4 .f32) (x2 : Vec F S1x300x1792 .f32) (x3 : Vec F S1x300x1792 .f32) (xs0 : Vec F S300x300 .f32) (xs1 : Vec F S300x300 .f32) (xs2 : Vec F S300x1 .f32) (xs3 : Vec F S300x1 .f32) (xs4 : Vec F S300x1 .f32) :
    sout0_B_1 c i arg2 harg2 arg3 harg3 arg4 harg4 arg5 harg5 arg6 harg6 arg7 harg7 arg8 harg8 arg9 harg9 arg10 harg10 arg11 harg11 hc0 hc1 x0 x1 x2 x3 xs0 xs1 xs2 xs3 xs4 = k0_pay1 (k0_pay43 x2 x3) xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 hc0 hc1 x0 x1 x2 x3 xs0 xs1 xs2 xs3 xs4)]
  unfold kernelRun0_B
  dsimp only
  sl_unfold_words
  rw [View.canon_unit_zero hz2]
  simp only [View.readAt_eq_ld, harg2.read_unread, harg3.read_unread, harg4.read_unread, harg5.read_unread, harg7.read_unread, harg8.read_unread, harg9.read_unread, harg10.read_unread, harg11.read_unread,
    View.ld_unit_zero (S := S1x300x4) hz3, View.ld_unit_zero (S := S1x300x1792) hz3, View.ld_unit_zero (S := S300x300) hz2, View.ld_unit_zero (S := S300x1) hz2]

theorem sout_B_2 (c : Dev nD) (i : grid0.Coords) (arg2 : Memref sig .tc .vmem S1x300x4 .f32) (harg2 : arg2.IsWhole) (arg3 : Memref sig .tc .vmem S1x300x4 .f32) (harg3 : arg3.IsWhole) (arg4 : Memref sig .tc .vmem S1x300x1792 .f32) (harg4 : arg4.IsWhole) (arg5 : Memref sig .tc .vmem S1x300x1792 .f32) (harg5 : arg5.IsWhole) (arg6 : Memref sig .tc .vmem S1x300x300 .f32) (harg6 : arg6.IsWhole) (arg7 : Memref sig .tc .vmem S300x300 .f32) (harg7 : arg7.IsWhole) (arg8 : Memref sig .tc .vmem S300x300 .f32) (harg8 : arg8.IsWhole) (arg9 : Memref sig .tc .vmem S300x1 .f32) (harg9 : arg9.IsWhole) (arg10 : Memref sig .tc .vmem S300x1 .f32) (harg10 : arg10.IsWhole) (arg11 : Memref sig .tc .vmem S300x1 .f32) (harg11 : arg11.IsWhole) (hc0 : ¬cond0_0 i) (hc1 : ¬cond0_1 i) (x0 : Vec F S1x300x4 .f32) (x1 : Vec F S1x300x4 .f32) (x2 : Vec F S1x300x1792 .f32) (x3 : Vec F S1x300x1792 .f32) (xs0 : Vec F S300x300 .f32) (xs1 : Vec F S300x300 .f32) (xs2 : Vec F S300x1 .f32) (xs3 : Vec F S300x1 .f32) (xs4 : Vec F S300x1 .f32) :
    sout0_B_2 c i arg2 harg2 arg3 harg3 arg4 harg4 arg5 harg5 arg6 harg6 arg7 harg7 arg8 harg8 arg9 harg9 arg10 harg10 arg11 harg11 hc0 hc1 x0 x1 x2 x3 xs0 xs1 xs2 xs3 xs4 = k0_pay2 (k0_pay40 x2) xs2 := by
  unfold sout0_B_2
  rw [View.read_writes_eq_canon _ _ _ (scover0_B_2 c i arg2 harg2 arg3 harg3 arg4 harg4 arg5 harg5 arg6 harg6 arg7 harg7 arg8 harg8 arg9 harg9 arg10 harg10 arg11 harg11 hc0 hc1 x0 x1 x2 x3 xs0 xs1 xs2 xs3 xs4)]
  unfold kernelRun0_B
  dsimp only
  sl_unfold_words
  rw [View.canon_unit_zero hz2]
  simp only [View.readAt_eq_ld, harg2.read_unread, harg3.read_unread, harg4.read_unread, harg5.read_unread, harg7.read_unread, harg8.read_unread, harg9.read_unread, harg10.read_unread, harg11.read_unread,
    View.ld_unit_zero (S := S1x300x4) hz3, View.ld_unit_zero (S := S1x300x1792) hz3, View.ld_unit_zero (S := S300x300) hz2, View.ld_unit_zero (S := S300x1) hz2]

theorem sout_B_3 (c : Dev nD) (i : grid0.Coords) (arg2 : Memref sig .tc .vmem S1x300x4 .f32) (harg2 : arg2.IsWhole) (arg3 : Memref sig .tc .vmem S1x300x4 .f32) (harg3 : arg3.IsWhole) (arg4 : Memref sig .tc .vmem S1x300x1792 .f32) (harg4 : arg4.IsWhole) (arg5 : Memref sig .tc .vmem S1x300x1792 .f32) (harg5 : arg5.IsWhole) (arg6 : Memref sig .tc .vmem S1x300x300 .f32) (harg6 : arg6.IsWhole) (arg7 : Memref sig .tc .vmem S300x300 .f32) (harg7 : arg7.IsWhole) (arg8 : Memref sig .tc .vmem S300x300 .f32) (harg8 : arg8.IsWhole) (arg9 : Memref sig .tc .vmem S300x1 .f32) (harg9 : arg9.IsWhole) (arg10 : Memref sig .tc .vmem S300x1 .f32) (harg10 : arg10.IsWhole) (arg11 : Memref sig .tc .vmem S300x1 .f32) (harg11 : arg11.IsWhole) (hc0 : ¬cond0_0 i) (hc1 : ¬cond0_1 i) (x0 : Vec F S1x300x4 .f32) (x1 : Vec F S1x300x4 .f32) (x2 : Vec F S1x300x1792 .f32) (x3 : Vec F S1x300x1792 .f32) (xs0 : Vec F S300x300 .f32) (xs1 : Vec F S300x300 .f32) (xs2 : Vec F S300x1 .f32) (xs3 : Vec F S300x1 .f32) (xs4 : Vec F S300x1 .f32) :
    sout0_B_3 c i arg2 harg2 arg3 harg3 arg4 harg4 arg5 harg5 arg6 harg6 arg7 harg7 arg8 harg8 arg9 harg9 arg10 harg10 arg11 harg11 hc0 hc1 x0 x1 x2 x3 xs0 xs1 xs2 xs3 xs4 = k0_pay3 (k0_pay41 x2) xs3 := by
  unfold sout0_B_3
  rw [View.read_writes_eq_canon _ _ _ (scover0_B_3 c i arg2 harg2 arg3 harg3 arg4 harg4 arg5 harg5 arg6 harg6 arg7 harg7 arg8 harg8 arg9 harg9 arg10 harg10 arg11 harg11 hc0 hc1 x0 x1 x2 x3 xs0 xs1 xs2 xs3 xs4)]
  unfold kernelRun0_B
  dsimp only
  sl_unfold_words
  rw [View.canon_unit_zero hz2]
  simp only [View.readAt_eq_ld, harg2.read_unread, harg3.read_unread, harg4.read_unread, harg5.read_unread, harg7.read_unread, harg8.read_unread, harg9.read_unread, harg10.read_unread, harg11.read_unread,
    View.ld_unit_zero (S := S1x300x4) hz3, View.ld_unit_zero (S := S1x300x1792) hz3, View.ld_unit_zero (S := S300x300) hz2, View.ld_unit_zero (S := S300x1) hz2]

theorem sout_B_4 (c : Dev nD) (i : grid0.Coords) (arg2 : Memref sig .tc .vmem S1x300x4 .f32) (harg2 : arg2.IsWhole) (arg3 : Memref sig .tc .vmem S1x300x4 .f32) (harg3 : arg3.IsWhole) (arg4 : Memref sig .tc .vmem S1x300x1792 .f32) (harg4 : arg4.IsWhole) (arg5 : Memref sig .tc .vmem S1x300x1792 .f32) (harg5 : arg5.IsWhole) (arg6 : Memref sig .tc .vmem S1x300x300 .f32) (harg6 : arg6.IsWhole) (arg7 : Memref sig .tc .vmem S300x300 .f32) (harg7 : arg7.IsWhole) (arg8 : Memref sig .tc .vmem S300x300 .f32) (harg8 : arg8.IsWhole) (arg9 : Memref sig .tc .vmem S300x1 .f32) (harg9 : arg9.IsWhole) (arg10 : Memref sig .tc .vmem S300x1 .f32) (harg10 : arg10.IsWhole) (arg11 : Memref sig .tc .vmem S300x1 .f32) (harg11 : arg11.IsWhole) (hc0 : ¬cond0_0 i) (hc1 : ¬cond0_1 i) (x0 : Vec F S1x300x4 .f32) (x1 : Vec F S1x300x4 .f32) (x2 : Vec F S1x300x1792 .f32) (x3 : Vec F S1x300x1792 .f32) (xs0 : Vec F S300x300 .f32) (xs1 : Vec F S300x300 .f32) (xs2 : Vec F S300x1 .f32) (xs3 : Vec F S300x1 .f32) (xs4 : Vec F S300x1 .f32) :
    sout0_B_4 c i arg2 harg2 arg3 harg3 arg4 harg4 arg5 harg5 arg6 harg6 arg7 harg7 arg8 harg8 arg9 harg9 arg10 harg10 arg11 harg11 hc0 hc1 x0 x1 x2 x3 xs0 xs1 xs2 xs3 xs4 = k0_pay4 (k0_pay38 x3) xs4 := by
  unfold sout0_B_4
  rw [View.read_writes_eq_canon _ _ _ (scover0_B_4 c i arg2 harg2 arg3 harg3 arg4 harg4 arg5 harg5 arg6 harg6 arg7 harg7 arg8 harg8 arg9 harg9 arg10 harg10 arg11 harg11 hc0 hc1 x0 x1 x2 x3 xs0 xs1 xs2 xs3 xs4)]
  unfold kernelRun0_B
  dsimp only
  sl_unfold_words
  rw [View.canon_unit_zero hz2]
  simp only [View.readAt_eq_ld, harg2.read_unread, harg3.read_unread, harg4.read_unread, harg5.read_unread, harg7.read_unread, harg8.read_unread, harg9.read_unread, harg10.read_unread, harg11.read_unread,
    View.ld_unit_zero (S := S1x300x4) hz3, View.ld_unit_zero (S := S1x300x1792) hz3, View.ld_unit_zero (S := S300x300) hz2, View.ld_unit_zero (S := S300x1) hz2]

/-! ## The last tile: the same, and the finished block stored -/

theorem sout_C_0 (c : Dev nD) (i : grid0.Coords) (arg2 : Memref sig .tc .vmem S1x300x4 .f32) (harg2 : arg2.IsWhole) (arg3 : Memref sig .tc .vmem S1x300x4 .f32) (harg3 : arg3.IsWhole) (arg4 : Memref sig .tc .vmem S1x300x1792 .f32) (harg4 : arg4.IsWhole) (arg5 : Memref sig .tc .vmem S1x300x1792 .f32) (harg5 : arg5.IsWhole) (arg6 : Memref sig .tc .vmem S1x300x300 .f32) (harg6 : arg6.IsWhole) (arg7 : Memref sig .tc .vmem S300x300 .f32) (harg7 : arg7.IsWhole) (arg8 : Memref sig .tc .vmem S300x300 .f32) (harg8 : arg8.IsWhole) (arg9 : Memref sig .tc .vmem S300x1 .f32) (harg9 : arg9.IsWhole) (arg10 : Memref sig .tc .vmem S300x1 .f32) (harg10 : arg10.IsWhole) (arg11 : Memref sig .tc .vmem S300x1 .f32) (harg11 : arg11.IsWhole) (hc0 : ¬cond0_0 i) (hc1 : cond0_1 i) (x0 : Vec F S1x300x4 .f32) (x1 : Vec F S1x300x4 .f32) (x2 : Vec F S1x300x1792 .f32) (x3 : Vec F S1x300x1792 .f32) (xs0 : Vec F S300x300 .f32) (xs1 : Vec F S300x300 .f32) (xs2 : Vec F S300x1 .f32) (xs3 : Vec F S300x1 .f32) (xs4 : Vec F S300x1 .f32) :
    sout0_C_0 c i arg2 harg2 arg3 harg3 arg4 harg4 arg5 harg5 arg6 harg6 arg7 harg7 arg8 harg8 arg9 harg9 arg10 harg10 arg11 harg11 hc0 hc1 x0 x1 x2 x3 xs0 xs1 xs2 xs3 xs4 = k0_pay44 x2 x3 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 hc0 hc1 x0 x1 x2 x3 xs0 xs1 xs2 xs3 xs4)]
  unfold kernelRun0_C
  dsimp only
  sl_unfold_words
  rw [View.canon_unit_zero hz2]
  simp only [View.readAt_eq_ld, harg2.read_unread, harg3.read_unread, harg4.read_unread, harg5.read_unread, harg7.read_unread, harg8.read_unread, harg9.read_unread, harg10.read_unread, harg11.read_unread,
    View.ld_unit_zero (S := S1x300x4) hz3, View.ld_unit_zero (S := S1x300x1792) hz3, View.ld_unit_zero (S := S300x300) hz2, View.ld_unit_zero (S := S300x1) hz2]

theorem sout_C_1 (c : Dev nD) (i : grid0.Coords) (arg2 : Memref sig .tc .vmem S1x300x4 .f32) (harg2 : arg2.IsWhole) (arg3 : Memref sig .tc .vmem S1x300x4 .f32) (harg3 : arg3.IsWhole) (arg4 : Memref sig .tc .vmem S1x300x1792 .f32) (harg4 : arg4.IsWhole) (arg5 : Memref sig .tc .vmem S1x300x1792 .f32) (harg5 : arg5.IsWhole) (arg6 : Memref sig .tc .vmem S1x300x300 .f32) (harg6 : arg6.IsWhole) (arg7 : Memref sig .tc .vmem S300x300 .f32) (harg7 : arg7.IsWhole) (arg8 : Memref sig .tc .vmem S300x300 .f32) (harg8 : arg8.IsWhole) (arg9 : Memref sig .tc .vmem S300x1 .f32) (harg9 : arg9.IsWhole) (arg10 : Memref sig .tc .vmem S300x1 .f32) (harg10 : arg10.IsWhole) (arg11 : Memref sig .tc .vmem S300x1 .f32) (harg11 : arg11.IsWhole) (hc0 : ¬cond0_0 i) (hc1 : cond0_1 i) (x0 : Vec F S1x300x4 .f32) (x1 : Vec F S1x300x4 .f32) (x2 : Vec F S1x300x1792 .f32) (x3 : Vec F S1x300x1792 .f32) (xs0 : Vec F S300x300 .f32) (xs1 : Vec F S300x300 .f32) (xs2 : Vec F S300x1 .f32) (xs3 : Vec F S300x1 .f32) (xs4 : Vec F S300x1 .f32) :
    sout0_C_1 c i arg2 harg2 arg3 harg3 arg4 harg4 arg5 harg5 arg6 harg6 arg7 harg7 arg8 harg8 arg9 harg9 arg10 harg10 arg11 harg11 hc0 hc1 x0 x1 x2 x3 xs0 xs1 xs2 xs3 xs4 = k0_pay1 (k0_pay43 x2 x3) xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 hc0 hc1 x0 x1 x2 x3 xs0 xs1 xs2 xs3 xs4)]
  unfold kernelRun0_C
  dsimp only
  sl_unfold_words
  rw [View.canon_unit_zero hz2]
  simp only [View.readAt_eq_ld, harg2.read_unread, harg3.read_unread, harg4.read_unread, harg5.read_unread, harg7.read_unread, harg8.read_unread, harg9.read_unread, harg10.read_unread, harg11.read_unread,
    View.ld_unit_zero (S := S1x300x4) hz3, View.ld_unit_zero (S := S1x300x1792) hz3, View.ld_unit_zero (S := S300x300) hz2, View.ld_unit_zero (S := S300x1) hz2]

theorem sout_C_2 (c : Dev nD) (i : grid0.Coords) (arg2 : Memref sig .tc .vmem S1x300x4 .f32) (harg2 : arg2.IsWhole) (arg3 : Memref sig .tc .vmem S1x300x4 .f32) (harg3 : arg3.IsWhole) (arg4 : Memref sig .tc .vmem S1x300x1792 .f32) (harg4 : arg4.IsWhole) (arg5 : Memref sig .tc .vmem S1x300x1792 .f32) (harg5 : arg5.IsWhole) (arg6 : Memref sig .tc .vmem S1x300x300 .f32) (harg6 : arg6.IsWhole) (arg7 : Memref sig .tc .vmem S300x300 .f32) (harg7 : arg7.IsWhole) (arg8 : Memref sig .tc .vmem S300x300 .f32) (harg8 : arg8.IsWhole) (arg9 : Memref sig .tc .vmem S300x1 .f32) (harg9 : arg9.IsWhole) (arg10 : Memref sig .tc .vmem S300x1 .f32) (harg10 : arg10.IsWhole) (arg11 : Memref sig .tc .vmem S300x1 .f32) (harg11 : arg11.IsWhole) (hc0 : ¬cond0_0 i) (hc1 : cond0_1 i) (x0 : Vec F S1x300x4 .f32) (x1 : Vec F S1x300x4 .f32) (x2 : Vec F S1x300x1792 .f32) (x3 : Vec F S1x300x1792 .f32) (xs0 : Vec F S300x300 .f32) (xs1 : Vec F S300x300 .f32) (xs2 : Vec F S300x1 .f32) (xs3 : Vec F S300x1 .f32) (xs4 : Vec F S300x1 .f32) :
    sout0_C_2 c i arg2 harg2 arg3 harg3 arg4 harg4 arg5 harg5 arg6 harg6 arg7 harg7 arg8 harg8 arg9 harg9 arg10 harg10 arg11 harg11 hc0 hc1 x0 x1 x2 x3 xs0 xs1 xs2 xs3 xs4 = k0_pay2 (k0_pay40 x2) xs2 := by
  unfold sout0_C_2
  rw [View.read_writes_eq_canon _ _ _ (scover0_C_2 c i arg2 harg2 arg3 harg3 arg4 harg4 arg5 harg5 arg6 harg6 arg7 harg7 arg8 harg8 arg9 harg9 arg10 harg10 arg11 harg11 hc0 hc1 x0 x1 x2 x3 xs0 xs1 xs2 xs3 xs4)]
  unfold kernelRun0_C
  dsimp only
  sl_unfold_words
  rw [View.canon_unit_zero hz2]
  simp only [View.readAt_eq_ld, harg2.read_unread, harg3.read_unread, harg4.read_unread, harg5.read_unread, harg7.read_unread, harg8.read_unread, harg9.read_unread, harg10.read_unread, harg11.read_unread,
    View.ld_unit_zero (S := S1x300x4) hz3, View.ld_unit_zero (S := S1x300x1792) hz3, View.ld_unit_zero (S := S300x300) hz2, View.ld_unit_zero (S := S300x1) hz2]

theorem sout_C_3 (c : Dev nD) (i : grid0.Coords) (arg2 : Memref sig .tc .vmem S1x300x4 .f32) (harg2 : arg2.IsWhole) (arg3 : Memref sig .tc .vmem S1x300x4 .f32) (harg3 : arg3.IsWhole) (arg4 : Memref sig .tc .vmem S1x300x1792 .f32) (harg4 : arg4.IsWhole) (arg5 : Memref sig .tc .vmem S1x300x1792 .f32) (harg5 : arg5.IsWhole) (arg6 : Memref sig .tc .vmem S1x300x300 .f32) (harg6 : arg6.IsWhole) (arg7 : Memref sig .tc .vmem S300x300 .f32) (harg7 : arg7.IsWhole) (arg8 : Memref sig .tc .vmem S300x300 .f32) (harg8 : arg8.IsWhole) (arg9 : Memref sig .tc .vmem S300x1 .f32) (harg9 : arg9.IsWhole) (arg10 : Memref sig .tc .vmem S300x1 .f32) (harg10 : arg10.IsWhole) (arg11 : Memref sig .tc .vmem S300x1 .f32) (harg11 : arg11.IsWhole) (hc0 : ¬cond0_0 i) (hc1 : cond0_1 i) (x0 : Vec F S1x300x4 .f32) (x1 : Vec F S1x300x4 .f32) (x2 : Vec F S1x300x1792 .f32) (x3 : Vec F S1x300x1792 .f32) (xs0 : Vec F S300x300 .f32) (xs1 : Vec F S300x300 .f32) (xs2 : Vec F S300x1 .f32) (xs3 : Vec F S300x1 .f32) (xs4 : Vec F S300x1 .f32) :
    sout0_C_3 c i arg2 harg2 arg3 harg3 arg4 harg4 arg5 harg5 arg6 harg6 arg7 harg7 arg8 harg8 arg9 harg9 arg10 harg10 arg11 harg11 hc0 hc1 x0 x1 x2 x3 xs0 xs1 xs2 xs3 xs4 = k0_pay3 (k0_pay41 x2) xs3 := by
  unfold sout0_C_3
  rw [View.read_writes_eq_canon _ _ _ (scover0_C_3 c i arg2 harg2 arg3 harg3 arg4 harg4 arg5 harg5 arg6 harg6 arg7 harg7 arg8 harg8 arg9 harg9 arg10 harg10 arg11 harg11 hc0 hc1 x0 x1 x2 x3 xs0 xs1 xs2 xs3 xs4)]
  unfold kernelRun0_C
  dsimp only
  sl_unfold_words
  rw [View.canon_unit_zero hz2]
  simp only [View.readAt_eq_ld, harg2.read_unread, harg3.read_unread, harg4.read_unread, harg5.read_unread, harg7.read_unread, harg8.read_unread, harg9.read_unread, harg10.read_unread, harg11.read_unread,
    View.ld_unit_zero (S := S1x300x4) hz3, View.ld_unit_zero (S := S1x300x1792) hz3, View.ld_unit_zero (S := S300x300) hz2, View.ld_unit_zero (S := S300x1) hz2]

theorem sout_C_4 (c : Dev nD) (i : grid0.Coords) (arg2 : Memref sig .tc .vmem S1x300x4 .f32) (harg2 : arg2.IsWhole) (arg3 : Memref sig .tc .vmem S1x300x4 .f32) (harg3 : arg3.IsWhole) (arg4 : Memref sig .tc .vmem S1x300x1792 .f32) (harg4 : arg4.IsWhole) (arg5 : Memref sig .tc .vmem S1x300x1792 .f32) (harg5 : arg5.IsWhole) (arg6 : Memref sig .tc .vmem S1x300x300 .f32) (harg6 : arg6.IsWhole) (arg7 : Memref sig .tc .vmem S300x300 .f32) (harg7 : arg7.IsWhole) (arg8 : Memref sig .tc .vmem S300x300 .f32) (harg8 : arg8.IsWhole) (arg9 : Memref sig .tc .vmem S300x1 .f32) (harg9 : arg9.IsWhole) (arg10 : Memref sig .tc .vmem S300x1 .f32) (harg10 : arg10.IsWhole) (arg11 : Memref sig .tc .vmem S300x1 .f32) (harg11 : arg11.IsWhole) (hc0 : ¬cond0_0 i) (hc1 : cond0_1 i) (x0 : Vec F S1x300x4 .f32) (x1 : Vec F S1x300x4 .f32) (x2 : Vec F S1x300x1792 .f32) (x3 : Vec F S1x300x1792 .f32) (xs0 : Vec F S300x300 .f32) (xs1 : Vec F S300x300 .f32) (xs2 : Vec F S300x1 .f32) (xs3 : Vec F S300x1 .f32) (xs4 : Vec F S300x1 .f32) :
    sout0_C_4 c i arg2 harg2 arg3 harg3 arg4 harg4 arg5 harg5 arg6 harg6 arg7 harg7 arg8 harg8 arg9 harg9 arg10 harg10 arg11 harg11 hc0 hc1 x0 x1 x2 x3 xs0 xs1 xs2 xs3 xs4 = k0_pay4 (k0_pay38 x3) xs4 := by
  unfold sout0_C_4
  rw [View.read_writes_eq_canon _ _ _ (scover0_C_4 c i arg2 harg2 arg3 harg3 arg4 harg4 arg5 harg5 arg6 harg6 arg7 harg7 arg8 harg8 arg9 harg9 arg10 harg10 arg11 harg11 hc0 hc1 x0 x1 x2 x3 xs0 xs1 xs2 xs3 xs4)]
  unfold kernelRun0_C
  dsimp only
  sl_unfold_words
  rw [View.canon_unit_zero hz2]
  simp only [View.readAt_eq_ld, harg2.read_unread, harg3.read_unread, harg4.read_unread, harg5.read_unread, harg7.read_unread, harg8.read_unread, harg9.read_unread, harg10.read_unread, harg11.read_unread,
    View.ld_unit_zero (S := S1x300x4) hz3, View.ld_unit_zero (S := S1x300x1792) hz3, View.ld_unit_zero (S := S300x300) hz2, View.ld_unit_zero (S := S300x1) hz2]

theorem out_C_4 (c : Dev nD) (i : grid0.Coords) (arg2 : Memref sig .tc .vmem S1x300x4 .f32) (harg2 : arg2.IsWhole) (arg3 : Memref sig .tc .vmem S1x300x4 .f32) (harg3 : arg3.IsWhole) (arg4 : Memref sig .tc .vmem S1x300x1792 .f32) (harg4 : arg4.IsWhole) (arg5 : Memref sig .tc .vmem S1x300x1792 .f32) (harg5 : arg5.IsWhole) (arg6 : Memref sig .tc .vmem S1x300x300 .f32) (harg6 : arg6.IsWhole) (arg7 : Memref sig .tc .vmem S300x300 .f32) (harg7 : arg7.IsWhole) (arg8 : Memref sig .tc .vmem S300x300 .f32) (harg8 : arg8.IsWhole) (arg9 : Memref sig .tc .vmem S300x1 .f32) (harg9 : arg9.IsWhole) (arg10 : Memref sig .tc .vmem S300x1 .f32) (harg10 : arg10.IsWhole) (arg11 : Memref sig .tc .vmem S300x1 .f32) (harg11 : arg11.IsWhole) (hc0 : ¬cond0_0 i) (hc1 : cond0_1 i) (x0 : Vec F S1x300x4 .f32) (x1 : Vec F S1x300x4 .f32) (x2 : Vec F S1x300x1792 .f32) (x3 : Vec F S1x300x1792 .f32) (xs0 : Vec F S300x300 .f32) (xs1 : Vec F S300x300 .f32) (xs2 : Vec F S300x1 .f32) (xs3 : Vec F S300x1 .f32) (xs4 : Vec F S300x1 .f32) :
    out0_C_4 c i arg2 harg2 arg3 harg3 arg4 harg4 arg5 harg5 arg6 harg6 arg7 harg7 arg8 harg8 arg9 harg9 arg10 harg10 arg11 harg11 hc0 hc1 x0 x1 x2 x3 xs0 xs1 xs2 xs3 xs4
      = finalOut x0 x1 (k0_pay44 x2 x3 xs0) (k0_pay1 (k0_pay43 x2 x3) xs1) (k0_pay2 (k0_pay40 x2) xs2) (k0_pay3 (k0_pay41 x2) xs3) (k0_pay4 (k0_pay38 x3) xs4) := by
  unfold out0_C_4
  rw [View.read_writes_eq_canon _ _ _ (cover0_C_4 c i arg2 harg2 arg3 harg3 arg4 harg4 arg5 harg5 arg6 harg6 arg7 harg7 arg8 harg8 arg9 harg9 arg10 harg10 arg11 harg11 hc0 hc1 x0 x1 x2 x3 xs0 xs1 xs2 xs3 xs4)]
  unfold kernelRun0_C
  dsimp only
  sl_unfold_words
  rw [View.canon_unit_zero hz3]
  simp only [View.readAt_eq_ld, harg2.read_unread, harg3.read_unread, harg4.read_unread, harg5.read_unread, harg7.read_unread, harg8.read_unread, harg9.read_unread, harg10.read_unread, harg11.read_unread,
    View.readCov_unit_zero (S := S300x300) _ hz2, View.readCov_unit_zero (S := S300x1) _ hz2,
    View.ld_unit_zero (S := S1x300x4) hz3, View.ld_unit_zero (S := S1x300x1792) hz3, View.ld_unit_zero (S := S300x300) hz2, View.ld_unit_zero (S := S300x1) hz2]
  rfl

end Cert.KValue
end
-- ==== Proof.KLast.lean ====
/-
  The last tile of a batch element: what its point leaves in each accumulator is the tile's term added to what the tile
  before left, and what it writes back to the result array is the finished cost block of those five totals and the
  point's two box blocks.
-/
import proofs.«176196_j77713138253901_2_alg».proof.Proof.Gen.KernelIdeal.Value
import proofs.«176196_j77713138253901_2_alg».proof.Proof.KPieces
import Idealize.ShloMosaic.Lib.Pipeline.Value
import Idealize.ShloMosaic.Lib.ValueIdx

set_option maxRecDepth 16384

noncomputable section

namespace Cert.KValue

open Cert.KernelIdeal Cert.KernelIdeal.Gen Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ)

/-- Accumulator 0 after the last tile's point, over what the point before left. -/
theorem last_S0 (c : Dev nD) (t : Fin cfg0.N) (h0 : ¬t.val % 7 = 0) (h1 : t.val % 7 = 6) :
    (outsAt0 m c t.val t.isLt).2.1 = k0_pay44 (iblk m c 2 t) (iblk m c 3 t) (outsAt0 m c (t.val - 1) (Nat.lt_of_le_of_lt (Nat.sub_le _ _) t.isLt)).2.1 :=
  by
  rw [outsAt0_C m c t h0 h1]
  dsimp only
  exact sout_C_0 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) (fun hh => h0 ((hcond0_0 t).mp hh)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2

/-- Accumulator 1 after the last tile's point, over what the point before left. -/
theorem last_S1 (c : Dev nD) (t : Fin cfg0.N) (h0 : ¬t.val % 7 = 0) (h1 : t.val % 7 = 6) :
    (outsAt0 m c t.val t.isLt).2.2.1 = k0_pay1 (k0_pay43 (iblk m c 2 t) (iblk m c 3 t)) (outsAt0 m c (t.val - 1) (Nat.lt_of_le_of_lt (Nat.sub_le _ _) t.isLt)).2.2.1 :=
  by
  rw [outsAt0_C m c t h0 h1]
  dsimp only
  exact sout_C_1 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) (fun hh => h0 ((hcond0_0 t).mp hh)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2

/-- Accumulator 2 after the last tile's point, over what the point before left. -/
theorem last_S2 (c : Dev nD) (t : Fin cfg0.N) (h0 : ¬t.val % 7 = 0) (h1 : t.val % 7 = 6) :
    (outsAt0 m c t.val t.isLt).2.2.2.1 = k0_pay2 (k0_pay40 (iblk m c 2 t)) (outsAt0 m c (t.val - 1) (Nat.lt_of_le_of_lt (Nat.sub_le _ _) t.isLt)).2.2.2.1 :=
  by
  rw [outsAt0_C m c t h0 h1]
  dsimp only
  exact sout_C_2 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) (fun hh => h0 ((hcond0_0 t).mp hh)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2

/-- Accumulator 3 after the last tile's point, over what the point before left. -/
theorem last_S3 (c : Dev nD) (t : Fin cfg0.N) (h0 : ¬t.val % 7 = 0) (h1 : t.val % 7 = 6) :
    (outsAt0 m c t.val t.isLt).2.2.2.2.1 = k0_pay3 (k0_pay41 (iblk m c 2 t)) (outsAt0 m c (t.val - 1) (Nat.lt_of_le_of_lt (Nat.sub_le _ _) t.isLt)).2.2.2.2.1 :=
  by
  rw [outsAt0_C m c t h0 h1]
  dsimp only
  exact sout_C_3 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) (fun hh => h0 ((hcond0_0 t).mp hh)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2

/-- Accumulator 4 after the last tile's point, over what the point before left. -/
theorem last_S4 (c : Dev nD) (t : Fin cfg0.N) (h0 : ¬t.val % 7 = 0) (h1 : t.val % 7 = 6) :
    (outsAt0 m c t.val t.isLt).2.2.2.2.2 = k0_pay4 (k0_pay38 (iblk m c 3 t)) (outsAt0 m c (t.val - 1) (Nat.lt_of_le_of_lt (Nat.sub_le _ _) t.isLt)).2.2.2.2.2 :=
  by
  rw [outsAt0_C m c t h0 h1]
  dsimp only
  exact sout_C_4 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) (fun hh => h0 ((hcond0_0 t).mp hh)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2

/-- What the last tile's point writes back: the finished block of the point's box blocks and the five accumulators as that
    same point leaves them. -/
theorem flushed_last (c : Dev nD) (t : Fin cfg0.N) (h1 : t.val % 7 = 6) :
    (dats m 0 c).flushed 4 t = (cfg0.win 4).cut (grid0.coords t)
      (finalOut (F := Ideal) (iblk m c 0 t) (iblk m c 1 t) (outsAt0 m c t.val t.isLt).2.1 (outsAt0 m c t.val t.isLt).2.2.1
        (outsAt0 m c t.val t.isLt).2.2.2.1 (outsAt0 m c t.val t.isLt).2.2.2.2.1 (outsAt0 m c t.val t.isLt).2.2.2.2.2) := by
  have h0 : ¬t.val % 7 = 0 := by omega
  rw [Value.flushed4_C m c t h0 h1, last_S0 m c t h0 h1, last_S1 m c t h0 h1, last_S2 m c t h0 h1, last_S3 m c t h0 h1, last_S4 m c t h0 h1]
  exact congrArg _ (out_C_4 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) (fun hh => h0 ((hcond0_0 t).mp hh)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2)

end Cert.KValue
end
-- ==== Proof.Spec.lean ====
/-
  The mathematics both programs compute, as plain functions on the extended reals.

  A matching cost between Q = 300 predicted and T = 300 target instances, per batch element:
  every mask (a 256 × 256 image) is sampled bilinearly at P = 12544 points, giving a row of P
  numbers per instance; from a predicted row `x` and a target row `y` the cost is
    5 · (Σ_p [softplus(−x_p) · y_p + softplus(x_p) · (1 − y_p)]) / P        (cross-entropy)
  + 5 · (1 − (2 Σ_p σ(x_p) y_p + 1) / (Σ_p σ(x_p) + Σ_p y_p + 1))           (dice)
  + 5 · ‖box − box'‖₁ + 2 · (−GIoU(box, box')).
  One program computes the cross-entropy sum as written; the other as (Σ_p softplus(x_p)) − Σ_p x_p y_p, with
  softplus(x) spelt x + softplus(−x) and σ(x) spelt exp(−softplus(−x)). This module fixes the spelling of every
  piece (so that each program can be read into it by unfolding) and imports neither program.
-/
import Idealize.ShloMosaic.PureOps.Ideal
import Idealize.ShloMosaic.PureOps.Ideal.Laws
import Idealize.ShloMosaic.Lib.ValueIdx

noncomputable section

namespace Cert.Spec

open Idealize.ShloMosaic

/-! ## The float words that occur, as extended reals -/

def c0 : EReal := Ideal.ofBits .f32 0x00000000#32
def cHalf : EReal := Ideal.ofBits .f32 0x3F000000#32
def c1 : EReal := Ideal.ofBits .f32 0x3F800000#32
def c2 : EReal := Ideal.ofBits .f32 0x40000000#32
def c5 : EReal := Ideal.ofBits .f32 0x40A00000#32
def c256 : EReal := Ideal.ofBits .f32 0x43800000#32
def cP : EReal := Ideal.ofBits .f32 0x46440000#32

/-! ## Bilinear sampling of one 256 × 256 image at one point -/

/-- A normalised coordinate in pixel units: `c · 256 − 1/2`. -/
def pix (c : EReal) : EReal := c * c256 - cHalf

/-- The floor, fixing the infinities. -/
def flo (x : EReal) : EReal := Ideal.liftRound Int.floor x

/-- The integer cell of a pixel coordinate, as a 32-bit word. -/
def cell (x : EReal) : BitVec 32 := Ideal.fptosi 32 (flo x)

/-- 1 if the cell (xi, yi) lies in the image, else 0 (as a one-bit word): xi ≥ 0 ∧ xi < 256 ∧ yi ≥ 0 ∧ yi < 256. -/
def inside (xi yi : BitVec 32) : BitVec 1 :=
  IntOp.andi (IntOp.andi (IntOp.andi (IntOp.cmpi .sge xi 0#32) (IntOp.cmpi .slt xi 256#32)) (IntOp.cmpi .sge yi 0#32))
    (IntOp.cmpi .slt yi 256#32)

/-- A cell coordinate clipped into [0, 255]: min 255 (max 0 v), signed. -/
def clip255 (v : BitVec 32) : BitVec 32 := IntOp.minsi 255#32 (IntOp.maxsi 0#32 v)

/-- A word read as a row or column number of the image (clamped as a gather clamps a start index). -/
def cellIx (v : BitVec 32) : Fin 256 := ⟨min v.toInt.toNat 255, by omega⟩

/-- One corner's contribution before weighting: the image at the clipped cell, times the in-image indicator. -/
def corner (M : Fin 256 → Fin 256 → EReal) (xi yi : BitVec 32) : EReal :=
  M (cellIx (clip255 yi)) (cellIx (clip255 xi)) * FloatOps.uitofp (F := Ideal) .f32 (inside xi yi)

/-- The bilinear sample of the image `M` (rows first) at the normalised point (cx, cy). -/
def sample (M : Fin 256 → Fin 256 → EReal) (cx cy : EReal) : EReal :=
  let x := pix cx
  let y := pix cy
  let wx := x - flo x
  let wy := y - flo y
  let xi := cell x
  let yi := cell y
  ((corner M xi yi * (c1 - wy) * (c1 - wx)
    + corner M (IntOp.addi xi 1#32) yi * (c1 - wy) * wx)
    + corner M xi (IntOp.addi yi 1#32) * wy * (c1 - wx))
    + corner M (IntOp.addi xi 1#32) (IntOp.addi yi 1#32) * wy * wx

/-! ## The pointwise chains -/

/-- |y| as the instance spells it. -/
def absE (y : EReal) : EReal := FloatOps.absf (F := Ideal) (φ := .f32) y

/-- softplus as a sum of a maximum and a log1p: max(y, 0) + log1p(exp(−|y − 0|)). -/
def spR (y : EReal) : EReal := max y c0 + Ideal.log1p (Ideal.exp (-(absE (y - c0))))

/-- softplus(−x), the first program's spelling (negations written 0 − ·). -/
def posK (x : EReal) : EReal :=
  max (c0 - x) c0 + Ideal.log1p (Ideal.exp (c0 - absE ((c0 - x) - c0)))

/-- softplus(x) spelt x + softplus(−x). -/
def negK (x : EReal) : EReal := x + posK x

/-- σ(x) spelt exp(0 − softplus(−x)). -/
def sigK (x : EReal) : EReal := Ideal.exp (c0 - posK x)

/-- softplus(−x), softplus(x), σ(x) in the second program's spelling. -/
def posR (x : EReal) : EReal := spR (-x)
def negR (x : EReal) : EReal := spR x
def sigR (x : EReal) : EReal := Ideal.div c1 (c1 + Ideal.exp (-x))

/-! ## The box terms, of two boxes (cx, cy, w, h) -/

/-- ‖a − b‖₁ over the four box coordinates, summed left to right. -/
def boxL1 (a b : Fin 4 → EReal) : EReal :=
  ((absE (a 0 - b 0) + absE (a 1 - b 1)) + absE (a 2 - b 2)) + absE (a 3 - b 3)

def lo (c w : EReal) : EReal := c - cHalf * w
def hi (c w : EReal) : EReal := c + cHalf * w

/-- The generalised IoU of two boxes. -/
def giou (a b : Fin 4 → EReal) : EReal :=
  let ax0 := lo (a 0) (a 2); let ay0 := lo (a 1) (a 3); let ax1 := hi (a 0) (a 2); let ay1 := hi (a 1) (a 3)
  let bx0 := lo (b 0) (b 2); let by0 := lo (b 1) (b 3); let bx1 := hi (b 0) (b 2); let by1 := hi (b 1) (b 3)
  let areaA := (ax1 - ax0) * (ay1 - ay0)
  let areaB := (bx1 - bx0) * (by1 - by0)
  let inter := max c0 (min ax1 bx1 - max ax0 bx0) * max c0 (min ay1 by1 - max ay0 by0)
  let union := (areaA + areaB) - inter
  let areaE := max c0 (max ax1 bx1 - min ax0 bx0) * max c0 (max ay1 by1 - min ay0 by0)
  Ideal.div inter union - Ideal.div (areaE - union) areaE

/-! ## The cost of one (prediction, target) pair from its sums -/

/-- Dice cost from D = Σ σ(x)·y, S = Σ σ(x), T = Σ y. -/
def diceCost (D S T : EReal) : EReal := c1 - Ideal.div (c2 * D + c1) ((S + T) + c1)

/-- The weighted total of the four costs. -/
def total (cm cd cb cg : EReal) : EReal := ((c5 * cm + c5 * cd) + c5 * cb) + c2 * cg

/-- The cost as the first program arranges it, from a predicted row `x` and a target row `y` over the points. -/
def costK {ι : Type} [Fintype ι] (x y : ι → EReal) (a b : Fin 4 → EReal) : EReal :=
  total (Ideal.div ((∑ p, negK (x p)) - ∑ p, x p * y p) cP)
    (diceCost (∑ p, sigK (x p) * y p) (∑ p, sigK (x p)) (∑ p, y p))
    (boxL1 a b) (c0 - giou a b)

/-- The cost as the second program arranges it. -/
def costR {ι : Type} [Fintype ι] (x y : ι → EReal) (a b : Fin 4 → EReal) : EReal :=
  total (Ideal.div ((∑ p, posR (x p) * y p) + ∑ p, negR (x p) * (c1 - y p)) cP)
    (diceCost (∑ p, sigR (x p) * y p) (∑ p, sigR (x p)) (∑ p, y p))
    (boxL1 a b) (-(giou a b))

end Cert.Spec

end
-- ==== Proof.KPayTile.lean ====
/-
  One tile of the reduction: what the body computes from a [1, 300, 1792] block `x` of sampled prediction logits and
  a block `y` of sampled targets, read entry by entry on the extended reals. Per entry: softplus(−x) spelt
  max(−x, 0) + log1p(exp(−|−x|)) (the guard comparing a number with itself never fires), softplus(x) spelt
  x + softplus(−x), σ(x) spelt exp(−softplus(−x)); per row pair (q, t): the two products ∑ₖ x(q,k)·y(t,k) and
  ∑ₖ σ(x(q,k))·y(t,k) added to what the accumulator held; per row: the three lane sums added to theirs.
-/
import proofs.«176196_j77713138253901_2_alg».proof.Proof.Gen.KernelIdeal.Skeleton
import proofs.«176196_j77713138253901_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KValue

open Cert.KernelIdeal Cert.KernelIdeal.Gen Idealize.ShloMosaic Idealize.ShloMosaic.ValueIdx

/-- An extended real differs from itself never: the ordered "not equal" comparison of a number with itself is 0. -/
theorem cmp_one_self (d : EReal) : Ideal.cmp .one d d = 0#1 := by
  simp [Ideal.cmp]

/-- The block with its unit axis dropped. -/
theorem pay37_apply (x : Vec Ideal S1x300x1792 .f32) (q : Fin 300) (p : Fin 1792) :
    k0_pay37 (F := Ideal) x (ix2 q p) = x (ix3 (0 : Fin 1) q p) := by
  unfold k0_pay37
  exact shapeCast_1ab_ab_apply x _ q p

theorem pay38_apply (y : Vec Ideal S1x300x1792 .f32) (t : Fin 300) (p : Fin 1792) :
    k0_pay38 (F := Ideal) y (ix2 t p) = y (ix3 (0 : Fin 1) t p) := by
  unfold k0_pay38
  exact shapeCast_1ab_ab_apply y _ t p

/-- softplus(−x) at an entry. -/
theorem pay39_apply (x : Vec Ideal S1x300x1792 .f32) (q : Fin 300) (p : Fin 1792) :
    k0_pay39 (F := Ideal) x (ix2 q p) = Spec.posK (x (ix3 (0 : Fin 1) q p)) := by
  unfold k0_pay39
  rw [select_apply, cmpf_apply]
  show Scalar.select (Ideal.cmp .one _ _) _ _ = _
  rw [cmp_one_self, select_zero]
  show max (Ideal.ofBits .f32 0x00000000#32 - k0_pay37 (F := Ideal) x (ix2 q p)) (Ideal.ofBits .f32 0x00000000#32)
      + Ideal.log1p (Ideal.exp (Ideal.ofBits .f32 0x00000000#32
          - FloatOps.absf (F := Ideal) (φ := .f32) ((Ideal.ofBits .f32 0x00000000#32 - k0_pay37 (F := Ideal) x (ix2 q p)) - Ideal.ofBits .f32 0x00000000#32))) = _
  rw [pay37_apply]
  rfl

/-- softplus(x) = x + softplus(−x) at an entry. -/
theorem pay40_apply (x : Vec Ideal S1x300x1792 .f32) (q : Fin 300) (p : Fin 1792) :
    k0_pay40 (F := Ideal) x (ix2 q p) = Spec.negK (x (ix3 (0 : Fin 1) q p)) := by
  unfold k0_pay40
  rw [addf_apply, pay37_apply, pay39_apply]
  rfl

/-- σ(x) = exp(0 − softplus(−x)) at an entry. -/
theorem pay41_apply (x : Vec Ideal S1x300x1792 .f32) (q : Fin 300) (p : Fin 1792) :
    k0_pay41 (F := Ideal) x (ix2 q p) = Spec.sigK (x (ix3 (0 : Fin 1) q p)) := by
  unfold k0_pay41
  show Ideal.exp (Ideal.ofBits .f32 0x00000000#32 - k0_pay39 (F := Ideal) x (ix2 q p)) = _
  rw [pay39_apply]
  rfl

/-! ## The two products and the three lane sums of a tile -/

section Sums

variable [Cert.KernelIdeal.Facts]

/-- The contraction of the last axis of a [300, 1792] operand with the last axis of another. -/
abbrev DD := dot_S300x1792_S300x1792_S300x300_1_1_0_0_n_n

theorem lhsIdx_0 (j : S300x300.Idx) (q : DD.contr.Idx) : (DD.lhsIdx j q 0).val = (j 0).val := by
  unfold DotDims.lhsIdx
  rw [dif_neg (show ¬(0 : Fin S300x1792.rank) ∈ DD.lhsBatch by decide), dif_pos (show (0 : Fin S300x1792.rank) ∈ DD.lhsNonContracting by decide)]
  rfl

theorem lhsIdx_1 (j : S300x300.Idx) (q : DD.contr.Idx) : (DD.lhsIdx j q 1).val = (q ⟨0, by decide⟩).val :=
  DD.lhsIdx_val_of_single rfl j q

theorem rhsIdx_0 (j : S300x300.Idx) (q : DD.contr.Idx) : (DD.rhsIdx j q 0).val = (j 1).val := by
  unfold DotDims.rhsIdx
  rw [dif_neg (show ¬(0 : Fin S300x1792.rank) ∈ DD.rhsBatch by decide), dif_pos (show (0 : Fin S300x1792.rank) ∈ DD.rhsNonContracting by decide)]
  rfl

theorem rhsIdx_1 (j : S300x300.Idx) (q : DD.contr.Idx) : (DD.rhsIdx j q 1).val = (q ⟨0, by decide⟩).val :=
  DD.rhsIdx_val_of_single rfl j q

/-- Row q of `a` against row t of `b`, into a zero accumulator: ∑ₖ a(q,k)·b(t,k). -/
theorem mm_zero_apply {φ₁ φ₂ : FTy} (a : FVec Ideal S300x1792 φ₁) (b : FVec Ideal S300x1792 φ₂) (q t : Fin 300) :
    matmul DD none a b (constant S300x300 .f32 0x00000000#32) (ix2 q t) = ∑ k : Fin 1792, a (ix2 q k) * b (ix2 t k) := by
  simp only [matmul]
  rw [Ideal.matmul_constant_zero_apply, ← Equiv.sum_comp (contrEquiv1 DD 1792 rfl rfl).symm]
  refine Finset.sum_congr rfl fun k _ => ?_
  have hk := contrEquiv1_symm_val DD 1792 rfl rfl k
  have el : DD.lhsIdx (ix2 q t) ((contrEquiv1 DD 1792 rfl rfl).symm k) = ix2 q k := funext fun c => Fin.ext (by
    match c with
    | ⟨0, _⟩ => exact lhsIdx_0 _ _
    | ⟨1, _⟩ => exact (lhsIdx_1 _ _).trans hk)
  have er : DD.rhsIdx (ix2 q t) ((contrEquiv1 DD 1792 rfl rfl).symm k) = ix2 t k := funext fun c => Fin.ext (by
    match c with
    | ⟨0, _⟩ => exact rhsIdx_0 _ _
    | ⟨1, _⟩ => exact (rhsIdx_1 _ _).trans hk)
  rw [el, er]

/-- The first accumulator's update: acc(q,t) + ∑ₖ x(q,k)·y(t,k). -/
theorem pay44_apply (x y : Vec Ideal S1x300x1792 .f32) (acc : Vec Ideal S300x300 .f32) (q t : Fin 300) :
    k0_pay44 (F := Ideal) x y acc (ix2 q t) = acc (ix2 q t) + ∑ k : Fin 1792, x (ix3 (0 : Fin 1) q k) * y (ix3 (0 : Fin 1) t k) := by
  unfold k0_pay44
  rw [shapeCast_self, addf_apply, mm_zero_apply]
  refine congrArg (acc (ix2 q t) + ·) (Finset.sum_congr rfl fun k _ => ?_)
  unfold k0_pay42
  rw [truncf_apply, truncf_apply, pay37_apply, pay38_apply]

/-- The second product of the tile: ∑ₖ σ(x(q,k))·y(t,k). -/
theorem pay43_apply (x y : Vec Ideal S1x300x1792 .f32) (q t : Fin 300) :
    k0_pay43 (F := Ideal) x y (ix2 q t) = ∑ k : Fin 1792, Spec.sigK (x (ix3 (0 : Fin 1) q k)) * y (ix3 (0 : Fin 1) t k) := by
  unfold k0_pay43
  rw [mm_zero_apply]
  refine Finset.sum_congr rfl fun k _ => ?_
  unfold k0_pay42
  rw [truncf_apply, truncf_apply, pay41_apply, pay38_apply]

/-- The second accumulator's update. -/
theorem pay1_apply (v : FVec Ideal S300x300 .f32) (acc : Vec Ideal S300x300 .f32) (j : S300x300.Idx) :
    k0_pay1 (F := Ideal) v acc j = acc j + v j := by
  unfold k0_pay1
  rw [shapeCast_self, addf_apply]

/-- A length-300 vector laid out as a 300 × 1 column reads, at (q, 0), its entry q. -/
theorem column_apply {α : Type} (v : S300.Idx → α) (h : S300.ShapeCasts S300x1) (q : Fin 300) (z : Fin 1) :
    shapeCast S300x1 v h (ix2 q z) = v (ix1 q) :=
  shapeCast_apply v h _ _ (by
    have hz : z.val = 0 := by omega
    rw [Shape.rowMajor_val_one, Shape.rowMajor_val_two]
    show q.val = q.val * 1 + z.val
    omega)

/-- The sum of a row's 1792 lanes. -/
theorem laneSum_apply (v : FVec Ideal S300x1792 .f32) (hacc : (0x00000000#32 : BitVec 32) = 0x00000000#32) (q : Fin 300) :
    multiReduction .add [1] S300 v 0x00000000#32 reduces_S300x1792_S300 (.inl rfl) hacc (ix1 q) = ∑ k : Fin 1792, v (ix2 q k) := by
  refine (Ideal.multiReduction_add_single v 0x00000000#32 reduces_S300x1792_S300 (.inl rfl) hacc (ix1 q)).trans ?_
  refine Finset.sum_congr rfl fun k _ => congrArg v (funext fun c => Fin.ext ?_)
  match c with
  | ⟨0, _⟩ => rfl
  | ⟨1, _⟩ => rfl

/-- A column accumulator's update: acc(q) + the sum of row q's lanes. -/
theorem pay2_apply (v : FVec Ideal S300x1792 .f32) (acc : Vec Ideal S300x1 .f32) (q : Fin 300) (z : Fin 1) :
    k0_pay2 (F := Ideal) v acc (ix2 q z) = acc (ix2 q z) + ∑ k : Fin 1792, v (ix2 q k) := by
  unfold k0_pay2
  rw [shapeCast_self, addf_apply, column_apply, laneSum_apply]

theorem pay3_apply (v : FVec Ideal S300x1792 .f32) (acc : Vec Ideal S300x1 .f32) (q : Fin 300) (z : Fin 1) :
    k0_pay3 (F := Ideal) v acc (ix2 q z) = acc (ix2 q z) + ∑ k : Fin 1792, v (ix2 q k) := by
  unfold k0_pay3
  rw [shapeCast_self, addf_apply, column_apply, laneSum_apply]

theorem pay4_apply (v : FVec Ideal S300x1792 .f32) (acc : Vec Ideal S300x1 .f32) (q : Fin 300) (z : Fin 1) :
    k0_pay4 (F := Ideal) v acc (ix2 q z) = acc (ix2 q z) + ∑ k : Fin 1792, v (ix2 q k) := by
  unfold k0_pay4
  rw [shapeCast_self, addf_apply, column_apply, laneSum_apply]

end Sums

/-! ## One tile's term of each accumulator, as a function of the accumulator's index -/

/-- An index of a 300 × 300 accumulator by its row and column, and of a 300 × 1 accumulator by its row. -/
def row (i : S300x300.Idx) : Fin 300 := ⟨(i 0).val, (i 0).isLt⟩
def col (i : S300x300.Idx) : Fin 300 := ⟨(i 1).val, (i 1).isLt⟩
def row1 (i : S300x1.Idx) : Fin 300 := ⟨(i 0).val, (i 0).isLt⟩
def unit1 (i : S300x1.Idx) : Fin 1 := ⟨(i 1).val, (i 1).isLt⟩

theorem eq_row_col (i : S300x300.Idx) : i = ix2 (row i) (col i) :=
  funext fun d => match d with | ⟨0, _⟩ => rfl | ⟨1, _⟩ => rfl
theorem eq_row1 (i : S300x1.Idx) : i = ix2 (row1 i) (unit1 i) :=
  funext fun d => match d with | ⟨0, _⟩ => rfl | ⟨1, _⟩ => rfl

/-- ∑ₖ x(q,k)·y(t,k), ∑ₖ σ(x(q,k))·y(t,k), ∑ₖ softplus(x(q,k)), ∑ₖ σ(x(q,k)), ∑ₖ y(t,k) over the tile's 1792 columns. -/
def term0 (x y : Vec Ideal S1x300x1792 .f32) (i : S300x300.Idx) : EReal :=
  ∑ k : Fin 1792, x (ix3 (0 : Fin 1) (row i) k) * y (ix3 (0 : Fin 1) (col i) k)
def term1 (x y : Vec Ideal S1x300x1792 .f32) (i : S300x300.Idx) : EReal :=
  ∑ k : Fin 1792, Spec.sigK (x (ix3 (0 : Fin 1) (row i) k)) * y (ix3 (0 : Fin 1) (col i) k)
def term2 (x : Vec Ideal S1x300x1792 .f32) (i : S300x1.Idx) : EReal :=
  ∑ k : Fin 1792, Spec.negK (x (ix3 (0 : Fin 1) (row1 i) k))
def term3 (x : Vec Ideal S1x300x1792 .f32) (i : S300x1.Idx) : EReal :=
  ∑ k : Fin 1792, Spec.sigK (x (ix3 (0 : Fin 1) (row1 i) k))
def term4 (y : Vec Ideal S1x300x1792 .f32) (i : S300x1.Idx) : EReal :=
  ∑ k : Fin 1792, y (ix3 (0 : Fin 1) (row1 i) k)

section Steps

variable [Cert.KernelIdeal.Facts]

theorem step0 (x y : Vec Ideal S1x300x1792 .f32) (acc : Vec Ideal S300x300 .f32) (i : S300x300.Idx) :
    k0_pay44 (F := Ideal) x y acc i = acc i + term0 x y i := by
  rw [eq_row_col i]
  exact pay44_apply x y acc (row i) (col i)

theorem step1 (x y : Vec Ideal S1x300x1792 .f32) (acc : Vec Ideal S300x300 .f32) (i : S300x300.Idx) :
    k0_pay1 (F := Ideal) (k0_pay43 x y) acc i = acc i + term1 x y i := by
  rw [pay1_apply, eq_row_col i, pay43_apply]
  rfl

theorem step2 (x : Vec Ideal S1x300x1792 .f32) (acc : Vec Ideal S300x1 .f32) (i : S300x1.Idx) :
    k0_pay2 (F := Ideal) (k0_pay40 x) acc i = acc i + term2 x i := by
  rw [eq_row1 i, pay2_apply]
  refine congrArg (acc _ + ·) (Finset.sum_congr rfl fun k _ => ?_)
  rw [pay40_apply]
  rfl

theorem step3 (x : Vec Ideal S1x300x1792 .f32) (acc : Vec Ideal S300x1 .f32) (i : S300x1.Idx) :
    k0_pay3 (F := Ideal) (k0_pay41 x) acc i = acc i + term3 x i := by
  rw [eq_row1 i, pay3_apply]
  refine congrArg (acc _ + ·) (Finset.sum_congr rfl fun k _ => ?_)
  rw [pay41_apply]
  rfl

theorem step4 (y : Vec Ideal S1x300x1792 .f32) (acc : Vec Ideal S300x1 .f32) (i : S300x1.Idx) :
    k0_pay4 (F := Ideal) (k0_pay38 y) acc i = acc i + term4 y i := by
  rw [eq_row1 i, pay4_apply]
  refine congrArg (acc _ + ·) (Finset.sum_congr rfl fun k _ => ?_)
  rw [pay38_apply]
  rfl

end Steps

/-- What the first tile stores before adding: zeros. -/
theorem zero32 (i : S300x300.Idx) : k0_pay32 (F := Ideal) i = 0 := by
  unfold k0_pay32; rw [shapeCast_self]; exact Ideal.ofBits_zero_f32
theorem zero33 (i : S300x300.Idx) : k0_pay33 (F := Ideal) i = 0 := by
  unfold k0_pay33; rw [shapeCast_self]; exact Ideal.ofBits_zero_f32
theorem zero34 (i : S300x1.Idx) : k0_pay34 (F := Ideal) i = 0 := by
  unfold k0_pay34; rw [shapeCast_self]; exact Ideal.ofBits_zero_f32
theorem zero35 (i : S300x1.Idx) : k0_pay35 (F := Ideal) i = 0 := by
  unfold k0_pay35; rw [shapeCast_self]; exact Ideal.ofBits_zero_f32
theorem zero36 (i : S300x1.Idx) : k0_pay36 (F := Ideal) i = 0 := by
  unfold k0_pay36; rw [shapeCast_self]; exact Ideal.ofBits_zero_f32

end Cert.KValue

end
-- ==== Proof.KAcc.lean ====
/-
  The five accumulators after each grid point, as finite sums: after tile k of batch element b each holds the sum, over
  tiles 0 … k of that batch element, of the tile's term — the first tile starts from stored zeros, every later tile
  adds its term to what the tile before left, whichever of the body's control cases runs it.
-/
import proofs.«176196_j77713138253901_2_alg».proof.Proof.Gen.KernelIdeal.Value
import proofs.«176196_j77713138253901_2_alg».proof.Proof.KPayTile
import proofs.«176196_j77713138253901_2_alg».proof.Proof.KPieces
import Idealize.ShloMosaic.Lib.Pipeline.Value
import Idealize.ShloMosaic.Lib.ValueIdx

set_option maxRecDepth 16384

noncomputable section

namespace Cert.KValue

open Cert.KernelIdeal Cert.KernelIdeal.Gen Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ)

/-- Point n's term of accumulator 0 (the tile's products x·y of sampled predictions with sampled targets); zero past the grid. -/
def M0 (c : Dev nD) (n : ℕ) (i : S300x300.Idx) : EReal :=
  if h : n < cfg0.N then term0 (iblk m c 2 ⟨n, h⟩) (iblk m c 3 ⟨n, h⟩) i else 0

/-- After point t (tile t % 7 of batch element t / 7) accumulator 0 holds the sum of its terms over the tiles so far of that batch element. -/
theorem acc0 (c : Dev nD) (t : Fin cfg0.N) (i : S300x300.Idx) :
    (outsAt0 m c t.val t.isLt).2.1 i = ∑ s ∈ Finset.range (t.val % 7 + 1), M0 m c (7 * (t.val / 7) + s) i := by
  have hN : cfg0.N = 14 := N_0
  rw [Value.soutsAt0_0_eq]
  refine (Pipeline.accAt_add_apply _ _ (fun _ => (0 : EReal)) (M0 m c) (7 * (t.val / 7)) 6 ?ha ?hg (t.val % 7) (by omega) _ i).trans (zero_add _)
  case ha =>
    intro h i
    have h0 : (7 * (t.val / 7)) % 7 = 0 := by omega
    have h1 : ¬(7 * (t.val / 7)) % 7 = 6 := by omega
    generalize 7 * (t.val / 7) = n at h h0 h1
    unfold Value.scAt0_0
    rw [dif_pos h0, dif_neg h1]
    refine (congrFun (sout_A_0 (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) scM0_0 (Memref.isWhole_whole _) scM0_1 (Memref.isWhole_whole _) scM0_2 (Memref.isWhole_whole _) scM0_3 (Memref.isWhole_whole _) scM0_4 (Memref.isWhole_whole _) ((hcond0_0 (⟨n, h⟩ : Fin cfg0.N)).mpr h0) (fun hh => h1 ((hcond0_1 (⟨n, h⟩ : Fin cfg0.N)).mp hh)) (iblk m c 0 (⟨n, h⟩ : Fin cfg0.N)) (iblk m c 1 (⟨n, h⟩ : Fin cfg0.N)) (iblk m c 2 (⟨n, h⟩ : Fin cfg0.N)) (iblk m c 3 (⟨n, h⟩ : Fin cfg0.N))) i).trans ?_
    refine (step0 (iblk m c 2 (⟨n, h⟩ : Fin cfg0.N)) (iblk m c 3 (⟨n, h⟩ : Fin cfg0.N)) (k0_pay32 (F := Ideal)) i).trans ?_
    rw [zero32, M0, dif_pos h]
  case hg =>
    intro n h acc i hb he
    have h0 : ¬n % 7 = 0 := by omega
    unfold Value.scAt0_0
    rw [dif_neg h0]
    by_cases h1 : n % 7 = 6
    · rw [dif_pos h1]
      refine (congrFun (sout_C_0 (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) scM0_0 (Memref.isWhole_whole _) scM0_1 (Memref.isWhole_whole _) scM0_2 (Memref.isWhole_whole _) scM0_3 (Memref.isWhole_whole _) scM0_4 (Memref.isWhole_whole _) (fun hh => h0 ((hcond0_0 (⟨n, h⟩ : Fin cfg0.N)).mp hh)) ((hcond0_1 (⟨n, h⟩ : Fin cfg0.N)).mpr h1) (iblk m c 0 (⟨n, h⟩ : Fin cfg0.N)) (iblk m c 1 (⟨n, h⟩ : Fin cfg0.N)) (iblk m c 2 (⟨n, h⟩ : Fin cfg0.N)) (iblk m c 3 (⟨n, h⟩ : Fin cfg0.N)) acc (outsAt0 m c ((⟨n, h⟩ : Fin cfg0.N).val - 1) (Nat.lt_of_le_of_lt (Nat.sub_le _ _) (⟨n, h⟩ : Fin cfg0.N).isLt)).2.2.1 (outsAt0 m c ((⟨n, h⟩ : Fin cfg0.N).val - 1) (Nat.lt_of_le_of_lt (Nat.sub_le _ _) (⟨n, h⟩ : Fin cfg0.N).isLt)).2.2.2.1 (outsAt0 m c ((⟨n, h⟩ : Fin cfg0.N).val - 1) (Nat.lt_of_le_of_lt (Nat.sub_le _ _) (⟨n, h⟩ : Fin cfg0.N).isLt)).2.2.2.2.1 (outsAt0 m c ((⟨n, h⟩ : Fin cfg0.N).val - 1) (Nat.lt_of_le_of_lt (Nat.sub_le _ _) (⟨n, h⟩ : Fin cfg0.N).isLt)).2.2.2.2.2) i).trans ?_
      refine (step0 (iblk m c 2 (⟨n, h⟩ : Fin cfg0.N)) (iblk m c 3 (⟨n, h⟩ : Fin cfg0.N)) acc i).trans ?_
      rw [M0, dif_pos h]
    · rw [dif_neg h1]
      refine (congrFun (sout_B_0 (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) scM0_0 (Memref.isWhole_whole _) scM0_1 (Memref.isWhole_whole _) scM0_2 (Memref.isWhole_whole _) scM0_3 (Memref.isWhole_whole _) scM0_4 (Memref.isWhole_whole _) (fun hh => h0 ((hcond0_0 (⟨n, h⟩ : Fin cfg0.N)).mp hh)) (fun hh => h1 ((hcond0_1 (⟨n, h⟩ : Fin cfg0.N)).mp hh)) (iblk m c 0 (⟨n, h⟩ : Fin cfg0.N)) (iblk m c 1 (⟨n, h⟩ : Fin cfg0.N)) (iblk m c 2 (⟨n, h⟩ : Fin cfg0.N)) (iblk m c 3 (⟨n, h⟩ : Fin cfg0.N)) acc (outsAt0 m c ((⟨n, h⟩ : Fin cfg0.N).val - 1) (Nat.lt_of_le_of_lt (Nat.sub_le _ _) (⟨n, h⟩ : Fin cfg0.N).isLt)).2.2.1 (outsAt0 m c ((⟨n, h⟩ : Fin cfg0.N).val - 1) (Nat.lt_of_le_of_lt (Nat.sub_le _ _) (⟨n, h⟩ : Fin cfg0.N).isLt)).2.2.2.1 (outsAt0 m c ((⟨n, h⟩ : Fin cfg0.N).val - 1) (Nat.lt_of_le_of_lt (Nat.sub_le _ _) (⟨n, h⟩ : Fin cfg0.N).isLt)).2.2.2.2.1 (outsAt0 m c ((⟨n, h⟩ : Fin cfg0.N).val - 1) (Nat.lt_of_le_of_lt (Nat.sub_le _ _) (⟨n, h⟩ : Fin cfg0.N).isLt)).2.2.2.2.2) i).trans ?_
      refine (step0 (iblk m c 2 (⟨n, h⟩ : Fin cfg0.N)) (iblk m c 3 (⟨n, h⟩ : Fin cfg0.N)) acc i).trans ?_
      rw [M0, dif_pos h]

/-- Point n's term of accumulator 1 (the tile's products σ(x)·y); zero past the grid. -/
def M1 (c : Dev nD) (n : ℕ) (i : S300x300.Idx) : EReal :=
  if h : n < cfg0.N then term1 (iblk m c 2 ⟨n, h⟩) (iblk m c 3 ⟨n, h⟩) i else 0

/-- After point t (tile t % 7 of batch element t / 7) accumulator 1 holds the sum of its terms over the tiles so far of that batch element. -/
theorem acc1 (c : Dev nD) (t : Fin cfg0.N) (i : S300x300.Idx) :
    (outsAt0 m c t.val t.isLt).2.2.1 i = ∑ s ∈ Finset.range (t.val % 7 + 1), M1 m c (7 * (t.val / 7) + s) i := by
  have hN : cfg0.N = 14 := N_0
  rw [Value.soutsAt0_1_eq]
  refine (Pipeline.accAt_add_apply _ _ (fun _ => (0 : EReal)) (M1 m c) (7 * (t.val / 7)) 6 ?ha ?hg (t.val % 7) (by omega) _ i).trans (zero_add _)
  case ha =>
    intro h i
    have h0 : (7 * (t.val / 7)) % 7 = 0 := by omega
    have h1 : ¬(7 * (t.val / 7)) % 7 = 6 := by omega
    generalize 7 * (t.val / 7) = n at h h0 h1
    unfold Value.scAt0_1
    rw [dif_pos h0, dif_neg h1]
    refine (congrFun (sout_A_1 (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) scM0_0 (Memref.isWhole_whole _) scM0_1 (Memref.isWhole_whole _) scM0_2 (Memref.isWhole_whole _) scM0_3 (Memref.isWhole_whole _) scM0_4 (Memref.isWhole_whole _) ((hcond0_0 (⟨n, h⟩ : Fin cfg0.N)).mpr h0) (fun hh => h1 ((hcond0_1 (⟨n, h⟩ : Fin cfg0.N)).mp hh)) (iblk m c 0 (⟨n, h⟩ : Fin cfg0.N)) (iblk m c 1 (⟨n, h⟩ : Fin cfg0.N)) (iblk m c 2 (⟨n, h⟩ : Fin cfg0.N)) (iblk m c 3 (⟨n, h⟩ : Fin cfg0.N))) i).trans ?_
    refine (step1 (iblk m c 2 (⟨n, h⟩ : Fin cfg0.N)) (iblk m c 3 (⟨n, h⟩ : Fin cfg0.N)) (k0_pay33 (F := Ideal)) i).trans ?_
    rw [zero33, M1, dif_pos h]
  case hg =>
    intro n h acc i hb he
    have h0 : ¬n % 7 = 0 := by omega
    unfold Value.scAt0_1
    rw [dif_neg h0]
    by_cases h1 : n % 7 = 6
    · rw [dif_pos h1]
      refine (congrFun (sout_C_1 (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) scM0_0 (Memref.isWhole_whole _) scM0_1 (Memref.isWhole_whole _) scM0_2 (Memref.isWhole_whole _) scM0_3 (Memref.isWhole_whole _) scM0_4 (Memref.isWhole_whole _) (fun hh => h0 ((hcond0_0 (⟨n, h⟩ : Fin cfg0.N)).mp hh)) ((hcond0_1 (⟨n, h⟩ : Fin cfg0.N)).mpr h1) (iblk m c 0 (⟨n, h⟩ : Fin cfg0.N)) (iblk m c 1 (⟨n, h⟩ : Fin cfg0.N)) (iblk m c 2 (⟨n, h⟩ : Fin cfg0.N)) (iblk m c 3 (⟨n, h⟩ : Fin cfg0.N)) (outsAt0 m c ((⟨n, h⟩ : Fin cfg0.N).val - 1) (Nat.lt_of_le_of_lt (Nat.sub_le _ _) (⟨n, h⟩ : Fin cfg0.N).isLt)).2.1 acc (outsAt0 m c ((⟨n, h⟩ : Fin cfg0.N).val - 1) (Nat.lt_of_le_of_lt (Nat.sub_le _ _) (⟨n, h⟩ : Fin cfg0.N).isLt)).2.2.2.1 (outsAt0 m c ((⟨n, h⟩ : Fin cfg0.N).val - 1) (Nat.lt_of_le_of_lt (Nat.sub_le _ _) (⟨n, h⟩ : Fin cfg0.N).isLt)).2.2.2.2.1 (outsAt0 m c ((⟨n, h⟩ : Fin cfg0.N).val - 1) (Nat.lt_of_le_of_lt (Nat.sub_le _ _) (⟨n, h⟩ : Fin cfg0.N).isLt)).2.2.2.2.2) i).trans ?_
      refine (step1 (iblk m c 2 (⟨n, h⟩ : Fin cfg0.N)) (iblk m c 3 (⟨n, h⟩ : Fin cfg0.N)) acc i).trans ?_
      rw [M1, dif_pos h]
    · rw [dif_neg h1]
      refine (congrFun (sout_B_1 (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) scM0_0 (Memref.isWhole_whole _) scM0_1 (Memref.isWhole_whole _) scM0_2 (Memref.isWhole_whole _) scM0_3 (Memref.isWhole_whole _) scM0_4 (Memref.isWhole_whole _) (fun hh => h0 ((hcond0_0 (⟨n, h⟩ : Fin cfg0.N)).mp hh)) (fun hh => h1 ((hcond0_1 (⟨n, h⟩ : Fin cfg0.N)).mp hh)) (iblk m c 0 (⟨n, h⟩ : Fin cfg0.N)) (iblk m c 1 (⟨n, h⟩ : Fin cfg0.N)) (iblk m c 2 (⟨n, h⟩ : Fin cfg0.N)) (iblk m c 3 (⟨n, h⟩ : Fin cfg0.N)) (outsAt0 m c ((⟨n, h⟩ : Fin cfg0.N).val - 1) (Nat.lt_of_le_of_lt (Nat.sub_le _ _) (⟨n, h⟩ : Fin cfg0.N).isLt)).2.1 acc (outsAt0 m c ((⟨n, h⟩ : Fin cfg0.N).val - 1) (Nat.lt_of_le_of_lt (Nat.sub_le _ _) (⟨n, h⟩ : Fin cfg0.N).isLt)).2.2.2.1 (outsAt0 m c ((⟨n, h⟩ : Fin cfg0.N).val - 1) (Nat.lt_of_le_of_lt (Nat.sub_le _ _) (⟨n, h⟩ : Fin cfg0.N).isLt)).2.2.2.2.1 (outsAt0 m c ((⟨n, h⟩ : Fin cfg0.N).val - 1) (Nat.lt_of_le_of_lt (Nat.sub_le _ _) (⟨n, h⟩ : Fin cfg0.N).isLt)).2.2.2.2.2) i).trans ?_
      refine (step1 (iblk m c 2 (⟨n, h⟩ : Fin cfg0.N)) (iblk m c 3 (⟨n, h⟩ : Fin cfg0.N)) acc i).trans ?_
      rw [M1, dif_pos h]

/-- Point n's term of accumulator 2 (the tile's row sums of softplus(x)); zero past the grid. -/
def M2 (c : Dev nD) (n : ℕ) (i : S300x1.Idx) : EReal :=
  if h : n < cfg0.N then term2 (iblk m c 2 ⟨n, h⟩) i else 0

/-- After point t (tile t % 7 of batch element t / 7) accumulator 2 holds the sum of its terms over the tiles so far of that batch element. -/
theorem acc2 (c : Dev nD) (t : Fin cfg0.N) (i : S300x1.Idx) :
    (outsAt0 m c t.val t.isLt).2.2.2.1 i = ∑ s ∈ Finset.range (t.val % 7 + 1), M2 m c (7 * (t.val / 7) + s) i := by
  have hN : cfg0.N = 14 := N_0
  rw [Value.soutsAt0_2_eq]
  refine (Pipeline.accAt_add_apply _ _ (fun _ => (0 : EReal)) (M2 m c) (7 * (t.val / 7)) 6 ?ha ?hg (t.val % 7) (by omega) _ i).trans (zero_add _)
  case ha =>
    intro h i
    have h0 : (7 * (t.val / 7)) % 7 = 0 := by omega
    have h1 : ¬(7 * (t.val / 7)) % 7 = 6 := by omega
    generalize 7 * (t.val / 7) = n at h h0 h1
    unfold Value.scAt0_2
    rw [dif_pos h0, dif_neg h1]
    refine (congrFun (sout_A_2 (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) scM0_0 (Memref.isWhole_whole _) scM0_1 (Memref.isWhole_whole _) scM0_2 (Memref.isWhole_whole _) scM0_3 (Memref.isWhole_whole _) scM0_4 (Memref.isWhole_whole _) ((hcond0_0 (⟨n, h⟩ : Fin cfg0.N)).mpr h0) (fun hh => h1 ((hcond0_1 (⟨n, h⟩ : Fin cfg0.N)).mp hh)) (iblk m c 0 (⟨n, h⟩ : Fin cfg0.N)) (iblk m c 1 (⟨n, h⟩ : Fin cfg0.N)) (iblk m c 2 (⟨n, h⟩ : Fin cfg0.N)) (iblk m c 3 (⟨n, h⟩ : Fin cfg0.N))) i).trans ?_
    refine (step2 (iblk m c 2 (⟨n, h⟩ : Fin cfg0.N)) (k0_pay34 (F := Ideal)) i).trans ?_
    rw [zero34, M2, dif_pos h]
  case hg =>
    intro n h acc i hb he
    have h0 : ¬n % 7 = 0 := by omega
    unfold Value.scAt0_2
    rw [dif_neg h0]
    by_cases h1 : n % 7 = 6
    · rw [dif_pos h1]
      refine (congrFun (sout_C_2 (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) scM0_0 (Memref.isWhole_whole _) scM0_1 (Memref.isWhole_whole _) scM0_2 (Memref.isWhole_whole _) scM0_3 (Memref.isWhole_whole _) scM0_4 (Memref.isWhole_whole _) (fun hh => h0 ((hcond0_0 (⟨n, h⟩ : Fin cfg0.N)).mp hh)) ((hcond0_1 (⟨n, h⟩ : Fin cfg0.N)).mpr h1) (iblk m c 0 (⟨n, h⟩ : Fin cfg0.N)) (iblk m c 1 (⟨n, h⟩ : Fin cfg0.N)) (iblk m c 2 (⟨n, h⟩ : Fin cfg0.N)) (iblk m c 3 (⟨n, h⟩ : Fin cfg0.N)) (outsAt0 m c ((⟨n, h⟩ : Fin cfg0.N).val - 1) (Nat.lt_of_le_of_lt (Nat.sub_le _ _) (⟨n, h⟩ : Fin cfg0.N).isLt)).2.1 (outsAt0 m c ((⟨n, h⟩ : Fin cfg0.N).val - 1) (Nat.lt_of_le_of_lt (Nat.sub_le _ _) (⟨n, h⟩ : Fin cfg0.N).isLt)).2.2.1 acc (outsAt0 m c ((⟨n, h⟩ : Fin cfg0.N).val - 1) (Nat.lt_of_le_of_lt (Nat.sub_le _ _) (⟨n, h⟩ : Fin cfg0.N).isLt)).2.2.2.2.1 (outsAt0 m c ((⟨n, h⟩ : Fin cfg0.N).val - 1) (Nat.lt_of_le_of_lt (Nat.sub_le _ _) (⟨n, h⟩ : Fin cfg0.N).isLt)).2.2.2.2.2) i).trans ?_
      refine (step2 (iblk m c 2 (⟨n, h⟩ : Fin cfg0.N)) acc i).trans ?_
      rw [M2, dif_pos h]
    · rw [dif_neg h1]
      refine (congrFun (sout_B_2 (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) scM0_0 (Memref.isWhole_whole _) scM0_1 (Memref.isWhole_whole _) scM0_2 (Memref.isWhole_whole _) scM0_3 (Memref.isWhole_whole _) scM0_4 (Memref.isWhole_whole _) (fun hh => h0 ((hcond0_0 (⟨n, h⟩ : Fin cfg0.N)).mp hh)) (fun hh => h1 ((hcond0_1 (⟨n, h⟩ : Fin cfg0.N)).mp hh)) (iblk m c 0 (⟨n, h⟩ : Fin cfg0.N)) (iblk m c 1 (⟨n, h⟩ : Fin cfg0.N)) (iblk m c 2 (⟨n, h⟩ : Fin cfg0.N)) (iblk m c 3 (⟨n, h⟩ : Fin cfg0.N)) (outsAt0 m c ((⟨n, h⟩ : Fin cfg0.N).val - 1) (Nat.lt_of_le_of_lt (Nat.sub_le _ _) (⟨n, h⟩ : Fin cfg0.N).isLt)).2.1 (outsAt0 m c ((⟨n, h⟩ : Fin cfg0.N).val - 1) (Nat.lt_of_le_of_lt (Nat.sub_le _ _) (⟨n, h⟩ : Fin cfg0.N).isLt)).2.2.1 acc (outsAt0 m c ((⟨n, h⟩ : Fin cfg0.N).val - 1) (Nat.lt_of_le_of_lt (Nat.sub_le _ _) (⟨n, h⟩ : Fin cfg0.N).isLt)).2.2.2.2.1 (outsAt0 m c ((⟨n, h⟩ : Fin cfg0.N).val - 1) (Nat.lt_of_le_of_lt (Nat.sub_le _ _) (⟨n, h⟩ : Fin cfg0.N).isLt)).2.2.2.2.2) i).trans ?_
      refine (step2 (iblk m c 2 (⟨n, h⟩ : Fin cfg0.N)) acc i).trans ?_
      rw [M2, dif_pos h]

/-- Point n's term of accumulator 3 (the tile's row sums of σ(x)); zero past the grid. -/
def M3 (c : Dev nD) (n : ℕ) (i : S300x1.Idx) : EReal :=
  if h : n < cfg0.N then term3 (iblk m c 2 ⟨n, h⟩) i else 0

/-- After point t (tile t % 7 of batch element t / 7) accumulator 3 holds the sum of its terms over the tiles so far of that batch element. -/
theorem acc3 (c : Dev nD) (t : Fin cfg0.N) (i : S300x1.Idx) :
    (outsAt0 m c t.val t.isLt).2.2.2.2.1 i = ∑ s ∈ Finset.range (t.val % 7 + 1), M3 m c (7 * (t.val / 7) + s) i := by
  have hN : cfg0.N = 14 := N_0
  rw [Value.soutsAt0_3_eq]
  refine (Pipeline.accAt_add_apply _ _ (fun _ => (0 : EReal)) (M3 m c) (7 * (t.val / 7)) 6 ?ha ?hg (t.val % 7) (by omega) _ i).trans (zero_add _)
  case ha =>
    intro h i
    have h0 : (7 * (t.val / 7)) % 7 = 0 := by omega
    have h1 : ¬(7 * (t.val / 7)) % 7 = 6 := by omega
    generalize 7 * (t.val / 7) = n at h h0 h1
    unfold Value.scAt0_3
    rw [dif_pos h0, dif_neg h1]
    refine (congrFun (sout_A_3 (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) scM0_0 (Memref.isWhole_whole _) scM0_1 (Memref.isWhole_whole _) scM0_2 (Memref.isWhole_whole _) scM0_3 (Memref.isWhole_whole _) scM0_4 (Memref.isWhole_whole _) ((hcond0_0 (⟨n, h⟩ : Fin cfg0.N)).mpr h0) (fun hh => h1 ((hcond0_1 (⟨n, h⟩ : Fin cfg0.N)).mp hh)) (iblk m c 0 (⟨n, h⟩ : Fin cfg0.N)) (iblk m c 1 (⟨n, h⟩ : Fin cfg0.N)) (iblk m c 2 (⟨n, h⟩ : Fin cfg0.N)) (iblk m c 3 (⟨n, h⟩ : Fin cfg0.N))) i).trans ?_
    refine (step3 (iblk m c 2 (⟨n, h⟩ : Fin cfg0.N)) (k0_pay35 (F := Ideal)) i).trans ?_
    rw [zero35, M3, dif_pos h]
  case hg =>
    intro n h acc i hb he
    have h0 : ¬n % 7 = 0 := by omega
    unfold Value.scAt0_3
    rw [dif_neg h0]
    by_cases h1 : n % 7 = 6
    · rw [dif_pos h1]
      refine (congrFun (sout_C_3 (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) scM0_0 (Memref.isWhole_whole _) scM0_1 (Memref.isWhole_whole _) scM0_2 (Memref.isWhole_whole _) scM0_3 (Memref.isWhole_whole _) scM0_4 (Memref.isWhole_whole _) (fun hh => h0 ((hcond0_0 (⟨n, h⟩ : Fin cfg0.N)).mp hh)) ((hcond0_1 (⟨n, h⟩ : Fin cfg0.N)).mpr h1) (iblk m c 0 (⟨n, h⟩ : Fin cfg0.N)) (iblk m c 1 (⟨n, h⟩ : Fin cfg0.N)) (iblk m c 2 (⟨n, h⟩ : Fin cfg0.N)) (iblk m c 3 (⟨n, h⟩ : Fin cfg0.N)) (outsAt0 m c ((⟨n, h⟩ : Fin cfg0.N).val - 1) (Nat.lt_of_le_of_lt (Nat.sub_le _ _) (⟨n, h⟩ : Fin cfg0.N).isLt)).2.1 (outsAt0 m c ((⟨n, h⟩ : Fin cfg0.N).val - 1) (Nat.lt_of_le_of_lt (Nat.sub_le _ _) (⟨n, h⟩ : Fin cfg0.N).isLt)).2.2.1 (outsAt0 m c ((⟨n, h⟩ : Fin cfg0.N).val - 1) (Nat.lt_of_le_of_lt (Nat.sub_le _ _) (⟨n, h⟩ : Fin cfg0.N).isLt)).2.2.2.1 acc (outsAt0 m c ((⟨n, h⟩ : Fin cfg0.N).val - 1) (Nat.lt_of_le_of_lt (Nat.sub_le _ _) (⟨n, h⟩ : Fin cfg0.N).isLt)).2.2.2.2.2) i).trans ?_
      refine (step3 (iblk m c 2 (⟨n, h⟩ : Fin cfg0.N)) acc i).trans ?_
      rw [M3, dif_pos h]
    · rw [dif_neg h1]
      refine (congrFun (sout_B_3 (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) scM0_0 (Memref.isWhole_whole _) scM0_1 (Memref.isWhole_whole _) scM0_2 (Memref.isWhole_whole _) scM0_3 (Memref.isWhole_whole _) scM0_4 (Memref.isWhole_whole _) (fun hh => h0 ((hcond0_0 (⟨n, h⟩ : Fin cfg0.N)).mp hh)) (fun hh => h1 ((hcond0_1 (⟨n, h⟩ : Fin cfg0.N)).mp hh)) (iblk m c 0 (⟨n, h⟩ : Fin cfg0.N)) (iblk m c 1 (⟨n, h⟩ : Fin cfg0.N)) (iblk m c 2 (⟨n, h⟩ : Fin cfg0.N)) (iblk m c 3 (⟨n, h⟩ : Fin cfg0.N)) (outsAt0 m c ((⟨n, h⟩ : Fin cfg0.N).val - 1) (Nat.lt_of_le_of_lt (Nat.sub_le _ _) (⟨n, h⟩ : Fin cfg0.N).isLt)).2.1 (outsAt0 m c ((⟨n, h⟩ : Fin cfg0.N).val - 1) (Nat.lt_of_le_of_lt (Nat.sub_le _ _) (⟨n, h⟩ : Fin cfg0.N).isLt)).2.2.1 (outsAt0 m c ((⟨n, h⟩ : Fin cfg0.N).val - 1) (Nat.lt_of_le_of_lt (Nat.sub_le _ _) (⟨n, h⟩ : Fin cfg0.N).isLt)).2.2.2.1 acc (outsAt0 m c ((⟨n, h⟩ : Fin cfg0.N).val - 1) (Nat.lt_of_le_of_lt (Nat.sub_le _ _) (⟨n, h⟩ : Fin cfg0.N).isLt)).2.2.2.2.2) i).trans ?_
      refine (step3 (iblk m c 2 (⟨n, h⟩ : Fin cfg0.N)) acc i).trans ?_
      rw [M3, dif_pos h]

/-- Point n's term of accumulator 4 (the tile's row sums of the sampled targets); zero past the grid. -/
def M4 (c : Dev nD) (n : ℕ) (i : S300x1.Idx) : EReal :=
  if h : n < cfg0.N then term4 (iblk m c 3 ⟨n, h⟩) i else 0

/-- After point t (tile t % 7 of batch element t / 7) accumulator 4 holds the sum of its terms over the tiles so far of that batch element. -/
theorem acc4 (c : Dev nD) (t : Fin cfg0.N) (i : S300x1.Idx) :
    (outsAt0 m c t.val t.isLt).2.2.2.2.2 i = ∑ s ∈ Finset.range (t.val % 7 + 1), M4 m c (7 * (t.val / 7) + s) i := by
  have hN : cfg0.N = 14 := N_0
  rw [Value.soutsAt0_4_eq]
  refine (Pipeline.accAt_add_apply _ _ (fun _ => (0 : EReal)) (M4 m c) (7 * (t.val / 7)) 6 ?ha ?hg (t.val % 7) (by omega) _ i).trans (zero_add _)
  case ha =>
    intro h i
    have h0 : (7 * (t.val / 7)) % 7 = 0 := by omega
    have h1 : ¬(7 * (t.val / 7)) % 7 = 6 := by omega
    generalize 7 * (t.val / 7) = n at h h0 h1
    unfold Value.scAt0_4
    rw [dif_pos h0, dif_neg h1]
    refine (congrFun (sout_A_4 (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) scM0_0 (Memref.isWhole_whole _) scM0_1 (Memref.isWhole_whole _) scM0_2 (Memref.isWhole_whole _) scM0_3 (Memref.isWhole_whole _) scM0_4 (Memref.isWhole_whole _) ((hcond0_0 (⟨n, h⟩ : Fin cfg0.N)).mpr h0) (fun hh => h1 ((hcond0_1 (⟨n, h⟩ : Fin cfg0.N)).mp hh)) (iblk m c 0 (⟨n, h⟩ : Fin cfg0.N)) (iblk m c 1 (⟨n, h⟩ : Fin cfg0.N)) (iblk m c 2 (⟨n, h⟩ : Fin cfg0.N)) (iblk m c 3 (⟨n, h⟩ : Fin cfg0.N))) i).trans ?_
    refine (step4 (iblk m c 3 (⟨n, h⟩ : Fin cfg0.N)) (k0_pay36 (F := Ideal)) i).trans ?_
    rw [zero36, M4, dif_pos h]
  case hg =>
    intro n h acc i hb he
    have h0 : ¬n % 7 = 0 := by omega
    unfold Value.scAt0_4
    rw [dif_neg h0]
    by_cases h1 : n % 7 = 6
    · rw [dif_pos h1]
      refine (congrFun (sout_C_4 (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) scM0_0 (Memref.isWhole_whole _) scM0_1 (Memref.isWhole_whole _) scM0_2 (Memref.isWhole_whole _) scM0_3 (Memref.isWhole_whole _) scM0_4 (Memref.isWhole_whole _) (fun hh => h0 ((hcond0_0 (⟨n, h⟩ : Fin cfg0.N)).mp hh)) ((hcond0_1 (⟨n, h⟩ : Fin cfg0.N)).mpr h1) (iblk m c 0 (⟨n, h⟩ : Fin cfg0.N)) (iblk m c 1 (⟨n, h⟩ : Fin cfg0.N)) (iblk m c 2 (⟨n, h⟩ : Fin cfg0.N)) (iblk m c 3 (⟨n, h⟩ : Fin cfg0.N)) (outsAt0 m c ((⟨n, h⟩ : Fin cfg0.N).val - 1) (Nat.lt_of_le_of_lt (Nat.sub_le _ _) (⟨n, h⟩ : Fin cfg0.N).isLt)).2.1 (outsAt0 m c ((⟨n, h⟩ : Fin cfg0.N).val - 1) (Nat.lt_of_le_of_lt (Nat.sub_le _ _) (⟨n, h⟩ : Fin cfg0.N).isLt)).2.2.1 (outsAt0 m c ((⟨n, h⟩ : Fin cfg0.N).val - 1) (Nat.lt_of_le_of_lt (Nat.sub_le _ _) (⟨n, h⟩ : Fin cfg0.N).isLt)).2.2.2.1 (outsAt0 m c ((⟨n, h⟩ : Fin cfg0.N).val - 1) (Nat.lt_of_le_of_lt (Nat.sub_le _ _) (⟨n, h⟩ : Fin cfg0.N).isLt)).2.2.2.2.1 acc) i).trans ?_
      refine (step4 (iblk m c 3 (⟨n, h⟩ : Fin cfg0.N)) acc i).trans ?_
      rw [M4, dif_pos h]
    · rw [dif_neg h1]
      refine (congrFun (sout_B_4 (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) scM0_0 (Memref.isWhole_whole _) scM0_1 (Memref.isWhole_whole _) scM0_2 (Memref.isWhole_whole _) scM0_3 (Memref.isWhole_whole _) scM0_4 (Memref.isWhole_whole _) (fun hh => h0 ((hcond0_0 (⟨n, h⟩ : Fin cfg0.N)).mp hh)) (fun hh => h1 ((hcond0_1 (⟨n, h⟩ : Fin cfg0.N)).mp hh)) (iblk m c 0 (⟨n, h⟩ : Fin cfg0.N)) (iblk m c 1 (⟨n, h⟩ : Fin cfg0.N)) (iblk m c 2 (⟨n, h⟩ : Fin cfg0.N)) (iblk m c 3 (⟨n, h⟩ : Fin cfg0.N)) (outsAt0 m c ((⟨n, h⟩ : Fin cfg0.N).val - 1) (Nat.lt_of_le_of_lt (Nat.sub_le _ _) (⟨n, h⟩ : Fin cfg0.N).isLt)).2.1 (outsAt0 m c ((⟨n, h⟩ : Fin cfg0.N).val - 1) (Nat.lt_of_le_of_lt (Nat.sub_le _ _) (⟨n, h⟩ : Fin cfg0.N).isLt)).2.2.1 (outsAt0 m c ((⟨n, h⟩ : Fin cfg0.N).val - 1) (Nat.lt_of_le_of_lt (Nat.sub_le _ _) (⟨n, h⟩ : Fin cfg0.N).isLt)).2.2.2.1 (outsAt0 m c ((⟨n, h⟩ : Fin cfg0.N).val - 1) (Nat.lt_of_le_of_lt (Nat.sub_le _ _) (⟨n, h⟩ : Fin cfg0.N).isLt)).2.2.2.2.1 acc) i).trans ?_
      refine (step4 (iblk m c 3 (⟨n, h⟩ : Fin cfg0.N)) acc i).trans ?_
      rw [M4, dif_pos h]

end Cert.KValue
end
-- ==== Proof.KBlocks.lean ====
/-
  An input window's block at a grid point, read back into the array the window stages: grid point t = 7·b + k (batch
  element b, tile k) sees rows of batch element b, and of the two sampled arrays the 1792 columns of tile k.
-/
import proofs.«176196_j77713138253901_2_alg».proof.Proof.Gen.KernelIdeal.Frame
import Idealize.ShloMosaic.Lib.Pipeline.Value
import Idealize.ShloMosaic.Lib.Tactic
import Idealize.ShloMosaic.Lib.ValueIdx

set_option maxRecDepth 16384

noncomputable section

namespace Cert.KValue

open Cert.KernelIdeal Cert.KernelIdeal.Gen Idealize.ShloMosaic Idealize.ShloMosaic.TcCoe Idealize.SL.Sem
open Idealize.ShloMosaic.Pipeline (Dat)
open Idealize.ShloMosaic.Tactic Idealize.ShloMosaic.ValueIdx

variable {F : FTy → Type} [FloatOps F]
variable (m : (ℓ : Loc nD τ sig) → Buf (Elt F) ℓ)

/-- Window 2's and 3's block index at point t: (t / 7, 0, t % 7). -/
theorem idxW2 : ∀ t : Fin cfg0.N, win0_2.index t 0 = t.val / 7 ∧ win0_2.index t 1 = 0 ∧ win0_2.index t 2 = t.val % 7 :=
  (by decide +kernel : ∀ t : Fin grid0.N, _)
theorem idxW3 : ∀ t : Fin cfg0.N, win0_3.index t 0 = t.val / 7 ∧ win0_3.index t 1 = 0 ∧ win0_3.index t 2 = t.val % 7 :=
  (by decide +kernel : ∀ t : Fin grid0.N, _)
/-- Window 0's and 1's: (t / 7, 0, 0). -/
theorem idxW0 : ∀ t : Fin cfg0.N, win0_0.index t 0 = t.val / 7 ∧ win0_0.index t 1 = 0 ∧ win0_0.index t 2 = 0 :=
  (by decide +kernel : ∀ t : Fin grid0.N, _)
theorem idxW1 : ∀ t : Fin cfg0.N, win0_1.index t 0 = t.val / 7 ∧ win0_1.index t 1 = 0 ∧ win0_1.index t 2 = 0 :=
  (by decide +kernel : ∀ t : Fin grid0.N, _)

/-- The sampled prediction block of point t at (0, q, k) is the sampled prediction array at (t / 7, q, 1792·(t % 7) + k). -/
theorem iblk2_apply (c : Dev nD) (t : Fin cfg0.N) (q : Fin 300) (k : Fin 1792) (i : S2x300x12544.Idx)
    (h0 : (i 0).val = t.val / 7) (h1 : (i 1).val = q.val) (h2 : (i 2).val = 1792 * (t.val % 7) + k.val) :
    (iblk m c 2 t : Vec F S1x300x1792 .f32) (ix3 (0 : Fin 1) q k) = V m c main_v141 i := by
  unfold iblk
  rw [View.read_apply]
  show V m c main_v141 _ = V m c main_v141 i
  refine congrArg (V m c main_v141) (funext fun a => Fin.ext ?_)
  match a with
  | ⟨0, _⟩ => show win0_2.index t 0 * 1 + 1 * 0 = (i 0).val; rw [(idxW2 t).1, h0]; omega
  | ⟨1, _⟩ => show win0_2.index t 1 * 300 + 1 * q.val = (i 1).val; rw [(idxW2 t).2.1, h1]; omega
  | ⟨2, _⟩ => show win0_2.index t 2 * 1792 + 1 * k.val = (i 2).val; rw [(idxW2 t).2.2, h2]; omega

/-- The same for the sampled target block. -/
theorem iblk3_apply (c : Dev nD) (t : Fin cfg0.N) (q : Fin 300) (k : Fin 1792) (i : S2x300x12544.Idx)
    (h0 : (i 0).val = t.val / 7) (h1 : (i 1).val = q.val) (h2 : (i 2).val = 1792 * (t.val % 7) + k.val) :
    (iblk m c 3 t : Vec F S1x300x1792 .f32) (ix3 (0 : Fin 1) q k) = V m c main_v142 i := by
  unfold iblk
  rw [View.read_apply]
  show V m c main_v142 _ = V m c main_v142 i
  refine congrArg (V m c main_v142) (funext fun a => Fin.ext ?_)
  match a with
  | ⟨0, _⟩ => show win0_3.index t 0 * 1 + 1 * 0 = (i 0).val; rw [(idxW3 t).1, h0]; omega
  | ⟨1, _⟩ => show win0_3.index t 1 * 300 + 1 * q.val = (i 1).val; rw [(idxW3 t).2.1, h1]; omega
  | ⟨2, _⟩ => show win0_3.index t 2 * 1792 + 1 * k.val = (i 2).val; rw [(idxW3 t).2.2, h2]; omega

/-- The predicted-box block of point t at (0, q, j) is the box array at (t / 7, q, j). -/
theorem iblk0_apply (c : Dev nD) (t : Fin cfg0.N) (q : Fin 300) (j : Fin 4) (i : S2x300x4.Idx)
    (h0 : (i 0).val = t.val / 7) (h1 : (i 1).val = q.val) (h2 : (i 2).val = j.val) :
    (iblk m c 0 t : Vec F S1x300x4 .f32) (ix3 (0 : Fin 1) q j) = V m c main_arg2 i := by
  unfold iblk
  rw [View.read_apply]
  show V m c main_arg2 _ = V m c main_arg2 i
  refine congrArg (V m c main_arg2) (funext fun a => Fin.ext ?_)
  match a with
  | ⟨0, _⟩ => show win0_0.index t 0 * 1 + 1 * 0 = (i 0).val; rw [(idxW0 t).1, h0]; omega
  | ⟨1, _⟩ => show win0_0.index t 1 * 300 + 1 * q.val = (i 1).val; rw [(idxW0 t).2.1, h1]; omega
  | ⟨2, _⟩ => show win0_0.index t 2 * 4 + 1 * j.val = (i 2).val; rw [(idxW0 t).2.2, h2]; omega

/-- The same for the target-box block. -/
theorem iblk1_apply (c : Dev nD) (t : Fin cfg0.N) (q : Fin 300) (j : Fin 4) (i : S2x300x4.Idx)
    (h0 : (i 0).val = t.val / 7) (h1 : (i 1).val = q.val) (h2 : (i 2).val = j.val) :
    (iblk m c 1 t : Vec F S1x300x4 .f32) (ix3 (0 : Fin 1) q j) = V m c main_arg3 i := by
  unfold iblk
  rw [View.read_apply]
  show V m c main_arg3 _ = V m c main_arg3 i
  refine congrArg (V m c main_arg3) (funext fun a => Fin.ext ?_)
  match a with
  | ⟨0, _⟩ => show win0_1.index t 0 * 1 + 1 * 0 = (i 0).val; rw [(idxW1 t).1, h0]; omega
  | ⟨1, _⟩ => show win0_1.index t 1 * 300 + 1 * q.val = (i 1).val; rw [(idxW1 t).2.1, h1]; omega
  | ⟨2, _⟩ => show win0_1.index t 2 * 4 + 1 * j.val = (i 2).val; rw [(idxW1 t).2.2, h2]; omega

end Cert.KValue
end
-- ==== Proof.KFinal.lean ====
/-
  The finished cost block at an entry.

  The last tile stores, for a prediction row q and a target row t, the weighted total of four costs: the
  cross-entropy cost (Σ softplus(x) − Σ x·y) / P and the dice cost 1 − (2D + 1) / (S + T + 1) of the five totals, and
  the L1 and generalised-IoU costs of the two boxes (cx, cy, w, h). The body computes each on whole 300 × 300
  arrays: a quantity of the prediction is a length-300 vector laid out as a column and repeated along the rows'
  entries, a quantity of the target a vector laid out as a row and repeated down the rows; read at (q, t) these
  are the vector's entries q and t, and every operation in between is entrywise.
-/
import proofs.«176196_j77713138253901_2_alg».proof.Proof.Gen.KernelIdeal.Skeleton
import proofs.«176196_j77713138253901_2_alg».proof.Proof.Spec
import proofs.«176196_j77713138253901_2_alg».proof.Proof.KPieces
import Idealize.ShloMosaic.Lib.ValueIdx
import Idealize.ShloMosaic.Lib.ValueLayout
import Idealize.ShloMosaic.Lib.Pipeline.Value
import Idealize.ShloMosaic.PureOps.Ideal.Laws

noncomputable section

namespace Cert.KValue

open Cert.KernelIdeal Cert.KernelIdeal.Gen Idealize.ShloMosaic Idealize.ShloMosaic.ValueIdx

/-! ## Layout: vectors as columns and rows of a 300 × 300 array -/

/-- A 300 × 1 column read as a length-300 vector: entry q is the column at (q, 0). -/
theorem ofColumn_apply {α : Type} (v : S300x1.Idx → α) (h : S300x1.ShapeCasts S300) (q : Fin 300) :
    shapeCast S300 v h (ix1 q) = v (ix2 q (0 : Fin 1)) :=
  shapeCast_apply v h _ _ (by
    rw [Shape.rowMajor_val_two, Shape.rowMajor_val_one]
    show q.val * 1 + 0 = q.val
    omega)

/-- A length-300 vector laid out as a 300 × 1 column reads, at (q, 0), its entry q. -/
theorem toColumn_apply {α : Type} (v : S300.Idx → α) (h : S300.ShapeCasts S300x1) (q : Fin 300) (z : Fin 1) :
    shapeCast S300x1 v h (ix2 q z) = v (ix1 q) :=
  shapeCast_apply v h _ _ (by
    have hz : z.val = 0 := by omega
    rw [Shape.rowMajor_val_one, Shape.rowMajor_val_two]
    show q.val = q.val * 1 + z.val
    omega)

/-- A 300 × 1 column repeated along 300 columns reads, at (q, t), the column at (q, 0). -/
theorem bcastColumn_apply {α : Type} (c : S300x1.Idx → α) (h : S300x1.Broadcasts S300x300) (q t : Fin 300) :
    broadcastTo S300x300 c h (ix2 q t) = c (ix2 q (0 : Fin 1)) := by
  refine broadcastTo_apply c h (ix2 q t) (ix2 q (0 : Fin 1)) fun ax => ?_
  match ax with
  | ⟨0, _⟩ => rfl
  | ⟨1, _⟩ => rfl

/-- A vector laid out as a column and repeated along the columns reads, at (q, t), its entry q. -/
theorem colvec_apply {α : Type} (v : S300.Idx → α) (h1 : S300.ShapeCasts S300x1) (h2 : S300x1.Broadcasts S300x300)
    (q t : Fin 300) : broadcastTo S300x300 (shapeCast S300x1 v h1) h2 (ix2 q t) = v (ix1 q) := by
  rw [bcastColumn_apply, toColumn_apply]

/-- A vector laid out as a row and repeated down the rows reads, at (q, t), its entry t. -/
theorem rowvec_apply {α : Type} (v : S300.Idx → α) (h1 : S300.ShapeCasts S1x300) (h2 : S1x300.Broadcasts S300x300)
    (q t : Fin 300) : broadcastTo S300x300 (shapeCast S1x300 v h1) h2 (ix2 q t) = v (ix1 t) := by
  rw [broadcastTo_1b_ab_apply, shapeCast_a_1a_apply]

/-- Column j of a 300 × 4 array of boxes, as a length-300 vector: entry q is the array at (q, j). -/
theorem boxCol_apply {α : Type} (V : S300x4.Idx → α) (o : Nat) (k : Fin 4) (hk : k.val = o)
    (hs : S300x4.Slices ![0, o] S300x1) (hc : S300x1.ShapeCasts S300) (q : Fin 300) :
    shapeCast S300 (extractStridedSlice S300x1 ![0, o] V hs) hc (ix1 q) = V (ix2 q k) := by
  rw [ofColumn_apply]
  exact slice2_axis1_apply o V hs q (0 : Fin 1) k (by rw [hk]; rfl)

/-- The absolute value of an array, at an entry. -/
theorem absf_at {s : Shape} (a : FVec Ideal s .f32) (i : s.Idx) : absf a i = Spec.absE (a i) := rfl

/-- Columns 0 … 3 of a 300 × 4 array of boxes. -/
theorem boxCol0_apply {α : Type} (V : S300x4.Idx → α) (hs : S300x4.Slices ![0, 0] S300x1) (hc : S300x1.ShapeCasts S300)
    (q : Fin 300) : shapeCast S300 (extractStridedSlice S300x1 ![0, 0] V hs) hc (ix1 q) = V (ix2 q (0 : Fin 4)) :=
  boxCol_apply V 0 0 rfl hs hc q

theorem boxCol1_apply {α : Type} (V : S300x4.Idx → α) (hs : S300x4.Slices ![0, 1] S300x1) (hc : S300x1.ShapeCasts S300)
    (q : Fin 300) : shapeCast S300 (extractStridedSlice S300x1 ![0, 1] V hs) hc (ix1 q) = V (ix2 q (1 : Fin 4)) :=
  boxCol_apply V 1 1 rfl hs hc q

theorem boxCol2_apply {α : Type} (V : S300x4.Idx → α) (hs : S300x4.Slices ![0, 2] S300x1) (hc : S300x1.ShapeCasts S300)
    (q : Fin 300) : shapeCast S300 (extractStridedSlice S300x1 ![0, 2] V hs) hc (ix1 q) = V (ix2 q (2 : Fin 4)) :=
  boxCol_apply V 2 2 rfl hs hc q

theorem boxCol3_apply {α : Type} (V : S300x4.Idx → α) (hs : S300x4.Slices ![0, 3] S300x1) (hc : S300x1.ShapeCasts S300)
    (q : Fin 300) : shapeCast S300 (extractStridedSlice S300x1 ![0, 3] V hs) hc (ix1 q) = V (ix2 q (3 : Fin 4)) :=
  boxCol_apply V 3 3 rfl hs hc q

section Final

variable [Cert.KernelIdeal.Facts]

/-! ## The box blocks and their columns -/

/-- A box block with its unit axis dropped. -/
theorem pay7_apply (x : Vec Ideal S1x300x4 .f32) (q : Fin 300) (j : Fin 4) :
    k0_pay7 (F := Ideal) x (ix2 q j) = x (ix3 (0 : Fin 1) q j) := by
  unfold k0_pay7
  exact shapeCast_1ab_ab_apply x _ q j

theorem pay8_apply (x : Vec Ideal S1x300x4 .f32) (t : Fin 300) (j : Fin 4) :
    k0_pay8 (F := Ideal) x (ix2 t j) = x (ix3 (0 : Fin 1) t j) := by
  unfold k0_pay8
  exact shapeCast_1ab_ab_apply x _ t j

theorem pay12_apply (V : FVec Ideal S300x4 .f32) (q : Fin 300) : k0_pay12 (F := Ideal) V (ix1 q) = V (ix2 q (0 : Fin 4)) := by
  unfold k0_pay12
  exact boxCol0_apply V _ _ q

theorem pay13_apply (V : FVec Ideal S300x4 .f32) (q : Fin 300) : k0_pay13 (F := Ideal) V (ix1 q) = V (ix2 q (1 : Fin 4)) := by
  unfold k0_pay13
  exact boxCol1_apply V _ _ q

theorem pay14_apply (V : FVec Ideal S300x4 .f32) (q : Fin 300) : k0_pay14 (F := Ideal) V (ix1 q) = V (ix2 q (2 : Fin 4)) := by
  unfold k0_pay14
  exact boxCol2_apply V _ _ q

theorem pay15_apply (V : FVec Ideal S300x4 .f32) (q : Fin 300) : k0_pay15 (F := Ideal) V (ix1 q) = V (ix2 q (3 : Fin 4)) := by
  unfold k0_pay15
  exact boxCol3_apply V _ _ q

theorem pay20_apply (V : FVec Ideal S300x4 .f32) (t : Fin 300) : k0_pay20 (F := Ideal) V (ix1 t) = V (ix2 t (0 : Fin 4)) := by
  unfold k0_pay20
  exact boxCol0_apply V _ _ t

theorem pay21_apply (V : FVec Ideal S300x4 .f32) (t : Fin 300) : k0_pay21 (F := Ideal) V (ix1 t) = V (ix2 t (1 : Fin 4)) := by
  unfold k0_pay21
  exact boxCol1_apply V _ _ t

theorem pay22_apply (V : FVec Ideal S300x4 .f32) (t : Fin 300) : k0_pay22 (F := Ideal) V (ix1 t) = V (ix2 t (2 : Fin 4)) := by
  unfold k0_pay22
  exact boxCol2_apply V _ _ t

theorem pay23_apply (V : FVec Ideal S300x4 .f32) (t : Fin 300) : k0_pay23 (F := Ideal) V (ix1 t) = V (ix2 t (3 : Fin 4)) := by
  unfold k0_pay23
  exact boxCol3_apply V _ _ t

/-! ## The corners of a box: centre ∓ half the width or height -/

theorem pay16_apply (V : FVec Ideal S300x4 .f32) (q : Fin 300) :
    k0_pay16 (F := Ideal) V (ix1 q) = Spec.lo (V (ix2 q (0 : Fin 4))) (V (ix2 q (2 : Fin 4))) := by
  unfold k0_pay16
  rw [subf_apply, mulf_apply, broadcast_apply, pay12_apply, pay14_apply]
  rfl

theorem pay17_apply (V : FVec Ideal S300x4 .f32) (q : Fin 300) :
    k0_pay17 (F := Ideal) V (ix1 q) = Spec.lo (V (ix2 q (1 : Fin 4))) (V (ix2 q (3 : Fin 4))) := by
  unfold k0_pay17
  rw [subf_apply, mulf_apply, broadcast_apply, pay13_apply, pay15_apply]
  rfl

theorem pay18_apply (V : FVec Ideal S300x4 .f32) (q : Fin 300) :
    k0_pay18 (F := Ideal) V (ix1 q) = Spec.hi (V (ix2 q (0 : Fin 4))) (V (ix2 q (2 : Fin 4))) := by
  unfold k0_pay18
  rw [addf_apply, mulf_apply, broadcast_apply, pay12_apply, pay14_apply]
  rfl

theorem pay19_apply (V : FVec Ideal S300x4 .f32) (q : Fin 300) :
    k0_pay19 (F := Ideal) V (ix1 q) = Spec.hi (V (ix2 q (1 : Fin 4))) (V (ix2 q (3 : Fin 4))) := by
  unfold k0_pay19
  rw [addf_apply, mulf_apply, broadcast_apply, pay13_apply, pay15_apply]
  rfl

theorem pay24_apply (c w : FVec Ideal S300 .f32) (t : Fin 300) :
    k0_pay24 (F := Ideal) c w (ix1 t) = Spec.lo (c (ix1 t)) (w (ix1 t)) := rfl

theorem pay26_apply (c w : FVec Ideal S300 .f32) (t : Fin 300) :
    k0_pay26 (F := Ideal) c w (ix1 t) = Spec.hi (c (ix1 t)) (w (ix1 t)) := rfl

theorem pay25_apply (V : FVec Ideal S300x4 .f32) (c : FVec Ideal S300 .f32) (t : Fin 300) :
    k0_pay25 (F := Ideal) V c (ix1 t) = Spec.lo (c (ix1 t)) (V (ix2 t (3 : Fin 4))) := by
  unfold k0_pay25
  rw [subf_apply, mulf_apply, broadcast_apply, pay23_apply]
  rfl

theorem pay27_apply (V : FVec Ideal S300x4 .f32) (c : FVec Ideal S300 .f32) (t : Fin 300) :
    k0_pay27 (F := Ideal) V c (ix1 t) = Spec.hi (c (ix1 t)) (V (ix2 t (3 : Fin 4))) := by
  unfold k0_pay27
  rw [addf_apply, mulf_apply, broadcast_apply, pay23_apply]
  rfl

/-! ## The L1 cost of the boxes -/

/-- |cx − cx'| at (q, t). -/
theorem pay9_apply (x0 x1 : Vec Ideal S1x300x4 .f32) (q t : Fin 300) :
    k0_pay9 (F := Ideal) x0 x1 (ix2 q t)
      = Spec.absE (x0 (ix3 (0 : Fin 1) q (0 : Fin 4)) - x1 (ix3 (0 : Fin 1) t (0 : Fin 4))) := by
  unfold k0_pay9
  rw [absf_at, subf_apply, colvec_apply, rowvec_apply, boxCol0_apply, boxCol0_apply, pay7_apply, pay8_apply]

/-- The predictions' cy as a column. -/
theorem pay10_apply (x0 : Vec Ideal S1x300x4 .f32) (q : Fin 300) (z : Fin 1) :
    k0_pay10 (F := Ideal) x0 (ix2 q z) = x0 (ix3 (0 : Fin 1) q (1 : Fin 4)) := by
  unfold k0_pay10
  rw [toColumn_apply, boxCol1_apply, pay7_apply]

/-- The four absolute differences added left to right. -/
theorem pay11_apply (X Y : FVec Ideal S300x4 .f32) (d0 : FVec Ideal S300x300 .f32) (cy : FVec Ideal S300x1 .f32)
    (q t : Fin 300) :
    k0_pay11 (F := Ideal) X Y d0 cy (ix2 q t)
      = ((d0 (ix2 q t) + Spec.absE (cy (ix2 q (0 : Fin 1)) - Y (ix2 t (1 : Fin 4))))
          + Spec.absE (X (ix2 q (2 : Fin 4)) - Y (ix2 t (2 : Fin 4))))
        + Spec.absE (X (ix2 q (3 : Fin 4)) - Y (ix2 t (3 : Fin 4))) := by
  unfold k0_pay11
  simp only [addf_apply, subf_apply, absf_at, bcastColumn_apply, toColumn_apply, rowvec_apply, colvec_apply, boxCol1_apply,
    boxCol2_apply, boxCol3_apply]

/-! ## Intersection, union and their quotient -/

/-- The intersection's area at (q, t), from the prediction's corners (vectors read at q) and the target's centre
    and size columns (read at t). -/
theorem pay28_apply (Y : FVec Ideal S300x4 .f32) (ax0 ay0 ax1 ay1 b0 b1 b2 : FVec Ideal S300 .f32) (q t : Fin 300) :
    k0_pay28 (F := Ideal) Y ax0 ay0 ax1 ay1 b0 b1 b2 (ix2 q t)
      = max Spec.c0 (min (ax1 (ix1 q)) (Spec.hi (b0 (ix1 t)) (b2 (ix1 t)))
            - max (ax0 (ix1 q)) (Spec.lo (b0 (ix1 t)) (b2 (ix1 t))))
        * max Spec.c0 (min (ay1 (ix1 q)) (Spec.hi (b1 (ix1 t)) (Y (ix2 t (3 : Fin 4))))
            - max (ay0 (ix1 q)) (Spec.lo (b1 (ix1 t)) (Y (ix2 t (3 : Fin 4))))) := by
  unfold k0_pay28
  simp only [mulf_apply, maximumf_apply, minimumf_apply, subf_apply, broadcast_apply, colvec_apply, rowvec_apply,
    pay24_apply, pay25_apply, pay26_apply, pay27_apply]
  rfl

/-- The union's area at (q, t): the two areas added, less the intersection. -/
theorem pay29_apply (Y : FVec Ideal S300x4 .f32) (ax0 ay0 ax1 ay1 b0 b1 b2 : FVec Ideal S300 .f32) (q t : Fin 300) :
    k0_pay29 (F := Ideal) Y ax0 ay0 ax1 ay1 b0 b1 b2 (ix2 q t)
      = ((ax1 (ix1 q) - ax0 (ix1 q)) * (ay1 (ix1 q) - ay0 (ix1 q))
          + (Spec.hi (b0 (ix1 t)) (b2 (ix1 t)) - Spec.lo (b0 (ix1 t)) (b2 (ix1 t)))
            * (Spec.hi (b1 (ix1 t)) (Y (ix2 t (3 : Fin 4))) - Spec.lo (b1 (ix1 t)) (Y (ix2 t (3 : Fin 4)))))
        - k0_pay28 (F := Ideal) Y ax0 ay0 ax1 ay1 b0 b1 b2 (ix2 q t) := by
  unfold k0_pay29
  simp only [subf_apply, addf_apply, mulf_apply, colvec_apply, rowvec_apply, pay24_apply, pay25_apply, pay26_apply,
    pay27_apply]

/-- Intersection over union at (q, t). -/
theorem pay30_apply (Y : FVec Ideal S300x4 .f32) (ax0 ay0 ax1 ay1 b0 b1 b2 : FVec Ideal S300 .f32) (q t : Fin 300) :
    k0_pay30 (F := Ideal) Y ax0 ay0 ax1 ay1 b0 b1 b2 (ix2 q t)
      = Ideal.div (k0_pay28 (F := Ideal) Y ax0 ay0 ax1 ay1 b0 b1 b2 (ix2 q t))
          (k0_pay29 (F := Ideal) Y ax0 ay0 ax1 ay1 b0 b1 b2 (ix2 q t)) := rfl

/-! ## The two mask costs from the five totals -/

/-- The cross-entropy cost: (Σ softplus(x) − Σ x·y) / P. -/
theorem pay5_apply (s2 : Vec Ideal S300x1 .f32) (s0 : Vec Ideal S300x300 .f32) (q t : Fin 300) :
    k0_pay5 (F := Ideal) s2 s0 (ix2 q t) = Ideal.div (s2 (ix2 q (0 : Fin 1)) - s0 (ix2 q t)) Spec.cP := by
  unfold k0_pay5
  rw [divf_apply, subf_apply, broadcast_apply, bcastColumn_apply]
  rfl

/-- The dice cost: 1 − (2D + 1) / ((S + T) + 1), the targets' total transposed into a row. -/
theorem pay6_apply (s1 : Vec Ideal S300x300 .f32) (s3 s4 : Vec Ideal S300x1 .f32) (q t : Fin 300) :
    k0_pay6 (F := Ideal) s1 s3 s4 (ix2 q t)
      = Spec.diceCost (s1 (ix2 q t)) (s3 (ix2 q (0 : Fin 1))) (s4 (ix2 t (0 : Fin 1))) := by
  unfold k0_pay6
  simp only [subf_apply, divf_apply, addf_apply, mulf_apply, broadcast_apply, bcastColumn_apply, broadcastTo_1b_ab_apply]
  rw [transpose_ix2_apply (a := 300) (b := 1) s4 transposes_S300x1_p1_0_S1x300 (0 : Fin 1) t]
  rfl

/-! ## The total -/

/-- The stored block at (0, q, t): the enclosing box's area from the corners, the generalised IoU from it, the
    union and the quotient, and the four costs weighted and added left to right. -/
theorem pay31_apply (ce dc bl : FVec Ideal S300x300 .f32) (ax0 ay0 ax1 ay1 bx0 by0 bx1 by1 : FVec Ideal S300 .f32)
    (un iou : FVec Ideal S300x300 .f32) (q t : Fin 300) :
    k0_pay31 (F := Ideal) ce dc bl ax0 ay0 ax1 ay1 bx0 by0 bx1 by1 un iou (ix3 (0 : Fin 1) q t)
      = Spec.total (ce (ix2 q t)) (dc (ix2 q t)) (bl (ix2 q t))
          (Spec.c0 - (iou (ix2 q t) - Ideal.div
            (max Spec.c0 (max (ax1 (ix1 q)) (bx1 (ix1 t)) - min (ax0 (ix1 q)) (bx0 (ix1 t)))
                * max Spec.c0 (max (ay1 (ix1 q)) (by1 (ix1 t)) - min (ay0 (ix1 q)) (by0 (ix1 t)))
              - un (ix2 q t))
            (max Spec.c0 (max (ax1 (ix1 q)) (bx1 (ix1 t)) - min (ax0 (ix1 q)) (bx0 (ix1 t)))
                * max Spec.c0 (max (ay1 (ix1 q)) (by1 (ix1 t)) - min (ay0 (ix1 q)) (by0 (ix1 t)))))) := by
  unfold k0_pay31
  rw [shapeCast_ab_1ab_apply]
  simp only [addf_apply, mulf_apply, subf_apply, divf_apply, maximumf_apply, minimumf_apply, broadcast_apply,
    colvec_apply, rowvec_apply]
  rfl

/-- The finished cost block at (0, q, t), in the specification's words. -/
theorem finalOut_apply (x0 x1 : Vec Ideal S1x300x4 .f32) (s0 s1 : Vec Ideal S300x300 .f32)
    (s2 s3 s4 : Vec Ideal S300x1 .f32) (q t : Fin 300) :
    finalOut (F := Ideal) x0 x1 s0 s1 s2 s3 s4 (ix3 (0 : Fin 1) q t)
      = Cert.Spec.total (Ideal.div (s2 (ix2 q 0) - s0 (ix2 q t)) Cert.Spec.cP)
          (Cert.Spec.diceCost (s1 (ix2 q t)) (s3 (ix2 q 0)) (s4 (ix2 t 0)))
          (Cert.Spec.boxL1 (fun j => x0 (ix3 (0 : Fin 1) q j)) (fun j => x1 (ix3 (0 : Fin 1) t j)))
          (Cert.Spec.c0 - Cert.Spec.giou (fun j => x0 (ix3 (0 : Fin 1) q j)) (fun j => x1 (ix3 (0 : Fin 1) t j))) := by
  unfold finalOut
  rw [pay31_apply, pay5_apply, pay6_apply, pay11_apply, pay9_apply, pay10_apply, pay30_apply, pay29_apply, pay28_apply]
  simp only [pay16_apply, pay17_apply, pay18_apply, pay19_apply, pay20_apply, pay21_apply, pay22_apply, pay24_apply,
    pay25_apply, pay26_apply, pay27_apply, pay7_apply, pay8_apply]
  rfl

end Final

end Cert.KValue

end
-- ==== Proof.KWhole.lean ====
/-
  The five totals of a batch element as sums over all 12544 sample points.

  Batch element b is worked by the seven grid points 7·b + s, s < 7; point 7·b + s sees, of the two sampled arrays,
  rows of batch element b and the 1792 columns 1792·s … 1792·s + 1791. A point's term is a sum over its 1792
  columns, so the seven terms together are the sum over all 7 · 1792 = 12544 columns: a sum taken tile by tile is
  the whole sum, which needs only that addition is associative and commutative.
-/
import proofs.«176196_j77713138253901_2_alg».proof.Proof.KAcc
import proofs.«176196_j77713138253901_2_alg».proof.Proof.KBlocks
import Mathlib.Algebra.BigOperators.Fin

set_option maxRecDepth 16384

noncomputable section

namespace Cert.KValue

open Cert.KernelIdeal Cert.KernelIdeal.Gen Idealize.ShloMosaic Idealize.ShloMosaic.TcCoe Idealize.SL.Sem
open Idealize.ShloMosaic.Pipeline (Dat)
open Idealize.ShloMosaic.ValueIdx

/-! ## A sum taken tile by tile -/

/-- T tiles of B consecutive terms each, added tile by tile, are the first T · B terms. -/
theorem sum_tiles {M : Type*} [AddCommMonoid M] (B : ℕ) (g : ℕ → M) :
    ∀ T : ℕ, ∑ s ∈ Finset.range T, ∑ k : Fin B, g (B * s + k.val) = ∑ p ∈ Finset.range (T * B), g p
  | 0 => by rw [Finset.sum_range_zero, Nat.zero_mul, Finset.sum_range_zero]
  | T + 1 => by
    rw [Finset.sum_range_succ, sum_tiles B g T, Nat.add_mul, Nat.one_mul, Finset.sum_range_add,
      Finset.sum_range (fun j => g (T * B + j)), Nat.mul_comm B T]

/-- A function of the 12544 sample points, continued by zero. -/
def extend0 (f : Fin 12544 → EReal) (p : ℕ) : EReal := if h : p < 12544 then f ⟨p, h⟩ else 0

/-- Seven tiles of 1792 points are all 12544 points. -/
theorem sum_extend0 (f : Fin 12544 → EReal) :
    ∑ s ∈ Finset.range 7, ∑ k : Fin 1792, extend0 f (1792 * s + k.val) = ∑ p : Fin 12544, f p := by
  rw [sum_tiles 1792 (extend0 f) 7, Finset.sum_range]
  refine Finset.sum_congr rfl fun p _ => ?_
  unfold extend0
  rw [dif_pos p.isLt]

/-! ## A point's blocks read back into the sampled arrays -/

variable (m : (ℓ : Loc nD τ sig) → Buf (Elt Ideal) ℓ)

/-- Point 7·b + s's block of sampled predictions at (0, q, k) is the array at (b, q, 1792·s + k). -/
theorem blockX (c : Dev nD) (b : Fin 2) (s : ℕ) (hs : s < 7) (h : 7 * b.val + s < cfg0.N) (q : Fin 300) (k : Fin 1792)
    (hp : 1792 * s + k.val < 12544) :
    (iblk m c 2 (⟨7 * b.val + s, h⟩ : Fin cfg0.N) : Vec Ideal S1x300x1792 .f32) (ix3 (0 : Fin 1) q k)
      = V m c main_v141 (ix3 b q (⟨1792 * s + k.val, hp⟩ : Fin 12544)) :=
  iblk2_apply (F := Ideal) m c (⟨7 * b.val + s, h⟩ : Fin cfg0.N) q k (ix3 b q (⟨1792 * s + k.val, hp⟩ : Fin 12544))
    (by show b.val = (7 * b.val + s) / 7; omega) rfl
    (by show 1792 * s + k.val = 1792 * ((7 * b.val + s) % 7) + k.val; omega)

/-- The same for the sampled targets. -/
theorem blockY (c : Dev nD) (b : Fin 2) (s : ℕ) (hs : s < 7) (h : 7 * b.val + s < cfg0.N) (t : Fin 300) (k : Fin 1792)
    (hp : 1792 * s + k.val < 12544) :
    (iblk m c 3 (⟨7 * b.val + s, h⟩ : Fin cfg0.N) : Vec Ideal S1x300x1792 .f32) (ix3 (0 : Fin 1) t k)
      = V m c main_v142 (ix3 b t (⟨1792 * s + k.val, hp⟩ : Fin 12544)) :=
  iblk3_apply (F := Ideal) m c (⟨7 * b.val + s, h⟩ : Fin cfg0.N) t k (ix3 b t (⟨1792 * s + k.val, hp⟩ : Fin 12544))
    (by show b.val = (7 * b.val + s) / 7; omega) rfl
    (by show 1792 * s + k.val = 1792 * ((7 * b.val + s) % 7) + k.val; omega)

/-- Point 7·b + s lies on the grid of 14 points. -/
theorem point_lt (b : Fin 2) (s : ℕ) (hs : s < 7) : 7 * b.val + s < cfg0.N := by
  have hN : cfg0.N = 14 := N_0
  have hb := b.isLt
  omega

/-! ## The five totals -/

/-- Σ x·y over all sample points. -/
theorem whole0 (c : Dev nD) (b : Fin 2) (q t : Fin 300) :
    ∑ s ∈ Finset.range 7, M0 m c (7 * b.val + s) (ix2 q t)
      = ∑ p : Fin 12544, @HMul.hMul EReal EReal EReal _ (V m c main_v141 (ix3 b q p)) (V m c main_v142 (ix3 b t p)) := by
  rw [← sum_extend0 (fun p => @HMul.hMul EReal EReal EReal _ (V m c main_v141 (ix3 b q p)) (V m c main_v142 (ix3 b t p)))]
  refine Finset.sum_congr rfl fun s hs => ?_
  have hs7 : s < 7 := Finset.mem_range.mp hs
  have h := point_lt b s hs7
  rw [M0, dif_pos h]
  unfold term0
  refine Finset.sum_congr rfl fun k _ => ?_
  have hp : 1792 * s + k.val < 12544 := by have := k.isLt; omega
  unfold extend0
  rw [dif_pos hp]
  exact congrArg₂ (fun (u v : EReal) => u * v) (blockX m c b s hs7 h q k hp) (blockY m c b s hs7 h t k hp)

/-- Σ σ(x)·y over all sample points. -/
theorem whole1 (c : Dev nD) (b : Fin 2) (q t : Fin 300) :
    ∑ s ∈ Finset.range 7, M1 m c (7 * b.val + s) (ix2 q t)
      = ∑ p : Fin 12544, @HMul.hMul EReal EReal EReal _ (Cert.Spec.sigK (V m c main_v141 (ix3 b q p))) (V m c main_v142 (ix3 b t p)) := by
  rw [← sum_extend0 (fun p => @HMul.hMul EReal EReal EReal _ (Cert.Spec.sigK (V m c main_v141 (ix3 b q p))) (V m c main_v142 (ix3 b t p)))]
  refine Finset.sum_congr rfl fun s hs => ?_
  have hs7 : s < 7 := Finset.mem_range.mp hs
  have h := point_lt b s hs7
  rw [M1, dif_pos h]
  unfold term1
  refine Finset.sum_congr rfl fun k _ => ?_
  have hp : 1792 * s + k.val < 12544 := by have := k.isLt; omega
  unfold extend0
  rw [dif_pos hp]
  exact congrArg₂ (fun (u v : EReal) => Cert.Spec.sigK u * v) (blockX m c b s hs7 h q k hp) (blockY m c b s hs7 h t k hp)

/-- Σ softplus(x) over all sample points. -/
theorem whole2 (c : Dev nD) (b : Fin 2) (q : Fin 300) (z : Fin 1) :
    ∑ s ∈ Finset.range 7, M2 m c (7 * b.val + s) (ix2 q z)
      = ∑ p : Fin 12544, Cert.Spec.negK (V m c main_v141 (ix3 b q p)) := by
  rw [← sum_extend0 (fun p => Cert.Spec.negK (V m c main_v141 (ix3 b q p)))]
  refine Finset.sum_congr rfl fun s hs => ?_
  have hs7 : s < 7 := Finset.mem_range.mp hs
  have h := point_lt b s hs7
  rw [M2, dif_pos h]
  unfold term2
  refine Finset.sum_congr rfl fun k _ => ?_
  have hp : 1792 * s + k.val < 12544 := by have := k.isLt; omega
  unfold extend0
  rw [dif_pos hp]
  exact congrArg Cert.Spec.negK (blockX m c b s hs7 h q k hp)

/-- Σ σ(x) over all sample points. -/
theorem whole3 (c : Dev nD) (b : Fin 2) (q : Fin 300) (z : Fin 1) :
    ∑ s ∈ Finset.range 7, M3 m c (7 * b.val + s) (ix2 q z)
      = ∑ p : Fin 12544, Cert.Spec.sigK (V m c main_v141 (ix3 b q p)) := by
  rw [← sum_extend0 (fun p => Cert.Spec.sigK (V m c main_v141 (ix3 b q p)))]
  refine Finset.sum_congr rfl fun s hs => ?_
  have hs7 : s < 7 := Finset.mem_range.mp hs
  have h := point_lt b s hs7
  rw [M3, dif_pos h]
  unfold term3
  refine Finset.sum_congr rfl fun k _ => ?_
  have hp : 1792 * s + k.val < 12544 := by have := k.isLt; omega
  unfold extend0
  rw [dif_pos hp]
  exact congrArg Cert.Spec.sigK (blockX m c b s hs7 h q k hp)

/-- Σ y over all sample points. -/
theorem whole4 (c : Dev nD) (b : Fin 2) (t : Fin 300) (z : Fin 1) :
    ∑ s ∈ Finset.range 7, M4 m c (7 * b.val + s) (ix2 t z)
      = Finset.sum (M := EReal) Finset.univ (fun p : Fin 12544 => V m c main_v142 (ix3 b t p)) := by
  rw [← sum_extend0 (fun p => V m c main_v142 (ix3 b t p))]
  refine Finset.sum_congr rfl fun s hs => ?_
  have hs7 : s < 7 := Finset.mem_range.mp hs
  have h := point_lt b s hs7
  rw [M4, dif_pos h]
  unfold term4
  refine Finset.sum_congr rfl fun k _ => ?_
  have hp : 1792 * s + k.val < 12544 := by have := k.isLt; omega
  unfold extend0
  rw [dif_pos hp]
  exact blockY m c b s hs7 h t k hp

end Cert.KValue

end
-- ==== Proof.KArr.lean ====
/-
  The result array after the run, as ONE function of the four arrays the kernel's windows stage: entry (b, q, t) is the
  cost of the prediction row (b, q) against the target row (b, t) of the two sampled arrays and of the two box arrays,
  in the arrangement this program computes it (the five sums taken tile by tile are the sums over all 12544 points).
  The last tile's point of each batch element writes block b of it back, and the two blocks cover the array.
-/
import proofs.«176196_j77713138253901_2_alg».proof.Proof.Gen.KernelIdeal.Value
import proofs.«176196_j77713138253901_2_alg».proof.Proof.KLast
import proofs.«176196_j77713138253901_2_alg».proof.Proof.KAcc
import proofs.«176196_j77713138253901_2_alg».proof.Proof.KBlocks
import proofs.«176196_j77713138253901_2_alg».proof.Proof.KFinal
import proofs.«176196_j77713138253901_2_alg».proof.Proof.KWhole
import Idealize.ShloMosaic.Lib.Pipeline.Value
import Idealize.ShloMosaic.Lib.ValueIdx

set_option maxRecDepth 16384

noncomputable section

namespace Cert.KValue

open Cert.KernelIdeal Cert.KernelIdeal.Gen Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (ρ : Dev nD → PrngReg)

/-- The coordinates of an index of the [2, 300, 300] result. -/
def bOf (i : S2x300x300.Idx) : Fin 2 := ⟨(i 0).val, (i 0).isLt⟩
def qOf (i : S2x300x300.Idx) : Fin 300 := ⟨(i 1).val, (i 1).isLt⟩
def tOf (i : S2x300x300.Idx) : Fin 300 := ⟨(i 2).val, (i 2).isLt⟩

/-- The cost matrix as one function of the staged arrays. -/
def Gout (c : Dev nD) : S2x300x300.Idx → EReal := fun i =>
  Spec.costK (ι := Fin 12544)
    (fun p => V m c main_v141 (ix3 (bOf i) (qOf i) p)) (fun p => V m c main_v142 (ix3 (bOf i) (tOf i) p))
    (fun j => V m c main_arg2 (ix3 (bOf i) (qOf i) j)) (fun j => V m c main_arg3 (ix3 (bOf i) (tOf i) j))

/-- The output window's block index at point t: (t / 7, 0, 0). -/
theorem idxW4 : ∀ t : Fin cfg0.N, win0_4.index t 0 = t.val / 7 ∧ win0_4.index t 1 = 0 ∧ win0_4.index t 2 = 0 :=
  (by decide +kernel : ∀ t : Fin grid0.N, _)

/-- The finished block of the last tile's point, at (0, q, t'), is the cost matrix at (t / 7, q, t'). -/
theorem final_apply (c : Dev nD) (t : Fin cfg0.N) (h1 : t.val % 7 = 6) (q t' : Fin 300) (i : S2x300x300.Idx)
    (hi0 : (i 0).val = t.val / 7) (hi1 : (i 1).val = q.val) (hi2 : (i 2).val = t'.val) :
    finalOut (F := Ideal) (iblk m c 0 t) (iblk m c 1 t) (outsAt0 m c t.val t.isLt).2.1 (outsAt0 m c t.val t.isLt).2.2.1 (outsAt0 m c t.val t.isLt).2.2.2.1 (outsAt0 m c t.val t.isLt).2.2.2.2.1 (outsAt0 m c t.val t.isLt).2.2.2.2.2 (ix3 (0 : Fin 1) q t') = Gout m c i := by
  have hN : cfg0.N = 14 := N_0
  have hb : t.val / 7 < 2 := by have := t.isLt; omega
  have e7 : t.val % 7 + 1 = 7 := by omega
  have eB : bOf i = ⟨t.val / 7, hb⟩ := Fin.ext hi0
  have eQ : qOf i = q := Fin.ext hi1
  have eT : tOf i = t' := Fin.ext hi2
  refine (finalOut_apply (iblk m c 0 t) (iblk m c 1 t) (outsAt0 m c t.val t.isLt).2.1 (outsAt0 m c t.val t.isLt).2.2.1 (outsAt0 m c t.val t.isLt).2.2.2.1 (outsAt0 m c t.val t.isLt).2.2.2.2.1 (outsAt0 m c t.val t.isLt).2.2.2.2.2 q t').trans ?_
  rw [acc0 m c t, acc1 m c t, acc2 m c t, acc3 m c t, acc4 m c t, e7]
  rw [show 7 * (t.val / 7) = 7 * (⟨t.val / 7, hb⟩ : Fin 2).val from rfl]
  rw [whole0 m c ⟨t.val / 7, hb⟩ q t', whole1 m c ⟨t.val / 7, hb⟩ q t', whole2 m c ⟨t.val / 7, hb⟩ q 0, whole3 m c ⟨t.val / 7, hb⟩ q 0,
    whole4 m c ⟨t.val / 7, hb⟩ t' 0]
  have ex0 : (fun j => (iblk m c 0 t : Vec Ideal S1x300x4 .f32) (ix3 (0 : Fin 1) q j)) = fun j => V m c main_arg2 (ix3 (⟨t.val / 7, hb⟩ : Fin 2) q j) :=
    funext fun j => iblk0_apply (F := Ideal) m c t q j (ix3 (⟨t.val / 7, hb⟩ : Fin 2) q j) rfl rfl rfl
  have ex1 : (fun j => (iblk m c 1 t : Vec Ideal S1x300x4 .f32) (ix3 (0 : Fin 1) t' j)) = fun j => V m c main_arg3 (ix3 (⟨t.val / 7, hb⟩ : Fin 2) t' j) :=
    funext fun j => iblk1_apply (F := Ideal) m c t t' j (ix3 (⟨t.val / 7, hb⟩ : Fin 2) t' j) rfl rfl rfl
  rw [ex0, ex1]
  unfold Gout Spec.costK
  rw [eB, eQ, eT]

/-- WHAT A FLUSHING POINT WRITES BACK is its block of the cost matrix. -/
theorem flushed_eq (c : Dev nD) (t : Fin cfg0.N) (hf : (cfg0.win 4).flush t = true) :
    (dats m 0 c).flushed 4 t = ((cfg0.win 4).blk t).view.read (Elt Ideal) (Gout m c) := by
  have h1 : t.val % 7 = 6 := (flush0_4 t).mp hf
  rw [flushed_last m c t h1]
  funext y
  have hy0 : (y 0).val < 1 := (y 0).isLt
  have hy1 : (y 1).val < 300 := (y 1).isLt
  have hy2 : (y 2).val < 300 := (y 2).isLt
  rw [View.read_apply]
  show finalOut (F := Ideal) (iblk m c 0 t) (iblk m c 1 t) (outsAt0 m c t.val t.isLt).2.1 (outsAt0 m c t.val t.isLt).2.2.1 (outsAt0 m c t.val t.isLt).2.2.2.1 (outsAt0 m c t.val t.isLt).2.2.2.2.1 (outsAt0 m c t.val t.isLt).2.2.2.2.2 ((cfg0.win 4).xinj (grid0.coords t) y)
    = Gout m c (((cfg0.win 4).blk t).view.emb y)
  have ey : (cfg0.win 4).xinj (grid0.coords t) y = ix3 (0 : Fin 1) (⟨(y 1).val, hy1⟩ : Fin 300) (⟨(y 2).val, hy2⟩ : Fin 300) :=
    funext fun a => Fin.ext (by
      match a with
      | ⟨0, _⟩ => show (y 0).val = 0; omega
      | ⟨1, _⟩ => rfl
      | ⟨2, _⟩ => rfl)
  rw [ey]
  exact final_apply m c t h1 ⟨(y 1).val, hy1⟩ ⟨(y 2).val, hy2⟩ (((cfg0.win 4).blk t).view.emb y)
    (by show win0_4.index t 0 * 1 + 1 * (y 0).val = t.val / 7; rw [(idxW4 t).1]; omega)
    (by show win0_4.index t 1 * 300 + 1 * (y 1).val = (y 1).val; rw [(idxW4 t).2.1]; omega)
    (by show win0_4.index t 2 * 300 + 1 * (y 2).val = (y 2).val; rw [(idxW4 t).2.2]; omega)

/-- An index of the result is in point t's block iff each coordinate is in the block's range on its axis. -/
theorem mem_blk4 (t : Fin cfg0.N) (i : S2x300x300.Idx) :
    i ∈ ((cfg0.win 4).blk t).view.set ↔ ∀ a : Fin 3, win0_4.index t a * S1x300x300.size a ≤ (i a).val ∧ (i a).val < win0_4.index t a * S1x300x300.size a + S1x300x300.size a := by
  show i ∈ ((View.whole main_v143).slice (win0_4.rect t)).set ↔ _
  rw [View.set_slice_whole, Rect.mem_set_unit]
  exact Iff.rfl

/-- The two flushing points' blocks cover the result: entry (b, ·, ·) lies in the block of point 7·b + 6. -/
theorem cover4 (i : S2x300x300.Idx) : ∃ t : Fin cfg0.N, (cfg0.win 4).flush t = true ∧ i ∈ ((cfg0.win 4).blk t).view.set := by
  have hN : cfg0.N = 14 := N_0
  have hN' : grid0.N = 14 := N_0
  have hi0 : (i 0).val < 2 := (i 0).isLt
  have hi1 : (i 1).val < 300 := (i 1).isLt
  have hi2 : (i 2).val < 300 := (i 2).isLt
  refine ⟨⟨7 * (i 0).val + 6, by omega⟩, (flush0_4 _).mpr (by show (7 * (i 0).val + 6) % 7 = 6; omega), ?_⟩
  rw [mem_blk4]
  obtain ⟨e0, e1, e2⟩ := idxW4 ⟨7 * (i 0).val + 6, by omega⟩
  have e0' : win0_4.index ⟨7 * (i 0).val + 6, by omega⟩ 0 = (i 0).val := by rw [e0]; show (7 * (i 0).val + 6) / 7 = (i 0).val; omega
  intro a
  match a with
  | ⟨0, _⟩ => show win0_4.index _ 0 * 1 ≤ (i 0).val ∧ (i 0).val < win0_4.index _ 0 * 1 + 1; rw [e0']; omega
  | ⟨1, _⟩ => show win0_4.index _ 1 * 300 ≤ (i 1).val ∧ (i 1).val < win0_4.index _ 1 * 300 + 300; rw [e1]; omega
  | ⟨2, _⟩ => show win0_4.index _ 2 * 300 ≤ (i 2).val ∧ (i 2).val < win0_4.index _ 2 * 300 + 300; rw [e2]; omega

/-- So the result array ends holding the cost matrix. -/
theorem final4 (c : Dev nD) : (dats m 0 c).arrAt 4 cfg0.N = Gout m c :=
  (dats m 0 c).arrAt_eq_of_cover 4 (Gout m c) (fun t hf => flushed_eq m c t hf) cover4

/-- The kernel's run, read: the result array at the cost matrix of the staged arrays, the arguments unchanged. -/
theorem run : θ_run defs (onTc (τ := τ) (main (F := Ideal))) ⟨m, fun _ => 0, ρ⟩ fun r => ∀ c : Dev nD,
      r.2.mem ((c : Thread nD τ).loc main_v143) = Gout m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final4 m c), (h c).2⟩) (Value.run_blocks m ρ)

end Cert.KValue
end
-- ==== Proof.RefBox.lean ====
/-
  The box terms of the reference read at an index: each box (cx, cy, w, h) is turned into its corners
  (a stack of four columns, read column by column), the L1 distance is the sum of the four absolute
  differences, and the generalised IoU is built from the corners. Every layout operation is read at
  explicit coordinates (b, q, t) of the batch element, the prediction and the target.
-/
import proofs.«176196_j77713138253901_2_alg».proof.Proof.RefReadP
import proofs.«176196_j77713138253901_2_alg».proof.Proof.Spec
import Idealize.ShloMosaic.Lib.Pipeline.Value
import Idealize.ShloMosaic.Lib.ValueIdx
import Idealize.ShloMosaic.PureOps.Ideal.Laws

set_option maxHeartbeats 1000000

noncomputable section

namespace Cert.RefValue

open Cert.ReferenceIdeal Cert.ReferenceIdeal.Gen Cert.ReferenceIdeal.ReadP Idealize.ShloMosaic Idealize.ShloMosaic.ValueIdx

variable (x2 x3 : (⟨S2x300x4, .f32⟩ : BufTy).Contents (Elt Ideal)) (b : Fin 2) (q t : Fin 300)

theorem cat434_0 : val_main_v434 (F := Ideal) x2 (ix3 b q (0 : Fin 4)) = val_main_v430 (F := Ideal) x2 (ix3 b q (0 : Fin 1)) := by
  unfold val_main_v434
  refine concatenate_apply_piece (2 : Fin S2x300x4.rank) [⟨S2x300x1, val_main_v430 (F := Ideal) x2⟩, ⟨S2x300x1, val_main_v431 (F := Ideal) x2⟩, ⟨S2x300x1, val_main_v432 (F := Ideal) x2⟩, ⟨S2x300x1, val_main_v433 (F := Ideal) x2⟩] concatenates_S2x300x1_S2x300x1_S2x300x1_S2x300x1_S2x300x4_d2 (ix3 b q (0 : Fin 4)) 0 (by show (0 : Nat) < 4; decide) S2x300x1 (val_main_v430 (F := Ideal) x2) rfl rfl 0 rfl (ix3 b q (0 : Fin 1)) ?_ ?_
  · intro e he
    match e with
    | ⟨0, _⟩ => rfl
    | ⟨1, _⟩ => rfl
    | ⟨2, _⟩ => exact absurd rfl he
  · rfl

theorem at_v430_0 : val_main_v430 (F := Ideal) x2 (ix3 b q (0 : Fin 1)) = val_main_v420 (F := Ideal) x2 (ix2 b q) := by
  rw [val_main_v430_apply]
  exact congrArg (val_main_v420 (F := Ideal) x2) (funext fun a => Fin.ext (by
    match a with
    | ⟨0, _⟩ => rfl
    | ⟨1, _⟩ => rfl))

theorem at_v411_1 : val_main_v411 (F := Ideal) x2 (ix2 b q) = val_main_v410 (F := Ideal) x2 (ix3 b q (0 : Fin 1)) := by
  rw [val_main_v411_apply]
  exact congrArg (val_main_v410 (F := Ideal) x2) (funext fun a => Fin.ext (by
    match a with
    | ⟨0, _⟩ => have h_b := b.isLt; have h_q := q.isLt; show (b.val * 300 + q.val) / 300 = b.val; omega
    | ⟨1, _⟩ => have h_b := b.isLt; have h_q := q.isLt; show (b.val * 300 + q.val) / 1 % 300 = q.val; omega
    | ⟨2, _⟩ => rfl))

theorem at_v410_2 : val_main_v410 (F := Ideal) x2 (ix3 b q (0 : Fin 1)) = x2 (ix3 b q (0 : Fin 4)) := by
  rw [val_main_v410_apply]
  exact congrArg (x2) (funext fun a => Fin.ext (by
    match a with
    | ⟨0, _⟩ => rfl
    | ⟨1, _⟩ => rfl
    | ⟨2, _⟩ => rfl))

theorem at_v415_3 : val_main_v415 (F := Ideal) x2 (ix2 b q) = val_main_v414 (F := Ideal) x2 (ix3 b q (0 : Fin 1)) := by
  rw [val_main_v415_apply]
  exact congrArg (val_main_v414 (F := Ideal) x2) (funext fun a => Fin.ext (by
    match a with
    | ⟨0, _⟩ => have h_b := b.isLt; have h_q := q.isLt; show (b.val * 300 + q.val) / 300 = b.val; omega
    | ⟨1, _⟩ => have h_b := b.isLt; have h_q := q.isLt; show (b.val * 300 + q.val) / 1 % 300 = q.val; omega
    | ⟨2, _⟩ => rfl))

theorem at_v414_4 : val_main_v414 (F := Ideal) x2 (ix3 b q (0 : Fin 1)) = x2 (ix3 b q (2 : Fin 4)) := by
  rw [val_main_v414_apply]
  exact congrArg (x2) (funext fun a => Fin.ext (by
    match a with
    | ⟨0, _⟩ => rfl
    | ⟨1, _⟩ => rfl
    | ⟨2, _⟩ => show 2 + 0 = 2; omega))

/-- Corner coordinate 0 of the box (cx, cy, w, h) as (cx - w/2, cy - h/2, cx + w/2, cy + h/2). -/
theorem boxA_0 : val_main_v434 (F := Ideal) x2 (ix3 b q (0 : Fin 4)) = Spec.lo (x2 (ix3 b q 0)) (x2 (ix3 b q 2)) := by
  rw [cat434_0, at_v430_0, val_main_v420_apply, val_main_v419_apply, val_main_v418_apply, at_v415_3, at_v414_4, at_v411_1, at_v410_2]
  simp only [val_main_cst_129_apply]
  rfl

theorem cat434_1 : val_main_v434 (F := Ideal) x2 (ix3 b q (1 : Fin 4)) = val_main_v431 (F := Ideal) x2 (ix3 b q (0 : Fin 1)) := by
  unfold val_main_v434
  refine concatenate_apply_piece (2 : Fin S2x300x4.rank) [⟨S2x300x1, val_main_v430 (F := Ideal) x2⟩, ⟨S2x300x1, val_main_v431 (F := Ideal) x2⟩, ⟨S2x300x1, val_main_v432 (F := Ideal) x2⟩, ⟨S2x300x1, val_main_v433 (F := Ideal) x2⟩] concatenates_S2x300x1_S2x300x1_S2x300x1_S2x300x1_S2x300x4_d2 (ix3 b q (1 : Fin 4)) 1 (by show (1 : Nat) < 4; decide) S2x300x1 (val_main_v431 (F := Ideal) x2) rfl rfl 1 rfl (ix3 b q (0 : Fin 1)) ?_ ?_
  · intro e he
    match e with
    | ⟨0, _⟩ => rfl
    | ⟨1, _⟩ => rfl
    | ⟨2, _⟩ => exact absurd rfl he
  · rfl

theorem at_v431_5 : val_main_v431 (F := Ideal) x2 (ix3 b q (0 : Fin 1)) = val_main_v423 (F := Ideal) x2 (ix2 b q) := by
  rw [val_main_v431_apply]
  exact congrArg (val_main_v423 (F := Ideal) x2) (funext fun a => Fin.ext (by
    match a with
    | ⟨0, _⟩ => rfl
    | ⟨1, _⟩ => rfl))

theorem at_v413_6 : val_main_v413 (F := Ideal) x2 (ix2 b q) = val_main_v412 (F := Ideal) x2 (ix3 b q (0 : Fin 1)) := by
  rw [val_main_v413_apply]
  exact congrArg (val_main_v412 (F := Ideal) x2) (funext fun a => Fin.ext (by
    match a with
    | ⟨0, _⟩ => have h_b := b.isLt; have h_q := q.isLt; show (b.val * 300 + q.val) / 300 = b.val; omega
    | ⟨1, _⟩ => have h_b := b.isLt; have h_q := q.isLt; show (b.val * 300 + q.val) / 1 % 300 = q.val; omega
    | ⟨2, _⟩ => rfl))

theorem at_v412_7 : val_main_v412 (F := Ideal) x2 (ix3 b q (0 : Fin 1)) = x2 (ix3 b q (1 : Fin 4)) := by
  rw [val_main_v412_apply]
  exact congrArg (x2) (funext fun a => Fin.ext (by
    match a with
    | ⟨0, _⟩ => rfl
    | ⟨1, _⟩ => rfl
    | ⟨2, _⟩ => show 1 + 0 = 1; omega))

theorem at_v417_8 : val_main_v417 (F := Ideal) x2 (ix2 b q) = val_main_v416 (F := Ideal) x2 (ix3 b q (0 : Fin 1)) := by
  rw [val_main_v417_apply]
  exact congrArg (val_main_v416 (F := Ideal) x2) (funext fun a => Fin.ext (by
    match a with
    | ⟨0, _⟩ => have h_b := b.isLt; have h_q := q.isLt; show (b.val * 300 + q.val) / 300 = b.val; omega
    | ⟨1, _⟩ => have h_b := b.isLt; have h_q := q.isLt; show (b.val * 300 + q.val) / 1 % 300 = q.val; omega
    | ⟨2, _⟩ => rfl))

theorem at_v416_9 : val_main_v416 (F := Ideal) x2 (ix3 b q (0 : Fin 1)) = x2 (ix3 b q (3 : Fin 4)) := by
  rw [val_main_v416_apply]
  exact congrArg (x2) (funext fun a => Fin.ext (by
    match a with
    | ⟨0, _⟩ => rfl
    | ⟨1, _⟩ => rfl
    | ⟨2, _⟩ => show 3 + 0 = 3; omega))

/-- Corner coordinate 1 of the box (cx, cy, w, h) as (cx - w/2, cy - h/2, cx + w/2, cy + h/2). -/
theorem boxA_1 : val_main_v434 (F := Ideal) x2 (ix3 b q (1 : Fin 4)) = Spec.lo (x2 (ix3 b q 1)) (x2 (ix3 b q 3)) := by
  rw [cat434_1, at_v431_5, val_main_v423_apply, val_main_v422_apply, val_main_v421_apply, at_v417_8, at_v416_9, at_v413_6, at_v412_7]
  simp only [val_main_cst_130_apply]
  rfl

theorem cat434_2 : val_main_v434 (F := Ideal) x2 (ix3 b q (2 : Fin 4)) = val_main_v432 (F := Ideal) x2 (ix3 b q (0 : Fin 1)) := by
  unfold val_main_v434
  refine concatenate_apply_piece (2 : Fin S2x300x4.rank) [⟨S2x300x1, val_main_v430 (F := Ideal) x2⟩, ⟨S2x300x1, val_main_v431 (F := Ideal) x2⟩, ⟨S2x300x1, val_main_v432 (F := Ideal) x2⟩, ⟨S2x300x1, val_main_v433 (F := Ideal) x2⟩] concatenates_S2x300x1_S2x300x1_S2x300x1_S2x300x1_S2x300x4_d2 (ix3 b q (2 : Fin 4)) 2 (by show (2 : Nat) < 4; decide) S2x300x1 (val_main_v432 (F := Ideal) x2) rfl rfl 2 rfl (ix3 b q (0 : Fin 1)) ?_ ?_
  · intro e he
    match e with
    | ⟨0, _⟩ => rfl
    | ⟨1, _⟩ => rfl
    | ⟨2, _⟩ => exact absurd rfl he
  · rfl

theorem at_v432_10 : val_main_v432 (F := Ideal) x2 (ix3 b q (0 : Fin 1)) = val_main_v426 (F := Ideal) x2 (ix2 b q) := by
  rw [val_main_v432_apply]
  exact congrArg (val_main_v426 (F := Ideal) x2) (funext fun a => Fin.ext (by
    match a with
    | ⟨0, _⟩ => rfl
    | ⟨1, _⟩ => rfl))

theorem at_v411_11 : val_main_v411 (F := Ideal) x2 (ix2 b q) = val_main_v410 (F := Ideal) x2 (ix3 b q (0 : Fin 1)) := by
  rw [val_main_v411_apply]
  exact congrArg (val_main_v410 (F := Ideal) x2) (funext fun a => Fin.ext (by
    match a with
    | ⟨0, _⟩ => have h_b := b.isLt; have h_q := q.isLt; show (b.val * 300 + q.val) / 300 = b.val; omega
    | ⟨1, _⟩ => have h_b := b.isLt; have h_q := q.isLt; show (b.val * 300 + q.val) / 1 % 300 = q.val; omega
    | ⟨2, _⟩ => rfl))

theorem at_v410_12 : val_main_v410 (F := Ideal) x2 (ix3 b q (0 : Fin 1)) = x2 (ix3 b q (0 : Fin 4)) := by
  rw [val_main_v410_apply]
  exact congrArg (x2) (funext fun a => Fin.ext (by
    match a with
    | ⟨0, _⟩ => rfl
    | ⟨1, _⟩ => rfl
    | ⟨2, _⟩ => rfl))

theorem at_v415_13 : val_main_v415 (F := Ideal) x2 (ix2 b q) = val_main_v414 (F := Ideal) x2 (ix3 b q (0 : Fin 1)) := by
  rw [val_main_v415_apply]
  exact congrArg (val_main_v414 (F := Ideal) x2) (funext fun a => Fin.ext (by
    match a with
    | ⟨0, _⟩ => have h_b := b.isLt; have h_q := q.isLt; show (b.val * 300 + q.val) / 300 = b.val; omega
    | ⟨1, _⟩ => have h_b := b.isLt; have h_q := q.isLt; show (b.val * 300 + q.val) / 1 % 300 = q.val; omega
    | ⟨2, _⟩ => rfl))

theorem at_v414_14 : val_main_v414 (F := Ideal) x2 (ix3 b q (0 : Fin 1)) = x2 (ix3 b q (2 : Fin 4)) := by
  rw [val_main_v414_apply]
  exact congrArg (x2) (funext fun a => Fin.ext (by
    match a with
    | ⟨0, _⟩ => rfl
    | ⟨1, _⟩ => rfl
    | ⟨2, _⟩ => show 2 + 0 = 2; omega))

/-- Corner coordinate 2 of the box (cx, cy, w, h) as (cx - w/2, cy - h/2, cx + w/2, cy + h/2). -/
theorem boxA_2 : val_main_v434 (F := Ideal) x2 (ix3 b q (2 : Fin 4)) = Spec.hi (x2 (ix3 b q 0)) (x2 (ix3 b q 2)) := by
  rw [cat434_2, at_v432_10, val_main_v426_apply, val_main_v425_apply, val_main_v424_apply, at_v415_13, at_v414_14, at_v411_11, at_v410_12]
  simp only [val_main_cst_131_apply]
  rfl

theorem cat434_3 : val_main_v434 (F := Ideal) x2 (ix3 b q (3 : Fin 4)) = val_main_v433 (F := Ideal) x2 (ix3 b q (0 : Fin 1)) := by
  unfold val_main_v434
  refine concatenate_apply_piece (2 : Fin S2x300x4.rank) [⟨S2x300x1, val_main_v430 (F := Ideal) x2⟩, ⟨S2x300x1, val_main_v431 (F := Ideal) x2⟩, ⟨S2x300x1, val_main_v432 (F := Ideal) x2⟩, ⟨S2x300x1, val_main_v433 (F := Ideal) x2⟩] concatenates_S2x300x1_S2x300x1_S2x300x1_S2x300x1_S2x300x4_d2 (ix3 b q (3 : Fin 4)) 3 (by show (3 : Nat) < 4; decide) S2x300x1 (val_main_v433 (F := Ideal) x2) rfl rfl 3 rfl (ix3 b q (0 : Fin 1)) ?_ ?_
  · intro e he
    match e with
    | ⟨0, _⟩ => rfl
    | ⟨1, _⟩ => rfl
    | ⟨2, _⟩ => exact absurd rfl he
  · rfl

theorem at_v433_15 : val_main_v433 (F := Ideal) x2 (ix3 b q (0 : Fin 1)) = val_main_v429 (F := Ideal) x2 (ix2 b q) := by
  rw [val_main_v433_apply]
  exact congrArg (val_main_v429 (F := Ideal) x2) (funext fun a => Fin.ext (by
    match a with
    | ⟨0, _⟩ => rfl
    | ⟨1, _⟩ => rfl))

theorem at_v413_16 : val_main_v413 (F := Ideal) x2 (ix2 b q) = val_main_v412 (F := Ideal) x2 (ix3 b q (0 : Fin 1)) := by
  rw [val_main_v413_apply]
  exact congrArg (val_main_v412 (F := Ideal) x2) (funext fun a => Fin.ext (by
    match a with
    | ⟨0, _⟩ => have h_b := b.isLt; have h_q := q.isLt; show (b.val * 300 + q.val) / 300 = b.val; omega
    | ⟨1, _⟩ => have h_b := b.isLt; have h_q := q.isLt; show (b.val * 300 + q.val) / 1 % 300 = q.val; omega
    | ⟨2, _⟩ => rfl))

theorem at_v412_17 : val_main_v412 (F := Ideal) x2 (ix3 b q (0 : Fin 1)) = x2 (ix3 b q (1 : Fin 4)) := by
  rw [val_main_v412_apply]
  exact congrArg (x2) (funext fun a => Fin.ext (by
    match a with
    | ⟨0, _⟩ => rfl
    | ⟨1, _⟩ => rfl
    | ⟨2, _⟩ => show 1 + 0 = 1; omega))

theorem at_v417_18 : val_main_v417 (F := Ideal) x2 (ix2 b q) = val_main_v416 (F := Ideal) x2 (ix3 b q (0 : Fin 1)) := by
  rw [val_main_v417_apply]
  exact congrArg (val_main_v416 (F := Ideal) x2) (funext fun a => Fin.ext (by
    match a with
    | ⟨0, _⟩ => have h_b := b.isLt; have h_q := q.isLt; show (b.val * 300 + q.val) / 300 = b.val; omega
    | ⟨1, _⟩ => have h_b := b.isLt; have h_q := q.isLt; show (b.val * 300 + q.val) / 1 % 300 = q.val; omega
    | ⟨2, _⟩ => rfl))

theorem at_v416_19 : val_main_v416 (F := Ideal) x2 (ix3 b q (0 : Fin 1)) = x2 (ix3 b q (3 : Fin 4)) := by
  rw [val_main_v416_apply]
  exact congrArg (x2) (funext fun a => Fin.ext (by
    match a with
    | ⟨0, _⟩ => rfl
    | ⟨1, _⟩ => rfl
    | ⟨2, _⟩ => show 3 + 0 = 3; omega))

/-- Corner coordinate 3 of the box (cx, cy, w, h) as (cx - w/2, cy - h/2, cx + w/2, cy + h/2). -/
theorem boxA_3 : val_main_v434 (F := Ideal) x2 (ix3 b q (3 : Fin 4)) = Spec.hi (x2 (ix3 b q 1)) (x2 (ix3 b q 3)) := by
  rw [cat434_3, at_v433_15, val_main_v429_apply, val_main_v428_apply, val_main_v427_apply, at_v417_18, at_v416_19, at_v413_16, at_v412_17]
  simp only [val_main_cst_132_apply]
  rfl

theorem cat459_0 : val_main_v459 (F := Ideal) x3 (ix3 b t (0 : Fin 4)) = val_main_v455 (F := Ideal) x3 (ix3 b t (0 : Fin 1)) := by
  unfold val_main_v459
  refine concatenate_apply_piece (2 : Fin S2x300x4.rank) [⟨S2x300x1, val_main_v455 (F := Ideal) x3⟩, ⟨S2x300x1, val_main_v456 (F := Ideal) x3⟩, ⟨S2x300x1, val_main_v457 (F := Ideal) x3⟩, ⟨S2x300x1, val_main_v458 (F := Ideal) x3⟩] concatenates_S2x300x1_S2x300x1_S2x300x1_S2x300x1_S2x300x4_d2 (ix3 b t (0 : Fin 4)) 0 (by show (0 : Nat) < 4; decide) S2x300x1 (val_main_v455 (F := Ideal) x3) rfl rfl 0 rfl (ix3 b t (0 : Fin 1)) ?_ ?_
  · intro e he
    match e with
    | ⟨0, _⟩ => rfl
    | ⟨1, _⟩ => rfl
    | ⟨2, _⟩ => exact absurd rfl he
  · rfl

theorem at_v455_20 : val_main_v455 (F := Ideal) x3 (ix3 b t (0 : Fin 1)) = val_main_v445 (F := Ideal) x3 (ix2 b t) := by
  rw [val_main_v455_apply]
  exact congrArg (val_main_v445 (F := Ideal) x3) (funext fun a => Fin.ext (by
    match a with
    | ⟨0, _⟩ => rfl
    | ⟨1, _⟩ => rfl))

theorem at_v436_21 : val_main_v436 (F := Ideal) x3 (ix2 b t) = val_main_v435 (F := Ideal) x3 (ix3 b t (0 : Fin 1)) := by
  rw [val_main_v436_apply]
  exact congrArg (val_main_v435 (F := Ideal) x3) (funext fun a => Fin.ext (by
    match a with
    | ⟨0, _⟩ => have h_b := b.isLt; have h_t := t.isLt; show (b.val * 300 + t.val) / 300 = b.val; omega
    | ⟨1, _⟩ => have h_b := b.isLt; have h_t := t.isLt; show (b.val * 300 + t.val) / 1 % 300 = t.val; omega
    | ⟨2, _⟩ => rfl))

theorem at_v435_22 : val_main_v435 (F := Ideal) x3 (ix3 b t (0 : Fin 1)) = x3 (ix3 b t (0 : Fin 4)) := by
  rw [val_main_v435_apply]
  exact congrArg (x3) (funext fun a => Fin.ext (by
    match a with
    | ⟨0, _⟩ => rfl
    | ⟨1, _⟩ => rfl
    | ⟨2, _⟩ => rfl))

theorem at_v440_23 : val_main_v440 (F := Ideal) x3 (ix2 b t) = val_main_v439 (F := Ideal) x3 (ix3 b t (0 : Fin 1)) := by
  rw [val_main_v440_apply]
  exact congrArg (val_main_v439 (F := Ideal) x3) (funext fun a => Fin.ext (by
    match a with
    | ⟨0, _⟩ => have h_b := b.isLt; have h_t := t.isLt; show (b.val * 300 + t.val) / 300 = b.val; omega
    | ⟨1, _⟩ => have h_b := b.isLt; have h_t := t.isLt; show (b.val * 300 + t.val) / 1 % 300 = t.val; omega
    | ⟨2, _⟩ => rfl))

theorem at_v439_24 : val_main_v439 (F := Ideal) x3 (ix3 b t (0 : Fin 1)) = x3 (ix3 b t (2 : Fin 4)) := by
  rw [val_main_v439_apply]
  exact congrArg (x3) (funext fun a => Fin.ext (by
    match a with
    | ⟨0, _⟩ => rfl
    | ⟨1, _⟩ => rfl
    | ⟨2, _⟩ => show 2 + 0 = 2; omega))

/-- Corner coordinate 0 of the box (cx, cy, w, h) as (cx - w/2, cy - h/2, cx + w/2, cy + h/2). -/
theorem boxB_0 : val_main_v459 (F := Ideal) x3 (ix3 b t (0 : Fin 4)) = Spec.lo (x3 (ix3 b t 0)) (x3 (ix3 b t 2)) := by
  rw [cat459_0, at_v455_20, val_main_v445_apply, val_main_v444_apply, val_main_v443_apply, at_v440_23, at_v439_24, at_v436_21, at_v435_22]
  simp only [val_main_cst_133_apply]
  rfl

theorem cat459_1 : val_main_v459 (F := Ideal) x3 (ix3 b t (1 : Fin 4)) = val_main_v456 (F := Ideal) x3 (ix3 b t (0 : Fin 1)) := by
  unfold val_main_v459
  refine concatenate_apply_piece (2 : Fin S2x300x4.rank) [⟨S2x300x1, val_main_v455 (F := Ideal) x3⟩, ⟨S2x300x1, val_main_v456 (F := Ideal) x3⟩, ⟨S2x300x1, val_main_v457 (F := Ideal) x3⟩, ⟨S2x300x1, val_main_v458 (F := Ideal) x3⟩] concatenates_S2x300x1_S2x300x1_S2x300x1_S2x300x1_S2x300x4_d2 (ix3 b t (1 : Fin 4)) 1 (by show (1 : Nat) < 4; decide) S2x300x1 (val_main_v456 (F := Ideal) x3) rfl rfl 1 rfl (ix3 b t (0 : Fin 1)) ?_ ?_
  · intro e he
    match e with
    | ⟨0, _⟩ => rfl
    | ⟨1, _⟩ => rfl
    | ⟨2, _⟩ => exact absurd rfl he
  · rfl

theorem at_v456_25 : val_main_v456 (F := Ideal) x3 (ix3 b t (0 : Fin 1)) = val_main_v448 (F := Ideal) x3 (ix2 b t) := by
  rw [val_main_v456_apply]
  exact congrArg (val_main_v448 (F := Ideal) x3) (funext fun a => Fin.ext (by
    match a with
    | ⟨0, _⟩ => rfl
    | ⟨1, _⟩ => rfl))

theorem at_v438_26 : val_main_v438 (F := Ideal) x3 (ix2 b t) = val_main_v437 (F := Ideal) x3 (ix3 b t (0 : Fin 1)) := by
  rw [val_main_v438_apply]
  exact congrArg (val_main_v437 (F := Ideal) x3) (funext fun a => Fin.ext (by
    match a with
    | ⟨0, _⟩ => have h_b := b.isLt; have h_t := t.isLt; show (b.val * 300 + t.val) / 300 = b.val; omega
    | ⟨1, _⟩ => have h_b := b.isLt; have h_t := t.isLt; show (b.val * 300 + t.val) / 1 % 300 = t.val; omega
    | ⟨2, _⟩ => rfl))

theorem at_v437_27 : val_main_v437 (F := Ideal) x3 (ix3 b t (0 : Fin 1)) = x3 (ix3 b t (1 : Fin 4)) := by
  rw [val_main_v437_apply]
  exact congrArg (x3) (funext fun a => Fin.ext (by
    match a with
    | ⟨0, _⟩ => rfl
    | ⟨1, _⟩ => rfl
    | ⟨2, _⟩ => show 1 + 0 = 1; omega))

theorem at_v442_28 : val_main_v442 (F := Ideal) x3 (ix2 b t) = val_main_v441 (F := Ideal) x3 (ix3 b t (0 : Fin 1)) := by
  rw [val_main_v442_apply]
  exact congrArg (val_main_v441 (F := Ideal) x3) (funext fun a => Fin.ext (by
    match a with
    | ⟨0, _⟩ => have h_b := b.isLt; have h_t := t.isLt; show (b.val * 300 + t.val) / 300 = b.val; omega
    | ⟨1, _⟩ => have h_b := b.isLt; have h_t := t.isLt; show (b.val * 300 + t.val) / 1 % 300 = t.val; omega
    | ⟨2, _⟩ => rfl))

theorem at_v441_29 : val_main_v441 (F := Ideal) x3 (ix3 b t (0 : Fin 1)) = x3 (ix3 b t (3 : Fin 4)) := by
  rw [val_main_v441_apply]
  exact congrArg (x3) (funext fun a => Fin.ext (by
    match a with
    | ⟨0, _⟩ => rfl
    | ⟨1, _⟩ => rfl
    | ⟨2, _⟩ => show 3 + 0 = 3; omega))

/-- Corner coordinate 1 of the box (cx, cy, w, h) as (cx - w/2, cy - h/2, cx + w/2, cy + h/2). -/
theorem boxB_1 : val_main_v459 (F := Ideal) x3 (ix3 b t (1 : Fin 4)) = Spec.lo (x3 (ix3 b t 1)) (x3 (ix3 b t 3)) := by
  rw [cat459_1, at_v456_25, val_main_v448_apply, val_main_v447_apply, val_main_v446_apply, at_v442_28, at_v441_29, at_v438_26, at_v437_27]
  simp only [val_main_cst_134_apply]
  rfl

theorem cat459_2 : val_main_v459 (F := Ideal) x3 (ix3 b t (2 : Fin 4)) = val_main_v457 (F := Ideal) x3 (ix3 b t (0 : Fin 1)) := by
  unfold val_main_v459
  refine concatenate_apply_piece (2 : Fin S2x300x4.rank) [⟨S2x300x1, val_main_v455 (F := Ideal) x3⟩, ⟨S2x300x1, val_main_v456 (F := Ideal) x3⟩, ⟨S2x300x1, val_main_v457 (F := Ideal) x3⟩, ⟨S2x300x1, val_main_v458 (F := Ideal) x3⟩] concatenates_S2x300x1_S2x300x1_S2x300x1_S2x300x1_S2x300x4_d2 (ix3 b t (2 : Fin 4)) 2 (by show (2 : Nat) < 4; decide) S2x300x1 (val_main_v457 (F := Ideal) x3) rfl rfl 2 rfl (ix3 b t (0 : Fin 1)) ?_ ?_
  · intro e he
    match e with
    | ⟨0, _⟩ => rfl
    | ⟨1, _⟩ => rfl
    | ⟨2, _⟩ => exact absurd rfl he
  · rfl

theorem at_v457_30 : val_main_v457 (F := Ideal) x3 (ix3 b t (0 : Fin 1)) = val_main_v451 (F := Ideal) x3 (ix2 b t) := by
  rw [val_main_v457_apply]
  exact congrArg (val_main_v451 (F := Ideal) x3) (funext fun a => Fin.ext (by
    match a with
    | ⟨0, _⟩ => rfl
    | ⟨1, _⟩ => rfl))

theorem at_v436_31 : val_main_v436 (F := Ideal) x3 (ix2 b t) = val_main_v435 (F := Ideal) x3 (ix3 b t (0 : Fin 1)) := by
  rw [val_main_v436_apply]
  exact congrArg (val_main_v435 (F := Ideal) x3) (funext fun a => Fin.ext (by
    match a with
    | ⟨0, _⟩ => have h_b := b.isLt; have h_t := t.isLt; show (b.val * 300 + t.val) / 300 = b.val; omega
    | ⟨1, _⟩ => have h_b := b.isLt; have h_t := t.isLt; show (b.val * 300 + t.val) / 1 % 300 = t.val; omega
    | ⟨2, _⟩ => rfl))

theorem at_v435_32 : val_main_v435 (F := Ideal) x3 (ix3 b t (0 : Fin 1)) = x3 (ix3 b t (0 : Fin 4)) := by
  rw [val_main_v435_apply]
  exact congrArg (x3) (funext fun a => Fin.ext (by
    match a with
    | ⟨0, _⟩ => rfl
    | ⟨1, _⟩ => rfl
    | ⟨2, _⟩ => rfl))

theorem at_v440_33 : val_main_v440 (F := Ideal) x3 (ix2 b t) = val_main_v439 (F := Ideal) x3 (ix3 b t (0 : Fin 1)) := by
  rw [val_main_v440_apply]
  exact congrArg (val_main_v439 (F := Ideal) x3) (funext fun a => Fin.ext (by
    match a with
    | ⟨0, _⟩ => have h_b := b.isLt; have h_t := t.isLt; show (b.val * 300 + t.val) / 300 = b.val; omega
    | ⟨1, _⟩ => have h_b := b.isLt; have h_t := t.isLt; show (b.val * 300 + t.val) / 1 % 300 = t.val; omega
    | ⟨2, _⟩ => rfl))

theorem at_v439_34 : val_main_v439 (F := Ideal) x3 (ix3 b t (0 : Fin 1)) = x3 (ix3 b t (2 : Fin 4)) := by
  rw [val_main_v439_apply]
  exact congrArg (x3) (funext fun a => Fin.ext (by
    match a with
    | ⟨0, _⟩ => rfl
    | ⟨1, _⟩ => rfl
    | ⟨2, _⟩ => show 2 + 0 = 2; omega))

/-- Corner coordinate 2 of the box (cx, cy, w, h) as (cx - w/2, cy - h/2, cx + w/2, cy + h/2). -/
theorem boxB_2 : val_main_v459 (F := Ideal) x3 (ix3 b t (2 : Fin 4)) = Spec.hi (x3 (ix3 b t 0)) (x3 (ix3 b t 2)) := by
  rw [cat459_2, at_v457_30, val_main_v451_apply, val_main_v450_apply, val_main_v449_apply, at_v440_33, at_v439_34, at_v436_31, at_v435_32]
  simp only [val_main_cst_135_apply]
  rfl

theorem cat459_3 : val_main_v459 (F := Ideal) x3 (ix3 b t (3 : Fin 4)) = val_main_v458 (F := Ideal) x3 (ix3 b t (0 : Fin 1)) := by
  unfold val_main_v459
  refine concatenate_apply_piece (2 : Fin S2x300x4.rank) [⟨S2x300x1, val_main_v455 (F := Ideal) x3⟩, ⟨S2x300x1, val_main_v456 (F := Ideal) x3⟩, ⟨S2x300x1, val_main_v457 (F := Ideal) x3⟩, ⟨S2x300x1, val_main_v458 (F := Ideal) x3⟩] concatenates_S2x300x1_S2x300x1_S2x300x1_S2x300x1_S2x300x4_d2 (ix3 b t (3 : Fin 4)) 3 (by show (3 : Nat) < 4; decide) S2x300x1 (val_main_v458 (F := Ideal) x3) rfl rfl 3 rfl (ix3 b t (0 : Fin 1)) ?_ ?_
  · intro e he
    match e with
    | ⟨0, _⟩ => rfl
    | ⟨1, _⟩ => rfl
    | ⟨2, _⟩ => exact absurd rfl he
  · rfl

theorem at_v458_35 : val_main_v458 (F := Ideal) x3 (ix3 b t (0 : Fin 1)) = val_main_v454 (F := Ideal) x3 (ix2 b t) := by
  rw [val_main_v458_apply]
  exact congrArg (val_main_v454 (F := Ideal) x3) (funext fun a => Fin.ext (by
    match a with
    | ⟨0, _⟩ => rfl
    | ⟨1, _⟩ => rfl))

theorem at_v438_36 : val_main_v438 (F := Ideal) x3 (ix2 b t) = val_main_v437 (F := Ideal) x3 (ix3 b t (0 : Fin 1)) := by
  rw [val_main_v438_apply]
  exact congrArg (val_main_v437 (F := Ideal) x3) (funext fun a => Fin.ext (by
    match a with
    | ⟨0, _⟩ => have h_b := b.isLt; have h_t := t.isLt; show (b.val * 300 + t.val) / 300 = b.val; omega
    | ⟨1, _⟩ => have h_b := b.isLt; have h_t := t.isLt; show (b.val * 300 + t.val) / 1 % 300 = t.val; omega
    | ⟨2, _⟩ => rfl))

theorem at_v437_37 : val_main_v437 (F := Ideal) x3 (ix3 b t (0 : Fin 1)) = x3 (ix3 b t (1 : Fin 4)) := by
  rw [val_main_v437_apply]
  exact congrArg (x3) (funext fun a => Fin.ext (by
    match a with
    | ⟨0, _⟩ => rfl
    | ⟨1, _⟩ => rfl
    | ⟨2, _⟩ => show 1 + 0 = 1; omega))

theorem at_v442_38 : val_main_v442 (F := Ideal) x3 (ix2 b t) = val_main_v441 (F := Ideal) x3 (ix3 b t (0 : Fin 1)) := by
  rw [val_main_v442_apply]
  exact congrArg (val_main_v441 (F := Ideal) x3) (funext fun a => Fin.ext (by
    match a with
    | ⟨0, _⟩ => have h_b := b.isLt; have h_t := t.isLt; show (b.val * 300 + t.val) / 300 = b.val; omega
    | ⟨1, _⟩ => have h_b := b.isLt; have h_t := t.isLt; show (b.val * 300 + t.val) / 1 % 300 = t.val; omega
    | ⟨2, _⟩ => rfl))

theorem at_v441_39 : val_main_v441 (F := Ideal) x3 (ix3 b t (0 : Fin 1)) = x3 (ix3 b t (3 : Fin 4)) := by
  rw [val_main_v441_apply]
  exact congrArg (x3) (funext fun a => Fin.ext (by
    match a with
    | ⟨0, _⟩ => rfl
    | ⟨1, _⟩ => rfl
    | ⟨2, _⟩ => show 3 + 0 = 3; omega))

/-- Corner coordinate 3 of the box (cx, cy, w, h) as (cx - w/2, cy - h/2, cx + w/2, cy + h/2). -/
theorem boxB_3 : val_main_v459 (F := Ideal) x3 (ix3 b t (3 : Fin 4)) = Spec.hi (x3 (ix3 b t 1)) (x3 (ix3 b t 3)) := by
  rw [cat459_3, at_v458_35, val_main_v454_apply, val_main_v453_apply, val_main_v452_apply, at_v442_38, at_v441_39, at_v438_36, at_v437_37]
  simp only [val_main_cst_136_apply]
  rfl

theorem at_v405_40 : val_main_v405 (F := Ideal) x2 (ix4 b q t (0 : Fin 4)) = val_main_v403 (F := Ideal) x2 (ix4 b q (0 : Fin 1) (0 : Fin 4)) := by
  rw [val_main_v405_apply]
  exact congrArg (val_main_v403 (F := Ideal) x2) (funext fun a => Fin.ext (by
    match a with
    | ⟨0, _⟩ => rfl
    | ⟨1, _⟩ => rfl
    | ⟨2, _⟩ => rfl
    | ⟨3, _⟩ => rfl))

theorem at_v403_41 : val_main_v403 (F := Ideal) x2 (ix4 b q (0 : Fin 1) (0 : Fin 4)) = x2 (ix3 b q (0 : Fin 4)) := by
  rw [val_main_v403_apply]
  exact congrArg (x2) (funext fun a => Fin.ext (by
    match a with
    | ⟨0, _⟩ => rfl
    | ⟨1, _⟩ => rfl
    | ⟨2, _⟩ => rfl))

theorem at_v406_42 : val_main_v406 (F := Ideal) x3 (ix4 b q t (0 : Fin 4)) = val_main_v404 (F := Ideal) x3 (ix4 b (0 : Fin 1) t (0 : Fin 4)) := by
  rw [val_main_v406_apply]
  exact congrArg (val_main_v404 (F := Ideal) x3) (funext fun a => Fin.ext (by
    match a with
    | ⟨0, _⟩ => rfl
    | ⟨1, _⟩ => rfl
    | ⟨2, _⟩ => rfl
    | ⟨3, _⟩ => rfl))

theorem at_v404_43 : val_main_v404 (F := Ideal) x3 (ix4 b (0 : Fin 1) t (0 : Fin 4)) = x3 (ix3 b t (0 : Fin 4)) := by
  rw [val_main_v404_apply]
  exact congrArg (x3) (funext fun a => Fin.ext (by
    match a with
    | ⟨0, _⟩ => rfl
    | ⟨1, _⟩ => rfl
    | ⟨2, _⟩ => rfl))

theorem at_v405_44 : val_main_v405 (F := Ideal) x2 (ix4 b q t (1 : Fin 4)) = val_main_v403 (F := Ideal) x2 (ix4 b q (0 : Fin 1) (1 : Fin 4)) := by
  rw [val_main_v405_apply]
  exact congrArg (val_main_v403 (F := Ideal) x2) (funext fun a => Fin.ext (by
    match a with
    | ⟨0, _⟩ => rfl
    | ⟨1, _⟩ => rfl
    | ⟨2, _⟩ => rfl
    | ⟨3, _⟩ => rfl))

theorem at_v403_45 : val_main_v403 (F := Ideal) x2 (ix4 b q (0 : Fin 1) (1 : Fin 4)) = x2 (ix3 b q (1 : Fin 4)) := by
  rw [val_main_v403_apply]
  exact congrArg (x2) (funext fun a => Fin.ext (by
    match a with
    | ⟨0, _⟩ => rfl
    | ⟨1, _⟩ => rfl
    | ⟨2, _⟩ => rfl))

theorem at_v406_46 : val_main_v406 (F := Ideal) x3 (ix4 b q t (1 : Fin 4)) = val_main_v404 (F := Ideal) x3 (ix4 b (0 : Fin 1) t (1 : Fin 4)) := by
  rw [val_main_v406_apply]
  exact congrArg (val_main_v404 (F := Ideal) x3) (funext fun a => Fin.ext (by
    match a with
    | ⟨0, _⟩ => rfl
    | ⟨1, _⟩ => rfl
    | ⟨2, _⟩ => rfl
    | ⟨3, _⟩ => rfl))

theorem at_v404_47 : val_main_v404 (F := Ideal) x3 (ix4 b (0 : Fin 1) t (1 : Fin 4)) = x3 (ix3 b t (1 : Fin 4)) := by
  rw [val_main_v404_apply]
  exact congrArg (x3) (funext fun a => Fin.ext (by
    match a with
    | ⟨0, _⟩ => rfl
    | ⟨1, _⟩ => rfl
    | ⟨2, _⟩ => rfl))

theorem at_v405_48 : val_main_v405 (F := Ideal) x2 (ix4 b q t (2 : Fin 4)) = val_main_v403 (F := Ideal) x2 (ix4 b q (0 : Fin 1) (2 : Fin 4)) := by
  rw [val_main_v405_apply]
  exact congrArg (val_main_v403 (F := Ideal) x2) (funext fun a => Fin.ext (by
    match a with
    | ⟨0, _⟩ => rfl
    | ⟨1, _⟩ => rfl
    | ⟨2, _⟩ => rfl
    | ⟨3, _⟩ => rfl))

theorem at_v403_49 : val_main_v403 (F := Ideal) x2 (ix4 b q (0 : Fin 1) (2 : Fin 4)) = x2 (ix3 b q (2 : Fin 4)) := by
  rw [val_main_v403_apply]
  exact congrArg (x2) (funext fun a => Fin.ext (by
    match a with
    | ⟨0, _⟩ => rfl
    | ⟨1, _⟩ => rfl
    | ⟨2, _⟩ => rfl))

theorem at_v406_50 : val_main_v406 (F := Ideal) x3 (ix4 b q t (2 : Fin 4)) = val_main_v404 (F := Ideal) x3 (ix4 b (0 : Fin 1) t (2 : Fin 4)) := by
  rw [val_main_v406_apply]
  exact congrArg (val_main_v404 (F := Ideal) x3) (funext fun a => Fin.ext (by
    match a with
    | ⟨0, _⟩ => rfl
    | ⟨1, _⟩ => rfl
    | ⟨2, _⟩ => rfl
    | ⟨3, _⟩ => rfl))

theorem at_v404_51 : val_main_v404 (F := Ideal) x3 (ix4 b (0 : Fin 1) t (2 : Fin 4)) = x3 (ix3 b t (2 : Fin 4)) := by
  rw [val_main_v404_apply]
  exact congrArg (x3) (funext fun a => Fin.ext (by
    match a with
    | ⟨0, _⟩ => rfl
    | ⟨1, _⟩ => rfl
    | ⟨2, _⟩ => rfl))

theorem at_v405_52 : val_main_v405 (F := Ideal) x2 (ix4 b q t (3 : Fin 4)) = val_main_v403 (F := Ideal) x2 (ix4 b q (0 : Fin 1) (3 : Fin 4)) := by
  rw [val_main_v405_apply]
  exact congrArg (val_main_v403 (F := Ideal) x2) (funext fun a => Fin.ext (by
    match a with
    | ⟨0, _⟩ => rfl
    | ⟨1, _⟩ => rfl
    | ⟨2, _⟩ => rfl
    | ⟨3, _⟩ => rfl))

theorem at_v403_53 : val_main_v403 (F := Ideal) x2 (ix4 b q (0 : Fin 1) (3 : Fin 4)) = x2 (ix3 b q (3 : Fin 4)) := by
  rw [val_main_v403_apply]
  exact congrArg (x2) (funext fun a => Fin.ext (by
    match a with
    | ⟨0, _⟩ => rfl
    | ⟨1, _⟩ => rfl
    | ⟨2, _⟩ => rfl))

theorem at_v406_54 : val_main_v406 (F := Ideal) x3 (ix4 b q t (3 : Fin 4)) = val_main_v404 (F := Ideal) x3 (ix4 b (0 : Fin 1) t (3 : Fin 4)) := by
  rw [val_main_v406_apply]
  exact congrArg (val_main_v404 (F := Ideal) x3) (funext fun a => Fin.ext (by
    match a with
    | ⟨0, _⟩ => rfl
    | ⟨1, _⟩ => rfl
    | ⟨2, _⟩ => rfl
    | ⟨3, _⟩ => rfl))

theorem at_v404_55 : val_main_v404 (F := Ideal) x3 (ix4 b (0 : Fin 1) t (3 : Fin 4)) = x3 (ix3 b t (3 : Fin 4)) := by
  rw [val_main_v404_apply]
  exact congrArg (x3) (funext fun a => Fin.ext (by
    match a with
    | ⟨0, _⟩ => rfl
    | ⟨1, _⟩ => rfl
    | ⟨2, _⟩ => rfl))

theorem idx409 (k : Fin 4) : idx_main_v409 (ix3 b q t) k = ix4 b q t k :=
  funext fun a => Fin.ext (by match a with | ⟨0, _⟩ => rfl | ⟨1, _⟩ => rfl | ⟨2, _⟩ => rfl | ⟨3, _⟩ => rfl)

/-- The L1 distance of the two boxes: the sum over the four coordinates, from zero. -/
theorem l1_apply : val_main_v409 (F := Ideal) x2 x3 (ix3 b q t)
    = Spec.boxL1 (fun j => x2 (ix3 b q j)) (fun j => x3 (ix3 b t j)) := by
  rw [val_main_v409_apply, Fin.sum_univ_four, idx409 b q t 0, idx409 b q t 1, idx409 b q t 2, idx409 b q t 3]
  rw [val_main_v408_apply, val_main_v408_apply, val_main_v408_apply, val_main_v408_apply, val_main_v407_apply, val_main_v407_apply, val_main_v407_apply, val_main_v407_apply, at_v406_42, at_v406_46, at_v406_50, at_v406_54, at_v405_40, at_v405_44, at_v405_48, at_v405_52, at_v404_43, at_v404_47, at_v404_51, at_v404_55, at_v403_41, at_v403_45, at_v403_49, at_v403_53]
  simp only [val_main_cst_128_apply, Ideal.ofBits_def, Ideal.ofBits_zero_f32, zero_add]
  rfl

theorem at_v499_56 : val_main_v499 (F := Ideal) x2 x3 (ix3 b q t) = val_main_v498 (F := Ideal) x2 x3 (ix4 b q t (0 : Fin 1)) := by
  rw [val_main_v499_apply]
  exact congrArg (val_main_v498 (F := Ideal) x2 x3) (funext fun a => Fin.ext (by
    match a with
    | ⟨0, _⟩ => have h_b := b.isLt; have h_q := q.isLt; have h_t := t.isLt; show ((b.val * 300 + q.val) * 300 + t.val) / 90000 = b.val; omega
    | ⟨1, _⟩ => have h_b := b.isLt; have h_q := q.isLt; have h_t := t.isLt; show ((b.val * 300 + q.val) * 300 + t.val) / 300 % 300 = q.val; omega
    | ⟨2, _⟩ => have h_b := b.isLt; have h_q := q.isLt; have h_t := t.isLt; show ((b.val * 300 + q.val) * 300 + t.val) / 1 % 300 = t.val; omega
    | ⟨3, _⟩ => rfl))

theorem at_v498_57 : val_main_v498 (F := Ideal) x2 x3 (ix4 b q t (0 : Fin 1)) = val_main_v497 (F := Ideal) x2 x3 (ix4 b q t (0 : Fin 2)) := by
  rw [val_main_v498_apply]
  exact congrArg (val_main_v497 (F := Ideal) x2 x3) (funext fun a => Fin.ext (by
    match a with
    | ⟨0, _⟩ => rfl
    | ⟨1, _⟩ => rfl
    | ⟨2, _⟩ => rfl
    | ⟨3, _⟩ => rfl))

theorem at_v493_58 : val_main_v493 (F := Ideal) x2 (ix4 b q t (0 : Fin 2)) = val_main_v490 (F := Ideal) x2 (ix4 b q (0 : Fin 1) (0 : Fin 2)) := by
  rw [val_main_v493_apply]
  exact congrArg (val_main_v490 (F := Ideal) x2) (funext fun a => Fin.ext (by
    match a with
    | ⟨0, _⟩ => rfl
    | ⟨1, _⟩ => rfl
    | ⟨2, _⟩ => rfl
    | ⟨3, _⟩ => rfl))

theorem at_v490_59 : val_main_v490 (F := Ideal) x2 (ix4 b q (0 : Fin 1) (0 : Fin 2)) = val_main_v489 (F := Ideal) x2 (ix3 b q (0 : Fin 2)) := by
  rw [val_main_v490_apply]
  exact congrArg (val_main_v489 (F := Ideal) x2) (funext fun a => Fin.ext (by
    match a with
    | ⟨0, _⟩ => rfl
    | ⟨1, _⟩ => rfl
    | ⟨2, _⟩ => rfl))

theorem at_v489_60 : val_main_v489 (F := Ideal) x2 (ix3 b q (0 : Fin 2)) = val_main_v434 (F := Ideal) x2 (ix3 b q (2 : Fin 4)) := by
  rw [val_main_v489_apply]
  exact congrArg (val_main_v434 (F := Ideal) x2) (funext fun a => Fin.ext (by
    match a with
    | ⟨0, _⟩ => rfl
    | ⟨1, _⟩ => rfl
    | ⟨2, _⟩ => show 2 + 0 = 2; omega))

theorem at_v494_61 : val_main_v494 (F := Ideal) x3 (ix4 b q t (0 : Fin 2)) = val_main_v492 (F := Ideal) x3 (ix4 b (0 : Fin 1) t (0 : Fin 2)) := by
  rw [val_main_v494_apply]
  exact congrArg (val_main_v492 (F := Ideal) x3) (funext fun a => Fin.ext (by
    match a with
    | ⟨0, _⟩ => rfl
    | ⟨1, _⟩ => rfl
    | ⟨2, _⟩ => rfl
    | ⟨3, _⟩ => rfl))

theorem at_v492_62 : val_main_v492 (F := Ideal) x3 (ix4 b (0 : Fin 1) t (0 : Fin 2)) = val_main_v491 (F := Ideal) x3 (ix3 b t (0 : Fin 2)) := by
  rw [val_main_v492_apply]
  exact congrArg (val_main_v491 (F := Ideal) x3) (funext fun a => Fin.ext (by
    match a with
    | ⟨0, _⟩ => rfl
    | ⟨1, _⟩ => rfl
    | ⟨2, _⟩ => rfl))

theorem at_v491_63 : val_main_v491 (F := Ideal) x3 (ix3 b t (0 : Fin 2)) = val_main_v459 (F := Ideal) x3 (ix3 b t (2 : Fin 4)) := by
  rw [val_main_v491_apply]
  exact congrArg (val_main_v459 (F := Ideal) x3) (funext fun a => Fin.ext (by
    match a with
    | ⟨0, _⟩ => rfl
    | ⟨1, _⟩ => rfl
    | ⟨2, _⟩ => show 2 + 0 = 2; omega))

theorem at_v486_64 : val_main_v486 (F := Ideal) x2 (ix4 b q t (0 : Fin 2)) = val_main_v483 (F := Ideal) x2 (ix4 b q (0 : Fin 1) (0 : Fin 2)) := by
  rw [val_main_v486_apply]
  exact congrArg (val_main_v483 (F := Ideal) x2) (funext fun a => Fin.ext (by
    match a with
    | ⟨0, _⟩ => rfl
    | ⟨1, _⟩ => rfl
    | ⟨2, _⟩ => rfl
    | ⟨3, _⟩ => rfl))

theorem at_v483_65 : val_main_v483 (F := Ideal) x2 (ix4 b q (0 : Fin 1) (0 : Fin 2)) = val_main_v482 (F := Ideal) x2 (ix3 b q (0 : Fin 2)) := by
  rw [val_main_v483_apply]
  exact congrArg (val_main_v482 (F := Ideal) x2) (funext fun a => Fin.ext (by
    match a with
    | ⟨0, _⟩ => rfl
    | ⟨1, _⟩ => rfl
    | ⟨2, _⟩ => rfl))

theorem at_v482_66 : val_main_v482 (F := Ideal) x2 (ix3 b q (0 : Fin 2)) = val_main_v434 (F := Ideal) x2 (ix3 b q (0 : Fin 4)) := by
  rw [val_main_v482_apply]
  exact congrArg (val_main_v434 (F := Ideal) x2) (funext fun a => Fin.ext (by
    match a with
    | ⟨0, _⟩ => rfl
    | ⟨1, _⟩ => rfl
    | ⟨2, _⟩ => rfl))

theorem at_v487_67 : val_main_v487 (F := Ideal) x3 (ix4 b q t (0 : Fin 2)) = val_main_v485 (F := Ideal) x3 (ix4 b (0 : Fin 1) t (0 : Fin 2)) := by
  rw [val_main_v487_apply]
  exact congrArg (val_main_v485 (F := Ideal) x3) (funext fun a => Fin.ext (by
    match a with
    | ⟨0, _⟩ => rfl
    | ⟨1, _⟩ => rfl
    | ⟨2, _⟩ => rfl
    | ⟨3, _⟩ => rfl))

theorem at_v485_68 : val_main_v485 (F := Ideal) x3 (ix4 b (0 : Fin 1) t (0 : Fin 2)) = val_main_v484 (F := Ideal) x3 (ix3 b t (0 : Fin 2)) := by
  rw [val_main_v485_apply]
  exact congrArg (val_main_v484 (F := Ideal) x3) (funext fun a => Fin.ext (by
    match a with
    | ⟨0, _⟩ => rfl
    | ⟨1, _⟩ => rfl
    | ⟨2, _⟩ => rfl))

theorem at_v484_69 : val_main_v484 (F := Ideal) x3 (ix3 b t (0 : Fin 2)) = val_main_v459 (F := Ideal) x3 (ix3 b t (0 : Fin 4)) := by
  rw [val_main_v484_apply]
  exact congrArg (val_main_v459 (F := Ideal) x3) (funext fun a => Fin.ext (by
    match a with
    | ⟨0, _⟩ => rfl
    | ⟨1, _⟩ => rfl
    | ⟨2, _⟩ => rfl))

theorem at_v501_70 : val_main_v501 (F := Ideal) x2 x3 (ix3 b q t) = val_main_v500 (F := Ideal) x2 x3 (ix4 b q t (0 : Fin 1)) := by
  rw [val_main_v501_apply]
  exact congrArg (val_main_v500 (F := Ideal) x2 x3) (funext fun a => Fin.ext (by
    match a with
    | ⟨0, _⟩ => have h_b := b.isLt; have h_q := q.isLt; have h_t := t.isLt; show ((b.val * 300 + q.val) * 300 + t.val) / 90000 = b.val; omega
    | ⟨1, _⟩ => have h_b := b.isLt; have h_q := q.isLt; have h_t := t.isLt; show ((b.val * 300 + q.val) * 300 + t.val) / 300 % 300 = q.val; omega
    | ⟨2, _⟩ => have h_b := b.isLt; have h_q := q.isLt; have h_t := t.isLt; show ((b.val * 300 + q.val) * 300 + t.val) / 1 % 300 = t.val; omega
    | ⟨3, _⟩ => rfl))

theorem at_v500_71 : val_main_v500 (F := Ideal) x2 x3 (ix4 b q t (0 : Fin 1)) = val_main_v497 (F := Ideal) x2 x3 (ix4 b q t (1 : Fin 2)) := by
  rw [val_main_v500_apply]
  exact congrArg (val_main_v497 (F := Ideal) x2 x3) (funext fun a => Fin.ext (by
    match a with
    | ⟨0, _⟩ => rfl
    | ⟨1, _⟩ => rfl
    | ⟨2, _⟩ => rfl
    | ⟨3, _⟩ => show 1 + 0 = 1; omega))

theorem at_v493_72 : val_main_v493 (F := Ideal) x2 (ix4 b q t (1 : Fin 2)) = val_main_v490 (F := Ideal) x2 (ix4 b q (0 : Fin 1) (1 : Fin 2)) := by
  rw [val_main_v493_apply]
  exact congrArg (val_main_v490 (F := Ideal) x2) (funext fun a => Fin.ext (by
    match a with
    | ⟨0, _⟩ => rfl
    | ⟨1, _⟩ => rfl
    | ⟨2, _⟩ => rfl
    | ⟨3, _⟩ => rfl))

theorem at_v490_73 : val_main_v490 (F := Ideal) x2 (ix4 b q (0 : Fin 1) (1 : Fin 2)) = val_main_v489 (F := Ideal) x2 (ix3 b q (1 : Fin 2)) := by
  rw [val_main_v490_apply]
  exact congrArg (val_main_v489 (F := Ideal) x2) (funext fun a => Fin.ext (by
    match a with
    | ⟨0, _⟩ => rfl
    | ⟨1, _⟩ => rfl
    | ⟨2, _⟩ => rfl))

theorem at_v489_74 : val_main_v489 (F := Ideal) x2 (ix3 b q (1 : Fin 2)) = val_main_v434 (F := Ideal) x2 (ix3 b q (3 : Fin 4)) := by
  rw [val_main_v489_apply]
  exact congrArg (val_main_v434 (F := Ideal) x2) (funext fun a => Fin.ext (by
    match a with
    | ⟨0, _⟩ => rfl
    | ⟨1, _⟩ => rfl
    | ⟨2, _⟩ => show 2 + 1 = 3; omega))

theorem at_v494_75 : val_main_v494 (F := Ideal) x3 (ix4 b q t (1 : Fin 2)) = val_main_v492 (F := Ideal) x3 (ix4 b (0 : Fin 1) t (1 : Fin 2)) := by
  rw [val_main_v494_apply]
  exact congrArg (val_main_v492 (F := Ideal) x3) (funext fun a => Fin.ext (by
    match a with
    | ⟨0, _⟩ => rfl
    | ⟨1, _⟩ => rfl
    | ⟨2, _⟩ => rfl
    | ⟨3, _⟩ => rfl))

theorem at_v492_76 : val_main_v492 (F := Ideal) x3 (ix4 b (0 : Fin 1) t (1 : Fin 2)) = val_main_v491 (F := Ideal) x3 (ix3 b t (1 : Fin 2)) := by
  rw [val_main_v492_apply]
  exact congrArg (val_main_v491 (F := Ideal) x3) (funext fun a => Fin.ext (by
    match a with
    | ⟨0, _⟩ => rfl
    | ⟨1, _⟩ => rfl
    | ⟨2, _⟩ => rfl))

theorem at_v491_77 : val_main_v491 (F := Ideal) x3 (ix3 b t (1 : Fin 2)) = val_main_v459 (F := Ideal) x3 (ix3 b t (3 : Fin 4)) := by
  rw [val_main_v491_apply]
  exact congrArg (val_main_v459 (F := Ideal) x3) (funext fun a => Fin.ext (by
    match a with
    | ⟨0, _⟩ => rfl
    | ⟨1, _⟩ => rfl
    | ⟨2, _⟩ => show 2 + 1 = 3; omega))

theorem at_v486_78 : val_main_v486 (F := Ideal) x2 (ix4 b q t (1 : Fin 2)) = val_main_v483 (F := Ideal) x2 (ix4 b q (0 : Fin 1) (1 : Fin 2)) := by
  rw [val_main_v486_apply]
  exact congrArg (val_main_v483 (F := Ideal) x2) (funext fun a => Fin.ext (by
    match a with
    | ⟨0, _⟩ => rfl
    | ⟨1, _⟩ => rfl
    | ⟨2, _⟩ => rfl
    | ⟨3, _⟩ => rfl))

theorem at_v483_79 : val_main_v483 (F := Ideal) x2 (ix4 b q (0 : Fin 1) (1 : Fin 2)) = val_main_v482 (F := Ideal) x2 (ix3 b q (1 : Fin 2)) := by
  rw [val_main_v483_apply]
  exact congrArg (val_main_v482 (F := Ideal) x2) (funext fun a => Fin.ext (by
    match a with
    | ⟨0, _⟩ => rfl
    | ⟨1, _⟩ => rfl
    | ⟨2, _⟩ => rfl))

theorem at_v482_80 : val_main_v482 (F := Ideal) x2 (ix3 b q (1 : Fin 2)) = val_main_v434 (F := Ideal) x2 (ix3 b q (1 : Fin 4)) := by
  rw [val_main_v482_apply]
  exact congrArg (val_main_v434 (F := Ideal) x2) (funext fun a => Fin.ext (by
    match a with
    | ⟨0, _⟩ => rfl
    | ⟨1, _⟩ => rfl
    | ⟨2, _⟩ => rfl))

theorem at_v487_81 : val_main_v487 (F := Ideal) x3 (ix4 b q t (1 : Fin 2)) = val_main_v485 (F := Ideal) x3 (ix4 b (0 : Fin 1) t (1 : Fin 2)) := by
  rw [val_main_v487_apply]
  exact congrArg (val_main_v485 (F := Ideal) x3) (funext fun a => Fin.ext (by
    match a with
    | ⟨0, _⟩ => rfl
    | ⟨1, _⟩ => rfl
    | ⟨2, _⟩ => rfl
    | ⟨3, _⟩ => rfl))

theorem at_v485_82 : val_main_v485 (F := Ideal) x3 (ix4 b (0 : Fin 1) t (1 : Fin 2)) = val_main_v484 (F := Ideal) x3 (ix3 b t (1 : Fin 2)) := by
  rw [val_main_v485_apply]
  exact congrArg (val_main_v484 (F := Ideal) x3) (funext fun a => Fin.ext (by
    match a with
    | ⟨0, _⟩ => rfl
    | ⟨1, _⟩ => rfl
    | ⟨2, _⟩ => rfl))

theorem at_v484_83 : val_main_v484 (F := Ideal) x3 (ix3 b t (1 : Fin 2)) = val_main_v459 (F := Ideal) x3 (ix3 b t (1 : Fin 4)) := by
  rw [val_main_v484_apply]
  exact congrArg (val_main_v459 (F := Ideal) x3) (funext fun a => Fin.ext (by
    match a with
    | ⟨0, _⟩ => rfl
    | ⟨1, _⟩ => rfl
    | ⟨2, _⟩ => rfl))

theorem at_v505_84 : val_main_v505 (F := Ideal) x2 (ix3 b q t) = val_main_v503 (F := Ideal) x2 (ix3 b q (0 : Fin 1)) := by
  rw [val_main_v505_apply]
  exact congrArg (val_main_v503 (F := Ideal) x2) (funext fun a => Fin.ext (by
    match a with
    | ⟨0, _⟩ => rfl
    | ⟨1, _⟩ => rfl
    | ⟨2, _⟩ => rfl))

theorem at_v503_85 : val_main_v503 (F := Ideal) x2 (ix3 b q (0 : Fin 1)) = val_main_v470 (F := Ideal) x2 (ix2 b q) := by
  rw [val_main_v503_apply]
  exact congrArg (val_main_v470 (F := Ideal) x2) (funext fun a => Fin.ext (by
    match a with
    | ⟨0, _⟩ => rfl
    | ⟨1, _⟩ => rfl))

theorem at_v461_86 : val_main_v461 (F := Ideal) x2 (ix2 b q) = val_main_v460 (F := Ideal) x2 (ix3 b q (0 : Fin 1)) := by
  rw [val_main_v461_apply]
  exact congrArg (val_main_v460 (F := Ideal) x2) (funext fun a => Fin.ext (by
    match a with
    | ⟨0, _⟩ => have h_b := b.isLt; have h_q := q.isLt; show (b.val * 300 + q.val) / 300 = b.val; omega
    | ⟨1, _⟩ => have h_b := b.isLt; have h_q := q.isLt; show (b.val * 300 + q.val) / 1 % 300 = q.val; omega
    | ⟨2, _⟩ => rfl))

theorem at_v460_87 : val_main_v460 (F := Ideal) x2 (ix3 b q (0 : Fin 1)) = val_main_v434 (F := Ideal) x2 (ix3 b q (2 : Fin 4)) := by
  rw [val_main_v460_apply]
  exact congrArg (val_main_v434 (F := Ideal) x2) (funext fun a => Fin.ext (by
    match a with
    | ⟨0, _⟩ => rfl
    | ⟨1, _⟩ => rfl
    | ⟨2, _⟩ => show 2 + 0 = 2; omega))

theorem at_v463_88 : val_main_v463 (F := Ideal) x2 (ix2 b q) = val_main_v462 (F := Ideal) x2 (ix3 b q (0 : Fin 1)) := by
  rw [val_main_v463_apply]
  exact congrArg (val_main_v462 (F := Ideal) x2) (funext fun a => Fin.ext (by
    match a with
    | ⟨0, _⟩ => have h_b := b.isLt; have h_q := q.isLt; show (b.val * 300 + q.val) / 300 = b.val; omega
    | ⟨1, _⟩ => have h_b := b.isLt; have h_q := q.isLt; show (b.val * 300 + q.val) / 1 % 300 = q.val; omega
    | ⟨2, _⟩ => rfl))

theorem at_v462_89 : val_main_v462 (F := Ideal) x2 (ix3 b q (0 : Fin 1)) = val_main_v434 (F := Ideal) x2 (ix3 b q (0 : Fin 4)) := by
  rw [val_main_v462_apply]
  exact congrArg (val_main_v434 (F := Ideal) x2) (funext fun a => Fin.ext (by
    match a with
    | ⟨0, _⟩ => rfl
    | ⟨1, _⟩ => rfl
    | ⟨2, _⟩ => rfl))

theorem at_v466_90 : val_main_v466 (F := Ideal) x2 (ix2 b q) = val_main_v465 (F := Ideal) x2 (ix3 b q (0 : Fin 1)) := by
  rw [val_main_v466_apply]
  exact congrArg (val_main_v465 (F := Ideal) x2) (funext fun a => Fin.ext (by
    match a with
    | ⟨0, _⟩ => have h_b := b.isLt; have h_q := q.isLt; show (b.val * 300 + q.val) / 300 = b.val; omega
    | ⟨1, _⟩ => have h_b := b.isLt; have h_q := q.isLt; show (b.val * 300 + q.val) / 1 % 300 = q.val; omega
    | ⟨2, _⟩ => rfl))

theorem at_v465_91 : val_main_v465 (F := Ideal) x2 (ix3 b q (0 : Fin 1)) = val_main_v434 (F := Ideal) x2 (ix3 b q (3 : Fin 4)) := by
  rw [val_main_v465_apply]
  exact congrArg (val_main_v434 (F := Ideal) x2) (funext fun a => Fin.ext (by
    match a with
    | ⟨0, _⟩ => rfl
    | ⟨1, _⟩ => rfl
    | ⟨2, _⟩ => show 3 + 0 = 3; omega))

theorem at_v468_92 : val_main_v468 (F := Ideal) x2 (ix2 b q) = val_main_v467 (F := Ideal) x2 (ix3 b q (0 : Fin 1)) := by
  rw [val_main_v468_apply]
  exact congrArg (val_main_v467 (F := Ideal) x2) (funext fun a => Fin.ext (by
    match a with
    | ⟨0, _⟩ => have h_b := b.isLt; have h_q := q.isLt; show (b.val * 300 + q.val) / 300 = b.val; omega
    | ⟨1, _⟩ => have h_b := b.isLt; have h_q := q.isLt; show (b.val * 300 + q.val) / 1 % 300 = q.val; omega
    | ⟨2, _⟩ => rfl))

theorem at_v467_93 : val_main_v467 (F := Ideal) x2 (ix3 b q (0 : Fin 1)) = val_main_v434 (F := Ideal) x2 (ix3 b q (1 : Fin 4)) := by
  rw [val_main_v467_apply]
  exact congrArg (val_main_v434 (F := Ideal) x2) (funext fun a => Fin.ext (by
    match a with
    | ⟨0, _⟩ => rfl
    | ⟨1, _⟩ => rfl
    | ⟨2, _⟩ => show 1 + 0 = 1; omega))

theorem at_v506_94 : val_main_v506 (F := Ideal) x3 (ix3 b q t) = val_main_v504 (F := Ideal) x3 (ix3 b (0 : Fin 1) t) := by
  rw [val_main_v506_apply]
  exact congrArg (val_main_v504 (F := Ideal) x3) (funext fun a => Fin.ext (by
    match a with
    | ⟨0, _⟩ => rfl
    | ⟨1, _⟩ => rfl
    | ⟨2, _⟩ => rfl))

theorem at_v504_95 : val_main_v504 (F := Ideal) x3 (ix3 b (0 : Fin 1) t) = val_main_v481 (F := Ideal) x3 (ix2 b t) := by
  rw [val_main_v504_apply]
  exact congrArg (val_main_v481 (F := Ideal) x3) (funext fun a => Fin.ext (by
    match a with
    | ⟨0, _⟩ => rfl
    | ⟨1, _⟩ => rfl))

theorem at_v472_96 : val_main_v472 (F := Ideal) x3 (ix2 b t) = val_main_v471 (F := Ideal) x3 (ix3 b t (0 : Fin 1)) := by
  rw [val_main_v472_apply]
  exact congrArg (val_main_v471 (F := Ideal) x3) (funext fun a => Fin.ext (by
    match a with
    | ⟨0, _⟩ => have h_b := b.isLt; have h_t := t.isLt; show (b.val * 300 + t.val) / 300 = b.val; omega
    | ⟨1, _⟩ => have h_b := b.isLt; have h_t := t.isLt; show (b.val * 300 + t.val) / 1 % 300 = t.val; omega
    | ⟨2, _⟩ => rfl))

theorem at_v471_97 : val_main_v471 (F := Ideal) x3 (ix3 b t (0 : Fin 1)) = val_main_v459 (F := Ideal) x3 (ix3 b t (2 : Fin 4)) := by
  rw [val_main_v471_apply]
  exact congrArg (val_main_v459 (F := Ideal) x3) (funext fun a => Fin.ext (by
    match a with
    | ⟨0, _⟩ => rfl
    | ⟨1, _⟩ => rfl
    | ⟨2, _⟩ => show 2 + 0 = 2; omega))

theorem at_v474_98 : val_main_v474 (F := Ideal) x3 (ix2 b t) = val_main_v473 (F := Ideal) x3 (ix3 b t (0 : Fin 1)) := by
  rw [val_main_v474_apply]
  exact congrArg (val_main_v473 (F := Ideal) x3) (funext fun a => Fin.ext (by
    match a with
    | ⟨0, _⟩ => have h_b := b.isLt; have h_t := t.isLt; show (b.val * 300 + t.val) / 300 = b.val; omega
    | ⟨1, _⟩ => have h_b := b.isLt; have h_t := t.isLt; show (b.val * 300 + t.val) / 1 % 300 = t.val; omega
    | ⟨2, _⟩ => rfl))

theorem at_v473_99 : val_main_v473 (F := Ideal) x3 (ix3 b t (0 : Fin 1)) = val_main_v459 (F := Ideal) x3 (ix3 b t (0 : Fin 4)) := by
  rw [val_main_v473_apply]
  exact congrArg (val_main_v459 (F := Ideal) x3) (funext fun a => Fin.ext (by
    match a with
    | ⟨0, _⟩ => rfl
    | ⟨1, _⟩ => rfl
    | ⟨2, _⟩ => rfl))

theorem at_v477_100 : val_main_v477 (F := Ideal) x3 (ix2 b t) = val_main_v476 (F := Ideal) x3 (ix3 b t (0 : Fin 1)) := by
  rw [val_main_v477_apply]
  exact congrArg (val_main_v476 (F := Ideal) x3) (funext fun a => Fin.ext (by
    match a with
    | ⟨0, _⟩ => have h_b := b.isLt; have h_t := t.isLt; show (b.val * 300 + t.val) / 300 = b.val; omega
    | ⟨1, _⟩ => have h_b := b.isLt; have h_t := t.isLt; show (b.val * 300 + t.val) / 1 % 300 = t.val; omega
    | ⟨2, _⟩ => rfl))

theorem at_v476_101 : val_main_v476 (F := Ideal) x3 (ix3 b t (0 : Fin 1)) = val_main_v459 (F := Ideal) x3 (ix3 b t (3 : Fin 4)) := by
  rw [val_main_v476_apply]
  exact congrArg (val_main_v459 (F := Ideal) x3) (funext fun a => Fin.ext (by
    match a with
    | ⟨0, _⟩ => rfl
    | ⟨1, _⟩ => rfl
    | ⟨2, _⟩ => show 3 + 0 = 3; omega))

theorem at_v479_102 : val_main_v479 (F := Ideal) x3 (ix2 b t) = val_main_v478 (F := Ideal) x3 (ix3 b t (0 : Fin 1)) := by
  rw [val_main_v479_apply]
  exact congrArg (val_main_v478 (F := Ideal) x3) (funext fun a => Fin.ext (by
    match a with
    | ⟨0, _⟩ => have h_b := b.isLt; have h_t := t.isLt; show (b.val * 300 + t.val) / 300 = b.val; omega
    | ⟨1, _⟩ => have h_b := b.isLt; have h_t := t.isLt; show (b.val * 300 + t.val) / 1 % 300 = t.val; omega
    | ⟨2, _⟩ => rfl))

theorem at_v478_103 : val_main_v478 (F := Ideal) x3 (ix3 b t (0 : Fin 1)) = val_main_v459 (F := Ideal) x3 (ix3 b t (1 : Fin 4)) := by
  rw [val_main_v478_apply]
  exact congrArg (val_main_v459 (F := Ideal) x3) (funext fun a => Fin.ext (by
    match a with
    | ⟨0, _⟩ => rfl
    | ⟨1, _⟩ => rfl
    | ⟨2, _⟩ => show 1 + 0 = 1; omega))

theorem at_v527_104 : val_main_v527 (F := Ideal) x2 x3 (ix3 b q t) = val_main_v526 (F := Ideal) x2 x3 (ix4 b q t (0 : Fin 1)) := by
  rw [val_main_v527_apply]
  exact congrArg (val_main_v526 (F := Ideal) x2 x3) (funext fun a => Fin.ext (by
    match a with
    | ⟨0, _⟩ => have h_b := b.isLt; have h_q := q.isLt; have h_t := t.isLt; show ((b.val * 300 + q.val) * 300 + t.val) / 90000 = b.val; omega
    | ⟨1, _⟩ => have h_b := b.isLt; have h_q := q.isLt; have h_t := t.isLt; show ((b.val * 300 + q.val) * 300 + t.val) / 300 % 300 = q.val; omega
    | ⟨2, _⟩ => have h_b := b.isLt; have h_q := q.isLt; have h_t := t.isLt; show ((b.val * 300 + q.val) * 300 + t.val) / 1 % 300 = t.val; omega
    | ⟨3, _⟩ => rfl))

theorem at_v526_105 : val_main_v526 (F := Ideal) x2 x3 (ix4 b q t (0 : Fin 1)) = val_main_v525 (F := Ideal) x2 x3 (ix4 b q t (0 : Fin 2)) := by
  rw [val_main_v526_apply]
  exact congrArg (val_main_v525 (F := Ideal) x2 x3) (funext fun a => Fin.ext (by
    match a with
    | ⟨0, _⟩ => rfl
    | ⟨1, _⟩ => rfl
    | ⟨2, _⟩ => rfl
    | ⟨3, _⟩ => rfl))

theorem at_v521_106 : val_main_v521 (F := Ideal) x2 (ix4 b q t (0 : Fin 2)) = val_main_v518 (F := Ideal) x2 (ix4 b q (0 : Fin 1) (0 : Fin 2)) := by
  rw [val_main_v521_apply]
  exact congrArg (val_main_v518 (F := Ideal) x2) (funext fun a => Fin.ext (by
    match a with
    | ⟨0, _⟩ => rfl
    | ⟨1, _⟩ => rfl
    | ⟨2, _⟩ => rfl
    | ⟨3, _⟩ => rfl))

theorem at_v518_107 : val_main_v518 (F := Ideal) x2 (ix4 b q (0 : Fin 1) (0 : Fin 2)) = val_main_v517 (F := Ideal) x2 (ix3 b q (0 : Fin 2)) := by
  rw [val_main_v518_apply]
  exact congrArg (val_main_v517 (F := Ideal) x2) (funext fun a => Fin.ext (by
    match a with
    | ⟨0, _⟩ => rfl
    | ⟨1, _⟩ => rfl
    | ⟨2, _⟩ => rfl))

theorem at_v517_108 : val_main_v517 (F := Ideal) x2 (ix3 b q (0 : Fin 2)) = val_main_v434 (F := Ideal) x2 (ix3 b q (2 : Fin 4)) := by
  rw [val_main_v517_apply]
  exact congrArg (val_main_v434 (F := Ideal) x2) (funext fun a => Fin.ext (by
    match a with
    | ⟨0, _⟩ => rfl
    | ⟨1, _⟩ => rfl
    | ⟨2, _⟩ => show 2 + 0 = 2; omega))

theorem at_v522_109 : val_main_v522 (F := Ideal) x3 (ix4 b q t (0 : Fin 2)) = val_main_v520 (F := Ideal) x3 (ix4 b (0 : Fin 1) t (0 : Fin 2)) := by
  rw [val_main_v522_apply]
  exact congrArg (val_main_v520 (F := Ideal) x3) (funext fun a => Fin.ext (by
    match a with
    | ⟨0, _⟩ => rfl
    | ⟨1, _⟩ => rfl
    | ⟨2, _⟩ => rfl
    | ⟨3, _⟩ => rfl))

theorem at_v520_110 : val_main_v520 (F := Ideal) x3 (ix4 b (0 : Fin 1) t (0 : Fin 2)) = val_main_v519 (F := Ideal) x3 (ix3 b t (0 : Fin 2)) := by
  rw [val_main_v520_apply]
  exact congrArg (val_main_v519 (F := Ideal) x3) (funext fun a => Fin.ext (by
    match a with
    | ⟨0, _⟩ => rfl
    | ⟨1, _⟩ => rfl
    | ⟨2, _⟩ => rfl))

theorem at_v519_111 : val_main_v519 (F := Ideal) x3 (ix3 b t (0 : Fin 2)) = val_main_v459 (F := Ideal) x3 (ix3 b t (2 : Fin 4)) := by
  rw [val_main_v519_apply]
  exact congrArg (val_main_v459 (F := Ideal) x3) (funext fun a => Fin.ext (by
    match a with
    | ⟨0, _⟩ => rfl
    | ⟨1, _⟩ => rfl
    | ⟨2, _⟩ => show 2 + 0 = 2; omega))

theorem at_v514_112 : val_main_v514 (F := Ideal) x2 (ix4 b q t (0 : Fin 2)) = val_main_v511 (F := Ideal) x2 (ix4 b q (0 : Fin 1) (0 : Fin 2)) := by
  rw [val_main_v514_apply]
  exact congrArg (val_main_v511 (F := Ideal) x2) (funext fun a => Fin.ext (by
    match a with
    | ⟨0, _⟩ => rfl
    | ⟨1, _⟩ => rfl
    | ⟨2, _⟩ => rfl
    | ⟨3, _⟩ => rfl))

theorem at_v511_113 : val_main_v511 (F := Ideal) x2 (ix4 b q (0 : Fin 1) (0 : Fin 2)) = val_main_v510 (F := Ideal) x2 (ix3 b q (0 : Fin 2)) := by
  rw [val_main_v511_apply]
  exact congrArg (val_main_v510 (F := Ideal) x2) (funext fun a => Fin.ext (by
    match a with
    | ⟨0, _⟩ => rfl
    | ⟨1, _⟩ => rfl
    | ⟨2, _⟩ => rfl))

theorem at_v510_114 : val_main_v510 (F := Ideal) x2 (ix3 b q (0 : Fin 2)) = val_main_v434 (F := Ideal) x2 (ix3 b q (0 : Fin 4)) := by
  rw [val_main_v510_apply]
  exact congrArg (val_main_v434 (F := Ideal) x2) (funext fun a => Fin.ext (by
    match a with
    | ⟨0, _⟩ => rfl
    | ⟨1, _⟩ => rfl
    | ⟨2, _⟩ => rfl))

theorem at_v515_115 : val_main_v515 (F := Ideal) x3 (ix4 b q t (0 : Fin 2)) = val_main_v513 (F := Ideal) x3 (ix4 b (0 : Fin 1) t (0 : Fin 2)) := by
  rw [val_main_v515_apply]
  exact congrArg (val_main_v513 (F := Ideal) x3) (funext fun a => Fin.ext (by
    match a with
    | ⟨0, _⟩ => rfl
    | ⟨1, _⟩ => rfl
    | ⟨2, _⟩ => rfl
    | ⟨3, _⟩ => rfl))

theorem at_v513_116 : val_main_v513 (F := Ideal) x3 (ix4 b (0 : Fin 1) t (0 : Fin 2)) = val_main_v512 (F := Ideal) x3 (ix3 b t (0 : Fin 2)) := by
  rw [val_main_v513_apply]
  exact congrArg (val_main_v512 (F := Ideal) x3) (funext fun a => Fin.ext (by
    match a with
    | ⟨0, _⟩ => rfl
    | ⟨1, _⟩ => rfl
    | ⟨2, _⟩ => rfl))

theorem at_v512_117 : val_main_v512 (F := Ideal) x3 (ix3 b t (0 : Fin 2)) = val_main_v459 (F := Ideal) x3 (ix3 b t (0 : Fin 4)) := by
  rw [val_main_v512_apply]
  exact congrArg (val_main_v459 (F := Ideal) x3) (funext fun a => Fin.ext (by
    match a with
    | ⟨0, _⟩ => rfl
    | ⟨1, _⟩ => rfl
    | ⟨2, _⟩ => rfl))

theorem at_v529_118 : val_main_v529 (F := Ideal) x2 x3 (ix3 b q t) = val_main_v528 (F := Ideal) x2 x3 (ix4 b q t (0 : Fin 1)) := by
  rw [val_main_v529_apply]
  exact congrArg (val_main_v528 (F := Ideal) x2 x3) (funext fun a => Fin.ext (by
    match a with
    | ⟨0, _⟩ => have h_b := b.isLt; have h_q := q.isLt; have h_t := t.isLt; show ((b.val * 300 + q.val) * 300 + t.val) / 90000 = b.val; omega
    | ⟨1, _⟩ => have h_b := b.isLt; have h_q := q.isLt; have h_t := t.isLt; show ((b.val * 300 + q.val) * 300 + t.val) / 300 % 300 = q.val; omega
    | ⟨2, _⟩ => have h_b := b.isLt; have h_q := q.isLt; have h_t := t.isLt; show ((b.val * 300 + q.val) * 300 + t.val) / 1 % 300 = t.val; omega
    | ⟨3, _⟩ => rfl))

theorem at_v528_119 : val_main_v528 (F := Ideal) x2 x3 (ix4 b q t (0 : Fin 1)) = val_main_v525 (F := Ideal) x2 x3 (ix4 b q t (1 : Fin 2)) := by
  rw [val_main_v528_apply]
  exact congrArg (val_main_v525 (F := Ideal) x2 x3) (funext fun a => Fin.ext (by
    match a with
    | ⟨0, _⟩ => rfl
    | ⟨1, _⟩ => rfl
    | ⟨2, _⟩ => rfl
    | ⟨3, _⟩ => show 1 + 0 = 1; omega))

theorem at_v521_120 : val_main_v521 (F := Ideal) x2 (ix4 b q t (1 : Fin 2)) = val_main_v518 (F := Ideal) x2 (ix4 b q (0 : Fin 1) (1 : Fin 2)) := by
  rw [val_main_v521_apply]
  exact congrArg (val_main_v518 (F := Ideal) x2) (funext fun a => Fin.ext (by
    match a with
    | ⟨0, _⟩ => rfl
    | ⟨1, _⟩ => rfl
    | ⟨2, _⟩ => rfl
    | ⟨3, _⟩ => rfl))

theorem at_v518_121 : val_main_v518 (F := Ideal) x2 (ix4 b q (0 : Fin 1) (1 : Fin 2)) = val_main_v517 (F := Ideal) x2 (ix3 b q (1 : Fin 2)) := by
  rw [val_main_v518_apply]
  exact congrArg (val_main_v517 (F := Ideal) x2) (funext fun a => Fin.ext (by
    match a with
    | ⟨0, _⟩ => rfl
    | ⟨1, _⟩ => rfl
    | ⟨2, _⟩ => rfl))

theorem at_v517_122 : val_main_v517 (F := Ideal) x2 (ix3 b q (1 : Fin 2)) = val_main_v434 (F := Ideal) x2 (ix3 b q (3 : Fin 4)) := by
  rw [val_main_v517_apply]
  exact congrArg (val_main_v434 (F := Ideal) x2) (funext fun a => Fin.ext (by
    match a with
    | ⟨0, _⟩ => rfl
    | ⟨1, _⟩ => rfl
    | ⟨2, _⟩ => show 2 + 1 = 3; omega))

theorem at_v522_123 : val_main_v522 (F := Ideal) x3 (ix4 b q t (1 : Fin 2)) = val_main_v520 (F := Ideal) x3 (ix4 b (0 : Fin 1) t (1 : Fin 2)) := by
  rw [val_main_v522_apply]
  exact congrArg (val_main_v520 (F := Ideal) x3) (funext fun a => Fin.ext (by
    match a with
    | ⟨0, _⟩ => rfl
    | ⟨1, _⟩ => rfl
    | ⟨2, _⟩ => rfl
    | ⟨3, _⟩ => rfl))

theorem at_v520_124 : val_main_v520 (F := Ideal) x3 (ix4 b (0 : Fin 1) t (1 : Fin 2)) = val_main_v519 (F := Ideal) x3 (ix3 b t (1 : Fin 2)) := by
  rw [val_main_v520_apply]
  exact congrArg (val_main_v519 (F := Ideal) x3) (funext fun a => Fin.ext (by
    match a with
    | ⟨0, _⟩ => rfl
    | ⟨1, _⟩ => rfl
    | ⟨2, _⟩ => rfl))

theorem at_v519_125 : val_main_v519 (F := Ideal) x3 (ix3 b t (1 : Fin 2)) = val_main_v459 (F := Ideal) x3 (ix3 b t (3 : Fin 4)) := by
  rw [val_main_v519_apply]
  exact congrArg (val_main_v459 (F := Ideal) x3) (funext fun a => Fin.ext (by
    match a with
    | ⟨0, _⟩ => rfl
    | ⟨1, _⟩ => rfl
    | ⟨2, _⟩ => show 2 + 1 = 3; omega))

theorem at_v514_126 : val_main_v514 (F := Ideal) x2 (ix4 b q t (1 : Fin 2)) = val_main_v511 (F := Ideal) x2 (ix4 b q (0 : Fin 1) (1 : Fin 2)) := by
  rw [val_main_v514_apply]
  exact congrArg (val_main_v511 (F := Ideal) x2) (funext fun a => Fin.ext (by
    match a with
    | ⟨0, _⟩ => rfl
    | ⟨1, _⟩ => rfl
    | ⟨2, _⟩ => rfl
    | ⟨3, _⟩ => rfl))

theorem at_v511_127 : val_main_v511 (F := Ideal) x2 (ix4 b q (0 : Fin 1) (1 : Fin 2)) = val_main_v510 (F := Ideal) x2 (ix3 b q (1 : Fin 2)) := by
  rw [val_main_v511_apply]
  exact congrArg (val_main_v510 (F := Ideal) x2) (funext fun a => Fin.ext (by
    match a with
    | ⟨0, _⟩ => rfl
    | ⟨1, _⟩ => rfl
    | ⟨2, _⟩ => rfl))

theorem at_v510_128 : val_main_v510 (F := Ideal) x2 (ix3 b q (1 : Fin 2)) = val_main_v434 (F := Ideal) x2 (ix3 b q (1 : Fin 4)) := by
  rw [val_main_v510_apply]
  exact congrArg (val_main_v434 (F := Ideal) x2) (funext fun a => Fin.ext (by
    match a with
    | ⟨0, _⟩ => rfl
    | ⟨1, _⟩ => rfl
    | ⟨2, _⟩ => rfl))

theorem at_v515_129 : val_main_v515 (F := Ideal) x3 (ix4 b q t (1 : Fin 2)) = val_main_v513 (F := Ideal) x3 (ix4 b (0 : Fin 1) t (1 : Fin 2)) := by
  rw [val_main_v515_apply]
  exact congrArg (val_main_v513 (F := Ideal) x3) (funext fun a => Fin.ext (by
    match a with
    | ⟨0, _⟩ => rfl
    | ⟨1, _⟩ => rfl
    | ⟨2, _⟩ => rfl
    | ⟨3, _⟩ => rfl))

theorem at_v513_130 : val_main_v513 (F := Ideal) x3 (ix4 b (0 : Fin 1) t (1 : Fin 2)) = val_main_v512 (F := Ideal) x3 (ix3 b t (1 : Fin 2)) := by
  rw [val_main_v513_apply]
  exact congrArg (val_main_v512 (F := Ideal) x3) (funext fun a => Fin.ext (by
    match a with
    | ⟨0, _⟩ => rfl
    | ⟨1, _⟩ => rfl
    | ⟨2, _⟩ => rfl))

theorem at_v512_131 : val_main_v512 (F := Ideal) x3 (ix3 b t (1 : Fin 2)) = val_main_v459 (F := Ideal) x3 (ix3 b t (1 : Fin 4)) := by
  rw [val_main_v512_apply]
  exact congrArg (val_main_v459 (F := Ideal) x3) (funext fun a => Fin.ext (by
    match a with
    | ⟨0, _⟩ => rfl
    | ⟨1, _⟩ => rfl
    | ⟨2, _⟩ => rfl))

/-- The generalised IoU of the two boxes. -/
theorem giou_apply : val_main_v533 (F := Ideal) x2 x3 (ix3 b q t)
    = Spec.giou (fun j => x2 (ix3 b q j)) (fun j => x3 (ix3 b t j)) := by
  rw [val_main_v533_apply, val_main_v532_apply, val_main_v531_apply, val_main_v530_apply, at_v529_118, at_v528_119, at_v527_104, at_v526_105, val_main_v525_apply, val_main_v525_apply, val_main_call19_v1_apply, val_main_call19_v1_apply, val_main_v524_apply, val_main_v524_apply, val_main_v523_apply, val_main_v523_apply, at_v522_109, at_v522_123, at_v521_106, at_v521_120, at_v520_110, at_v520_124, at_v519_111, at_v519_125, at_v518_107, at_v518_121, at_v517_108, at_v517_122, val_main_v516_apply, val_main_v516_apply, at_v515_115, at_v515_129, at_v514_112, at_v514_126, at_v513_116, at_v513_130, at_v512_117, at_v512_131, at_v511_113, at_v511_127, at_v510_114, at_v510_128, val_main_v509_apply, val_main_v508_apply, val_main_v507_apply, at_v506_94, at_v505_84, at_v504_95, at_v503_85, val_main_v502_apply, at_v501_70, at_v500_71, at_v499_56, at_v498_57, val_main_v497_apply, val_main_v497_apply, val_main_call18_v1_apply, val_main_call18_v1_apply, val_main_v496_apply, val_main_v496_apply, val_main_v495_apply, val_main_v495_apply, at_v494_61, at_v494_75, at_v493_58, at_v493_72, at_v492_62, at_v492_76, at_v491_63, at_v491_77, at_v490_59, at_v490_73, at_v489_60, at_v489_74, val_main_v488_apply, val_main_v488_apply, at_v487_67, at_v487_81, at_v486_64, at_v486_78, at_v485_68, at_v485_82, at_v484_69, at_v484_83, at_v483_65, at_v483_79, at_v482_66, at_v482_80, val_main_v481_apply, val_main_v480_apply, at_v479_102, at_v478_103, at_v477_100, at_v476_101, val_main_v475_apply, at_v474_98, at_v473_99, at_v472_96, at_v471_97, val_main_v470_apply, val_main_v469_apply, at_v468_92, at_v467_93, at_v466_90, at_v465_91, val_main_v464_apply, at_v463_88, at_v462_89, at_v461_86, at_v460_87, boxB_2, boxB_0, boxB_3, boxB_1, boxA_2, boxA_0, boxA_3, boxA_1]
  simp only [val_main_call18_v0_apply, val_main_cst_137_apply, val_main_call19_v0_apply, val_main_cst_138_apply]
  rfl

end Cert.RefValue

end
-- ==== Proof.RefWords.lean ====
/-
  Facts about single words and single extended reals that the reading of the reference uses:
  a number is never different from itself, a coordinate clipped into [0, 255] is a non-negative
  signed word (so adding 256 to the negative ones changes nothing).
-/
import proofs.«176196_j77713138253901_2_alg».proof.Proof.Spec
import Idealize.ShloMosaic.Lib.ValueIdx

noncomputable section

namespace Cert.RefValue

open Idealize.ShloMosaic

/-- On the extended reals a number is never different from itself. -/
theorem cmp_une_self (x : EReal) : Ideal.cmp .une x x = 0#1 := by
  simp [Ideal.cmp]

/-- A select guarded by the test "x differs from x" takes its second branch. -/
theorem select_une_self {α : Type} (x : EReal) (a b : α) :
    Scalar.select (FloatOps.cmpf (F := Ideal) (φ := .f32) .une x x) a b = b := by
  show Scalar.select (Ideal.cmp .une x x) a b = b
  rw [cmp_une_self]
  exact ValueIdx.select_zero a b

theorem toInt_zero32 : (0#32 : BitVec 32).toInt = 0 := by decide
theorem toInt_255 : (255#32 : BitVec 32).toInt = 255 := by decide

/-- The clipped coordinate, read as a signed word, lies in [0, 255]. -/
theorem clip255_bounds (v : BitVec 32) :
    0 ≤ (Spec.clip255 v).toInt ∧ (Spec.clip255 v).toInt ≤ 255 := by
  unfold Spec.clip255 IntOp.minsi IntOp.maxsi
  simp only [BitVec.slt, decide_eq_true_eq, toInt_zero32, toInt_255]
  split_ifs with h1 h2 h3 <;> (try simp only [toInt_zero32, toInt_255] at *) <;> omega

/-- A non-negative signed word is not below zero ... -/
theorem cmpi_slt_zero_of_nonneg (c : BitVec 32) (h : 0 ≤ c.toInt) : IntOp.cmpi .slt c 0#32 = 0#1 := by
  unfold IntOp.cmpi
  simp only [BitVec.slt, toInt_zero32]
  have : ¬ c.toInt < 0 := by omega
  simp [this]

/-- ... so the wrap-around of negative positions leaves a clipped coordinate alone. -/
theorem wrap_clip255 (v : BitVec 32) :
    Scalar.select (IntOp.cmpi .slt (Spec.clip255 v) 0#32) (IntOp.addi (Spec.clip255 v) 256#32) (Spec.clip255 v)
      = Spec.clip255 v := by
  rw [cmpi_slt_zero_of_nonneg _ (clip255_bounds v).1]
  exact ValueIdx.select_zero _ _

/-- The same, with the clipping written out as the minimum with 255 of the maximum with 0. -/
theorem wrap_clip (v : BitVec 32) :
    Scalar.select (IntOp.cmpi .slt (IntOp.minsi 255#32 (IntOp.maxsi 0#32 v)) 0#32)
      (IntOp.addi (IntOp.minsi 255#32 (IntOp.maxsi 0#32 v)) 256#32) (IntOp.minsi 255#32 (IntOp.maxsi 0#32 v))
      = Spec.clip255 v :=
  wrap_clip255 v

end Cert.RefValue

end
-- ==== Proof.RefMask.lean ====
/-
  The mask terms of the reference read at an index. From the sampled logits om (2 x 300 x 12544) and the
  sampled targets tm the reference forms, element by element, softplus(-om), softplus(om) and the
  logistic function of om, contracts them against tm and 1 - tm over the points, and sums om's logistic
  and tm over the points. Here each of these is read at (b, q, t): the pointwise chains as the
  specification's functions of one logit, the contractions and sums as sums over the 12544 points.
-/
import proofs.«176196_j77713138253901_2_alg».proof.Proof.RefReadP
import proofs.«176196_j77713138253901_2_alg».proof.Proof.Spec
import Idealize.ShloMosaic.Lib.Pipeline.Value
import Idealize.ShloMosaic.Lib.ValueIdx
import Idealize.ShloMosaic.PureOps.Ideal.Laws
import proofs.«176196_j77713138253901_2_alg».proof.Proof.RefWords

set_option maxHeartbeats 1000000

noncomputable section

namespace Cert.RefValue

open Cert.ReferenceIdeal Cert.ReferenceIdeal.Gen Cert.ReferenceIdeal.ReadP Idealize.ShloMosaic Idealize.ShloMosaic.ValueIdx

variable (x0 x1 : (⟨S2x300x256x256, .f32⟩ : BufTy).Contents (Elt Ideal)) (x4 : (⟨S2x12544x2, .f32⟩ : BufTy).Contents (Elt Ideal))
  (b : Fin 2) (q t : Fin 300)

/-- softplus of the negated logit, element by element (the guard against a value different from itself never fires). -/
theorem pos_apply (i : S2x300x12544.Idx) :
    val_main_v371 (F := Ideal) x0 x4 i = Spec.posR (val_main_v184 (F := Ideal) x0 x4 i) := by
  rw [val_main_v371_apply, val_main_call16_v4_apply, select_une_self, val_main_call16_v11_apply, val_main_call16_v10_apply, val_main_call16_v9_apply,
    val_main_call16_v8_apply, val_main_call16_v7_apply, val_main_call16_v3_apply, val_main_call16_v2_apply, val_main_call16_v1_apply, val_main_call16_v0_apply, val_main_v370_apply]
  simp only [val_main_call16_cst_apply]
  rfl

/-- softplus of the logit, element by element. -/
theorem neg_apply (i : S2x300x12544.Idx) :
    val_main_v372 (F := Ideal) x0 x4 i = Spec.negR (val_main_v184 (F := Ideal) x0 x4 i) := by
  rw [val_main_v372_apply, val_main_call17_v4_apply, select_une_self, val_main_call17_v11_apply, val_main_call17_v10_apply, val_main_call17_v9_apply,
    val_main_call17_v8_apply, val_main_call17_v7_apply, val_main_call17_v3_apply, val_main_call17_v2_apply, val_main_call17_v1_apply, val_main_call17_v0_apply]
  simp only [val_main_call17_cst_apply]
  rfl

/-- The logistic function of the logit, element by element, spelt 1 / (1 + exp (-x)). -/
theorem sig_apply (i : S2x300x12544.Idx) :
    val_main_v385 (F := Ideal) x0 x4 i = Spec.sigR (val_main_v184 (F := Ideal) x0 x4 i) := by
  rw [val_main_v385_apply, val_main_v384_apply, val_main_v383_apply, val_main_v382_apply, val_main_v381_apply,
    val_main_v380_apply]
  simp only [val_main_cst_120_apply, val_main_cst_121_apply]
  rfl

/-- One minus the target, element by element. -/
theorem one_minus_apply (i : S2x300x12544.Idx) :
    val_main_v375 (F := Ideal) x1 x4 i = Spec.c1 - val_main_v369 (F := Ideal) x1 x4 i := by
  rw [val_main_v375_apply, val_main_v374_apply]
  simp only [val_main_cst_118_apply]
  rfl

theorem lidx373 (k : Fin 12544) : lidx_main_v373 (ix3 b q t) k = ix3 b q k :=
  funext fun a => Fin.ext (by match a with | ⟨0, _⟩ => rfl | ⟨1, _⟩ => rfl | ⟨2, _⟩ => rfl)
theorem ridx373 (k : Fin 12544) : ridx_main_v373 (ix3 b q t) k = ix3 b t k :=
  funext fun a => Fin.ext (by match a with | ⟨0, _⟩ => rfl | ⟨1, _⟩ => rfl | ⟨2, _⟩ => rfl)
theorem lidx376 (k : Fin 12544) : lidx_main_v376 (ix3 b q t) k = ix3 b q k :=
  funext fun a => Fin.ext (by match a with | ⟨0, _⟩ => rfl | ⟨1, _⟩ => rfl | ⟨2, _⟩ => rfl)
theorem ridx376 (k : Fin 12544) : ridx_main_v376 (ix3 b q t) k = ix3 b t k :=
  funext fun a => Fin.ext (by match a with | ⟨0, _⟩ => rfl | ⟨1, _⟩ => rfl | ⟨2, _⟩ => rfl)
theorem lidx386 (k : Fin 12544) : lidx_main_v386 (ix3 b q t) k = ix3 b q k :=
  funext fun a => Fin.ext (by match a with | ⟨0, _⟩ => rfl | ⟨1, _⟩ => rfl | ⟨2, _⟩ => rfl)
theorem ridx386 (k : Fin 12544) : ridx_main_v386 (ix3 b q t) k = ix3 b t k :=
  funext fun a => Fin.ext (by match a with | ⟨0, _⟩ => rfl | ⟨1, _⟩ => rfl | ⟨2, _⟩ => rfl)
theorem idx389 (k : Fin 12544) : idx_main_v389 (ix2 b q) k = ix3 b q k :=
  funext fun a => Fin.ext (by match a with | ⟨0, _⟩ => rfl | ⟨1, _⟩ => rfl | ⟨2, _⟩ => rfl)
theorem idx391 (k : Fin 12544) : idx_main_v391 (ix2 b t) k = ix3 b t k :=
  funext fun a => Fin.ext (by match a with | ⟨0, _⟩ => rfl | ⟨1, _⟩ => rfl | ⟨2, _⟩ => rfl)

/-- The cross-entropy cost of the pair (q, t): two contractions over the points, added and divided by the number of points. -/
theorem ce_apply : val_main_v379 (F := Ideal) x0 x1 x4 (ix3 b q t)
    = Ideal.div ((∑ p : Fin 12544, Spec.posR (val_main_v184 (F := Ideal) x0 x4 (ix3 b q p)) * val_main_v369 (F := Ideal) x1 x4 (ix3 b t p))
        + ∑ p : Fin 12544, Spec.negR (val_main_v184 (F := Ideal) x0 x4 (ix3 b q p)) * (Spec.c1 - val_main_v369 (F := Ideal) x1 x4 (ix3 b t p))) Spec.cP := by
  rw [val_main_v379_apply, val_main_v378_apply, val_main_v377_apply, val_main_v376_apply, val_main_v373_apply]
  have s1 : (∑ k : Fin 12544, val_main_v371 (F := Ideal) x0 x4 (lidx_main_v373 (ix3 b q t) k)
        * val_main_v369 (F := Ideal) x1 x4 (ridx_main_v373 (ix3 b q t) k))
      = ∑ p : Fin 12544, Spec.posR (val_main_v184 (F := Ideal) x0 x4 (ix3 b q p)) * val_main_v369 (F := Ideal) x1 x4 (ix3 b t p) :=
    Finset.sum_congr rfl fun k _ => by rw [lidx373, ridx373, pos_apply]
  have s2 : (∑ k : Fin 12544, val_main_v372 (F := Ideal) x0 x4 (lidx_main_v376 (ix3 b q t) k)
        * val_main_v375 (F := Ideal) x1 x4 (ridx_main_v376 (ix3 b q t) k))
      = ∑ p : Fin 12544, Spec.negR (val_main_v184 (F := Ideal) x0 x4 (ix3 b q p)) * (Spec.c1 - val_main_v369 (F := Ideal) x1 x4 (ix3 b t p)) :=
    Finset.sum_congr rfl fun k _ => by rw [lidx376, ridx376, neg_apply, one_minus_apply]
  rw [s1, s2]
  simp only [val_main_cst_119_apply]
  rfl

theorem at_v393_0 : val_main_v393 (F := Ideal) x0 x4 (ix3 b q t) = val_main_v390 (F := Ideal) x0 x4 (ix3 b q (0 : Fin 1)) := by
  rw [val_main_v393_apply]
  exact congrArg (val_main_v390 (F := Ideal) x0 x4) (funext fun a => Fin.ext (by
    match a with
    | ⟨0, _⟩ => rfl
    | ⟨1, _⟩ => rfl
    | ⟨2, _⟩ => rfl))

theorem at_v390_1 : val_main_v390 (F := Ideal) x0 x4 (ix3 b q (0 : Fin 1)) = val_main_v389 (F := Ideal) x0 x4 (ix2 b q) := by
  rw [val_main_v390_apply]
  exact congrArg (val_main_v389 (F := Ideal) x0 x4) (funext fun a => Fin.ext (by
    match a with
    | ⟨0, _⟩ => rfl
    | ⟨1, _⟩ => rfl))

theorem at_v394_2 : val_main_v394 (F := Ideal) x1 x4 (ix3 b q t) = val_main_v392 (F := Ideal) x1 x4 (ix3 b (0 : Fin 1) t) := by
  rw [val_main_v394_apply]
  exact congrArg (val_main_v392 (F := Ideal) x1 x4) (funext fun a => Fin.ext (by
    match a with
    | ⟨0, _⟩ => rfl
    | ⟨1, _⟩ => rfl
    | ⟨2, _⟩ => rfl))

theorem at_v392_3 : val_main_v392 (F := Ideal) x1 x4 (ix3 b (0 : Fin 1) t) = val_main_v391 (F := Ideal) x1 x4 (ix2 b t) := by
  rw [val_main_v392_apply]
  exact congrArg (val_main_v391 (F := Ideal) x1 x4) (funext fun a => Fin.ext (by
    match a with
    | ⟨0, _⟩ => rfl
    | ⟨1, _⟩ => rfl))

/-- The dice cost of the pair (q, t) from the three sums over the points. -/
theorem dice_apply : val_main_v402 (F := Ideal) x0 x1 x4 (ix3 b q t)
    = Spec.diceCost (∑ p : Fin 12544, Spec.sigR (val_main_v184 (F := Ideal) x0 x4 (ix3 b q p)) * val_main_v369 (F := Ideal) x1 x4 (ix3 b t p))
        (∑ p : Fin 12544, Spec.sigR (val_main_v184 (F := Ideal) x0 x4 (ix3 b q p))) (∑ p : Fin 12544, val_main_v369 (F := Ideal) x1 x4 (ix3 b t p)) := by
  rw [val_main_v402_apply, val_main_v401_apply, val_main_v400_apply, val_main_v399_apply, val_main_v398_apply,
    val_main_v397_apply, val_main_v396_apply, val_main_v395_apply, at_v394_2, at_v393_0, at_v392_3, at_v390_1,
    val_main_v391_apply, val_main_v389_apply, val_main_v388_apply, val_main_v387_apply, val_main_v386_apply]
  have s1 : (∑ k : Fin 12544, val_main_v385 (F := Ideal) x0 x4 (lidx_main_v386 (ix3 b q t) k)
        * val_main_v369 (F := Ideal) x1 x4 (ridx_main_v386 (ix3 b q t) k))
      = ∑ p : Fin 12544, Spec.sigR (val_main_v184 (F := Ideal) x0 x4 (ix3 b q p)) * val_main_v369 (F := Ideal) x1 x4 (ix3 b t p) :=
    Finset.sum_congr rfl fun k _ => by rw [lidx386, ridx386, sig_apply]
  have s2 : (∑ k : Fin 12544, val_main_v385 (F := Ideal) x0 x4 (idx_main_v389 (ix2 b q) k))
      = ∑ p : Fin 12544, Spec.sigR (val_main_v184 (F := Ideal) x0 x4 (ix3 b q p)) :=
    Finset.sum_congr rfl fun k _ => by rw [idx389, sig_apply]
  have s3 : (∑ k : Fin 12544, val_main_v369 (F := Ideal) x1 x4 (idx_main_v391 (ix2 b t) k)) = ∑ p : Fin 12544, val_main_v369 (F := Ideal) x1 x4 (ix3 b t p) :=
    Finset.sum_congr rfl fun k _ => by rw [idx391]
  rw [s1, s2, s3]
  simp only [val_main_cst_122_apply, val_main_cst_123_apply, val_main_cst_124_apply, val_main_cst_125_apply,
    val_main_cst_126_apply, val_main_cst_127_apply, Ideal.ofBits_def, Ideal.ofBits_zero_f32, zero_add]
  rfl

end Cert.RefValue

end
-- ==== Proof.RefTail.lean ====
/-
  The cost matrix of the reference read at (b, q, t) as the specification's cost of row q of the sampled
  logits, row t of the sampled targets and the two boxes: five times the cross-entropy cost plus five
  times the dice cost plus five times the L1 distance plus twice the negated generalised IoU.
-/
import proofs.«176196_j77713138253901_2_alg».proof.Proof.RefReadP
import proofs.«176196_j77713138253901_2_alg».proof.Proof.Spec
import Idealize.ShloMosaic.Lib.Pipeline.Value
import Idealize.ShloMosaic.Lib.ValueIdx
import Idealize.ShloMosaic.PureOps.Ideal.Laws
import proofs.«176196_j77713138253901_2_alg».proof.Proof.RefBox
import proofs.«176196_j77713138253901_2_alg».proof.Proof.RefMask

set_option maxHeartbeats 1000000

noncomputable section

namespace Cert.RefValue

open Cert.ReferenceIdeal Cert.ReferenceIdeal.Gen Cert.ReferenceIdeal.ReadP Idealize.ShloMosaic Idealize.ShloMosaic.ValueIdx

variable (x0 x1 : (⟨S2x300x256x256, .f32⟩ : BufTy).Contents (Elt Ideal)) (x2 x3 : (⟨S2x300x4, .f32⟩ : BufTy).Contents (Elt Ideal))
  (x4 : (⟨S2x12544x2, .f32⟩ : BufTy).Contents (Elt Ideal)) (b : Fin 2) (q t : Fin 300)

/-- The cost of the pair (q, t) of batch element b, from row q of the sampled logits, row t of the
    sampled targets and the two boxes: the weighted total of the four costs. -/
theorem tail_apply : val_main_v545 (F := Ideal) x0 x1 x2 x3 x4 (ix3 b q t)
    = Spec.costR (ι := Fin 12544) (fun p => val_main_v184 (F := Ideal) x0 x4 (ix3 b q p)) (fun p => val_main_v369 (F := Ideal) x1 x4 (ix3 b t p))
        (fun j => x2 (ix3 b q j)) (fun j => x3 (ix3 b t j)) := by
  rw [val_main_v545_apply, val_main_v544_apply, val_main_v543_apply, val_main_v542_apply, val_main_v541_apply, val_main_v540_apply, val_main_v539_apply, val_main_v538_apply, val_main_v537_apply, val_main_v536_apply, val_main_v535_apply, val_main_v534_apply, giou_apply, l1_apply, dice_apply, ce_apply]
  simp only [val_main_cst_139_apply, val_main_cst_140_apply, val_main_cst_141_apply, val_main_cst_142_apply]
  rfl

end Cert.RefValue

end
-- ==== Proof.RefGather.lean ====
/-
  The gather of the reference read at an index. The operand is an array of 2 x 300 images of
  256 x 256 numbers, the start indices an array of 2 x 12544 pairs (row, column); batch element b
  of the result, instance q, point p is the image (b, q) at the pair of point p of batch b, each
  component read as a signed word and clamped into [0, 255].
-/
import proofs.«176196_j77713138253901_2_alg».proof.Proof.Gen.ReferenceIdeal
import proofs.«176196_j77713138253901_2_alg».proof.Proof.Spec
import Idealize.ShloMosaic.Lib.ValueIdx

noncomputable section

namespace Cert.RefValue

open Cert.ReferenceIdeal Cert.ReferenceIdeal.Gen Idealize.ShloMosaic Idealize.ShloMosaic.ValueIdx

/-- Where result index (b, q, p) reads component c of its start index: at (b, p, c). -/
theorem gather_siIdx (b : Fin 2) (q : Fin 300) (p : Fin 12544)
    (c : Fin gather_S2x300x256x256_S2x12544x2_S2x300x12544_1_23_0_0_23_2_130011.startIndexMap.length) :
    gather_S2x300x256x256_S2x12544x2_S2x300x12544_1_23_0_0_23_2_130011.siIdx (ix3 b q p) c = ix3 b p ⟨c.val, c.isLt⟩ := by
  funext e
  refine Fin.ext ?_
  match e with
  | ⟨0, _⟩ => rfl
  | ⟨1, _⟩ => rfl
  | ⟨2, _⟩ => rfl

/-- The gather at (b, q, p): the image (b, q) at the clamped pair of point p. -/
theorem gather_read {α : Type} (x : S2x300x256x256.Idx → α) (idx : IVec S2x12544x2 32)
    (b : Fin 2) (q : Fin 300) (p : Fin 12544) :
    Host.gather gather_S2x300x256x256_S2x12544x2_S2x300x12544_1_23_0_0_23_2_130011 x idx (ix3 b q p)
      = x (ix4 b q (Spec.cellIx (idx (ix3 b p 0))) (Spec.cellIx (idx (ix3 b p 1)))) := by
  unfold Host.gather
  congr 1
  funext a
  refine Fin.ext ?_
  show gather_S2x300x256x256_S2x12544x2_S2x300x12544_1_23_0_0_23_2_130011.start (ix3 b q p) idx a + gather_S2x300x256x256_S2x12544x2_S2x300x12544_1_23_0_0_23_2_130011.batchCoord (ix3 b q p) a + gather_S2x300x256x256_S2x12544x2_S2x300x12544_1_23_0_0_23_2_130011.offCoord (ix3 b q p) a = _
  match a with
  | ⟨0, _⟩ =>
    show gather_S2x300x256x256_S2x12544x2_S2x300x12544_1_23_0_0_23_2_130011.start (ix3 b q p) idx (⟨0, by decide⟩ : Fin S2x300x256x256.rank) + gather_S2x300x256x256_S2x12544x2_S2x300x12544_1_23_0_0_23_2_130011.batchCoord (ix3 b q p) (⟨0, by decide⟩ : Fin S2x300x256x256.rank)
      + gather_S2x300x256x256_S2x12544x2_S2x300x12544_1_23_0_0_23_2_130011.offCoord (ix3 b q p) (⟨0, by decide⟩ : Fin S2x300x256x256.rank) = b.val
    rw [gather_S2x300x256x256_S2x12544x2_S2x300x12544_1_23_0_0_23_2_130011.start_batching (ix3 b q p) idx (⟨0, by decide⟩ : Fin S2x300x256x256.rank) (by decide),
      gather_S2x300x256x256_S2x12544x2_S2x300x12544_1_23_0_0_23_2_130011.offCoord_eq_zero (ix3 b q p) (⟨0, by decide⟩ : Fin S2x300x256x256.rank) (by decide)]
    unfold GatherDims.batchCoord
    rw [dif_pos (show (⟨0, by decide⟩ : Fin S2x300x256x256.rank) ∈ gather_S2x300x256x256_S2x12544x2_S2x300x12544_1_23_0_0_23_2_130011.operandBatchingDims by decide)]
    have key : ∀ (e : Fin S2x12544x2.rank) (he : e ∈ gather_S2x300x256x256_S2x12544x2_S2x300x12544_1_23_0_0_23_2_130011.siKept), e = ⟨0, by decide⟩ →
        (gather_S2x300x256x256_S2x12544x2_S2x300x12544_1_23_0_0_23_2_130011.siCoord (ix3 b q p) e he).val = b.val := by
      intro e he h
      subst h
      rfl
    simp only [Nat.zero_add, Nat.add_zero]
    exact key _ _ (by decide)
  | ⟨1, _⟩ =>
    show gather_S2x300x256x256_S2x12544x2_S2x300x12544_1_23_0_0_23_2_130011.start (ix3 b q p) idx (⟨1, by decide⟩ : Fin S2x300x256x256.rank) + gather_S2x300x256x256_S2x12544x2_S2x300x12544_1_23_0_0_23_2_130011.batchCoord (ix3 b q p) (⟨1, by decide⟩ : Fin S2x300x256x256.rank)
      + gather_S2x300x256x256_S2x12544x2_S2x300x12544_1_23_0_0_23_2_130011.offCoord (ix3 b q p) (⟨1, by decide⟩ : Fin S2x300x256x256.rank) = q.val
    rw [gather_S2x300x256x256_S2x12544x2_S2x300x12544_1_23_0_0_23_2_130011.batchCoord_eq_zero (ix3 b q p) (⟨1, by decide⟩ : Fin S2x300x256x256.rank) (by decide)]
    unfold GatherDims.start GatherDims.offCoord
    rw [dif_neg (show ¬ (⟨1, by decide⟩ : Fin S2x300x256x256.rank) ∈ gather_S2x300x256x256_S2x12544x2_S2x300x12544_1_23_0_0_23_2_130011.startIndexMap by decide),
      dif_pos (show (⟨1, by decide⟩ : Fin S2x300x256x256.rank) ∈ gather_S2x300x256x256_S2x12544x2_S2x300x12544_1_23_0_0_23_2_130011.sKept by decide)]
    have key : ∀ e : Fin S2x300x12544.rank, e = ⟨1, by decide⟩ → ((ix3 b q p : S2x300x12544.Idx) e).val = q.val := by
      intro e h
      subst h
      rfl
    simp only [Nat.zero_add]
    exact key _ (by decide)
  | ⟨2, _⟩ =>
    unfold GatherDims.start
    rw [dif_pos (show (⟨2, by decide⟩ : Fin S2x300x256x256.rank) ∈ gather_S2x300x256x256_S2x12544x2_S2x300x12544_1_23_0_0_23_2_130011.startIndexMap by decide), gather_siIdx]
    rfl
  | ⟨3, _⟩ =>
    unfold GatherDims.start
    rw [dif_pos (show (⟨3, by decide⟩ : Fin S2x300x256x256.rank) ∈ gather_S2x300x256x256_S2x12544x2_S2x300x12544_1_23_0_0_23_2_130011.startIndexMap by decide), gather_siIdx]
    rfl

end Cert.RefValue

end
-- ==== Proof.RefSampleA.lean ====
/-
  The sampling of the predicted masks (argument 0) read at an index. Point p of batch element b has pixel coordinates
  x = cx * 256 - 1/2, y = cy * 256 - 1/2; the four cells around it are gathered from image (b, q) at the
  clipped cell coordinates (the wrap-around of negative positions leaves a clipped coordinate alone),
  multiplied by the in-image indicator and by the two weights, and added left to right. Every layout
  operation is read at the explicit coordinates (b, q, p); the result is the specification's bilinear sample.
-/
import proofs.«176196_j77713138253901_2_alg».proof.Proof.RefReadP
import proofs.«176196_j77713138253901_2_alg».proof.Proof.Spec
import Idealize.ShloMosaic.Lib.Pipeline.Value
import Idealize.ShloMosaic.Lib.ValueIdx
import Idealize.ShloMosaic.PureOps.Ideal.Laws
import proofs.«176196_j77713138253901_2_alg».proof.Proof.RefWords
import proofs.«176196_j77713138253901_2_alg».proof.Proof.RefGather

set_option maxHeartbeats 1000000

noncomputable section

namespace Cert.RefValue

open Cert.ReferenceIdeal Cert.ReferenceIdeal.Gen Cert.ReferenceIdeal.ReadP Idealize.ShloMosaic Idealize.ShloMosaic.ValueIdx

variable (x0 : (⟨S2x300x256x256, .f32⟩ : BufTy).Contents (Elt Ideal)) (x4 : (⟨S2x12544x2, .f32⟩ : BufTy).Contents (Elt Ideal))
  (b : Fin 2) (q : Fin 300) (p : Fin 12544)

theorem cat44_0 : val_main_v44 (F := Ideal) x4 (ix3 b p (0 : Fin 2)) = val_main_v42 (F := Ideal) x4 (ix3 b p (0 : Fin 1)) := by
  unfold val_main_v44
  refine concatenate_apply_piece (2 : Fin S2x12544x2.rank) [⟨S2x12544x1, val_main_v42 (F := Ideal) x4⟩, ⟨S2x12544x1, val_main_v43 (F := Ideal) x4⟩] concatenates_S2x12544x1_S2x12544x1_S2x12544x2_d2 (ix3 b p (0 : Fin 2)) 0 (by show (0 : Nat) < 2; decide) S2x12544x1 (val_main_v42 (F := Ideal) x4) rfl rfl 0 rfl (ix3 b p (0 : Fin 1)) ?_ ?_
  · intro e he
    match e with
    | ⟨0, _⟩ => rfl
    | ⟨1, _⟩ => rfl
    | ⟨2, _⟩ => exact absurd rfl he
  · rfl

theorem cat44_1 : val_main_v44 (F := Ideal) x4 (ix3 b p (1 : Fin 2)) = val_main_v43 (F := Ideal) x4 (ix3 b p (0 : Fin 1)) := by
  unfold val_main_v44
  refine concatenate_apply_piece (2 : Fin S2x12544x2.rank) [⟨S2x12544x1, val_main_v42 (F := Ideal) x4⟩, ⟨S2x12544x1, val_main_v43 (F := Ideal) x4⟩] concatenates_S2x12544x1_S2x12544x1_S2x12544x2_d2 (ix3 b p (1 : Fin 2)) 1 (by show (1 : Nat) < 2; decide) S2x12544x1 (val_main_v43 (F := Ideal) x4) rfl rfl 1 rfl (ix3 b p (0 : Fin 1)) ?_ ?_
  · intro e he
    match e with
    | ⟨0, _⟩ => rfl
    | ⟨1, _⟩ => rfl
    | ⟨2, _⟩ => exact absurd rfl he
  · rfl

theorem gat45 : val_main_v45 (F := Ideal) x0 x4 (ix3 b q p)
    = x0 (ix4 b q (Spec.cellIx (val_main_v44 (F := Ideal) x4 (ix3 b p (0 : Fin 2))))
        (Spec.cellIx (val_main_v44 (F := Ideal) x4 (ix3 b p (1 : Fin 2))))) := by
  unfold val_main_v45
  exact gather_read x0 (val_main_v44 (F := Ideal) x4) b q p

theorem cat77_0 : val_main_v77 (F := Ideal) x4 (ix3 b p (0 : Fin 2)) = val_main_v75 (F := Ideal) x4 (ix3 b p (0 : Fin 1)) := by
  unfold val_main_v77
  refine concatenate_apply_piece (2 : Fin S2x12544x2.rank) [⟨S2x12544x1, val_main_v75 (F := Ideal) x4⟩, ⟨S2x12544x1, val_main_v76 (F := Ideal) x4⟩] concatenates_S2x12544x1_S2x12544x1_S2x12544x2_d2 (ix3 b p (0 : Fin 2)) 0 (by show (0 : Nat) < 2; decide) S2x12544x1 (val_main_v75 (F := Ideal) x4) rfl rfl 0 rfl (ix3 b p (0 : Fin 1)) ?_ ?_
  · intro e he
    match e with
    | ⟨0, _⟩ => rfl
    | ⟨1, _⟩ => rfl
    | ⟨2, _⟩ => exact absurd rfl he
  · rfl

theorem cat77_1 : val_main_v77 (F := Ideal) x4 (ix3 b p (1 : Fin 2)) = val_main_v76 (F := Ideal) x4 (ix3 b p (0 : Fin 1)) := by
  unfold val_main_v77
  refine concatenate_apply_piece (2 : Fin S2x12544x2.rank) [⟨S2x12544x1, val_main_v75 (F := Ideal) x4⟩, ⟨S2x12544x1, val_main_v76 (F := Ideal) x4⟩] concatenates_S2x12544x1_S2x12544x1_S2x12544x2_d2 (ix3 b p (1 : Fin 2)) 1 (by show (1 : Nat) < 2; decide) S2x12544x1 (val_main_v76 (F := Ideal) x4) rfl rfl 1 rfl (ix3 b p (0 : Fin 1)) ?_ ?_
  · intro e he
    match e with
    | ⟨0, _⟩ => rfl
    | ⟨1, _⟩ => rfl
    | ⟨2, _⟩ => exact absurd rfl he
  · rfl

theorem gat78 : val_main_v78 (F := Ideal) x0 x4 (ix3 b q p)
    = x0 (ix4 b q (Spec.cellIx (val_main_v77 (F := Ideal) x4 (ix3 b p (0 : Fin 2))))
        (Spec.cellIx (val_main_v77 (F := Ideal) x4 (ix3 b p (1 : Fin 2))))) := by
  unfold val_main_v78
  exact gather_read x0 (val_main_v77 (F := Ideal) x4) b q p

theorem cat110_0 : val_main_v110 (F := Ideal) x4 (ix3 b p (0 : Fin 2)) = val_main_v108 (F := Ideal) x4 (ix3 b p (0 : Fin 1)) := by
  unfold val_main_v110
  refine concatenate_apply_piece (2 : Fin S2x12544x2.rank) [⟨S2x12544x1, val_main_v108 (F := Ideal) x4⟩, ⟨S2x12544x1, val_main_v109 (F := Ideal) x4⟩] concatenates_S2x12544x1_S2x12544x1_S2x12544x2_d2 (ix3 b p (0 : Fin 2)) 0 (by show (0 : Nat) < 2; decide) S2x12544x1 (val_main_v108 (F := Ideal) x4) rfl rfl 0 rfl (ix3 b p (0 : Fin 1)) ?_ ?_
  · intro e he
    match e with
    | ⟨0, _⟩ => rfl
    | ⟨1, _⟩ => rfl
    | ⟨2, _⟩ => exact absurd rfl he
  · rfl

theorem cat110_1 : val_main_v110 (F := Ideal) x4 (ix3 b p (1 : Fin 2)) = val_main_v109 (F := Ideal) x4 (ix3 b p (0 : Fin 1)) := by
  unfold val_main_v110
  refine concatenate_apply_piece (2 : Fin S2x12544x2.rank) [⟨S2x12544x1, val_main_v108 (F := Ideal) x4⟩, ⟨S2x12544x1, val_main_v109 (F := Ideal) x4⟩] concatenates_S2x12544x1_S2x12544x1_S2x12544x2_d2 (ix3 b p (1 : Fin 2)) 1 (by show (1 : Nat) < 2; decide) S2x12544x1 (val_main_v109 (F := Ideal) x4) rfl rfl 1 rfl (ix3 b p (0 : Fin 1)) ?_ ?_
  · intro e he
    match e with
    | ⟨0, _⟩ => rfl
    | ⟨1, _⟩ => rfl
    | ⟨2, _⟩ => exact absurd rfl he
  · rfl

theorem gat111 : val_main_v111 (F := Ideal) x0 x4 (ix3 b q p)
    = x0 (ix4 b q (Spec.cellIx (val_main_v110 (F := Ideal) x4 (ix3 b p (0 : Fin 2))))
        (Spec.cellIx (val_main_v110 (F := Ideal) x4 (ix3 b p (1 : Fin 2))))) := by
  unfold val_main_v111
  exact gather_read x0 (val_main_v110 (F := Ideal) x4) b q p

theorem cat145_0 : val_main_v145 (F := Ideal) x4 (ix3 b p (0 : Fin 2)) = val_main_v143 (F := Ideal) x4 (ix3 b p (0 : Fin 1)) := by
  unfold val_main_v145
  refine concatenate_apply_piece (2 : Fin S2x12544x2.rank) [⟨S2x12544x1, val_main_v143 (F := Ideal) x4⟩, ⟨S2x12544x1, val_main_v144 (F := Ideal) x4⟩] concatenates_S2x12544x1_S2x12544x1_S2x12544x2_d2 (ix3 b p (0 : Fin 2)) 0 (by show (0 : Nat) < 2; decide) S2x12544x1 (val_main_v143 (F := Ideal) x4) rfl rfl 0 rfl (ix3 b p (0 : Fin 1)) ?_ ?_
  · intro e he
    match e with
    | ⟨0, _⟩ => rfl
    | ⟨1, _⟩ => rfl
    | ⟨2, _⟩ => exact absurd rfl he
  · rfl

theorem cat145_1 : val_main_v145 (F := Ideal) x4 (ix3 b p (1 : Fin 2)) = val_main_v144 (F := Ideal) x4 (ix3 b p (0 : Fin 1)) := by
  unfold val_main_v145
  refine concatenate_apply_piece (2 : Fin S2x12544x2.rank) [⟨S2x12544x1, val_main_v143 (F := Ideal) x4⟩, ⟨S2x12544x1, val_main_v144 (F := Ideal) x4⟩] concatenates_S2x12544x1_S2x12544x1_S2x12544x2_d2 (ix3 b p (1 : Fin 2)) 1 (by show (1 : Nat) < 2; decide) S2x12544x1 (val_main_v144 (F := Ideal) x4) rfl rfl 1 rfl (ix3 b p (0 : Fin 1)) ?_ ?_
  · intro e he
    match e with
    | ⟨0, _⟩ => rfl
    | ⟨1, _⟩ => rfl
    | ⟨2, _⟩ => exact absurd rfl he
  · rfl

theorem gat146 : val_main_v146 (F := Ideal) x0 x4 (ix3 b q p)
    = x0 (ix4 b q (Spec.cellIx (val_main_v145 (F := Ideal) x4 (ix3 b p (0 : Fin 2))))
        (Spec.cellIx (val_main_v145 (F := Ideal) x4 (ix3 b p (1 : Fin 2))))) := by
  unfold val_main_v146
  exact gather_read x0 (val_main_v145 (F := Ideal) x4) b q p

theorem at_v42_0 : val_main_v42 (F := Ideal) x4 (ix3 b p (0 : Fin 1)) = val_main_v36 (F := Ideal) x4 (ix2 b p) := by
  rw [val_main_v42_apply]
  exact congrArg (val_main_v36 (F := Ideal) x4) (funext fun a => Fin.ext (by
    match a with
    | ⟨0, _⟩ => rfl
    | ⟨1, _⟩ => rfl))

theorem at_v7_1 : val_main_v7 (F := Ideal) x4 (ix2 b p) = val_main_v6 (F := Ideal) x4 (ix3 b p (0 : Fin 1)) := by
  rw [val_main_v7_apply]
  exact congrArg (val_main_v6 (F := Ideal) x4) (funext fun a => Fin.ext (by
    match a with
    | ⟨0, _⟩ => have h_b := b.isLt; have h_p := p.isLt; show (b.val * 12544 + p.val) / 12544 = b.val; omega
    | ⟨1, _⟩ => have h_b := b.isLt; have h_p := p.isLt; show (b.val * 12544 + p.val) / 1 % 12544 = p.val; omega
    | ⟨2, _⟩ => rfl))

theorem at_v6_2 : val_main_v6 (F := Ideal) x4 (ix3 b p (0 : Fin 1)) = x4 (ix3 b p (1 : Fin 2)) := by
  rw [val_main_v6_apply]
  exact congrArg (x4) (funext fun a => Fin.ext (by
    match a with
    | ⟨0, _⟩ => rfl
    | ⟨1, _⟩ => rfl
    | ⟨2, _⟩ => show 1 + 0 = 1; omega))

theorem at_v43_3 : val_main_v43 (F := Ideal) x4 (ix3 b p (0 : Fin 1)) = val_main_v41 (F := Ideal) x4 (ix2 b p) := by
  rw [val_main_v43_apply]
  exact congrArg (val_main_v41 (F := Ideal) x4) (funext fun a => Fin.ext (by
    match a with
    | ⟨0, _⟩ => rfl
    | ⟨1, _⟩ => rfl))

theorem at_v1_4 : val_main_v1 (F := Ideal) x4 (ix2 b p) = val_main_v0 (F := Ideal) x4 (ix3 b p (0 : Fin 1)) := by
  rw [val_main_v1_apply]
  exact congrArg (val_main_v0 (F := Ideal) x4) (funext fun a => Fin.ext (by
    match a with
    | ⟨0, _⟩ => have h_b := b.isLt; have h_p := p.isLt; show (b.val * 12544 + p.val) / 12544 = b.val; omega
    | ⟨1, _⟩ => have h_b := b.isLt; have h_p := p.isLt; show (b.val * 12544 + p.val) / 1 % 12544 = p.val; omega
    | ⟨2, _⟩ => rfl))

theorem at_v0_5 : val_main_v0 (F := Ideal) x4 (ix3 b p (0 : Fin 1)) = x4 (ix3 b p (0 : Fin 2)) := by
  rw [val_main_v0_apply]
  exact congrArg (x4) (funext fun a => Fin.ext (by
    match a with
    | ⟨0, _⟩ => rfl
    | ⟨1, _⟩ => rfl
    | ⟨2, _⟩ => rfl))

theorem at_v47_6 : val_main_v47 (F := Ideal) x4 (ix3 b q p) = val_main_v46 (F := Ideal) x4 (ix3 b (0 : Fin 1) p) := by
  rw [val_main_v47_apply]
  exact congrArg (val_main_v46 (F := Ideal) x4) (funext fun a => Fin.ext (by
    match a with
    | ⟨0, _⟩ => rfl
    | ⟨1, _⟩ => rfl
    | ⟨2, _⟩ => rfl))

theorem at_v46_7 : val_main_v46 (F := Ideal) x4 (ix3 b (0 : Fin 1) p) = val_main_v29 (F := Ideal) x4 (ix2 b p) := by
  rw [val_main_v46_apply]
  exact congrArg (val_main_v29 (F := Ideal) x4) (funext fun a => Fin.ext (by
    match a with
    | ⟨0, _⟩ => rfl
    | ⟨1, _⟩ => rfl))

theorem at_v153_8 : val_main_v153 (F := Ideal) x4 (ix3 b q p) = val_main_v152 (F := Ideal) x4 (ix3 b (0 : Fin 1) p) := by
  rw [val_main_v153_apply]
  exact congrArg (val_main_v152 (F := Ideal) x4) (funext fun a => Fin.ext (by
    match a with
    | ⟨0, _⟩ => rfl
    | ⟨1, _⟩ => rfl
    | ⟨2, _⟩ => rfl))

theorem at_v152_9 : val_main_v152 (F := Ideal) x4 (ix3 b (0 : Fin 1) p) = val_main_v151 (F := Ideal) x4 (ix2 b p) := by
  rw [val_main_v152_apply]
  exact congrArg (val_main_v151 (F := Ideal) x4) (funext fun a => Fin.ext (by
    match a with
    | ⟨0, _⟩ => rfl
    | ⟨1, _⟩ => rfl))

theorem at_v158_10 : val_main_v158 (F := Ideal) x4 (ix3 b q p) = val_main_v157 (F := Ideal) x4 (ix3 b (0 : Fin 1) p) := by
  rw [val_main_v158_apply]
  exact congrArg (val_main_v157 (F := Ideal) x4) (funext fun a => Fin.ext (by
    match a with
    | ⟨0, _⟩ => rfl
    | ⟨1, _⟩ => rfl
    | ⟨2, _⟩ => rfl))

theorem at_v157_11 : val_main_v157 (F := Ideal) x4 (ix3 b (0 : Fin 1) p) = val_main_v156 (F := Ideal) x4 (ix2 b p) := by
  rw [val_main_v157_apply]
  exact congrArg (val_main_v156 (F := Ideal) x4) (funext fun a => Fin.ext (by
    match a with
    | ⟨0, _⟩ => rfl
    | ⟨1, _⟩ => rfl))

theorem at_v75_12 : val_main_v75 (F := Ideal) x4 (ix3 b p (0 : Fin 1)) = val_main_v69 (F := Ideal) x4 (ix2 b p) := by
  rw [val_main_v75_apply]
  exact congrArg (val_main_v69 (F := Ideal) x4) (funext fun a => Fin.ext (by
    match a with
    | ⟨0, _⟩ => rfl
    | ⟨1, _⟩ => rfl))

theorem at_v76_13 : val_main_v76 (F := Ideal) x4 (ix3 b p (0 : Fin 1)) = val_main_v74 (F := Ideal) x4 (ix2 b p) := by
  rw [val_main_v76_apply]
  exact congrArg (val_main_v74 (F := Ideal) x4) (funext fun a => Fin.ext (by
    match a with
    | ⟨0, _⟩ => rfl
    | ⟨1, _⟩ => rfl))

theorem at_v80_14 : val_main_v80 (F := Ideal) x4 (ix3 b q p) = val_main_v79 (F := Ideal) x4 (ix3 b (0 : Fin 1) p) := by
  rw [val_main_v80_apply]
  exact congrArg (val_main_v79 (F := Ideal) x4) (funext fun a => Fin.ext (by
    match a with
    | ⟨0, _⟩ => rfl
    | ⟨1, _⟩ => rfl
    | ⟨2, _⟩ => rfl))

theorem at_v79_15 : val_main_v79 (F := Ideal) x4 (ix3 b (0 : Fin 1) p) = val_main_v62 (F := Ideal) x4 (ix2 b p) := by
  rw [val_main_v79_apply]
  exact congrArg (val_main_v62 (F := Ideal) x4) (funext fun a => Fin.ext (by
    match a with
    | ⟨0, _⟩ => rfl
    | ⟨1, _⟩ => rfl))

theorem at_v163_16 : val_main_v163 (F := Ideal) x4 (ix3 b q p) = val_main_v162 (F := Ideal) x4 (ix3 b (0 : Fin 1) p) := by
  rw [val_main_v163_apply]
  exact congrArg (val_main_v162 (F := Ideal) x4) (funext fun a => Fin.ext (by
    match a with
    | ⟨0, _⟩ => rfl
    | ⟨1, _⟩ => rfl
    | ⟨2, _⟩ => rfl))

theorem at_v162_17 : val_main_v162 (F := Ideal) x4 (ix3 b (0 : Fin 1) p) = val_main_v161 (F := Ideal) x4 (ix2 b p) := by
  rw [val_main_v162_apply]
  exact congrArg (val_main_v161 (F := Ideal) x4) (funext fun a => Fin.ext (by
    match a with
    | ⟨0, _⟩ => rfl
    | ⟨1, _⟩ => rfl))

theorem at_v166_18 : val_main_v166 (F := Ideal) x4 (ix3 b q p) = val_main_v165 (F := Ideal) x4 (ix3 b (0 : Fin 1) p) := by
  rw [val_main_v166_apply]
  exact congrArg (val_main_v165 (F := Ideal) x4) (funext fun a => Fin.ext (by
    match a with
    | ⟨0, _⟩ => rfl
    | ⟨1, _⟩ => rfl
    | ⟨2, _⟩ => rfl))

theorem at_v165_19 : val_main_v165 (F := Ideal) x4 (ix3 b (0 : Fin 1) p) = val_main_v14 (F := Ideal) x4 (ix2 b p) := by
  rw [val_main_v165_apply]
  exact congrArg (val_main_v14 (F := Ideal) x4) (funext fun a => Fin.ext (by
    match a with
    | ⟨0, _⟩ => rfl
    | ⟨1, _⟩ => rfl))

theorem at_v108_20 : val_main_v108 (F := Ideal) x4 (ix3 b p (0 : Fin 1)) = val_main_v102 (F := Ideal) x4 (ix2 b p) := by
  rw [val_main_v108_apply]
  exact congrArg (val_main_v102 (F := Ideal) x4) (funext fun a => Fin.ext (by
    match a with
    | ⟨0, _⟩ => rfl
    | ⟨1, _⟩ => rfl))

theorem at_v109_21 : val_main_v109 (F := Ideal) x4 (ix3 b p (0 : Fin 1)) = val_main_v107 (F := Ideal) x4 (ix2 b p) := by
  rw [val_main_v109_apply]
  exact congrArg (val_main_v107 (F := Ideal) x4) (funext fun a => Fin.ext (by
    match a with
    | ⟨0, _⟩ => rfl
    | ⟨1, _⟩ => rfl))

theorem at_v113_22 : val_main_v113 (F := Ideal) x4 (ix3 b q p) = val_main_v112 (F := Ideal) x4 (ix3 b (0 : Fin 1) p) := by
  rw [val_main_v113_apply]
  exact congrArg (val_main_v112 (F := Ideal) x4) (funext fun a => Fin.ext (by
    match a with
    | ⟨0, _⟩ => rfl
    | ⟨1, _⟩ => rfl
    | ⟨2, _⟩ => rfl))

theorem at_v112_23 : val_main_v112 (F := Ideal) x4 (ix3 b (0 : Fin 1) p) = val_main_v95 (F := Ideal) x4 (ix2 b p) := by
  rw [val_main_v112_apply]
  exact congrArg (val_main_v95 (F := Ideal) x4) (funext fun a => Fin.ext (by
    match a with
    | ⟨0, _⟩ => rfl
    | ⟨1, _⟩ => rfl))

theorem at_v170_24 : val_main_v170 (F := Ideal) x4 (ix3 b q p) = val_main_v169 (F := Ideal) x4 (ix3 b (0 : Fin 1) p) := by
  rw [val_main_v170_apply]
  exact congrArg (val_main_v169 (F := Ideal) x4) (funext fun a => Fin.ext (by
    match a with
    | ⟨0, _⟩ => rfl
    | ⟨1, _⟩ => rfl
    | ⟨2, _⟩ => rfl))

theorem at_v169_25 : val_main_v169 (F := Ideal) x4 (ix3 b (0 : Fin 1) p) = val_main_v15 (F := Ideal) x4 (ix2 b p) := by
  rw [val_main_v169_apply]
  exact congrArg (val_main_v15 (F := Ideal) x4) (funext fun a => Fin.ext (by
    match a with
    | ⟨0, _⟩ => rfl
    | ⟨1, _⟩ => rfl))

theorem at_v175_26 : val_main_v175 (F := Ideal) x4 (ix3 b q p) = val_main_v174 (F := Ideal) x4 (ix3 b (0 : Fin 1) p) := by
  rw [val_main_v175_apply]
  exact congrArg (val_main_v174 (F := Ideal) x4) (funext fun a => Fin.ext (by
    match a with
    | ⟨0, _⟩ => rfl
    | ⟨1, _⟩ => rfl
    | ⟨2, _⟩ => rfl))

theorem at_v174_27 : val_main_v174 (F := Ideal) x4 (ix3 b (0 : Fin 1) p) = val_main_v173 (F := Ideal) x4 (ix2 b p) := by
  rw [val_main_v174_apply]
  exact congrArg (val_main_v173 (F := Ideal) x4) (funext fun a => Fin.ext (by
    match a with
    | ⟨0, _⟩ => rfl
    | ⟨1, _⟩ => rfl))

theorem at_v143_28 : val_main_v143 (F := Ideal) x4 (ix3 b p (0 : Fin 1)) = val_main_v137 (F := Ideal) x4 (ix2 b p) := by
  rw [val_main_v143_apply]
  exact congrArg (val_main_v137 (F := Ideal) x4) (funext fun a => Fin.ext (by
    match a with
    | ⟨0, _⟩ => rfl
    | ⟨1, _⟩ => rfl))

theorem at_v144_29 : val_main_v144 (F := Ideal) x4 (ix3 b p (0 : Fin 1)) = val_main_v142 (F := Ideal) x4 (ix2 b p) := by
  rw [val_main_v144_apply]
  exact congrArg (val_main_v142 (F := Ideal) x4) (funext fun a => Fin.ext (by
    match a with
    | ⟨0, _⟩ => rfl
    | ⟨1, _⟩ => rfl))

theorem at_v148_30 : val_main_v148 (F := Ideal) x4 (ix3 b q p) = val_main_v147 (F := Ideal) x4 (ix3 b (0 : Fin 1) p) := by
  rw [val_main_v148_apply]
  exact congrArg (val_main_v147 (F := Ideal) x4) (funext fun a => Fin.ext (by
    match a with
    | ⟨0, _⟩ => rfl
    | ⟨1, _⟩ => rfl
    | ⟨2, _⟩ => rfl))

theorem at_v147_31 : val_main_v147 (F := Ideal) x4 (ix3 b (0 : Fin 1) p) = val_main_v130 (F := Ideal) x4 (ix2 b p) := by
  rw [val_main_v147_apply]
  exact congrArg (val_main_v130 (F := Ideal) x4) (funext fun a => Fin.ext (by
    match a with
    | ⟨0, _⟩ => rfl
    | ⟨1, _⟩ => rfl))

theorem at_v179_32 : val_main_v179 (F := Ideal) x4 (ix3 b q p) = val_main_v178 (F := Ideal) x4 (ix3 b (0 : Fin 1) p) := by
  rw [val_main_v179_apply]
  exact congrArg (val_main_v178 (F := Ideal) x4) (funext fun a => Fin.ext (by
    match a with
    | ⟨0, _⟩ => rfl
    | ⟨1, _⟩ => rfl
    | ⟨2, _⟩ => rfl))

theorem at_v178_33 : val_main_v178 (F := Ideal) x4 (ix3 b (0 : Fin 1) p) = val_main_v15 (F := Ideal) x4 (ix2 b p) := by
  rw [val_main_v178_apply]
  exact congrArg (val_main_v15 (F := Ideal) x4) (funext fun a => Fin.ext (by
    match a with
    | ⟨0, _⟩ => rfl
    | ⟨1, _⟩ => rfl))

theorem at_v182_34 : val_main_v182 (F := Ideal) x4 (ix3 b q p) = val_main_v181 (F := Ideal) x4 (ix3 b (0 : Fin 1) p) := by
  rw [val_main_v182_apply]
  exact congrArg (val_main_v181 (F := Ideal) x4) (funext fun a => Fin.ext (by
    match a with
    | ⟨0, _⟩ => rfl
    | ⟨1, _⟩ => rfl
    | ⟨2, _⟩ => rfl))

theorem at_v181_35 : val_main_v181 (F := Ideal) x4 (ix3 b (0 : Fin 1) p) = val_main_v14 (F := Ideal) x4 (ix2 b p) := by
  rw [val_main_v181_apply]
  exact congrArg (val_main_v14 (F := Ideal) x4) (funext fun a => Fin.ext (by
    match a with
    | ⟨0, _⟩ => rfl
    | ⟨1, _⟩ => rfl))

/-- The sampled value of image (b, q) at point p: the bilinear sample of the specification. -/
theorem sample_om : val_main_v184 (F := Ideal) x0 x4 (ix3 b q p)
    = Spec.sample (fun r s => x0 (ix4 b q r s)) (x4 (ix3 b p 0)) (x4 (ix3 b p 1)) := by
  rw [val_main_v184_apply, val_main_v183_apply, at_v182_34, at_v181_35, val_main_v180_apply, at_v179_32,
    at_v178_33, val_main_v177_apply, val_main_v176_apply, at_v175_26, at_v174_27, val_main_v173_apply,
    val_main_v172_apply, val_main_v171_apply, at_v170_24, at_v169_25, val_main_v168_apply, val_main_v167_apply,
    at_v166_18, at_v165_19, val_main_v164_apply, at_v163_16, at_v162_17, val_main_v161_apply,
    val_main_v160_apply, val_main_v159_apply, at_v158_10, at_v157_11, val_main_v156_apply, val_main_v155_apply,
    val_main_v154_apply, at_v153_8, at_v152_9, val_main_v151_apply, val_main_v150_apply, val_main_v149_apply,
    at_v148_30, at_v147_31, gat146, cat145_0, cat145_1, at_v144_29,
    at_v143_28, val_main_v142_apply, val_main_v141_apply, val_main_v140_apply, val_main_v139_apply, val_main_v138_apply,
    val_main_v137_apply, val_main_v136_apply, val_main_v135_apply, val_main_v134_apply, val_main_v133_apply, val_main_v132_apply,
    val_main_call7_v4_apply, val_main_call7_v2_apply, val_main_call7_v1_apply, val_main_v131_apply, val_main_call6_v4_apply, val_main_call6_v2_apply,
    val_main_call6_v1_apply, val_main_v130_apply, val_main_v129_apply, val_main_v128_apply, val_main_v127_apply, val_main_v126_apply,
    val_main_v125_apply, val_main_v124_apply, val_main_v123_apply, val_main_v122_apply, val_main_v121_apply, val_main_v120_apply,
    val_main_v119_apply, val_main_v118_apply, val_main_v117_apply, val_main_v116_apply, val_main_v115_apply, val_main_v114_apply,
    at_v113_22, at_v112_23, gat111, cat110_0, cat110_1, at_v109_21,
    at_v108_20, val_main_v107_apply, val_main_v106_apply, val_main_v105_apply, val_main_v104_apply, val_main_v103_apply,
    val_main_v102_apply, val_main_v101_apply, val_main_v100_apply, val_main_v99_apply, val_main_v98_apply, val_main_v97_apply,
    val_main_call5_v4_apply, val_main_call5_v2_apply, val_main_call5_v1_apply, val_main_v96_apply, val_main_call4_v4_apply, val_main_call4_v2_apply,
    val_main_call4_v1_apply, val_main_v95_apply, val_main_v94_apply, val_main_v93_apply, val_main_v92_apply, val_main_v91_apply,
    val_main_v90_apply, val_main_v89_apply, val_main_v88_apply, val_main_v87_apply, val_main_v86_apply, val_main_v85_apply,
    val_main_v84_apply, val_main_v83_apply, val_main_v82_apply, val_main_v81_apply, at_v80_14, at_v79_15,
    gat78, cat77_0, cat77_1, at_v76_13, at_v75_12, val_main_v74_apply,
    val_main_v73_apply, val_main_v72_apply, val_main_v71_apply, val_main_v70_apply, val_main_v69_apply, val_main_v68_apply,
    val_main_v67_apply, val_main_v66_apply, val_main_v65_apply, val_main_v64_apply, val_main_call3_v4_apply, val_main_call3_v2_apply,
    val_main_call3_v1_apply, val_main_v63_apply, val_main_call2_v4_apply, val_main_call2_v2_apply, val_main_call2_v1_apply, val_main_v62_apply,
    val_main_v61_apply, val_main_v60_apply, val_main_v59_apply, val_main_v58_apply, val_main_v57_apply, val_main_v56_apply,
    val_main_v55_apply, val_main_v54_apply, val_main_v53_apply, val_main_v52_apply, val_main_v51_apply, val_main_v50_apply,
    val_main_v49_apply, val_main_v48_apply, at_v47_6, at_v46_7, gat45, cat44_0,
    cat44_1, at_v43_3, at_v42_0, val_main_v41_apply, val_main_v40_apply, val_main_v39_apply,
    val_main_v38_apply, val_main_v37_apply, val_main_v36_apply, val_main_v35_apply, val_main_v34_apply, val_main_v33_apply,
    val_main_v32_apply, val_main_v31_apply, val_main_call1_v4_apply, val_main_call1_v2_apply, val_main_call1_v1_apply, val_main_v30_apply,
    val_main_call0_v4_apply, val_main_call0_v2_apply, val_main_call0_v1_apply, val_main_v29_apply, val_main_v28_apply, val_main_v27_apply,
    val_main_v26_apply, val_main_v25_apply, val_main_v24_apply, val_main_v23_apply, val_main_v22_apply, val_main_v21_apply,
    val_main_v20_apply, val_main_v19_apply, val_main_v18_apply, val_main_v17_apply, val_main_v16_apply, val_main_v15_apply,
    val_main_v14_apply, val_main_v13_apply, val_main_v12_apply, val_main_v11_apply, val_main_v10_apply, val_main_v9_apply,
    val_main_v8_apply, at_v7_1, at_v6_2, val_main_v5_apply, val_main_v4_apply, val_main_v3_apply,
    val_main_v2_apply, at_v1_4, at_v0_5]
  simp only [val_main_call0_v3_apply, val_main_c_7_apply, val_main_call0_v0_apply, val_main_c_6_apply, val_main_cst_1_apply, val_main_cst_2_apply, val_main_c_10_apply, val_main_c_11_apply, val_main_call1_v3_apply, val_main_c_9_apply, val_main_call1_v0_apply, val_main_c_8_apply, val_main_cst_apply, val_main_cst_0_apply, val_main_c_12_apply, val_main_c_13_apply, val_main_c_apply, val_main_c_3_apply, val_main_c_4_apply, val_main_c_5_apply, val_main_cst_54_apply, val_main_cst_55_apply, val_main_call2_v3_apply, val_main_c_20_apply, val_main_call2_v0_apply, val_main_c_19_apply, val_main_c_23_apply, val_main_c_24_apply, val_main_call3_v3_apply, val_main_c_22_apply, val_main_call3_v0_apply, val_main_c_21_apply, val_main_c_14_apply, val_main_c_25_apply, val_main_c_26_apply, val_main_c_15_apply, val_main_c_16_apply, val_main_c_17_apply, val_main_c_18_apply, val_main_cst_56_apply, val_main_call4_v3_apply, val_main_c_33_apply, val_main_call4_v0_apply, val_main_c_32_apply, val_main_c_27_apply, val_main_c_36_apply, val_main_c_37_apply, val_main_call5_v3_apply, val_main_c_35_apply, val_main_call5_v0_apply, val_main_c_34_apply, val_main_c_38_apply, val_main_c_39_apply, val_main_c_28_apply, val_main_c_29_apply, val_main_c_30_apply, val_main_c_31_apply, val_main_cst_57_apply, val_main_call6_v3_apply, val_main_c_47_apply, val_main_call6_v0_apply, val_main_c_46_apply, val_main_c_40_apply, val_main_c_50_apply, val_main_c_51_apply, val_main_call7_v3_apply, val_main_c_49_apply, val_main_call7_v0_apply, val_main_c_48_apply, val_main_c_41_apply, val_main_c_52_apply, val_main_c_53_apply, val_main_c_42_apply, val_main_c_43_apply, val_main_c_44_apply, val_main_c_45_apply]
  simp only [wrap_clip]
  rfl

end Cert.RefValue

end
-- ==== Proof.RefSampleB.lean ====
/-
  The sampling of the target masks (argument 1) read at an index. Point p of batch element b has pixel coordinates
  x = cx * 256 - 1/2, y = cy * 256 - 1/2; the four cells around it are gathered from image (b, q) at the
  clipped cell coordinates (the wrap-around of negative positions leaves a clipped coordinate alone),
  multiplied by the in-image indicator and by the two weights, and added left to right. Every layout
  operation is read at the explicit coordinates (b, q, p); the result is the specification's bilinear sample.
-/
import proofs.«176196_j77713138253901_2_alg».proof.Proof.RefReadP
import proofs.«176196_j77713138253901_2_alg».proof.Proof.Spec
import Idealize.ShloMosaic.Lib.Pipeline.Value
import Idealize.ShloMosaic.Lib.ValueIdx
import Idealize.ShloMosaic.PureOps.Ideal.Laws
import proofs.«176196_j77713138253901_2_alg».proof.Proof.RefWords
import proofs.«176196_j77713138253901_2_alg».proof.Proof.RefGather

set_option maxHeartbeats 1000000

noncomputable section

namespace Cert.RefValue

open Cert.ReferenceIdeal Cert.ReferenceIdeal.Gen Cert.ReferenceIdeal.ReadP Idealize.ShloMosaic Idealize.ShloMosaic.ValueIdx

variable (x1 : (⟨S2x300x256x256, .f32⟩ : BufTy).Contents (Elt Ideal)) (x4 : (⟨S2x12544x2, .f32⟩ : BufTy).Contents (Elt Ideal))
  (b : Fin 2) (q : Fin 300) (p : Fin 12544)

theorem cat229_0 : val_main_v229 (F := Ideal) x4 (ix3 b p (0 : Fin 2)) = val_main_v227 (F := Ideal) x4 (ix3 b p (0 : Fin 1)) := by
  unfold val_main_v229
  refine concatenate_apply_piece (2 : Fin S2x12544x2.rank) [⟨S2x12544x1, val_main_v227 (F := Ideal) x4⟩, ⟨S2x12544x1, val_main_v228 (F := Ideal) x4⟩] concatenates_S2x12544x1_S2x12544x1_S2x12544x2_d2 (ix3 b p (0 : Fin 2)) 0 (by show (0 : Nat) < 2; decide) S2x12544x1 (val_main_v227 (F := Ideal) x4) rfl rfl 0 rfl (ix3 b p (0 : Fin 1)) ?_ ?_
  · intro e he
    match e with
    | ⟨0, _⟩ => rfl
    | ⟨1, _⟩ => rfl
    | ⟨2, _⟩ => exact absurd rfl he
  · rfl

theorem cat229_1 : val_main_v229 (F := Ideal) x4 (ix3 b p (1 : Fin 2)) = val_main_v228 (F := Ideal) x4 (ix3 b p (0 : Fin 1)) := by
  unfold val_main_v229
  refine concatenate_apply_piece (2 : Fin S2x12544x2.rank) [⟨S2x12544x1, val_main_v227 (F := Ideal) x4⟩, ⟨S2x12544x1, val_main_v228 (F := Ideal) x4⟩] concatenates_S2x12544x1_S2x12544x1_S2x12544x2_d2 (ix3 b p (1 : Fin 2)) 1 (by show (1 : Nat) < 2; decide) S2x12544x1 (val_main_v228 (F := Ideal) x4) rfl rfl 1 rfl (ix3 b p (0 : Fin 1)) ?_ ?_
  · intro e he
    match e with
    | ⟨0, _⟩ => rfl
    | ⟨1, _⟩ => rfl
    | ⟨2, _⟩ => exact absurd rfl he
  · rfl

theorem gat230 : val_main_v230 (F := Ideal) x1 x4 (ix3 b q p)
    = x1 (ix4 b q (Spec.cellIx (val_main_v229 (F := Ideal) x4 (ix3 b p (0 : Fin 2))))
        (Spec.cellIx (val_main_v229 (F := Ideal) x4 (ix3 b p (1 : Fin 2))))) := by
  unfold val_main_v230
  exact gather_read x1 (val_main_v229 (F := Ideal) x4) b q p

theorem cat262_0 : val_main_v262 (F := Ideal) x4 (ix3 b p (0 : Fin 2)) = val_main_v260 (F := Ideal) x4 (ix3 b p (0 : Fin 1)) := by
  unfold val_main_v262
  refine concatenate_apply_piece (2 : Fin S2x12544x2.rank) [⟨S2x12544x1, val_main_v260 (F := Ideal) x4⟩, ⟨S2x12544x1, val_main_v261 (F := Ideal) x4⟩] concatenates_S2x12544x1_S2x12544x1_S2x12544x2_d2 (ix3 b p (0 : Fin 2)) 0 (by show (0 : Nat) < 2; decide) S2x12544x1 (val_main_v260 (F := Ideal) x4) rfl rfl 0 rfl (ix3 b p (0 : Fin 1)) ?_ ?_
  · intro e he
    match e with
    | ⟨0, _⟩ => rfl
    | ⟨1, _⟩ => rfl
    | ⟨2, _⟩ => exact absurd rfl he
  · rfl

theorem cat262_1 : val_main_v262 (F := Ideal) x4 (ix3 b p (1 : Fin 2)) = val_main_v261 (F := Ideal) x4 (ix3 b p (0 : Fin 1)) := by
  unfold val_main_v262
  refine concatenate_apply_piece (2 : Fin S2x12544x2.rank) [⟨S2x12544x1, val_main_v260 (F := Ideal) x4⟩, ⟨S2x12544x1, val_main_v261 (F := Ideal) x4⟩] concatenates_S2x12544x1_S2x12544x1_S2x12544x2_d2 (ix3 b p (1 : Fin 2)) 1 (by show (1 : Nat) < 2; decide) S2x12544x1 (val_main_v261 (F := Ideal) x4) rfl rfl 1 rfl (ix3 b p (0 : Fin 1)) ?_ ?_
  · intro e he
    match e with
    | ⟨0, _⟩ => rfl
    | ⟨1, _⟩ => rfl
    | ⟨2, _⟩ => exact absurd rfl he
  · rfl

theorem gat263 : val_main_v263 (F := Ideal) x1 x4 (ix3 b q p)
    = x1 (ix4 b q (Spec.cellIx (val_main_v262 (F := Ideal) x4 (ix3 b p (0 : Fin 2))))
        (Spec.cellIx (val_main_v262 (F := Ideal) x4 (ix3 b p (1 : Fin 2))))) := by
  unfold val_main_v263
  exact gather_read x1 (val_main_v262 (F := Ideal) x4) b q p

theorem cat295_0 : val_main_v295 (F := Ideal) x4 (ix3 b p (0 : Fin 2)) = val_main_v293 (F := Ideal) x4 (ix3 b p (0 : Fin 1)) := by
  unfold val_main_v295
  refine concatenate_apply_piece (2 : Fin S2x12544x2.rank) [⟨S2x12544x1, val_main_v293 (F := Ideal) x4⟩, ⟨S2x12544x1, val_main_v294 (F := Ideal) x4⟩] concatenates_S2x12544x1_S2x12544x1_S2x12544x2_d2 (ix3 b p (0 : Fin 2)) 0 (by show (0 : Nat) < 2; decide) S2x12544x1 (val_main_v293 (F := Ideal) x4) rfl rfl 0 rfl (ix3 b p (0 : Fin 1)) ?_ ?_
  · intro e he
    match e with
    | ⟨0, _⟩ => rfl
    | ⟨1, _⟩ => rfl
    | ⟨2, _⟩ => exact absurd rfl he
  · rfl

theorem cat295_1 : val_main_v295 (F := Ideal) x4 (ix3 b p (1 : Fin 2)) = val_main_v294 (F := Ideal) x4 (ix3 b p (0 : Fin 1)) := by
  unfold val_main_v295
  refine concatenate_apply_piece (2 : Fin S2x12544x2.rank) [⟨S2x12544x1, val_main_v293 (F := Ideal) x4⟩, ⟨S2x12544x1, val_main_v294 (F := Ideal) x4⟩] concatenates_S2x12544x1_S2x12544x1_S2x12544x2_d2 (ix3 b p (1 : Fin 2)) 1 (by show (1 : Nat) < 2; decide) S2x12544x1 (val_main_v294 (F := Ideal) x4) rfl rfl 1 rfl (ix3 b p (0 : Fin 1)) ?_ ?_
  · intro e he
    match e with
    | ⟨0, _⟩ => rfl
    | ⟨1, _⟩ => rfl
    | ⟨2, _⟩ => exact absurd rfl he
  · rfl

theorem gat296 : val_main_v296 (F := Ideal) x1 x4 (ix3 b q p)
    = x1 (ix4 b q (Spec.cellIx (val_main_v295 (F := Ideal) x4 (ix3 b p (0 : Fin 2))))
        (Spec.cellIx (val_main_v295 (F := Ideal) x4 (ix3 b p (1 : Fin 2))))) := by
  unfold val_main_v296
  exact gather_read x1 (val_main_v295 (F := Ideal) x4) b q p

theorem cat330_0 : val_main_v330 (F := Ideal) x4 (ix3 b p (0 : Fin 2)) = val_main_v328 (F := Ideal) x4 (ix3 b p (0 : Fin 1)) := by
  unfold val_main_v330
  refine concatenate_apply_piece (2 : Fin S2x12544x2.rank) [⟨S2x12544x1, val_main_v328 (F := Ideal) x4⟩, ⟨S2x12544x1, val_main_v329 (F := Ideal) x4⟩] concatenates_S2x12544x1_S2x12544x1_S2x12544x2_d2 (ix3 b p (0 : Fin 2)) 0 (by show (0 : Nat) < 2; decide) S2x12544x1 (val_main_v328 (F := Ideal) x4) rfl rfl 0 rfl (ix3 b p (0 : Fin 1)) ?_ ?_
  · intro e he
    match e with
    | ⟨0, _⟩ => rfl
    | ⟨1, _⟩ => rfl
    | ⟨2, _⟩ => exact absurd rfl he
  · rfl

theorem cat330_1 : val_main_v330 (F := Ideal) x4 (ix3 b p (1 : Fin 2)) = val_main_v329 (F := Ideal) x4 (ix3 b p (0 : Fin 1)) := by
  unfold val_main_v330
  refine concatenate_apply_piece (2 : Fin S2x12544x2.rank) [⟨S2x12544x1, val_main_v328 (F := Ideal) x4⟩, ⟨S2x12544x1, val_main_v329 (F := Ideal) x4⟩] concatenates_S2x12544x1_S2x12544x1_S2x12544x2_d2 (ix3 b p (1 : Fin 2)) 1 (by show (1 : Nat) < 2; decide) S2x12544x1 (val_main_v329 (F := Ideal) x4) rfl rfl 1 rfl (ix3 b p (0 : Fin 1)) ?_ ?_
  · intro e he
    match e with
    | ⟨0, _⟩ => rfl
    | ⟨1, _⟩ => rfl
    | ⟨2, _⟩ => exact absurd rfl he
  · rfl

theorem gat331 : val_main_v331 (F := Ideal) x1 x4 (ix3 b q p)
    = x1 (ix4 b q (Spec.cellIx (val_main_v330 (F := Ideal) x4 (ix3 b p (0 : Fin 2))))
        (Spec.cellIx (val_main_v330 (F := Ideal) x4 (ix3 b p (1 : Fin 2))))) := by
  unfold val_main_v331
  exact gather_read x1 (val_main_v330 (F := Ideal) x4) b q p

theorem atB_v227_0 : val_main_v227 (F := Ideal) x4 (ix3 b p (0 : Fin 1)) = val_main_v221 (F := Ideal) x4 (ix2 b p) := by
  rw [val_main_v227_apply]
  exact congrArg (val_main_v221 (F := Ideal) x4) (funext fun a => Fin.ext (by
    match a with
    | ⟨0, _⟩ => rfl
    | ⟨1, _⟩ => rfl))

theorem atB_v192_1 : val_main_v192 (F := Ideal) x4 (ix2 b p) = val_main_v191 (F := Ideal) x4 (ix3 b p (0 : Fin 1)) := by
  rw [val_main_v192_apply]
  exact congrArg (val_main_v191 (F := Ideal) x4) (funext fun a => Fin.ext (by
    match a with
    | ⟨0, _⟩ => have h_b := b.isLt; have h_p := p.isLt; show (b.val * 12544 + p.val) / 12544 = b.val; omega
    | ⟨1, _⟩ => have h_b := b.isLt; have h_p := p.isLt; show (b.val * 12544 + p.val) / 1 % 12544 = p.val; omega
    | ⟨2, _⟩ => rfl))

theorem atB_v191_2 : val_main_v191 (F := Ideal) x4 (ix3 b p (0 : Fin 1)) = x4 (ix3 b p (1 : Fin 2)) := by
  rw [val_main_v191_apply]
  exact congrArg (x4) (funext fun a => Fin.ext (by
    match a with
    | ⟨0, _⟩ => rfl
    | ⟨1, _⟩ => rfl
    | ⟨2, _⟩ => show 1 + 0 = 1; omega))

theorem atB_v228_3 : val_main_v228 (F := Ideal) x4 (ix3 b p (0 : Fin 1)) = val_main_v226 (F := Ideal) x4 (ix2 b p) := by
  rw [val_main_v228_apply]
  exact congrArg (val_main_v226 (F := Ideal) x4) (funext fun a => Fin.ext (by
    match a with
    | ⟨0, _⟩ => rfl
    | ⟨1, _⟩ => rfl))

theorem atB_v186_4 : val_main_v186 (F := Ideal) x4 (ix2 b p) = val_main_v185 (F := Ideal) x4 (ix3 b p (0 : Fin 1)) := by
  rw [val_main_v186_apply]
  exact congrArg (val_main_v185 (F := Ideal) x4) (funext fun a => Fin.ext (by
    match a with
    | ⟨0, _⟩ => have h_b := b.isLt; have h_p := p.isLt; show (b.val * 12544 + p.val) / 12544 = b.val; omega
    | ⟨1, _⟩ => have h_b := b.isLt; have h_p := p.isLt; show (b.val * 12544 + p.val) / 1 % 12544 = p.val; omega
    | ⟨2, _⟩ => rfl))

theorem atB_v185_5 : val_main_v185 (F := Ideal) x4 (ix3 b p (0 : Fin 1)) = x4 (ix3 b p (0 : Fin 2)) := by
  rw [val_main_v185_apply]
  exact congrArg (x4) (funext fun a => Fin.ext (by
    match a with
    | ⟨0, _⟩ => rfl
    | ⟨1, _⟩ => rfl
    | ⟨2, _⟩ => rfl))

theorem atB_v232_6 : val_main_v232 (F := Ideal) x4 (ix3 b q p) = val_main_v231 (F := Ideal) x4 (ix3 b (0 : Fin 1) p) := by
  rw [val_main_v232_apply]
  exact congrArg (val_main_v231 (F := Ideal) x4) (funext fun a => Fin.ext (by
    match a with
    | ⟨0, _⟩ => rfl
    | ⟨1, _⟩ => rfl
    | ⟨2, _⟩ => rfl))

theorem atB_v231_7 : val_main_v231 (F := Ideal) x4 (ix3 b (0 : Fin 1) p) = val_main_v214 (F := Ideal) x4 (ix2 b p) := by
  rw [val_main_v231_apply]
  exact congrArg (val_main_v214 (F := Ideal) x4) (funext fun a => Fin.ext (by
    match a with
    | ⟨0, _⟩ => rfl
    | ⟨1, _⟩ => rfl))

theorem atB_v338_8 : val_main_v338 (F := Ideal) x4 (ix3 b q p) = val_main_v337 (F := Ideal) x4 (ix3 b (0 : Fin 1) p) := by
  rw [val_main_v338_apply]
  exact congrArg (val_main_v337 (F := Ideal) x4) (funext fun a => Fin.ext (by
    match a with
    | ⟨0, _⟩ => rfl
    | ⟨1, _⟩ => rfl
    | ⟨2, _⟩ => rfl))

theorem atB_v337_9 : val_main_v337 (F := Ideal) x4 (ix3 b (0 : Fin 1) p) = val_main_v336 (F := Ideal) x4 (ix2 b p) := by
  rw [val_main_v337_apply]
  exact congrArg (val_main_v336 (F := Ideal) x4) (funext fun a => Fin.ext (by
    match a with
    | ⟨0, _⟩ => rfl
    | ⟨1, _⟩ => rfl))

theorem atB_v343_10 : val_main_v343 (F := Ideal) x4 (ix3 b q p) = val_main_v342 (F := Ideal) x4 (ix3 b (0 : Fin 1) p) := by
  rw [val_main_v343_apply]
  exact congrArg (val_main_v342 (F := Ideal) x4) (funext fun a => Fin.ext (by
    match a with
    | ⟨0, _⟩ => rfl
    | ⟨1, _⟩ => rfl
    | ⟨2, _⟩ => rfl))

theorem atB_v342_11 : val_main_v342 (F := Ideal) x4 (ix3 b (0 : Fin 1) p) = val_main_v341 (F := Ideal) x4 (ix2 b p) := by
  rw [val_main_v342_apply]
  exact congrArg (val_main_v341 (F := Ideal) x4) (funext fun a => Fin.ext (by
    match a with
    | ⟨0, _⟩ => rfl
    | ⟨1, _⟩ => rfl))

theorem atB_v260_12 : val_main_v260 (F := Ideal) x4 (ix3 b p (0 : Fin 1)) = val_main_v254 (F := Ideal) x4 (ix2 b p) := by
  rw [val_main_v260_apply]
  exact congrArg (val_main_v254 (F := Ideal) x4) (funext fun a => Fin.ext (by
    match a with
    | ⟨0, _⟩ => rfl
    | ⟨1, _⟩ => rfl))

theorem atB_v261_13 : val_main_v261 (F := Ideal) x4 (ix3 b p (0 : Fin 1)) = val_main_v259 (F := Ideal) x4 (ix2 b p) := by
  rw [val_main_v261_apply]
  exact congrArg (val_main_v259 (F := Ideal) x4) (funext fun a => Fin.ext (by
    match a with
    | ⟨0, _⟩ => rfl
    | ⟨1, _⟩ => rfl))

theorem atB_v265_14 : val_main_v265 (F := Ideal) x4 (ix3 b q p) = val_main_v264 (F := Ideal) x4 (ix3 b (0 : Fin 1) p) := by
  rw [val_main_v265_apply]
  exact congrArg (val_main_v264 (F := Ideal) x4) (funext fun a => Fin.ext (by
    match a with
    | ⟨0, _⟩ => rfl
    | ⟨1, _⟩ => rfl
    | ⟨2, _⟩ => rfl))

theorem atB_v264_15 : val_main_v264 (F := Ideal) x4 (ix3 b (0 : Fin 1) p) = val_main_v247 (F := Ideal) x4 (ix2 b p) := by
  rw [val_main_v264_apply]
  exact congrArg (val_main_v247 (F := Ideal) x4) (funext fun a => Fin.ext (by
    match a with
    | ⟨0, _⟩ => rfl
    | ⟨1, _⟩ => rfl))

theorem atB_v348_16 : val_main_v348 (F := Ideal) x4 (ix3 b q p) = val_main_v347 (F := Ideal) x4 (ix3 b (0 : Fin 1) p) := by
  rw [val_main_v348_apply]
  exact congrArg (val_main_v347 (F := Ideal) x4) (funext fun a => Fin.ext (by
    match a with
    | ⟨0, _⟩ => rfl
    | ⟨1, _⟩ => rfl
    | ⟨2, _⟩ => rfl))

theorem atB_v347_17 : val_main_v347 (F := Ideal) x4 (ix3 b (0 : Fin 1) p) = val_main_v346 (F := Ideal) x4 (ix2 b p) := by
  rw [val_main_v347_apply]
  exact congrArg (val_main_v346 (F := Ideal) x4) (funext fun a => Fin.ext (by
    match a with
    | ⟨0, _⟩ => rfl
    | ⟨1, _⟩ => rfl))

theorem atB_v351_18 : val_main_v351 (F := Ideal) x4 (ix3 b q p) = val_main_v350 (F := Ideal) x4 (ix3 b (0 : Fin 1) p) := by
  rw [val_main_v351_apply]
  exact congrArg (val_main_v350 (F := Ideal) x4) (funext fun a => Fin.ext (by
    match a with
    | ⟨0, _⟩ => rfl
    | ⟨1, _⟩ => rfl
    | ⟨2, _⟩ => rfl))

theorem atB_v350_19 : val_main_v350 (F := Ideal) x4 (ix3 b (0 : Fin 1) p) = val_main_v199 (F := Ideal) x4 (ix2 b p) := by
  rw [val_main_v350_apply]
  exact congrArg (val_main_v199 (F := Ideal) x4) (funext fun a => Fin.ext (by
    match a with
    | ⟨0, _⟩ => rfl
    | ⟨1, _⟩ => rfl))

theorem atB_v293_20 : val_main_v293 (F := Ideal) x4 (ix3 b p (0 : Fin 1)) = val_main_v287 (F := Ideal) x4 (ix2 b p) := by
  rw [val_main_v293_apply]
  exact congrArg (val_main_v287 (F := Ideal) x4) (funext fun a => Fin.ext (by
    match a with
    | ⟨0, _⟩ => rfl
    | ⟨1, _⟩ => rfl))

theorem atB_v294_21 : val_main_v294 (F := Ideal) x4 (ix3 b p (0 : Fin 1)) = val_main_v292 (F := Ideal) x4 (ix2 b p) := by
  rw [val_main_v294_apply]
  exact congrArg (val_main_v292 (F := Ideal) x4) (funext fun a => Fin.ext (by
    match a with
    | ⟨0, _⟩ => rfl
    | ⟨1, _⟩ => rfl))

theorem atB_v298_22 : val_main_v298 (F := Ideal) x4 (ix3 b q p) = val_main_v297 (F := Ideal) x4 (ix3 b (0 : Fin 1) p) := by
  rw [val_main_v298_apply]
  exact congrArg (val_main_v297 (F := Ideal) x4) (funext fun a => Fin.ext (by
    match a with
    | ⟨0, _⟩ => rfl
    | ⟨1, _⟩ => rfl
    | ⟨2, _⟩ => rfl))

theorem atB_v297_23 : val_main_v297 (F := Ideal) x4 (ix3 b (0 : Fin 1) p) = val_main_v280 (F := Ideal) x4 (ix2 b p) := by
  rw [val_main_v297_apply]
  exact congrArg (val_main_v280 (F := Ideal) x4) (funext fun a => Fin.ext (by
    match a with
    | ⟨0, _⟩ => rfl
    | ⟨1, _⟩ => rfl))

theorem atB_v355_24 : val_main_v355 (F := Ideal) x4 (ix3 b q p) = val_main_v354 (F := Ideal) x4 (ix3 b (0 : Fin 1) p) := by
  rw [val_main_v355_apply]
  exact congrArg (val_main_v354 (F := Ideal) x4) (funext fun a => Fin.ext (by
    match a with
    | ⟨0, _⟩ => rfl
    | ⟨1, _⟩ => rfl
    | ⟨2, _⟩ => rfl))

theorem atB_v354_25 : val_main_v354 (F := Ideal) x4 (ix3 b (0 : Fin 1) p) = val_main_v200 (F := Ideal) x4 (ix2 b p) := by
  rw [val_main_v354_apply]
  exact congrArg (val_main_v200 (F := Ideal) x4) (funext fun a => Fin.ext (by
    match a with
    | ⟨0, _⟩ => rfl
    | ⟨1, _⟩ => rfl))

theorem atB_v360_26 : val_main_v360 (F := Ideal) x4 (ix3 b q p) = val_main_v359 (F := Ideal) x4 (ix3 b (0 : Fin 1) p) := by
  rw [val_main_v360_apply]
  exact congrArg (val_main_v359 (F := Ideal) x4) (funext fun a => Fin.ext (by
    match a with
    | ⟨0, _⟩ => rfl
    | ⟨1, _⟩ => rfl
    | ⟨2, _⟩ => rfl))

theorem atB_v359_27 : val_main_v359 (F := Ideal) x4 (ix3 b (0 : Fin 1) p) = val_main_v358 (F := Ideal) x4 (ix2 b p) := by
  rw [val_main_v359_apply]
  exact congrArg (val_main_v358 (F := Ideal) x4) (funext fun a => Fin.ext (by
    match a with
    | ⟨0, _⟩ => rfl
    | ⟨1, _⟩ => rfl))

theorem atB_v328_28 : val_main_v328 (F := Ideal) x4 (ix3 b p (0 : Fin 1)) = val_main_v322 (F := Ideal) x4 (ix2 b p) := by
  rw [val_main_v328_apply]
  exact congrArg (val_main_v322 (F := Ideal) x4) (funext fun a => Fin.ext (by
    match a with
    | ⟨0, _⟩ => rfl
    | ⟨1, _⟩ => rfl))

theorem atB_v329_29 : val_main_v329 (F := Ideal) x4 (ix3 b p (0 : Fin 1)) = val_main_v327 (F := Ideal) x4 (ix2 b p) := by
  rw [val_main_v329_apply]
  exact congrArg (val_main_v327 (F := Ideal) x4) (funext fun a => Fin.ext (by
    match a with
    | ⟨0, _⟩ => rfl
    | ⟨1, _⟩ => rfl))

theorem atB_v333_30 : val_main_v333 (F := Ideal) x4 (ix3 b q p) = val_main_v332 (F := Ideal) x4 (ix3 b (0 : Fin 1) p) := by
  rw [val_main_v333_apply]
  exact congrArg (val_main_v332 (F := Ideal) x4) (funext fun a => Fin.ext (by
    match a with
    | ⟨0, _⟩ => rfl
    | ⟨1, _⟩ => rfl
    | ⟨2, _⟩ => rfl))

theorem atB_v332_31 : val_main_v332 (F := Ideal) x4 (ix3 b (0 : Fin 1) p) = val_main_v315 (F := Ideal) x4 (ix2 b p) := by
  rw [val_main_v332_apply]
  exact congrArg (val_main_v315 (F := Ideal) x4) (funext fun a => Fin.ext (by
    match a with
    | ⟨0, _⟩ => rfl
    | ⟨1, _⟩ => rfl))

theorem atB_v364_32 : val_main_v364 (F := Ideal) x4 (ix3 b q p) = val_main_v363 (F := Ideal) x4 (ix3 b (0 : Fin 1) p) := by
  rw [val_main_v364_apply]
  exact congrArg (val_main_v363 (F := Ideal) x4) (funext fun a => Fin.ext (by
    match a with
    | ⟨0, _⟩ => rfl
    | ⟨1, _⟩ => rfl
    | ⟨2, _⟩ => rfl))

theorem atB_v363_33 : val_main_v363 (F := Ideal) x4 (ix3 b (0 : Fin 1) p) = val_main_v200 (F := Ideal) x4 (ix2 b p) := by
  rw [val_main_v363_apply]
  exact congrArg (val_main_v200 (F := Ideal) x4) (funext fun a => Fin.ext (by
    match a with
    | ⟨0, _⟩ => rfl
    | ⟨1, _⟩ => rfl))

theorem atB_v367_34 : val_main_v367 (F := Ideal) x4 (ix3 b q p) = val_main_v366 (F := Ideal) x4 (ix3 b (0 : Fin 1) p) := by
  rw [val_main_v367_apply]
  exact congrArg (val_main_v366 (F := Ideal) x4) (funext fun a => Fin.ext (by
    match a with
    | ⟨0, _⟩ => rfl
    | ⟨1, _⟩ => rfl
    | ⟨2, _⟩ => rfl))

theorem atB_v366_35 : val_main_v366 (F := Ideal) x4 (ix3 b (0 : Fin 1) p) = val_main_v199 (F := Ideal) x4 (ix2 b p) := by
  rw [val_main_v366_apply]
  exact congrArg (val_main_v199 (F := Ideal) x4) (funext fun a => Fin.ext (by
    match a with
    | ⟨0, _⟩ => rfl
    | ⟨1, _⟩ => rfl))

/-- The sampled value of image (b, q) at point p: the bilinear sample of the specification. -/
theorem sample_tm : val_main_v369 (F := Ideal) x1 x4 (ix3 b q p)
    = Spec.sample (fun r s => x1 (ix4 b q r s)) (x4 (ix3 b p 0)) (x4 (ix3 b p 1)) := by
  rw [val_main_v369_apply, val_main_v368_apply, atB_v367_34, atB_v366_35, val_main_v365_apply, atB_v364_32,
    atB_v363_33, val_main_v362_apply, val_main_v361_apply, atB_v360_26, atB_v359_27, val_main_v358_apply,
    val_main_v357_apply, val_main_v356_apply, atB_v355_24, atB_v354_25, val_main_v353_apply, val_main_v352_apply,
    atB_v351_18, atB_v350_19, val_main_v349_apply, atB_v348_16, atB_v347_17, val_main_v346_apply,
    val_main_v345_apply, val_main_v344_apply, atB_v343_10, atB_v342_11, val_main_v341_apply, val_main_v340_apply,
    val_main_v339_apply, atB_v338_8, atB_v337_9, val_main_v336_apply, val_main_v335_apply, val_main_v334_apply,
    atB_v333_30, atB_v332_31, gat331, cat330_0, cat330_1, atB_v329_29,
    atB_v328_28, val_main_v327_apply, val_main_v326_apply, val_main_v325_apply, val_main_v324_apply, val_main_v323_apply,
    val_main_v322_apply, val_main_v321_apply, val_main_v320_apply, val_main_v319_apply, val_main_v318_apply, val_main_v317_apply,
    val_main_call15_v4_apply, val_main_call15_v2_apply, val_main_call15_v1_apply, val_main_v316_apply, val_main_call14_v4_apply, val_main_call14_v2_apply,
    val_main_call14_v1_apply, val_main_v315_apply, val_main_v314_apply, val_main_v313_apply, val_main_v312_apply, val_main_v311_apply,
    val_main_v310_apply, val_main_v309_apply, val_main_v308_apply, val_main_v307_apply, val_main_v306_apply, val_main_v305_apply,
    val_main_v304_apply, val_main_v303_apply, val_main_v302_apply, val_main_v301_apply, val_main_v300_apply, val_main_v299_apply,
    atB_v298_22, atB_v297_23, gat296, cat295_0, cat295_1, atB_v294_21,
    atB_v293_20, val_main_v292_apply, val_main_v291_apply, val_main_v290_apply, val_main_v289_apply, val_main_v288_apply,
    val_main_v287_apply, val_main_v286_apply, val_main_v285_apply, val_main_v284_apply, val_main_v283_apply, val_main_v282_apply,
    val_main_call13_v4_apply, val_main_call13_v2_apply, val_main_call13_v1_apply, val_main_v281_apply, val_main_call12_v4_apply, val_main_call12_v2_apply,
    val_main_call12_v1_apply, val_main_v280_apply, val_main_v279_apply, val_main_v278_apply, val_main_v277_apply, val_main_v276_apply,
    val_main_v275_apply, val_main_v274_apply, val_main_v273_apply, val_main_v272_apply, val_main_v271_apply, val_main_v270_apply,
    val_main_v269_apply, val_main_v268_apply, val_main_v267_apply, val_main_v266_apply, atB_v265_14, atB_v264_15,
    gat263, cat262_0, cat262_1, atB_v261_13, atB_v260_12, val_main_v259_apply,
    val_main_v258_apply, val_main_v257_apply, val_main_v256_apply, val_main_v255_apply, val_main_v254_apply, val_main_v253_apply,
    val_main_v252_apply, val_main_v251_apply, val_main_v250_apply, val_main_v249_apply, val_main_call11_v4_apply, val_main_call11_v2_apply,
    val_main_call11_v1_apply, val_main_v248_apply, val_main_call10_v4_apply, val_main_call10_v2_apply, val_main_call10_v1_apply, val_main_v247_apply,
    val_main_v246_apply, val_main_v245_apply, val_main_v244_apply, val_main_v243_apply, val_main_v242_apply, val_main_v241_apply,
    val_main_v240_apply, val_main_v239_apply, val_main_v238_apply, val_main_v237_apply, val_main_v236_apply, val_main_v235_apply,
    val_main_v234_apply, val_main_v233_apply, atB_v232_6, atB_v231_7, gat230, cat229_0,
    cat229_1, atB_v228_3, atB_v227_0, val_main_v226_apply, val_main_v225_apply, val_main_v224_apply,
    val_main_v223_apply, val_main_v222_apply, val_main_v221_apply, val_main_v220_apply, val_main_v219_apply, val_main_v218_apply,
    val_main_v217_apply, val_main_v216_apply, val_main_call9_v4_apply, val_main_call9_v2_apply, val_main_call9_v1_apply, val_main_v215_apply,
    val_main_call8_v4_apply, val_main_call8_v2_apply, val_main_call8_v1_apply, val_main_v214_apply, val_main_v213_apply, val_main_v212_apply,
    val_main_v211_apply, val_main_v210_apply, val_main_v209_apply, val_main_v208_apply, val_main_v207_apply, val_main_v206_apply,
    val_main_v205_apply, val_main_v204_apply, val_main_v203_apply, val_main_v202_apply, val_main_v201_apply, val_main_v200_apply,
    val_main_v199_apply, val_main_v198_apply, val_main_v197_apply, val_main_v196_apply, val_main_v195_apply, val_main_v194_apply,
    val_main_v193_apply, atB_v192_1, atB_v191_2, val_main_v190_apply, val_main_v189_apply, val_main_v188_apply,
    val_main_v187_apply, atB_v186_4, atB_v185_5]
  simp only [val_main_call8_v3_apply, val_main_c_67_apply, val_main_call8_v0_apply, val_main_c_66_apply, val_main_cst_60_apply, val_main_cst_61_apply, val_main_c_70_apply, val_main_c_71_apply, val_main_call9_v3_apply, val_main_c_69_apply, val_main_call9_v0_apply, val_main_c_68_apply, val_main_cst_58_apply, val_main_cst_59_apply, val_main_c_72_apply, val_main_c_73_apply, val_main_c_62_apply, val_main_c_63_apply, val_main_c_64_apply, val_main_c_65_apply, val_main_cst_114_apply, val_main_cst_115_apply, val_main_call10_v3_apply, val_main_c_80_apply, val_main_call10_v0_apply, val_main_c_79_apply, val_main_c_83_apply, val_main_c_84_apply, val_main_call11_v3_apply, val_main_c_82_apply, val_main_call11_v0_apply, val_main_c_81_apply, val_main_c_74_apply, val_main_c_85_apply, val_main_c_86_apply, val_main_c_75_apply, val_main_c_76_apply, val_main_c_77_apply, val_main_c_78_apply, val_main_cst_116_apply, val_main_call12_v3_apply, val_main_c_93_apply, val_main_call12_v0_apply, val_main_c_92_apply, val_main_c_87_apply, val_main_c_96_apply, val_main_c_97_apply, val_main_call13_v3_apply, val_main_c_95_apply, val_main_call13_v0_apply, val_main_c_94_apply, val_main_c_98_apply, val_main_c_99_apply, val_main_c_88_apply, val_main_c_89_apply, val_main_c_90_apply, val_main_c_91_apply, val_main_cst_117_apply, val_main_call14_v3_apply, val_main_c_107_apply, val_main_call14_v0_apply, val_main_c_106_apply, val_main_c_100_apply, val_main_c_110_apply, val_main_c_111_apply, val_main_call15_v3_apply, val_main_c_109_apply, val_main_call15_v0_apply, val_main_c_108_apply, val_main_c_101_apply, val_main_c_112_apply, val_main_c_113_apply, val_main_c_102_apply, val_main_c_103_apply, val_main_c_104_apply, val_main_c_105_apply]
  simp only [wrap_clip]
  rfl

end Cert.RefValue

end
-- ==== Proof.RefResult.lean ====
/-
  The reference's result read at an index: element (b, q, t) of the cost matrix is the specification's cost
  of the bilinear samples of predicted mask (b, q) and target mask (b, t) at the 12544 points of batch
  element b, and of the boxes (b, q) and (b, t).
-/
import proofs.«176196_j77713138253901_2_alg».proof.Proof.RefReadP
import proofs.«176196_j77713138253901_2_alg».proof.Proof.Spec
import Idealize.ShloMosaic.Lib.Pipeline.Value
import Idealize.ShloMosaic.Lib.ValueIdx
import Idealize.ShloMosaic.PureOps.Ideal.Laws
import proofs.«176196_j77713138253901_2_alg».proof.Proof.RefTail
import proofs.«176196_j77713138253901_2_alg».proof.Proof.RefSampleA
import proofs.«176196_j77713138253901_2_alg».proof.Proof.RefSampleB

set_option maxHeartbeats 1000000

noncomputable section

namespace Cert.RefValue

open Cert.ReferenceIdeal Cert.ReferenceIdeal.Gen Cert.ReferenceIdeal.ReadP Idealize.ShloMosaic Idealize.ShloMosaic.ValueIdx

/-- Element (b, q, t) of the reference's cost matrix. -/
theorem result_apply (a0 a1 : (⟨S2x300x256x256, .f32⟩ : BufTy).Contents (Elt Ideal))
    (a2 a3 : (⟨S2x300x4, .f32⟩ : BufTy).Contents (Elt Ideal))
    (a4 : (⟨S2x12544x2, .f32⟩ : BufTy).Contents (Elt Ideal)) (b : Fin 2) (q t : Fin 300) :
    Cert.ReferenceIdeal.ReadP.val_main_v545 (F := Ideal) a0 a1 a2 a3 a4 (ValueIdx.ix3 b q t)
      = Cert.Spec.costR (ι := Fin 12544)
          (fun p => Cert.Spec.sample (fun r s => a0 (ValueIdx.ix4 b q r s)) (a4 (ValueIdx.ix3 b p 0)) (a4 (ValueIdx.ix3 b p 1)))
          (fun p => Cert.Spec.sample (fun r s => a1 (ValueIdx.ix4 b t r s)) (a4 (ValueIdx.ix3 b p 0)) (a4 (ValueIdx.ix3 b p 1)))
          (fun j => a2 (ValueIdx.ix3 b q j)) (fun j => a3 (ValueIdx.ix3 b t j)) := by
  rw [tail_apply]
  have h1 : (fun p : Fin 12544 => val_main_v184 (F := Ideal) a0 a4 (ix3 b q p))
      = fun p => Cert.Spec.sample (fun r s => a0 (ix4 b q r s)) (a4 (ix3 b p 0)) (a4 (ix3 b p 1)) :=
    funext fun p => sample_om a0 a4 b q p
  have h2 : (fun p : Fin 12544 => val_main_v369 (F := Ideal) a1 a4 (ix3 b t p))
      = fun p => Cert.Spec.sample (fun r s => a1 (ix4 b t r s)) (a4 (ix3 b p 0)) (a4 (ix3 b p 1)) :=
    funext fun p => sample_tm a1 a4 b t p
  rw [h1, h2]

end Cert.RefValue

end
-- ==== Proof.MaskLaw.lean ====
/-
  The algebraic law between the two arrangements of the cost, on real-valued rows:
  first the pointwise chains at a real argument, then the sums.

  With the words 0x00000000 and 0x3F800000 read as the extended reals 0 and 1, every chain of the
  specification, applied to a real number r, is a real number again, and has a closed form:
    softplus(−r) = log(1 + exp(−r)),   softplus(r) = log(1 + exp r),   σ(r) = (1 + exp(−r))⁻¹.
  Both spellings (the sum max(·, 0) + log1p(exp(−|·|)), and r + softplus(−r), exp(−softplus(−r)),
  1 / (1 + exp(−r))) reduce to these, so the two arrangements agree term by term on real rows.
-/
import Mathlib
import Idealize.ShloMosaic.PureOps.Ideal
import Idealize.ShloMosaic.PureOps.Ideal.Laws
import Idealize.ShloMosaic.Lib.IdealHost
import proofs.«176196_j77713138253901_2_alg».proof.Proof.Spec

noncomputable section

namespace Cert.MaskLaw

open Idealize.ShloMosaic Cert.Spec

/-! ## The two words that are evaluated -/

theorem c0_eq : Spec.c0 = 0 := Ideal.ofBits_zero_f32

theorem c1_eq : Spec.c1 = 1 := Ideal.ofBits_one_f32

/-! ## Real identities -/

/-- max(r, 0) + log(1 + exp(−|r|)) = log(1 + exp r): for r ≥ 0 the left side is
    log(exp r) + log(1 + exp(−r)) = log(exp r + 1); for r < 0 it is 0 + log(1 + exp r). -/
theorem softplus_real (r : ℝ) :
    max r 0 + Real.log (1 + Real.exp (-|r|)) = Real.log (1 + Real.exp r) := by
  rcases le_or_gt 0 r with h | h
  · rw [max_eq_left h, abs_of_nonneg h]
    have h1 : (0 : ℝ) < 1 + Real.exp (-r) := by positivity
    have h2 : (0 : ℝ) < Real.exp r := Real.exp_pos r
    calc r + Real.log (1 + Real.exp (-r))
        = Real.log (Real.exp r) + Real.log (1 + Real.exp (-r)) := by rw [Real.log_exp]
      _ = Real.log (Real.exp r * (1 + Real.exp (-r))) := (Real.log_mul h2.ne' h1.ne').symm
      _ = Real.log (1 + Real.exp r) := by
          congr 1
          rw [mul_add, mul_one, ← Real.exp_add, add_neg_cancel, Real.exp_zero, add_comm]
  · rw [max_eq_right h.le, abs_of_neg h, neg_neg, zero_add]

/-- r + log(1 + exp(−r)) = log(1 + exp r). -/
theorem add_log_one_add_exp_neg (r : ℝ) :
    r + Real.log (1 + Real.exp (-r)) = Real.log (1 + Real.exp r) := by
  have h1 : (0 : ℝ) < 1 + Real.exp (-r) := by positivity
  have h2 : (0 : ℝ) < Real.exp r := Real.exp_pos r
  calc r + Real.log (1 + Real.exp (-r))
      = Real.log (Real.exp r) + Real.log (1 + Real.exp (-r)) := by rw [Real.log_exp]
    _ = Real.log (Real.exp r * (1 + Real.exp (-r))) := (Real.log_mul h2.ne' h1.ne').symm
    _ = Real.log (1 + Real.exp r) := by
        congr 1
        rw [mul_add, mul_one, ← Real.exp_add, add_neg_cancel, Real.exp_zero, add_comm]

/-- exp(−log(1 + exp(−r))) = (1 + exp(−r))⁻¹. -/
theorem exp_neg_log_one_add_exp_neg (r : ℝ) :
    Real.exp (-Real.log (1 + Real.exp (-r))) = (1 + Real.exp (-r))⁻¹ := by
  have h1 : (0 : ℝ) < 1 + Real.exp (-r) := by positivity
  rw [Real.exp_neg, Real.exp_log h1]

/-! ## The chains at a real argument -/

/-- |y| in the instance's spelling, at a real. -/
theorem absE_coe (r : ℝ) : Spec.absE (r : EReal) = ((|r| : ℝ) : EReal) := by
  unfold Spec.absE
  rw [Ideal.absf_def, ← EReal.coe_neg, ← EReal.coe_strictMono.monotone.map_max, abs_eq_max_neg]

/-- log1p(exp(−|r|)) at a real is the real log(1 + exp(−|r|)): the argument of the logarithm is positive. -/
theorem log1p_exp_coe (s : ℝ) :
    Ideal.log1p (Ideal.exp ((s : ℝ) : EReal)) = ((Real.log (1 + Real.exp s) : ℝ) : EReal) := by
  have h1 : ¬ (1 + Real.exp s ≤ 0) := not_le.mpr (by positivity)
  rw [Ideal.exp_coe, Ideal.log1p, ← EReal.coe_one, ← EReal.coe_add, Ideal.log_coe, if_neg h1]

/-- The second program's softplus at a real. -/
theorem spR_coe (r : ℝ) : Spec.spR (r : EReal) = ((Real.log (1 + Real.exp r) : ℝ) : EReal) := by
  unfold Spec.spR
  rw [c0_eq, sub_zero, absE_coe, ← EReal.coe_neg, log1p_exp_coe, ← EReal.coe_zero,
    ← EReal.coe_strictMono.monotone.map_max, ← EReal.coe_add, softplus_real]

/-- softplus(−r) in the first program's spelling. -/
theorem posK_coe (r : ℝ) : Spec.posK (r : EReal) = ((Real.log (1 + Real.exp (-r)) : ℝ) : EReal) := by
  unfold Spec.posK
  rw [c0_eq, zero_sub, sub_zero, zero_sub, ← EReal.coe_neg, absE_coe, ← EReal.coe_neg, log1p_exp_coe,
    ← EReal.coe_zero, ← EReal.coe_strictMono.monotone.map_max, ← EReal.coe_add, softplus_real]

/-- softplus(r) spelt r + softplus(−r). -/
theorem negK_coe (r : ℝ) : Spec.negK (r : EReal) = ((Real.log (1 + Real.exp r) : ℝ) : EReal) := by
  unfold Spec.negK
  rw [posK_coe, ← EReal.coe_add, add_log_one_add_exp_neg]

/-- σ(r) spelt exp(0 − softplus(−r)). -/
theorem sigK_coe (r : ℝ) : Spec.sigK (r : EReal) = (((1 + Real.exp (-r))⁻¹ : ℝ) : EReal) := by
  unfold Spec.sigK
  rw [posK_coe, c0_eq, zero_sub, ← EReal.coe_neg, Ideal.exp_coe, exp_neg_log_one_add_exp_neg]

/-- softplus(−r) in the second program's spelling. -/
theorem posR_coe (r : ℝ) : Spec.posR (r : EReal) = ((Real.log (1 + Real.exp (-r)) : ℝ) : EReal) := by
  unfold Spec.posR
  rw [← EReal.coe_neg, spR_coe]

/-- softplus(r) in the second program's spelling. -/
theorem negR_coe (r : ℝ) : Spec.negR (r : EReal) = ((Real.log (1 + Real.exp r) : ℝ) : EReal) := by
  unfold Spec.negR
  rw [spR_coe]

/-- σ(r) spelt 1 / (1 + exp(−r)): the denominator is a positive real. -/
theorem sigR_coe (r : ℝ) : Spec.sigR (r : EReal) = (((1 + Real.exp (-r))⁻¹ : ℝ) : EReal) := by
  have h1 : (1 + Real.exp (-r) : ℝ) ≠ 0 := ne_of_gt (by positivity)
  unfold Spec.sigR
  rw [c1_eq, ← EReal.coe_neg, Ideal.exp_coe, ← EReal.coe_one, ← EReal.coe_add, Ideal.div_coe h1,
    ← EReal.coe_mul, one_mul, one_div]

/-! ## The two spellings agree at a real argument -/

theorem posK_eq_posR (r : ℝ) : Spec.posK (r : EReal) = Spec.posR (r : EReal) := by rw [posK_coe, posR_coe]

theorem negK_eq_negR (r : ℝ) : Spec.negK (r : EReal) = Spec.negR (r : EReal) := by rw [negK_coe, negR_coe]

theorem sigK_eq_sigR (r : ℝ) : Spec.sigK (r : EReal) = Spec.sigR (r : EReal) := by rw [sigK_coe, sigR_coe]

/-! ## The sums

  Write P_p = softplus(−x_p), N_p = softplus(x_p), s_p = σ(x_p) at a real row x. Since N_p = x_p + P_p,
    Σ_p [P_p y_p + N_p (1 − y_p)] = Σ_p [N_p − x_p y_p] = (Σ_p N_p) − Σ_p x_p y_p,
  the two arrangements of the cross-entropy sum; the dice sums Σ s_p y_p, Σ s_p, Σ y_p agree term by term;
  the box terms are the same expressions, and 0 − g = −g. -/

/-- A finite sum of real numbers, each read as an extended real, is the real sum read as an extended real. -/
theorem coe_sum {ι : Type} (s : Finset ι) (f : ι → ℝ) :
    (∑ p ∈ s, ((f p : ℝ) : EReal)) = ((∑ p ∈ s, f p : ℝ) : EReal) := by
  classical
  refine Finset.induction_on s ?_ ?_
  · rw [Finset.sum_empty, Finset.sum_empty, EReal.coe_zero]
  · intro a s ha ih
    rw [Finset.sum_insert ha, Finset.sum_insert ha, ih, EReal.coe_add]

/-- The cross-entropy sum in its two arrangements:
    (Σ N_p) − Σ x_p y_p = Σ P_p y_p + Σ N_p (1 − y_p), because N_p = x_p + P_p. -/
theorem crossEntropy_arrangements {ι : Type} [Fintype ι] (x y : ι → ℝ) :
    (∑ p, Spec.negK ((x p : ℝ) : EReal)) - ∑ p, ((x p : ℝ) : EReal) * ((y p : ℝ) : EReal)
      = (∑ p, Spec.posR ((x p : ℝ) : EReal) * ((y p : ℝ) : EReal))
        + ∑ p, Spec.negR ((x p : ℝ) : EReal) * (Spec.c1 - ((y p : ℝ) : EReal)) := by
  have e1 : ∀ p, Spec.negK ((x p : ℝ) : EReal) = ((Real.log (1 + Real.exp (x p)) : ℝ) : EReal) :=
    fun p => negK_coe (x p)
  have e2 : ∀ p, Spec.posR ((x p : ℝ) : EReal) * ((y p : ℝ) : EReal)
      = ((Real.log (1 + Real.exp (-x p)) * y p : ℝ) : EReal) :=
    fun p => by rw [posR_coe, EReal.coe_mul]
  have e3 : ∀ p, Spec.negR ((x p : ℝ) : EReal) * (Spec.c1 - ((y p : ℝ) : EReal))
      = ((Real.log (1 + Real.exp (x p)) * (1 - y p) : ℝ) : EReal) :=
    fun p => by rw [negR_coe, c1_eq, EReal.coe_mul, EReal.coe_sub, EReal.coe_one]
  have e4 : ∀ p, ((x p : ℝ) : EReal) * ((y p : ℝ) : EReal) = ((x p * y p : ℝ) : EReal) :=
    fun p => (EReal.coe_mul _ _).symm
  simp only [e1, e2, e3, e4]
  rw [coe_sum, coe_sum, coe_sum, coe_sum, ← EReal.coe_sub, ← EReal.coe_add]
  congr 1
  rw [← Finset.sum_add_distrib, ← Finset.sum_sub_distrib]
  refine Finset.sum_congr rfl (fun p _ => ?_)
  rw [← add_log_one_add_exp_neg (x p)]
  ring

/-- On real-valued rows the two arrangements of the cost are the same extended real. -/
theorem costK_eq_costR {ι : Type} [Fintype ι] (x y : ι → ℝ) (a b : Fin 4 → EReal) :
    Cert.Spec.costK (fun p => ((x p : ℝ) : EReal)) (fun p => ((y p : ℝ) : EReal)) a b
      = Cert.Spec.costR (fun p => ((x p : ℝ) : EReal)) (fun p => ((y p : ℝ) : EReal)) a b := by
  have hD : (∑ p, Spec.sigK ((x p : ℝ) : EReal) * ((y p : ℝ) : EReal))
      = ∑ p, Spec.sigR ((x p : ℝ) : EReal) * ((y p : ℝ) : EReal) :=
    Finset.sum_congr rfl (fun p _ => by rw [sigK_eq_sigR])
  have hS : (∑ p, Spec.sigK ((x p : ℝ) : EReal)) = ∑ p, Spec.sigR ((x p : ℝ) : EReal) :=
    Finset.sum_congr rfl (fun p _ => sigK_eq_sigR (x p))
  have hg : Spec.c0 - Spec.giou a b = -(Spec.giou a b) := by rw [c0_eq, zero_sub]
  have hM := crossEntropy_arrangements x y
  unfold Spec.costK Spec.costR
  rw [hD, hS, hg, hM]

end Cert.MaskLaw

end
-- ==== Proof.PreReal.lean ====
/-
  From the precondition to "every entry is a real number".

  The precondition is the conjunction, over the five argument arrays, of "every entry x has |x| < +∞"
  (the word 0x7F800000 is +∞). An extended real whose absolute value max(x, −x) lies below +∞ is neither
  +∞ nor −∞, hence a real number. A conjunction of one-bit words that is 1 has every conjunct 1, and an
  "all" over an array (a reduction by "and" from 1 into a single entry) that is 1 had a 1 at every index.
-/
import Idealize.ShloMosaic.PureOps.Ideal
import Idealize.ShloMosaic.PureOps.Ideal.Laws
import Idealize.ShloMosaic.Lib.ReduceAll
import Idealize.ShloMosaic.Lib.ValueIdx
import proofs.«176196_j77713138253901_2_alg».proof.Pre_finite_inputs

namespace Cert.PreReal

open Idealize.ShloMosaic Cert.Pre_finite_inputs

/-- The result of the precondition has a single index. -/
instance : Subsingleton S_.Idx := ⟨fun a b => funext fun d => d.elim0⟩

/-- The word 0x7F800000 is +∞. -/
theorem inf_word : Ideal.ofBits .f32 0x7F800000#32 = ⊤ := by simp [Ideal.ofBits, Ideal.ieee]

/-- An extended real whose absolute value max(x, −x) is below +∞ is a real number:
    at −∞ and at +∞ the maximum is +∞, which is not below itself. -/
theorem real_of_abs_lt_inf (x : EReal)
    (h : Ideal.cmp .olt (max x (-x)) (Ideal.ofBits .f32 0x7F800000#32) = 1#1) : ∃ r : ℝ, x = (r : EReal) := by
  rw [inf_word] at h
  induction x using EReal.rec with
  | bot => simp [Ideal.cmp] at h
  | coe r => exact ⟨r, rfl⟩
  | top => simp [Ideal.cmp] at h

/-- One array: if "all entries have |x| < +∞" came out 1, every entry is a real number. -/
theorem all_real {s : Shape} {axes : List (Fin s.rank)} (a : FVec Ideal s .f32)
    (hb : S_.BroadcastsInDim s (![] : Fin 0 → Fin s.rank)) (hr : s.ReducesTo axes S_) (hu : 0 < S_.numel)
    (e : Host.reduce IntOp.andi
          (cmpf .olt (Host.absf a) (broadcastInDim s ![] hb (constant (F := Ideal) S_ .f32 0x7F800000#32)))
          (constantI S_ 1 1#1) hr hu ValueIdx.ix0 = 1#1) :
    ∀ i, ∃ r : ℝ, a i = (r : EReal) := by
  intro i
  have hi := Host.reduce_andi_all _ _ hr hu ValueIdx.ix0 e i
  exact real_of_abs_lt_inf (a i) hi

/-- Under the precondition every entry of every argument array is a real number. -/
theorem real_of_pre [Facts] (a0 a1 : FVec Ideal S2x300x256x256 .f32) (a2 a3 : FVec Ideal S2x300x4 .f32)
    (a4 : FVec Ideal S2x12544x2 .f32) (h : fn (F := Ideal) a0 a1 a2 a3 a4 = (fun _ => 1#1)) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) := by
  have h0 := congrFun h ValueIdx.ix0
  dsimp only [fn, fn_part1] at h0
  obtain ⟨h0123, e4⟩ := IntOp.andi_eq_one.1 h0
  obtain ⟨h012, e3⟩ := IntOp.andi_eq_one.1 h0123
  obtain ⟨h01, e2⟩ := IntOp.andi_eq_one.1 h012
  obtain ⟨e0, e1⟩ := IntOp.andi_eq_one.1 h01
  exact ⟨all_real a0 _ _ _ e0, all_real a1 _ _ _ e1, all_real a2 _ _ _ e2, all_real a3 _ _ _ e3,
    all_real a4 _ _ _ e4⟩

end Cert.PreReal
-- ==== Proof.SampleReal.lean ====
/-
  The bilinear sample of a real image at a real point is a real number.

  Every step of the sampling keeps real numbers real: the pixel coordinate c · 256 − 1/2 (the words
  0x43800000 and 0x3F000000 are the reals 256 and 1/2), its floor, the fractional weights w = x − ⌊x⌋ and
  1 − w, each corner (an entry of the image, real by hypothesis, times a one-bit word read as 0 or 1),
  and the four weighted corners' sum. Which cell the floor selects plays no part.
-/
import Mathlib
import Idealize.ShloMosaic.PureOps.Ideal
import Idealize.ShloMosaic.PureOps.Ideal.Laws
import Idealize.ShloMosaic.Lib.IdealHost
import proofs.«176196_j77713138253901_2_alg».proof.Proof.Spec

namespace Cert.SampleReal

open Idealize.ShloMosaic Cert.Spec

/-- An extended real that is a real number. -/
def IsReal (z : EReal) : Prop := ∃ r : ℝ, z = (r : EReal)

theorem IsReal.coe (r : ℝ) : IsReal (r : EReal) := ⟨r, rfl⟩

theorem IsReal.add {a b : EReal} (ha : IsReal a) (hb : IsReal b) : IsReal (a + b) := by
  obtain ⟨r, rfl⟩ := ha
  obtain ⟨s, rfl⟩ := hb
  exact ⟨r + s, (EReal.coe_add r s).symm⟩

theorem IsReal.sub {a b : EReal} (ha : IsReal a) (hb : IsReal b) : IsReal (a - b) := by
  obtain ⟨r, rfl⟩ := ha
  obtain ⟨s, rfl⟩ := hb
  exact ⟨r - s, (EReal.coe_sub r s).symm⟩

theorem IsReal.mul {a b : EReal} (ha : IsReal a) (hb : IsReal b) : IsReal (a * b) := by
  obtain ⟨r, rfl⟩ := ha
  obtain ⟨s, rfl⟩ := hb
  exact ⟨r * s, (EReal.coe_mul r s).symm⟩

/-! ## The words -/

/-- The word 0x43800000 is 2⁸ = 256. -/
theorem c256_eq : Spec.c256 = ((256 : ℝ) : EReal) := by
  unfold Spec.c256
  simp [Ideal.ofBits, Ideal.ieee, -EReal.coe_mul]; norm_num

/-- The word 0x3F000000 is 2⁻¹ = 1/2. -/
theorem cHalf_eq : Spec.cHalf = (((1 : ℝ) / 2 : ℝ) : EReal) := by
  unfold Spec.cHalf
  simp [Ideal.ofBits, Ideal.ieee, -EReal.coe_mul]; norm_num

theorem c1_real : IsReal Spec.c1 := ⟨1, Ideal.ofBits_one_f32.trans EReal.coe_one.symm⟩

/-! ## The steps -/

/-- c · 256 − 1/2 of a real is a real. -/
theorem pix_real {c : EReal} (hc : IsReal c) : IsReal (Spec.pix c) := by
  unfold Spec.pix
  exact (hc.mul ⟨256, c256_eq⟩).sub ⟨1 / 2, cHalf_eq⟩

/-- The floor of a real is a real. -/
theorem flo_real {x : EReal} (hx : IsReal x) : IsReal (Spec.flo x) := by
  obtain ⟨r, rfl⟩ := hx
  exact ⟨((⌊r⌋ : ℤ) : ℝ), rfl⟩

/-- A one-bit word read as a number is 0 or 1, in any case a real. -/
theorem bit_real (b : BitVec 1) : IsReal (FloatOps.uitofp (F := Ideal) .f32 b) := ⟨(b.toNat : ℝ), rfl⟩

/-- A corner of a real image is a real, whatever the cell. -/
theorem corner_real (M : Fin 256 → Fin 256 → EReal) (hM : ∀ r s, ∃ v : ℝ, M r s = (v : EReal))
    (xi yi : BitVec 32) : IsReal (Spec.corner M xi yi) := by
  unfold Spec.corner
  exact IsReal.mul (hM _ _) (bit_real _)

/-- The bilinear sample of a real image at a real point is a real. -/
theorem sample_real (M : Fin 256 → Fin 256 → EReal) (hM : ∀ r s, ∃ v : ℝ, M r s = (v : EReal)) (cx cy : ℝ) :
    ∃ v : ℝ, Cert.Spec.sample M (cx : EReal) (cy : EReal) = (v : EReal) := by
  have hx : IsReal (Spec.pix (cx : EReal)) := pix_real (IsReal.coe cx)
  have hy : IsReal (Spec.pix (cy : EReal)) := pix_real (IsReal.coe cy)
  have hwx : IsReal (Spec.pix (cx : EReal) - Spec.flo (Spec.pix (cx : EReal))) := hx.sub (flo_real hx)
  have hwy : IsReal (Spec.pix (cy : EReal) - Spec.flo (Spec.pix (cy : EReal))) := hy.sub (flo_real hy)
  have hc := corner_real M hM
  exact ((((((hc _ _).mul (c1_real.sub hwy)).mul (c1_real.sub hwx)).add
    (((hc _ _).mul (c1_real.sub hwy)).mul hwx)).add
    (((hc _ _).mul hwy).mul (c1_real.sub hwx))).add
    (((hc _ _).mul hwy).mul hwx))

end Cert.SampleReal
-- ==== Proof.HostStages.lean ====
/-
  The sampling before the launch, as functions of whole arrays. Both mask arrays are stacked along the instance
  axis (600 instances per batch element), every 256 × 256 image is flattened to 65536 row numbers, and the
  instances are moved last: a table of 65536 rows of 600 numbers. Each of the 12544 points has a pixel coordinate
  pair (c · 256 − 1/2 per axis), its integer cell (the floor) and fractional part; each of the four corners of the
  cell looks up ONE ROW of the table — at 256 · (clipped row) + (clipped column) — for all 600 instances at once,
  multiplies it by the in-image indicator of the corner and by the product of the two bilinear weights, and the
  four are added. The result, instances moved first again, is cut into the first 300 rows and the last 300.
  This module only names the stages; it states nothing about them.
-/
import proofs.«176196_j77713138253901_2_alg».proof.Proof.Gen.KernelIdeal
import Idealize.ShloMosaic.PureOps.Ideal

noncomputable section

namespace Cert.HostValue

open Idealize.ShloMosaic

/-! ## The stages of the sampling, as functions of whole arrays -/

section Stages
open Cert.KernelIdeal Facts₀

/-- One word at every point. -/
def splatI (w : BitVec 32) : IVec S2x12544 32 := broadcastInDim S2x12544 ![] bcast_S_S2x12544 (constantI S_ 32 w)
/-- One float literal at every point. -/
def splatF (w : BitVec 32) : FVec Ideal S2x12544 .f32 :=
  broadcastInDim S2x12544 ![] bcast_S_S2x12544 (constant (F := Ideal) S_ .f32 w)

/-- One column of the point coordinates, in pixel units: c · 256 − 1/2 at every point. -/
def pixA (off : Fin 3 → Nat) (hs : S2x12544x2.Slices off S2x12544x1) (a4 : FVec Ideal S2x12544x2 .f32) : FVec Ideal S2x12544 .f32 :=
  subf (mulf (shapeCast S2x12544 (extractStridedSlice S2x12544x1 off a4 hs) shapeCasts_S2x12544x1_S2x12544)
    (splatF 0x43800000#32)) (splatF 0x3F000000#32)
def xpixA (a4 : FVec Ideal S2x12544x2 .f32) : FVec Ideal S2x12544 .f32 := pixA ![0, 0, 0] slices_S2x12544x2_S2x12544x1_0_0_0 a4
def ypixA (a4 : FVec Ideal S2x12544x2 .f32) : FVec Ideal S2x12544 .f32 := pixA ![0, 0, 1] slices_S2x12544x2_S2x12544x1_0_0_1 a4

/-- The integer cell and the fractional part of a pixel coordinate. -/
def cellA (px : FVec Ideal S2x12544 .f32) : IVec S2x12544 32 := fptosi 32 (Host.floor px)
def fracA (px : FVec Ideal S2x12544 .f32) : FVec Ideal S2x12544 .f32 := subf px (Host.floor px)
/-- The next cell. -/
def incA (v : IVec S2x12544 32) : IVec S2x12544 32 := addi v (splatI 1#32)
/-- The in-image indicator of the cell (xi, yi), as a float. -/
def insideA (xi yi : IVec S2x12544 32) : FVec Ideal S2x12544 .f32 :=
  uitofp .f32 (andi (andi (andi (cmpi .sge xi (splatI 0#32)) (cmpi .slt xi (splatI 256#32))) (cmpi .sge yi (splatI 0#32)))
    (cmpi .slt yi (splatI 256#32)))
/-- A cell coordinate clipped into [0, 255]. -/
def clipA (v : IVec S2x12544 32) : IVec S2x12544 32 :=
  minsi (broadcastInDim S2x12544 ![] bcast_S_S2x12544 (id (constantI S_ 32 255#32)))
    (maxsi (broadcastInDim S2x12544 ![] bcast_S_S2x12544 (id (constantI S_ 32 0#32))) v)
/-- The flat row number 256 · (clipped row) + (clipped column). -/
def flatA (yi xi : IVec S2x12544 32) : IVec S2x12544 32 := addi (muli (clipA yi) (splatI 256#32)) (clipA xi)

/-- The row lookup's index wrap: a negative row number has 65536 added. -/
def wrapA (f : IVec S2x12544 32) : IVec S2x12544 32 := select (cmpi .slt f (splatI 0#32)) (addi f (splatI 65536#32)) f
/-- The row numbers as start indices of the gather. -/
def startsA (f : IVec S2x12544 32) : IVec S2x12544x1 32 :=
  broadcastInDim S2x12544x1 ![0, 1] bcast_S2x12544_S2x12544x1_0_1 (wrapA f)
/-- The bounds test 0 ≤ row ≤ 65535 on the start indices. -/
def inbA (v5 : IVec S2x12544x1 32) : IVec S2x12544x1 1 :=
  andi (cmpi .sge v5 (broadcastInDim S2x12544x1 ![] bcast_S_S2x12544x1 (constantI S_ 32 0#32)))
    (cmpi .sle v5 (broadcastInDim S2x12544x1 ![0, 1, 2] bcast_S1x1x1_S2x12544x1_0_1_2
      (broadcastInDim S1x1x1 ![2] bcast_S1_S1x1x1_2 (constantI S1 32 65535#32))))
/-- The row lookup: rows of the table `T` at the row numbers `f`, a fill value where the bounds test fails. -/
def takeA (T : FVec Ideal S2x65536x600 .f32) (f : IVec S2x12544 32) : FVec Ideal S2x12544x600 .f32 :=
  select (broadcastInDim S2x12544x600 ![0, 1] bcast_S2x12544_S2x12544x600_0_1
      (Host.reduce IntOp.andi (inbA (startsA f)) (constantI S_ 1 1#1) reducesTo_S2x12544x1_S2x12544_d2 h_S_))
    (Host.gather gather_S2x65536x600_S2x12544x1_S2x12544x600_2_1_0_0_1_2_11600 T (startsA f))
    (broadcastInDim S2x12544x600 ![] bcast_S_S2x12544x600 (constant (F := Ideal) S_ .f32 0x7FC00000#32))

/-- The table: both mask arrays stacked along the instance axis, each image flattened to a row number, instances last. -/
def tabA (a0 a1 : FVec Ideal S2x300x256x256 .f32) : FVec Ideal S2x65536x600 .f32 :=
  transpose S2x65536x600 [0, 2, 1]
    (shapeCast S2x600x65536
      (concatenate S2x600x256x256 1 [⟨S2x300x256x256, a0⟩, ⟨S2x300x256x256, a1⟩]
        concatenates_S2x300x256x256_S2x300x256x256_S2x600x256x256_d1)
      shapeCasts_S2x600x256x256_S2x600x65536)
    transposes_S2x600x65536_S2x65536x600_0_2_1

/-- A per-point number repeated over the 600 instances. -/
def spreadA (v : FVec Ideal S2x12544 .f32) : FVec Ideal S2x12544x600 .f32 :=
  broadcastInDim S2x12544x600 ![0, 1, 2] bcast_S2x12544x1_S2x12544x600_0_1_2
    (broadcastInDim S2x12544x1 ![0, 1] bcast_S2x12544_S2x12544x1_0_1 v)
/-- One corner: the table's row at the clipped cell, times the in-image indicator. -/
def cornerA (T : FVec Ideal S2x65536x600 .f32) (xi yi : IVec S2x12544 32) : FVec Ideal S2x12544x600 .f32 :=
  mulf (takeA T (flatA yi xi)) (spreadA (insideA xi yi))
/-- 1 − w. -/
def oneMinusA (w : FVec Ideal S2x12544 .f32) : FVec Ideal S2x12544 .f32 := subf (splatF 0x3F800000#32) w
/-- The four weighted corners, summed left to right. -/
def sampleA (T : FVec Ideal S2x65536x600 .f32) (xi yi : IVec S2x12544 32) (wx wy : FVec Ideal S2x12544 .f32) :
    FVec Ideal S2x12544x600 .f32 :=
  addf (addf (addf (mulf (cornerA T xi yi) (spreadA (mulf (oneMinusA wy) (oneMinusA wx))))
        (mulf (cornerA T (incA xi) yi) (spreadA (mulf (oneMinusA wy) wx))))
      (mulf (cornerA T xi (incA yi)) (spreadA (mulf wy (oneMinusA wx)))))
    (mulf (cornerA T (incA xi) (incA yi)) (spreadA (mulf wy wx)))
/-- All 600 sampled rows per batch element, instances first. -/
def sampledA (a0 a1 : FVec Ideal S2x300x256x256 .f32) (a4 : FVec Ideal S2x12544x2 .f32) : FVec Ideal S2x600x12544 .f32 :=
  transpose S2x600x12544 [0, 2, 1]
    (sampleA (tabA a0 a1) (cellA (xpixA a4)) (cellA (ypixA a4)) (fracA (xpixA a4)) (fracA (ypixA a4)))
    transposes_S2x12544x600_S2x600x12544_0_2_1
/-- Rows 0–299 (the first mask array's) and rows 300–599 (the second's). -/
def omA (a0 a1 : FVec Ideal S2x300x256x256 .f32) (a4 : FVec Ideal S2x12544x2 .f32) : FVec Ideal S2x300x12544 .f32 :=
  extractStridedSlice S2x300x12544 ![0, 0, 0] (sampledA a0 a1 a4) slices_S2x600x12544_S2x300x12544_0_0_0
def tmA (a0 a1 : FVec Ideal S2x300x256x256 .f32) (a4 : FVec Ideal S2x12544x2 .f32) : FVec Ideal S2x300x12544 .f32 :=
  extractStridedSlice S2x300x12544 ![0, 300, 0] (sampledA a0 a1 a4) slices_S2x600x12544_S2x300x12544_0_300_0

end Stages

end Cert.HostValue
-- ==== Proof.HostEval.lean ====
/-
  The host operations before the launch, composed. Every one of them writes its own result buffer once and reads
  buffers written before it, and none writes an argument; so what a buffer holds when the region is entered is
  its operation's function of what the operands' buffers hold, down to the argument arrays. Followed to the two
  buffers the launch's third and fourth windows stage, this gives the stage functions `omA` and `tmA` of the
  two mask arrays and the point coordinates. Inside the bodies of the functions the program calls (the clip and the row
  lookup) a value is carried between its tensor type and its buffer's type by a transport that is the identity.
-/
import proofs.«176196_j77713138253901_2_alg».proof.Proof.Gen.KernelIdeal.Frame.Runs
import proofs.«176196_j77713138253901_2_alg».proof.Proof.HostStages

set_option maxRecDepth 16384

noncomputable section

namespace Cert.HostValue

open Idealize.ShloMosaic Idealize.ShloMosaic.TcCoe Idealize.ShloMosaic.Tactic
open Cert.KernelIdeal

variable (m : (ℓ : Loc nD τ sig) → Buf (Elt Ideal) ℓ)

set_option maxHeartbeats 40000000 in
/-- The two staged arrays as the region finds them, as functions of the argument arrays as it finds them. -/
theorem V_om_tm (c : Dev nD) :
    ((Gen.V m c main_v141 : S2x300x12544.Idx → EReal) = omA (Gen.V m c main_arg0) (Gen.V m c main_arg1) (Gen.V m c main_arg4))
    ∧ ((Gen.V m c main_v142 : S2x300x12544.Idx → EReal) = tmA (Gen.V m c main_arg0) (Gen.V m c main_arg1) (Gen.V m c main_arg4)) := by
  dsimp only [Gen.V]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14, Gen.hostOps0_15, Gen.hostOps0_16, Gen.hostOps0_17, Gen.hostOps0_18, Gen.hostOps0_19, Gen.hostOps0_20, Gen.hostOps0_21, Gen.hostOps0_22, Gen.hostOps0_23, Gen.hostOps0_24, List.flatten_cons, List.flatten_nil, List.append_nil, List.cons_append, List.nil_append]
  simp only [StableHlo.TRef.nullary, StableHlo.TRef.unary, StableHlo.TRef.binary, StableHlo.TRef.ternary, StableHlo.TRef.toBuf, StableHlo.TRef.ofBuf, cast_eq]
  after_results_simp
  refine ⟨?_, ?_⟩
  · rfl
  · rfl

/-- The first sampled array, as the region finds it. -/
theorem V_om (c : Dev nD) :
    (Gen.V m c main_v141 : S2x300x12544.Idx → EReal) = omA (Gen.V m c main_arg0) (Gen.V m c main_arg1) (Gen.V m c main_arg4) :=
  (V_om_tm m c).1

/-- The second sampled array, as the region finds it. -/
theorem V_tm (c : Dev nD) :
    (Gen.V m c main_v142 : S2x300x12544.Idx → EReal) = tmA (Gen.V m c main_arg0) (Gen.V m c main_arg1) (Gen.V m c main_arg4) :=
  (V_om_tm m c).2

end Cert.HostValue
-- ==== Proof.HostInt.lean ====
/-
  Integer facts behind the row gather: a cell coordinate clipped into [0, 255] is a small non-negative
  word; the flat row number 256 · y + x of two clipped coordinates is computed without wrap-around, lies in
  [0, 65535], so it is never negative (no wrap of a negative index), always passes the bounds test, and is
  its own clamped start index; its quotient and remainder by 256 are the two clipped coordinates.
-/
import proofs.«176196_j77713138253901_2_alg».proof.Proof.Spec

namespace Cert.HostValue

open Idealize.ShloMosaic

/-- A 32-bit word whose signed value is non-negative has that value as its unsigned value. -/
theorem toNat_of_nonneg (x : BitVec 32) (h0 : 0 ≤ x.toInt) : (x.toNat : Int) = x.toInt := by
  have h := BitVec.toInt_eq_toNat_cond x
  have hlt := x.isLt
  split at h <;> omega

/-- A 32-bit word with a small unsigned value has it as its signed value. -/
theorem toInt_of_small (x : BitVec 32) (h : x.toNat < 2147483648) : x.toInt = (x.toNat : Int) := by
  have h' := BitVec.toInt_eq_toNat_cond x
  split at h' <;> omega

/-- The clipped coordinate lies in [0, 255]. -/
theorem clip255_bounds (v : BitVec 32) : 0 ≤ (Spec.clip255 v).toInt ∧ (Spec.clip255 v).toInt ≤ 255 := by
  have h0 : (0#32 : BitVec 32).toInt = 0 := by decide
  have h255 : (255#32 : BitVec 32).toInt = 255 := by decide
  unfold Spec.clip255 IntOp.minsi IntOp.maxsi
  simp only [BitVec.slt, decide_eq_true_eq]
  split_ifs <;> omega

/-- Read as a row or column number, a clipped coordinate is its own value. -/
theorem cellIx_clip255_val (v : BitVec 32) : (Spec.cellIx (Spec.clip255 v)).val = (Spec.clip255 v).toInt.toNat := by
  have h := clip255_bounds v
  show min (Spec.clip255 v).toInt.toNat 255 = _
  omega

/-- The flat row number of a cell: 256 · (clipped row) + (clipped column), in wrap-around arithmetic. -/
def flat (yi xi : BitVec 32) : BitVec 32 := IntOp.addi (IntOp.muli (Spec.clip255 yi) 256#32) (Spec.clip255 xi)

/-- No wrap-around happens: the unsigned value of the flat row number is 256 · row + column. -/
theorem flat_toNat (yi xi : BitVec 32) :
    (flat yi xi).toNat = 256 * (Spec.cellIx (Spec.clip255 yi)).val + (Spec.cellIx (Spec.clip255 xi)).val := by
  have hy := clip255_bounds yi
  have hx := clip255_bounds xi
  have ey := toNat_of_nonneg _ hy.1
  have ex := toNat_of_nonneg _ hx.1
  have h256 : (256#32 : BitVec 32).toNat = 256 := by decide
  rw [cellIx_clip255_val, cellIx_clip255_val]
  unfold flat IntOp.addi IntOp.muli
  rw [BitVec.toNat_add, BitVec.toNat_mul, h256]
  omega

theorem flat_toNat_le (yi xi : BitVec 32) : (flat yi xi).toNat ≤ 65535 := by
  rw [flat_toNat]
  have hy := (Spec.cellIx (Spec.clip255 yi)).isLt
  have hx := (Spec.cellIx (Spec.clip255 xi)).isLt
  omega

theorem flat_toInt (yi xi : BitVec 32) : (flat yi xi).toInt = ((flat yi xi).toNat : Int) :=
  toInt_of_small _ (by have := flat_toNat_le yi xi; omega)

/-- The flat row number is never negative: the index wrap for negative indices leaves it alone. -/
theorem flat_not_neg (yi xi : BitVec 32) : IntOp.cmpi .slt (flat yi xi) 0#32 = 0#1 := by
  have h0 : (0#32 : BitVec 32).toInt = 0 := by decide
  have h := flat_toInt yi xi
  unfold IntOp.cmpi
  simp only [BitVec.slt]
  rw [decide_eq_false (by omega)]
  rfl

/-- The flat row number always passes the bounds test 0 ≤ · ≤ 65535. -/
theorem flat_in_bounds (yi xi : BitVec 32) :
    IntOp.andi (IntOp.cmpi .sge (flat yi xi) 0#32) (IntOp.cmpi .sle (flat yi xi) 65535#32) = 1#1 := by
  have h0 : (0#32 : BitVec 32).toInt = 0 := by decide
  have h1 : (65535#32 : BitVec 32).toInt = 65535 := by decide
  have h := flat_toInt yi xi
  have hle := flat_toNat_le yi xi
  unfold IntOp.cmpi IntOp.andi
  simp only [BitVec.sle]
  rw [decide_eq_true (by omega), decide_eq_true (by omega)]
  rfl

/-- The clamped start index of the row gather is the flat row number itself. -/
theorem flat_start (yi xi : BitVec 32) :
    min (flat yi xi).toInt.toNat 65535 = 256 * (Spec.cellIx (Spec.clip255 yi)).val + (Spec.cellIx (Spec.clip255 xi)).val := by
  have h := flat_toInt yi xi
  have hle := flat_toNat_le yi xi
  rw [← flat_toNat]
  omega

end Cert.HostValue
-- ==== Proof.HostTake.lean ====
/-
  The row gather read at an index. The operand is a table of 65536 rows of 600 numbers per batch element,
  the start indices one row number per (batch element, point). Result element (b, p, n) is the operand at
  (b, r, n), where r is the start index at (b, p) read as a signed integer and clamped into [0, 65535]:
  the batch axis is carried through, the row axis is collapsed, the 600 columns are the offset axis.
  Around the gather sit an index wrap for negative indices and a bounds test whose failure would select a
  fill value; for a row number that is non-negative and in bounds at every (b, p) the wrap does nothing and
  the test is passed everywhere, so the whole function is the plain row lookup.
-/
import Idealize.ShloMosaic.PureOps.Ideal
import Idealize.ShloMosaic.Lib.ValueIdx

noncomputable section

namespace Cert.HostValue

open Idealize.ShloMosaic Idealize.ShloMosaic.ValueIdx

/-- The table's shape, the start indices' and the result's. -/
abbrev STab : Shape := ⟨3, ![2, 65536, 600]⟩
abbrev SIx : Shape := ⟨3, ![2, 12544, 1]⟩
abbrev SRes : Shape := ⟨3, ![2, 12544, 600]⟩
abbrev SPt : Shape := ⟨2, ![2, 12544]⟩

/-- The row gather's dimension numbers. -/
abbrev rowDims (wf : GatherDims.WF STab SIx SRes [2] [1] [0] [1] [0] 2 ![1, 1, 600]) : GatherDims STab SIx SRes where
  offsetDims := [2]
  collapsedSliceDims := [1]
  operandBatchingDims := [0]
  startIndicesBatchingDims := [0]
  startIndexMap := [1]
  indexVectorDim := 2
  sliceSizes := ![1, 1, 600]
  wf := wf

variable {α : Type}

section RowCoords
variable {w : Nat} (wf : GatherDims.WF STab SIx SRes [2] [1] [0] [1] [0] 2 ![1, 1, 600]) (idx : IVec SIx w)
  (b : Fin 2) (p : Fin 12544) (n : Fin 600)

/-- On the batch axis the operand coordinate is the result's batch coordinate. -/
theorem rows_coord0 :
    (rowDims wf).start (ix3 b p n) idx (0 : Fin 3) + (rowDims wf).batchCoord (ix3 b p n) (0 : Fin 3)
      + (rowDims wf).offCoord (ix3 b p n) (0 : Fin 3) = b.val := by
  rw [GatherDims.start_batching _ _ _ _ (List.mem_singleton.mpr rfl),
    GatherDims.offCoord_eq_zero _ _ _ (fun h => ((GatherDims.mem_sKept _ _).mp h).2 (List.mem_singleton.mpr rfl))]
  unfold GatherDims.batchCoord
  rw [dif_pos (show (0 : Fin 3) ∈ (rowDims wf).operandBatchingDims from List.mem_singleton.mpr rfl)]
  simp only [Nat.zero_add, Nat.add_zero]
  rfl

/-- On the row axis it is the start index at (b, p), read signed and clamped into [0, 65535]. -/
theorem rows_coord1 :
    (rowDims wf).start (ix3 b p n) idx (1 : Fin 3) + (rowDims wf).batchCoord (ix3 b p n) (1 : Fin 3)
      + (rowDims wf).offCoord (ix3 b p n) (1 : Fin 3) = min (idx (ix3 b p (0 : Fin 1))).toInt.toNat 65535 := by
  rw [GatherDims.batchCoord_eq_zero _ _ _ (show (1 : Fin 3) ∉ ([0] : List (Fin 3)) from by decide),
    GatherDims.offCoord_eq_zero _ _ _ (fun h => ((GatherDims.mem_sKept _ _).mp h).1 (List.mem_singleton.mpr rfl))]
  simp only [Nat.add_zero]
  unfold GatherDims.start
  rw [dif_pos (show (1 : Fin 3) ∈ (rowDims wf).startIndexMap from List.mem_singleton.mpr rfl)]
  have hsi : (rowDims wf).siIdx (ix3 b p n) ⟨List.idxOf (1 : Fin 3) (rowDims wf).startIndexMap,
      List.idxOf_lt_length_iff.2 (List.mem_singleton.mpr rfl)⟩ = ix3 b p (0 : Fin 1) := by
    funext c; refine Fin.ext ?_
    match c with
    | ⟨0, _⟩ => rfl
    | ⟨1, _⟩ => rfl
    | ⟨2, _⟩ => rfl
  rw [hsi]
  rfl

/-- On the column axis it is the result's column. -/
theorem rows_coord2 :
    (rowDims wf).start (ix3 b p n) idx (2 : Fin 3) + (rowDims wf).batchCoord (ix3 b p n) (2 : Fin 3)
      + (rowDims wf).offCoord (ix3 b p n) (2 : Fin 3) = n.val := by
  rw [GatherDims.batchCoord_eq_zero _ _ _ (show (2 : Fin 3) ∉ ([0] : List (Fin 3)) from by decide)]
  unfold GatherDims.start
  rw [dif_neg (show (2 : Fin 3) ∉ ([1] : List (Fin 3)) from by decide)]
  unfold GatherDims.offCoord
  rw [dif_pos (show (2 : Fin 3) ∈ (rowDims wf).sKept from
    (GatherDims.mem_sKept _ _).mpr ⟨show (2 : Fin 3) ∉ ([1] : List (Fin 3)) from by decide, show (2 : Fin 3) ∉ ([0] : List (Fin 3)) from by decide⟩)]
  simp only [Nat.zero_add]
  rfl

end RowCoords

/-- THE ROW GATHER READ AT (b, p, n): the table at batch element b, the clamped row number, column n. -/
theorem gather_rows_apply {w : Nat} (wf : GatherDims.WF STab SIx SRes [2] [1] [0] [1] [0] 2 ![1, 1, 600])
    (x : STab.Idx → α) (idx : IVec SIx w) (b : Fin 2) (p : Fin 12544) (n : Fin 600) :
    Host.gather (rowDims wf) x idx (ix3 b p n)
      = x (ix3 b (⟨min (idx (ix3 b p (0 : Fin 1))).toInt.toNat 65535, by omega⟩ : Fin 65536) n) := by
  unfold Host.gather
  congr 1
  funext a
  refine Fin.ext ?_
  show (rowDims wf).start (ix3 b p n) idx a + (rowDims wf).batchCoord (ix3 b p n) a + (rowDims wf).offCoord (ix3 b p n) a = _
  match a with
  | ⟨0, _⟩ => exact rows_coord0 wf idx b p n
  | ⟨1, _⟩ => exact rows_coord1 wf idx b p n
  | ⟨2, _⟩ => exact rows_coord2 wf idx b p n

/-- A left fold by `and` from 1 over words that are all 1 is 1. -/
theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_one f hf l

/-- A reduce by `and` from 1 of an array that is 1 everywhere is 1 everywhere. -/
theorem reduce_andi_one {s t u : Shape} {axes : List (Fin s.rank)} (x : s.Idx → BitVec 1) (init : u.Idx → BitVec 1)
    (h : s.ReducesTo axes t) (hu : 0 < u.numel) (hx : ∀ i, x i = 1#1) (hi : ∀ i, init i = 1#1) (j : t.Idx) :
    Host.reduce IntOp.andi x init h hu j = 1#1 := by
  unfold Host.reduce
  rw [hi]
  exact foldl_andi_one (fun n => x (s.rowMajor.symm n)) (fun n => hx _) _

end Cert.HostValue
-- ==== Proof.HostRead.lean ====
/-
  The stages of the sampling read at an index. The pointwise stages read through by definition. The pixel
  coordinate of point p is column 0 or 1 of the coordinate array at (b, p). Row r = 256 · y + x of the table,
  column n, is the stacked mask array at (b, n, y, x): the first array's instance n for n < 300, the second
  array's instance n − 300 otherwise. The row lookup at the flat row number of a clipped cell is the table's row at
  that number: the number is non-negative and at most 65535, so the index wrap leaves it alone, the bounds test
  passes at every point (the fill value is never selected), and the gather's clamp does nothing. One corner is the
  looked-up number times the in-image indicator; the weighted sum of the four corners is the bilinear sample of
  the table's column, re-associating each product (a corner times a product of two weights is the corner times
  the first weight times the second: multiplication of extended reals is associative).
-/
import proofs.«176196_j77713138253901_2_alg».proof.Proof.HostInt
import proofs.«176196_j77713138253901_2_alg».proof.Proof.HostTake
import proofs.«176196_j77713138253901_2_alg».proof.Proof.HostStages
import Idealize.ShloMosaic.Lib.Pipeline.Value

set_option maxRecDepth 16384

noncomputable section

namespace Cert.HostValue

open Idealize.ShloMosaic Idealize.ShloMosaic.ValueIdx

/-! ## The stages read at an index -/

section Read
open Cert.KernelIdeal Facts₀

theorem splatI_apply (w : BitVec 32) (j : S2x12544.Idx) : splatI w j = w := rfl
theorem splatF_apply (w : BitVec 32) (j : S2x12544.Idx) : splatF w j = Ideal.ofBits .f32 w := rfl

/-- A column of the point coordinates in pixel units, at a point. -/
theorem pixA_apply (k : Fin 2) (off : Fin 3 → Nat) (hs : S2x12544x2.Slices off S2x12544x1)
    (h0 : off 0 = 0) (h1 : off 1 = 0) (h2 : off 2 = k.val)
    (a4 : FVec Ideal S2x12544x2 .f32) (b : Fin 2) (p : Fin 12544) :
    pixA off hs a4 (ix2 b p) = Spec.pix (a4 (ix3 b p k)) := by
  unfold pixA Spec.pix Spec.c256 Spec.cHalf
  show shapeCast S2x12544 (extractStridedSlice S2x12544x1 off a4 hs) shapeCasts_S2x12544x1_S2x12544 (ix2 b p)
      * Ideal.ofBits .f32 0x43800000#32 - Ideal.ofBits .f32 0x3F000000#32 = _
  congr 2
  refine (shapeCast_apply _ _ (ix2 b p) (ix3 b p (0 : Fin 1)) ?_).trans ?_
  · rw [Shape.rowMajor_val_three, Shape.rowMajor_val_two]
    show (b.val * 12544 + p.val) * 1 + 0 = b.val * 12544 + p.val
    omega
  · refine extractStridedSlice_apply off a4 hs _ (ix3 b p k) fun a => ?_
    match a with
    | ⟨0, _⟩ => show b.val = off 0 + b.val; omega
    | ⟨1, _⟩ => show p.val = off 1 + p.val; omega
    | ⟨2, _⟩ => show k.val = off 2 + 0; omega

theorem xpixA_apply (a4 : FVec Ideal S2x12544x2 .f32) (b : Fin 2) (p : Fin 12544) :
    xpixA a4 (ix2 b p) = Spec.pix (a4 (ix3 b p 0)) := pixA_apply 0 _ _ rfl rfl rfl a4 b p
theorem ypixA_apply (a4 : FVec Ideal S2x12544x2 .f32) (b : Fin 2) (p : Fin 12544) :
    ypixA a4 (ix2 b p) = Spec.pix (a4 (ix3 b p 1)) := pixA_apply 1 _ _ rfl rfl rfl a4 b p

theorem cellA_apply (px : FVec Ideal S2x12544 .f32) (j : S2x12544.Idx) : cellA px j = Spec.cell (px j) := rfl
theorem fracA_apply (px : FVec Ideal S2x12544 .f32) (j : S2x12544.Idx) : fracA px j = px j - Spec.flo (px j) := rfl
theorem incA_apply (v : IVec S2x12544 32) (j : S2x12544.Idx) : incA v j = IntOp.addi (v j) 1#32 := rfl
theorem insideA_apply (xi yi : IVec S2x12544 32) (j : S2x12544.Idx) :
    insideA xi yi j = FloatOps.uitofp (F := Ideal) .f32 (Spec.inside (xi j) (yi j)) := rfl
theorem flatA_apply (yi xi : IVec S2x12544 32) (j : S2x12544.Idx) : flatA yi xi j = flat (yi j) (xi j) := rfl
theorem oneMinusA_apply (w : FVec Ideal S2x12544 .f32) (j : S2x12544.Idx) : oneMinusA w j = Spec.c1 - w j := rfl

/-- A per-point number repeated over the instances reads the point's number. -/
theorem spreadA_apply (v : FVec Ideal S2x12544 .f32) (b : Fin 2) (p : Fin 12544) (n : Fin 600) :
    spreadA v (ix3 b p n) = v (ix2 b p) := by
  unfold spreadA
  refine (broadcastInDim_apply _ _ _ (ix3 b p n) (ix3 b p (0 : Fin 1)) fun a => ?_).trans ?_
  · match a with
    | ⟨0, _⟩ => rfl
    | ⟨1, _⟩ => rfl
    | ⟨2, _⟩ => rfl
  · refine broadcastInDim_apply _ _ _ (ix3 b p (0 : Fin 1)) (ix2 b p) fun a => ?_
    match a with
    | ⟨0, _⟩ => rfl
    | ⟨1, _⟩ => rfl

end Read

section Read2
open Cert.KernelIdeal Facts₀

/-- Row r = 256·y + x of the table, instance column q < 300: the first mask array's image q at (y, x). -/
theorem tabA_apply_lo (a0 a1 : FVec Ideal S2x300x256x256 .f32) (b : Fin 2) (y x : Fin 256) (r : Fin 65536)
    (hr : r.val = 256 * y.val + x.val) (q : Fin 300) :
    tabA a0 a1 (ix3 b r (⟨q.val, by omega⟩ : Fin 600)) = a0 (ix4 b q y x) := by
  unfold tabA
  refine (transpose_apply _ _ _ (ix3 b r (⟨q.val, by omega⟩ : Fin 600)) (ix3 b (⟨q.val, by omega⟩ : Fin 600) r) fun a => ?_).trans ?_
  · match a with
    | ⟨0, _⟩ => rfl
    | ⟨1, _⟩ => rfl
    | ⟨2, _⟩ => rfl
  refine (shapeCast_apply _ _ (ix3 b (⟨q.val, by omega⟩ : Fin 600) r) (ix4 b (⟨q.val, by omega⟩ : Fin 600) y x) ?_).trans ?_
  · rw [Shape.rowMajor_val_four, Shape.rowMajor_val_three]
    show ((b.val * 600 + q.val) * 256 + y.val) * 256 + x.val = (b.val * 600 + q.val) * 65536 + r.val
    omega
  · exact concatenate_pair_apply_left 1 a0 a1 _ (ix4 b (⟨q.val, by omega⟩ : Fin 600) y x) rfl (ix4 b q y x) (fun a => by
      match a with
      | ⟨0, _⟩ => rfl
      | ⟨1, _⟩ => rfl
      | ⟨2, _⟩ => rfl
      | ⟨3, _⟩ => rfl)

/-- Row r = 256·y + x of the table, instance column 300 + q: the second mask array's image q at (y, x). -/
theorem tabA_apply_hi (a0 a1 : FVec Ideal S2x300x256x256 .f32) (b : Fin 2) (y x : Fin 256) (r : Fin 65536)
    (hr : r.val = 256 * y.val + x.val) (q : Fin 300) :
    tabA a0 a1 (ix3 b r (⟨q.val + 300, by omega⟩ : Fin 600)) = a1 (ix4 b q y x) := by
  unfold tabA
  refine (transpose_apply _ _ _ (ix3 b r (⟨q.val + 300, by omega⟩ : Fin 600)) (ix3 b (⟨q.val + 300, by omega⟩ : Fin 600) r) fun a => ?_).trans ?_
  · match a with
    | ⟨0, _⟩ => rfl
    | ⟨1, _⟩ => rfl
    | ⟨2, _⟩ => rfl
  refine (shapeCast_apply _ _ (ix3 b (⟨q.val + 300, by omega⟩ : Fin 600) r) (ix4 b (⟨q.val + 300, by omega⟩ : Fin 600) y x) ?_).trans ?_
  · rw [Shape.rowMajor_val_four, Shape.rowMajor_val_three]
    show ((b.val * 600 + (q.val + 300)) * 256 + y.val) * 256 + x.val = (b.val * 600 + (q.val + 300)) * 65536 + r.val
    omega
  · exact concatenate_pair_apply_right 1 a0 a1 _ (ix4 b (⟨q.val + 300, by omega⟩ : Fin 600) y x) rfl rfl (ix4 b q y x) (fun a ha => by
      match a with
      | ⟨0, _⟩ => rfl
      | ⟨1, _⟩ => exact absurd rfl ha
      | ⟨2, _⟩ => rfl
      | ⟨3, _⟩ => rfl) rfl

/-- A flat row number is not wrapped. -/
theorem wrapA_flat (yi xi : IVec S2x12544 32) (j : S2x12544.Idx) : wrapA (flatA yi xi) j = flat (yi j) (xi j) := by
  show Scalar.select (IntOp.cmpi .slt (flat (yi j) (xi j)) 0#32) (IntOp.addi (flat (yi j) (xi j)) 65536#32) (flat (yi j) (xi j)) = _
  rw [flat_not_neg, select_zero]

/-- The start index at a point is the flat row number of its cell. -/
theorem startsA_flat (yi xi : IVec S2x12544 32) (b : Fin 2) (p : Fin 12544) (z : Fin 1) :
    startsA (flatA yi xi) (ix3 b p z) = flat (yi (ix2 b p)) (xi (ix2 b p)) := by
  unfold startsA
  refine (broadcastInDim_apply _ _ _ (ix3 b p z) (ix2 b p) fun a => ?_).trans (wrapA_flat yi xi _)
  match a with
  | ⟨0, _⟩ => rfl
  | ⟨1, _⟩ => rfl

/-- Every start index passes the bounds test. -/
theorem inbA_flat (yi xi : IVec S2x12544 32) (i : S2x12544x1.Idx) : inbA (startsA (flatA yi xi)) i = 1#1 := by
  obtain ⟨b, p, z, rfl⟩ : ∃ (b : Fin 2) (p : Fin 12544) (z : Fin 1), i = ix3 b p z := ⟨i 0, i 1, i 2, eq_ix3 i⟩
  show IntOp.andi (IntOp.cmpi .sge (startsA (flatA yi xi) (ix3 b p z)) 0#32)
    (IntOp.cmpi .sle (startsA (flatA yi xi) (ix3 b p z)) 65535#32) = 1#1
  rw [startsA_flat]
  exact flat_in_bounds _ _

/-- THE ROW LOOKUP at the flat row numbers of cells, read at (b, p, n): the table's row 256 · (clipped row) + (clipped
    column) of the point's cell, column n. -/
theorem takeA_apply (T : FVec Ideal S2x65536x600 .f32) (yi xi : IVec S2x12544 32) (b : Fin 2) (p : Fin 12544) (n : Fin 600) :
    takeA T (flatA yi xi) (ix3 b p n)
      = T (ix3 b (⟨256 * (Spec.cellIx (Spec.clip255 (yi (ix2 b p)))).val + (Spec.cellIx (Spec.clip255 (xi (ix2 b p)))).val, by
          have h1 := (Spec.cellIx (Spec.clip255 (yi (ix2 b p)))).isLt
          have h2 := (Spec.cellIx (Spec.clip255 (xi (ix2 b p)))).isLt
          omega⟩ : Fin 65536) n) := by
  unfold takeA
  rw [select_apply]
  have hc : broadcastInDim S2x12544x600 ![0, 1] bcast_S2x12544_S2x12544x600_0_1
      (Host.reduce IntOp.andi (inbA (startsA (flatA yi xi))) (constantI S_ 1 1#1) reducesTo_S2x12544x1_S2x12544_d2 h_S_)
      (ix3 b p n) = 1#1 := by
    refine (broadcastInDim_apply _ _ _ (ix3 b p n) (ix2 b p) fun a => ?_).trans ?_
    · match a with
      | ⟨0, _⟩ => rfl
      | ⟨1, _⟩ => rfl
    · exact reduce_andi_one _ _ _ _ (inbA_flat yi xi) (fun _ => rfl) _
  rw [hc, select_one]
  refine (gather_rows_apply gather_S2x65536x600_S2x12544x1_S2x12544x600_2_1_0_0_1_2_11600_wf T (startsA (flatA yi xi)) b p n).trans ?_
  exact congrArg (fun r => T (ix3 b r n)) (Fin.ext (by
    show min (startsA (flatA yi xi) (ix3 b p (0 : Fin 1))).toInt.toNat 65535 = _
    rw [startsA_flat]
    exact flat_start _ _))

/-- One corner at (b, p, n). -/
theorem cornerA_apply (T : FVec Ideal S2x65536x600 .f32) (xi yi : IVec S2x12544 32) (b : Fin 2) (p : Fin 12544) (n : Fin 600) :
    cornerA T xi yi (ix3 b p n)
      = T (ix3 b (⟨256 * (Spec.cellIx (Spec.clip255 (yi (ix2 b p)))).val + (Spec.cellIx (Spec.clip255 (xi (ix2 b p)))).val, by
          have h1 := (Spec.cellIx (Spec.clip255 (yi (ix2 b p)))).isLt
          have h2 := (Spec.cellIx (Spec.clip255 (xi (ix2 b p)))).isLt
          omega⟩ : Fin 65536) n)
        * FloatOps.uitofp (F := Ideal) .f32 (Spec.inside (xi (ix2 b p)) (yi (ix2 b p))) := by
  unfold cornerA
  show takeA T (flatA yi xi) (ix3 b p n) * spreadA (insideA xi yi) (ix3 b p n) = _
  rw [takeA_apply, spreadA_apply, insideA_apply]

/-- Column n of batch element b of a table, as an image: rows first. -/
abbrev imgOf (T : FVec Ideal S2x65536x600 .f32) (b : Fin 2) (n : Fin 600) : Fin 256 → Fin 256 → EReal :=
  fun r s => T (ix3 b (⟨256 * r.val + s.val, by omega⟩ : Fin 65536) n)

/-- THE SAMPLE at (b, p, n): the bilinear sample of the table's column n at the point's coordinates. -/
theorem sampleA_apply (T : FVec Ideal S2x65536x600 .f32) (a4 : FVec Ideal S2x12544x2 .f32) (b : Fin 2) (p : Fin 12544) (n : Fin 600) :
    sampleA T (cellA (xpixA a4)) (cellA (ypixA a4)) (fracA (xpixA a4)) (fracA (ypixA a4)) (ix3 b p n)
      = Spec.sample (imgOf T b n) (a4 (ix3 b p 0)) (a4 (ix3 b p 1)) := by
  unfold sampleA
  simp only [addf_apply, mulf_apply, cornerA_apply, spreadA_apply, oneMinusA_apply, incA_apply, cellA_apply, fracA_apply,
    xpixA_apply, ypixA_apply]
  unfold Spec.sample Spec.corner
  simp only [← mul_assoc]

end Read2

end Cert.HostValue
-- ==== Proof.HostSample.lean ====
/-
  The two sampled arrays read at an index. Cutting rows 0–299 (or 300–599) out of the instance-first result and
  undoing the transposition reads the four-corner sum at (b, p, q) (or (b, p, 300 + q)); the table's column q is
  the first mask array's image q, its column 300 + q the second's image q. So element (b, q, p) of either array
  is the bilinear sample of that image at point p's coordinates.
-/
import proofs.«176196_j77713138253901_2_alg».proof.Proof.HostRead

set_option maxRecDepth 16384

noncomputable section

namespace Cert.HostValue

open Idealize.ShloMosaic Idealize.ShloMosaic.ValueIdx

section Read3
open Cert.KernelIdeal Facts₀

attribute [local irreducible] tabA takeA cornerA sampleA

/-- Instance column q < 300 of the table, as an image, is the first mask array's image q. -/
theorem imgOf_tabA_lo (a0 a1 : FVec Ideal S2x300x256x256 .f32) (b : Fin 2) (q : Fin 300) :
    imgOf (tabA a0 a1) b (⟨q.val, by omega⟩ : Fin 600) = fun r s => a0 (ix4 b q r s) := by
  funext r s
  show tabA a0 a1 (ix3 b (⟨256 * r.val + s.val, by omega⟩ : Fin 65536) (⟨q.val, by omega⟩ : Fin 600)) = _
  exact tabA_apply_lo a0 a1 b r s (⟨256 * r.val + s.val, by omega⟩ : Fin 65536) rfl q

/-- Instance column 300 + q of the table, as an image, is the second mask array's image q. -/
theorem imgOf_tabA_hi (a0 a1 : FVec Ideal S2x300x256x256 .f32) (b : Fin 2) (q : Fin 300) :
    imgOf (tabA a0 a1) b (⟨q.val + 300, by omega⟩ : Fin 600) = fun r s => a1 (ix4 b q r s) := by
  funext r s
  show tabA a0 a1 (ix3 b (⟨256 * r.val + s.val, by omega⟩ : Fin 65536) (⟨q.val + 300, by omega⟩ : Fin 600)) = _
  exact tabA_apply_hi a0 a1 b r s (⟨256 * r.val + s.val, by omega⟩ : Fin 65536) rfl q

/-- THE FIRST SAMPLED ARRAY at (b, q, p): the bilinear sample of the first mask array's image q at point p. -/
theorem omA_apply (a0 a1 : FVec Ideal S2x300x256x256 .f32) (a4 : FVec Ideal S2x12544x2 .f32) (b : Fin 2) (q : Fin 300) (p : Fin 12544) :
    omA a0 a1 a4 (ix3 b q p) = Spec.sample (fun r s => a0 (ix4 b q r s)) (a4 (ix3 b p 0)) (a4 (ix3 b p 1)) := by
  unfold omA sampledA
  refine (extractStridedSlice_apply _ _ _ (ix3 b q p) (ix3 b (⟨q.val, by omega⟩ : Fin 600) p) fun a => ?_).trans ?_
  · match a with
    | ⟨0, _⟩ => show b.val = 0 + b.val; omega
    | ⟨1, _⟩ => show q.val = 0 + q.val; omega
    | ⟨2, _⟩ => show p.val = 0 + p.val; omega
  refine (transpose_apply _ _ _ (ix3 b (⟨q.val, by omega⟩ : Fin 600) p) (ix3 b p (⟨q.val, by omega⟩ : Fin 600)) fun a => ?_).trans ?_
  · match a with
    | ⟨0, _⟩ => rfl
    | ⟨1, _⟩ => rfl
    | ⟨2, _⟩ => rfl
  rw [sampleA_apply, imgOf_tabA_lo]

/-- THE SECOND SAMPLED ARRAY at (b, q, p): the bilinear sample of the second mask array's image q at point p. -/
theorem tmA_apply (a0 a1 : FVec Ideal S2x300x256x256 .f32) (a4 : FVec Ideal S2x12544x2 .f32) (b : Fin 2) (q : Fin 300) (p : Fin 12544) :
    tmA a0 a1 a4 (ix3 b q p) = Spec.sample (fun r s => a1 (ix4 b q r s)) (a4 (ix3 b p 0)) (a4 (ix3 b p 1)) := by
  unfold tmA sampledA
  refine (extractStridedSlice_apply _ _ _ (ix3 b q p) (ix3 b (⟨q.val + 300, by omega⟩ : Fin 600) p) fun a => ?_).trans ?_
  · match a with
    | ⟨0, _⟩ => show b.val = 0 + b.val; omega
    | ⟨1, _⟩ => show q.val + 300 = 300 + q.val; omega
    | ⟨2, _⟩ => show p.val = 0 + p.val; omega
  refine (transpose_apply _ _ _ (ix3 b (⟨q.val + 300, by omega⟩ : Fin 600) p) (ix3 b p (⟨q.val + 300, by omega⟩ : Fin 600)) fun a => ?_).trans ?_
  · match a with
    | ⟨0, _⟩ => rfl
    | ⟨1, _⟩ => rfl
    | ⟨2, _⟩ => rfl
  rw [sampleA_apply, imgOf_tabA_hi]

end Read3

end Cert.HostValue
-- ==== Proof.HostValue.lean ====
/-
  What the launch's third and fourth windows stage. When the region is entered, the buffer window 2 stages holds,
  at (b, q, p), the bilinear sample of the first mask array's image q of batch element b at point p's two
  coordinates; the buffer window 3 stages holds the same of the second mask array. Both follow from the host
  operations' composed value (the arrays as the region finds them are the stage functions of the argument
  arrays) read at an index.
-/
import proofs.«176196_j77713138253901_2_alg».proof.Proof.HostEval
import proofs.«176196_j77713138253901_2_alg».proof.Proof.HostSample

set_option maxRecDepth 16384

noncomputable section

namespace Cert.HostValue

open Idealize.ShloMosaic Idealize.ShloMosaic.TcCoe Idealize.ShloMosaic.ValueIdx

/-- The first sampled array, as the region finds it, at (b, q, p). -/
theorem om_apply (m : (ℓ : Loc Cert.KernelIdeal.nD Cert.KernelIdeal.τ Cert.KernelIdeal.sig) → Buf (Elt Ideal) ℓ)
    (c : Dev Cert.KernelIdeal.nD) (b : Fin 2) (q : Fin 300) (p : Fin 12544) :
    Cert.KernelIdeal.Gen.V m c Cert.KernelIdeal.main_v141 (ix3 b q p)
      = Spec.sample (fun r s => Cert.KernelIdeal.Gen.V m c Cert.KernelIdeal.main_arg0 (ix4 b q r s))
          (Cert.KernelIdeal.Gen.V m c Cert.KernelIdeal.main_arg4 (ix3 b p 0))
          (Cert.KernelIdeal.Gen.V m c Cert.KernelIdeal.main_arg4 (ix3 b p 1)) := by
  rw [V_om m c]
  exact omA_apply _ _ _ b q p

/-- The second sampled array, as the region finds it, at (b, t, p). -/
theorem tm_apply (m : (ℓ : Loc Cert.KernelIdeal.nD Cert.KernelIdeal.τ Cert.KernelIdeal.sig) → Buf (Elt Ideal) ℓ)
    (c : Dev Cert.KernelIdeal.nD) (b : Fin 2) (t : Fin 300) (p : Fin 12544) :
    Cert.KernelIdeal.Gen.V m c Cert.KernelIdeal.main_v142 (ix3 b t p)
      = Spec.sample (fun r s => Cert.KernelIdeal.Gen.V m c Cert.KernelIdeal.main_arg1 (ix4 b t r s))
          (Cert.KernelIdeal.Gen.V m c Cert.KernelIdeal.main_arg4 (ix3 b p 0))
          (Cert.KernelIdeal.Gen.V m c Cert.KernelIdeal.main_arg4 (ix3 b p 1)) := by
  rw [V_tm m c]
  exact tmA_apply _ _ _ b t p

/-- The same two facts with the buffers named as the launch names them: the arrays of its windows 2 and 3. -/
theorem om_apply_window (m : (ℓ : Loc Cert.KernelIdeal.nD Cert.KernelIdeal.τ Cert.KernelIdeal.sig) → Buf (Elt Ideal) ℓ)
    (c : Dev Cert.KernelIdeal.nD) (b : Fin 2) (q : Fin 300) (p : Fin 12544) :
    (Cert.KernelIdeal.Gen.V m c (Pipeline.arrRef Cert.KernelIdeal.spec0 2) : Cert.KernelIdeal.S2x300x12544.Idx → EReal) (ix3 b q p)
      = Spec.sample (fun r s => Cert.KernelIdeal.Gen.V m c Cert.KernelIdeal.main_arg0 (ix4 b q r s))
          (Cert.KernelIdeal.Gen.V m c Cert.KernelIdeal.main_arg4 (ix3 b p 0))
          (Cert.KernelIdeal.Gen.V m c Cert.KernelIdeal.main_arg4 (ix3 b p 1)) :=
  om_apply m c b q p

theorem tm_apply_window (m : (ℓ : Loc Cert.KernelIdeal.nD Cert.KernelIdeal.τ Cert.KernelIdeal.sig) → Buf (Elt Ideal) ℓ)
    (c : Dev Cert.KernelIdeal.nD) (b : Fin 2) (t : Fin 300) (p : Fin 12544) :
    (Cert.KernelIdeal.Gen.V m c (Pipeline.arrRef Cert.KernelIdeal.spec0 3) : Cert.KernelIdeal.S2x300x12544.Idx → EReal) (ix3 b t p)
      = Spec.sample (fun r s => Cert.KernelIdeal.Gen.V m c Cert.KernelIdeal.main_arg1 (ix4 b t r s))
          (Cert.KernelIdeal.Gen.V m c Cert.KernelIdeal.main_arg4 (ix3 b p 0))
          (Cert.KernelIdeal.Gen.V m c Cert.KernelIdeal.main_arg4 (ix3 b p 1)) :=
  tm_apply m c b t p

end Cert.HostValue
-- ==== Proof.Bridge.lean ====
/-
  The two programs end with the same array. Entry (b, q, t) of the reference's result is the cost, in the reference's
  arrangement, of the bilinear samples of prediction mask (b, q) and target mask (b, t) at the batch element's 12544
  points and of the two boxes; entry (b, q, t) of the kernel's result is the cost, in the kernel's arrangement, of row
  (b, q) and row (b, t) of the two arrays its host code samples — the same samples. Under the precondition every
  argument entry is a real number, so every sample is, and on real rows the two arrangements agree.
-/
import proofs.«176196_j77713138253901_2_alg».proof.Defs
import proofs.«176196_j77713138253901_2_alg».proof.Proof.Gen.KernelIdeal
import proofs.«176196_j77713138253901_2_alg».proof.Proof.Gen.ReferenceIdeal
import proofs.«176196_j77713138253901_2_alg».proof.Proof.Gen.Pre_finite_inputs
import proofs.«176196_j77713138253901_2_alg».proof.Proof.KArr
import proofs.«176196_j77713138253901_2_alg».proof.Proof.RefResult
import proofs.«176196_j77713138253901_2_alg».proof.Proof.MaskLaw
import proofs.«176196_j77713138253901_2_alg».proof.Proof.PreReal
import proofs.«176196_j77713138253901_2_alg».proof.Proof.SampleReal
import proofs.«176196_j77713138253901_2_alg».proof.Proof.HostValue

noncomputable section

namespace Cert.Bridge

open Idealize.ShloMosaic Idealize.ShloMosaic.TcCoe Idealize.SL.Sem Idealize.ShloMosaic.ValueIdx

/-- The kernel's result array, as a function of its argument arrays' launch contents, is the reference's last stage of
    arguments that agree with them. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hpre : Cert.Pre_finite_inputs.fn (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) = (fun _ => 1#1))
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    Cert.ReferenceIdeal.ReadP.val_main_v545 (F := Ideal)
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4))
      = Cert.KValue.Gout m c := by
  rw [h0, h1, h2, h3, h4]
  obtain ⟨r0, r1, r2, r3, r4⟩ := Cert.PreReal.real_of_pre _ _ _ _ _ hpre
  funext i
  obtain ⟨b, q, t, rfl⟩ : ∃ (b : Fin 2) (q t : Fin 300), i = ix3 b q t := ⟨i 0, i 1, i 2, eq_ix3 i⟩
  rw [Cert.RefValue.result_apply]
  show _ = Spec.costK (ι := Fin 12544)
    (fun p => Cert.KernelIdeal.Gen.V m c Cert.KernelIdeal.main_v141 (ix3 b q p)) (fun p => Cert.KernelIdeal.Gen.V m c Cert.KernelIdeal.main_v142 (ix3 b t p))
    (fun j => Cert.KernelIdeal.Gen.V m c Cert.KernelIdeal.main_arg2 (ix3 b q j)) (fun j => Cert.KernelIdeal.Gen.V m c Cert.KernelIdeal.main_arg3 (ix3 b t j))
  have eom : (fun p => Cert.KernelIdeal.Gen.V m c Cert.KernelIdeal.main_v141 (ix3 b q p)) = fun p => Spec.sample (fun r s => m ((c.tc : Thread Cert.KernelIdeal.nD Cert.KernelIdeal.τ).loc Cert.KernelIdeal.main_arg0) (ix4 b q r s))
      (m ((c.tc : Thread Cert.KernelIdeal.nD Cert.KernelIdeal.τ).loc Cert.KernelIdeal.main_arg4) (ix3 b p 0)) (m ((c.tc : Thread Cert.KernelIdeal.nD Cert.KernelIdeal.τ).loc Cert.KernelIdeal.main_arg4) (ix3 b p 1)) :=
    funext fun p => by
      rw [← Cert.KernelIdeal.Gen.V_main_arg0 m c, ← Cert.KernelIdeal.Gen.V_main_arg4 m c]
      exact Cert.HostValue.om_apply m c b q p
  have etm : (fun p => Cert.KernelIdeal.Gen.V m c Cert.KernelIdeal.main_v142 (ix3 b t p)) = fun p => Spec.sample (fun r s => m ((c.tc : Thread Cert.KernelIdeal.nD Cert.KernelIdeal.τ).loc Cert.KernelIdeal.main_arg1) (ix4 b t r s))
      (m ((c.tc : Thread Cert.KernelIdeal.nD Cert.KernelIdeal.τ).loc Cert.KernelIdeal.main_arg4) (ix3 b p 0)) (m ((c.tc : Thread Cert.KernelIdeal.nD Cert.KernelIdeal.τ).loc Cert.KernelIdeal.main_arg4) (ix3 b p 1)) :=
    funext fun p => by
      rw [← Cert.KernelIdeal.Gen.V_main_arg1 m c, ← Cert.KernelIdeal.Gen.V_main_arg4 m c]
      exact Cert.HostValue.tm_apply m c b t p
  rw [eom, etm, Cert.KernelIdeal.Gen.V_main_arg2 m c, Cert.KernelIdeal.Gen.V_main_arg3 m c]
  have hx : ∀ p : Fin 12544, ∃ v : ℝ, Spec.sample (fun r s => m ((c.tc : Thread Cert.KernelIdeal.nD Cert.KernelIdeal.τ).loc Cert.KernelIdeal.main_arg0) (ix4 b q r s))
      (m ((c.tc : Thread Cert.KernelIdeal.nD Cert.KernelIdeal.τ).loc Cert.KernelIdeal.main_arg4) (ix3 b p 0)) (m ((c.tc : Thread Cert.KernelIdeal.nD Cert.KernelIdeal.τ).loc Cert.KernelIdeal.main_arg4) (ix3 b p 1)) = (v : EReal) := fun p => by
    obtain ⟨cx, hcx⟩ := r4 (ix3 b p 0)
    obtain ⟨cy, hcy⟩ := r4 (ix3 b p 1)
    rw [hcx, hcy]
    exact Cert.SampleReal.sample_real _ (fun r s => r0 (ix4 b q r s)) cx cy
  have hy : ∀ p : Fin 12544, ∃ v : ℝ, Spec.sample (fun r s => m ((c.tc : Thread Cert.KernelIdeal.nD Cert.KernelIdeal.τ).loc Cert.KernelIdeal.main_arg1) (ix4 b t r s))
      (m ((c.tc : Thread Cert.KernelIdeal.nD Cert.KernelIdeal.τ).loc Cert.KernelIdeal.main_arg4) (ix3 b p 0)) (m ((c.tc : Thread Cert.KernelIdeal.nD Cert.KernelIdeal.τ).loc Cert.KernelIdeal.main_arg4) (ix3 b p 1)) = (v : EReal) := fun p => by
    obtain ⟨cx, hcx⟩ := r4 (ix3 b p 0)
    obtain ⟨cy, hcy⟩ := r4 (ix3 b p 1)
    rw [hcx, hcy]
    exact Cert.SampleReal.sample_real _ (fun r s => r1 (ix4 b t r s)) cx cy
  choose x hx' using hx
  choose y hy' using hy
  rw [funext hx', funext hy']
  exact (Cert.MaskLaw.costK_eq_costR x y _ _).symm

end Cert.Bridge

end
-- ==== Proof.lean ====
/-
  A matching-cost matrix between 300 predicted and 300 target instances per batch element — point-sampled binary
  cross-entropy and dice costs of their masks, L1 and generalised-IoU costs of their boxes — computed two ways. One
  program samples both mask arrays in a point-minor layout, then accumulates, tile by tile over the 12544 sampled points,
  the products x·y and σ(x)·y and the row sums of softplus(x), σ(x) and y, writing softplus(x) as x + softplus(−x) and
  σ(x) as exp(−softplus(−x)), and recovers the cross-entropy as (Σ softplus(x) − Σ x·y) / P; the other samples each
  mask array directly and contracts softplus(−x) with y and softplus(x) with 1 − y. On the extended reals the two agree
  wherever the sampled values are real numbers, which the precondition (every input finite) guarantees.

  The three frame claims: the two kernel programs by their frame certificates; the host reference by its run with the
  result dropped. The idealization rewrote nothing. The value claim: both runs end at one array (module Bridge), whose
  parts are: the kernel's region read into the cost of its staged arrays (KPayTile, KPieces, KAcc, KLast, KFinal,
  KWhole, KBlocks, KArr), its host code read into samples (Host*), the reference read into the cost of samples (Ref*),
  realness from the precondition (PreReal, SampleReal), the algebraic law between the two arrangements (MaskLaw), and the
  reference's run, stretch by stretch, ending at its last stage (RefOps, RefStep*, RefRunH).
-/
import proofs.«176196_j77713138253901_2_alg».proof.Defs
import proofs.«176196_j77713138253901_2_alg».proof.Proof.Gen.Kernel
import proofs.«176196_j77713138253901_2_alg».proof.Proof.Gen.Kernel.Frame
import proofs.«176196_j77713138253901_2_alg».proof.Proof.Gen.KernelIdeal
import proofs.«176196_j77713138253901_2_alg».proof.Proof.Gen.KernelIdeal.Frame
import proofs.«176196_j77713138253901_2_alg».proof.Proof.Gen.KernelIdeal.Value
import proofs.«176196_j77713138253901_2_alg».proof.Proof.Gen.ReferenceIdeal
import proofs.«176196_j77713138253901_2_alg».proof.Proof.Gen.Pre_finite_inputs
import proofs.«176196_j77713138253901_2_alg».proof.Proof.RefRunH
import proofs.«176196_j77713138253901_2_alg».proof.Proof.KArr
import proofs.«176196_j77713138253901_2_alg».proof.Proof.Bridge
import Idealize.ShloMosaic.Adequacy
import Idealize.ShloMosaic.Init

noncomputable section

namespace Cert.Proof

open Idealize.ShloMosaic Idealize.SL.Sem

/-- The word-level kernel program runs and leaves its arguments unchanged: its frame certificate. -/
theorem frame_k : Cert.frame_Kernel := fun m ρ _ => Cert.Kernel.Gen.frame m ρ

/-- So does its reading on the extended reals. -/
theorem frame_ki : Cert.frame_KernelIdeal := fun m ρ _ => Cert.KernelIdeal.Gen.frame m ρ

/-- The host reference runs and leaves its arguments unchanged: its run, the result dropped. -/
theorem frame_ri : Cert.frame_ReferenceIdeal := fun m ρ _ =>
  (θ_run Cert.ReferenceIdeal.defs _ _).mono (fun _ h c => (h c).2) (Cert.ReferenceIdeal.ValueH.run m ρ)

/-- The idealization rewrote no operation. -/
theorem preserves : Cert.preserves_Kernel_KernelIdeal := trivial

/-- From memories agreeing on the arguments, both programs end with the cost matrix of the kernel's staged arrays: the
    kernel's run reads it off its result array, and the reference's result term is that same array. -/
theorem algebraic : Cert.algebraic_KernelIdeal_ReferenceIdeal := by
  intro m ρ m' ρ' hpre hagree
  refine ⟨fun c => Cert.KValue.Gout m c, Cert.KValue.run m ρ, ?_⟩
  refine (θ_run Cert.ReferenceIdeal.defs _ _).mono (fun _ h c => ⟨(h c).1.trans ?_, (h c).2⟩)
    (Cert.ReferenceIdeal.ValueH.run m' ρ')
  exact Cert.Bridge.result_eq m m' c (hpre c) (hagree c).1 (hagree c).2.1 (hagree c).2.2.1 (hagree c).2.2.2.1 (hagree c).2.2.2.2

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
